-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_c)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_c) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v370) = v0 c
          ∧ r.2.mem ((c.tc : Thread Cert.ReferenceIdeal.nD Cert.ReferenceIdeal.τ).loc Cert.ReferenceIdeal.main_c_123) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x64 : Shape := ⟨3, ![32, 512, 64]⟩
abbrev S_ : Shape := ⟨0, ![]⟩

class Facts : Prop where
  bcast_S_S32x512x64 : S_.BroadcastsInDim S32x512x64 (![] : Fin 0 → Fin S32x512x64.rank)
  reducesTo_S32x512x64_S_d0_1_2 : S32x512x64.ReducesTo [0, 1, 2] S_
  h_S_ : 0 < S_.numel

variable [Facts]

def fn {F : FTy → Type} [FloatOps F] (main_arg0 : FVec F S32x512x64 .f32) : IVec S_ 1 :=
  let main_v0 : FVec F S32x512x64 .f32 := Host.absf main_arg0
  let main_cst : FVec F S_ .f32 := constant S_ .f32 0x7F800000#32
  let main_v1 : FVec F S32x512x64 .f32 := broadcastInDim S32x512x64 ![] bcast_S_S32x512x64 main_cst
  let main_v2 : IVec S32x512x64 1 := cmpf .olt main_v0 main_v1
  let main_c : IVec S_ 1 := constantI S_ 1 1#1
  let main_v3 : IVec S_ 1 := (fun x v => Host.reduce IntOp.andi x v reducesTo_S32x512x64_S_d0_1_2 h_S_) main_v2 main_c
  main_v3
-- ==== Kernel.lean ====
abbrev S32x512x64 : Shape := ⟨3, ![32, 512, 64]⟩
abbrev S64x64 : Shape := ⟨2, ![64, 64]⟩
abbrev S16384x64 : Shape := ⟨2, ![16384, 64]⟩
abbrev S16384x32x128 : Shape := ⟨3, ![16384, 32, 128]⟩
abbrev S256x64 : Shape := ⟨2, ![256, 64]⟩
abbrev S256x32x128 : Shape := ⟨3, ![256, 32, 128]⟩
abbrev S256x63 : Shape := ⟨2, ![256, 63]⟩
abbrev S256x1 : Shape := ⟨2, ![256, 1]⟩
abbrev S256x62 : Shape := ⟨2, ![256, 62]⟩
abbrev S256x2 : Shape := ⟨2, ![256, 2]⟩
abbrev S256x61 : Shape := ⟨2, ![256, 61]⟩
abbrev S256x3 : Shape := ⟨2, ![256, 3]⟩
abbrev S256x60 : Shape := ⟨2, ![256, 60]⟩
abbrev S256x4 : Shape := ⟨2, ![256, 4]⟩
abbrev S256x59 : Shape := ⟨2, ![256, 59]⟩
abbrev S256x5 : Shape := ⟨2, ![256, 5]⟩
abbrev S256x58 : Shape := ⟨2, ![256, 58]⟩
abbrev S256x6 : Shape := ⟨2, ![256, 6]⟩
abbrev S256x57 : Shape := ⟨2, ![256, 57]⟩
abbrev S256x7 : Shape := ⟨2, ![256, 7]⟩
abbrev S256x56 : Shape := ⟨2, ![256, 56]⟩
abbrev S256x8 : Shape := ⟨2, ![256, 8]⟩
abbrev S256x55 : Shape := ⟨2, ![256, 55]⟩
abbrev S256x9 : Shape := ⟨2, ![256, 9]⟩
abbrev S256x54 : Shape := ⟨2, ![256, 54]⟩
abbrev S256x10 : Shape := ⟨2, ![256, 10]⟩
abbrev S256x53 : Shape := ⟨2, ![256, 53]⟩
abbrev S256x11 : Shape := ⟨2, ![256, 11]⟩
abbrev S256x52 : Shape := ⟨2, ![256, 52]⟩
abbrev S256x12 : Shape := ⟨2, ![256, 12]⟩
abbrev S256x51 : Shape := ⟨2, ![256, 51]⟩
abbrev S256x13 : Shape := ⟨2, ![256, 13]⟩
abbrev S256x50 : Shape := ⟨2, ![256, 50]⟩
abbrev S256x14 : Shape := ⟨2, ![256, 14]⟩
abbrev S256x24 : Shape := ⟨2, ![256, 24]⟩
abbrev S256x23 : Shape := ⟨2, ![256, 23]⟩
abbrev S256x22 : Shape := ⟨2, ![256, 22]⟩
abbrev S256x21 : Shape := ⟨2, ![256, 21]⟩
abbrev S256x20 : Shape := ⟨2, ![256, 20]⟩
abbrev S256x19 : Shape := ⟨2, ![256, 19]⟩
abbrev S256x18 : Shape := ⟨2, ![256, 18]⟩
abbrev S256x17 : Shape := ⟨2, ![256, 17]⟩
abbrev S256x1x64 : Shape := ⟨3, ![256, 1, 64]⟩
abbrev S256x15x64 : Shape := ⟨3, ![256, 15, 64]⟩
abbrev S256x1x24 : Shape := ⟨3, ![256, 1, 24]⟩
abbrev S256x8x24 : Shape := ⟨3, ![256, 8, 24]⟩
abbrev S256x1x8 : Shape := ⟨3, ![256, 1, 8]⟩
abbrev S256x8x8 : Shape := ⟨3, ![256, 8, 8]⟩
abbrev S256x15x1 : Shape := ⟨3, ![256, 15, 1]⟩
abbrev S256x15 : Shape := ⟨2, ![256, 15]⟩
abbrev S256x49 : Shape := ⟨2, ![256, 49]⟩
abbrev S256x1x1 : Shape := ⟨3, ![256, 1, 1]⟩
abbrev S256x16 : Shape := ⟨2, ![256, 16]⟩
abbrev S256x47 : Shape := ⟨2, ![256, 47]⟩
abbrev S256x45 : Shape := ⟨2, ![256, 45]⟩
abbrev S256x43 : Shape := ⟨2, ![256, 43]⟩
abbrev S256x41 : Shape := ⟨2, ![256, 41]⟩
abbrev S256x39 : Shape := ⟨2, ![256, 39]⟩
abbrev S256x26 : Shape := ⟨2, ![256, 26]⟩
abbrev S256x37 : Shape := ⟨2, ![256, 37]⟩
abbrev S256x28 : Shape := ⟨2, ![256, 28]⟩
abbrev S256x35 : Shape := ⟨2, ![256, 35]⟩
abbrev S256x30 : Shape := ⟨2, ![256, 30]⟩
abbrev S256x33 : Shape := ⟨2, ![256, 33]⟩
abbrev S256x34 : Shape := ⟨2, ![256, 34]⟩
abbrev S256x29 : Shape := ⟨2, ![256, 29]⟩
abbrev S256x38 : Shape := ⟨2, ![256, 38]⟩
abbrev S256x25 : Shape := ⟨2, ![256, 25]⟩
abbrev S256x42 : Shape := ⟨2, ![256, 42]⟩
abbrev S256x46 : Shape := ⟨2, ![256, 46]⟩
abbrev S256x48 : Shape := ⟨2, ![256, 48]⟩
abbrev S256x128 : Shape := ⟨2, ![256, 128]⟩
abbrev S256x1x128 : Shape := ⟨3, ![256, 1, 128]⟩
abbrev S256x32 : Shape := ⟨2, ![256, 32]⟩
abbrev S256x31 : Shape := ⟨2, ![256, 31]⟩
abbrev S256x44 : Shape := ⟨2, ![256, 44]⟩
abbrev S256x36 : Shape := ⟨2, ![256, 36]⟩
abbrev S256x27 : Shape := ⟨2, ![256, 27]⟩
abbrev S256x40 : Shape := ⟨2, ![256, 40]⟩
abbrev S256x14x1 : Shape := ⟨3, ![256, 14, 1]⟩
abbrev S256x13x1 : Shape := ⟨3, ![256, 13, 1]⟩
abbrev S256x12x1 : Shape := ⟨3, ![256, 12, 1]⟩
abbrev S256x11x1 : Shape := ⟨3, ![256, 11, 1]⟩
abbrev S256x10x1 : Shape := ⟨3, ![256, 10, 1]⟩
abbrev S256x9x1 : Shape := ⟨3, ![256, 9, 1]⟩
abbrev S256x8x1 : Shape := ⟨3, ![256, 8, 1]⟩
abbrev S256x7x1 : Shape := ⟨3, ![256, 7, 1]⟩
abbrev S256x6x1 : Shape := ⟨3, ![256, 6, 1]⟩
abbrev S256x5x1 : Shape := ⟨3, ![256, 5, 1]⟩
abbrev S256x4x1 : Shape := ⟨3, ![256, 4, 1]⟩
abbrev S256x3x1 : Shape := ⟨3, ![256, 3, 1]⟩
abbrev S256x2x1 : Shape := ⟨3, ![256, 2, 1]⟩
abbrev S32x512x64x64 : Shape := ⟨4, ![32, 512, 64, 64]⟩

abbrev nBuf : Space → Nat
  | .hbm => 5
  | .vmem => 4
  | .smem => 0
  | _ => 0

abbrev bufTy : (tb : Table) → Fin (tcTables nBuf tb) → BufTy
  | .hbm, ⟨0, _⟩ => ⟨S32x512x64, .f32⟩
  | .hbm, ⟨1, _⟩ => ⟨S64x64, .i1⟩
  | .hbm, ⟨2, _⟩ => ⟨S16384x64, .f32⟩
  | .hbm, ⟨3, _⟩ => ⟨S16384x32x128, .f32⟩
  | .hbm, ⟨4, _⟩ => ⟨S32x512x64x64, .f32⟩
  | .local _ .vmem, ⟨0, _⟩ => ⟨S256x64, .f32⟩
  | .local _ .vmem, ⟨1, _⟩ => ⟨S256x64, .f32⟩
  | .local _ .vmem, ⟨2, _⟩ => ⟨S256x32x128, .f32⟩
  | .local _ .vmem, ⟨3, _⟩ => ⟨S256x32x128, .f32⟩
  | _, _ => ⟨S32x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x512x64_S16384x64 : S32x512x64.ShapeCasts S16384x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  slices_S256x64_o0_0_S256x63 : S256x64.Slices ![0, 0] S256x63
  slices_S256x64_o0_1_S256x63 : S256x64.Slices ![0, 1] S256x63
  concatenates_S256x63_S256x1_S256x64_d1 : Shape.Concatenates [S256x63, S256x1] S256x64 1
  slices_S256x63_o0_0_S256x62 : S256x63.Slices ![0, 0] S256x62
  slices_S256x63_o0_1_S256x62 : S256x63.Slices ![0, 1] S256x62
  concatenates_S256x62_S256x2_S256x64_d1 : Shape.Concatenates [S256x62, S256x2] S256x64 1
  slices_S256x62_o0_0_S256x61 : S256x62.Slices ![0, 0] S256x61
  slices_S256x62_o0_1_S256x61 : S256x62.Slices ![0, 1] S256x61
  concatenates_S256x61_S256x3_S256x64_d1 : Shape.Concatenates [S256x61, S256x3] S256x64 1
  slices_S256x61_o0_0_S256x60 : S256x61.Slices ![0, 0] S256x60
  slices_S256x61_o0_1_S256x60 : S256x61.Slices ![0, 1] S256x60
  concatenates_S256x60_S256x4_S256x64_d1 : Shape.Concatenates [S256x60, S256x4] S256x64 1
  slices_S256x60_o0_0_S256x59 : S256x60.Slices ![0, 0] S256x59
  slices_S256x60_o0_1_S256x59 : S256x60.Slices ![0, 1] S256x59
  concatenates_S256x59_S256x5_S256x64_d1 : Shape.Concatenates [S256x59, S256x5] S256x64 1
  slices_S256x59_o0_0_S256x58 : S256x59.Slices ![0, 0] S256x58
  slices_S256x59_o0_1_S256x58 : S256x59.Slices ![0, 1] S256x58
  concatenates_S256x58_S256x6_S256x64_d1 : Shape.Concatenates [S256x58, S256x6] S256x64 1
  slices_S256x58_o0_0_S256x57 : S256x58.Slices ![0, 0] S256x57
  slices_S256x58_o0_1_S256x57 : S256x58.Slices ![0, 1] S256x57
  concatenates_S256x57_S256x7_S256x64_d1 : Shape.Concatenates [S256x57, S256x7] S256x64 1
  slices_S256x57_o0_0_S256x56 : S256x57.Slices ![0, 0] S256x56
  slices_S256x57_o0_1_S256x56 : S256x57.Slices ![0, 1] S256x56
  concatenates_S256x56_S256x8_S256x64_d1 : Shape.Concatenates [S256x56, S256x8] S256x64 1
  slices_S256x56_o0_0_S256x55 : S256x56.Slices ![0, 0] S256x55
  slices_S256x56_o0_1_S256x55 : S256x56.Slices ![0, 1] S256x55
  concatenates_S256x55_S256x9_S256x64_d1 : Shape.Concatenates [S256x55, S256x9] S256x64 1
  slices_S256x55_o0_0_S256x54 : S256x55.Slices ![0, 0] S256x54
  slices_S256x55_o0_1_S256x54 : S256x55.Slices ![0, 1] S256x54
  concatenates_S256x54_S256x10_S256x64_d1 : Shape.Concatenates [S256x54, S256x10] S256x64 1
  slices_S256x54_o0_0_S256x53 : S256x54.Slices ![0, 0] S256x53
  slices_S256x54_o0_1_S256x53 : S256x54.Slices ![0, 1] S256x53
  concatenates_S256x53_S256x11_S256x64_d1 : Shape.Concatenates [S256x53, S256x11] S256x64 1
  slices_S256x53_o0_0_S256x52 : S256x53.Slices ![0, 0] S256x52
  slices_S256x53_o0_1_S256x52 : S256x53.Slices ![0, 1] S256x52
  concatenates_S256x52_S256x12_S256x64_d1 : Shape.Concatenates [S256x52, S256x12] S256x64 1
  slices_S256x52_o0_0_S256x51 : S256x52.Slices ![0, 0] S256x51
  slices_S256x52_o0_1_S256x51 : S256x52.Slices ![0, 1] S256x51
  concatenates_S256x51_S256x13_S256x64_d1 : Shape.Concatenates [S256x51, S256x13] S256x64 1
  slices_S256x51_o0_0_S256x50 : S256x51.Slices ![0, 0] S256x50
  slices_S256x51_o0_1_S256x50 : S256x51.Slices ![0, 1] S256x50
  concatenates_S256x50_S256x14_S256x64_d1 : Shape.Concatenates [S256x50, S256x14] S256x64 1
  slices_S256x50_o0_0_S256x1 : S256x50.Slices ![0, 0] S256x1
  slices_S256x50_o0_1_S256x1 : S256x50.Slices ![0, 1] S256x1
  slices_S256x50_o0_2_S256x1 : S256x50.Slices ![0, 2] S256x1
  slices_S256x50_o0_3_S256x1 : S256x50.Slices ![0, 3] S256x1
  slices_S256x50_o0_4_S256x1 : S256x50.Slices ![0, 4] S256x1
  slices_S256x50_o0_5_S256x1 : S256x50.Slices ![0, 5] S256x1
  slices_S256x50_o0_6_S256x1 : S256x50.Slices ![0, 6] S256x1
  slices_S256x50_o0_7_S256x1 : S256x50.Slices ![0, 7] S256x1
  slices_S256x50_o0_8_S256x1 : S256x50.Slices ![0, 8] S256x1
  slices_S256x50_o0_9_S256x1 : S256x50.Slices ![0, 9] S256x1
  slices_S256x50_o0_10_S256x1 : S256x50.Slices ![0, 10] S256x1
  slices_S256x50_o0_11_S256x1 : S256x50.Slices ![0, 11] S256x1
  slices_S256x50_o0_12_S256x1 : S256x50.Slices ![0, 12] S256x1
  slices_S256x50_o0_13_S256x1 : S256x50.Slices ![0, 13] S256x1
  slices_S256x50_o0_14_S256x1 : S256x50.Slices ![0, 14] S256x1
  slices_S256x50_o0_15_S256x1 : S256x50.Slices ![0, 15] S256x1
  slices_S256x50_o0_16_S256x1 : S256x50.Slices ![0, 16] S256x1
  slices_S256x50_o0_17_S256x1 : S256x50.Slices ![0, 17] S256x1
  slices_S256x50_o0_18_S256x1 : S256x50.Slices ![0, 18] S256x1
  slices_S256x50_o0_19_S256x1 : S256x50.Slices ![0, 19] S256x1
  slices_S256x50_o0_20_S256x1 : S256x50.Slices ![0, 20] S256x1
  slices_S256x50_o0_21_S256x1 : S256x50.Slices ![0, 21] S256x1
  slices_S256x50_o0_22_S256x1 : S256x50.Slices ![0, 22] S256x1
  slices_S256x50_o0_23_S256x1 : S256x50.Slices ![0, 23] S256x1
  slices_S256x50_o0_24_S256x1 : S256x50.Slices ![0, 24] S256x1
  slices_S256x50_o0_25_S256x1 : S256x50.Slices ![0, 25] S256x1
  slices_S256x50_o0_26_S256x1 : S256x50.Slices ![0, 26] S256x1
  slices_S256x50_o0_27_S256x1 : S256x50.Slices ![0, 27] S256x1
  slices_S256x50_o0_28_S256x1 : S256x50.Slices ![0, 28] S256x1
  slices_S256x50_o0_29_S256x1 : S256x50.Slices ![0, 29] S256x1
  slices_S256x50_o0_30_S256x1 : S256x50.Slices ![0, 30] S256x1
  slices_S256x50_o0_31_S256x1 : S256x50.Slices ![0, 31] S256x1
  slices_S256x50_o0_32_S256x1 : S256x50.Slices ![0, 32] S256x1
  slices_S256x50_o0_33_S256x1 : S256x50.Slices ![0, 33] S256x1
  slices_S256x50_o0_34_S256x1 : S256x50.Slices ![0, 34] S256x1
  slices_S256x50_o0_35_S256x1 : S256x50.Slices ![0, 35] S256x1
  slices_S256x50_o0_36_S256x1 : S256x50.Slices ![0, 36] S256x1
  slices_S256x50_o0_37_S256x1 : S256x50.Slices ![0, 37] S256x1
  slices_S256x50_o0_38_S256x1 : S256x50.Slices ![0, 38] S256x1
  slices_S256x50_o0_39_S256x1 : S256x50.Slices ![0, 39] S256x1
  slices_S256x50_o0_40_S256x1 : S256x50.Slices ![0, 40] S256x1
  slices_S256x50_o0_41_S256x1 : S256x50.Slices ![0, 41] S256x1
  slices_S256x50_o0_42_S256x1 : S256x50.Slices ![0, 42] S256x1
  slices_S256x50_o0_43_S256x1 : S256x50.Slices ![0, 43] S256x1
  slices_S256x50_o0_44_S256x1 : S256x50.Slices ![0, 44] S256x1
  slices_S256x50_o0_45_S256x1 : S256x50.Slices ![0, 45] S256x1
  slices_S256x50_o0_46_S256x1 : S256x50.Slices ![0, 46] S256x1
  slices_S256x50_o0_47_S256x1 : S256x50.Slices ![0, 47] S256x1
  slices_S256x50_o0_48_S256x1 : S256x50.Slices ![0, 48] S256x1
  concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x24_d1 : Shape.Concatenates [S256x1, S256x1, S256x1, S256x1, S256x1, S256x1, S256x1, S256x1, S256x1, S256x1, S256x1, S256x1, S256x1, S256x1, S256x1, S256x1, S256x1, S256x1, S256x1, S256x1, S256x1, S256x1, S256x1, S256x1] S256x24 1
  slices_S256x24_o0_0_S256x23 : S256x24.Slices ![0, 0] S256x23
  slices_S256x24_o0_1_S256x23 : S256x24.Slices ![0, 1] S256x23
  concatenates_S256x23_S256x1_S256x24_d1 : Shape.Concatenates [S256x23, S256x1] S256x24 1
  slices_S256x23_o0_0_S256x22 : S256x23.Slices ![0, 0] S256x22
  slices_S256x23_o0_1_S256x22 : S256x23.Slices ![0, 1] S256x22
  concatenates_S256x22_S256x2_S256x24_d1 : Shape.Concatenates [S256x22, S256x2] S256x24 1
  slices_S256x22_o0_0_S256x21 : S256x22.Slices ![0, 0] S256x21
  slices_S256x22_o0_1_S256x21 : S256x22.Slices ![0, 1] S256x21
  concatenates_S256x21_S256x3_S256x24_d1 : Shape.Concatenates [S256x21, S256x3] S256x24 1
  slices_S256x21_o0_0_S256x20 : S256x21.Slices ![0, 0] S256x20
  slices_S256x21_o0_1_S256x20 : S256x21.Slices ![0, 1] S256x20
  concatenates_S256x20_S256x4_S256x24_d1 : Shape.Concatenates [S256x20, S256x4] S256x24 1
  slices_S256x20_o0_0_S256x19 : S256x20.Slices ![0, 0] S256x19
  slices_S256x20_o0_1_S256x19 : S256x20.Slices ![0, 1] S256x19
  concatenates_S256x19_S256x5_S256x24_d1 : Shape.Concatenates [S256x19, S256x5] S256x24 1
  slices_S256x19_o0_0_S256x18 : S256x19.Slices ![0, 0] S256x18
  slices_S256x19_o0_1_S256x18 : S256x19.Slices ![0, 1] S256x18
  concatenates_S256x18_S256x6_S256x24_d1 : Shape.Concatenates [S256x18, S256x6] S256x24 1
  slices_S256x18_o0_0_S256x17 : S256x18.Slices ![0, 0] S256x17
  slices_S256x18_o0_1_S256x17 : S256x18.Slices ![0, 1] S256x17
  concatenates_S256x17_S256x7_S256x24_d1 : Shape.Concatenates [S256x17, S256x7] S256x24 1
  slices_S256x17_o0_0_S256x1 : S256x17.Slices ![0, 0] S256x1
  slices_S256x17_o0_1_S256x1 : S256x17.Slices ![0, 1] S256x1
  slices_S256x17_o0_2_S256x1 : S256x17.Slices ![0, 2] S256x1
  slices_S256x17_o0_3_S256x1 : S256x17.Slices ![0, 3] S256x1
  slices_S256x17_o0_4_S256x1 : S256x17.Slices ![0, 4] S256x1
  slices_S256x17_o0_5_S256x1 : S256x17.Slices ![0, 5] S256x1
  slices_S256x17_o0_6_S256x1 : S256x17.Slices ![0, 6] S256x1
  slices_S256x17_o0_7_S256x1 : S256x17.Slices ![0, 7] S256x1
  slices_S256x17_o0_8_S256x1 : S256x17.Slices ![0, 8] S256x1
  slices_S256x17_o0_9_S256x1 : S256x17.Slices ![0, 9] S256x1
  slices_S256x17_o0_10_S256x1 : S256x17.Slices ![0, 10] S256x1
  slices_S256x17_o0_11_S256x1 : S256x17.Slices ![0, 11] S256x1
  slices_S256x17_o0_12_S256x1 : S256x17.Slices ![0, 12] S256x1
  slices_S256x17_o0_13_S256x1 : S256x17.Slices ![0, 13] S256x1
  slices_S256x17_o0_14_S256x1 : S256x17.Slices ![0, 14] S256x1
  slices_S256x17_o0_15_S256x1 : S256x17.Slices ![0, 15] S256x1
  slices_S256x17_o0_16_S256x1 : S256x17.Slices ![0, 16] S256x1
  concatenates_S256x1_S256x1_S256x1_S256x1_S256x1_S256x1_S256x1_S256x1_S256x8_d1 : Shape.Concatenates [S256x1, S256x1, S256x1, S256x1, S256x1, S256x1, S256x1, S256x1] S256x8 1
  slices_S256x8_o0_0_S256x7 : S256x8.Slices ![0, 0] S256x7
  slices_S256x8_o0_1_S256x7 : S256x8.Slices ![0, 1] S256x7
  concatenates_S256x7_S256x1_S256x8_d1 : Shape.Concatenates [S256x7, S256x1] S256x8 1
  slices_S256x7_o0_0_S256x6 : S256x7.Slices ![0, 0] S256x6
  slices_S256x7_o0_1_S256x6 : S256x7.Slices ![0, 1] S256x6
  concatenates_S256x6_S256x2_S256x8_d1 : Shape.Concatenates [S256x6, S256x2] S256x8 1
  slices_S256x6_o0_0_S256x5 : S256x6.Slices ![0, 0] S256x5
  slices_S256x6_o0_1_S256x5 : S256x6.Slices ![0, 1] S256x5
  concatenates_S256x5_S256x3_S256x8_d1 : Shape.Concatenates [S256x5, S256x3] S256x8 1
  slices_S256x5_o0_0_S256x4 : S256x5.Slices ![0, 0] S256x4
  slices_S256x5_o0_1_S256x4 : S256x5.Slices ![0, 1] S256x4
  concatenates_S256x4_S256x4_S256x8_d1 : Shape.Concatenates [S256x4, S256x4] S256x8 1
  slices_S256x4_o0_0_S256x3 : S256x4.Slices ![0, 0] S256x3
  slices_S256x4_o0_1_S256x3 : S256x4.Slices ![0, 1] S256x3
  concatenates_S256x3_S256x5_S256x8_d1 : Shape.Concatenates [S256x3, S256x5] S256x8 1
  slices_S256x3_o0_0_S256x2 : S256x3.Slices ![0, 0] S256x2
  slices_S256x3_o0_1_S256x2 : S256x3.Slices ![0, 1] S256x2
  concatenates_S256x2_S256x6_S256x8_d1 : Shape.Concatenates [S256x2, S256x6] S256x8 1
  slices_S256x2_o0_0_S256x1 : S256x2.Slices ![0, 0] S256x1
  slices_S256x2_o0_1_S256x1 : S256x2.Slices ![0, 1] S256x1
  concatenates_S256x1_S256x7_S256x8_d1 : Shape.Concatenates [S256x1, S256x7] S256x8 1
  shapeCasts_S256x64_S256x1x64 : S256x64.ShapeCasts S256x1x64
  concatenates_S256x1x64_S256x1x64_S256x1x64_S256x1x64_S256x1x64_S256x1x64_S256x1x64_S256x1x64_S256x1x64_S256x1x64_S256x1x64_S256x1x64_S256x1x64_S256x1x64_S256x1x64_S256x15x64_d1 : Shape.Concatenates [S256x1x64, S256x1x64, S256x1x64, S256x1x64, S256x1x64, S256x1x64, S256x1x64, S256x1x64, S256x1x64, S256x1x64, S256x1x64, S256x1x64, S256x1x64, S256x1x64, S256x1x64] S256x15x64 1
  shapeCasts_S256x24_S256x1x24 : S256x24.ShapeCasts S256x1x24
  concatenates_S256x1x24_S256x1x24_S256x1x24_S256x1x24_S256x1x24_S256x1x24_S256x1x24_S256x1x24_S256x8x24_d1 : Shape.Concatenates [S256x1x24, S256x1x24, S256x1x24, S256x1x24, S256x1x24, S256x1x24, S256x1x24, S256x1x24] S256x8x24 1
  shapeCasts_S256x8_S256x1x8 : S256x8.ShapeCasts S256x1x8
  concatenates_S256x1x8_S256x1x8_S256x1x8_S256x1x8_S256x1x8_S256x1x8_S256x1x8_S256x1x8_S256x8x8_d1 : Shape.Concatenates [S256x1x8, S256x1x8, S256x1x8, S256x1x8, S256x1x8, S256x1x8, S256x1x8, S256x1x8] S256x8x8 1
  slices_S256x15x64_o0_0_0_S256x15x1 : S256x15x64.Slices ![0, 0, 0] S256x15x1
  shapeCasts_S256x15x1_S256x15 : S256x15x1.ShapeCasts S256x15
  concatenates_S256x15_S256x49_S256x64_d1 : Shape.Concatenates [S256x15, S256x49] S256x64 1
  slices_S256x8x24_o0_0_0_S256x1x1 : S256x8x24.Slices ![0, 0, 0] S256x1x1
  shapeCasts_S256x1x1_S256x1 : S256x1x1.ShapeCasts S256x1
  concatenates_S256x16_S256x1_S256x47_S256x64_d1 : Shape.Concatenates [S256x16, S256x1, S256x47] S256x64 1
  slices_S256x8x24_o0_1_0_S256x1x1 : S256x8x24.Slices ![0, 1, 0] S256x1x1
  concatenates_S256x18_S256x1_S256x45_S256x64_d1 : Shape.Concatenates [S256x18, S256x1, S256x45] S256x64 1
  slices_S256x8x24_o0_2_0_S256x1x1 : S256x8x24.Slices ![0, 2, 0] S256x1x1
  concatenates_S256x20_S256x1_S256x43_S256x64_d1 : Shape.Concatenates [S256x20, S256x1, S256x43] S256x64 1
  slices_S256x8x24_o0_3_0_S256x1x1 : S256x8x24.Slices ![0, 3, 0] S256x1x1
  concatenates_S256x22_S256x1_S256x41_S256x64_d1 : Shape.Concatenates [S256x22, S256x1, S256x41] S256x64 1
  slices_S256x8x24_o0_4_0_S256x1x1 : S256x8x24.Slices ![0, 4, 0] S256x1x1
  concatenates_S256x24_S256x1_S256x39_S256x64_d1 : Shape.Concatenates [S256x24, S256x1, S256x39] S256x64 1
  slices_S256x8x24_o0_5_0_S256x1x1 : S256x8x24.Slices ![0, 5, 0] S256x1x1
  concatenates_S256x26_S256x1_S256x37_S256x64_d1 : Shape.Concatenates [S256x26, S256x1, S256x37] S256x64 1
  slices_S256x8x24_o0_6_0_S256x1x1 : S256x8x24.Slices ![0, 6, 0] S256x1x1
  concatenates_S256x28_S256x1_S256x35_S256x64_d1 : Shape.Concatenates [S256x28, S256x1, S256x35] S256x64 1
  slices_S256x8x24_o0_7_0_S256x1x1 : S256x8x24.Slices ![0, 7, 0] S256x1x1
  concatenates_S256x30_S256x1_S256x33_S256x64_d1 : Shape.Concatenates [S256x30, S256x1, S256x33] S256x64 1
  slices_S256x8x8_o0_0_0_S256x1x1 : S256x8x8.Slices ![0, 0, 0] S256x1x1
  concatenates_S256x34_S256x1_S256x29_S256x64_d1 : Shape.Concatenates [S256x34, S256x1, S256x29] S256x64 1
  slices_S256x8x8_o0_1_0_S256x1x1 : S256x8x8.Slices ![0, 1, 0] S256x1x1
  concatenates_S256x38_S256x1_S256x25_S256x64_d1 : Shape.Concatenates [S256x38, S256x1, S256x25] S256x64 1
  slices_S256x8x8_o0_2_0_S256x1x1 : S256x8x8.Slices ![0, 2, 0] S256x1x1
  concatenates_S256x42_S256x1_S256x21_S256x64_d1 : Shape.Concatenates [S256x42, S256x1, S256x21] S256x64 1
  slices_S256x8x8_o0_3_0_S256x1x1 : S256x8x8.Slices ![0, 3, 0] S256x1x1
  concatenates_S256x46_S256x1_S256x17_S256x64_d1 : Shape.Concatenates [S256x46, S256x1, S256x17] S256x64 1
  slices_S256x8x8_o0_4_0_S256x1x1 : S256x8x8.Slices ![0, 4, 0] S256x1x1
  concatenates_S256x50_S256x1_S256x13_S256x64_d1 : Shape.Concatenates [S256x50, S256x1, S256x13] S256x64 1
  slices_S256x8x8_o0_5_0_S256x1x1 : S256x8x8.Slices ![0, 5, 0] S256x1x1
  concatenates_S256x54_S256x1_S256x9_S256x64_d1 : Shape.Concatenates [S256x54, S256x1, S256x9] S256x64 1
  slices_S256x8x8_o0_6_0_S256x1x1 : S256x8x8.Slices ![0, 6, 0] S256x1x1
  concatenates_S256x58_S256x1_S256x5_S256x64_d1 : Shape.Concatenates [S256x58, S256x1, S256x5] S256x64 1
  slices_S256x8x8_o0_7_0_S256x1x1 : S256x8x8.Slices ![0, 7, 0] S256x1x1
  concatenates_S256x62_S256x1_S256x1_S256x64_d1 : Shape.Concatenates [S256x62, S256x1, S256x1] S256x64 1
  slices_S256x15x64_o0_0_1_S256x15x1 : S256x15x64.Slices ![0, 0, 1] S256x15x1
  concatenates_S256x1_S256x15_S256x48_S256x64_d1 : Shape.Concatenates [S256x1, S256x15, S256x48] S256x64 1
  concatenates_S256x64_S256x64_S256x128_d1 : Shape.Concatenates [S256x64, S256x64] S256x128 1
  inb_S256x32x128_S256x1x128_0_0_0 : ∀ a, (![0, 0, 0] : Fin 3 → Nat) a + S256x1x128.size a ≤ S256x32x128.size a
  h_S256x1x128 : 0 < S256x1x128.numel
  shapeCasts_S256x1x128_S256x128 : S256x1x128.ShapeCasts S256x128
  shapeCasts_S256x128_S256x1x128 : S256x128.ShapeCasts S256x1x128
  slices_S256x15x64_o0_0_2_S256x15x1 : S256x15x64.Slices ![0, 0, 2] S256x15x1
  concatenates_S256x2_S256x15_S256x47_S256x64_d1 : Shape.Concatenates [S256x2, S256x15, S256x47] S256x64 1
  slices_S256x8x24_o0_0_1_S256x1x1 : S256x8x24.Slices ![0, 0, 1] S256x1x1
  slices_S256x8x24_o0_1_1_S256x1x1 : S256x8x24.Slices ![0, 1, 1] S256x1x1
  slices_S256x8x24_o0_2_1_S256x1x1 : S256x8x24.Slices ![0, 2, 1] S256x1x1
  slices_S256x8x24_o0_3_1_S256x1x1 : S256x8x24.Slices ![0, 3, 1] S256x1x1
  slices_S256x8x24_o0_4_1_S256x1x1 : S256x8x24.Slices ![0, 4, 1] S256x1x1
  slices_S256x8x24_o0_5_1_S256x1x1 : S256x8x24.Slices ![0, 5, 1] S256x1x1
  slices_S256x8x24_o0_6_1_S256x1x1 : S256x8x24.Slices ![0, 6, 1] S256x1x1
  slices_S256x8x24_o0_7_1_S256x1x1 : S256x8x24.Slices ![0, 7, 1] S256x1x1
  concatenates_S256x32_S256x1_S256x31_S256x64_d1 : Shape.Concatenates [S256x32, S256x1, S256x31] S256x64 1
  slices_S256x15x64_o0_0_3_S256x15x1 : S256x15x64.Slices ![0, 0, 3] S256x15x1
  concatenates_S256x3_S256x15_S256x46_S256x64_d1 : Shape.Concatenates [S256x3, S256x15, S256x46] S256x64 1
  inb_S256x32x128_S256x1x128_0_1_0 : ∀ a, (![0, 1, 0] : Fin 3 → Nat) a + S256x1x128.size a ≤ S256x32x128.size a
  slices_S256x15x64_o0_0_4_S256x15x1 : S256x15x64.Slices ![0, 0, 4] S256x15x1
  concatenates_S256x4_S256x15_S256x45_S256x64_d1 : Shape.Concatenates [S256x4, S256x15, S256x45] S256x64 1
  slices_S256x8x24_o0_0_2_S256x1x1 : S256x8x24.Slices ![0, 0, 2] S256x1x1
  slices_S256x8x24_o0_1_2_S256x1x1 : S256x8x24.Slices ![0, 1, 2] S256x1x1
  slices_S256x8x24_o0_2_2_S256x1x1 : S256x8x24.Slices ![0, 2, 2] S256x1x1
  slices_S256x8x24_o0_3_2_S256x1x1 : S256x8x24.Slices ![0, 3, 2] S256x1x1
  slices_S256x8x24_o0_4_2_S256x1x1 : S256x8x24.Slices ![0, 4, 2] S256x1x1
  slices_S256x8x24_o0_5_2_S256x1x1 : S256x8x24.Slices ![0, 5, 2] S256x1x1
  slices_S256x8x24_o0_6_2_S256x1x1 : S256x8x24.Slices ![0, 6, 2] S256x1x1
  slices_S256x8x24_o0_7_2_S256x1x1 : S256x8x24.Slices ![0, 7, 2] S256x1x1
  slices_S256x8x8_o0_0_1_S256x1x1 : S256x8x8.Slices ![0, 0, 1] S256x1x1
  slices_S256x8x8_o0_1_1_S256x1x1 : S256x8x8.Slices ![0, 1, 1] S256x1x1
  slices_S256x8x8_o0_2_1_S256x1x1 : S256x8x8.Slices ![0, 2, 1] S256x1x1
  slices_S256x8x8_o0_3_1_S256x1x1 : S256x8x8.Slices ![0, 3, 1] S256x1x1
  slices_S256x8x8_o0_4_1_S256x1x1 : S256x8x8.Slices ![0, 4, 1] S256x1x1
  slices_S256x8x8_o0_5_1_S256x1x1 : S256x8x8.Slices ![0, 5, 1] S256x1x1
  slices_S256x8x8_o0_6_1_S256x1x1 : S256x8x8.Slices ![0, 6, 1] S256x1x1
  slices_S256x15x64_o0_0_5_S256x15x1 : S256x15x64.Slices ![0, 0, 5] S256x15x1
  concatenates_S256x5_S256x15_S256x44_S256x64_d1 : Shape.Concatenates [S256x5, S256x15, S256x44] S256x64 1
  inb_S256x32x128_S256x1x128_0_2_0 : ∀ a, (![0, 2, 0] : Fin 3 → Nat) a + S256x1x128.size a ≤ S256x32x128.size a
  slices_S256x15x64_o0_0_6_S256x15x1 : S256x15x64.Slices ![0, 0, 6] S256x15x1
  concatenates_S256x6_S256x15_S256x43_S256x64_d1 : Shape.Concatenates [S256x6, S256x15, S256x43] S256x64 1
  slices_S256x8x24_o0_0_3_S256x1x1 : S256x8x24.Slices ![0, 0, 3] S256x1x1
  slices_S256x8x24_o0_1_3_S256x1x1 : S256x8x24.Slices ![0, 1, 3] S256x1x1
  slices_S256x8x24_o0_2_3_S256x1x1 : S256x8x24.Slices ![0, 2, 3] S256x1x1
  slices_S256x8x24_o0_3_3_S256x1x1 : S256x8x24.Slices ![0, 3, 3] S256x1x1
  slices_S256x8x24_o0_4_3_S256x1x1 : S256x8x24.Slices ![0, 4, 3] S256x1x1
  slices_S256x8x24_o0_5_3_S256x1x1 : S256x8x24.Slices ![0, 5, 3] S256x1x1
  slices_S256x8x24_o0_6_3_S256x1x1 : S256x8x24.Slices ![0, 6, 3] S256x1x1
  slices_S256x8x24_o0_7_3_S256x1x1 : S256x8x24.Slices ![0, 7, 3] S256x1x1
  concatenates_S256x36_S256x1_S256x27_S256x64_d1 : Shape.Concatenates [S256x36, S256x1, S256x27] S256x64 1
  slices_S256x15x64_o0_0_7_S256x15x1 : S256x15x64.Slices ![0, 0, 7] S256x15x1
  concatenates_S256x7_S256x15_S256x42_S256x64_d1 : Shape.Concatenates [S256x7, S256x15, S256x42] S256x64 1
  inb_S256x32x128_S256x1x128_0_3_0 : ∀ a, (![0, 3, 0] : Fin 3 → Nat) a + S256x1x128.size a ≤ S256x32x128.size a
  slices_S256x15x64_o0_0_8_S256x15x1 : S256x15x64.Slices ![0, 0, 8] S256x15x1
  concatenates_S256x8_S256x15_S256x41_S256x64_d1 : Shape.Concatenates [S256x8, S256x15, S256x41] S256x64 1
  slices_S256x8x24_o0_0_4_S256x1x1 : S256x8x24.Slices ![0, 0, 4] S256x1x1
  slices_S256x8x24_o0_1_4_S256x1x1 : S256x8x24.Slices ![0, 1, 4] S256x1x1
  slices_S256x8x24_o0_2_4_S256x1x1 : S256x8x24.Slices ![0, 2, 4] S256x1x1
  slices_S256x8x24_o0_3_4_S256x1x1 : S256x8x24.Slices ![0, 3, 4] S256x1x1
  slices_S256x8x24_o0_4_4_S256x1x1 : S256x8x24.Slices ![0, 4, 4] S256x1x1
  slices_S256x8x24_o0_5_4_S256x1x1 : S256x8x24.Slices ![0, 5, 4] S256x1x1
  slices_S256x8x24_o0_6_4_S256x1x1 : S256x8x24.Slices ![0, 6, 4] S256x1x1
  slices_S256x8x24_o0_7_4_S256x1x1 : S256x8x24.Slices ![0, 7, 4] S256x1x1
  slices_S256x8x8_o0_0_2_S256x1x1 : S256x8x8.Slices ![0, 0, 2] S256x1x1
  slices_S256x8x8_o0_1_2_S256x1x1 : S256x8x8.Slices ![0, 1, 2] S256x1x1
  slices_S256x8x8_o0_2_2_S256x1x1 : S256x8x8.Slices ![0, 2, 2] S256x1x1
  slices_S256x8x8_o0_3_2_S256x1x1 : S256x8x8.Slices ![0, 3, 2] S256x1x1
  slices_S256x8x8_o0_4_2_S256x1x1 : S256x8x8.Slices ![0, 4, 2] S256x1x1
  slices_S256x8x8_o0_5_2_S256x1x1 : S256x8x8.Slices ![0, 5, 2] S256x1x1
  slices_S256x15x64_o0_0_9_S256x15x1 : S256x15x64.Slices ![0, 0, 9] S256x15x1
  concatenates_S256x9_S256x15_S256x40_S256x64_d1 : Shape.Concatenates [S256x9, S256x15, S256x40] S256x64 1
  inb_S256x32x128_S256x1x128_0_4_0 : ∀ a, (![0, 4, 0] : Fin 3 → Nat) a + S256x1x128.size a ≤ S256x32x128.size a
  slices_S256x15x64_o0_0_10_S256x15x1 : S256x15x64.Slices ![0, 0, 10] S256x15x1
  concatenates_S256x10_S256x15_S256x39_S256x64_d1 : Shape.Concatenates [S256x10, S256x15, S256x39] S256x64 1
  slices_S256x8x24_o0_0_5_S256x1x1 : S256x8x24.Slices ![0, 0, 5] S256x1x1
  slices_S256x8x24_o0_1_5_S256x1x1 : S256x8x24.Slices ![0, 1, 5] S256x1x1
  slices_S256x8x24_o0_2_5_S256x1x1 : S256x8x24.Slices ![0, 2, 5] S256x1x1
  slices_S256x8x24_o0_3_5_S256x1x1 : S256x8x24.Slices ![0, 3, 5] S256x1x1
  slices_S256x8x24_o0_4_5_S256x1x1 : S256x8x24.Slices ![0, 4, 5] S256x1x1
  slices_S256x8x24_o0_5_5_S256x1x1 : S256x8x24.Slices ![0, 5, 5] S256x1x1
  slices_S256x8x24_o0_6_5_S256x1x1 : S256x8x24.Slices ![0, 6, 5] S256x1x1
  slices_S256x8x24_o0_7_5_S256x1x1 : S256x8x24.Slices ![0, 7, 5] S256x1x1
  concatenates_S256x40_S256x1_S256x23_S256x64_d1 : Shape.Concatenates [S256x40, S256x1, S256x23] S256x64 1
  slices_S256x15x64_o0_0_11_S256x15x1 : S256x15x64.Slices ![0, 0, 11] S256x15x1
  concatenates_S256x11_S256x15_S256x38_S256x64_d1 : Shape.Concatenates [S256x11, S256x15, S256x38] S256x64 1
  inb_S256x32x128_S256x1x128_0_5_0 : ∀ a, (![0, 5, 0] : Fin 3 → Nat) a + S256x1x128.size a ≤ S256x32x128.size a
  slices_S256x15x64_o0_0_12_S256x15x1 : S256x15x64.Slices ![0, 0, 12] S256x15x1
  concatenates_S256x12_S256x15_S256x37_S256x64_d1 : Shape.Concatenates [S256x12, S256x15, S256x37] S256x64 1
  slices_S256x8x24_o0_0_6_S256x1x1 : S256x8x24.Slices ![0, 0, 6] S256x1x1
  slices_S256x8x24_o0_1_6_S256x1x1 : S256x8x24.Slices ![0, 1, 6] S256x1x1
  slices_S256x8x24_o0_2_6_S256x1x1 : S256x8x24.Slices ![0, 2, 6] S256x1x1
  slices_S256x8x24_o0_3_6_S256x1x1 : S256x8x24.Slices ![0, 3, 6] S256x1x1
  slices_S256x8x24_o0_4_6_S256x1x1 : S256x8x24.Slices ![0, 4, 6] S256x1x1
  slices_S256x8x24_o0_5_6_S256x1x1 : S256x8x24.Slices ![0, 5, 6] S256x1x1
  slices_S256x8x24_o0_6_6_S256x1x1 : S256x8x24.Slices ![0, 6, 6] S256x1x1
  slices_S256x8x24_o0_7_6_S256x1x1 : S256x8x24.Slices ![0, 7, 6] S256x1x1
  slices_S256x8x8_o0_0_3_S256x1x1 : S256x8x8.Slices ![0, 0, 3] S256x1x1
  slices_S256x8x8_o0_1_3_S256x1x1 : S256x8x8.Slices ![0, 1, 3] S256x1x1
  slices_S256x8x8_o0_2_3_S256x1x1 : S256x8x8.Slices ![0, 2, 3] S256x1x1
  slices_S256x8x8_o0_3_3_S256x1x1 : S256x8x8.Slices ![0, 3, 3] S256x1x1
  slices_S256x8x8_o0_4_3_S256x1x1 : S256x8x8.Slices ![0, 4, 3] S256x1x1
  slices_S256x15x64_o0_0_13_S256x15x1 : S256x15x64.Slices ![0, 0, 13] S256x15x1
  concatenates_S256x13_S256x15_S256x36_S256x64_d1 : Shape.Concatenates [S256x13, S256x15, S256x36] S256x64 1
  inb_S256x32x128_S256x1x128_0_6_0 : ∀ a, (![0, 6, 0] : Fin 3 → Nat) a + S256x1x128.size a ≤ S256x32x128.size a
  slices_S256x15x64_o0_0_14_S256x15x1 : S256x15x64.Slices ![0, 0, 14] S256x15x1
  concatenates_S256x14_S256x15_S256x35_S256x64_d1 : Shape.Concatenates [S256x14, S256x15, S256x35] S256x64 1
  slices_S256x8x24_o0_0_7_S256x1x1 : S256x8x24.Slices ![0, 0, 7] S256x1x1
  slices_S256x8x24_o0_1_7_S256x1x1 : S256x8x24.Slices ![0, 1, 7] S256x1x1
  slices_S256x8x24_o0_2_7_S256x1x1 : S256x8x24.Slices ![0, 2, 7] S256x1x1
  slices_S256x8x24_o0_3_7_S256x1x1 : S256x8x24.Slices ![0, 3, 7] S256x1x1
  slices_S256x8x24_o0_4_7_S256x1x1 : S256x8x24.Slices ![0, 4, 7] S256x1x1
  slices_S256x8x24_o0_5_7_S256x1x1 : S256x8x24.Slices ![0, 5, 7] S256x1x1
  slices_S256x8x24_o0_6_7_S256x1x1 : S256x8x24.Slices ![0, 6, 7] S256x1x1
  slices_S256x8x24_o0_7_7_S256x1x1 : S256x8x24.Slices ![0, 7, 7] S256x1x1
  concatenates_S256x44_S256x1_S256x19_S256x64_d1 : Shape.Concatenates [S256x44, S256x1, S256x19] S256x64 1
  slices_S256x15x64_o0_0_15_S256x15x1 : S256x15x64.Slices ![0, 0, 15] S256x15x1
  concatenates_S256x15_S256x15_S256x34_S256x64_d1 : Shape.Concatenates [S256x15, S256x15, S256x34] S256x64 1
  inb_S256x32x128_S256x1x128_0_7_0 : ∀ a, (![0, 7, 0] : Fin 3 → Nat) a + S256x1x128.size a ≤ S256x32x128.size a
  slices_S256x15x64_o0_0_16_S256x15x1 : S256x15x64.Slices ![0, 0, 16] S256x15x1
  concatenates_S256x16_S256x15_S256x33_S256x64_d1 : Shape.Concatenates [S256x16, S256x15, S256x33] S256x64 1
  slices_S256x8x24_o0_0_8_S256x1x1 : S256x8x24.Slices ![0, 0, 8] S256x1x1
  slices_S256x8x24_o0_1_8_S256x1x1 : S256x8x24.Slices ![0, 1, 8] S256x1x1
  slices_S256x8x24_o0_2_8_S256x1x1 : S256x8x24.Slices ![0, 2, 8] S256x1x1
  slices_S256x8x24_o0_3_8_S256x1x1 : S256x8x24.Slices ![0, 3, 8] S256x1x1
  slices_S256x8x24_o0_4_8_S256x1x1 : S256x8x24.Slices ![0, 4, 8] S256x1x1
  slices_S256x8x24_o0_5_8_S256x1x1 : S256x8x24.Slices ![0, 5, 8] S256x1x1
  slices_S256x8x24_o0_6_8_S256x1x1 : S256x8x24.Slices ![0, 6, 8] S256x1x1
  slices_S256x8x24_o0_7_8_S256x1x1 : S256x8x24.Slices ![0, 7, 8] S256x1x1
  slices_S256x8x8_o0_0_4_S256x1x1 : S256x8x8.Slices ![0, 0, 4] S256x1x1
  slices_S256x8x8_o0_1_4_S256x1x1 : S256x8x8.Slices ![0, 1, 4] S256x1x1
  slices_S256x8x8_o0_2_4_S256x1x1 : S256x8x8.Slices ![0, 2, 4] S256x1x1
  slices_S256x8x8_o0_3_4_S256x1x1 : S256x8x8.Slices ![0, 3, 4] S256x1x1
  slices_S256x15x64_o0_0_17_S256x15x1 : S256x15x64.Slices ![0, 0, 17] S256x15x1
  concatenates_S256x17_S256x15_S256x32_S256x64_d1 : Shape.Concatenates [S256x17, S256x15, S256x32] S256x64 1
  inb_S256x32x128_S256x1x128_0_8_0 : ∀ a, (![0, 8, 0] : Fin 3 → Nat) a + S256x1x128.size a ≤ S256x32x128.size a
  slices_S256x15x64_o0_0_18_S256x15x1 : S256x15x64.Slices ![0, 0, 18] S256x15x1
  concatenates_S256x18_S256x15_S256x31_S256x64_d1 : Shape.Concatenates [S256x18, S256x15, S256x31] S256x64 1
  slices_S256x8x24_o0_0_9_S256x1x1 : S256x8x24.Slices ![0, 0, 9] S256x1x1
  slices_S256x8x24_o0_1_9_S256x1x1 : S256x8x24.Slices ![0, 1, 9] S256x1x1
  slices_S256x8x24_o0_2_9_S256x1x1 : S256x8x24.Slices ![0, 2, 9] S256x1x1
  slices_S256x8x24_o0_3_9_S256x1x1 : S256x8x24.Slices ![0, 3, 9] S256x1x1
  slices_S256x8x24_o0_4_9_S256x1x1 : S256x8x24.Slices ![0, 4, 9] S256x1x1
  slices_S256x8x24_o0_5_9_S256x1x1 : S256x8x24.Slices ![0, 5, 9] S256x1x1
  slices_S256x8x24_o0_6_9_S256x1x1 : S256x8x24.Slices ![0, 6, 9] S256x1x1
  slices_S256x8x24_o0_7_9_S256x1x1 : S256x8x24.Slices ![0, 7, 9] S256x1x1
  concatenates_S256x48_S256x1_S256x15_S256x64_d1 : Shape.Concatenates [S256x48, S256x1, S256x15] S256x64 1
  slices_S256x15x64_o0_0_19_S256x15x1 : S256x15x64.Slices ![0, 0, 19] S256x15x1
  concatenates_S256x19_S256x15_S256x30_S256x64_d1 : Shape.Concatenates [S256x19, S256x15, S256x30] S256x64 1
  inb_S256x32x128_S256x1x128_0_9_0 : ∀ a, (![0, 9, 0] : Fin 3 → Nat) a + S256x1x128.size a ≤ S256x32x128.size a
  slices_S256x15x64_o0_0_20_S256x15x1 : S256x15x64.Slices ![0, 0, 20] S256x15x1
  concatenates_S256x20_S256x15_S256x29_S256x64_d1 : Shape.Concatenates [S256x20, S256x15, S256x29] S256x64 1
  slices_S256x8x24_o0_0_10_S256x1x1 : S256x8x24.Slices ![0, 0, 10] S256x1x1
  slices_S256x8x24_o0_1_10_S256x1x1 : S256x8x24.Slices ![0, 1, 10] S256x1x1
  slices_S256x8x24_o0_2_10_S256x1x1 : S256x8x24.Slices ![0, 2, 10] S256x1x1
  slices_S256x8x24_o0_3_10_S256x1x1 : S256x8x24.Slices ![0, 3, 10] S256x1x1
  slices_S256x8x24_o0_4_10_S256x1x1 : S256x8x24.Slices ![0, 4, 10] S256x1x1
  slices_S256x8x24_o0_5_10_S256x1x1 : S256x8x24.Slices ![0, 5, 10] S256x1x1
  slices_S256x8x24_o0_6_10_S256x1x1 : S256x8x24.Slices ![0, 6, 10] S256x1x1
  slices_S256x8x24_o0_7_10_S256x1x1 : S256x8x24.Slices ![0, 7, 10] S256x1x1
  slices_S256x8x8_o0_0_5_S256x1x1 : S256x8x8.Slices ![0, 0, 5] S256x1x1
  slices_S256x8x8_o0_1_5_S256x1x1 : S256x8x8.Slices ![0, 1, 5] S256x1x1
  slices_S256x8x8_o0_2_5_S256x1x1 : S256x8x8.Slices ![0, 2, 5] S256x1x1
  slices_S256x15x64_o0_0_21_S256x15x1 : S256x15x64.Slices ![0, 0, 21] S256x15x1
  concatenates_S256x21_S256x15_S256x28_S256x64_d1 : Shape.Concatenates [S256x21, S256x15, S256x28] S256x64 1
  inb_S256x32x128_S256x1x128_0_10_0 : ∀ a, (![0, 10, 0] : Fin 3 → Nat) a + S256x1x128.size a ≤ S256x32x128.size a
  slices_S256x15x64_o0_0_22_S256x15x1 : S256x15x64.Slices ![0, 0, 22] S256x15x1
  concatenates_S256x22_S256x15_S256x27_S256x64_d1 : Shape.Concatenates [S256x22, S256x15, S256x27] S256x64 1
  slices_S256x8x24_o0_0_11_S256x1x1 : S256x8x24.Slices ![0, 0, 11] S256x1x1
  slices_S256x8x24_o0_1_11_S256x1x1 : S256x8x24.Slices ![0, 1, 11] S256x1x1
  slices_S256x8x24_o0_2_11_S256x1x1 : S256x8x24.Slices ![0, 2, 11] S256x1x1
  slices_S256x8x24_o0_3_11_S256x1x1 : S256x8x24.Slices ![0, 3, 11] S256x1x1
  slices_S256x8x24_o0_4_11_S256x1x1 : S256x8x24.Slices ![0, 4, 11] S256x1x1
  slices_S256x8x24_o0_5_11_S256x1x1 : S256x8x24.Slices ![0, 5, 11] S256x1x1
  slices_S256x8x24_o0_6_11_S256x1x1 : S256x8x24.Slices ![0, 6, 11] S256x1x1
  slices_S256x8x24_o0_7_11_S256x1x1 : S256x8x24.Slices ![0, 7, 11] S256x1x1
  concatenates_S256x52_S256x1_S256x11_S256x64_d1 : Shape.Concatenates [S256x52, S256x1, S256x11] S256x64 1
  slices_S256x15x64_o0_0_23_S256x15x1 : S256x15x64.Slices ![0, 0, 23] S256x15x1
  concatenates_S256x23_S256x15_S256x26_S256x64_d1 : Shape.Concatenates [S256x23, S256x15, S256x26] S256x64 1
  inb_S256x32x128_S256x1x128_0_11_0 : ∀ a, (![0, 11, 0] : Fin 3 → Nat) a + S256x1x128.size a ≤ S256x32x128.size a
  slices_S256x15x64_o0_0_24_S256x15x1 : S256x15x64.Slices ![0, 0, 24] S256x15x1
  concatenates_S256x24_S256x15_S256x25_S256x64_d1 : Shape.Concatenates [S256x24, S256x15, S256x25] S256x64 1
  slices_S256x8x24_o0_0_12_S256x1x1 : S256x8x24.Slices ![0, 0, 12] S256x1x1
  slices_S256x8x24_o0_1_12_S256x1x1 : S256x8x24.Slices ![0, 1, 12] S256x1x1
  slices_S256x8x24_o0_2_12_S256x1x1 : S256x8x24.Slices ![0, 2, 12] S256x1x1
  slices_S256x8x24_o0_3_12_S256x1x1 : S256x8x24.Slices ![0, 3, 12] S256x1x1
  slices_S256x8x24_o0_4_12_S256x1x1 : S256x8x24.Slices ![0, 4, 12] S256x1x1
  slices_S256x8x24_o0_5_12_S256x1x1 : S256x8x24.Slices ![0, 5, 12] S256x1x1
  slices_S256x8x24_o0_6_12_S256x1x1 : S256x8x24.Slices ![0, 6, 12] S256x1x1
  slices_S256x8x24_o0_7_12_S256x1x1 : S256x8x24.Slices ![0, 7, 12] S256x1x1
  slices_S256x8x8_o0_0_6_S256x1x1 : S256x8x8.Slices ![0, 0, 6] S256x1x1
  slices_S256x8x8_o0_1_6_S256x1x1 : S256x8x8.Slices ![0, 1, 6] S256x1x1
  slices_S256x15x64_o0_0_25_S256x15x1 : S256x15x64.Slices ![0, 0, 25] S256x15x1
  concatenates_S256x25_S256x15_S256x24_S256x64_d1 : Shape.Concatenates [S256x25, S256x15, S256x24] S256x64 1
  inb_S256x32x128_S256x1x128_0_12_0 : ∀ a, (![0, 12, 0] : Fin 3 → Nat) a + S256x1x128.size a ≤ S256x32x128.size a
  slices_S256x15x64_o0_0_26_S256x15x1 : S256x15x64.Slices ![0, 0, 26] S256x15x1
  concatenates_S256x26_S256x15_S256x23_S256x64_d1 : Shape.Concatenates [S256x26, S256x15, S256x23] S256x64 1
  slices_S256x8x24_o0_0_13_S256x1x1 : S256x8x24.Slices ![0, 0, 13] S256x1x1
  slices_S256x8x24_o0_1_13_S256x1x1 : S256x8x24.Slices ![0, 1, 13] S256x1x1
  slices_S256x8x24_o0_2_13_S256x1x1 : S256x8x24.Slices ![0, 2, 13] S256x1x1
  slices_S256x8x24_o0_3_13_S256x1x1 : S256x8x24.Slices ![0, 3, 13] S256x1x1
  slices_S256x8x24_o0_4_13_S256x1x1 : S256x8x24.Slices ![0, 4, 13] S256x1x1
  slices_S256x8x24_o0_5_13_S256x1x1 : S256x8x24.Slices ![0, 5, 13] S256x1x1
  slices_S256x8x24_o0_6_13_S256x1x1 : S256x8x24.Slices ![0, 6, 13] S256x1x1
  slices_S256x8x24_o0_7_13_S256x1x1 : S256x8x24.Slices ![0, 7, 13] S256x1x1
  concatenates_S256x56_S256x1_S256x7_S256x64_d1 : Shape.Concatenates [S256x56, S256x1, S256x7] S256x64 1
  slices_S256x15x64_o0_0_27_S256x15x1 : S256x15x64.Slices ![0, 0, 27] S256x15x1
  concatenates_S256x27_S256x15_S256x22_S256x64_d1 : Shape.Concatenates [S256x27, S256x15, S256x22] S256x64 1
  inb_S256x32x128_S256x1x128_0_13_0 : ∀ a, (![0, 13, 0] : Fin 3 → Nat) a + S256x1x128.size a ≤ S256x32x128.size a
  slices_S256x15x64_o0_0_28_S256x15x1 : S256x15x64.Slices ![0, 0, 28] S256x15x1
  concatenates_S256x28_S256x15_S256x21_S256x64_d1 : Shape.Concatenates [S256x28, S256x15, S256x21] S256x64 1
  slices_S256x8x24_o0_0_14_S256x1x1 : S256x8x24.Slices ![0, 0, 14] S256x1x1
  slices_S256x8x24_o0_1_14_S256x1x1 : S256x8x24.Slices ![0, 1, 14] S256x1x1
  slices_S256x8x24_o0_2_14_S256x1x1 : S256x8x24.Slices ![0, 2, 14] S256x1x1
  slices_S256x8x24_o0_3_14_S256x1x1 : S256x8x24.Slices ![0, 3, 14] S256x1x1
  slices_S256x8x24_o0_4_14_S256x1x1 : S256x8x24.Slices ![0, 4, 14] S256x1x1
  slices_S256x8x24_o0_5_14_S256x1x1 : S256x8x24.Slices ![0, 5, 14] S256x1x1
  slices_S256x8x24_o0_6_14_S256x1x1 : S256x8x24.Slices ![0, 6, 14] S256x1x1
  slices_S256x8x24_o0_7_14_S256x1x1 : S256x8x24.Slices ![0, 7, 14] S256x1x1
  slices_S256x8x8_o0_0_7_S256x1x1 : S256x8x8.Slices ![0, 0, 7] S256x1x1
  slices_S256x15x64_o0_0_29_S256x15x1 : S256x15x64.Slices ![0, 0, 29] S256x15x1
  concatenates_S256x29_S256x15_S256x20_S256x64_d1 : Shape.Concatenates [S256x29, S256x15, S256x20] S256x64 1
  inb_S256x32x128_S256x1x128_0_14_0 : ∀ a, (![0, 14, 0] : Fin 3 → Nat) a + S256x1x128.size a ≤ S256x32x128.size a
  slices_S256x15x64_o0_0_30_S256x15x1 : S256x15x64.Slices ![0, 0, 30] S256x15x1
  concatenates_S256x30_S256x15_S256x19_S256x64_d1 : Shape.Concatenates [S256x30, S256x15, S256x19] S256x64 1
  slices_S256x8x24_o0_0_15_S256x1x1 : S256x8x24.Slices ![0, 0, 15] S256x1x1
  slices_S256x8x24_o0_1_15_S256x1x1 : S256x8x24.Slices ![0, 1, 15] S256x1x1
  slices_S256x8x24_o0_2_15_S256x1x1 : S256x8x24.Slices ![0, 2, 15] S256x1x1
  slices_S256x8x24_o0_3_15_S256x1x1 : S256x8x24.Slices ![0, 3, 15] S256x1x1
  slices_S256x8x24_o0_4_15_S256x1x1 : S256x8x24.Slices ![0, 4, 15] S256x1x1
  slices_S256x8x24_o0_5_15_S256x1x1 : S256x8x24.Slices ![0, 5, 15] S256x1x1
  slices_S256x8x24_o0_6_15_S256x1x1 : S256x8x24.Slices ![0, 6, 15] S256x1x1
  slices_S256x8x24_o0_7_15_S256x1x1 : S256x8x24.Slices ![0, 7, 15] S256x1x1
  concatenates_S256x60_S256x1_S256x3_S256x64_d1 : Shape.Concatenates [S256x60, S256x1, S256x3] S256x64 1
  slices_S256x15x64_o0_0_31_S256x15x1 : S256x15x64.Slices ![0, 0, 31] S256x15x1
  concatenates_S256x31_S256x15_S256x18_S256x64_d1 : Shape.Concatenates [S256x31, S256x15, S256x18] S256x64 1
  inb_S256x32x128_S256x1x128_0_15_0 : ∀ a, (![0, 15, 0] : Fin 3 → Nat) a + S256x1x128.size a ≤ S256x32x128.size a
  slices_S256x15x64_o0_0_32_S256x15x1 : S256x15x64.Slices ![0, 0, 32] S256x15x1
  concatenates_S256x32_S256x15_S256x17_S256x64_d1 : Shape.Concatenates [S256x32, S256x15, S256x17] S256x64 1
  slices_S256x8x24_o0_0_16_S256x1x1 : S256x8x24.Slices ![0, 0, 16] S256x1x1
  slices_S256x8x24_o0_1_16_S256x1x1 : S256x8x24.Slices ![0, 1, 16] S256x1x1
  slices_S256x8x24_o0_2_16_S256x1x1 : S256x8x24.Slices ![0, 2, 16] S256x1x1
  slices_S256x8x24_o0_3_16_S256x1x1 : S256x8x24.Slices ![0, 3, 16] S256x1x1
  slices_S256x8x24_o0_4_16_S256x1x1 : S256x8x24.Slices ![0, 4, 16] S256x1x1
  slices_S256x8x24_o0_5_16_S256x1x1 : S256x8x24.Slices ![0, 5, 16] S256x1x1
  slices_S256x8x24_o0_6_16_S256x1x1 : S256x8x24.Slices ![0, 6, 16] S256x1x1
  slices_S256x8x24_o0_7_16_S256x1x1 : S256x8x24.Slices ![0, 7, 16] S256x1x1
  slices_S256x15x64_o0_0_33_S256x15x1 : S256x15x64.Slices ![0, 0, 33] S256x15x1
  concatenates_S256x33_S256x15_S256x16_S256x64_d1 : Shape.Concatenates [S256x33, S256x15, S256x16] S256x64 1
  inb_S256x32x128_S256x1x128_0_16_0 : ∀ a, (![0, 16, 0] : Fin 3 → Nat) a + S256x1x128.size a ≤ S256x32x128.size a
  slices_S256x15x64_o0_0_34_S256x15x1 : S256x15x64.Slices ![0, 0, 34] S256x15x1
  concatenates_S256x34_S256x15_S256x15_S256x64_d1 : Shape.Concatenates [S256x34, S256x15, S256x15] S256x64 1
  slices_S256x8x24_o0_0_17_S256x1x1 : S256x8x24.Slices ![0, 0, 17] S256x1x1
  slices_S256x8x24_o0_1_17_S256x1x1 : S256x8x24.Slices ![0, 1, 17] S256x1x1
  slices_S256x8x24_o0_2_17_S256x1x1 : S256x8x24.Slices ![0, 2, 17] S256x1x1
  slices_S256x8x24_o0_3_17_S256x1x1 : S256x8x24.Slices ![0, 3, 17] S256x1x1
  slices_S256x8x24_o0_4_17_S256x1x1 : S256x8x24.Slices ![0, 4, 17] S256x1x1
  slices_S256x8x24_o0_5_17_S256x1x1 : S256x8x24.Slices ![0, 5, 17] S256x1x1
  slices_S256x8x24_o0_6_17_S256x1x1 : S256x8x24.Slices ![0, 6, 17] S256x1x1
  slices_S256x15x64_o0_0_35_S256x15x1 : S256x15x64.Slices ![0, 0, 35] S256x15x1
  concatenates_S256x35_S256x15_S256x14_S256x64_d1 : Shape.Concatenates [S256x35, S256x15, S256x14] S256x64 1
  inb_S256x32x128_S256x1x128_0_17_0 : ∀ a, (![0, 17, 0] : Fin 3 → Nat) a + S256x1x128.size a ≤ S256x32x128.size a
  slices_S256x15x64_o0_0_36_S256x15x1 : S256x15x64.Slices ![0, 0, 36] S256x15x1
  concatenates_S256x36_S256x15_S256x13_S256x64_d1 : Shape.Concatenates [S256x36, S256x15, S256x13] S256x64 1
  slices_S256x8x24_o0_0_18_S256x1x1 : S256x8x24.Slices ![0, 0, 18] S256x1x1
  slices_S256x8x24_o0_1_18_S256x1x1 : S256x8x24.Slices ![0, 1, 18] S256x1x1
  slices_S256x8x24_o0_2_18_S256x1x1 : S256x8x24.Slices ![0, 2, 18] S256x1x1
  slices_S256x8x24_o0_3_18_S256x1x1 : S256x8x24.Slices ![0, 3, 18] S256x1x1
  slices_S256x8x24_o0_4_18_S256x1x1 : S256x8x24.Slices ![0, 4, 18] S256x1x1
  slices_S256x8x24_o0_5_18_S256x1x1 : S256x8x24.Slices ![0, 5, 18] S256x1x1
  slices_S256x15x64_o0_0_37_S256x15x1 : S256x15x64.Slices ![0, 0, 37] S256x15x1
  concatenates_S256x37_S256x15_S256x12_S256x64_d1 : Shape.Concatenates [S256x37, S256x15, S256x12] S256x64 1
  inb_S256x32x128_S256x1x128_0_18_0 : ∀ a, (![0, 18, 0] : Fin 3 → Nat) a + S256x1x128.size a ≤ S256x32x128.size a
  slices_S256x15x64_o0_0_38_S256x15x1 : S256x15x64.Slices ![0, 0, 38] S256x15x1
  concatenates_S256x38_S256x15_S256x11_S256x64_d1 : Shape.Concatenates [S256x38, S256x15, S256x11] S256x64 1
  slices_S256x8x24_o0_0_19_S256x1x1 : S256x8x24.Slices ![0, 0, 19] S256x1x1
  slices_S256x8x24_o0_1_19_S256x1x1 : S256x8x24.Slices ![0, 1, 19] S256x1x1
  slices_S256x8x24_o0_2_19_S256x1x1 : S256x8x24.Slices ![0, 2, 19] S256x1x1
  slices_S256x8x24_o0_3_19_S256x1x1 : S256x8x24.Slices ![0, 3, 19] S256x1x1
  slices_S256x8x24_o0_4_19_S256x1x1 : S256x8x24.Slices ![0, 4, 19] S256x1x1
  slices_S256x15x64_o0_0_39_S256x15x1 : S256x15x64.Slices ![0, 0, 39] S256x15x1
  concatenates_S256x39_S256x15_S256x10_S256x64_d1 : Shape.Concatenates [S256x39, S256x15, S256x10] S256x64 1
  inb_S256x32x128_S256x1x128_0_19_0 : ∀ a, (![0, 19, 0] : Fin 3 → Nat) a + S256x1x128.size a ≤ S256x32x128.size a
  slices_S256x15x64_o0_0_40_S256x15x1 : S256x15x64.Slices ![0, 0, 40] S256x15x1
  concatenates_S256x40_S256x15_S256x9_S256x64_d1 : Shape.Concatenates [S256x40, S256x15, S256x9] S256x64 1
  slices_S256x8x24_o0_0_20_S256x1x1 : S256x8x24.Slices ![0, 0, 20] S256x1x1
  slices_S256x8x24_o0_1_20_S256x1x1 : S256x8x24.Slices ![0, 1, 20] S256x1x1
  slices_S256x8x24_o0_2_20_S256x1x1 : S256x8x24.Slices ![0, 2, 20] S256x1x1
  slices_S256x8x24_o0_3_20_S256x1x1 : S256x8x24.Slices ![0, 3, 20] S256x1x1
  slices_S256x15x64_o0_0_41_S256x15x1 : S256x15x64.Slices ![0, 0, 41] S256x15x1
  concatenates_S256x41_S256x15_S256x8_S256x64_d1 : Shape.Concatenates [S256x41, S256x15, S256x8] S256x64 1
  inb_S256x32x128_S256x1x128_0_20_0 : ∀ a, (![0, 20, 0] : Fin 3 → Nat) a + S256x1x128.size a ≤ S256x32x128.size a
  slices_S256x15x64_o0_0_42_S256x15x1 : S256x15x64.Slices ![0, 0, 42] S256x15x1
  concatenates_S256x42_S256x15_S256x7_S256x64_d1 : Shape.Concatenates [S256x42, S256x15, S256x7] S256x64 1
  slices_S256x8x24_o0_0_21_S256x1x1 : S256x8x24.Slices ![0, 0, 21] S256x1x1
  slices_S256x8x24_o0_1_21_S256x1x1 : S256x8x24.Slices ![0, 1, 21] S256x1x1
  slices_S256x8x24_o0_2_21_S256x1x1 : S256x8x24.Slices ![0, 2, 21] S256x1x1
  slices_S256x15x64_o0_0_43_S256x15x1 : S256x15x64.Slices ![0, 0, 43] S256x15x1
  concatenates_S256x43_S256x15_S256x6_S256x64_d1 : Shape.Concatenates [S256x43, S256x15, S256x6] S256x64 1
  inb_S256x32x128_S256x1x128_0_21_0 : ∀ a, (![0, 21, 0] : Fin 3 → Nat) a + S256x1x128.size a ≤ S256x32x128.size a
  slices_S256x15x64_o0_0_44_S256x15x1 : S256x15x64.Slices ![0, 0, 44] S256x15x1
  concatenates_S256x44_S256x15_S256x5_S256x64_d1 : Shape.Concatenates [S256x44, S256x15, S256x5] S256x64 1
  slices_S256x8x24_o0_0_22_S256x1x1 : S256x8x24.Slices ![0, 0, 22] S256x1x1
  slices_S256x8x24_o0_1_22_S256x1x1 : S256x8x24.Slices ![0, 1, 22] S256x1x1
  slices_S256x15x64_o0_0_45_S256x15x1 : S256x15x64.Slices ![0, 0, 45] S256x15x1
  concatenates_S256x45_S256x15_S256x4_S256x64_d1 : Shape.Concatenates [S256x45, S256x15, S256x4] S256x64 1
  inb_S256x32x128_S256x1x128_0_22_0 : ∀ a, (![0, 22, 0] : Fin 3 → Nat) a + S256x1x128.size a ≤ S256x32x128.size a
  slices_S256x15x64_o0_0_46_S256x15x1 : S256x15x64.Slices ![0, 0, 46] S256x15x1
  concatenates_S256x46_S256x15_S256x3_S256x64_d1 : Shape.Concatenates [S256x46, S256x15, S256x3] S256x64 1
  slices_S256x8x24_o0_0_23_S256x1x1 : S256x8x24.Slices ![0, 0, 23] S256x1x1
  slices_S256x15x64_o0_0_47_S256x15x1 : S256x15x64.Slices ![0, 0, 47] S256x15x1
  concatenates_S256x47_S256x15_S256x2_S256x64_d1 : Shape.Concatenates [S256x47, S256x15, S256x2] S256x64 1
  inb_S256x32x128_S256x1x128_0_23_0 : ∀ a, (![0, 23, 0] : Fin 3 → Nat) a + S256x1x128.size a ≤ S256x32x128.size a
  slices_S256x15x64_o0_0_48_S256x15x1 : S256x15x64.Slices ![0, 0, 48] S256x15x1
  concatenates_S256x48_S256x15_S256x1_S256x64_d1 : Shape.Concatenates [S256x48, S256x15, S256x1] S256x64 1
  slices_S256x15x64_o0_0_49_S256x15x1 : S256x15x64.Slices ![0, 0, 49] S256x15x1
  concatenates_S256x49_S256x15_S256x64_d1 : Shape.Concatenates [S256x49, S256x15] S256x64 1
  inb_S256x32x128_S256x1x128_0_24_0 : ∀ a, (![0, 24, 0] : Fin 3 → Nat) a + S256x1x128.size a ≤ S256x32x128.size a
  slices_S256x15x64_o0_0_50_S256x14x1 : S256x15x64.Slices ![0, 0, 50] S256x14x1
  shapeCasts_S256x14x1_S256x14 : S256x14x1.ShapeCasts S256x14
  slices_S256x15x64_o0_0_51_S256x13x1 : S256x15x64.Slices ![0, 0, 51] S256x13x1
  shapeCasts_S256x13x1_S256x13 : S256x13x1.ShapeCasts S256x13
  inb_S256x32x128_S256x1x128_0_25_0 : ∀ a, (![0, 25, 0] : Fin 3 → Nat) a + S256x1x128.size a ≤ S256x32x128.size a
  slices_S256x15x64_o0_0_52_S256x12x1 : S256x15x64.Slices ![0, 0, 52] S256x12x1
  shapeCasts_S256x12x1_S256x12 : S256x12x1.ShapeCasts S256x12
  slices_S256x15x64_o0_0_53_S256x11x1 : S256x15x64.Slices ![0, 0, 53] S256x11x1
  shapeCasts_S256x11x1_S256x11 : S256x11x1.ShapeCasts S256x11
  inb_S256x32x128_S256x1x128_0_26_0 : ∀ a, (![0, 26, 0] : Fin 3 → Nat) a + S256x1x128.size a ≤ S256x32x128.size a
  slices_S256x15x64_o0_0_54_S256x10x1 : S256x15x64.Slices ![0, 0, 54] S256x10x1
  shapeCasts_S256x10x1_S256x10 : S256x10x1.ShapeCasts S256x10
  slices_S256x15x64_o0_0_55_S256x9x1 : S256x15x64.Slices ![0, 0, 55] S256x9x1
  shapeCasts_S256x9x1_S256x9 : S256x9x1.ShapeCasts S256x9
  inb_S256x32x128_S256x1x128_0_27_0 : ∀ a, (![0, 27, 0] : Fin 3 → Nat) a + S256x1x128.size a ≤ S256x32x128.size a
  slices_S256x15x64_o0_0_56_S256x8x1 : S256x15x64.Slices ![0, 0, 56] S256x8x1
  shapeCasts_S256x8x1_S256x8 : S256x8x1.ShapeCasts S256x8
  slices_S256x15x64_o0_0_57_S256x7x1 : S256x15x64.Slices ![0, 0, 57] S256x7x1
  shapeCasts_S256x7x1_S256x7 : S256x7x1.ShapeCasts S256x7
  inb_S256x32x128_S256x1x128_0_28_0 : ∀ a, (![0, 28, 0] : Fin 3 → Nat) a + S256x1x128.size a ≤ S256x32x128.size a
  slices_S256x15x64_o0_0_58_S256x6x1 : S256x15x64.Slices ![0, 0, 58] S256x6x1
  shapeCasts_S256x6x1_S256x6 : S256x6x1.ShapeCasts S256x6
  slices_S256x15x64_o0_0_59_S256x5x1 : S256x15x64.Slices ![0, 0, 59] S256x5x1
  shapeCasts_S256x5x1_S256x5 : S256x5x1.ShapeCasts S256x5
  inb_S256x32x128_S256x1x128_0_29_0 : ∀ a, (![0, 29, 0] : Fin 3 → Nat) a + S256x1x128.size a ≤ S256x32x128.size a
  slices_S256x15x64_o0_0_60_S256x4x1 : S256x15x64.Slices ![0, 0, 60] S256x4x1
  shapeCasts_S256x4x1_S256x4 : S256x4x1.ShapeCasts S256x4
  slices_S256x15x64_o0_0_61_S256x3x1 : S256x15x64.Slices ![0, 0, 61] S256x3x1
  shapeCasts_S256x3x1_S256x3 : S256x3x1.ShapeCasts S256x3
  inb_S256x32x128_S256x1x128_0_30_0 : ∀ a, (![0, 30, 0] : Fin 3 → Nat) a + S256x1x128.size a ≤ S256x32x128.size a
  slices_S256x15x64_o0_0_62_S256x2x1 : S256x15x64.Slices ![0, 0, 62] S256x2x1
  shapeCasts_S256x2x1_S256x2 : S256x2x1.ShapeCasts S256x2
  slices_S256x15x64_o0_0_63_S256x1x1 : S256x15x64.Slices ![0, 0, 63] S256x1x1
  inb_S256x32x128_S256x1x128_0_31_0 : ∀ a, (![0, 31, 0] : Fin 3 → Nat) a + S256x1x128.size a ≤ S256x32x128.size a
  shapeCasts_S16384x32x128_S32x512x64x64 : S16384x32x128.ShapeCasts S32x512x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S16384x64.size a
  hwx0_0 : ∀ i : grid0.Coords, EltTy.bits .f32 = 32 ∨ (Rect.block (s := S16384x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32x128.size a ≤ S16384x32x128.size a
  hwx0_1 : ∀ i : grid0.Coords, EltTy.bits .f32 = 32 ∨ (Rect.block (s := S16384x32x128) S256x32x128.size (cc0_transform_1 i) (hinb0_1 i)).WholeWords (EltTy.packing .f32)

variable [Facts₀]

abbrev win0_0 : Pipeline.Window sig grid0 :=
  Pipeline.Window.ofSpec (Memref.whole main_v0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x32x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x512x64 : Shape := ⟨3, ![32, 512, 64]⟩
abbrev S64 : Shape := ⟨1, ![64]⟩
abbrev S63 : Shape := ⟨1, ![63]⟩
abbrev S62 : Shape := ⟨1, ![62]⟩
abbrev S61 : Shape := ⟨1, ![61]⟩
abbrev S60 : Shape := ⟨1, ![60]⟩
abbrev S59 : Shape := ⟨1, ![59]⟩
abbrev S58 : Shape := ⟨1, ![58]⟩
abbrev S57 : Shape := ⟨1, ![57]⟩
abbrev S56 : Shape := ⟨1, ![56]⟩
abbrev S55 : Shape := ⟨1, ![55]⟩
abbrev S54 : Shape := ⟨1, ![54]⟩
abbrev S53 : Shape := ⟨1, ![53]⟩
abbrev S52 : Shape := ⟨1, ![52]⟩
abbrev S51 : Shape := ⟨1, ![51]⟩
abbrev S50 : Shape := ⟨1, ![50]⟩
abbrev S24 : Shape := ⟨1, ![24]⟩
abbrev S23 : Shape := ⟨1, ![23]⟩
abbrev S22 : Shape := ⟨1, ![22]⟩
abbrev S21 : Shape := ⟨1, ![21]⟩
abbrev S20 : Shape := ⟨1, ![20]⟩
abbrev S19 : Shape := ⟨1, ![19]⟩
abbrev S18 : Shape := ⟨1, ![18]⟩
abbrev S17 : Shape := ⟨1, ![17]⟩
abbrev S8 : Shape := ⟨1, ![8]⟩
abbrev S7 : Shape := ⟨1, ![7]⟩
abbrev S6 : Shape := ⟨1, ![6]⟩
abbrev S5 : Shape := ⟨1, ![5]⟩
abbrev S4 : Shape := ⟨1, ![4]⟩
abbrev S3 : Shape := ⟨1, ![3]⟩
abbrev S2 : Shape := ⟨1, ![2]⟩
abbrev S1 : Shape := ⟨1, ![1]⟩
abbrev S64x64 : Shape := ⟨2, ![64, 64]⟩
abbrev S_ : Shape := ⟨0, ![]⟩
abbrev S32x512x64x64 : Shape := ⟨4, ![32, 512, 64, 64]⟩
abbrev S64x1 : Shape := ⟨2, ![64, 1]⟩
abbrev S64x2 : Shape := ⟨2, ![64, 2]⟩
abbrev S32x512x63 : Shape := ⟨3, ![32, 512, 63]⟩
abbrev S63x1 : Shape := ⟨2, ![63, 1]⟩
abbrev S63x2 : Shape := ⟨2, ![63, 2]⟩
abbrev S32x512x62 : Shape := ⟨3, ![32, 512, 62]⟩
abbrev S62x1 : Shape := ⟨2, ![62, 1]⟩
abbrev S62x2 : Shape := ⟨2, ![62, 2]⟩
abbrev S32x512x61 : Shape := ⟨3, ![32, 512, 61]⟩
abbrev S61x1 : Shape := ⟨2, ![61, 1]⟩
abbrev S61x2 : Shape := ⟨2, ![61, 2]⟩
abbrev S32x512x60 : Shape := ⟨3, ![32, 512, 60]⟩
abbrev S60x1 : Shape := ⟨2, ![60, 1]⟩
abbrev S60x2 : Shape := ⟨2, ![60, 2]⟩
abbrev S32x512x59 : Shape := ⟨3, ![32, 512, 59]⟩
abbrev S59x1 : Shape := ⟨2, ![59, 1]⟩
abbrev S59x2 : Shape := ⟨2, ![59, 2]⟩
abbrev S32x512x58 : Shape := ⟨3, ![32, 512, 58]⟩
abbrev S58x1 : Shape := ⟨2, ![58, 1]⟩
abbrev S58x2 : Shape := ⟨2, ![58, 2]⟩
abbrev S32x512x57 : Shape := ⟨3, ![32, 512, 57]⟩
abbrev S57x1 : Shape := ⟨2, ![57, 1]⟩
abbrev S57x2 : Shape := ⟨2, ![57, 2]⟩
abbrev S32x512x56 : Shape := ⟨3, ![32, 512, 56]⟩
abbrev S56x1 : Shape := ⟨2, ![56, 1]⟩
abbrev S56x2 : Shape := ⟨2, ![56, 2]⟩
abbrev S32x512x55 : Shape := ⟨3, ![32, 512, 55]⟩
abbrev S55x1 : Shape := ⟨2, ![55, 1]⟩
abbrev S55x2 : Shape := ⟨2, ![55, 2]⟩
abbrev S32x512x54 : Shape := ⟨3, ![32, 512, 54]⟩
abbrev S54x1 : Shape := ⟨2, ![54, 1]⟩
abbrev S54x2 : Shape := ⟨2, ![54, 2]⟩
abbrev S32x512x53 : Shape := ⟨3, ![32, 512, 53]⟩
abbrev S53x1 : Shape := ⟨2, ![53, 1]⟩
abbrev S53x2 : Shape := ⟨2, ![53, 2]⟩
abbrev S32x512x52 : Shape := ⟨3, ![32, 512, 52]⟩
abbrev S52x1 : Shape := ⟨2, ![52, 1]⟩
abbrev S52x2 : Shape := ⟨2, ![52, 2]⟩
abbrev S32x512x51 : Shape := ⟨3, ![32, 512, 51]⟩
abbrev S51x1 : Shape := ⟨2, ![51, 1]⟩
abbrev S51x2 : Shape := ⟨2, ![51, 2]⟩
abbrev S32x512x50 : Shape := ⟨3, ![32, 512, 50]⟩
abbrev S50x1 : Shape := ⟨2, ![50, 1]⟩
abbrev S50x2 : Shape := ⟨2, ![50, 2]⟩
abbrev S32x512x24 : Shape := ⟨3, ![32, 512, 24]⟩
abbrev S24x1 : Shape := ⟨2, ![24, 1]⟩
abbrev S24x2 : Shape := ⟨2, ![24, 2]⟩
abbrev S32x512x23 : Shape := ⟨3, ![32, 512, 23]⟩
abbrev S23x1 : Shape := ⟨2, ![23, 1]⟩
abbrev S23x2 : Shape := ⟨2, ![23, 2]⟩
abbrev S32x512x22 : Shape := ⟨3, ![32, 512, 22]⟩
abbrev S22x1 : Shape := ⟨2, ![22, 1]⟩
abbrev S22x2 : Shape := ⟨2, ![22, 2]⟩
abbrev S32x512x21 : Shape := ⟨3, ![32, 512, 21]⟩
abbrev S21x1 : Shape := ⟨2, ![21, 1]⟩
abbrev S21x2 : Shape := ⟨2, ![21, 2]⟩
abbrev S32x512x20 : Shape := ⟨3, ![32, 512, 20]⟩
abbrev S20x1 : Shape := ⟨2, ![20, 1]⟩
abbrev S20x2 : Shape := ⟨2, ![20, 2]⟩
abbrev S32x512x19 : Shape := ⟨3, ![32, 512, 19]⟩
abbrev S19x1 : Shape := ⟨2, ![19, 1]⟩
abbrev S19x2 : Shape := ⟨2, ![19, 2]⟩
abbrev S32x512x18 : Shape := ⟨3, ![32, 512, 18]⟩
abbrev S18x1 : Shape := ⟨2, ![18, 1]⟩
abbrev S18x2 : Shape := ⟨2, ![18, 2]⟩
abbrev S32x512x17 : Shape := ⟨3, ![32, 512, 17]⟩
abbrev S17x1 : Shape := ⟨2, ![17, 1]⟩
abbrev S17x2 : Shape := ⟨2, ![17, 2]⟩
abbrev S32x512x8 : Shape := ⟨3, ![32, 512, 8]⟩
abbrev S8x1 : Shape := ⟨2, ![8, 1]⟩
abbrev S8x2 : Shape := ⟨2, ![8, 2]⟩
abbrev S32x512x7 : Shape := ⟨3, ![32, 512, 7]⟩
abbrev S7x1 : Shape := ⟨2, ![7, 1]⟩
abbrev S7x2 : Shape := ⟨2, ![7, 2]⟩
abbrev S32x512x6 : Shape := ⟨3, ![32, 512, 6]⟩
abbrev S6x1 : Shape := ⟨2, ![6, 1]⟩
abbrev S6x2 : Shape := ⟨2, ![6, 2]⟩
abbrev S32x512x5 : Shape := ⟨3, ![32, 512, 5]⟩
abbrev S5x1 : Shape := ⟨2, ![5, 1]⟩
abbrev S5x2 : Shape := ⟨2, ![5, 2]⟩
abbrev S32x512x4 : Shape := ⟨3, ![32, 512, 4]⟩
abbrev S4x1 : Shape := ⟨2, ![4, 1]⟩
abbrev S4x2 : Shape := ⟨2, ![4, 2]⟩
abbrev S32x512x3 : Shape := ⟨3, ![32, 512, 3]⟩
abbrev S3x1 : Shape := ⟨2, ![3, 1]⟩
abbrev S3x2 : Shape := ⟨2, ![3, 2]⟩
abbrev S32x512x2 : Shape := ⟨3, ![32, 512, 2]⟩
abbrev S2x1 : Shape := ⟨2, ![2, 1]⟩
abbrev S2x2 : Shape := ⟨2, ![2, 2]⟩
abbrev S32x512x1 : Shape := ⟨3, ![32, 512, 1]⟩
abbrev S1x1 : Shape := ⟨2, ![1, 1]⟩
abbrev S1x2 : Shape := ⟨2, ![1, 2]⟩

abbrev nBuf : Space → Nat
  | .hbm => 590
  | .vmem => 0
  | .smem => 0
  | _ => 0

abbrev hbmTy0_0 (i : Nat) : BufTy := match i % 128 with
  | 0 => ⟨S32x512x64, .f32⟩
  | 1 => ⟨S64, .i32⟩
  | 2 => ⟨S64, .i1⟩
  | 3 => ⟨S64, .i32⟩
  | 4 => ⟨S64, .i1⟩
  | 5 => ⟨S63, .i32⟩
  | 6 => ⟨S63, .i1⟩
  | 7 => ⟨S63, .i32⟩
  | 8 => ⟨S63, .i1⟩
  | 9 => ⟨S62, .i32⟩
  | 10 => ⟨S62, .i1⟩
  | 11 => ⟨S62, .i32⟩
  | 12 => ⟨S62, .i1⟩
  | 13 => ⟨S61, .i32⟩
  | 14 => ⟨S61, .i1⟩
  | 15 => ⟨S61, .i32⟩
  | 16 => ⟨S61, .i1⟩
  | 17 => ⟨S60, .i32⟩
  | 18 => ⟨S60, .i1⟩
  | 19 => ⟨S60, .i32⟩
  | 20 => ⟨S60, .i1⟩
  | 21 => ⟨S59, .i32⟩
  | 22 => ⟨S59, .i1⟩
  | 23 => ⟨S59, .i32⟩
  | 24 => ⟨S59, .i1⟩
  | 25 => ⟨S58, .i32⟩
  | 26 => ⟨S58, .i1⟩
  | 27 => ⟨S58, .i32⟩
  | 28 => ⟨S58, .i1⟩
  | 29 => ⟨S57, .i32⟩
  | 30 => ⟨S57, .i1⟩
  | 31 => ⟨S57, .i32⟩
  | 32 => ⟨S57, .i1⟩
  | 33 => ⟨S56, .i32⟩
  | 34 => ⟨S56, .i1⟩
  | 35 => ⟨S56, .i32⟩
  | 36 => ⟨S56, .i1⟩
  | 37 => ⟨S55, .i32⟩
  | 38 => ⟨S55, .i1⟩
  | 39 => ⟨S55, .i32⟩
  | 40 => ⟨S55, .i1⟩
  | 41 => ⟨S54, .i32⟩
  | 42 => ⟨S54, .i1⟩
  | 43 => ⟨S54, .i32⟩
  | 44 => ⟨S54, .i1⟩
  | 45 => ⟨S53, .i32⟩
  | 46 => ⟨S53, .i1⟩
  | 47 => ⟨S53, .i32⟩
  | 48 => ⟨S53, .i1⟩
  | 49 => ⟨S52, .i32⟩
  | 50 => ⟨S52, .i1⟩
  | 51 => ⟨S52, .i32⟩
  | 52 => ⟨S52, .i1⟩
  | 53 => ⟨S51, .i32⟩
  | 54 => ⟨S51, .i1⟩
  | 55 => ⟨S51, .i32⟩
  | 56 => ⟨S51, .i1⟩
  | 57 => ⟨S50, .i32⟩
  | 58 => ⟨S50, .i1⟩
  | 59 => ⟨S50, .i32⟩
  | 60 => ⟨S50, .i1⟩
  | 61 => ⟨S24, .i32⟩
  | 62 => ⟨S24, .i1⟩
  | 63 => ⟨S24, .i32⟩
  | 64 => ⟨S24, .i1⟩
  | 65 => ⟨S23, .i32⟩
  | 66 => ⟨S23, .i1⟩
  | 67 => ⟨S23, .i32⟩
  | 68 => ⟨S23, .i1⟩
  | 69 => ⟨S22, .i32⟩
  | 70 => ⟨S22, .i1⟩
  | 71 => ⟨S22, .i32⟩
  | 72 => ⟨S22, .i1⟩
  | 73 => ⟨S21, .i32⟩
  | 74 => ⟨S21, .i1⟩
  | 75 => ⟨S21, .i32⟩
  | 76 => ⟨S21, .i1⟩
  | 77 => ⟨S20, .i32⟩
  | 78 => ⟨S20, .i1⟩
  | 79 => ⟨S20, .i32⟩
  | 80 => ⟨S20, .i1⟩
  | 81 => ⟨S19, .i32⟩
  | 82 => ⟨S19, .i1⟩
  | 83 => ⟨S19, .i32⟩
  | 84 => ⟨S19, .i1⟩
  | 85 => ⟨S18, .i32⟩
  | 86 => ⟨S18, .i1⟩
  | 87 => ⟨S18, .i32⟩
  | 88 => ⟨S18, .i1⟩
  | 89 => ⟨S17, .i32⟩
  | 90 => ⟨S17, .i1⟩
  | 91 => ⟨S17, .i32⟩
  | 92 => ⟨S17, .i1⟩
  | 93 => ⟨S8, .i32⟩
  | 94 => ⟨S8, .i1⟩
  | 95 => ⟨S8, .i32⟩
  | 96 => ⟨S8, .i1⟩
  | 97 => ⟨S7, .i32⟩
  | 98 => ⟨S7, .i1⟩
  | 99 => ⟨S7, .i32⟩
  | 100 => ⟨S7, .i1⟩
  | 101 => ⟨S6, .i32⟩
  | 102 => ⟨S6, .i1⟩
  | 103 => ⟨S6, .i32⟩
  | 104 => ⟨S6, .i1⟩
  | 105 => ⟨S5, .i32⟩
  | 106 => ⟨S5, .i1⟩
  | 107 => ⟨S5, .i32⟩
  | 108 => ⟨S5, .i1⟩
  | 109 => ⟨S4, .i32⟩
  | 110 => ⟨S4, .i1⟩
  | 111 => ⟨S4, .i32⟩
  | 112 => ⟨S4, .i1⟩
  | 113 => ⟨S3, .i32⟩
  | 114 => ⟨S3, .i1⟩
  | 115 => ⟨S3, .i32⟩
  | 116 => ⟨S3, .i1⟩
  | 117 => ⟨S2, .i32⟩
  | 118 => ⟨S2, .i1⟩
  | 119 => ⟨S2, .i32⟩
  | 120 => ⟨S2, .i1⟩
  | 121 => ⟨S1, .i32⟩
  | 122 => ⟨S1, .i1⟩
  | 123 => ⟨S1, .i32⟩
  | 124 => ⟨S1, .i1⟩
  | 125 => ⟨S64x64, .i1⟩
  | 126 => ⟨S_, .f32⟩
  | 127 => ⟨S32x512x64x64, .f32⟩
  | _ => ⟨S32x512x64, .f32⟩

abbrev hbmTy0_1 (i : Nat) : BufTy := match i % 128 with
  | 0 => ⟨S_, .i32⟩
  | 1 => ⟨S64, .i32⟩
  | 2 => ⟨S64, .i32⟩
  | 3 => ⟨S64, .i32⟩
  | 4 => ⟨S_, .i32⟩
  | 5 => ⟨S64, .i32⟩
  | 6 => ⟨S64, .i32⟩
  | 7 => ⟨S64, .i32⟩
  | 8 => ⟨S64x1, .i32⟩
  | 9 => ⟨S64x1, .i32⟩
  | 10 => ⟨S64x2, .i32⟩
  | 11 => ⟨S32x512x64x64, .f32⟩
  | 12 => ⟨S_, .f32⟩
  | 13 => ⟨S_, .f32⟩
  | 14 => ⟨S32x512x63, .f32⟩
  | 15 => ⟨S_, .i32⟩
  | 16 => ⟨S63, .i32⟩
  | 17 => ⟨S63, .i32⟩
  | 18 => ⟨S63, .i32⟩
  | 19 => ⟨S_, .i32⟩
  | 20 => ⟨S63, .i32⟩
  | 21 => ⟨S63, .i32⟩
  | 22 => ⟨S63, .i32⟩
  | 23 => ⟨S63x1, .i32⟩
  | 24 => ⟨S63x1, .i32⟩
  | 25 => ⟨S63x2, .i32⟩
  | 26 => ⟨S32x512x64x64, .f32⟩
  | 27 => ⟨S_, .f32⟩
  | 28 => ⟨S_, .f32⟩
  | 29 => ⟨S32x512x62, .f32⟩
  | 30 => ⟨S_, .i32⟩
  | 31 => ⟨S62, .i32⟩
  | 32 => ⟨S62, .i32⟩
  | 33 => ⟨S62, .i32⟩
  | 34 => ⟨S_, .i32⟩
  | 35 => ⟨S62, .i32⟩
  | 36 => ⟨S62, .i32⟩
  | 37 => ⟨S62, .i32⟩
  | 38 => ⟨S62x1, .i32⟩
  | 39 => ⟨S62x1, .i32⟩
  | 40 => ⟨S62x2, .i32⟩
  | 41 => ⟨S32x512x64x64, .f32⟩
  | 42 => ⟨S_, .f32⟩
  | 43 => ⟨S_, .f32⟩
  | 44 => ⟨S32x512x61, .f32⟩
  | 45 => ⟨S_, .i32⟩
  | 46 => ⟨S61, .i32⟩
  | 47 => ⟨S61, .i32⟩
  | 48 => ⟨S61, .i32⟩
  | 49 => ⟨S_, .i32⟩
  | 50 => ⟨S61, .i32⟩
  | 51 => ⟨S61, .i32⟩
  | 52 => ⟨S61, .i32⟩
  | 53 => ⟨S61x1, .i32⟩
  | 54 => ⟨S61x1, .i32⟩
  | 55 => ⟨S61x2, .i32⟩
  | 56 => ⟨S32x512x64x64, .f32⟩
  | 57 => ⟨S_, .f32⟩
  | 58 => ⟨S_, .f32⟩
  | 59 => ⟨S32x512x60, .f32⟩
  | 60 => ⟨S_, .i32⟩
  | 61 => ⟨S60, .i32⟩
  | 62 => ⟨S60, .i32⟩
  | 63 => ⟨S60, .i32⟩
  | 64 => ⟨S_, .i32⟩
  | 65 => ⟨S60, .i32⟩
  | 66 => ⟨S60, .i32⟩
  | 67 => ⟨S60, .i32⟩
  | 68 => ⟨S60x1, .i32⟩
  | 69 => ⟨S60x1, .i32⟩
  | 70 => ⟨S60x2, .i32⟩
  | 71 => ⟨S32x512x64x64, .f32⟩
  | 72 => ⟨S_, .f32⟩
  | 73 => ⟨S_, .f32⟩
  | 74 => ⟨S32x512x59, .f32⟩
  | 75 => ⟨S_, .i32⟩
  | 76 => ⟨S59, .i32⟩
  | 77 => ⟨S59, .i32⟩
  | 78 => ⟨S59, .i32⟩
  | 79 => ⟨S_, .i32⟩
  | 80 => ⟨S59, .i32⟩
  | 81 => ⟨S59, .i32⟩
  | 82 => ⟨S59, .i32⟩
  | 83 => ⟨S59x1, .i32⟩
  | 84 => ⟨S59x1, .i32⟩
  | 85 => ⟨S59x2, .i32⟩
  | 86 => ⟨S32x512x64x64, .f32⟩
  | 87 => ⟨S_, .f32⟩
  | 88 => ⟨S_, .f32⟩
  | 89 => ⟨S32x512x58, .f32⟩
  | 90 => ⟨S_, .i32⟩
  | 91 => ⟨S58, .i32⟩
  | 92 => ⟨S58, .i32⟩
  | 93 => ⟨S58, .i32⟩
  | 94 => ⟨S_, .i32⟩
  | 95 => ⟨S58, .i32⟩
  | 96 => ⟨S58, .i32⟩
  | 97 => ⟨S58, .i32⟩
  | 98 => ⟨S58x1, .i32⟩
  | 99 => ⟨S58x1, .i32⟩
  | 100 => ⟨S58x2, .i32⟩
  | 101 => ⟨S32x512x64x64, .f32⟩
  | 102 => ⟨S_, .f32⟩
  | 103 => ⟨S_, .f32⟩
  | 104 => ⟨S32x512x57, .f32⟩
  | 105 => ⟨S_, .i32⟩
  | 106 => ⟨S57, .i32⟩
  | 107 => ⟨S57, .i32⟩
  | 108 => ⟨S57, .i32⟩
  | 109 => ⟨S_, .i32⟩
  | 110 => ⟨S57, .i32⟩
  | 111 => ⟨S57, .i32⟩
  | 112 => ⟨S57, .i32⟩
  | 113 => ⟨S57x1, .i32⟩
  | 114 => ⟨S57x1, .i32⟩
  | 115 => ⟨S57x2, .i32⟩
  | 116 => ⟨S32x512x64x64, .f32⟩
  | 117 => ⟨S_, .f32⟩
  | 118 => ⟨S_, .f32⟩
  | 119 => ⟨S32x512x56, .f32⟩
  | 120 => ⟨S_, .i32⟩
  | 121 => ⟨S56, .i32⟩
  | 122 => ⟨S56, .i32⟩
  | 123 => ⟨S56, .i32⟩
  | 124 => ⟨S_, .i32⟩
  | 125 => ⟨S56, .i32⟩
  | 126 => ⟨S56, .i32⟩
  | 127 => ⟨S56, .i32⟩
  | _ => ⟨S32x512x64, .f32⟩

abbrev hbmTy0_2 (i : Nat) : BufTy := match i % 128 with
  | 0 => ⟨S56x1, .i32⟩
  | 1 => ⟨S56x1, .i32⟩
  | 2 => ⟨S56x2, .i32⟩
  | 3 => ⟨S32x512x64x64, .f32⟩
  | 4 => ⟨S_, .f32⟩
  | 5 => ⟨S_, .f32⟩
  | 6 => ⟨S32x512x55, .f32⟩
  | 7 => ⟨S_, .i32⟩
  | 8 => ⟨S55, .i32⟩
  | 9 => ⟨S55, .i32⟩
  | 10 => ⟨S55, .i32⟩
  | 11 => ⟨S_, .i32⟩
  | 12 => ⟨S55, .i32⟩
  | 13 => ⟨S55, .i32⟩
  | 14 => ⟨S55, .i32⟩
  | 15 => ⟨S55x1, .i32⟩
  | 16 => ⟨S55x1, .i32⟩
  | 17 => ⟨S55x2, .i32⟩
  | 18 => ⟨S32x512x64x64, .f32⟩
  | 19 => ⟨S_, .f32⟩
  | 20 => ⟨S_, .f32⟩
  | 21 => ⟨S32x512x54, .f32⟩
  | 22 => ⟨S_, .i32⟩
  | 23 => ⟨S54, .i32⟩
  | 24 => ⟨S54, .i32⟩
  | 25 => ⟨S54, .i32⟩
  | 26 => ⟨S_, .i32⟩
  | 27 => ⟨S54, .i32⟩
  | 28 => ⟨S54, .i32⟩
  | 29 => ⟨S54, .i32⟩
  | 30 => ⟨S54x1, .i32⟩
  | 31 => ⟨S54x1, .i32⟩
  | 32 => ⟨S54x2, .i32⟩
  | 33 => ⟨S32x512x64x64, .f32⟩
  | 34 => ⟨S_, .f32⟩
  | 35 => ⟨S_, .f32⟩
  | 36 => ⟨S32x512x53, .f32⟩
  | 37 => ⟨S_, .i32⟩
  | 38 => ⟨S53, .i32⟩
  | 39 => ⟨S53, .i32⟩
  | 40 => ⟨S53, .i32⟩
  | 41 => ⟨S_, .i32⟩
  | 42 => ⟨S53, .i32⟩
  | 43 => ⟨S53, .i32⟩
  | 44 => ⟨S53, .i32⟩
  | 45 => ⟨S53x1, .i32⟩
  | 46 => ⟨S53x1, .i32⟩
  | 47 => ⟨S53x2, .i32⟩
  | 48 => ⟨S32x512x64x64, .f32⟩
  | 49 => ⟨S_, .f32⟩
  | 50 => ⟨S_, .f32⟩
  | 51 => ⟨S32x512x52, .f32⟩
  | 52 => ⟨S_, .i32⟩
  | 53 => ⟨S52, .i32⟩
  | 54 => ⟨S52, .i32⟩
  | 55 => ⟨S52, .i32⟩
  | 56 => ⟨S_, .i32⟩
  | 57 => ⟨S52, .i32⟩
  | 58 => ⟨S52, .i32⟩
  | 59 => ⟨S52, .i32⟩
  | 60 => ⟨S52x1, .i32⟩
  | 61 => ⟨S52x1, .i32⟩
  | 62 => ⟨S52x2, .i32⟩
  | 63 => ⟨S32x512x64x64, .f32⟩
  | 64 => ⟨S_, .f32⟩
  | 65 => ⟨S_, .f32⟩
  | 66 => ⟨S32x512x51, .f32⟩
  | 67 => ⟨S_, .i32⟩
  | 68 => ⟨S51, .i32⟩
  | 69 => ⟨S51, .i32⟩
  | 70 => ⟨S51, .i32⟩
  | 71 => ⟨S_, .i32⟩
  | 72 => ⟨S51, .i32⟩
  | 73 => ⟨S51, .i32⟩
  | 74 => ⟨S51, .i32⟩
  | 75 => ⟨S51x1, .i32⟩
  | 76 => ⟨S51x1, .i32⟩
  | 77 => ⟨S51x2, .i32⟩
  | 78 => ⟨S32x512x64x64, .f32⟩
  | 79 => ⟨S_, .f32⟩
  | 80 => ⟨S_, .f32⟩
  | 81 => ⟨S32x512x50, .f32⟩
  | 82 => ⟨S_, .i32⟩
  | 83 => ⟨S50, .i32⟩
  | 84 => ⟨S50, .i32⟩
  | 85 => ⟨S50, .i32⟩
  | 86 => ⟨S_, .i32⟩
  | 87 => ⟨S50, .i32⟩
  | 88 => ⟨S50, .i32⟩
  | 89 => ⟨S50, .i32⟩
  | 90 => ⟨S50x1, .i32⟩
  | 91 => ⟨S50x1, .i32⟩
  | 92 => ⟨S50x2, .i32⟩
  | 93 => ⟨S32x512x64x64, .f32⟩
  | 94 => ⟨S_, .f32⟩
  | 95 => ⟨S_, .f32⟩
  | 96 => ⟨S32x512x24, .f32⟩
  | 97 => ⟨S_, .i32⟩
  | 98 => ⟨S24, .i32⟩
  | 99 => ⟨S24, .i32⟩
  | 100 => ⟨S24, .i32⟩
  | 101 => ⟨S_, .i32⟩
  | 102 => ⟨S24, .i32⟩
  | 103 => ⟨S24, .i32⟩
  | 104 => ⟨S24, .i32⟩
  | 105 => ⟨S24x1, .i32⟩
  | 106 => ⟨S24x1, .i32⟩
  | 107 => ⟨S24x2, .i32⟩
  | 108 => ⟨S32x512x64x64, .f32⟩
  | 109 => ⟨S_, .f32⟩
  | 110 => ⟨S_, .f32⟩
  | 111 => ⟨S32x512x23, .f32⟩
  | 112 => ⟨S_, .i32⟩
  | 113 => ⟨S23, .i32⟩
  | 114 => ⟨S23, .i32⟩
  | 115 => ⟨S23, .i32⟩
  | 116 => ⟨S_, .i32⟩
  | 117 => ⟨S23, .i32⟩
  | 118 => ⟨S23, .i32⟩
  | 119 => ⟨S23, .i32⟩
  | 120 => ⟨S23x1, .i32⟩
  | 121 => ⟨S23x1, .i32⟩
  | 122 => ⟨S23x2, .i32⟩
  | 123 => ⟨S32x512x64x64, .f32⟩
  | 124 => ⟨S_, .f32⟩
  | 125 => ⟨S_, .f32⟩
  | 126 => ⟨S32x512x22, .f32⟩
  | 127 => ⟨S_, .i32⟩
  | _ => ⟨S32x512x64, .f32⟩

abbrev hbmTy0_3 (i : Nat) : BufTy := match i % 128 with
  | 0 => ⟨S22, .i32⟩
  | 1 => ⟨S22, .i32⟩
  | 2 => ⟨S22, .i32⟩
  | 3 => ⟨S_, .i32⟩
  | 4 => ⟨S22, .i32⟩
  | 5 => ⟨S22, .i32⟩
  | 6 => ⟨S22, .i32⟩
  | 7 => ⟨S22x1, .i32⟩
  | 8 => ⟨S22x1, .i32⟩
  | 9 => ⟨S22x2, .i32⟩
  | 10 => ⟨S32x512x64x64, .f32⟩
  | 11 => ⟨S_, .f32⟩
  | 12 => ⟨S_, .f32⟩
  | 13 => ⟨S32x512x21, .f32⟩
  | 14 => ⟨S_, .i32⟩
  | 15 => ⟨S21, .i32⟩
  | 16 => ⟨S21, .i32⟩
  | 17 => ⟨S21, .i32⟩
  | 18 => ⟨S_, .i32⟩
  | 19 => ⟨S21, .i32⟩
  | 20 => ⟨S21, .i32⟩
  | 21 => ⟨S21, .i32⟩
  | 22 => ⟨S21x1, .i32⟩
  | 23 => ⟨S21x1, .i32⟩
  | 24 => ⟨S21x2, .i32⟩
  | 25 => ⟨S32x512x64x64, .f32⟩
  | 26 => ⟨S_, .f32⟩
  | 27 => ⟨S_, .f32⟩
  | 28 => ⟨S32x512x20, .f32⟩
  | 29 => ⟨S_, .i32⟩
  | 30 => ⟨S20, .i32⟩
  | 31 => ⟨S20, .i32⟩
  | 32 => ⟨S20, .i32⟩
  | 33 => ⟨S_, .i32⟩
  | 34 => ⟨S20, .i32⟩
  | 35 => ⟨S20, .i32⟩
  | 36 => ⟨S20, .i32⟩
  | 37 => ⟨S20x1, .i32⟩
  | 38 => ⟨S20x1, .i32⟩
  | 39 => ⟨S20x2, .i32⟩
  | 40 => ⟨S32x512x64x64, .f32⟩
  | 41 => ⟨S_, .f32⟩
  | 42 => ⟨S_, .f32⟩
  | 43 => ⟨S32x512x19, .f32⟩
  | 44 => ⟨S_, .i32⟩
  | 45 => ⟨S19, .i32⟩
  | 46 => ⟨S19, .i32⟩
  | 47 => ⟨S19, .i32⟩
  | 48 => ⟨S_, .i32⟩
  | 49 => ⟨S19, .i32⟩
  | 50 => ⟨S19, .i32⟩
  | 51 => ⟨S19, .i32⟩
  | 52 => ⟨S19x1, .i32⟩
  | 53 => ⟨S19x1, .i32⟩
  | 54 => ⟨S19x2, .i32⟩
  | 55 => ⟨S32x512x64x64, .f32⟩
  | 56 => ⟨S_, .f32⟩
  | 57 => ⟨S_, .f32⟩
  | 58 => ⟨S32x512x18, .f32⟩
  | 59 => ⟨S_, .i32⟩
  | 60 => ⟨S18, .i32⟩
  | 61 => ⟨S18, .i32⟩
  | 62 => ⟨S18, .i32⟩
  | 63 => ⟨S_, .i32⟩
  | 64 => ⟨S18, .i32⟩
  | 65 => ⟨S18, .i32⟩
  | 66 => ⟨S18, .i32⟩
  | 67 => ⟨S18x1, .i32⟩
  | 68 => ⟨S18x1, .i32⟩
  | 69 => ⟨S18x2, .i32⟩
  | 70 => ⟨S32x512x64x64, .f32⟩
  | 71 => ⟨S_, .f32⟩
  | 72 => ⟨S_, .f32⟩
  | 73 => ⟨S32x512x17, .f32⟩
  | 74 => ⟨S_, .i32⟩
  | 75 => ⟨S17, .i32⟩
  | 76 => ⟨S17, .i32⟩
  | 77 => ⟨S17, .i32⟩
  | 78 => ⟨S_, .i32⟩
  | 79 => ⟨S17, .i32⟩
  | 80 => ⟨S17, .i32⟩
  | 81 => ⟨S17, .i32⟩
  | 82 => ⟨S17x1, .i32⟩
  | 83 => ⟨S17x1, .i32⟩
  | 84 => ⟨S17x2, .i32⟩
  | 85 => ⟨S32x512x64x64, .f32⟩
  | 86 => ⟨S_, .f32⟩
  | 87 => ⟨S_, .f32⟩
  | 88 => ⟨S32x512x8, .f32⟩
  | 89 => ⟨S_, .i32⟩
  | 90 => ⟨S8, .i32⟩
  | 91 => ⟨S8, .i32⟩
  | 92 => ⟨S8, .i32⟩
  | 93 => ⟨S_, .i32⟩
  | 94 => ⟨S8, .i32⟩
  | 95 => ⟨S8, .i32⟩
  | 96 => ⟨S8, .i32⟩
  | 97 => ⟨S8x1, .i32⟩
  | 98 => ⟨S8x1, .i32⟩
  | 99 => ⟨S8x2, .i32⟩
  | 100 => ⟨S32x512x64x64, .f32⟩
  | 101 => ⟨S_, .f32⟩
  | 102 => ⟨S_, .f32⟩
  | 103 => ⟨S32x512x7, .f32⟩
  | 104 => ⟨S_, .i32⟩
  | 105 => ⟨S7, .i32⟩
  | 106 => ⟨S7, .i32⟩
  | 107 => ⟨S7, .i32⟩
  | 108 => ⟨S_, .i32⟩
  | 109 => ⟨S7, .i32⟩
  | 110 => ⟨S7, .i32⟩
  | 111 => ⟨S7, .i32⟩
  | 112 => ⟨S7x1, .i32⟩
  | 113 => ⟨S7x1, .i32⟩
  | 114 => ⟨S7x2, .i32⟩
  | 115 => ⟨S32x512x64x64, .f32⟩
  | 116 => ⟨S_, .f32⟩
  | 117 => ⟨S_, .f32⟩
  | 118 => ⟨S32x512x6, .f32⟩
  | 119 => ⟨S_, .i32⟩
  | 120 => ⟨S6, .i32⟩
  | 121 => ⟨S6, .i32⟩
  | 122 => ⟨S6, .i32⟩
  | 123 => ⟨S_, .i32⟩
  | 124 => ⟨S6, .i32⟩
  | 125 => ⟨S6, .i32⟩
  | 126 => ⟨S6, .i32⟩
  | 127 => ⟨S6x1, .i32⟩
  | _ => ⟨S32x512x64, .f32⟩

abbrev hbmTy0_4 (i : Nat) : BufTy := match i % 128 with
  | 0 => ⟨S6x1, .i32⟩
  | 1 => ⟨S6x2, .i32⟩
  | 2 => ⟨S32x512x64x64, .f32⟩
  | 3 => ⟨S_, .f32⟩
  | 4 => ⟨S_, .f32⟩
  | 5 => ⟨S32x512x5, .f32⟩
  | 6 => ⟨S_, .i32⟩
  | 7 => ⟨S5, .i32⟩
  | 8 => ⟨S5, .i32⟩
  | 9 => ⟨S5, .i32⟩
  | 10 => ⟨S_, .i32⟩
  | 11 => ⟨S5, .i32⟩
  | 12 => ⟨S5, .i32⟩
  | 13 => ⟨S5, .i32⟩
  | 14 => ⟨S5x1, .i32⟩
  | 15 => ⟨S5x1, .i32⟩
  | 16 => ⟨S5x2, .i32⟩
  | 17 => ⟨S32x512x64x64, .f32⟩
  | 18 => ⟨S_, .f32⟩
  | 19 => ⟨S_, .f32⟩
  | 20 => ⟨S32x512x4, .f32⟩
  | 21 => ⟨S_, .i32⟩
  | 22 => ⟨S4, .i32⟩
  | 23 => ⟨S4, .i32⟩
  | 24 => ⟨S4, .i32⟩
  | 25 => ⟨S_, .i32⟩
  | 26 => ⟨S4, .i32⟩
  | 27 => ⟨S4, .i32⟩
  | 28 => ⟨S4, .i32⟩
  | 29 => ⟨S4x1, .i32⟩
  | 30 => ⟨S4x1, .i32⟩
  | 31 => ⟨S4x2, .i32⟩
  | 32 => ⟨S32x512x64x64, .f32⟩
  | 33 => ⟨S_, .f32⟩
  | 34 => ⟨S_, .f32⟩
  | 35 => ⟨S32x512x3, .f32⟩
  | 36 => ⟨S_, .i32⟩
  | 37 => ⟨S3, .i32⟩
  | 38 => ⟨S3, .i32⟩
  | 39 => ⟨S3, .i32⟩
  | 40 => ⟨S_, .i32⟩
  | 41 => ⟨S3, .i32⟩
  | 42 => ⟨S3, .i32⟩
  | 43 => ⟨S3, .i32⟩
  | 44 => ⟨S3x1, .i32⟩
  | 45 => ⟨S3x1, .i32⟩
  | 46 => ⟨S3x2, .i32⟩
  | 47 => ⟨S32x512x64x64, .f32⟩
  | 48 => ⟨S_, .f32⟩
  | 49 => ⟨S_, .f32⟩
  | 50 => ⟨S32x512x2, .f32⟩
  | 51 => ⟨S_, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2x1, .i32⟩
  | 60 => ⟨S2x1, .i32⟩
  | 61 => ⟨S2x2, .i32⟩
  | 62 => ⟨S32x512x64x64, .f32⟩
  | 63 => ⟨S_, .f32⟩
  | 64 => ⟨S_, .f32⟩
  | 65 => ⟨S32x512x1, .f32⟩
  | 66 => ⟨S_, .i32⟩
  | 67 => ⟨S1, .i32⟩
  | 68 => ⟨S1, .i32⟩
  | 69 => ⟨S1, .i32⟩
  | 70 => ⟨S_, .i32⟩
  | 71 => ⟨S1, .i32⟩
  | 72 => ⟨S1, .i32⟩
  | 73 => ⟨S1, .i32⟩
  | 74 => ⟨S1x1, .i32⟩
  | 75 => ⟨S1x1, .i32⟩
  | 76 => ⟨S1x2, .i32⟩
  | 77 => ⟨S32x512x64x64, .f32⟩
  | _ => ⟨S32x512x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x512x64, .f32⟩

abbrev bufTy : (tb : Table) → Fin (tcTables nBuf tb) → BufTy
  | .hbm, ⟨i, _⟩ => hbmTy i
  | _, _ => ⟨S32x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_c_5 : Ref sig .tc := ⟨.hbm, 7, rfl⟩
abbrev main_c_6 : Ref sig .tc := ⟨.hbm, 8, rfl⟩
abbrev main_c_7 : Ref sig .tc := ⟨.hbm, 9, rfl⟩
abbrev main_c_8 : Ref sig .tc := ⟨.hbm, 10, rfl⟩
abbrev main_c_9 : Ref sig .tc := ⟨.hbm, 11, rfl⟩
abbrev main_c_10 : Ref sig .tc := ⟨.hbm, 12, rfl⟩
abbrev main_c_11 : Ref sig .tc := ⟨.hbm, 13, rfl⟩
abbrev main_c_12 : Ref sig .tc := ⟨.hbm, 14, rfl⟩
abbrev main_c_13 : Ref sig .tc := ⟨.hbm, 15, rfl⟩
abbrev main_c_14 : Ref sig .tc := ⟨.hbm, 16, rfl⟩
abbrev main_c_15 : Ref sig .tc := ⟨.hbm, 17, rfl⟩
abbrev main_c_16 : Ref sig .tc := ⟨.hbm, 18, rfl⟩
abbrev main_c_17 : Ref sig .tc := ⟨.hbm, 19, rfl⟩
abbrev main_c_18 : Ref sig .tc := ⟨.hbm, 20, rfl⟩
abbrev main_c_19 : Ref sig .tc := ⟨.hbm, 21, rfl⟩
abbrev main_c_20 : Ref sig .tc := ⟨.hbm, 22, rfl⟩
abbrev main_c_21 : Ref sig .tc := ⟨.hbm, 23, rfl⟩
abbrev main_c_22 : Ref sig .tc := ⟨.hbm, 24, rfl⟩
abbrev main_c_23 : Ref sig .tc := ⟨.hbm, 25, rfl⟩
abbrev main_c_24 : Ref sig .tc := ⟨.hbm, 26, rfl⟩
abbrev main_c_25 : Ref sig .tc := ⟨.hbm, 27, rfl⟩
abbrev main_c_26 : Ref sig .tc := ⟨.hbm, 28, rfl⟩
abbrev main_c_27 : Ref sig .tc := ⟨.hbm, 29, rfl⟩
abbrev main_c_28 : Ref sig .tc := ⟨.hbm, 30, rfl⟩
abbrev main_c_29 : Ref sig .tc := ⟨.hbm, 31, rfl⟩
abbrev main_c_30 : Ref sig .tc := ⟨.hbm, 32, rfl⟩
abbrev main_c_31 : Ref sig .tc := ⟨.hbm, 33, rfl⟩
abbrev main_c_32 : Ref sig .tc := ⟨.hbm, 34, rfl⟩
abbrev main_c_33 : Ref sig .tc := ⟨.hbm, 35, rfl⟩
abbrev main_c_34 : Ref sig .tc := ⟨.hbm, 36, rfl⟩
abbrev main_c_35 : Ref sig .tc := ⟨.hbm, 37, rfl⟩
abbrev main_c_36 : Ref sig .tc := ⟨.hbm, 38, rfl⟩
abbrev main_c_37 : Ref sig .tc := ⟨.hbm, 39, rfl⟩
abbrev main_c_38 : Ref sig .tc := ⟨.hbm, 40, rfl⟩
abbrev main_c_39 : Ref sig .tc := ⟨.hbm, 41, rfl⟩
abbrev main_c_40 : Ref sig .tc := ⟨.hbm, 42, rfl⟩
abbrev main_c_41 : Ref sig .tc := ⟨.hbm, 43, rfl⟩
abbrev main_c_42 : Ref sig .tc := ⟨.hbm, 44, rfl⟩
abbrev main_c_43 : Ref sig .tc := ⟨.hbm, 45, rfl⟩
abbrev main_c_44 : Ref sig .tc := ⟨.hbm, 46, rfl⟩
abbrev main_c_45 : Ref sig .tc := ⟨.hbm, 47, rfl⟩
abbrev main_c_46 : Ref sig .tc := ⟨.hbm, 48, rfl⟩
abbrev main_c_47 : Ref sig .tc := ⟨.hbm, 49, rfl⟩
abbrev main_c_48 : Ref sig .tc := ⟨.hbm, 50, rfl⟩
abbrev main_c_49 : Ref sig .tc := ⟨.hbm, 51, rfl⟩
abbrev main_c_50 : Ref sig .tc := ⟨.hbm, 52, rfl⟩
abbrev main_c_51 : Ref sig .tc := ⟨.hbm, 53, rfl⟩
abbrev main_c_52 : Ref sig .tc := ⟨.hbm, 54, rfl⟩
abbrev main_c_53 : Ref sig .tc := ⟨.hbm, 55, rfl⟩
abbrev main_c_54 : Ref sig .tc := ⟨.hbm, 56, rfl⟩
abbrev main_c_55 : Ref sig .tc := ⟨.hbm, 57, rfl⟩
abbrev main_c_56 : Ref sig .tc := ⟨.hbm, 58, rfl⟩
abbrev main_c_57 : Ref sig .tc := ⟨.hbm, 59, rfl⟩
abbrev main_c_58 : Ref sig .tc := ⟨.hbm, 60, rfl⟩
abbrev main_c_59 : Ref sig .tc := ⟨.hbm, 61, rfl⟩
abbrev main_c_60 : Ref sig .tc := ⟨.hbm, 62, rfl⟩
abbrev main_c_61 : Ref sig .tc := ⟨.hbm, 63, rfl⟩
abbrev main_c_62 : Ref sig .tc := ⟨.hbm, 64, rfl⟩
abbrev main_c_63 : Ref sig .tc := ⟨.hbm, 65, rfl⟩
abbrev main_c_64 : Ref sig .tc := ⟨.hbm, 66, rfl⟩
abbrev main_c_65 : Ref sig .tc := ⟨.hbm, 67, rfl⟩
abbrev main_c_66 : Ref sig .tc := ⟨.hbm, 68, rfl⟩
abbrev main_c_67 : Ref sig .tc := ⟨.hbm, 69, rfl⟩
abbrev main_c_68 : Ref sig .tc := ⟨.hbm, 70, rfl⟩
abbrev main_c_69 : Ref sig .tc := ⟨.hbm, 71, rfl⟩
abbrev main_c_70 : Ref sig .tc := ⟨.hbm, 72, rfl⟩
abbrev main_c_71 : Ref sig .tc := ⟨.hbm, 73, rfl⟩
abbrev main_c_72 : Ref sig .tc := ⟨.hbm, 74, rfl⟩
abbrev main_c_73 : Ref sig .tc := ⟨.hbm, 75, rfl⟩
abbrev main_c_74 : Ref sig .tc := ⟨.hbm, 76, rfl⟩
abbrev main_c_75 : Ref sig .tc := ⟨.hbm, 77, rfl⟩
abbrev main_c_76 : Ref sig .tc := ⟨.hbm, 78, rfl⟩
abbrev main_c_77 : Ref sig .tc := ⟨.hbm, 79, rfl⟩
abbrev main_c_78 : Ref sig .tc := ⟨.hbm, 80, rfl⟩
abbrev main_c_79 : Ref sig .tc := ⟨.hbm, 81, rfl⟩
abbrev main_c_80 : Ref sig .tc := ⟨.hbm, 82, rfl⟩
abbrev main_c_81 : Ref sig .tc := ⟨.hbm, 83, rfl⟩
abbrev main_c_82 : Ref sig .tc := ⟨.hbm, 84, rfl⟩
abbrev main_c_83 : Ref sig .tc := ⟨.hbm, 85, rfl⟩
abbrev main_c_84 : Ref sig .tc := ⟨.hbm, 86, rfl⟩
abbrev main_c_85 : Ref sig .tc := ⟨.hbm, 87, rfl⟩
abbrev main_c_86 : Ref sig .tc := ⟨.hbm, 88, rfl⟩
abbrev main_c_87 : Ref sig .tc := ⟨.hbm, 89, rfl⟩
abbrev main_c_88 : Ref sig .tc := ⟨.hbm, 90, rfl⟩
abbrev main_c_89 : Ref sig .tc := ⟨.hbm, 91, rfl⟩
abbrev main_c_90 : Ref sig .tc := ⟨.hbm, 92, rfl⟩
abbrev main_c_91 : Ref sig .tc := ⟨.hbm, 93, rfl⟩
abbrev main_c_92 : Ref sig .tc := ⟨.hbm, 94, rfl⟩
abbrev main_c_93 : Ref sig .tc := ⟨.hbm, 95, rfl⟩
abbrev main_c_94 : Ref sig .tc := ⟨.hbm, 96, rfl⟩
abbrev main_c_95 : Ref sig .tc := ⟨.hbm, 97, rfl⟩
abbrev main_c_96 : Ref sig .tc := ⟨.hbm, 98, rfl⟩
abbrev main_c_97 : Ref sig .tc := ⟨.hbm, 99, rfl⟩
abbrev main_c_98 : Ref sig .tc := ⟨.hbm, 100, rfl⟩
abbrev main_c_99 : Ref sig .tc := ⟨.hbm, 101, rfl⟩
abbrev main_c_100 : Ref sig .tc := ⟨.hbm, 102, rfl⟩
abbrev main_c_101 : Ref sig .tc := ⟨.hbm, 103, rfl⟩
abbrev main_c_102 : Ref sig .tc := ⟨.hbm, 104, rfl⟩
abbrev main_c_103 : Ref sig .tc := ⟨.hbm, 105, rfl⟩
abbrev main_c_104 : Ref sig .tc := ⟨.hbm, 106, rfl⟩
abbrev main_c_105 : Ref sig .tc := ⟨.hbm, 107, rfl⟩
abbrev main_c_106 : Ref sig .tc := ⟨.hbm, 108, rfl⟩
abbrev main_c_107 : Ref sig .tc := ⟨.hbm, 109, rfl⟩
abbrev main_c_108 : Ref sig .tc := ⟨.hbm, 110, rfl⟩
abbrev main_c_109 : Ref sig .tc := ⟨.hbm, 111, rfl⟩
abbrev main_c_110 : Ref sig .tc := ⟨.hbm, 112, rfl⟩
abbrev main_c_111 : Ref sig .tc := ⟨.hbm, 113, rfl⟩
abbrev main_c_112 : Ref sig .tc := ⟨.hbm, 114, rfl⟩
abbrev main_c_113 : Ref sig .tc := ⟨.hbm, 115, rfl⟩
abbrev main_c_114 : Ref sig .tc := ⟨.hbm, 116, rfl⟩
abbrev main_c_115 : Ref sig .tc := ⟨.hbm, 117, rfl⟩
abbrev main_c_116 : Ref sig .tc := ⟨.hbm, 118, rfl⟩
abbrev main_c_117 : Ref sig .tc := ⟨.hbm, 119, rfl⟩
abbrev main_c_118 : Ref sig .tc := ⟨.hbm, 120, rfl⟩
abbrev main_c_119 : Ref sig .tc := ⟨.hbm, 121, rfl⟩
abbrev main_c_120 : Ref sig .tc := ⟨.hbm, 122, rfl⟩
abbrev main_c_121 : Ref sig .tc := ⟨.hbm, 123, rfl⟩
abbrev main_c_122 : Ref sig .tc := ⟨.hbm, 124, rfl⟩
abbrev main_c_123 : Ref sig .tc := ⟨.hbm, 125, rfl⟩
abbrev main_cst : Ref sig .tc := ⟨.hbm, 126, rfl⟩
abbrev main_v0 : Ref sig .tc := ⟨.hbm, 127, rfl⟩
abbrev main_c_124 : Ref sig .tc := ⟨.hbm, 128, rfl⟩
abbrev main_v1 : Ref sig .tc := ⟨.hbm, 129, rfl⟩
abbrev main_v2 : Ref sig .tc := ⟨.hbm, 130, rfl⟩
abbrev main_v3 : Ref sig .tc := ⟨.hbm, 131, rfl⟩
abbrev main_c_125 : Ref sig .tc := ⟨.hbm, 132, rfl⟩
abbrev main_v4 : Ref sig .tc := ⟨.hbm, 133, rfl⟩
abbrev main_v5 : Ref sig .tc := ⟨.hbm, 134, rfl⟩
abbrev main_v6 : Ref sig .tc := ⟨.hbm, 135, rfl⟩
abbrev main_v7 : Ref sig .tc := ⟨.hbm, 136, rfl⟩
abbrev main_v8 : Ref sig .tc := ⟨.hbm, 137, rfl⟩
abbrev main_v9 : Ref sig .tc := ⟨.hbm, 138, rfl⟩
abbrev main_v10 : Ref sig .tc := ⟨.hbm, 139, rfl⟩
abbrev main_cst_126 : Ref sig .tc := ⟨.hbm, 140, rfl⟩
abbrev main_v11 : Ref sig .tc := ⟨.hbm, 141, rfl⟩
abbrev main_v12 : Ref sig .tc := ⟨.hbm, 142, rfl⟩
abbrev main_c_127 : Ref sig .tc := ⟨.hbm, 143, rfl⟩
abbrev main_v13 : Ref sig .tc := ⟨.hbm, 144, rfl⟩
abbrev main_v14 : Ref sig .tc := ⟨.hbm, 145, rfl⟩
abbrev main_v15 : Ref sig .tc := ⟨.hbm, 146, rfl⟩
abbrev main_c_128 : Ref sig .tc := ⟨.hbm, 147, rfl⟩
abbrev main_v16 : Ref sig .tc := ⟨.hbm, 148, rfl⟩
abbrev main_v17 : Ref sig .tc := ⟨.hbm, 149, rfl⟩
abbrev main_v18 : Ref sig .tc := ⟨.hbm, 150, rfl⟩
abbrev main_v19 : Ref sig .tc := ⟨.hbm, 151, rfl⟩
abbrev main_v20 : Ref sig .tc := ⟨.hbm, 152, rfl⟩
abbrev main_v21 : Ref sig .tc := ⟨.hbm, 153, rfl⟩
abbrev main_v22 : Ref sig .tc := ⟨.hbm, 154, rfl⟩
abbrev main_cst_129 : Ref sig .tc := ⟨.hbm, 155, rfl⟩
abbrev main_v23 : Ref sig .tc := ⟨.hbm, 156, rfl⟩
abbrev main_v24 : Ref sig .tc := ⟨.hbm, 157, rfl⟩
abbrev main_c_130 : Ref sig .tc := ⟨.hbm, 158, rfl⟩
abbrev main_v25 : Ref sig .tc := ⟨.hbm, 159, rfl⟩
abbrev main_v26 : Ref sig .tc := ⟨.hbm, 160, rfl⟩
abbrev main_v27 : Ref sig .tc := ⟨.hbm, 161, rfl⟩
abbrev main_c_131 : Ref sig .tc := ⟨.hbm, 162, rfl⟩
abbrev main_v28 : Ref sig .tc := ⟨.hbm, 163, rfl⟩
abbrev main_v29 : Ref sig .tc := ⟨.hbm, 164, rfl⟩
abbrev main_v30 : Ref sig .tc := ⟨.hbm, 165, rfl⟩
abbrev main_v31 : Ref sig .tc := ⟨.hbm, 166, rfl⟩
abbrev main_v32 : Ref sig .tc := ⟨.hbm, 167, rfl⟩
abbrev main_v33 : Ref sig .tc := ⟨.hbm, 168, rfl⟩
abbrev main_v34 : Ref sig .tc := ⟨.hbm, 169, rfl⟩
abbrev main_cst_132 : Ref sig .tc := ⟨.hbm, 170, rfl⟩
abbrev main_v35 : Ref sig .tc := ⟨.hbm, 171, rfl⟩
abbrev main_v36 : Ref sig .tc := ⟨.hbm, 172, rfl⟩
abbrev main_c_133 : Ref sig .tc := ⟨.hbm, 173, rfl⟩
abbrev main_v37 : Ref sig .tc := ⟨.hbm, 174, rfl⟩
abbrev main_v38 : Ref sig .tc := ⟨.hbm, 175, rfl⟩
abbrev main_v39 : Ref sig .tc := ⟨.hbm, 176, rfl⟩
abbrev main_c_134 : Ref sig .tc := ⟨.hbm, 177, rfl⟩
abbrev main_v40 : Ref sig .tc := ⟨.hbm, 178, rfl⟩
abbrev main_v41 : Ref sig .tc := ⟨.hbm, 179, rfl⟩
abbrev main_v42 : Ref sig .tc := ⟨.hbm, 180, rfl⟩
abbrev main_v43 : Ref sig .tc := ⟨.hbm, 181, rfl⟩
abbrev main_v44 : Ref sig .tc := ⟨.hbm, 182, rfl⟩
abbrev main_v45 : Ref sig .tc := ⟨.hbm, 183, rfl⟩
abbrev main_v46 : Ref sig .tc := ⟨.hbm, 184, rfl⟩
abbrev main_cst_135 : Ref sig .tc := ⟨.hbm, 185, rfl⟩
abbrev main_v47 : Ref sig .tc := ⟨.hbm, 186, rfl⟩
abbrev main_v48 : Ref sig .tc := ⟨.hbm, 187, rfl⟩
abbrev main_c_136 : Ref sig .tc := ⟨.hbm, 188, rfl⟩
abbrev main_v49 : Ref sig .tc := ⟨.hbm, 189, rfl⟩
abbrev main_v50 : Ref sig .tc := ⟨.hbm, 190, rfl⟩
abbrev main_v51 : Ref sig .tc := ⟨.hbm, 191, rfl⟩
abbrev main_c_137 : Ref sig .tc := ⟨.hbm, 192, rfl⟩
abbrev main_v52 : Ref sig .tc := ⟨.hbm, 193, rfl⟩
abbrev main_v53 : Ref sig .tc := ⟨.hbm, 194, rfl⟩
abbrev main_v54 : Ref sig .tc := ⟨.hbm, 195, rfl⟩
abbrev main_v55 : Ref sig .tc := ⟨.hbm, 196, rfl⟩
abbrev main_v56 : Ref sig .tc := ⟨.hbm, 197, rfl⟩
abbrev main_v57 : Ref sig .tc := ⟨.hbm, 198, rfl⟩
abbrev main_v58 : Ref sig .tc := ⟨.hbm, 199, rfl⟩
abbrev main_cst_138 : Ref sig .tc := ⟨.hbm, 200, rfl⟩
abbrev main_v59 : Ref sig .tc := ⟨.hbm, 201, rfl⟩
abbrev main_v60 : Ref sig .tc := ⟨.hbm, 202, rfl⟩
abbrev main_c_139 : Ref sig .tc := ⟨.hbm, 203, rfl⟩
abbrev main_v61 : Ref sig .tc := ⟨.hbm, 204, rfl⟩
abbrev main_v62 : Ref sig .tc := ⟨.hbm, 205, rfl⟩
abbrev main_v63 : Ref sig .tc := ⟨.hbm, 206, rfl⟩
abbrev main_c_140 : Ref sig .tc := ⟨.hbm, 207, rfl⟩
abbrev main_v64 : Ref sig .tc := ⟨.hbm, 208, rfl⟩
abbrev main_v65 : Ref sig .tc := ⟨.hbm, 209, rfl⟩
abbrev main_v66 : Ref sig .tc := ⟨.hbm, 210, rfl⟩
abbrev main_v67 : Ref sig .tc := ⟨.hbm, 211, rfl⟩
abbrev main_v68 : Ref sig .tc := ⟨.hbm, 212, rfl⟩
abbrev main_v69 : Ref sig .tc := ⟨.hbm, 213, rfl⟩
abbrev main_v70 : Ref sig .tc := ⟨.hbm, 214, rfl⟩
abbrev main_cst_141 : Ref sig .tc := ⟨.hbm, 215, rfl⟩
abbrev main_v71 : Ref sig .tc := ⟨.hbm, 216, rfl⟩
abbrev main_v72 : Ref sig .tc := ⟨.hbm, 217, rfl⟩
abbrev main_c_142 : Ref sig .tc := ⟨.hbm, 218, rfl⟩
abbrev main_v73 : Ref sig .tc := ⟨.hbm, 219, rfl⟩
abbrev main_v74 : Ref sig .tc := ⟨.hbm, 220, rfl⟩
abbrev main_v75 : Ref sig .tc := ⟨.hbm, 221, rfl⟩
abbrev main_c_143 : Ref sig .tc := ⟨.hbm, 222, rfl⟩
abbrev main_v76 : Ref sig .tc := ⟨.hbm, 223, rfl⟩
abbrev main_v77 : Ref sig .tc := ⟨.hbm, 224, rfl⟩
abbrev main_v78 : Ref sig .tc := ⟨.hbm, 225, rfl⟩
abbrev main_v79 : Ref sig .tc := ⟨.hbm, 226, rfl⟩
abbrev main_v80 : Ref sig .tc := ⟨.hbm, 227, rfl⟩
abbrev main_v81 : Ref sig .tc := ⟨.hbm, 228, rfl⟩
abbrev main_v82 : Ref sig .tc := ⟨.hbm, 229, rfl⟩
abbrev main_cst_144 : Ref sig .tc := ⟨.hbm, 230, rfl⟩
abbrev main_v83 : Ref sig .tc := ⟨.hbm, 231, rfl⟩
abbrev main_v84 : Ref sig .tc := ⟨.hbm, 232, rfl⟩
abbrev main_c_145 : Ref sig .tc := ⟨.hbm, 233, rfl⟩
abbrev main_v85 : Ref sig .tc := ⟨.hbm, 234, rfl⟩
abbrev main_v86 : Ref sig .tc := ⟨.hbm, 235, rfl⟩
abbrev main_v87 : Ref sig .tc := ⟨.hbm, 236, rfl⟩
abbrev main_c_146 : Ref sig .tc := ⟨.hbm, 237, rfl⟩
abbrev main_v88 : Ref sig .tc := ⟨.hbm, 238, rfl⟩
abbrev main_v89 : Ref sig .tc := ⟨.hbm, 239, rfl⟩
abbrev main_v90 : Ref sig .tc := ⟨.hbm, 240, rfl⟩
abbrev main_v91 : Ref sig .tc := ⟨.hbm, 241, rfl⟩
abbrev main_v92 : Ref sig .tc := ⟨.hbm, 242, rfl⟩
abbrev main_v93 : Ref sig .tc := ⟨.hbm, 243, rfl⟩
abbrev main_v94 : Ref sig .tc := ⟨.hbm, 244, rfl⟩
abbrev main_cst_147 : Ref sig .tc := ⟨.hbm, 245, rfl⟩
abbrev main_v95 : Ref sig .tc := ⟨.hbm, 246, rfl⟩
abbrev main_v96 : Ref sig .tc := ⟨.hbm, 247, rfl⟩
abbrev main_c_148 : Ref sig .tc := ⟨.hbm, 248, rfl⟩
abbrev main_v97 : Ref sig .tc := ⟨.hbm, 249, rfl⟩
abbrev main_v98 : Ref sig .tc := ⟨.hbm, 250, rfl⟩
abbrev main_v99 : Ref sig .tc := ⟨.hbm, 251, rfl⟩
abbrev main_c_149 : Ref sig .tc := ⟨.hbm, 252, rfl⟩
abbrev main_v100 : Ref sig .tc := ⟨.hbm, 253, rfl⟩
abbrev main_v101 : Ref sig .tc := ⟨.hbm, 254, rfl⟩
abbrev main_v102 : Ref sig .tc := ⟨.hbm, 255, rfl⟩
abbrev main_v103 : Ref sig .tc := ⟨.hbm, 256, rfl⟩
abbrev main_v104 : Ref sig .tc := ⟨.hbm, 257, rfl⟩
abbrev main_v105 : Ref sig .tc := ⟨.hbm, 258, rfl⟩
abbrev main_v106 : Ref sig .tc := ⟨.hbm, 259, rfl⟩
abbrev main_cst_150 : Ref sig .tc := ⟨.hbm, 260, rfl⟩
abbrev main_v107 : Ref sig .tc := ⟨.hbm, 261, rfl⟩
abbrev main_v108 : Ref sig .tc := ⟨.hbm, 262, rfl⟩
abbrev main_c_151 : Ref sig .tc := ⟨.hbm, 263, rfl⟩
abbrev main_v109 : Ref sig .tc := ⟨.hbm, 264, rfl⟩
abbrev main_v110 : Ref sig .tc := ⟨.hbm, 265, rfl⟩
abbrev main_v111 : Ref sig .tc := ⟨.hbm, 266, rfl⟩
abbrev main_c_152 : Ref sig .tc := ⟨.hbm, 267, rfl⟩
abbrev main_v112 : Ref sig .tc := ⟨.hbm, 268, rfl⟩
abbrev main_v113 : Ref sig .tc := ⟨.hbm, 269, rfl⟩
abbrev main_v114 : Ref sig .tc := ⟨.hbm, 270, rfl⟩
abbrev main_v115 : Ref sig .tc := ⟨.hbm, 271, rfl⟩
abbrev main_v116 : Ref sig .tc := ⟨.hbm, 272, rfl⟩
abbrev main_v117 : Ref sig .tc := ⟨.hbm, 273, rfl⟩
abbrev main_v118 : Ref sig .tc := ⟨.hbm, 274, rfl⟩
abbrev main_cst_153 : Ref sig .tc := ⟨.hbm, 275, rfl⟩
abbrev main_v119 : Ref sig .tc := ⟨.hbm, 276, rfl⟩
abbrev main_v120 : Ref sig .tc := ⟨.hbm, 277, rfl⟩
abbrev main_c_154 : Ref sig .tc := ⟨.hbm, 278, rfl⟩
abbrev main_v121 : Ref sig .tc := ⟨.hbm, 279, rfl⟩
abbrev main_v122 : Ref sig .tc := ⟨.hbm, 280, rfl⟩
abbrev main_v123 : Ref sig .tc := ⟨.hbm, 281, rfl⟩
abbrev main_c_155 : Ref sig .tc := ⟨.hbm, 282, rfl⟩
abbrev main_v124 : Ref sig .tc := ⟨.hbm, 283, rfl⟩
abbrev main_v125 : Ref sig .tc := ⟨.hbm, 284, rfl⟩
abbrev main_v126 : Ref sig .tc := ⟨.hbm, 285, rfl⟩
abbrev main_v127 : Ref sig .tc := ⟨.hbm, 286, rfl⟩
abbrev main_v128 : Ref sig .tc := ⟨.hbm, 287, rfl⟩
abbrev main_v129 : Ref sig .tc := ⟨.hbm, 288, rfl⟩
abbrev main_v130 : Ref sig .tc := ⟨.hbm, 289, rfl⟩
abbrev main_cst_156 : Ref sig .tc := ⟨.hbm, 290, rfl⟩
abbrev main_v131 : Ref sig .tc := ⟨.hbm, 291, rfl⟩
abbrev main_v132 : Ref sig .tc := ⟨.hbm, 292, rfl⟩
abbrev main_c_157 : Ref sig .tc := ⟨.hbm, 293, rfl⟩
abbrev main_v133 : Ref sig .tc := ⟨.hbm, 294, rfl⟩
abbrev main_v134 : Ref sig .tc := ⟨.hbm, 295, rfl⟩
abbrev main_v135 : Ref sig .tc := ⟨.hbm, 296, rfl⟩
abbrev main_c_158 : Ref sig .tc := ⟨.hbm, 297, rfl⟩
abbrev main_v136 : Ref sig .tc := ⟨.hbm, 298, rfl⟩
abbrev main_v137 : Ref sig .tc := ⟨.hbm, 299, rfl⟩
abbrev main_v138 : Ref sig .tc := ⟨.hbm, 300, rfl⟩
abbrev main_v139 : Ref sig .tc := ⟨.hbm, 301, rfl⟩
abbrev main_v140 : Ref sig .tc := ⟨.hbm, 302, rfl⟩
abbrev main_v141 : Ref sig .tc := ⟨.hbm, 303, rfl⟩
abbrev main_v142 : Ref sig .tc := ⟨.hbm, 304, rfl⟩
abbrev main_cst_159 : Ref sig .tc := ⟨.hbm, 305, rfl⟩
abbrev main_v143 : Ref sig .tc := ⟨.hbm, 306, rfl⟩
abbrev main_v144 : Ref sig .tc := ⟨.hbm, 307, rfl⟩
abbrev main_c_160 : Ref sig .tc := ⟨.hbm, 308, rfl⟩
abbrev main_v145 : Ref sig .tc := ⟨.hbm, 309, rfl⟩
abbrev main_v146 : Ref sig .tc := ⟨.hbm, 310, rfl⟩
abbrev main_v147 : Ref sig .tc := ⟨.hbm, 311, rfl⟩
abbrev main_c_161 : Ref sig .tc := ⟨.hbm, 312, rfl⟩
abbrev main_v148 : Ref sig .tc := ⟨.hbm, 313, rfl⟩
abbrev main_v149 : Ref sig .tc := ⟨.hbm, 314, rfl⟩
abbrev main_v150 : Ref sig .tc := ⟨.hbm, 315, rfl⟩
abbrev main_v151 : Ref sig .tc := ⟨.hbm, 316, rfl⟩
abbrev main_v152 : Ref sig .tc := ⟨.hbm, 317, rfl⟩
abbrev main_v153 : Ref sig .tc := ⟨.hbm, 318, rfl⟩
abbrev main_v154 : Ref sig .tc := ⟨.hbm, 319, rfl⟩
abbrev main_cst_162 : Ref sig .tc := ⟨.hbm, 320, rfl⟩
abbrev main_v155 : Ref sig .tc := ⟨.hbm, 321, rfl⟩
abbrev main_v156 : Ref sig .tc := ⟨.hbm, 322, rfl⟩
abbrev main_c_163 : Ref sig .tc := ⟨.hbm, 323, rfl⟩
abbrev main_v157 : Ref sig .tc := ⟨.hbm, 324, rfl⟩
abbrev main_v158 : Ref sig .tc := ⟨.hbm, 325, rfl⟩
abbrev main_v159 : Ref sig .tc := ⟨.hbm, 326, rfl⟩
abbrev main_c_164 : Ref sig .tc := ⟨.hbm, 327, rfl⟩
abbrev main_v160 : Ref sig .tc := ⟨.hbm, 328, rfl⟩
abbrev main_v161 : Ref sig .tc := ⟨.hbm, 329, rfl⟩
abbrev main_v162 : Ref sig .tc := ⟨.hbm, 330, rfl⟩
abbrev main_v163 : Ref sig .tc := ⟨.hbm, 331, rfl⟩
abbrev main_v164 : Ref sig .tc := ⟨.hbm, 332, rfl⟩
abbrev main_v165 : Ref sig .tc := ⟨.hbm, 333, rfl⟩
abbrev main_v166 : Ref sig .tc := ⟨.hbm, 334, rfl⟩
abbrev main_cst_165 : Ref sig .tc := ⟨.hbm, 335, rfl⟩
abbrev main_v167 : Ref sig .tc := ⟨.hbm, 336, rfl⟩
abbrev main_v168 : Ref sig .tc := ⟨.hbm, 337, rfl⟩
abbrev main_c_166 : Ref sig .tc := ⟨.hbm, 338, rfl⟩
abbrev main_v169 : Ref sig .tc := ⟨.hbm, 339, rfl⟩
abbrev main_v170 : Ref sig .tc := ⟨.hbm, 340, rfl⟩
abbrev main_v171 : Ref sig .tc := ⟨.hbm, 341, rfl⟩
abbrev main_c_167 : Ref sig .tc := ⟨.hbm, 342, rfl⟩
abbrev main_v172 : Ref sig .tc := ⟨.hbm, 343, rfl⟩
abbrev main_v173 : Ref sig .tc := ⟨.hbm, 344, rfl⟩
abbrev main_v174 : Ref sig .tc := ⟨.hbm, 345, rfl⟩
abbrev main_v175 : Ref sig .tc := ⟨.hbm, 346, rfl⟩
abbrev main_v176 : Ref sig .tc := ⟨.hbm, 347, rfl⟩
abbrev main_v177 : Ref sig .tc := ⟨.hbm, 348, rfl⟩
abbrev main_v178 : Ref sig .tc := ⟨.hbm, 349, rfl⟩
abbrev main_cst_168 : Ref sig .tc := ⟨.hbm, 350, rfl⟩
abbrev main_v179 : Ref sig .tc := ⟨.hbm, 351, rfl⟩
abbrev main_v180 : Ref sig .tc := ⟨.hbm, 352, rfl⟩
abbrev main_c_169 : Ref sig .tc := ⟨.hbm, 353, rfl⟩
abbrev main_v181 : Ref sig .tc := ⟨.hbm, 354, rfl⟩
abbrev main_v182 : Ref sig .tc := ⟨.hbm, 355, rfl⟩
abbrev main_v183 : Ref sig .tc := ⟨.hbm, 356, rfl⟩
abbrev main_c_170 : Ref sig .tc := ⟨.hbm, 357, rfl⟩
abbrev main_v184 : Ref sig .tc := ⟨.hbm, 358, rfl⟩
abbrev main_v185 : Ref sig .tc := ⟨.hbm, 359, rfl⟩
abbrev main_v186 : Ref sig .tc := ⟨.hbm, 360, rfl⟩
abbrev main_v187 : Ref sig .tc := ⟨.hbm, 361, rfl⟩
abbrev main_v188 : Ref sig .tc := ⟨.hbm, 362, rfl⟩
abbrev main_v189 : Ref sig .tc := ⟨.hbm, 363, rfl⟩
abbrev main_v190 : Ref sig .tc := ⟨.hbm, 364, rfl⟩
abbrev main_cst_171 : Ref sig .tc := ⟨.hbm, 365, rfl⟩
abbrev main_v191 : Ref sig .tc := ⟨.hbm, 366, rfl⟩
abbrev main_v192 : Ref sig .tc := ⟨.hbm, 367, rfl⟩
abbrev main_c_172 : Ref sig .tc := ⟨.hbm, 368, rfl⟩
abbrev main_v193 : Ref sig .tc := ⟨.hbm, 369, rfl⟩
abbrev main_v194 : Ref sig .tc := ⟨.hbm, 370, rfl⟩
abbrev main_v195 : Ref sig .tc := ⟨.hbm, 371, rfl⟩
abbrev main_c_173 : Ref sig .tc := ⟨.hbm, 372, rfl⟩
abbrev main_v196 : Ref sig .tc := ⟨.hbm, 373, rfl⟩
abbrev main_v197 : Ref sig .tc := ⟨.hbm, 374, rfl⟩
abbrev main_v198 : Ref sig .tc := ⟨.hbm, 375, rfl⟩
abbrev main_v199 : Ref sig .tc := ⟨.hbm, 376, rfl⟩
abbrev main_v200 : Ref sig .tc := ⟨.hbm, 377, rfl⟩
abbrev main_v201 : Ref sig .tc := ⟨.hbm, 378, rfl⟩
abbrev main_v202 : Ref sig .tc := ⟨.hbm, 379, rfl⟩
abbrev main_cst_174 : Ref sig .tc := ⟨.hbm, 380, rfl⟩
abbrev main_v203 : Ref sig .tc := ⟨.hbm, 381, rfl⟩
abbrev main_v204 : Ref sig .tc := ⟨.hbm, 382, rfl⟩
abbrev main_c_175 : Ref sig .tc := ⟨.hbm, 383, rfl⟩
abbrev main_v205 : Ref sig .tc := ⟨.hbm, 384, rfl⟩
abbrev main_v206 : Ref sig .tc := ⟨.hbm, 385, rfl⟩
abbrev main_v207 : Ref sig .tc := ⟨.hbm, 386, rfl⟩
abbrev main_c_176 : Ref sig .tc := ⟨.hbm, 387, rfl⟩
abbrev main_v208 : Ref sig .tc := ⟨.hbm, 388, rfl⟩
abbrev main_v209 : Ref sig .tc := ⟨.hbm, 389, rfl⟩
abbrev main_v210 : Ref sig .tc := ⟨.hbm, 390, rfl⟩
abbrev main_v211 : Ref sig .tc := ⟨.hbm, 391, rfl⟩
abbrev main_v212 : Ref sig .tc := ⟨.hbm, 392, rfl⟩
abbrev main_v213 : Ref sig .tc := ⟨.hbm, 393, rfl⟩
abbrev main_v214 : Ref sig .tc := ⟨.hbm, 394, rfl⟩
abbrev main_cst_177 : Ref sig .tc := ⟨.hbm, 395, rfl⟩
abbrev main_v215 : Ref sig .tc := ⟨.hbm, 396, rfl⟩
abbrev main_v216 : Ref sig .tc := ⟨.hbm, 397, rfl⟩
abbrev main_c_178 : Ref sig .tc := ⟨.hbm, 398, rfl⟩
abbrev main_v217 : Ref sig .tc := ⟨.hbm, 399, rfl⟩
abbrev main_v218 : Ref sig .tc := ⟨.hbm, 400, rfl⟩
abbrev main_v219 : Ref sig .tc := ⟨.hbm, 401, rfl⟩
abbrev main_c_179 : Ref sig .tc := ⟨.hbm, 402, rfl⟩
abbrev main_v220 : Ref sig .tc := ⟨.hbm, 403, rfl⟩
abbrev main_v221 : Ref sig .tc := ⟨.hbm, 404, rfl⟩
abbrev main_v222 : Ref sig .tc := ⟨.hbm, 405, rfl⟩
abbrev main_v223 : Ref sig .tc := ⟨.hbm, 406, rfl⟩
abbrev main_v224 : Ref sig .tc := ⟨.hbm, 407, rfl⟩
abbrev main_v225 : Ref sig .tc := ⟨.hbm, 408, rfl⟩
abbrev main_v226 : Ref sig .tc := ⟨.hbm, 409, rfl⟩
abbrev main_cst_180 : Ref sig .tc := ⟨.hbm, 410, rfl⟩
abbrev main_v227 : Ref sig .tc := ⟨.hbm, 411, rfl⟩
abbrev main_v228 : Ref sig .tc := ⟨.hbm, 412, rfl⟩
abbrev main_c_181 : Ref sig .tc := ⟨.hbm, 413, rfl⟩
abbrev main_v229 : Ref sig .tc := ⟨.hbm, 414, rfl⟩
abbrev main_v230 : Ref sig .tc := ⟨.hbm, 415, rfl⟩
abbrev main_v231 : Ref sig .tc := ⟨.hbm, 416, rfl⟩
abbrev main_c_182 : Ref sig .tc := ⟨.hbm, 417, rfl⟩
abbrev main_v232 : Ref sig .tc := ⟨.hbm, 418, rfl⟩
abbrev main_v233 : Ref sig .tc := ⟨.hbm, 419, rfl⟩
abbrev main_v234 : Ref sig .tc := ⟨.hbm, 420, rfl⟩
abbrev main_v235 : Ref sig .tc := ⟨.hbm, 421, rfl⟩
abbrev main_v236 : Ref sig .tc := ⟨.hbm, 422, rfl⟩
abbrev main_v237 : Ref sig .tc := ⟨.hbm, 423, rfl⟩
abbrev main_v238 : Ref sig .tc := ⟨.hbm, 424, rfl⟩
abbrev main_cst_183 : Ref sig .tc := ⟨.hbm, 425, rfl⟩
abbrev main_v239 : Ref sig .tc := ⟨.hbm, 426, rfl⟩
abbrev main_v240 : Ref sig .tc := ⟨.hbm, 427, rfl⟩
abbrev main_c_184 : Ref sig .tc := ⟨.hbm, 428, rfl⟩
abbrev main_v241 : Ref sig .tc := ⟨.hbm, 429, rfl⟩
abbrev main_v242 : Ref sig .tc := ⟨.hbm, 430, rfl⟩
abbrev main_v243 : Ref sig .tc := ⟨.hbm, 431, rfl⟩
abbrev main_c_185 : Ref sig .tc := ⟨.hbm, 432, rfl⟩
abbrev main_v244 : Ref sig .tc := ⟨.hbm, 433, rfl⟩
abbrev main_v245 : Ref sig .tc := ⟨.hbm, 434, rfl⟩
abbrev main_v246 : Ref sig .tc := ⟨.hbm, 435, rfl⟩
abbrev main_v247 : Ref sig .tc := ⟨.hbm, 436, rfl⟩
abbrev main_v248 : Ref sig .tc := ⟨.hbm, 437, rfl⟩
abbrev main_v249 : Ref sig .tc := ⟨.hbm, 438, rfl⟩
abbrev main_v250 : Ref sig .tc := ⟨.hbm, 439, rfl⟩
abbrev main_cst_186 : Ref sig .tc := ⟨.hbm, 440, rfl⟩
abbrev main_v251 : Ref sig .tc := ⟨.hbm, 441, rfl⟩
abbrev main_v252 : Ref sig .tc := ⟨.hbm, 442, rfl⟩
abbrev main_c_187 : Ref sig .tc := ⟨.hbm, 443, rfl⟩
abbrev main_v253 : Ref sig .tc := ⟨.hbm, 444, rfl⟩
abbrev main_v254 : Ref sig .tc := ⟨.hbm, 445, rfl⟩
abbrev main_v255 : Ref sig .tc := ⟨.hbm, 446, rfl⟩
abbrev main_c_188 : Ref sig .tc := ⟨.hbm, 447, rfl⟩
abbrev main_v256 : Ref sig .tc := ⟨.hbm, 448, rfl⟩
abbrev main_v257 : Ref sig .tc := ⟨.hbm, 449, rfl⟩
abbrev main_v258 : Ref sig .tc := ⟨.hbm, 450, rfl⟩
abbrev main_v259 : Ref sig .tc := ⟨.hbm, 451, rfl⟩
abbrev main_v260 : Ref sig .tc := ⟨.hbm, 452, rfl⟩
abbrev main_v261 : Ref sig .tc := ⟨.hbm, 453, rfl⟩
abbrev main_v262 : Ref sig .tc := ⟨.hbm, 454, rfl⟩
abbrev main_cst_189 : Ref sig .tc := ⟨.hbm, 455, rfl⟩
abbrev main_v263 : Ref sig .tc := ⟨.hbm, 456, rfl⟩
abbrev main_v264 : Ref sig .tc := ⟨.hbm, 457, rfl⟩
abbrev main_c_190 : Ref sig .tc := ⟨.hbm, 458, rfl⟩
abbrev main_v265 : Ref sig .tc := ⟨.hbm, 459, rfl⟩
abbrev main_v266 : Ref sig .tc := ⟨.hbm, 460, rfl⟩
abbrev main_v267 : Ref sig .tc := ⟨.hbm, 461, rfl⟩
abbrev main_c_191 : Ref sig .tc := ⟨.hbm, 462, rfl⟩
abbrev main_v268 : Ref sig .tc := ⟨.hbm, 463, rfl⟩
abbrev main_v269 : Ref sig .tc := ⟨.hbm, 464, rfl⟩
abbrev main_v270 : Ref sig .tc := ⟨.hbm, 465, rfl⟩
abbrev main_v271 : Ref sig .tc := ⟨.hbm, 466, rfl⟩
abbrev main_v272 : Ref sig .tc := ⟨.hbm, 467, rfl⟩
abbrev main_v273 : Ref sig .tc := ⟨.hbm, 468, rfl⟩
abbrev main_v274 : Ref sig .tc := ⟨.hbm, 469, rfl⟩
abbrev main_cst_192 : Ref sig .tc := ⟨.hbm, 470, rfl⟩
abbrev main_v275 : Ref sig .tc := ⟨.hbm, 471, rfl⟩
abbrev main_v276 : Ref sig .tc := ⟨.hbm, 472, rfl⟩
abbrev main_c_193 : Ref sig .tc := ⟨.hbm, 473, rfl⟩
abbrev main_v277 : Ref sig .tc := ⟨.hbm, 474, rfl⟩
abbrev main_v278 : Ref sig .tc := ⟨.hbm, 475, rfl⟩
abbrev main_v279 : Ref sig .tc := ⟨.hbm, 476, rfl⟩
abbrev main_c_194 : Ref sig .tc := ⟨.hbm, 477, rfl⟩
abbrev main_v280 : Ref sig .tc := ⟨.hbm, 478, rfl⟩
abbrev main_v281 : Ref sig .tc := ⟨.hbm, 479, rfl⟩
abbrev main_v282 : Ref sig .tc := ⟨.hbm, 480, rfl⟩
abbrev main_v283 : Ref sig .tc := ⟨.hbm, 481, rfl⟩
abbrev main_v284 : Ref sig .tc := ⟨.hbm, 482, rfl⟩
abbrev main_v285 : Ref sig .tc := ⟨.hbm, 483, rfl⟩
abbrev main_v286 : Ref sig .tc := ⟨.hbm, 484, rfl⟩
abbrev main_cst_195 : Ref sig .tc := ⟨.hbm, 485, rfl⟩
abbrev main_v287 : Ref sig .tc := ⟨.hbm, 486, rfl⟩
abbrev main_v288 : Ref sig .tc := ⟨.hbm, 487, rfl⟩
abbrev main_c_196 : Ref sig .tc := ⟨.hbm, 488, rfl⟩
abbrev main_v289 : Ref sig .tc := ⟨.hbm, 489, rfl⟩
abbrev main_v290 : Ref sig .tc := ⟨.hbm, 490, rfl⟩
abbrev main_v291 : Ref sig .tc := ⟨.hbm, 491, rfl⟩
abbrev main_c_197 : Ref sig .tc := ⟨.hbm, 492, rfl⟩
abbrev main_v292 : Ref sig .tc := ⟨.hbm, 493, rfl⟩
abbrev main_v293 : Ref sig .tc := ⟨.hbm, 494, rfl⟩
abbrev main_v294 : Ref sig .tc := ⟨.hbm, 495, rfl⟩
abbrev main_v295 : Ref sig .tc := ⟨.hbm, 496, rfl⟩
abbrev main_v296 : Ref sig .tc := ⟨.hbm, 497, rfl⟩
abbrev main_v297 : Ref sig .tc := ⟨.hbm, 498, rfl⟩
abbrev main_v298 : Ref sig .tc := ⟨.hbm, 499, rfl⟩
abbrev main_cst_198 : Ref sig .tc := ⟨.hbm, 500, rfl⟩
abbrev main_v299 : Ref sig .tc := ⟨.hbm, 501, rfl⟩
abbrev main_v300 : Ref sig .tc := ⟨.hbm, 502, rfl⟩
abbrev main_c_199 : Ref sig .tc := ⟨.hbm, 503, rfl⟩
abbrev main_v301 : Ref sig .tc := ⟨.hbm, 504, rfl⟩
abbrev main_v302 : Ref sig .tc := ⟨.hbm, 505, rfl⟩
abbrev main_v303 : Ref sig .tc := ⟨.hbm, 506, rfl⟩
abbrev main_c_200 : Ref sig .tc := ⟨.hbm, 507, rfl⟩
abbrev main_v304 : Ref sig .tc := ⟨.hbm, 508, rfl⟩
abbrev main_v305 : Ref sig .tc := ⟨.hbm, 509, rfl⟩
abbrev main_v306 : Ref sig .tc := ⟨.hbm, 510, rfl⟩
abbrev main_v307 : Ref sig .tc := ⟨.hbm, 511, rfl⟩
abbrev main_v308 : Ref sig .tc := ⟨.hbm, 512, rfl⟩
abbrev main_v309 : Ref sig .tc := ⟨.hbm, 513, rfl⟩
abbrev main_v310 : Ref sig .tc := ⟨.hbm, 514, rfl⟩
abbrev main_cst_201 : Ref sig .tc := ⟨.hbm, 515, rfl⟩
abbrev main_v311 : Ref sig .tc := ⟨.hbm, 516, rfl⟩
abbrev main_v312 : Ref sig .tc := ⟨.hbm, 517, rfl⟩
abbrev main_c_202 : Ref sig .tc := ⟨.hbm, 518, rfl⟩
abbrev main_v313 : Ref sig .tc := ⟨.hbm, 519, rfl⟩
abbrev main_v314 : Ref sig .tc := ⟨.hbm, 520, rfl⟩
abbrev main_v315 : Ref sig .tc := ⟨.hbm, 521, rfl⟩
abbrev main_c_203 : Ref sig .tc := ⟨.hbm, 522, rfl⟩
abbrev main_v316 : Ref sig .tc := ⟨.hbm, 523, rfl⟩
abbrev main_v317 : Ref sig .tc := ⟨.hbm, 524, rfl⟩
abbrev main_v318 : Ref sig .tc := ⟨.hbm, 525, rfl⟩
abbrev main_v319 : Ref sig .tc := ⟨.hbm, 526, rfl⟩
abbrev main_v320 : Ref sig .tc := ⟨.hbm, 527, rfl⟩
abbrev main_v321 : Ref sig .tc := ⟨.hbm, 528, rfl⟩
abbrev main_v322 : Ref sig .tc := ⟨.hbm, 529, rfl⟩
abbrev main_cst_204 : Ref sig .tc := ⟨.hbm, 530, rfl⟩
abbrev main_v323 : Ref sig .tc := ⟨.hbm, 531, rfl⟩
abbrev main_v324 : Ref sig .tc := ⟨.hbm, 532, rfl⟩
abbrev main_c_205 : Ref sig .tc := ⟨.hbm, 533, rfl⟩
abbrev main_v325 : Ref sig .tc := ⟨.hbm, 534, rfl⟩
abbrev main_v326 : Ref sig .tc := ⟨.hbm, 535, rfl⟩
abbrev main_v327 : Ref sig .tc := ⟨.hbm, 536, rfl⟩
abbrev main_c_206 : Ref sig .tc := ⟨.hbm, 537, rfl⟩
abbrev main_v328 : Ref sig .tc := ⟨.hbm, 538, rfl⟩
abbrev main_v329 : Ref sig .tc := ⟨.hbm, 539, rfl⟩
abbrev main_v330 : Ref sig .tc := ⟨.hbm, 540, rfl⟩
abbrev main_v331 : Ref sig .tc := ⟨.hbm, 541, rfl⟩
abbrev main_v332 : Ref sig .tc := ⟨.hbm, 542, rfl⟩
abbrev main_v333 : Ref sig .tc := ⟨.hbm, 543, rfl⟩
abbrev main_v334 : Ref sig .tc := ⟨.hbm, 544, rfl⟩
abbrev main_cst_207 : Ref sig .tc := ⟨.hbm, 545, rfl⟩
abbrev main_v335 : Ref sig .tc := ⟨.hbm, 546, rfl⟩
abbrev main_v336 : Ref sig .tc := ⟨.hbm, 547, rfl⟩
abbrev main_c_208 : Ref sig .tc := ⟨.hbm, 548, rfl⟩
abbrev main_v337 : Ref sig .tc := ⟨.hbm, 549, rfl⟩
abbrev main_v338 : Ref sig .tc := ⟨.hbm, 550, rfl⟩
abbrev main_v339 : Ref sig .tc := ⟨.hbm, 551, rfl⟩
abbrev main_c_209 : Ref sig .tc := ⟨.hbm, 552, rfl⟩
abbrev main_v340 : Ref sig .tc := ⟨.hbm, 553, rfl⟩
abbrev main_v341 : Ref sig .tc := ⟨.hbm, 554, rfl⟩
abbrev main_v342 : Ref sig .tc := ⟨.hbm, 555, rfl⟩
abbrev main_v343 : Ref sig .tc := ⟨.hbm, 556, rfl⟩
abbrev main_v344 : Ref sig .tc := ⟨.hbm, 557, rfl⟩
abbrev main_v345 : Ref sig .tc := ⟨.hbm, 558, rfl⟩
abbrev main_v346 : Ref sig .tc := ⟨.hbm, 559, rfl⟩
abbrev main_cst_210 : Ref sig .tc := ⟨.hbm, 560, rfl⟩
abbrev main_v347 : Ref sig .tc := ⟨.hbm, 561, rfl⟩
abbrev main_v348 : Ref sig .tc := ⟨.hbm, 562, rfl⟩
abbrev main_c_211 : Ref sig .tc := ⟨.hbm, 563, rfl⟩
abbrev main_v349 : Ref sig .tc := ⟨.hbm, 564, rfl⟩
abbrev main_v350 : Ref sig .tc := ⟨.hbm, 565, rfl⟩
abbrev main_v351 : Ref sig .tc := ⟨.hbm, 566, rfl⟩
abbrev main_c_212 : Ref sig .tc := ⟨.hbm, 567, rfl⟩
abbrev main_v352 : Ref sig .tc := ⟨.hbm, 568, rfl⟩
abbrev main_v353 : Ref sig .tc := ⟨.hbm, 569, rfl⟩
abbrev main_v354 : Ref sig .tc := ⟨.hbm, 570, rfl⟩
abbrev main_v355 : Ref sig .tc := ⟨.hbm, 571, rfl⟩
abbrev main_v356 : Ref sig .tc := ⟨.hbm, 572, rfl⟩
abbrev main_v357 : Ref sig .tc := ⟨.hbm, 573, rfl⟩
abbrev main_v358 : Ref sig .tc := ⟨.hbm, 574, rfl⟩
abbrev main_cst_213 : Ref sig .tc := ⟨.hbm, 575, rfl⟩
abbrev main_v359 : Ref sig .tc := ⟨.hbm, 576, rfl⟩
abbrev main_v360 : Ref sig .tc := ⟨.hbm, 577, rfl⟩
abbrev main_c_214 : Ref sig .tc := ⟨.hbm, 578, rfl⟩
abbrev main_v361 : Ref sig .tc := ⟨.hbm, 579, rfl⟩
abbrev main_v362 : Ref sig .tc := ⟨.hbm, 580, rfl⟩
abbrev main_v363 : Ref sig .tc := ⟨.hbm, 581, rfl⟩
abbrev main_c_215 : Ref sig .tc := ⟨.hbm, 582, rfl⟩
abbrev main_v364 : Ref sig .tc := ⟨.hbm, 583, rfl⟩
abbrev main_v365 : Ref sig .tc := ⟨.hbm, 584, rfl⟩
abbrev main_v366 : Ref sig .tc := ⟨.hbm, 585, rfl⟩
abbrev main_v367 : Ref sig .tc := ⟨.hbm, 586, rfl⟩
abbrev main_v368 : Ref sig .tc := ⟨.hbm, 587, rfl⟩
abbrev main_v369 : Ref sig .tc := ⟨.hbm, 588, rfl⟩
abbrev main_v370 : Ref sig .tc := ⟨.hbm, 589, rfl⟩

abbrev nD : Nat := 1
abbrev τ : Topo := Topo.v7x

variable {F : FTy → Type} [FloatOps F]

class Facts₀ : Prop where
  bcast_S_S32x512x64x64 : S_.BroadcastsInDim S32x512x64x64 (![] : Fin 0 → Fin S32x512x64x64.rank)
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  bcast_S_S_ : S_.BroadcastsInDim S_ (![] : Fin 0 → Fin S_.rank)
  reduceWindows_S32x512x64_S32x512x63_w1s1p0_0_w1s1p0_0_w2s1p0_0 : S32x512x64.ReduceWindows (![1, 1, 2] : Fin 3 → Nat) ![1, 1, 1] ![0, 0, 0] ![0, 0, 0] S32x512x63
  h_S_ : 0 < S_.numel
  bcast_S_S63 : S_.BroadcastsInDim S63 (![] : Fin 0 → Fin S63.rank)
  bcast_S63_S63x1_0 : S63.BroadcastsInDim S63x1 (![0] : Fin 1 → Fin S63x1.rank)
  concatenates_S63x1_S63x1_S63x2_d1 : Shape.Concatenates [S63x1, S63x1] S63x2 1
  reduceWindows_S32x512x63_S32x512x62_w1s1p0_0_w1s1p0_0_w2s1p0_0 : S32x512x63.ReduceWindows (![1, 1, 2] : Fin 3 → Nat) ![1, 1, 1] ![0, 0, 0] ![0, 0, 0] S32x512x62
  bcast_S_S62 : S_.BroadcastsInDim S62 (![] : Fin 0 → Fin S62.rank)
  bcast_S62_S62x1_0 : S62.BroadcastsInDim S62x1 (![0] : Fin 1 → Fin S62x1.rank)
  concatenates_S62x1_S62x1_S62x2_d1 : Shape.Concatenates [S62x1, S62x1] S62x2 1
  reduceWindows_S32x512x62_S32x512x61_w1s1p0_0_w1s1p0_0_w2s1p0_0 : S32x512x62.ReduceWindows (![1, 1, 2] : Fin 3 → Nat) ![1, 1, 1] ![0, 0, 0] ![0, 0, 0] S32x512x61
  bcast_S_S61 : S_.BroadcastsInDim S61 (![] : Fin 0 → Fin S61.rank)
  bcast_S61_S61x1_0 : S61.BroadcastsInDim S61x1 (![0] : Fin 1 → Fin S61x1.rank)
  concatenates_S61x1_S61x1_S61x2_d1 : Shape.Concatenates [S61x1, S61x1] S61x2 1
  reduceWindows_S32x512x61_S32x512x60_w1s1p0_0_w1s1p0_0_w2s1p0_0 : S32x512x61.ReduceWindows (![1, 1, 2] : Fin 3 → Nat) ![1, 1, 1] ![0, 0, 0] ![0, 0, 0] S32x512x60
  bcast_S_S60 : S_.BroadcastsInDim S60 (![] : Fin 0 → Fin S60.rank)
  bcast_S60_S60x1_0 : S60.BroadcastsInDim S60x1 (![0] : Fin 1 → Fin S60x1.rank)
  concatenates_S60x1_S60x1_S60x2_d1 : Shape.Concatenates [S60x1, S60x1] S60x2 1
  reduceWindows_S32x512x60_S32x512x59_w1s1p0_0_w1s1p0_0_w2s1p0_0 : S32x512x60.ReduceWindows (![1, 1, 2] : Fin 3 → Nat) ![1, 1, 1] ![0, 0, 0] ![0, 0, 0] S32x512x59
  bcast_S_S59 : S_.BroadcastsInDim S59 (![] : Fin 0 → Fin S59.rank)
  bcast_S59_S59x1_0 : S59.BroadcastsInDim S59x1 (![0] : Fin 1 → Fin S59x1.rank)
  concatenates_S59x1_S59x1_S59x2_d1 : Shape.Concatenates [S59x1, S59x1] S59x2 1
  reduceWindows_S32x512x59_S32x512x58_w1s1p0_0_w1s1p0_0_w2s1p0_0 : S32x512x59.ReduceWindows (![1, 1, 2] : Fin 3 → Nat) ![1, 1, 1] ![0, 0, 0] ![0, 0, 0] S32x512x58
  bcast_S_S58 : S_.BroadcastsInDim S58 (![] : Fin 0 → Fin S58.rank)
  bcast_S58_S58x1_0 : S58.BroadcastsInDim S58x1 (![0] : Fin 1 → Fin S58x1.rank)
  concatenates_S58x1_S58x1_S58x2_d1 : Shape.Concatenates [S58x1, S58x1] S58x2 1
  reduceWindows_S32x512x58_S32x512x57_w1s1p0_0_w1s1p0_0_w2s1p0_0 : S32x512x58.ReduceWindows (![1, 1, 2] : Fin 3 → Nat) ![1, 1, 1] ![0, 0, 0] ![0, 0, 0] S32x512x57
  bcast_S_S57 : S_.BroadcastsInDim S57 (![] : Fin 0 → Fin S57.rank)
  bcast_S57_S57x1_0 : S57.BroadcastsInDim S57x1 (![0] : Fin 1 → Fin S57x1.rank)
  concatenates_S57x1_S57x1_S57x2_d1 : Shape.Concatenates [S57x1, S57x1] S57x2 1
  reduceWindows_S32x512x57_S32x512x56_w1s1p0_0_w1s1p0_0_w2s1p0_0 : S32x512x57.ReduceWindows (![1, 1, 2] : Fin 3 → Nat) ![1, 1, 1] ![0, 0, 0] ![0, 0, 0] S32x512x56
  bcast_S_S56 : S_.BroadcastsInDim S56 (![] : Fin 0 → Fin S56.rank)
  bcast_S56_S56x1_0 : S56.BroadcastsInDim S56x1 (![0] : Fin 1 → Fin S56x1.rank)
  concatenates_S56x1_S56x1_S56x2_d1 : Shape.Concatenates [S56x1, S56x1] S56x2 1
  reduceWindows_S32x512x56_S32x512x55_w1s1p0_0_w1s1p0_0_w2s1p0_0 : S32x512x56.ReduceWindows (![1, 1, 2] : Fin 3 → Nat) ![1, 1, 1] ![0, 0, 0] ![0, 0, 0] S32x512x55
  bcast_S_S55 : S_.BroadcastsInDim S55 (![] : Fin 0 → Fin S55.rank)
  bcast_S55_S55x1_0 : S55.BroadcastsInDim S55x1 (![0] : Fin 1 → Fin S55x1.rank)
  concatenates_S55x1_S55x1_S55x2_d1 : Shape.Concatenates [S55x1, S55x1] S55x2 1
  reduceWindows_S32x512x55_S32x512x54_w1s1p0_0_w1s1p0_0_w2s1p0_0 : S32x512x55.ReduceWindows (![1, 1, 2] : Fin 3 → Nat) ![1, 1, 1] ![0, 0, 0] ![0, 0, 0] S32x512x54
  bcast_S_S54 : S_.BroadcastsInDim S54 (![] : Fin 0 → Fin S54.rank)
  bcast_S54_S54x1_0 : S54.BroadcastsInDim S54x1 (![0] : Fin 1 → Fin S54x1.rank)
  concatenates_S54x1_S54x1_S54x2_d1 : Shape.Concatenates [S54x1, S54x1] S54x2 1
  reduceWindows_S32x512x54_S32x512x53_w1s1p0_0_w1s1p0_0_w2s1p0_0 : S32x512x54.ReduceWindows (![1, 1, 2] : Fin 3 → Nat) ![1, 1, 1] ![0, 0, 0] ![0, 0, 0] S32x512x53
  bcast_S_S53 : S_.BroadcastsInDim S53 (![] : Fin 0 → Fin S53.rank)
  bcast_S53_S53x1_0 : S53.BroadcastsInDim S53x1 (![0] : Fin 1 → Fin S53x1.rank)
  concatenates_S53x1_S53x1_S53x2_d1 : Shape.Concatenates [S53x1, S53x1] S53x2 1
  reduceWindows_S32x512x53_S32x512x52_w1s1p0_0_w1s1p0_0_w2s1p0_0 : S32x512x53.ReduceWindows (![1, 1, 2] : Fin 3 → Nat) ![1, 1, 1] ![0, 0, 0] ![0, 0, 0] S32x512x52
  bcast_S_S52 : S_.BroadcastsInDim S52 (![] : Fin 0 → Fin S52.rank)
  bcast_S52_S52x1_0 : S52.BroadcastsInDim S52x1 (![0] : Fin 1 → Fin S52x1.rank)
  concatenates_S52x1_S52x1_S52x2_d1 : Shape.Concatenates [S52x1, S52x1] S52x2 1
  reduceWindows_S32x512x52_S32x512x51_w1s1p0_0_w1s1p0_0_w2s1p0_0 : S32x512x52.ReduceWindows (![1, 1, 2] : Fin 3 → Nat) ![1, 1, 1] ![0, 0, 0] ![0, 0, 0] S32x512x51
  bcast_S_S51 : S_.BroadcastsInDim S51 (![] : Fin 0 → Fin S51.rank)
  bcast_S51_S51x1_0 : S51.BroadcastsInDim S51x1 (![0] : Fin 1 → Fin S51x1.rank)
  concatenates_S51x1_S51x1_S51x2_d1 : Shape.Concatenates [S51x1, S51x1] S51x2 1
  reduceWindows_S32x512x51_S32x512x50_w1s1p0_0_w1s1p0_0_w2s1p0_0 : S32x512x51.ReduceWindows (![1, 1, 2] : Fin 3 → Nat) ![1, 1, 1] ![0, 0, 0] ![0, 0, 0] S32x512x50
  bcast_S_S50 : S_.BroadcastsInDim S50 (![] : Fin 0 → Fin S50.rank)
  bcast_S50_S50x1_0 : S50.BroadcastsInDim S50x1 (![0] : Fin 1 → Fin S50x1.rank)
  concatenates_S50x1_S50x1_S50x2_d1 : Shape.Concatenates [S50x1, S50x1] S50x2 1
  reduceWindows_S32x512x50_S32x512x24_w1s1p0_0_w1s1p0_0_w3s2p0_0 : S32x512x50.ReduceWindows (![1, 1, 3] : Fin 3 → Nat) ![1, 1, 2] ![0, 0, 0] ![0, 0, 0] S32x512x24
  bcast_S_S24 : S_.BroadcastsInDim S24 (![] : Fin 0 → Fin S24.rank)
  bcast_S24_S24x1_0 : S24.BroadcastsInDim S24x1 (![0] : Fin 1 → Fin S24x1.rank)
  concatenates_S24x1_S24x1_S24x2_d1 : Shape.Concatenates [S24x1, S24x1] S24x2 1
  reduceWindows_S32x512x24_S32x512x23_w1s1p0_0_w1s1p0_0_w2s1p0_0 : S32x512x24.ReduceWindows (![1, 1, 2] : Fin 3 → Nat) ![1, 1, 1] ![0, 0, 0] ![0, 0, 0] S32x512x23
  bcast_S_S23 : S_.BroadcastsInDim S23 (![] : Fin 0 → Fin S23.rank)
  bcast_S23_S23x1_0 : S23.BroadcastsInDim S23x1 (![0] : Fin 1 → Fin S23x1.rank)
  concatenates_S23x1_S23x1_S23x2_d1 : Shape.Concatenates [S23x1, S23x1] S23x2 1
  reduceWindows_S32x512x23_S32x512x22_w1s1p0_0_w1s1p0_0_w2s1p0_0 : S32x512x23.ReduceWindows (![1, 1, 2] : Fin 3 → Nat) ![1, 1, 1] ![0, 0, 0] ![0, 0, 0] S32x512x22
  bcast_S_S22 : S_.BroadcastsInDim S22 (![] : Fin 0 → Fin S22.rank)
  bcast_S22_S22x1_0 : S22.BroadcastsInDim S22x1 (![0] : Fin 1 → Fin S22x1.rank)
  concatenates_S22x1_S22x1_S22x2_d1 : Shape.Concatenates [S22x1, S22x1] S22x2 1
  reduceWindows_S32x512x22_S32x512x21_w1s1p0_0_w1s1p0_0_w2s1p0_0 : S32x512x22.ReduceWindows (![1, 1, 2] : Fin 3 → Nat) ![1, 1, 1] ![0, 0, 0] ![0, 0, 0] S32x512x21
  bcast_S_S21 : S_.BroadcastsInDim S21 (![] : Fin 0 → Fin S21.rank)
  bcast_S21_S21x1_0 : S21.BroadcastsInDim S21x1 (![0] : Fin 1 → Fin S21x1.rank)
  concatenates_S21x1_S21x1_S21x2_d1 : Shape.Concatenates [S21x1, S21x1] S21x2 1
  reduceWindows_S32x512x21_S32x512x20_w1s1p0_0_w1s1p0_0_w2s1p0_0 : S32x512x21.ReduceWindows (![1, 1, 2] : Fin 3 → Nat) ![1, 1, 1] ![0, 0, 0] ![0, 0, 0] S32x512x20
  bcast_S_S20 : S_.BroadcastsInDim S20 (![] : Fin 0 → Fin S20.rank)
  bcast_S20_S20x1_0 : S20.BroadcastsInDim S20x1 (![0] : Fin 1 → Fin S20x1.rank)
  concatenates_S20x1_S20x1_S20x2_d1 : Shape.Concatenates [S20x1, S20x1] S20x2 1
  reduceWindows_S32x512x20_S32x512x19_w1s1p0_0_w1s1p0_0_w2s1p0_0 : S32x512x20.ReduceWindows (![1, 1, 2] : Fin 3 → Nat) ![1, 1, 1] ![0, 0, 0] ![0, 0, 0] S32x512x19
  bcast_S_S19 : S_.BroadcastsInDim S19 (![] : Fin 0 → Fin S19.rank)
  bcast_S19_S19x1_0 : S19.BroadcastsInDim S19x1 (![0] : Fin 1 → Fin S19x1.rank)
  concatenates_S19x1_S19x1_S19x2_d1 : Shape.Concatenates [S19x1, S19x1] S19x2 1
  reduceWindows_S32x512x19_S32x512x18_w1s1p0_0_w1s1p0_0_w2s1p0_0 : S32x512x19.ReduceWindows (![1, 1, 2] : Fin 3 → Nat) ![1, 1, 1] ![0, 0, 0] ![0, 0, 0] S32x512x18
  bcast_S_S18 : S_.BroadcastsInDim S18 (![] : Fin 0 → Fin S18.rank)
  bcast_S18_S18x1_0 : S18.BroadcastsInDim S18x1 (![0] : Fin 1 → Fin S18x1.rank)
  concatenates_S18x1_S18x1_S18x2_d1 : Shape.Concatenates [S18x1, S18x1] S18x2 1
  reduceWindows_S32x512x18_S32x512x17_w1s1p0_0_w1s1p0_0_w2s1p0_0 : S32x512x18.ReduceWindows (![1, 1, 2] : Fin 3 → Nat) ![1, 1, 1] ![0, 0, 0] ![0, 0, 0] S32x512x17
  bcast_S_S17 : S_.BroadcastsInDim S17 (![] : Fin 0 → Fin S17.rank)
  bcast_S17_S17x1_0 : S17.BroadcastsInDim S17x1 (![0] : Fin 1 → Fin S17x1.rank)
  concatenates_S17x1_S17x1_S17x2_d1 : Shape.Concatenates [S17x1, S17x1] S17x2 1
  reduceWindows_S32x512x17_S32x512x8_w1s1p0_0_w1s1p0_0_w3s2p0_0 : S32x512x17.ReduceWindows (![1, 1, 3] : Fin 3 → Nat) ![1, 1, 2] ![0, 0, 0] ![0, 0, 0] S32x512x8
  bcast_S_S8 : S_.BroadcastsInDim S8 (![] : Fin 0 → Fin S8.rank)
  bcast_S8_S8x1_0 : S8.BroadcastsInDim S8x1 (![0] : Fin 1 → Fin S8x1.rank)
  concatenates_S8x1_S8x1_S8x2_d1 : Shape.Concatenates [S8x1, S8x1] S8x2 1
  reduceWindows_S32x512x8_S32x512x7_w1s1p0_0_w1s1p0_0_w2s1p0_0 : S32x512x8.ReduceWindows (![1, 1, 2] : Fin 3 → Nat) ![1, 1, 1] ![0, 0, 0] ![0, 0, 0] S32x512x7
  bcast_S_S7 : S_.BroadcastsInDim S7 (![] : Fin 0 → Fin S7.rank)
  bcast_S7_S7x1_0 : S7.BroadcastsInDim S7x1 (![0] : Fin 1 → Fin S7x1.rank)
  concatenates_S7x1_S7x1_S7x2_d1 : Shape.Concatenates [S7x1, S7x1] S7x2 1
  reduceWindows_S32x512x7_S32x512x6_w1s1p0_0_w1s1p0_0_w2s1p0_0 : S32x512x7.ReduceWindows (![1, 1, 2] : Fin 3 → Nat) ![1, 1, 1] ![0, 0, 0] ![0, 0, 0] S32x512x6
  bcast_S_S6 : S_.BroadcastsInDim S6 (![] : Fin 0 → Fin S6.rank)
  bcast_S6_S6x1_0 : S6.BroadcastsInDim S6x1 (![0] : Fin 1 → Fin S6x1.rank)
  concatenates_S6x1_S6x1_S6x2_d1 : Shape.Concatenates [S6x1, S6x1] S6x2 1
  reduceWindows_S32x512x6_S32x512x5_w1s1p0_0_w1s1p0_0_w2s1p0_0 : S32x512x6.ReduceWindows (![1, 1, 2] : Fin 3 → Nat) ![1, 1, 1] ![0, 0, 0] ![0, 0, 0] S32x512x5
  bcast_S_S5 : S_.BroadcastsInDim S5 (![] : Fin 0 → Fin S5.rank)
  bcast_S5_S5x1_0 : S5.BroadcastsInDim S5x1 (![0] : Fin 1 → Fin S5x1.rank)
  concatenates_S5x1_S5x1_S5x2_d1 : Shape.Concatenates [S5x1, S5x1] S5x2 1
  reduceWindows_S32x512x5_S32x512x4_w1s1p0_0_w1s1p0_0_w2s1p0_0 : S32x512x5.ReduceWindows (![1, 1, 2] : Fin 3 → Nat) ![1, 1, 1] ![0, 0, 0] ![0, 0, 0] S32x512x4
  bcast_S_S4 : S_.BroadcastsInDim S4 (![] : Fin 0 → Fin S4.rank)
  bcast_S4_S4x1_0 : S4.BroadcastsInDim S4x1 (![0] : Fin 1 → Fin S4x1.rank)
  concatenates_S4x1_S4x1_S4x2_d1 : Shape.Concatenates [S4x1, S4x1] S4x2 1
  reduceWindows_S32x512x4_S32x512x3_w1s1p0_0_w1s1p0_0_w2s1p0_0 : S32x512x4.ReduceWindows (![1, 1, 2] : Fin 3 → Nat) ![1, 1, 1] ![0, 0, 0] ![0, 0, 0] S32x512x3
  bcast_S_S3 : S_.BroadcastsInDim S3 (![] : Fin 0 → Fin S3.rank)
  bcast_S3_S3x1_0 : S3.BroadcastsInDim S3x1 (![0] : Fin 1 → Fin S3x1.rank)
  concatenates_S3x1_S3x1_S3x2_d1 : Shape.Concatenates [S3x1, S3x1] S3x2 1
  reduceWindows_S32x512x3_S32x512x2_w1s1p0_0_w1s1p0_0_w2s1p0_0 : S32x512x3.ReduceWindows (![1, 1, 2] : Fin 3 → Nat) ![1, 1, 1] ![0, 0, 0] ![0, 0, 0] S32x512x2
  bcast_S_S2 : S_.BroadcastsInDim S2 (![] : Fin 0 → Fin S2.rank)
  bcast_S2_S2x1_0 : S2.BroadcastsInDim S2x1 (![0] : Fin 1 → Fin S2x1.rank)
  concatenates_S2x1_S2x1_S2x2_d1 : Shape.Concatenates [S2x1, S2x1] S2x2 1
  reduceWindows_S32x512x2_S32x512x1_w1s1p0_0_w1s1p0_0_w2s1p0_0 : S32x512x2.ReduceWindows (![1, 1, 2] : Fin 3 → Nat) ![1, 1, 1] ![0, 0, 0] ![0, 0, 0] S32x512x1
  bcast_S_S1 : S_.BroadcastsInDim S1 (![] : Fin 0 → Fin S1.rank)
  bcast_S1_S1x1_0 : S1.BroadcastsInDim S1x1 (![0] : Fin 1 → Fin S1x1.rank)
  concatenates_S1x1_S1x1_S1x2_d1 : Shape.Concatenates [S1x1, S1x1] S1x2 1
  scatter_S32x512x64x64_S64x2_S32x512x64_01_23_23_1_wf : ScatterDims.WF S32x512x64x64 S64x2 S32x512x64 [0, 1] [2, 3] [2, 3] 1
  scatter_S32x512x64x64_S63x2_S32x512x63_01_23_23_1_wf : ScatterDims.WF S32x512x64x64 S63x2 S32x512x63 [0, 1] [2, 3] [2, 3] 1
  scatter_S32x512x64x64_S62x2_S32x512x62_01_23_23_1_wf : ScatterDims.WF S32x512x64x64 S62x2 S32x512x62 [0, 1] [2, 3] [2, 3] 1
  scatter_S32x512x64x64_S61x2_S32x512x61_01_23_23_1_wf : ScatterDims.WF S32x512x64x64 S61x2 S32x512x61 [0, 1] [2, 3] [2, 3] 1
  scatter_S32x512x64x64_S60x2_S32x512x60_01_23_23_1_wf : ScatterDims.WF S32x512x64x64 S60x2 S32x512x60 [0, 1] [2, 3] [2, 3] 1
  scatter_S32x512x64x64_S59x2_S32x512x59_01_23_23_1_wf : ScatterDims.WF S32x512x64x64 S59x2 S32x512x59 [0, 1] [2, 3] [2, 3] 1
  scatter_S32x512x64x64_S58x2_S32x512x58_01_23_23_1_wf : ScatterDims.WF S32x512x64x64 S58x2 S32x512x58 [0, 1] [2, 3] [2, 3] 1
  scatter_S32x512x64x64_S57x2_S32x512x57_01_23_23_1_wf : ScatterDims.WF S32x512x64x64 S57x2 S32x512x57 [0, 1] [2, 3] [2, 3] 1
  scatter_S32x512x64x64_S56x2_S32x512x56_01_23_23_1_wf : ScatterDims.WF S32x512x64x64 S56x2 S32x512x56 [0, 1] [2, 3] [2, 3] 1
  scatter_S32x512x64x64_S55x2_S32x512x55_01_23_23_1_wf : ScatterDims.WF S32x512x64x64 S55x2 S32x512x55 [0, 1] [2, 3] [2, 3] 1
  scatter_S32x512x64x64_S54x2_S32x512x54_01_23_23_1_wf : ScatterDims.WF S32x512x64x64 S54x2 S32x512x54 [0, 1] [2, 3] [2, 3] 1
  scatter_S32x512x64x64_S53x2_S32x512x53_01_23_23_1_wf : ScatterDims.WF S32x512x64x64 S53x2 S32x512x53 [0, 1] [2, 3] [2, 3] 1
  scatter_S32x512x64x64_S52x2_S32x512x52_01_23_23_1_wf : ScatterDims.WF S32x512x64x64 S52x2 S32x512x52 [0, 1] [2, 3] [2, 3] 1
  scatter_S32x512x64x64_S51x2_S32x512x51_01_23_23_1_wf : ScatterDims.WF S32x512x64x64 S51x2 S32x512x51 [0, 1] [2, 3] [2, 3] 1
  scatter_S32x512x64x64_S50x2_S32x512x50_01_23_23_1_wf : ScatterDims.WF S32x512x64x64 S50x2 S32x512x50 [0, 1] [2, 3] [2, 3] 1
  scatter_S32x512x64x64_S24x2_S32x512x24_01_23_23_1_wf : ScatterDims.WF S32x512x64x64 S24x2 S32x512x24 [0, 1] [2, 3] [2, 3] 1
  scatter_S32x512x64x64_S23x2_S32x512x23_01_23_23_1_wf : ScatterDims.WF S32x512x64x64 S23x2 S32x512x23 [0, 1] [2, 3] [2, 3] 1
  scatter_S32x512x64x64_S22x2_S32x512x22_01_23_23_1_wf : ScatterDims.WF S32x512x64x64 S22x2 S32x512x22 [0, 1] [2, 3] [2, 3] 1
  scatter_S32x512x64x64_S21x2_S32x512x21_01_23_23_1_wf : ScatterDims.WF S32x512x64x64 S21x2 S32x512x21 [0, 1] [2, 3] [2, 3] 1
  scatter_S32x512x64x64_S20x2_S32x512x20_01_23_23_1_wf : ScatterDims.WF S32x512x64x64 S20x2 S32x512x20 [0, 1] [2, 3] [2, 3] 1
  scatter_S32x512x64x64_S19x2_S32x512x19_01_23_23_1_wf : ScatterDims.WF S32x512x64x64 S19x2 S32x512x19 [0, 1] [2, 3] [2, 3] 1
  scatter_S32x512x64x64_S18x2_S32x512x18_01_23_23_1_wf : ScatterDims.WF S32x512x64x64 S18x2 S32x512x18 [0, 1] [2, 3] [2, 3] 1
  scatter_S32x512x64x64_S17x2_S32x512x17_01_23_23_1_wf : ScatterDims.WF S32x512x64x64 S17x2 S32x512x17 [0, 1] [2, 3] [2, 3] 1
  scatter_S32x512x64x64_S8x2_S32x512x8_01_23_23_1_wf : ScatterDims.WF S32x512x64x64 S8x2 S32x512x8 [0, 1] [2, 3] [2, 3] 1
  scatter_S32x512x64x64_S7x2_S32x512x7_01_23_23_1_wf : ScatterDims.WF S32x512x64x64 S7x2 S32x512x7 [0, 1] [2, 3] [2, 3] 1
  scatter_S32x512x64x64_S6x2_S32x512x6_01_23_23_1_wf : ScatterDims.WF S32x512x64x64 S6x2 S32x512x6 [0, 1] [2, 3] [2, 3] 1
  scatter_S32x512x64x64_S5x2_S32x512x5_01_23_23_1_wf : ScatterDims.WF S32x512x64x64 S5x2 S32x512x5 [0, 1] [2, 3] [2, 3] 1
  scatter_S32x512x64x64_S4x2_S32x512x4_01_23_23_1_wf : ScatterDims.WF S32x512x64x64 S4x2 S32x512x4 [0, 1] [2, 3] [2, 3] 1
  scatter_S32x512x64x64_S3x2_S32x512x3_01_23_23_1_wf : ScatterDims.WF S32x512x64x64 S3x2 S32x512x3 [0, 1] [2, 3] [2, 3] 1
  scatter_S32x512x64x64_S2x2_S32x512x2_01_23_23_1_wf : ScatterDims.WF S32x512x64x64 S2x2 S32x512x2 [0, 1] [2, 3] [2, 3] 1
  scatter_S32x512x64x64_S1x2_S32x512x1_01_23_23_1_wf : ScatterDims.WF S32x512x64x64 S1x2 S32x512x1 [0, 1] [2, 3] [2, 3] 1

variable [Facts₀]

def scatter_S32x512x64x64_S64x2_S32x512x64_01_23_23_1 : ScatterDims S32x512x64x64 S64x2 S32x512x64 where
  updateWindowDims := [0, 1]
  insertedWindowDims := [2, 3]
  scatterDimsToOperandDims := [2, 3]
  indexVectorDim := 1
  wf := scatter_S32x512x64x64_S64x2_S32x512x64_01_23_23_1_wf
def scatter_S32x512x64x64_S63x2_S32x512x63_01_23_23_1 : ScatterDims S32x512x64x64 S63x2 S32x512x63 where
  updateWindowDims := [0, 1]
  insertedWindowDims := [2, 3]
  scatterDimsToOperandDims := [2, 3]
  indexVectorDim := 1
  wf := scatter_S32x512x64x64_S63x2_S32x512x63_01_23_23_1_wf
def scatter_S32x512x64x64_S62x2_S32x512x62_01_23_23_1 : ScatterDims S32x512x64x64 S62x2 S32x512x62 where
  updateWindowDims := [0, 1]
  insertedWindowDims := [2, 3]
  scatterDimsToOperandDims := [2, 3]
  indexVectorDim := 1
  wf := scatter_S32x512x64x64_S62x2_S32x512x62_01_23_23_1_wf
def scatter_S32x512x64x64_S61x2_S32x512x61_01_23_23_1 : ScatterDims S32x512x64x64 S61x2 S32x512x61 where
  updateWindowDims := [0, 1]
  insertedWindowDims := [2, 3]
  scatterDimsToOperandDims := [2, 3]
  indexVectorDim := 1
  wf := scatter_S32x512x64x64_S61x2_S32x512x61_01_23_23_1_wf
def scatter_S32x512x64x64_S60x2_S32x512x60_01_23_23_1 : ScatterDims S32x512x64x64 S60x2 S32x512x60 where
  updateWindowDims := [0, 1]
  insertedWindowDims := [2, 3]
  scatterDimsToOperandDims := [2, 3]
  indexVectorDim := 1
  wf := scatter_S32x512x64x64_S60x2_S32x512x60_01_23_23_1_wf
def scatter_S32x512x64x64_S59x2_S32x512x59_01_23_23_1 : ScatterDims S32x512x64x64 S59x2 S32x512x59 where
  updateWindowDims := [0, 1]
  insertedWindowDims := [2, 3]
  scatterDimsToOperandDims := [2, 3]
  indexVectorDim := 1
  wf := scatter_S32x512x64x64_S59x2_S32x512x59_01_23_23_1_wf
def scatter_S32x512x64x64_S58x2_S32x512x58_01_23_23_1 : ScatterDims S32x512x64x64 S58x2 S32x512x58 where
  updateWindowDims := [0, 1]
  insertedWindowDims := [2, 3]
  scatterDimsToOperandDims := [2, 3]
  indexVectorDim := 1
  wf := scatter_S32x512x64x64_S58x2_S32x512x58_01_23_23_1_wf
def scatter_S32x512x64x64_S57x2_S32x512x57_01_23_23_1 : ScatterDims S32x512x64x64 S57x2 S32x512x57 where
  updateWindowDims := [0, 1]
  insertedWindowDims := [2, 3]
  scatterDimsToOperandDims := [2, 3]
  indexVectorDim := 1
  wf := scatter_S32x512x64x64_S57x2_S32x512x57_01_23_23_1_wf
def scatter_S32x512x64x64_S56x2_S32x512x56_01_23_23_1 : ScatterDims S32x512x64x64 S56x2 S32x512x56 where
  updateWindowDims := [0, 1]
  insertedWindowDims := [2, 3]
  scatterDimsToOperandDims := [2, 3]
  indexVectorDim := 1
  wf := scatter_S32x512x64x64_S56x2_S32x512x56_01_23_23_1_wf
def scatter_S32x512x64x64_S55x2_S32x512x55_01_23_23_1 : ScatterDims S32x512x64x64 S55x2 S32x512x55 where
  updateWindowDims := [0, 1]
  insertedWindowDims := [2, 3]
  scatterDimsToOperandDims := [2, 3]
  indexVectorDim := 1
  wf := scatter_S32x512x64x64_S55x2_S32x512x55_01_23_23_1_wf
def scatter_S32x512x64x64_S54x2_S32x512x54_01_23_23_1 : ScatterDims S32x512x64x64 S54x2 S32x512x54 where
  updateWindowDims := [0, 1]
  insertedWindowDims := [2, 3]
  scatterDimsToOperandDims := [2, 3]
  indexVectorDim := 1
  wf := scatter_S32x512x64x64_S54x2_S32x512x54_01_23_23_1_wf
def scatter_S32x512x64x64_S53x2_S32x512x53_01_23_23_1 : ScatterDims S32x512x64x64 S53x2 S32x512x53 where
  updateWindowDims := [0, 1]
  insertedWindowDims := [2, 3]
  scatterDimsToOperandDims := [2, 3]
  indexVectorDim := 1
  wf := scatter_S32x512x64x64_S53x2_S32x512x53_01_23_23_1_wf
def scatter_S32x512x64x64_S52x2_S32x512x52_01_23_23_1 : ScatterDims S32x512x64x64 S52x2 S32x512x52 where
  updateWindowDims := [0, 1]
  insertedWindowDims := [2, 3]
  scatterDimsToOperandDims := [2, 3]
  indexVectorDim := 1
  wf := scatter_S32x512x64x64_S52x2_S32x512x52_01_23_23_1_wf
def scatter_S32x512x64x64_S51x2_S32x512x51_01_23_23_1 : ScatterDims S32x512x64x64 S51x2 S32x512x51 where
  updateWindowDims := [0, 1]
  insertedWindowDims := [2, 3]
  scatterDimsToOperandDims := [2, 3]
  indexVectorDim := 1
  wf := scatter_S32x512x64x64_S51x2_S32x512x51_01_23_23_1_wf
def scatter_S32x512x64x64_S50x2_S32x512x50_01_23_23_1 : ScatterDims S32x512x64x64 S50x2 S32x512x50 where
  updateWindowDims := [0, 1]
  insertedWindowDims := [2, 3]
  scatterDimsToOperandDims := [2, 3]
  indexVectorDim := 1
  wf := scatter_S32x512x64x64_S50x2_S32x512x50_01_23_23_1_wf
def scatter_S32x512x64x64_S24x2_S32x512x24_01_23_23_1 : ScatterDims S32x512x64x64 S24x2 S32x512x24 where
  updateWindowDims := [0, 1]
  insertedWindowDims := [2, 3]
  scatterDimsToOperandDims := [2, 3]
  indexVectorDim := 1
  wf := scatter_S32x512x64x64_S24x2_S32x512x24_01_23_23_1_wf
def scatter_S32x512x64x64_S23x2_S32x512x23_01_23_23_1 : ScatterDims S32x512x64x64 S23x2 S32x512x23 where
  updateWindowDims := [0, 1]
  insertedWindowDims := [2, 3]
  scatterDimsToOperandDims := [2, 3]
  indexVectorDim := 1
  wf := scatter_S32x512x64x64_S23x2_S32x512x23_01_23_23_1_wf
def scatter_S32x512x64x64_S22x2_S32x512x22_01_23_23_1 : ScatterDims S32x512x64x64 S22x2 S32x512x22 where
  updateWindowDims := [0, 1]
  insertedWindowDims := [2, 3]
  scatterDimsToOperandDims := [2, 3]
  indexVectorDim := 1
  wf := scatter_S32x512x64x64_S22x2_S32x512x22_01_23_23_1_wf
def scatter_S32x512x64x64_S21x2_S32x512x21_01_23_23_1 : ScatterDims S32x512x64x64 S21x2 S32x512x21 where
  updateWindowDims := [0, 1]
  insertedWindowDims := [2, 3]
  scatterDimsToOperandDims := [2, 3]
  indexVectorDim := 1
  wf := scatter_S32x512x64x64_S21x2_S32x512x21_01_23_23_1_wf
def scatter_S32x512x64x64_S20x2_S32x512x20_01_23_23_1 : ScatterDims S32x512x64x64 S20x2 S32x512x20 where
  updateWindowDims := [0, 1]
  insertedWindowDims := [2, 3]
  scatterDimsToOperandDims := [2, 3]
  indexVectorDim := 1
  wf := scatter_S32x512x64x64_S20x2_S32x512x20_01_23_23_1_wf
def scatter_S32x512x64x64_S19x2_S32x512x19_01_23_23_1 : ScatterDims S32x512x64x64 S19x2 S32x512x19 where
  updateWindowDims := [0, 1]
  insertedWindowDims := [2, 3]
  scatterDimsToOperandDims := [2, 3]
  indexVectorDim := 1
  wf := scatter_S32x512x64x64_S19x2_S32x512x19_01_23_23_1_wf
def scatter_S32x512x64x64_S18x2_S32x512x18_01_23_23_1 : ScatterDims S32x512x64x64 S18x2 S32x512x18 where
  updateWindowDims := [0, 1]
  insertedWindowDims := [2, 3]
  scatterDimsToOperandDims := [2, 3]
  indexVectorDim := 1
  wf := scatter_S32x512x64x64_S18x2_S32x512x18_01_23_23_1_wf
def scatter_S32x512x64x64_S17x2_S32x512x17_01_23_23_1 : ScatterDims S32x512x64x64 S17x2 S32x512x17 where
  updateWindowDims := [0, 1]
  insertedWindowDims := [2, 3]
  scatterDimsToOperandDims := [2, 3]
  indexVectorDim := 1
  wf := scatter_S32x512x64x64_S17x2_S32x512x17_01_23_23_1_wf
def scatter_S32x512x64x64_S8x2_S32x512x8_01_23_23_1 : ScatterDims S32x512x64x64 S8x2 S32x512x8 where
  updateWindowDims := [0, 1]
  insertedWindowDims := [2, 3]
  scatterDimsToOperandDims := [2, 3]
  indexVectorDim := 1
  wf := scatter_S32x512x64x64_S8x2_S32x512x8_01_23_23_1_wf
def scatter_S32x512x64x64_S7x2_S32x512x7_01_23_23_1 : ScatterDims S32x512x64x64 S7x2 S32x512x7 where
  updateWindowDims := [0, 1]
  insertedWindowDims := [2, 3]
  scatterDimsToOperandDims := [2, 3]
  indexVectorDim := 1
  wf := scatter_S32x512x64x64_S7x2_S32x512x7_01_23_23_1_wf
def scatter_S32x512x64x64_S6x2_S32x512x6_01_23_23_1 : ScatterDims S32x512x64x64 S6x2 S32x512x6 where
  updateWindowDims := [0, 1]
  insertedWindowDims := [2, 3]
  scatterDimsToOperandDims := [2, 3]
  indexVectorDim := 1
  wf := scatter_S32x512x64x64_S6x2_S32x512x6_01_23_23_1_wf
def scatter_S32x512x64x64_S5x2_S32x512x5_01_23_23_1 : ScatterDims S32x512x64x64 S5x2 S32x512x5 where
  updateWindowDims := [0, 1]
  insertedWindowDims := [2, 3]
  scatterDimsToOperandDims := [2, 3]
  indexVectorDim := 1
  wf := scatter_S32x512x64x64_S5x2_S32x512x5_01_23_23_1_wf
def scatter_S32x512x64x64_S4x2_S32x512x4_01_23_23_1 : ScatterDims S32x512x64x64 S4x2 S32x512x4 where
  updateWindowDims := [0, 1]
  insertedWindowDims := [2, 3]
  scatterDimsToOperandDims := [2, 3]
  indexVectorDim := 1
  wf := scatter_S32x512x64x64_S4x2_S32x512x4_01_23_23_1_wf
def scatter_S32x512x64x64_S3x2_S32x512x3_01_23_23_1 : ScatterDims S32x512x64x64 S3x2 S32x512x3 where
  updateWindowDims := [0, 1]
  insertedWindowDims := [2, 3]
  scatterDimsToOperandDims := [2, 3]
  indexVectorDim := 1
  wf := scatter_S32x512x64x64_S3x2_S32x512x3_01_23_23_1_wf
def scatter_S32x512x64x64_S2x2_S32x512x2_01_23_23_1 : ScatterDims S32x512x64x64 S2x2 S32x512x2 where
  updateWindowDims := [0, 1]
  insertedWindowDims := [2, 3]
  scatterDimsToOperandDims := [2, 3]
  indexVectorDim := 1
  wf := scatter_S32x512x64x64_S2x2_S32x512x2_01_23_23_1_wf
def scatter_S32x512x64x64_S1x2_S32x512x1_01_23_23_1 : ScatterDims S32x512x64x64 S1x2 S32x512x1 where
  updateWindowDims := [0, 1]
  insertedWindowDims := [2, 3]
  scatterDimsToOperandDims := [2, 3]
  indexVectorDim := 1
  wf := scatter_S32x512x64x64_S1x2_S32x512x1_01_23_23_1_wf

class Facts : Prop extends Facts₀ where

variable [Facts]
-- ==== Proof.Spec.lean ====
/-
  What both programs compute, as plain functions on one row of the input.

  A row x of 64 extended reals is pooled thirty times: fourteen maxima of neighbours (windows of 2, stride 1), one maximum
  of three at stride 2, seven more maxima of neighbours, one more maximum of three at stride 2, and seven more maxima of
  neighbours. Stage s of this chain (P x s, stage 0 being x itself) is written into a 64 by 64 map of zeros along one
  diagonal band: stages 0 to 14 at the entries (t, t + s); stages 15 to 22 at (2t, 2t + 16 + 2(s - 15)); stages 23 to 30 at
  (4t, 4t + 34 + 4(s - 23)). The offsets j - i of the thirty-one bands are pairwise different, so an entry (i, j) is
  written by at most one stage and G reads the map directly off the offset.
-/
import Idealize.ShloMosaic.PureOps.Ideal
import Idealize.ShloMosaic.Lib.ValueIdx

noncomputable section

namespace Cert.Spec

open Idealize.ShloMosaic Idealize.ShloMosaic.ValueIdx

abbrev S32x512x64 : Shape := ⟨3, ![32, 512, 64]⟩
abbrev S32x512x64x64 : Shape := ⟨4, ![32, 512, 64, 64]⟩

/-- The maximum of each entry and its right neighbour. -/
def pool2 (f : ℕ → EReal) : ℕ → EReal := fun t => max (f t) (f (t + 1))

/-- The maximum of three consecutive entries, taken at every second position. -/
def pool3s2 (f : ℕ → EReal) : ℕ → EReal := fun t => max (max (f (2 * t)) (f (2 * t + 1))) (f (2 * t + 2))

/-- Stage s of the pooling chain of the row f. -/
def P (f : ℕ → EReal) : ℕ → ℕ → EReal
  | 0 => f
  | s + 1 => if s + 1 = 15 ∨ s + 1 = 23 then pool3s2 (P f s) else pool2 (P f s)

/-- Entry (i, j) of the sparse map of the row f. -/
def G (f : ℕ → EReal) (i j : ℕ) : EReal :=
  if j < i then 0
  else if j - i < 15 then P f (j - i) i
  else if 16 ≤ j - i ∧ j - i ≤ 30 ∧ (j - i) % 2 = 0 ∧ i % 2 = 0 then P f (15 + (j - i - 16) / 2) (i / 2)
  else if 34 ≤ j - i ∧ (j - i) % 4 = 2 ∧ i % 4 = 0 then P f (23 + (j - i - 34) / 4) (i / 4)
  else 0

/-- Row (b, c) of the input array as a function on the naturals (zero past the row's end, where nothing reads it). -/
def rowOf (x : S32x512x64.Idx → EReal) (b : Fin 32) (c : Fin 512) : ℕ → EReal :=
  fun t => if h : t < 64 then x (ix3 b c ⟨t, h⟩) else 0

/-- The whole result: the sparse map of every row. -/
def G4 (x : S32x512x64.Idx → EReal) : S32x512x64x64.Idx → EReal :=
  fun i => G (rowOf x (i 0) (i 1)) (i 2).val (i 3).val

end Cert.Spec

end
-- ==== Proof.LibRowOps.lean ====
/-
  Matrices and stacks of matrices read at natural-number coordinates.

  A vector operation of the kernel's body — a unit-stride slice, a concatenation along the last axis, a stack of
  matrices along a new middle axis, a change of shape that adds or drops a unit axis, a pointwise maximum or sum — is read
  here at a row b and at natural-number coordinates, with the value 0 outside the array. Reading this way keeps every
  coordinate a plain natural number: a concatenation becomes a comparison of the coordinate with the pieces' widths, a
  slice a shift of the coordinate, and no bound has to be carried along.
-/
import Idealize.ShloMosaic.PureOps.Ideal
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-- Entry (b, t) of a matrix, 0 when t is past the row's end. -/
def rd2 {R n : ℕ} (x : (⟨2, ![R, n]⟩ : Shape).Idx → EReal) (b : Fin R) (t : ℕ) : EReal :=
  if h : t < n then x (ix2 b ⟨t, h⟩) else 0

/-- Entry (b, o, t) of a stack of matrices, 0 outside. -/
def rd3 {R k n : ℕ} (x : (⟨3, ![R, k, n]⟩ : Shape).Idx → EReal) (b : Fin R) (o t : ℕ) : EReal :=
  if h : o < k ∧ t < n then x (ix3 b ⟨o, h.1⟩ ⟨t, h.2⟩) else 0

theorem rd2_of {R n : ℕ} (x : (⟨2, ![R, n]⟩ : Shape).Idx → EReal) (b : Fin R) (t : Fin n) :
    x (ix2 b t) = rd2 x b t.val := by
  unfold rd2; rw [dif_pos t.isLt]

theorem rd3_of {R k n : ℕ} (x : (⟨3, ![R, k, n]⟩ : Shape).Idx → EReal) (b : Fin R) (o : Fin k) (t : Fin n) :
    x (ix3 b o t) = rd3 x b o.val t.val := by
  unfold rd3; rw [dif_pos ⟨o.isLt, t.isLt⟩]

/-- Past the end a matrix reads 0. -/
theorem rd2_ge {R n : ℕ} (x : (⟨2, ![R, n]⟩ : Shape).Idx → EReal) (b : Fin R) (t : ℕ) (h : n ≤ t) : rd2 x b t = 0 := by
  unfold rd2; rw [dif_neg (by omega)]

/-- A constant matrix of zeros reads 0 everywhere. -/
theorem rd2_zeros {R n : ℕ} (b : Fin R) (t : ℕ) :
    rd2 (broadcast (⟨2, ![R, n]⟩ : Shape) (Scalar.ofBits (F := Ideal) .f32 0x00000000#32)) b t = 0 := by
  unfold rd2
  split
  · exact Ideal.ofBits_zero_f32
  · rfl

/-- The pointwise maximum of two matrices. -/
theorem rd2_max {R n : ℕ} (u v : FVec Ideal (⟨2, ![R, n]⟩ : Shape) .f32) (b : Fin R) (t : ℕ) :
    rd2 (maximumf u v) b t = max (rd2 u b t) (rd2 v b t) := by
  unfold rd2
  split
  · rfl
  · exact (max_self (0 : EReal)).symm

/-- The pointwise sum of two matrices. -/
theorem rd2_add {R n : ℕ} (u v : FVec Ideal (⟨2, ![R, n]⟩ : Shape) .f32) (b : Fin R) (t : ℕ) :
    rd2 (addf u v) b t = rd2 u b t + rd2 v b t := by
  unfold rd2
  split
  · rfl
  · exact (add_zero (0 : EReal)).symm

/-- A slice of k columns from column o on: column t of the slice is column o + t of the matrix. -/
theorem rd2_slice {R n k : ℕ} (o : ℕ) (x : (⟨2, ![R, n]⟩ : Shape).Idx → EReal)
    (h : (⟨2, ![R, n]⟩ : Shape).Slices ![0, o] ⟨2, ![R, k]⟩) (b : Fin R) (t : ℕ) (hb : o + k ≤ n) :
    rd2 (extractStridedSlice ⟨2, ![R, k]⟩ ![0, o] x h) b t = if t < k then rd2 x b (o + t) else 0 := by
  unfold rd2
  by_cases ht : t < k
  · rw [dif_pos ht, if_pos ht, dif_pos (by omega)]
    exact extractStridedSlice_apply _ x h _ _ fun a => by
      match a with
      | ⟨0, _⟩ => show b.val = 0 + b.val; omega
      | ⟨1, _⟩ => rfl
  · rw [dif_neg ht, if_neg ht]

/-- A slice of a stack: k' matrices from matrix o1 on, n' columns from column o2 on. -/
theorem rd3_slice {R k n k' n' : ℕ} (o1 o2 : ℕ) (x : (⟨3, ![R, k, n]⟩ : Shape).Idx → EReal)
    (h : (⟨3, ![R, k, n]⟩ : Shape).Slices ![0, o1, o2] ⟨3, ![R, k', n']⟩) (b : Fin R) (o t : ℕ)
    (hb1 : o1 + k' ≤ k) (hb2 : o2 + n' ≤ n) :
    rd3 (extractStridedSlice ⟨3, ![R, k', n']⟩ ![0, o1, o2] x h) b o t
      = if o < k' ∧ t < n' then rd3 x b (o1 + o) (o2 + t) else 0 := by
  unfold rd3
  by_cases ht : o < k' ∧ t < n'
  · rw [dif_pos ht, if_pos ht, dif_pos ⟨by omega, by omega⟩]
    exact extractStridedSlice_apply _ x h _ _ fun a => by
      match a with
      | ⟨0, _⟩ => show b.val = 0 + b.val; omega
      | ⟨1, _⟩ => rfl
      | ⟨2, _⟩ => rfl
  · rw [dif_neg ht, if_neg ht]

/-- A matrix viewed as a stack of one matrix. -/
theorem rd3_addUnit {R n : ℕ} (v : (⟨2, ![R, n]⟩ : Shape).Idx → EReal)
    (h : (⟨2, ![R, n]⟩ : Shape).ShapeCasts ⟨3, ![R, 1, n]⟩) (b : Fin R) (o t : ℕ) :
    rd3 (shapeCast ⟨3, ![R, 1, n]⟩ v h) b o t = if o = 0 then rd2 v b t else 0 := by
  unfold rd3 rd2
  by_cases ho : o = 0
  · subst ho
    by_cases ht : t < n
    · rw [dif_pos ⟨Nat.one_pos, ht⟩, if_pos rfl, dif_pos ht]
      refine shapeCast_apply v h _ _ ?_
      rw [Shape.rowMajor_val_two, Shape.rowMajor_val_three]
      show b.val * n + t = (b.val * 1 + 0) * n + t
      simp
    · rw [dif_neg (fun h' => ht h'.2), if_pos rfl, dif_neg ht]
  · rw [dif_neg (fun h' => ho (by omega)), if_neg ho]

/-- A stack of columns (matrices of one column) viewed as a matrix: column o of the matrix is the stack's o-th column. -/
theorem rd2_dropLast {R k : ℕ} (w : (⟨3, ![R, k, 1]⟩ : Shape).Idx → EReal)
    (h : (⟨3, ![R, k, 1]⟩ : Shape).ShapeCasts ⟨2, ![R, k]⟩) (b : Fin R) (o : ℕ) :
    rd2 (shapeCast ⟨2, ![R, k]⟩ w h) b o = rd3 w b o 0 := by
  unfold rd3 rd2
  by_cases ho : o < k
  · rw [dif_pos ho, dif_pos ⟨ho, Nat.one_pos⟩]
    refine shapeCast_apply w h _ _ ?_
    rw [Shape.rowMajor_val_two, Shape.rowMajor_val_three]
    show (b.val * k + o) * 1 + 0 = b.val * k + o
    simp
  · rw [dif_neg ho, dif_neg (fun h' => ho h'.1)]

/-- A matrix of 128 columns (or any n) viewed as a stack of one matrix, the other way round: the store's last step. -/
theorem rd3_addUnit_zero {R n : ℕ} (v : (⟨2, ![R, n]⟩ : Shape).Idx → EReal)
    (h : (⟨2, ![R, n]⟩ : Shape).ShapeCasts ⟨3, ![R, 1, n]⟩) (b : Fin R) (t : ℕ) :
    rd3 (shapeCast ⟨3, ![R, 1, n]⟩ v h) b 0 t = rd2 v b t := by
  rw [rd3_addUnit, if_pos rfl]

/-! ## Concatenations -/

/-- One piece of a concatenation along the columns: where the column falls in piece k, which begins at column pre, the
    concatenation reads that piece at the column less pre. -/
theorem concat2_piece {R N : ℕ} (xs : List ((s : Shape) × (s.Idx → EReal)))
    (h : Shape.Concatenates (xs.map (·.1)) ⟨2, ![R, N]⟩ 1)
    (k : ℕ) (hk : k < xs.length) (n : ℕ) (x₁ : (⟨2, ![R, n]⟩ : Shape).Idx → EReal)
    (hxk : xs[k] = ⟨⟨2, ![R, n]⟩, x₁⟩) (pre : ℕ)
    (hpre : (((xs.take k).map (·.1)).map fun s => if h : s.rank = (⟨2, ![R, N]⟩ : Shape).rank then
      s.size ((1 : Fin (⟨2, ![R, N]⟩ : Shape).rank).cast h.symm) else 0).sum = pre)
    (b : Fin R) (t : ℕ) (h1 : pre ≤ t) (h2 : t < pre + n) (hN : pre + n ≤ N) :
    rd2 (concatenate ⟨2, ![R, N]⟩ 1 xs h) b t = rd2 x₁ b (t - pre) := by
  unfold rd2
  rw [dif_pos (by omega : t < N), dif_pos (by omega : t - pre < n)]
  exact concatenate_apply_piece 1 xs h _ k hk _ x₁ hxk rfl pre hpre (ix2 b ⟨t - pre, by omega⟩)
    (fun a ha => by
      match a with
      | ⟨0, _⟩ => rfl
      | ⟨1, _⟩ => exact absurd rfl ha)
    (by show pre + (t - pre) = t; omega)

/-- Two matrices side by side. -/
theorem rd2_concat2 {R n1 n2 N : ℕ} (u : (⟨2, ![R, n1]⟩ : Shape).Idx → EReal) (v : (⟨2, ![R, n2]⟩ : Shape).Idx → EReal)
    (h : Shape.Concatenates [(⟨2, ![R, n1]⟩ : Shape), ⟨2, ![R, n2]⟩] ⟨2, ![R, N]⟩ 1) (b : Fin R) (t : ℕ) :
    rd2 (concatenate ⟨2, ![R, N]⟩ 1 [⟨_, u⟩, ⟨_, v⟩] h) b t = if t < n1 then rd2 u b t else rd2 v b (t - n1) := by
  have hN : n1 + (n2 + 0) = N := h.2.2
  by_cases h1 : t < n1
  · rw [if_pos h1, concat2_piece [⟨⟨2, ![R, n1]⟩, u⟩, ⟨⟨2, ![R, n2]⟩, v⟩] h 0 (by show (0 : ℕ) < _ + 1; omega) n1 u rfl 0 rfl b t (by omega) (by omega) (by omega)]
    rfl
  · rw [if_neg h1]
    by_cases h2 : t < n1 + n2
    · rw [concat2_piece [⟨⟨2, ![R, n1]⟩, u⟩, ⟨⟨2, ![R, n2]⟩, v⟩] h 1 (by show (1 : ℕ) < _ + 1 + 1; omega) n2 v rfl n1 rfl b t (by omega) (by omega) (by omega)]
    · rw [rd2_ge _ _ _ (by omega), rd2_ge _ _ _ (by omega)]

/-- Three matrices side by side. -/
theorem rd2_concat3 {R n1 n2 n3 N : ℕ} (u : (⟨2, ![R, n1]⟩ : Shape).Idx → EReal) (v : (⟨2, ![R, n2]⟩ : Shape).Idx → EReal)
    (w : (⟨2, ![R, n3]⟩ : Shape).Idx → EReal)
    (h : Shape.Concatenates [(⟨2, ![R, n1]⟩ : Shape), ⟨2, ![R, n2]⟩, ⟨2, ![R, n3]⟩] ⟨2, ![R, N]⟩ 1) (b : Fin R) (t : ℕ) :
    rd2 (concatenate ⟨2, ![R, N]⟩ 1 [⟨_, u⟩, ⟨_, v⟩, ⟨_, w⟩] h) b t
      = if t < n1 then rd2 u b t else if t < n1 + n2 then rd2 v b (t - n1) else rd2 w b (t - (n1 + n2)) := by
  have hN : n1 + (n2 + (n3 + 0)) = N := h.2.2
  by_cases h1 : t < n1
  · rw [if_pos h1, concat2_piece [⟨⟨2, ![R, n1]⟩, u⟩, ⟨⟨2, ![R, n2]⟩, v⟩, ⟨⟨2, ![R, n3]⟩, w⟩] h 0 (by show (0 : ℕ) < _ + 1; omega) n1 u rfl 0 rfl b t (by omega) (by omega) (by omega)]
    rfl
  · rw [if_neg h1]
    by_cases h2 : t < n1 + n2
    · rw [if_pos h2, concat2_piece [⟨⟨2, ![R, n1]⟩, u⟩, ⟨⟨2, ![R, n2]⟩, v⟩, ⟨⟨2, ![R, n3]⟩, w⟩] h 1 (by show (1 : ℕ) < _ + 1 + 1; omega) n2 v rfl n1 rfl b t (by omega) (by omega) (by omega)]
    · rw [if_neg h2]
      by_cases h3 : t < n1 + n2 + n3
      · rw [concat2_piece [⟨⟨2, ![R, n1]⟩, u⟩, ⟨⟨2, ![R, n2]⟩, v⟩, ⟨⟨2, ![R, n3]⟩, w⟩] h 2 (by show (2 : ℕ) < _ + 1 + 1 + 1; omega) n3 w rfl (n1 + n2) rfl b t (by omega) (by omega) (by omega)]
      · rw [rd2_ge _ _ _ (by omega), rd2_ge _ _ _ (by omega)]

/-- One matrix of a stack built by concatenating one-matrix stacks: matrix k of the result is the k-th piece. -/
theorem stack_piece {R N n : ℕ} (xs : List ((s : Shape) × (s.Idx → EReal)))
    (h : Shape.Concatenates (xs.map (·.1)) ⟨3, ![R, N, n]⟩ 1)
    (k : ℕ) (hk : k < xs.length) (x₁ : (⟨3, ![R, 1, n]⟩ : Shape).Idx → EReal)
    (hxk : xs[k] = ⟨⟨3, ![R, 1, n]⟩, x₁⟩)
    (hpre : (((xs.take k).map (·.1)).map fun s => if h : s.rank = (⟨3, ![R, N, n]⟩ : Shape).rank then
      s.size ((1 : Fin (⟨3, ![R, N, n]⟩ : Shape).rank).cast h.symm) else 0).sum = k)
    (hkN : k < N) (b : Fin R) (t : ℕ) :
    rd3 (concatenate ⟨3, ![R, N, n]⟩ 1 xs h) b k t = rd3 x₁ b 0 t := by
  unfold rd3
  by_cases ht : t < n
  · rw [dif_pos ⟨hkN, ht⟩, dif_pos ⟨Nat.one_pos, ht⟩]
    exact concatenate_apply_piece 1 xs h _ k hk _ x₁ hxk rfl k hpre (ix3 b ⟨0, Nat.one_pos⟩ ⟨t, ht⟩)
      (fun a ha => by
        match a with
        | ⟨0, _⟩ => rfl
        | ⟨1, _⟩ => exact absurd rfl ha
        | ⟨2, _⟩ => rfl)
      (by show k + 0 = k; rfl)
  · rw [dif_neg (fun h' => ht h'.2), dif_neg (fun h' => ht h'.2)]

/-- Outside its matrices a stack reads 0. -/
theorem rd3_ge {R k n : ℕ} (x : (⟨3, ![R, k, n]⟩ : Shape).Idx → EReal) (b : Fin R) (o t : ℕ) (h : k ≤ o) : rd3 x b o t = 0 := by
  unfold rd3; rw [dif_neg (fun h' => by omega)]

end Cert.RowOps

end
-- ==== Proof.SpecSteps.lean ====
/-
  The pooling chain, one step at a time.

  Stage s + 1 of the chain is the maximum of neighbours of stage s, except stages 15 and 23, which take the maximum of
  three consecutive entries of the stage before at every second position. Stated once per stage, so that a proof can open
  exactly one step of the chain.
-/
import proofs.«156021_j19232863551513_2_alg».proof.Proof.Spec

noncomputable section

namespace Cert.Spec

theorem P_succ2 (f : ℕ → EReal) (s : ℕ) (h : ¬ (s + 1 = 15 ∨ s + 1 = 23)) (t : ℕ) :
    P f (s + 1) t = max (P f s t) (P f s (t + 1)) := by
  show (if s + 1 = 15 ∨ s + 1 = 23 then pool3s2 (P f s) else pool2 (P f s)) t = _
  rw [if_neg h]; rfl

theorem P_succ3 (f : ℕ → EReal) (s : ℕ) (h : s + 1 = 15 ∨ s + 1 = 23) (t : ℕ) :
    P f (s + 1) t = max (max (P f s (2 * t)) (P f s (2 * t + 1))) (P f s (2 * t + 2)) := by
  show (if s + 1 = 15 ∨ s + 1 = 23 then pool3s2 (P f s) else pool2 (P f s)) t = _
  rw [if_pos h]; rfl

theorem P_1 (f : ℕ → EReal) (t : ℕ) : P f 1 t = max (P f 0 t) (P f 0 (t + 1)) := P_succ2 f 0 (by decide) t
theorem P_2 (f : ℕ → EReal) (t : ℕ) : P f 2 t = max (P f 1 t) (P f 1 (t + 1)) := P_succ2 f 1 (by decide) t
theorem P_3 (f : ℕ → EReal) (t : ℕ) : P f 3 t = max (P f 2 t) (P f 2 (t + 1)) := P_succ2 f 2 (by decide) t
theorem P_4 (f : ℕ → EReal) (t : ℕ) : P f 4 t = max (P f 3 t) (P f 3 (t + 1)) := P_succ2 f 3 (by decide) t
theorem P_5 (f : ℕ → EReal) (t : ℕ) : P f 5 t = max (P f 4 t) (P f 4 (t + 1)) := P_succ2 f 4 (by decide) t
theorem P_6 (f : ℕ → EReal) (t : ℕ) : P f 6 t = max (P f 5 t) (P f 5 (t + 1)) := P_succ2 f 5 (by decide) t
theorem P_7 (f : ℕ → EReal) (t : ℕ) : P f 7 t = max (P f 6 t) (P f 6 (t + 1)) := P_succ2 f 6 (by decide) t
theorem P_8 (f : ℕ → EReal) (t : ℕ) : P f 8 t = max (P f 7 t) (P f 7 (t + 1)) := P_succ2 f 7 (by decide) t
theorem P_9 (f : ℕ → EReal) (t : ℕ) : P f 9 t = max (P f 8 t) (P f 8 (t + 1)) := P_succ2 f 8 (by decide) t
theorem P_10 (f : ℕ → EReal) (t : ℕ) : P f 10 t = max (P f 9 t) (P f 9 (t + 1)) := P_succ2 f 9 (by decide) t
theorem P_11 (f : ℕ → EReal) (t : ℕ) : P f 11 t = max (P f 10 t) (P f 10 (t + 1)) := P_succ2 f 10 (by decide) t
theorem P_12 (f : ℕ → EReal) (t : ℕ) : P f 12 t = max (P f 11 t) (P f 11 (t + 1)) := P_succ2 f 11 (by decide) t
theorem P_13 (f : ℕ → EReal) (t : ℕ) : P f 13 t = max (P f 12 t) (P f 12 (t + 1)) := P_succ2 f 12 (by decide) t
theorem P_14 (f : ℕ → EReal) (t : ℕ) : P f 14 t = max (P f 13 t) (P f 13 (t + 1)) := P_succ2 f 13 (by decide) t
theorem P_15 (f : ℕ → EReal) (t : ℕ) : P f 15 t = max (max (P f 14 (2 * t)) (P f 14 (2 * t + 1))) (P f 14 (2 * t + 2)) := P_succ3 f 14 (by decide) t
theorem P_16 (f : ℕ → EReal) (t : ℕ) : P f 16 t = max (P f 15 t) (P f 15 (t + 1)) := P_succ2 f 15 (by decide) t
theorem P_17 (f : ℕ → EReal) (t : ℕ) : P f 17 t = max (P f 16 t) (P f 16 (t + 1)) := P_succ2 f 16 (by decide) t
theorem P_18 (f : ℕ → EReal) (t : ℕ) : P f 18 t = max (P f 17 t) (P f 17 (t + 1)) := P_succ2 f 17 (by decide) t
theorem P_19 (f : ℕ → EReal) (t : ℕ) : P f 19 t = max (P f 18 t) (P f 18 (t + 1)) := P_succ2 f 18 (by decide) t
theorem P_20 (f : ℕ → EReal) (t : ℕ) : P f 20 t = max (P f 19 t) (P f 19 (t + 1)) := P_succ2 f 19 (by decide) t
theorem P_21 (f : ℕ → EReal) (t : ℕ) : P f 21 t = max (P f 20 t) (P f 20 (t + 1)) := P_succ2 f 20 (by decide) t
theorem P_22 (f : ℕ → EReal) (t : ℕ) : P f 22 t = max (P f 21 t) (P f 21 (t + 1)) := P_succ2 f 21 (by decide) t
theorem P_23 (f : ℕ → EReal) (t : ℕ) : P f 23 t = max (max (P f 22 (2 * t)) (P f 22 (2 * t + 1))) (P f 22 (2 * t + 2)) := P_succ3 f 22 (by decide) t
theorem P_24 (f : ℕ → EReal) (t : ℕ) : P f 24 t = max (P f 23 t) (P f 23 (t + 1)) := P_succ2 f 23 (by decide) t
theorem P_25 (f : ℕ → EReal) (t : ℕ) : P f 25 t = max (P f 24 t) (P f 24 (t + 1)) := P_succ2 f 24 (by decide) t
theorem P_26 (f : ℕ → EReal) (t : ℕ) : P f 26 t = max (P f 25 t) (P f 25 (t + 1)) := P_succ2 f 25 (by decide) t
theorem P_27 (f : ℕ → EReal) (t : ℕ) : P f 27 t = max (P f 26 t) (P f 26 (t + 1)) := P_succ2 f 26 (by decide) t
theorem P_28 (f : ℕ → EReal) (t : ℕ) : P f 28 t = max (P f 27 t) (P f 27 (t + 1)) := P_succ2 f 27 (by decide) t
theorem P_29 (f : ℕ → EReal) (t : ℕ) : P f 29 t = max (P f 28 t) (P f 28 (t + 1)) := P_succ2 f 28 (by decide) t
theorem P_30 (f : ℕ → EReal) (t : ℕ) : P f 30 t = max (P f 29 t) (P f 29 (t + 1)) := P_succ2 f 29 (by decide) t

end Cert.Spec

end
-- ==== Proof.Stages0.lean ====
/-
  Stages 0 to 14 of the pooling chain as the kernel computes them.

  The body pools a block of 256 rows at once; read at one row b it computes that row's chain: the array of stage s is the
  maximum of the array of stage s - 1 and its shift by one column, and holds the stage in its first 64 - s columns.
-/
import proofs.«156021_j19232863551513_2_alg».proof.Proof.Gen.KernelIdeal.Skeleton
import proofs.«156021_j19232863551513_2_alg».proof.Proof.LibRowOps
import proofs.«156021_j19232863551513_2_alg».proof.Proof.Spec
import proofs.«156021_j19232863551513_2_alg».proof.Proof.SpecSteps

set_option maxRecDepth 16384

open Cert.KernelIdeal Cert.KernelIdeal.Gen Cert.RowOps Cert.Spec Idealize.ShloMosaic

noncomputable section

namespace Cert.Stages

/-- Row b of a block of the input, read as a function on the naturals. -/
def row (x : Vec Ideal S256x64 .f32) (b : Fin 256) : ℕ → EReal := fun t => rd2 x b t

variable (x : Vec Ideal S256x64 .f32) (b : Fin 256)

/-! Stages 0 to 14 of the chain as the kernel computes them: the array of stage s holds stage s of row b's chain in its
    first 64 - s columns. -/

theorem st0 : ∀ t, rd2 (k0_pay1 x) b t = if t < 64 then P (row x b) 0 t else 0 := by
  intro t
  simp only [k0_pay1, shapeCast_self]
  split_ifs with h
  · rfl
  · exact rd2_ge _ _ _ (by omega)

theorem st1 : ∀ t, rd2 (k0_pay2 x) b t = if t < 63 then P (row x b) 1 t else 0 := by
  intro t
  simp (disch := omega) only [k0_pay2, rd2_max, rd2_slice, st0 x b]
  split_ifs <;> first
    | (exfalso; omega)
    | exact max_self 0
    | (rw [P_1, Nat.zero_add, Nat.add_comm 1 t])

theorem st2 : ∀ t, rd2 (k0_pay4 x) b t = if t < 62 then P (row x b) 2 t else 0 := by
  intro t
  simp (disch := omega) only [k0_pay4, rd2_max, rd2_slice, st1 x b]
  split_ifs <;> first
    | (exfalso; omega)
    | exact max_self 0
    | (rw [P_2, Nat.zero_add, Nat.add_comm 1 t])

theorem st3 : ∀ t, rd2 (k0_pay6 x) b t = if t < 61 then P (row x b) 3 t else 0 := by
  intro t
  simp (disch := omega) only [k0_pay6, rd2_max, rd2_slice, st2 x b]
  split_ifs <;> first
    | (exfalso; omega)
    | exact max_self 0
    | (rw [P_3, Nat.zero_add, Nat.add_comm 1 t])

theorem st4 : ∀ t, rd2 (k0_pay8 x) b t = if t < 60 then P (row x b) 4 t else 0 := by
  intro t
  simp (disch := omega) only [k0_pay8, rd2_max, rd2_slice, st3 x b]
  split_ifs <;> first
    | (exfalso; omega)
    | exact max_self 0
    | (rw [P_4, Nat.zero_add, Nat.add_comm 1 t])

theorem st5 : ∀ t, rd2 (k0_pay10 x) b t = if t < 59 then P (row x b) 5 t else 0 := by
  intro t
  simp (disch := omega) only [k0_pay10, rd2_max, rd2_slice, st4 x b]
  split_ifs <;> first
    | (exfalso; omega)
    | exact max_self 0
    | (rw [P_5, Nat.zero_add, Nat.add_comm 1 t])

theorem st6 : ∀ t, rd2 (k0_pay12 x) b t = if t < 58 then P (row x b) 6 t else 0 := by
  intro t
  simp (disch := omega) only [k0_pay12, rd2_max, rd2_slice, st5 x b]
  split_ifs <;> first
    | (exfalso; omega)
    | exact max_self 0
    | (rw [P_6, Nat.zero_add, Nat.add_comm 1 t])

theorem st7 : ∀ t, rd2 (k0_pay14 x) b t = if t < 57 then P (row x b) 7 t else 0 := by
  intro t
  simp (disch := omega) only [k0_pay14, rd2_max, rd2_slice, st6 x b]
  split_ifs <;> first
    | (exfalso; omega)
    | exact max_self 0
    | (rw [P_7, Nat.zero_add, Nat.add_comm 1 t])

theorem st8 : ∀ t, rd2 (k0_pay16 x) b t = if t < 56 then P (row x b) 8 t else 0 := by
  intro t
  simp (disch := omega) only [k0_pay16, rd2_max, rd2_slice, st7 x b]
  split_ifs <;> first
    | (exfalso; omega)
    | exact max_self 0
    | (rw [P_8, Nat.zero_add, Nat.add_comm 1 t])

theorem st9 : ∀ t, rd2 (k0_pay18 x) b t = if t < 55 then P (row x b) 9 t else 0 := by
  intro t
  simp (disch := omega) only [k0_pay18, rd2_max, rd2_slice, st8 x b]
  split_ifs <;> first
    | (exfalso; omega)
    | exact max_self 0
    | (rw [P_9, Nat.zero_add, Nat.add_comm 1 t])

theorem st10 : ∀ t, rd2 (k0_pay21 (k0_pay18 x) (k0_pay20 x)) b t = if t < 54 then P (row x b) 10 t else 0 := by
  intro t
  simp (disch := omega) only [k0_pay21, k0_pay20, rd2_max, rd2_slice, st9 x b]
  split_ifs <;> first
    | (exfalso; omega)
    | exact max_self 0
    | (rw [P_10, Nat.zero_add, Nat.add_comm 1 t])

theorem st11 : ∀ t, rd2 (k0_pay23 (k0_pay18 x) (k0_pay20 x)) b t = if t < 53 then P (row x b) 11 t else 0 := by
  intro t
  simp (disch := omega) only [k0_pay23, rd2_max, rd2_slice, st10 x b]
  split_ifs <;> first
    | (exfalso; omega)
    | exact max_self 0
    | (rw [P_11, Nat.zero_add, Nat.add_comm 1 t])

theorem st12 : ∀ t, rd2 (k0_pay25 (k0_pay18 x) (k0_pay20 x)) b t = if t < 52 then P (row x b) 12 t else 0 := by
  intro t
  simp (disch := omega) only [k0_pay25, rd2_max, rd2_slice, st11 x b]
  split_ifs <;> first
    | (exfalso; omega)
    | exact max_self 0
    | (rw [P_12, Nat.zero_add, Nat.add_comm 1 t])

theorem st13 : ∀ t, rd2 (k0_pay27 (k0_pay18 x) (k0_pay20 x)) b t = if t < 51 then P (row x b) 13 t else 0 := by
  intro t
  simp (disch := omega) only [k0_pay27, rd2_max, rd2_slice, st12 x b]
  split_ifs <;> first
    | (exfalso; omega)
    | exact max_self 0
    | (rw [P_13, Nat.zero_add, Nat.add_comm 1 t])

theorem st14 : ∀ t, rd2 (k0_pay29 (k0_pay18 x) (k0_pay20 x)) b t = if t < 50 then P (row x b) 14 t else 0 := by
  intro t
  simp (disch := omega) only [k0_pay29, rd2_max, rd2_slice, st13 x b]
  split_ifs <;> first
    | (exfalso; omega)
    | exact max_self 0
    | (rw [P_14, Nat.zero_add, Nat.add_comm 1 t])

set_option maxHeartbeats 8000000 in
/-- The stack of the fifteen stages, each padded with zeros to 64 columns: matrix o, column t, is stage o at t where
    t + o < 64 and zero past it. -/
theorem stack0 : ∀ o t, rd3 (k0_pay81 (k0_pay1 x) (k0_pay3 x) (k0_pay5 x) (k0_pay7 x) (k0_pay9 x) (k0_pay11 x) (k0_pay13 x) (k0_pay15 x) (k0_pay17 x) (k0_pay19 x) (k0_pay22 (k0_pay18 x) (k0_pay20 x)) (k0_pay24 (k0_pay18 x) (k0_pay20 x)) (k0_pay26 (k0_pay18 x) (k0_pay20 x)) (k0_pay28 (k0_pay18 x) (k0_pay20 x)) (k0_pay30 (k0_pay18 x) (k0_pay20 x))) b o t = if o < 15 ∧ t + o < 64 then P (row x b) o t else 0 := by
  intro o t
  by_cases ho : o < 15
  · rw [k0_pay81]
    interval_cases o
    · refine Eq.trans (stack_piece _ _ 0 ?hk_0_0 ?x1_0_0 ?hxk_0_0 ?hpre_0_0 ?hkN_0_0 _ _) ?main_0_0
      case hxk_0_0 => rfl
      case hk_0_0 => show (0 : ℕ) < 15; decide
      case hpre_0_0 => rfl
      case hkN_0_0 => decide
      case main_0_0 =>
        rw [rd3_addUnit_zero]
        simp (disch := omega) only [st0 x b]
        split_ifs <;> first | rfl | (exfalso; omega)
    · refine Eq.trans (stack_piece _ _ 1 ?hk_0_1 ?x1_0_1 ?hxk_0_1 ?hpre_0_1 ?hkN_0_1 _ _) ?main_0_1
      case hxk_0_1 => rfl
      case hk_0_1 => show (1 : ℕ) < 15; decide
      case hpre_0_1 => rfl
      case hkN_0_1 => decide
      case main_0_1 =>
        rw [rd3_addUnit_zero]
        simp (disch := omega) only [k0_pay3, rd2_concat2, rd2_zeros, st1 x b]
        split_ifs <;> first | rfl | (exfalso; omega)
    · refine Eq.trans (stack_piece _ _ 2 ?hk_0_2 ?x1_0_2 ?hxk_0_2 ?hpre_0_2 ?hkN_0_2 _ _) ?main_0_2
      case hxk_0_2 => rfl
      case hk_0_2 => show (2 : ℕ) < 15; decide
      case hpre_0_2 => rfl
      case hkN_0_2 => decide
      case main_0_2 =>
        rw [rd3_addUnit_zero]
        simp (disch := omega) only [k0_pay5, rd2_concat2, rd2_zeros, st2 x b]
        split_ifs <;> first | rfl | (exfalso; omega)
    · refine Eq.trans (stack_piece _ _ 3 ?hk_0_3 ?x1_0_3 ?hxk_0_3 ?hpre_0_3 ?hkN_0_3 _ _) ?main_0_3
      case hxk_0_3 => rfl
      case hk_0_3 => show (3 : ℕ) < 15; decide
      case hpre_0_3 => rfl
      case hkN_0_3 => decide
      case main_0_3 =>
        rw [rd3_addUnit_zero]
        simp (disch := omega) only [k0_pay7, rd2_concat2, rd2_zeros, st3 x b]
        split_ifs <;> first | rfl | (exfalso; omega)
    · refine Eq.trans (stack_piece _ _ 4 ?hk_0_4 ?x1_0_4 ?hxk_0_4 ?hpre_0_4 ?hkN_0_4 _ _) ?main_0_4
      case hxk_0_4 => rfl
      case hk_0_4 => show (4 : ℕ) < 15; decide
      case hpre_0_4 => rfl
      case hkN_0_4 => decide
      case main_0_4 =>
        rw [rd3_addUnit_zero]
        simp (disch := omega) only [k0_pay9, rd2_concat2, rd2_zeros, st4 x b]
        split_ifs <;> first | rfl | (exfalso; omega)
    · refine Eq.trans (stack_piece _ _ 5 ?hk_0_5 ?x1_0_5 ?hxk_0_5 ?hpre_0_5 ?hkN_0_5 _ _) ?main_0_5
      case hxk_0_5 => rfl
      case hk_0_5 => show (5 : ℕ) < 15; decide
      case hpre_0_5 => rfl
      case hkN_0_5 => decide
      case main_0_5 =>
        rw [rd3_addUnit_zero]
        simp (disch := omega) only [k0_pay11, rd2_concat2, rd2_zeros, st5 x b]
        split_ifs <;> first | rfl | (exfalso; omega)
    · refine Eq.trans (stack_piece _ _ 6 ?hk_0_6 ?x1_0_6 ?hxk_0_6 ?hpre_0_6 ?hkN_0_6 _ _) ?main_0_6
      case hxk_0_6 => rfl
      case hk_0_6 => show (6 : ℕ) < 15; decide
      case hpre_0_6 => rfl
      case hkN_0_6 => decide
      case main_0_6 =>
        rw [rd3_addUnit_zero]
        simp (disch := omega) only [k0_pay13, rd2_concat2, rd2_zeros, st6 x b]
        split_ifs <;> first | rfl | (exfalso; omega)
    · refine Eq.trans (stack_piece _ _ 7 ?hk_0_7 ?x1_0_7 ?hxk_0_7 ?hpre_0_7 ?hkN_0_7 _ _) ?main_0_7
      case hxk_0_7 => rfl
      case hk_0_7 => show (7 : ℕ) < 15; decide
      case hpre_0_7 => rfl
      case hkN_0_7 => decide
      case main_0_7 =>
        rw [rd3_addUnit_zero]
        simp (disch := omega) only [k0_pay15, rd2_concat2, rd2_zeros, st7 x b]
        split_ifs <;> first | rfl | (exfalso; omega)
    · refine Eq.trans (stack_piece _ _ 8 ?hk_0_8 ?x1_0_8 ?hxk_0_8 ?hpre_0_8 ?hkN_0_8 _ _) ?main_0_8
      case hxk_0_8 => rfl
      case hk_0_8 => show (8 : ℕ) < 15; decide
      case hpre_0_8 => rfl
      case hkN_0_8 => decide
      case main_0_8 =>
        rw [rd3_addUnit_zero]
        simp (disch := omega) only [k0_pay17, rd2_concat2, rd2_zeros, st8 x b]
        split_ifs <;> first | rfl | (exfalso; omega)
    · refine Eq.trans (stack_piece _ _ 9 ?hk_0_9 ?x1_0_9 ?hxk_0_9 ?hpre_0_9 ?hkN_0_9 _ _) ?main_0_9
      case hxk_0_9 => rfl
      case hk_0_9 => show (9 : ℕ) < 15; decide
      case hpre_0_9 => rfl
      case hkN_0_9 => decide
      case main_0_9 =>
        rw [rd3_addUnit_zero]
        simp (disch := omega) only [k0_pay19, rd2_concat2, rd2_zeros, st9 x b]
        split_ifs <;> first | rfl | (exfalso; omega)
    · refine Eq.trans (stack_piece _ _ 10 ?hk_0_10 ?x1_0_10 ?hxk_0_10 ?hpre_0_10 ?hkN_0_10 _ _) ?main_0_10
      case hxk_0_10 => rfl
      case hk_0_10 => show (10 : ℕ) < 15; decide
      case hpre_0_10 => rfl
      case hkN_0_10 => decide
      case main_0_10 =>
        rw [rd3_addUnit_zero]
        simp (disch := omega) only [k0_pay22, rd2_concat2, rd2_zeros, st10 x b]
        split_ifs <;> first | rfl | (exfalso; omega)
    · refine Eq.trans (stack_piece _ _ 11 ?hk_0_11 ?x1_0_11 ?hxk_0_11 ?hpre_0_11 ?hkN_0_11 _ _) ?main_0_11
      case hxk_0_11 => rfl
      case hk_0_11 => show (11 : ℕ) < 15; decide
      case hpre_0_11 => rfl
      case hkN_0_11 => decide
      case main_0_11 =>
        rw [rd3_addUnit_zero]
        simp (disch := omega) only [k0_pay24, rd2_concat2, rd2_zeros, st11 x b]
        split_ifs <;> first | rfl | (exfalso; omega)
    · refine Eq.trans (stack_piece _ _ 12 ?hk_0_12 ?x1_0_12 ?hxk_0_12 ?hpre_0_12 ?hkN_0_12 _ _) ?main_0_12
      case hxk_0_12 => rfl
      case hk_0_12 => show (12 : ℕ) < 15; decide
      case hpre_0_12 => rfl
      case hkN_0_12 => decide
      case main_0_12 =>
        rw [rd3_addUnit_zero]
        simp (disch := omega) only [k0_pay26, rd2_concat2, rd2_zeros, st12 x b]
        split_ifs <;> first | rfl | (exfalso; omega)
    · refine Eq.trans (stack_piece _ _ 13 ?hk_0_13 ?x1_0_13 ?hxk_0_13 ?hpre_0_13 ?hkN_0_13 _ _) ?main_0_13
      case hxk_0_13 => rfl
      case hk_0_13 => show (13 : ℕ) < 15; decide
      case hpre_0_13 => rfl
      case hkN_0_13 => decide
      case main_0_13 =>
        rw [rd3_addUnit_zero]
        simp (disch := omega) only [k0_pay28, rd2_concat2, rd2_zeros, st13 x b]
        split_ifs <;> first | rfl | (exfalso; omega)
    · refine Eq.trans (stack_piece _ _ 14 ?hk_0_14 ?x1_0_14 ?hxk_0_14 ?hpre_0_14 ?hkN_0_14 _ _) ?main_0_14
      case hxk_0_14 => rfl
      case hk_0_14 => show (14 : ℕ) < 15; decide
      case hpre_0_14 => rfl
      case hkN_0_14 => decide
      case main_0_14 =>
        rw [rd3_addUnit_zero]
        simp (disch := omega) only [k0_pay30, rd2_concat2, rd2_zeros, st14 x b]
        split_ifs <;> first | rfl | (exfalso; omega)
  · rw [rd3_ge _ _ _ _ (by omega), if_neg (fun h => ho h.1)]

end Cert.Stages

end
-- ==== Proof.KernelBlockDef.lean ====
/-
  One block of the kernel's output as a function of one block of its input.

  The kernel's grid point t reads 256 consecutive rows of the flattened input (16384 rows of 64 entries) and writes, for
  each of them, its 64 by 64 sparse map laid out as 32 row pairs of 128 columns: entry (r, l) of the row's output block
  is entry (2r + l / 64, l mod 64) of the row's map.
-/
import proofs.«156021_j19232863551513_2_alg».proof.Proof.Spec
import proofs.«156021_j19232863551513_2_alg».proof.Proof.Stages0

noncomputable section

namespace Cert.KernelBlock

open Cert.KernelIdeal Cert.RowOps Cert.Spec Cert.Stages Idealize.ShloMosaic

/-- The output block of an input block: row b's sparse map, two map rows per block row. -/
def Gblk (x0 : Vec Ideal S256x64 .f32) : S256x32x128.Idx → EReal :=
  fun y => G (row x0 (y 0)) (2 * (y 1).val + (y 2).val / 64) ((y 2).val % 64)

end Cert.KernelBlock

end
-- ==== Proof.Stages1.lean ====
/-
  Stages 15 to 22 of the pooling chain as the kernel computes them.

  Stage 15 is assembled column by column: column t is the maximum of columns 2t, 2t + 1 and 2t + 2 of stage 14. Stages
  16 to 22 are maxima of neighbours again; the array of stage 15 + m holds the stage in its first 24 - m columns.
-/
import proofs.«156021_j19232863551513_2_alg».proof.Proof.Gen.KernelIdeal.Skeleton
import proofs.«156021_j19232863551513_2_alg».proof.Proof.LibRowOps
import proofs.«156021_j19232863551513_2_alg».proof.Proof.Spec
import proofs.«156021_j19232863551513_2_alg».proof.Proof.SpecSteps
import proofs.«156021_j19232863551513_2_alg».proof.Proof.Stages0

set_option maxRecDepth 16384

open Cert.KernelIdeal Cert.KernelIdeal.Gen Cert.RowOps Cert.Spec Idealize.ShloMosaic

noncomputable section

namespace Cert.Stages

variable (x : Vec Ideal S256x64 .f32) (b : Fin 256)

set_option maxHeartbeats 8000000 in
theorem st15 : ∀ t, rd2 (k0_pay51 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))) b t = if t < 24 then P (row x b) 15 t else 0 := by
  intro t
  by_cases ht : t < 24
  · rw [if_pos ht]
    interval_cases t
    · rw [k0_pay51]
      refine (concat2_piece _ _ 0 ?hk_15_0 1 (k0_pay31 (k0_pay18 x) (k0_pay20 x)) ?hxk_15_0 0 ?hpre_15_0 b 0 (by omega) (by omega) (by omega)).trans ?main_15_0
      case hk_15_0 => show (0 : ℕ) < 24; decide
      case hxk_15_0 => rfl
      case hpre_15_0 =>
        rw [List.map_take]
        show (List.map _ (List.take 0 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 0
        decide +kernel
      case main_15_0 =>
        simp (disch := omega) only [k0_pay31, rd2_max, rd2_slice, st14 x b]
        simp [P_15]
    · rw [k0_pay51]
      refine (concat2_piece _ _ 1 ?hk_15_1 1 (k0_pay32 (k0_pay18 x) (k0_pay20 x)) ?hxk_15_1 1 ?hpre_15_1 b 1 (by omega) (by omega) (by omega)).trans ?main_15_1
      case hk_15_1 => show (1 : ℕ) < 24; decide
      case hxk_15_1 => rfl
      case hpre_15_1 =>
        rw [List.map_take]
        show (List.map _ (List.take 1 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 1
        decide +kernel
      case main_15_1 =>
        simp (disch := omega) only [k0_pay32, rd2_max, rd2_slice, st14 x b]
        simp [P_15]
    · rw [k0_pay51]
      refine (concat2_piece _ _ 2 ?hk_15_2 1 (k0_pay33 (k0_pay18 x) (k0_pay20 x)) ?hxk_15_2 2 ?hpre_15_2 b 2 (by omega) (by omega) (by omega)).trans ?main_15_2
      case hk_15_2 => show (2 : ℕ) < 24; decide
      case hxk_15_2 => rfl
      case hpre_15_2 =>
        rw [List.map_take]
        show (List.map _ (List.take 2 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 2
        decide +kernel
      case main_15_2 =>
        simp (disch := omega) only [k0_pay33, rd2_max, rd2_slice, st14 x b]
        simp [P_15]
    · rw [k0_pay51]
      refine (concat2_piece _ _ 3 ?hk_15_3 1 (k0_pay34 (k0_pay18 x) (k0_pay20 x)) ?hxk_15_3 3 ?hpre_15_3 b 3 (by omega) (by omega) (by omega)).trans ?main_15_3
      case hk_15_3 => show (3 : ℕ) < 24; decide
      case hxk_15_3 => rfl
      case hpre_15_3 =>
        rw [List.map_take]
        show (List.map _ (List.take 3 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 3
        decide +kernel
      case main_15_3 =>
        simp (disch := omega) only [k0_pay34, rd2_max, rd2_slice, st14 x b]
        simp [P_15]
    · rw [k0_pay51]
      refine (concat2_piece _ _ 4 ?hk_15_4 1 (k0_pay35 (k0_pay18 x) (k0_pay20 x)) ?hxk_15_4 4 ?hpre_15_4 b 4 (by omega) (by omega) (by omega)).trans ?main_15_4
      case hk_15_4 => show (4 : ℕ) < 24; decide
      case hxk_15_4 => rfl
      case hpre_15_4 =>
        rw [List.map_take]
        show (List.map _ (List.take 4 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 4
        decide +kernel
      case main_15_4 =>
        simp (disch := omega) only [k0_pay35, rd2_max, rd2_slice, st14 x b]
        simp [P_15]
    · rw [k0_pay51]
      refine (concat2_piece _ _ 5 ?hk_15_5 1 (k0_pay36 (k0_pay18 x) (k0_pay20 x)) ?hxk_15_5 5 ?hpre_15_5 b 5 (by omega) (by omega) (by omega)).trans ?main_15_5
      case hk_15_5 => show (5 : ℕ) < 24; decide
      case hxk_15_5 => rfl
      case hpre_15_5 =>
        rw [List.map_take]
        show (List.map _ (List.take 5 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 5
        decide +kernel
      case main_15_5 =>
        simp (disch := omega) only [k0_pay36, rd2_max, rd2_slice, st14 x b]
        simp [P_15]
    · rw [k0_pay51]
      refine (concat2_piece _ _ 6 ?hk_15_6 1 (k0_pay38 (k0_pay29 (k0_pay18 x) (k0_pay20 x)) (k0_pay37 (k0_pay18 x) (k0_pay20 x))) ?hxk_15_6 6 ?hpre_15_6 b 6 (by omega) (by omega) (by omega)).trans ?main_15_6
      case hk_15_6 => show (6 : ℕ) < 24; decide
      case hxk_15_6 => rfl
      case hpre_15_6 =>
        rw [List.map_take]
        show (List.map _ (List.take 6 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 6
        decide +kernel
      case main_15_6 =>
        simp (disch := omega) only [k0_pay38, k0_pay37, rd2_max, rd2_slice, st14 x b]
        simp [P_15]
    · rw [k0_pay51]
      refine (concat2_piece _ _ 7 ?hk_15_7 1 (k0_pay39 (k0_pay29 (k0_pay18 x) (k0_pay20 x))) ?hxk_15_7 7 ?hpre_15_7 b 7 (by omega) (by omega) (by omega)).trans ?main_15_7
      case hk_15_7 => show (7 : ℕ) < 24; decide
      case hxk_15_7 => rfl
      case hpre_15_7 =>
        rw [List.map_take]
        show (List.map _ (List.take 7 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 7
        decide +kernel
      case main_15_7 =>
        simp (disch := omega) only [k0_pay39, rd2_max, rd2_slice, st14 x b]
        simp [P_15]
    · rw [k0_pay51]
      refine (concat2_piece _ _ 8 ?hk_15_8 1 (k0_pay40 (k0_pay29 (k0_pay18 x) (k0_pay20 x))) ?hxk_15_8 8 ?hpre_15_8 b 8 (by omega) (by omega) (by omega)).trans ?main_15_8
      case hk_15_8 => show (8 : ℕ) < 24; decide
      case hxk_15_8 => rfl
      case hpre_15_8 =>
        rw [List.map_take]
        show (List.map _ (List.take 8 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 8
        decide +kernel
      case main_15_8 =>
        simp (disch := omega) only [k0_pay40, rd2_max, rd2_slice, st14 x b]
        simp [P_15]
    · rw [k0_pay51]
      refine (concat2_piece _ _ 9 ?hk_15_9 1 (k0_pay41 (k0_pay29 (k0_pay18 x) (k0_pay20 x))) ?hxk_15_9 9 ?hpre_15_9 b 9 (by omega) (by omega) (by omega)).trans ?main_15_9
      case hk_15_9 => show (9 : ℕ) < 24; decide
      case hxk_15_9 => rfl
      case hpre_15_9 =>
        rw [List.map_take]
        show (List.map _ (List.take 9 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 9
        decide +kernel
      case main_15_9 =>
        simp (disch := omega) only [k0_pay41, rd2_max, rd2_slice, st14 x b]
        simp [P_15]
    · rw [k0_pay51]
      refine (concat2_piece _ _ 10 ?hk_15_10 1 (k0_pay42 (k0_pay29 (k0_pay18 x) (k0_pay20 x))) ?hxk_15_10 10 ?hpre_15_10 b 10 (by omega) (by omega) (by omega)).trans ?main_15_10
      case hk_15_10 => show (10 : ℕ) < 24; decide
      case hxk_15_10 => rfl
      case hpre_15_10 =>
        rw [List.map_take]
        show (List.map _ (List.take 10 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 10
        decide +kernel
      case main_15_10 =>
        simp (disch := omega) only [k0_pay42, rd2_max, rd2_slice, st14 x b]
        simp [P_15]
    · rw [k0_pay51]
      refine (concat2_piece _ _ 11 ?hk_15_11 1 (k0_pay43 (k0_pay29 (k0_pay18 x) (k0_pay20 x))) ?hxk_15_11 11 ?hpre_15_11 b 11 (by omega) (by omega) (by omega)).trans ?main_15_11
      case hk_15_11 => show (11 : ℕ) < 24; decide
      case hxk_15_11 => rfl
      case hpre_15_11 =>
        rw [List.map_take]
        show (List.map _ (List.take 11 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 11
        decide +kernel
      case main_15_11 =>
        simp (disch := omega) only [k0_pay43, rd2_max, rd2_slice, st14 x b]
        simp [P_15]
    · rw [k0_pay51]
      refine (concat2_piece _ _ 12 ?hk_15_12 1 (k0_pay44 (k0_pay29 (k0_pay18 x) (k0_pay20 x))) ?hxk_15_12 12 ?hpre_15_12 b 12 (by omega) (by omega) (by omega)).trans ?main_15_12
      case hk_15_12 => show (12 : ℕ) < 24; decide
      case hxk_15_12 => rfl
      case hpre_15_12 =>
        rw [List.map_take]
        show (List.map _ (List.take 12 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 12
        decide +kernel
      case main_15_12 =>
        simp (disch := omega) only [k0_pay44, rd2_max, rd2_slice, st14 x b]
        simp [P_15]
    · rw [k0_pay51]
      refine (concat2_piece _ _ 13 ?hk_15_13 1 (k0_pay45 (k0_pay29 (k0_pay18 x) (k0_pay20 x))) ?hxk_15_13 13 ?hpre_15_13 b 13 (by omega) (by omega) (by omega)).trans ?main_15_13
      case hk_15_13 => show (13 : ℕ) < 24; decide
      case hxk_15_13 => rfl
      case hpre_15_13 =>
        rw [List.map_take]
        show (List.map _ (List.take 13 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 13
        decide +kernel
      case main_15_13 =>
        simp (disch := omega) only [k0_pay45, rd2_max, rd2_slice, st14 x b]
        simp [P_15]
    · rw [k0_pay51]
      refine (concat2_piece _ _ 14 ?hk_15_14 1 (k0_pay46 (k0_pay29 (k0_pay18 x) (k0_pay20 x))) ?hxk_15_14 14 ?hpre_15_14 b 14 (by omega) (by omega) (by omega)).trans ?main_15_14
      case hk_15_14 => show (14 : ℕ) < 24; decide
      case hxk_15_14 => rfl
      case hpre_15_14 =>
        rw [List.map_take]
        show (List.map _ (List.take 14 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 14
        decide +kernel
      case main_15_14 =>
        simp (disch := omega) only [k0_pay46, rd2_max, rd2_slice, st14 x b]
        simp [P_15]
    · rw [k0_pay51]
      refine (concat2_piece _ _ 15 ?hk_15_15 1 (k0_pay47 (k0_pay29 (k0_pay18 x) (k0_pay20 x))) ?hxk_15_15 15 ?hpre_15_15 b 15 (by omega) (by omega) (by omega)).trans ?main_15_15
      case hk_15_15 => show (15 : ℕ) < 24; decide
      case hxk_15_15 => rfl
      case hpre_15_15 =>
        rw [List.map_take]
        show (List.map _ (List.take 15 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 15
        decide +kernel
      case main_15_15 =>
        simp (disch := omega) only [k0_pay47, rd2_max, rd2_slice, st14 x b]
        simp [P_15]
    · rw [k0_pay51]
      refine (concat2_piece _ _ 16 ?hk_15_16 1 (k0_pay48 (k0_pay29 (k0_pay18 x) (k0_pay20 x))) ?hxk_15_16 16 ?hpre_15_16 b 16 (by omega) (by omega) (by omega)).trans ?main_15_16
      case hk_15_16 => show (16 : ℕ) < 24; decide
      case hxk_15_16 => rfl
      case hpre_15_16 =>
        rw [List.map_take]
        show (List.map _ (List.take 16 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 16
        decide +kernel
      case main_15_16 =>
        simp (disch := omega) only [k0_pay48, rd2_max, rd2_slice, st14 x b]
        simp [P_15]
    · rw [k0_pay51]
      refine (concat2_piece _ _ 17 ?hk_15_17 1 (k0_pay49 (k0_pay29 (k0_pay18 x) (k0_pay20 x))) ?hxk_15_17 17 ?hpre_15_17 b 17 (by omega) (by omega) (by omega)).trans ?main_15_17
      case hk_15_17 => show (17 : ℕ) < 24; decide
      case hxk_15_17 => rfl
      case hpre_15_17 =>
        rw [List.map_take]
        show (List.map _ (List.take 17 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 17
        decide +kernel
      case main_15_17 =>
        simp (disch := omega) only [k0_pay49, rd2_max, rd2_slice, st14 x b]
        simp [P_15]
    · rw [k0_pay51]
      refine (concat2_piece _ _ 18 ?hk_15_18 1 (maximumf (maximumf (k0_pay50 (k0_pay29 (k0_pay18 x) (k0_pay20 x))) (extractStridedSlice S256x1 ![0, 37] (k0_pay29 (k0_pay18 x) (k0_pay20 x)) slices_S256x50_o0_37_S256x1)) (extractStridedSlice S256x1 ![0, 38] (k0_pay29 (k0_pay18 x) (k0_pay20 x)) slices_S256x50_o0_38_S256x1)) ?hxk_15_18 18 ?hpre_15_18 b 18 (by omega) (by omega) (by omega)).trans ?main_15_18
      case hk_15_18 => show (18 : ℕ) < 24; decide
      case hxk_15_18 => rfl
      case hpre_15_18 =>
        rw [List.map_take]
        show (List.map _ (List.take 18 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 18
        decide +kernel
      case main_15_18 =>
        simp (disch := omega) only [k0_pay50, rd2_max, rd2_slice, st14 x b]
        simp [P_15]
    · rw [k0_pay51]
      refine (concat2_piece _ _ 19 ?hk_15_19 1 (maximumf (maximumf (extractStridedSlice S256x1 ![0, 38] (k0_pay29 (k0_pay18 x) (k0_pay20 x)) slices_S256x50_o0_38_S256x1) (extractStridedSlice S256x1 ![0, 39] (k0_pay29 (k0_pay18 x) (k0_pay20 x)) slices_S256x50_o0_39_S256x1)) (extractStridedSlice S256x1 ![0, 40] (k0_pay29 (k0_pay18 x) (k0_pay20 x)) slices_S256x50_o0_40_S256x1)) ?hxk_15_19 19 ?hpre_15_19 b 19 (by omega) (by omega) (by omega)).trans ?main_15_19
      case hk_15_19 => show (19 : ℕ) < 24; decide
      case hxk_15_19 => rfl
      case hpre_15_19 =>
        rw [List.map_take]
        show (List.map _ (List.take 19 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 19
        decide +kernel
      case main_15_19 =>
        simp (disch := omega) only [rd2_max, rd2_slice, st14 x b]
        simp [P_15]
    · rw [k0_pay51]
      refine (concat2_piece _ _ 20 ?hk_15_20 1 (maximumf (maximumf (extractStridedSlice S256x1 ![0, 40] (k0_pay29 (k0_pay18 x) (k0_pay20 x)) slices_S256x50_o0_40_S256x1) (extractStridedSlice S256x1 ![0, 41] (k0_pay29 (k0_pay18 x) (k0_pay20 x)) slices_S256x50_o0_41_S256x1)) (extractStridedSlice S256x1 ![0, 42] (k0_pay29 (k0_pay18 x) (k0_pay20 x)) slices_S256x50_o0_42_S256x1)) ?hxk_15_20 20 ?hpre_15_20 b 20 (by omega) (by omega) (by omega)).trans ?main_15_20
      case hk_15_20 => show (20 : ℕ) < 24; decide
      case hxk_15_20 => rfl
      case hpre_15_20 =>
        rw [List.map_take]
        show (List.map _ (List.take 20 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 20
        decide +kernel
      case main_15_20 =>
        simp (disch := omega) only [rd2_max, rd2_slice, st14 x b]
        simp [P_15]
    · rw [k0_pay51]
      refine (concat2_piece _ _ 21 ?hk_15_21 1 (maximumf (maximumf (extractStridedSlice S256x1 ![0, 42] (k0_pay29 (k0_pay18 x) (k0_pay20 x)) slices_S256x50_o0_42_S256x1) (extractStridedSlice S256x1 ![0, 43] (k0_pay29 (k0_pay18 x) (k0_pay20 x)) slices_S256x50_o0_43_S256x1)) (extractStridedSlice S256x1 ![0, 44] (k0_pay29 (k0_pay18 x) (k0_pay20 x)) slices_S256x50_o0_44_S256x1)) ?hxk_15_21 21 ?hpre_15_21 b 21 (by omega) (by omega) (by omega)).trans ?main_15_21
      case hk_15_21 => show (21 : ℕ) < 24; decide
      case hxk_15_21 => rfl
      case hpre_15_21 =>
        rw [List.map_take]
        show (List.map _ (List.take 21 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 21
        decide +kernel
      case main_15_21 =>
        simp (disch := omega) only [rd2_max, rd2_slice, st14 x b]
        simp [P_15]
    · rw [k0_pay51]
      refine (concat2_piece _ _ 22 ?hk_15_22 1 (maximumf (maximumf (extractStridedSlice S256x1 ![0, 44] (k0_pay29 (k0_pay18 x) (k0_pay20 x)) slices_S256x50_o0_44_S256x1) (extractStridedSlice S256x1 ![0, 45] (k0_pay29 (k0_pay18 x) (k0_pay20 x)) slices_S256x50_o0_45_S256x1)) (extractStridedSlice S256x1 ![0, 46] (k0_pay29 (k0_pay18 x) (k0_pay20 x)) slices_S256x50_o0_46_S256x1)) ?hxk_15_22 22 ?hpre_15_22 b 22 (by omega) (by omega) (by omega)).trans ?main_15_22
      case hk_15_22 => show (22 : ℕ) < 24; decide
      case hxk_15_22 => rfl
      case hpre_15_22 =>
        rw [List.map_take]
        show (List.map _ (List.take 22 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 22
        decide +kernel
      case main_15_22 =>
        simp (disch := omega) only [rd2_max, rd2_slice, st14 x b]
        simp [P_15]
    · rw [k0_pay51]
      refine (concat2_piece _ _ 23 ?hk_15_23 1 (maximumf (maximumf (extractStridedSlice S256x1 ![0, 46] (k0_pay29 (k0_pay18 x) (k0_pay20 x)) slices_S256x50_o0_46_S256x1) (extractStridedSlice S256x1 ![0, 47] (k0_pay29 (k0_pay18 x) (k0_pay20 x)) slices_S256x50_o0_47_S256x1)) (extractStridedSlice S256x1 ![0, 48] (k0_pay29 (k0_pay18 x) (k0_pay20 x)) slices_S256x50_o0_48_S256x1)) ?hxk_15_23 23 ?hpre_15_23 b 23 (by omega) (by omega) (by omega)).trans ?main_15_23
      case hk_15_23 => show (23 : ℕ) < 24; decide
      case hxk_15_23 => rfl
      case hpre_15_23 =>
        rw [List.map_take]
        show (List.map _ (List.take 23 [S256x1, S256x1, S256x1, S256x1, S256x1, S256x1, S256x1, S256x1, S256x1, S256x1, S256x1, S256x1, S256x1, S256x1, S256x1, S256x1, S256x1, S256x1, S256x1, S256x1, S256x1, S256x1, S256x1, S256x1])).sum = 23
        decide +kernel
      case main_15_23 =>
        simp (disch := omega) only [rd2_max, rd2_slice, st14 x b]
        simp [P_15]
  · rw [if_neg ht]
    exact rd2_ge _ _ _ (by omega)

theorem st16 : ∀ t, rd2 (k0_pay52 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))) b t = if t < 23 then P (row x b) 16 t else 0 := by
  intro t
  simp (disch := omega) only [k0_pay52, rd2_max, rd2_slice, st15 x b]
  split_ifs <;> first
    | (exfalso; omega)
    | exact max_self 0
    | (rw [P_16, Nat.zero_add, Nat.add_comm 1 t])

theorem st17 : ∀ t, rd2 (k0_pay54 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))) b t = if t < 22 then P (row x b) 17 t else 0 := by
  intro t
  simp (disch := omega) only [k0_pay54, rd2_max, rd2_slice, st16 x b]
  split_ifs <;> first
    | (exfalso; omega)
    | exact max_self 0
    | (rw [P_17, Nat.zero_add, Nat.add_comm 1 t])

theorem st18 : ∀ t, rd2 (k0_pay56 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))) b t = if t < 21 then P (row x b) 18 t else 0 := by
  intro t
  simp (disch := omega) only [k0_pay56, rd2_max, rd2_slice, st17 x b]
  split_ifs <;> first
    | (exfalso; omega)
    | exact max_self 0
    | (rw [P_18, Nat.zero_add, Nat.add_comm 1 t])

theorem st19 : ∀ t, rd2 (k0_pay58 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))) b t = if t < 20 then P (row x b) 19 t else 0 := by
  intro t
  simp (disch := omega) only [k0_pay58, rd2_max, rd2_slice, st18 x b]
  split_ifs <;> first
    | (exfalso; omega)
    | exact max_self 0
    | (rw [P_19, Nat.zero_add, Nat.add_comm 1 t])

theorem st20 : ∀ t, rd2 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))) b t = if t < 19 then P (row x b) 20 t else 0 := by
  intro t
  simp (disch := omega) only [k0_pay60, rd2_max, rd2_slice, st19 x b]
  split_ifs <;> first
    | (exfalso; omega)
    | exact max_self 0
    | (rw [P_20, Nat.zero_add, Nat.add_comm 1 t])

theorem st21 : ∀ t, rd2 (k0_pay62 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) b t = if t < 18 then P (row x b) 21 t else 0 := by
  intro t
  simp (disch := omega) only [k0_pay62, rd2_max, rd2_slice, st20 x b]
  split_ifs <;> first
    | (exfalso; omega)
    | exact max_self 0
    | (rw [P_21, Nat.zero_add, Nat.add_comm 1 t])

theorem st22 : ∀ t, rd2 (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) b t = if t < 17 then P (row x b) 22 t else 0 := by
  intro t
  simp (disch := omega) only [k0_pay64, rd2_max, rd2_slice, st21 x b]
  split_ifs <;> first
    | (exfalso; omega)
    | exact max_self 0
    | (rw [P_22, Nat.zero_add, Nat.add_comm 1 t])

set_option maxHeartbeats 8000000 in
/-- The stack of the eight stages 15 to 22, each padded with zeros to 24 columns. -/
theorem stack1 : ∀ o t, rd3 (k0_pay82 (k0_pay51 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))) (k0_pay53 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))) (k0_pay55 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))) (k0_pay57 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))) (k0_pay59 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))) (k0_pay61 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))) (k0_pay63 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) (k0_pay65 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))))) b o t = if o < 8 ∧ t + o < 24 then P (row x b) (15 + o) t else 0 := by
  intro o t
  by_cases ho : o < 8
  · rw [k0_pay82]
    interval_cases o
    · refine Eq.trans (stack_piece _ _ 0 ?hk_15_0 ?x1_15_0 ?hxk_15_0 ?hpre_15_0 ?hkN_15_0 _ _) ?main_15_0
      case hxk_15_0 => rfl
      case hk_15_0 => show (0 : ℕ) < 8; decide
      case hpre_15_0 => rfl
      case hkN_15_0 => decide
      case main_15_0 =>
        rw [rd3_addUnit_zero]
        simp (disch := omega) only [st15 x b]
        split_ifs <;> first | rfl | (exfalso; omega)
    · refine Eq.trans (stack_piece _ _ 1 ?hk_15_1 ?x1_15_1 ?hxk_15_1 ?hpre_15_1 ?hkN_15_1 _ _) ?main_15_1
      case hxk_15_1 => rfl
      case hk_15_1 => show (1 : ℕ) < 8; decide
      case hpre_15_1 => rfl
      case hkN_15_1 => decide
      case main_15_1 =>
        rw [rd3_addUnit_zero]
        simp (disch := omega) only [k0_pay53, rd2_concat2, rd2_zeros, st16 x b]
        split_ifs <;> first | rfl | (exfalso; omega)
    · refine Eq.trans (stack_piece _ _ 2 ?hk_15_2 ?x1_15_2 ?hxk_15_2 ?hpre_15_2 ?hkN_15_2 _ _) ?main_15_2
      case hxk_15_2 => rfl
      case hk_15_2 => show (2 : ℕ) < 8; decide
      case hpre_15_2 => rfl
      case hkN_15_2 => decide
      case main_15_2 =>
        rw [rd3_addUnit_zero]
        simp (disch := omega) only [k0_pay55, rd2_concat2, rd2_zeros, st17 x b]
        split_ifs <;> first | rfl | (exfalso; omega)
    · refine Eq.trans (stack_piece _ _ 3 ?hk_15_3 ?x1_15_3 ?hxk_15_3 ?hpre_15_3 ?hkN_15_3 _ _) ?main_15_3
      case hxk_15_3 => rfl
      case hk_15_3 => show (3 : ℕ) < 8; decide
      case hpre_15_3 => rfl
      case hkN_15_3 => decide
      case main_15_3 =>
        rw [rd3_addUnit_zero]
        simp (disch := omega) only [k0_pay57, rd2_concat2, rd2_zeros, st18 x b]
        split_ifs <;> first | rfl | (exfalso; omega)
    · refine Eq.trans (stack_piece _ _ 4 ?hk_15_4 ?x1_15_4 ?hxk_15_4 ?hpre_15_4 ?hkN_15_4 _ _) ?main_15_4
      case hxk_15_4 => rfl
      case hk_15_4 => show (4 : ℕ) < 8; decide
      case hpre_15_4 => rfl
      case hkN_15_4 => decide
      case main_15_4 =>
        rw [rd3_addUnit_zero]
        simp (disch := omega) only [k0_pay59, rd2_concat2, rd2_zeros, st19 x b]
        split_ifs <;> first | rfl | (exfalso; omega)
    · refine Eq.trans (stack_piece _ _ 5 ?hk_15_5 ?x1_15_5 ?hxk_15_5 ?hpre_15_5 ?hkN_15_5 _ _) ?main_15_5
      case hxk_15_5 => rfl
      case hk_15_5 => show (5 : ℕ) < 8; decide
      case hpre_15_5 => rfl
      case hkN_15_5 => decide
      case main_15_5 =>
        rw [rd3_addUnit_zero]
        simp (disch := omega) only [k0_pay61, rd2_concat2, rd2_zeros, st20 x b]
        split_ifs <;> first | rfl | (exfalso; omega)
    · refine Eq.trans (stack_piece _ _ 6 ?hk_15_6 ?x1_15_6 ?hxk_15_6 ?hpre_15_6 ?hkN_15_6 _ _) ?main_15_6
      case hxk_15_6 => rfl
      case hk_15_6 => show (6 : ℕ) < 8; decide
      case hpre_15_6 => rfl
      case hkN_15_6 => decide
      case main_15_6 =>
        rw [rd3_addUnit_zero]
        simp (disch := omega) only [k0_pay63, rd2_concat2, rd2_zeros, st21 x b]
        split_ifs <;> first | rfl | (exfalso; omega)
    · refine Eq.trans (stack_piece _ _ 7 ?hk_15_7 ?x1_15_7 ?hxk_15_7 ?hpre_15_7 ?hkN_15_7 _ _) ?main_15_7
      case hxk_15_7 => rfl
      case hk_15_7 => show (7 : ℕ) < 8; decide
      case hpre_15_7 => rfl
      case hkN_15_7 => decide
      case main_15_7 =>
        rw [rd3_addUnit_zero]
        simp (disch := omega) only [k0_pay65, rd2_concat2, rd2_zeros, st22 x b]
        split_ifs <;> first | rfl | (exfalso; omega)
  · rw [rd3_ge _ _ _ _ (by omega), if_neg (fun h => ho h.1)]

end Cert.Stages

end
-- ==== Proof.Stages2.lean ====
/-
  Stages 23 to 30 of the pooling chain as the kernel computes them.

  Stage 23 is assembled column by column from stage 22 (the maximum of columns 2t, 2t + 1, 2t + 2); stages 24 to 30 are
  maxima of neighbours; the array of stage 23 + m holds the stage in its first 8 - m columns.
-/
import proofs.«156021_j19232863551513_2_alg».proof.Proof.Gen.KernelIdeal.Skeleton
import proofs.«156021_j19232863551513_2_alg».proof.Proof.LibRowOps
import proofs.«156021_j19232863551513_2_alg».proof.Proof.Spec
import proofs.«156021_j19232863551513_2_alg».proof.Proof.SpecSteps
import proofs.«156021_j19232863551513_2_alg».proof.Proof.Stages1

set_option maxRecDepth 16384

open Cert.KernelIdeal Cert.KernelIdeal.Gen Cert.RowOps Cert.Spec Idealize.ShloMosaic

noncomputable section

namespace Cert.Stages

variable (x : Vec Ideal S256x64 .f32) (b : Fin 256)

set_option maxHeartbeats 8000000 in
theorem st23 : ∀ t, rd2 (k0_pay66 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) b t = if t < 8 then P (row x b) 23 t else 0 := by
  intro t
  by_cases ht : t < 8
  · rw [if_pos ht]
    interval_cases t
    · rw [k0_pay66]
      refine (concat2_piece _ _ 0 ?hk_23_0 1 (maximumf (maximumf (extractStridedSlice S256x1 ![0, 0] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_0_S256x1) (extractStridedSlice S256x1 ![0, 1] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_1_S256x1)) (extractStridedSlice S256x1 ![0, 2] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_2_S256x1)) ?hxk_23_0 0 ?hpre_23_0 b 0 (by omega) (by omega) (by omega)).trans ?main_23_0
      case hk_23_0 => show (0 : ℕ) < 8; decide
      case hxk_23_0 => rfl
      case hpre_23_0 =>
        rw [List.map_take]
        show (List.map _ (List.take 0 [S256x1, S256x1, S256x1, S256x1, S256x1, S256x1, S256x1, S256x1])).sum = 0
        decide +kernel
      case main_23_0 =>
        simp (disch := omega) only [rd2_max, rd2_slice, st22 x b]
        simp [P_23]
    · rw [k0_pay66]
      refine (concat2_piece _ _ 1 ?hk_23_1 1 (maximumf (maximumf (extractStridedSlice S256x1 ![0, 2] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_2_S256x1) (extractStridedSlice S256x1 ![0, 3] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_3_S256x1)) (extractStridedSlice S256x1 ![0, 4] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_4_S256x1)) ?hxk_23_1 1 ?hpre_23_1 b 1 (by omega) (by omega) (by omega)).trans ?main_23_1
      case hk_23_1 => show (1 : ℕ) < 8; decide
      case hxk_23_1 => rfl
      case hpre_23_1 =>
        rw [List.map_take]
        show (List.map _ (List.take 1 [S256x1, S256x1, S256x1, S256x1, S256x1, S256x1, S256x1, S256x1])).sum = 1
        decide +kernel
      case main_23_1 =>
        simp (disch := omega) only [rd2_max, rd2_slice, st22 x b]
        simp [P_23]
    · rw [k0_pay66]
      refine (concat2_piece _ _ 2 ?hk_23_2 1 (maximumf (maximumf (extractStridedSlice S256x1 ![0, 4] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_4_S256x1) (extractStridedSlice S256x1 ![0, 5] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_5_S256x1)) (extractStridedSlice S256x1 ![0, 6] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_6_S256x1)) ?hxk_23_2 2 ?hpre_23_2 b 2 (by omega) (by omega) (by omega)).trans ?main_23_2
      case hk_23_2 => show (2 : ℕ) < 8; decide
      case hxk_23_2 => rfl
      case hpre_23_2 =>
        rw [List.map_take]
        show (List.map _ (List.take 2 [S256x1, S256x1, S256x1, S256x1, S256x1, S256x1, S256x1, S256x1])).sum = 2
        decide +kernel
      case main_23_2 =>
        simp (disch := omega) only [rd2_max, rd2_slice, st22 x b]
        simp [P_23]
    · rw [k0_pay66]
      refine (concat2_piece _ _ 3 ?hk_23_3 1 (maximumf (maximumf (extractStridedSlice S256x1 ![0, 6] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_6_S256x1) (extractStridedSlice S256x1 ![0, 7] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_7_S256x1)) (extractStridedSlice S256x1 ![0, 8] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_8_S256x1)) ?hxk_23_3 3 ?hpre_23_3 b 3 (by omega) (by omega) (by omega)).trans ?main_23_3
      case hk_23_3 => show (3 : ℕ) < 8; decide
      case hxk_23_3 => rfl
      case hpre_23_3 =>
        rw [List.map_take]
        show (List.map _ (List.take 3 [S256x1, S256x1, S256x1, S256x1, S256x1, S256x1, S256x1, S256x1])).sum = 3
        decide +kernel
      case main_23_3 =>
        simp (disch := omega) only [rd2_max, rd2_slice, st22 x b]
        simp [P_23]
    · rw [k0_pay66]
      refine (concat2_piece _ _ 4 ?hk_23_4 1 (maximumf (maximumf (extractStridedSlice S256x1 ![0, 8] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_8_S256x1) (extractStridedSlice S256x1 ![0, 9] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_9_S256x1)) (extractStridedSlice S256x1 ![0, 10] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_10_S256x1)) ?hxk_23_4 4 ?hpre_23_4 b 4 (by omega) (by omega) (by omega)).trans ?main_23_4
      case hk_23_4 => show (4 : ℕ) < 8; decide
      case hxk_23_4 => rfl
      case hpre_23_4 =>
        rw [List.map_take]
        show (List.map _ (List.take 4 [S256x1, S256x1, S256x1, S256x1, S256x1, S256x1, S256x1, S256x1])).sum = 4
        decide +kernel
      case main_23_4 =>
        simp (disch := omega) only [rd2_max, rd2_slice, st22 x b]
        simp [P_23]
    · rw [k0_pay66]
      refine (concat2_piece _ _ 5 ?hk_23_5 1 (maximumf (maximumf (extractStridedSlice S256x1 ![0, 10] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_10_S256x1) (extractStridedSlice S256x1 ![0, 11] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_11_S256x1)) (extractStridedSlice S256x1 ![0, 12] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_12_S256x1)) ?hxk_23_5 5 ?hpre_23_5 b 5 (by omega) (by omega) (by omega)).trans ?main_23_5
      case hk_23_5 => show (5 : ℕ) < 8; decide
      case hxk_23_5 => rfl
      case hpre_23_5 =>
        rw [List.map_take]
        show (List.map _ (List.take 5 [S256x1, S256x1, S256x1, S256x1, S256x1, S256x1, S256x1, S256x1])).sum = 5
        decide +kernel
      case main_23_5 =>
        simp (disch := omega) only [rd2_max, rd2_slice, st22 x b]
        simp [P_23]
    · rw [k0_pay66]
      refine (concat2_piece _ _ 6 ?hk_23_6 1 (maximumf (maximumf (extractStridedSlice S256x1 ![0, 12] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_12_S256x1) (extractStridedSlice S256x1 ![0, 13] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_13_S256x1)) (extractStridedSlice S256x1 ![0, 14] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_14_S256x1)) ?hxk_23_6 6 ?hpre_23_6 b 6 (by omega) (by omega) (by omega)).trans ?main_23_6
      case hk_23_6 => show (6 : ℕ) < 8; decide
      case hxk_23_6 => rfl
      case hpre_23_6 =>
        rw [List.map_take]
        show (List.map _ (List.take 6 [S256x1, S256x1, S256x1, S256x1, S256x1, S256x1, S256x1, S256x1])).sum = 6
        decide +kernel
      case main_23_6 =>
        simp (disch := omega) only [rd2_max, rd2_slice, st22 x b]
        simp [P_23]
    · rw [k0_pay66]
      refine (concat2_piece _ _ 7 ?hk_23_7 1 (maximumf (maximumf (extractStridedSlice S256x1 ![0, 14] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_14_S256x1) (extractStridedSlice S256x1 ![0, 15] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_15_S256x1)) (extractStridedSlice S256x1 ![0, 16] (k0_pay64 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) slices_S256x17_o0_16_S256x1)) ?hxk_23_7 7 ?hpre_23_7 b 7 (by omega) (by omega) (by omega)).trans ?main_23_7
      case hk_23_7 => show (7 : ℕ) < 8; decide
      case hxk_23_7 => rfl
      case hpre_23_7 =>
        rw [List.map_take]
        show (List.map _ (List.take 7 [S256x1, S256x1, S256x1, S256x1, S256x1, S256x1, S256x1, S256x1])).sum = 7
        decide +kernel
      case main_23_7 =>
        simp (disch := omega) only [rd2_max, rd2_slice, st22 x b]
        simp [P_23]
  · rw [if_neg ht]
    exact rd2_ge _ _ _ (by omega)

theorem st24 : ∀ t, rd2 (k0_pay67 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) b t = if t < 7 then P (row x b) 24 t else 0 := by
  intro t
  simp (disch := omega) only [k0_pay67, rd2_max, rd2_slice, st23 x b]
  split_ifs <;> first
    | (exfalso; omega)
    | exact max_self 0
    | (rw [P_24, Nat.zero_add, Nat.add_comm 1 t])

theorem st25 : ∀ t, rd2 (k0_pay70 (k0_pay67 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) (k0_pay69 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))))) b t = if t < 6 then P (row x b) 25 t else 0 := by
  intro t
  simp (disch := omega) only [k0_pay70, k0_pay69, rd2_max, rd2_slice, st24 x b]
  split_ifs <;> first
    | (exfalso; omega)
    | exact max_self 0
    | (rw [P_25, Nat.zero_add, Nat.add_comm 1 t])

theorem st26 : ∀ t, rd2 (k0_pay72 (k0_pay67 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) (k0_pay69 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))))) b t = if t < 5 then P (row x b) 26 t else 0 := by
  intro t
  simp (disch := omega) only [k0_pay72, rd2_max, rd2_slice, st25 x b]
  split_ifs <;> first
    | (exfalso; omega)
    | exact max_self 0
    | (rw [P_26, Nat.zero_add, Nat.add_comm 1 t])

theorem st27 : ∀ t, rd2 (k0_pay74 (k0_pay67 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) (k0_pay69 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))))) b t = if t < 4 then P (row x b) 27 t else 0 := by
  intro t
  simp (disch := omega) only [k0_pay74, rd2_max, rd2_slice, st26 x b]
  split_ifs <;> first
    | (exfalso; omega)
    | exact max_self 0
    | (rw [P_27, Nat.zero_add, Nat.add_comm 1 t])

theorem st28 : ∀ t, rd2 (k0_pay76 (k0_pay67 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) (k0_pay69 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))))) b t = if t < 3 then P (row x b) 28 t else 0 := by
  intro t
  simp (disch := omega) only [k0_pay76, rd2_max, rd2_slice, st27 x b]
  split_ifs <;> first
    | (exfalso; omega)
    | exact max_self 0
    | (rw [P_28, Nat.zero_add, Nat.add_comm 1 t])

theorem st29 : ∀ t, rd2 (k0_pay78 (k0_pay67 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) (k0_pay69 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))))) b t = if t < 2 then P (row x b) 29 t else 0 := by
  intro t
  simp (disch := omega) only [k0_pay78, rd2_max, rd2_slice, st28 x b]
  split_ifs <;> first
    | (exfalso; omega)
    | exact max_self 0
    | (rw [P_29, Nat.zero_add, Nat.add_comm 1 t])

theorem st30 : ∀ t, rd2 ((maximumf (extractStridedSlice S256x1 ![0, 0] (k0_pay78 (k0_pay67 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) (k0_pay69 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))))) slices_S256x2_o0_0_S256x1) (extractStridedSlice S256x1 ![0, 1] (k0_pay78 (k0_pay67 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) (k0_pay69 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))))) slices_S256x2_o0_1_S256x1))) b t = if t < 1 then P (row x b) 30 t else 0 := by
  intro t
  simp (disch := omega) only [rd2_max, rd2_slice, st29 x b]
  split_ifs <;> first
    | (exfalso; omega)
    | exact max_self 0
    | (rw [P_30, Nat.zero_add, Nat.add_comm 1 t])

set_option maxHeartbeats 8000000 in
/-- The stack of the eight stages 23 to 30, each padded with zeros to 8 columns. -/
theorem stack2 : ∀ o t, rd3 (k0_pay83 (k0_pay66 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) (k0_pay68 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) (k0_pay71 (k0_pay67 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) (k0_pay69 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))))) (k0_pay73 (k0_pay67 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) (k0_pay69 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))))) (k0_pay75 (k0_pay67 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) (k0_pay69 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))))) (k0_pay77 (k0_pay67 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) (k0_pay69 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))))) (k0_pay79 (k0_pay67 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) (k0_pay69 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x)))))) (k0_pay80 (k0_pay67 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))) (k0_pay69 (k0_pay60 (k0_pay29 (k0_pay18 x) (k0_pay20 x)) (k0_pay31 (k0_pay18 x) (k0_pay20 x)) (k0_pay32 (k0_pay18 x) (k0_pay20 x)) (k0_pay33 (k0_pay18 x) (k0_pay20 x)) (k0_pay34 (k0_pay18 x) (k0_pay20 x)) (k0_pay35 (k0_pay18 x) (k0_pay20 x)) (k0_pay36 (k0_pay18 x) (k0_pay20 x)) (k0_pay38 (k0_pay29 (k0_pay18 x) (k0_pay20 x)) (k0_pay37 (k0_pay18 x) (k0_pay20 x))) (k0_pay39 (k0_pay29 (k0_pay18 x) (k0_pay20 x))) (k0_pay40 (k0_pay29 (k0_pay18 x) (k0_pay20 x))) (k0_pay41 (k0_pay29 (k0_pay18 x) (k0_pay20 x))) (k0_pay42 (k0_pay29 (k0_pay18 x) (k0_pay20 x))) (k0_pay43 (k0_pay29 (k0_pay18 x) (k0_pay20 x))) (k0_pay44 (k0_pay29 (k0_pay18 x) (k0_pay20 x))) (k0_pay45 (k0_pay29 (k0_pay18 x) (k0_pay20 x))) (k0_pay46 (k0_pay29 (k0_pay18 x) (k0_pay20 x))) (k0_pay47 (k0_pay29 (k0_pay18 x) (k0_pay20 x))) (k0_pay48 (k0_pay29 (k0_pay18 x) (k0_pay20 x))) (k0_pay49 (k0_pay29 (k0_pay18 x) (k0_pay20 x))) (k0_pay50 (k0_pay29 (k0_pay18 x) (k0_pay20 x))))))) b o t = if o < 8 ∧ t + o < 8 then P (row x b) (23 + o) t else 0 := by
  intro o t
  by_cases ho : o < 8
  · rw [k0_pay83]
    interval_cases o
    · refine Eq.trans (stack_piece _ _ 0 ?hk_23_0 ?x1_23_0 ?hxk_23_0 ?hpre_23_0 ?hkN_23_0 _ _) ?main_23_0
      case hxk_23_0 => rfl
      case hk_23_0 => show (0 : ℕ) < 8; decide
      case hpre_23_0 => rfl
      case hkN_23_0 => decide
      case main_23_0 =>
        rw [rd3_addUnit_zero]
        simp (disch := omega) only [st23 x b]
        split_ifs <;> first | rfl | (exfalso; omega)
    · refine Eq.trans (stack_piece _ _ 1 ?hk_23_1 ?x1_23_1 ?hxk_23_1 ?hpre_23_1 ?hkN_23_1 _ _) ?main_23_1
      case hxk_23_1 => rfl
      case hk_23_1 => show (1 : ℕ) < 8; decide
      case hpre_23_1 => rfl
      case hkN_23_1 => decide
      case main_23_1 =>
        rw [rd3_addUnit_zero]
        simp (disch := omega) only [k0_pay68, rd2_concat2, rd2_zeros, st24 x b]
        split_ifs <;> first | rfl | (exfalso; omega)
    · refine Eq.trans (stack_piece _ _ 2 ?hk_23_2 ?x1_23_2 ?hxk_23_2 ?hpre_23_2 ?hkN_23_2 _ _) ?main_23_2
      case hxk_23_2 => rfl
      case hk_23_2 => show (2 : ℕ) < 8; decide
      case hpre_23_2 => rfl
      case hkN_23_2 => decide
      case main_23_2 =>
        rw [rd3_addUnit_zero]
        simp (disch := omega) only [k0_pay71, rd2_concat2, rd2_zeros, st25 x b]
        split_ifs <;> first | rfl | (exfalso; omega)
    · refine Eq.trans (stack_piece _ _ 3 ?hk_23_3 ?x1_23_3 ?hxk_23_3 ?hpre_23_3 ?hkN_23_3 _ _) ?main_23_3
      case hxk_23_3 => rfl
      case hk_23_3 => show (3 : ℕ) < 8; decide
      case hpre_23_3 => rfl
      case hkN_23_3 => decide
      case main_23_3 =>
        rw [rd3_addUnit_zero]
        simp (disch := omega) only [k0_pay73, rd2_concat2, rd2_zeros, st26 x b]
        split_ifs <;> first | rfl | (exfalso; omega)
    · refine Eq.trans (stack_piece _ _ 4 ?hk_23_4 ?x1_23_4 ?hxk_23_4 ?hpre_23_4 ?hkN_23_4 _ _) ?main_23_4
      case hxk_23_4 => rfl
      case hk_23_4 => show (4 : ℕ) < 8; decide
      case hpre_23_4 => rfl
      case hkN_23_4 => decide
      case main_23_4 =>
        rw [rd3_addUnit_zero]
        simp (disch := omega) only [k0_pay75, rd2_concat2, rd2_zeros, st27 x b]
        split_ifs <;> first | rfl | (exfalso; omega)
    · refine Eq.trans (stack_piece _ _ 5 ?hk_23_5 ?x1_23_5 ?hxk_23_5 ?hpre_23_5 ?hkN_23_5 _ _) ?main_23_5
      case hxk_23_5 => rfl
      case hk_23_5 => show (5 : ℕ) < 8; decide
      case hpre_23_5 => rfl
      case hkN_23_5 => decide
      case main_23_5 =>
        rw [rd3_addUnit_zero]
        simp (disch := omega) only [k0_pay77, rd2_concat2, rd2_zeros, st28 x b]
        split_ifs <;> first | rfl | (exfalso; omega)
    · refine Eq.trans (stack_piece _ _ 6 ?hk_23_6 ?x1_23_6 ?hxk_23_6 ?hpre_23_6 ?hkN_23_6 _ _) ?main_23_6
      case hxk_23_6 => rfl
      case hk_23_6 => show (6 : ℕ) < 8; decide
      case hpre_23_6 => rfl
      case hkN_23_6 => decide
      case main_23_6 =>
        rw [rd3_addUnit_zero]
        simp (disch := omega) only [k0_pay79, rd2_concat2, rd2_zeros, st29 x b]
        split_ifs <;> first | rfl | (exfalso; omega)
    · refine Eq.trans (stack_piece _ _ 7 ?hk_23_7 ?x1_23_7 ?hxk_23_7 ?hpre_23_7 ?hkN_23_7 _ _) ?main_23_7
      case hxk_23_7 => rfl
      case hk_23_7 => show (7 : ℕ) < 8; decide
      case hpre_23_7 => rfl
      case hkN_23_7 => decide
      case main_23_7 =>
        rw [rd3_addUnit_zero]
        simp (disch := omega) only [k0_pay80, rd2_concat2, rd2_zeros, st30 x b]
        split_ifs <;> first | rfl | (exfalso; omega)
  · rw [rd3_ge _ _ _ _ (by omega), if_neg (fun h => ho h.1)]

end Cert.Stages

end
-- ==== Proof.Pieces1.lean ====
/-
  Row pairs of the sparse map, as the kernel's body assembles them.

  Each store of the body writes two rows of the 64 by 64 map side by side (128 columns): row i is the sum of one block
  of consecutive entries taken from the stack of stages 0 to 14 (entries (i, i), …, (i, i + 14) as far as the row goes), of
  single entries taken from the stack of stages 15 to 22 when i is even, and of single entries taken from the stack of
  stages 23 to 30 when i is divisible by four, each placed between runs of zeros. At every column at most one summand is not
  zero, and it is the entry the map has there; the columns are checked one by one.
-/
import proofs.«156021_j19232863551513_2_alg».proof.Proof.Gen.KernelIdeal.Skeleton
import proofs.«156021_j19232863551513_2_alg».proof.Proof.LibRowOps
import proofs.«156021_j19232863551513_2_alg».proof.Proof.Spec

set_option maxRecDepth 16384

open Cert.KernelIdeal Cert.KernelIdeal.Gen Cert.RowOps Cert.Spec Idealize.ShloMosaic

noncomputable section

namespace Cert.Pieces

theorem piece_1 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay90 v319 v337 (k0_pay88 v328 v337 (k0_pay84 v319 v328) (k0_pay85 v328) (k0_pay86 (F := Ideal)) (k0_pay87 (F := Ideal))) (k0_pay89 v337)) b 0 l = G f (0 + l / 64) (l % 64) := by
  simp (disch := omega) only [k0_pay90, k0_pay88, k0_pay84, k0_pay85, k0_pay86, k0_pay87, k0_pay89, rd3_addUnit_zero, rd2_concat2, rd2_concat3, rd2_add, rd2_zeros, rd2_dropLast, rd3_slice, h0, h1, h2]
  interval_cases l <;> simp [G]

theorem piece_2 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay93 (k0_pay92 v319 v328 (k0_pay91 v319 v328))) b 0 l = G f (2 + l / 64) (l % 64) := by
  simp (disch := omega) only [k0_pay93, k0_pay92, k0_pay91, rd3_addUnit_zero, rd2_concat2, rd2_concat3, rd2_add, rd2_zeros, rd2_dropLast, rd3_slice, h0, h1, h2]
  interval_cases l <;> simp [G]

theorem piece_3 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay100 v319 v337 (k0_pay96 v328 v337 (k0_pay94 v319 v328) (k0_pay95 v328)) (k0_pay97 v337) (k0_pay98 (F := Ideal)) (k0_pay99 (F := Ideal))) b 0 l = G f (4 + l / 64) (l % 64) := by
  simp (disch := omega) only [k0_pay100, k0_pay96, k0_pay94, k0_pay95, k0_pay97, k0_pay98, k0_pay99, rd3_addUnit_zero, rd2_concat2, rd2_concat3, rd2_add, rd2_zeros, rd2_dropLast, rd3_slice, h0, h1, h2]
  interval_cases l <;> simp [G]

theorem piece_4 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay104 v319 v328 (k0_pay101 v319 v328) (k0_pay102 v328) (k0_pay103 (F := Ideal))) b 0 l = G f (6 + l / 64) (l % 64) := by
  simp (disch := omega) only [k0_pay104, k0_pay101, k0_pay102, k0_pay103, rd3_addUnit_zero, rd2_concat2, rd2_concat3, rd2_add, rd2_zeros, rd2_dropLast, rd3_slice, h0, h1, h2]
  interval_cases l <;> simp [G]

theorem piece_5 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay112 (k0_pay111 v319 v337 (k0_pay107 v328 (k0_pay105 v319) (k0_pay106 v328)) (k0_pay108 v328) (k0_pay109 (F := Ideal)) (k0_pay110 (F := Ideal)))) b 0 l = G f (8 + l / 64) (l % 64) := by
  simp (disch := omega) only [k0_pay112, k0_pay111, k0_pay107, k0_pay105, k0_pay106, k0_pay108, k0_pay109, k0_pay110, rd3_addUnit_zero, rd2_concat2, rd2_concat3, rd2_add, rd2_zeros, rd2_dropLast, rd3_slice, h0, h1, h2]
  interval_cases l <;> simp [G]

theorem piece_6 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay114 v319 v328 (k0_pay113 v319 v328)) b 0 l = G f (10 + l / 64) (l % 64) := by
  simp (disch := omega) only [k0_pay114, k0_pay113, rd3_addUnit_zero, rd2_concat2, rd2_concat3, rd2_add, rd2_zeros, rd2_dropLast, rd3_slice, h0, h1, h2]
  interval_cases l <;> simp [G]

theorem piece_7 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay121 v319 v337 (k0_pay119 v328 v337 (k0_pay115 v319 v328) (k0_pay116 v328) (k0_pay117 (F := Ideal)) (k0_pay118 (F := Ideal))) (k0_pay120 v337)) b 0 l = G f (12 + l / 64) (l % 64) := by
  simp (disch := omega) only [k0_pay121, k0_pay119, k0_pay115, k0_pay116, k0_pay117, k0_pay118, k0_pay120, rd3_addUnit_zero, rd2_concat2, rd2_concat3, rd2_add, rd2_zeros, rd2_dropLast, rd3_slice, h0, h1, h2]
  interval_cases l <;> simp [G]

theorem piece_8 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay124 (k0_pay123 v319 v328 (k0_pay122 v319 v328))) b 0 l = G f (14 + l / 64) (l % 64) := by
  simp (disch := omega) only [k0_pay124, k0_pay123, k0_pay122, rd3_addUnit_zero, rd2_concat2, rd2_concat3, rd2_add, rd2_zeros, rd2_dropLast, rd3_slice, h0, h1, h2]
  interval_cases l <;> simp [G]

end Cert.Pieces

end
-- ==== Proof.Pieces2.lean ====
/-
  Row pairs of the sparse map, as the kernel's body assembles them.

  Each store of the body writes two rows of the 64 by 64 map side by side (128 columns): row i is the sum of one block
  of consecutive entries taken from the stack of stages 0 to 14 (entries (i, i), …, (i, i + 14) as far as the row goes), of
  single entries taken from the stack of stages 15 to 22 when i is even, and of single entries taken from the stack of
  stages 23 to 30 when i is divisible by four, each placed between runs of zeros. At every column at most one summand is not
  zero, and it is the entry the map has there; the columns are checked one by one.
-/
import proofs.«156021_j19232863551513_2_alg».proof.Proof.Gen.KernelIdeal.Skeleton
import proofs.«156021_j19232863551513_2_alg».proof.Proof.LibRowOps
import proofs.«156021_j19232863551513_2_alg».proof.Proof.Spec

set_option maxRecDepth 16384

open Cert.KernelIdeal Cert.KernelIdeal.Gen Cert.RowOps Cert.Spec Idealize.ShloMosaic

noncomputable section

namespace Cert.Pieces

theorem piece_9 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay127 v319 v328 v337 (k0_pay125 v319 v328) (k0_pay126 v328)) b 0 l = G f (16 + l / 64) (l % 64) := by
  simp (disch := omega) only [k0_pay127, k0_pay125, k0_pay126, rd3_addUnit_zero, rd2_concat2, rd2_concat3, rd2_add, rd2_zeros, rd2_dropLast, rd3_slice, h0, h1, h2]
  interval_cases l <;> simp [G]

theorem piece_10 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay131 v319 v328 (k0_pay128 v319 v328) (k0_pay129 v328) (k0_pay130 (F := Ideal))) b 0 l = G f (18 + l / 64) (l % 64) := by
  simp (disch := omega) only [k0_pay131, k0_pay128, k0_pay129, k0_pay130, rd3_addUnit_zero, rd2_concat2, rd2_concat3, rd2_add, rd2_zeros, rd2_dropLast, rd3_slice, h0, h1, h2]
  interval_cases l <;> simp [G]

theorem piece_11 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay138 v319 (k0_pay134 v328 v337 (k0_pay132 v319 v328) (k0_pay133 v328)) (k0_pay135 v337) (k0_pay136 (F := Ideal)) (k0_pay137 (F := Ideal))) b 0 l = G f (20 + l / 64) (l % 64) := by
  simp (disch := omega) only [k0_pay138, k0_pay134, k0_pay132, k0_pay133, k0_pay135, k0_pay136, k0_pay137, rd3_addUnit_zero, rd2_concat2, rd2_concat3, rd2_add, rd2_zeros, rd2_dropLast, rd3_slice, h0, h1, h2]
  interval_cases l <;> simp [G]

theorem piece_12 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay142 v319 v328 (k0_pay139 v319 v328) (k0_pay140 v328) (k0_pay141 (F := Ideal))) b 0 l = G f (22 + l / 64) (l % 64) := by
  simp (disch := omega) only [k0_pay142, k0_pay139, k0_pay140, k0_pay141, rd3_addUnit_zero, rd2_concat2, rd2_concat3, rd2_add, rd2_zeros, rd2_dropLast, rd3_slice, h0, h1, h2]
  interval_cases l <;> simp [G]

theorem piece_13 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay149 v319 v337 (k0_pay145 v328 (k0_pay143 v319 v328) (k0_pay144 v328)) (k0_pay146 v337) (k0_pay147 (F := Ideal)) (k0_pay148 (F := Ideal))) b 0 l = G f (24 + l / 64) (l % 64) := by
  simp (disch := omega) only [k0_pay149, k0_pay145, k0_pay143, k0_pay144, k0_pay146, k0_pay147, k0_pay148, rd3_addUnit_zero, rd2_concat2, rd2_concat3, rd2_add, rd2_zeros, rd2_dropLast, rd3_slice, h0, h1, h2]
  interval_cases l <;> simp [G]

theorem piece_14 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay153 v319 v328 (k0_pay150 v319 v328) (k0_pay151 v328) (k0_pay152 (F := Ideal))) b 0 l = G f (26 + l / 64) (l % 64) := by
  simp (disch := omega) only [k0_pay153, k0_pay150, k0_pay151, k0_pay152, rd3_addUnit_zero, rd2_concat2, rd2_concat3, rd2_add, rd2_zeros, rd2_dropLast, rd3_slice, h0, h1, h2]
  interval_cases l <;> simp [G]

theorem piece_15 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay160 v319 v337 (k0_pay156 v328 (k0_pay154 v319) (k0_pay155 v328)) (k0_pay157 v328) (k0_pay158 (F := Ideal)) (k0_pay159 (F := Ideal))) b 0 l = G f (28 + l / 64) (l % 64) := by
  simp (disch := omega) only [k0_pay160, k0_pay156, k0_pay154, k0_pay155, k0_pay157, k0_pay158, k0_pay159, rd3_addUnit_zero, rd2_concat2, rd2_concat3, rd2_add, rd2_zeros, rd2_dropLast, rd3_slice, h0, h1, h2]
  interval_cases l <;> simp [G]

theorem piece_16 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay164 v319 v328 (k0_pay161 v319 v328) (k0_pay162 v328) (k0_pay163 (F := Ideal))) b 0 l = G f (30 + l / 64) (l % 64) := by
  simp (disch := omega) only [k0_pay164, k0_pay161, k0_pay162, k0_pay163, rd3_addUnit_zero, rd2_concat2, rd2_concat3, rd2_add, rd2_zeros, rd2_dropLast, rd3_slice, h0, h1, h2]
  interval_cases l <;> simp [G]

end Cert.Pieces

end
-- ==== Proof.Pieces3.lean ====
/-
  Row pairs of the sparse map, as the kernel's body assembles them.

  Each store of the body writes two rows of the 64 by 64 map side by side (128 columns): row i is the sum of one block
  of consecutive entries taken from the stack of stages 0 to 14 (entries (i, i), …, (i, i + 14) as far as the row goes), of
  single entries taken from the stack of stages 15 to 22 when i is even, and of single entries taken from the stack of
  stages 23 to 30 when i is divisible by four, each placed between runs of zeros. At every column at most one summand is not
  zero, and it is the entry the map has there; the columns are checked one by one.
-/
import proofs.«156021_j19232863551513_2_alg».proof.Proof.Gen.KernelIdeal.Skeleton
import proofs.«156021_j19232863551513_2_alg».proof.Proof.LibRowOps
import proofs.«156021_j19232863551513_2_alg».proof.Proof.Spec

set_option maxRecDepth 16384

open Cert.KernelIdeal Cert.KernelIdeal.Gen Cert.RowOps Cert.Spec Idealize.ShloMosaic

noncomputable section

namespace Cert.Pieces

theorem piece_17 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay171 v319 (k0_pay167 v328 (k0_pay165 v319) (k0_pay166 v328)) (k0_pay168 v328) (k0_pay169 (F := Ideal)) (k0_pay170 (F := Ideal))) b 0 l = G f (32 + l / 64) (l % 64) := by
  simp (disch := omega) only [k0_pay171, k0_pay167, k0_pay165, k0_pay166, k0_pay168, k0_pay169, k0_pay170, rd3_addUnit_zero, rd2_concat2, rd2_concat3, rd2_add, rd2_zeros, rd2_dropLast, rd3_slice, h0, h1, h2]
  interval_cases l <;> simp [G]

theorem piece_18 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay175 v319 v328 (k0_pay172 v319 v328) (k0_pay173 v328) (k0_pay174 (F := Ideal))) b 0 l = G f (34 + l / 64) (l % 64) := by
  simp (disch := omega) only [k0_pay175, k0_pay172, k0_pay173, k0_pay174, rd3_addUnit_zero, rd2_concat2, rd2_concat3, rd2_add, rd2_zeros, rd2_dropLast, rd3_slice, h0, h1, h2]
  interval_cases l <;> simp [G]

theorem piece_19 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay178 v319 v328 (k0_pay176 v319 v328) (k0_pay177 v328)) b 0 l = G f (36 + l / 64) (l % 64) := by
  simp (disch := omega) only [k0_pay178, k0_pay176, k0_pay177, rd3_addUnit_zero, rd2_concat2, rd2_concat3, rd2_add, rd2_zeros, rd2_dropLast, rd3_slice, h0, h1, h2]
  interval_cases l <;> simp [G]

theorem piece_20 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay180 v319 v328 (k0_pay179 v319 v328)) b 0 l = G f (38 + l / 64) (l % 64) := by
  simp (disch := omega) only [k0_pay180, k0_pay179, rd3_addUnit_zero, rd2_concat2, rd2_concat3, rd2_add, rd2_zeros, rd2_dropLast, rd3_slice, h0, h1, h2]
  interval_cases l <;> simp [G]

theorem piece_21 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay185 v319 v328 (k0_pay181 v319) (k0_pay182 v328) (k0_pay183 (F := Ideal)) (k0_pay184 (F := Ideal))) b 0 l = G f (40 + l / 64) (l % 64) := by
  simp (disch := omega) only [k0_pay185, k0_pay181, k0_pay182, k0_pay183, k0_pay184, rd3_addUnit_zero, rd2_concat2, rd2_concat3, rd2_add, rd2_zeros, rd2_dropLast, rd3_slice, h0, h1, h2]
  interval_cases l <;> simp [G]

theorem piece_22 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay189 v319 v328 (k0_pay186 v319 v328) (k0_pay187 v328) (k0_pay188 (F := Ideal))) b 0 l = G f (42 + l / 64) (l % 64) := by
  simp (disch := omega) only [k0_pay189, k0_pay186, k0_pay187, k0_pay188, rd3_addUnit_zero, rd2_concat2, rd2_concat3, rd2_add, rd2_zeros, rd2_dropLast, rd3_slice, h0, h1, h2]
  interval_cases l <;> simp [G]

theorem piece_23 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay191 (k0_pay190 v319 v328)) b 0 l = G f (44 + l / 64) (l % 64) := by
  simp (disch := omega) only [k0_pay191, k0_pay190, rd3_addUnit_zero, rd2_concat2, rd2_concat3, rd2_add, rd2_zeros, rd2_dropLast, rd3_slice, h0, h1, h2]
  interval_cases l <;> simp [G]

theorem piece_24 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay192 v319 v328) b 0 l = G f (46 + l / 64) (l % 64) := by
  simp (disch := omega) only [k0_pay192, rd3_addUnit_zero, rd2_concat2, rd2_concat3, rd2_add, rd2_zeros, rd2_dropLast, rd3_slice, h0, h1, h2]
  interval_cases l <;> simp [G]

end Cert.Pieces

end
-- ==== Proof.Pieces4.lean ====
/-
  Row pairs of the sparse map, as the kernel's body assembles them.

  Each store of the body writes two rows of the 64 by 64 map side by side (128 columns): row i is the sum of one block
  of consecutive entries taken from the stack of stages 0 to 14 (entries (i, i), …, (i, i + 14) as far as the row goes), of
  single entries taken from the stack of stages 15 to 22 when i is even, and of single entries taken from the stack of
  stages 23 to 30 when i is divisible by four, each placed between runs of zeros. At every column at most one summand is not
  zero, and it is the entry the map has there; the columns are checked one by one.
-/
import proofs.«156021_j19232863551513_2_alg».proof.Proof.Gen.KernelIdeal.Skeleton
import proofs.«156021_j19232863551513_2_alg».proof.Proof.LibRowOps
import proofs.«156021_j19232863551513_2_alg».proof.Proof.Spec

set_option maxRecDepth 16384

open Cert.KernelIdeal Cert.KernelIdeal.Gen Cert.RowOps Cert.Spec Idealize.ShloMosaic

noncomputable section

namespace Cert.Pieces

theorem piece_25 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay193 v319) b 0 l = G f (48 + l / 64) (l % 64) := by
  simp (disch := omega) only [k0_pay193, rd3_addUnit_zero, rd2_concat2, rd2_concat3, rd2_add, rd2_zeros, rd2_dropLast, rd3_slice, h0, h1, h2]
  interval_cases l <;> simp [G]

theorem piece_26 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay195 v319 (k0_pay194 v319)) b 0 l = G f (50 + l / 64) (l % 64) := by
  simp (disch := omega) only [k0_pay195, k0_pay194, rd3_addUnit_zero, rd2_concat2, rd2_concat3, rd2_add, rd2_zeros, rd2_dropLast, rd3_slice, h0, h1, h2]
  interval_cases l <;> simp [G]

theorem piece_27 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay196 v319) b 0 l = G f (52 + l / 64) (l % 64) := by
  simp (disch := omega) only [k0_pay196, rd3_addUnit_zero, rd2_concat2, rd2_concat3, rd2_add, rd2_zeros, rd2_dropLast, rd3_slice, h0, h1, h2]
  interval_cases l <;> simp [G]

theorem piece_28 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay197 v319) b 0 l = G f (54 + l / 64) (l % 64) := by
  simp (disch := omega) only [k0_pay197, rd3_addUnit_zero, rd2_concat2, rd2_concat3, rd2_add, rd2_zeros, rd2_dropLast, rd3_slice, h0, h1, h2]
  interval_cases l <;> simp [G]

theorem piece_29 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay199 (k0_pay198 v319)) b 0 l = G f (56 + l / 64) (l % 64) := by
  simp (disch := omega) only [k0_pay199, k0_pay198, rd3_addUnit_zero, rd2_concat2, rd2_concat3, rd2_add, rd2_zeros, rd2_dropLast, rd3_slice, h0, h1, h2]
  interval_cases l <;> simp [G]

theorem piece_30 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay200 v319) b 0 l = G f (58 + l / 64) (l % 64) := by
  simp (disch := omega) only [k0_pay200, rd3_addUnit_zero, rd2_concat2, rd2_concat3, rd2_add, rd2_zeros, rd2_dropLast, rd3_slice, h0, h1, h2]
  interval_cases l <;> simp [G]

theorem piece_31 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay201 v319) b 0 l = G f (60 + l / 64) (l % 64) := by
  simp (disch := omega) only [k0_pay201, rd3_addUnit_zero, rd2_concat2, rd2_concat3, rd2_add, rd2_zeros, rd2_dropLast, rd3_slice, h0, h1, h2]
  interval_cases l <;> simp [G]

theorem piece_32 (v319 : FVec Ideal S256x15x64 .f32) (v328 : FVec Ideal S256x8x24 .f32) (v337 : FVec Ideal S256x8x8 .f32)
    (f : ℕ → EReal) (b : Fin 256)
    (h0 : ∀ o t, rd3 v319 b o t = if o < 15 ∧ t + o < 64 then P f o t else 0)
    (h1 : ∀ o t, rd3 v328 b o t = if o < 8 ∧ t + o < 24 then P f (15 + o) t else 0)
    (h2 : ∀ o t, rd3 v337 b o t = if o < 8 ∧ t + o < 8 then P f (23 + o) t else 0)
    (l : ℕ) (hl : l < 128) :
    rd3 (k0_pay202 v319) b 0 l = G f (62 + l / 64) (l % 64) := by
  simp (disch := omega) only [k0_pay202, rd3_addUnit_zero, rd2_concat2, rd2_concat3, rd2_add, rd2_zeros, rd2_dropLast, rd3_slice, h0, h1, h2]
  interval_cases l <;> simp [G]

end Cert.Pieces

end
-- ==== Proof.KernelBlock.lean ====
/-
  The body's output block is the block function of its input block.

  The body's 32 stores tile the output block, store k writing row pair k - 1. Each store's value, read at a row and a column,
  is the entry of the row's sparse map that the block function names there (the row-pair modules), the three stacks of
  pooling stages being what the stage modules say they are; so the block the stores leave is the block function.
-/
import proofs.«156021_j19232863551513_2_alg».proof.Proof.KernelIdealFrameP
import proofs.«156021_j19232863551513_2_alg».proof.Proof.KernelBlockDef
import proofs.«156021_j19232863551513_2_alg».proof.Proof.Stages2
import proofs.«156021_j19232863551513_2_alg».proof.Proof.Pieces1
import proofs.«156021_j19232863551513_2_alg».proof.Proof.Pieces2
import proofs.«156021_j19232863551513_2_alg».proof.Proof.Pieces3
import proofs.«156021_j19232863551513_2_alg».proof.Proof.Pieces4

set_option maxRecDepth 16384

open Cert.KernelIdeal Cert.KernelIdeal.Gen Cert.RowOps Cert.Spec Cert.Stages Idealize.ShloMosaic Idealize.ShloMosaic.ValueIdx

noncomputable section

namespace Cert.KernelBlock

/-- One store: a value whose entry (b, 0, l) is entry (2k + l / 64, l mod 64) of row b's map is the block function on the
    rectangle of row pair k. -/
theorem piece_ok (x : Vec Ideal S256x64 .f32) (k : ℕ)
    (inb : ∀ a, (![0, k, 0] : Fin 3 → ℕ) a + S256x1x128.size a ≤ S256x32x128.size a)
    (T : Vec Ideal S256x1x128 .f32)
    (hT : ∀ (b : Fin 256) (l : ℕ) (hl : l < 128), rd3 T b 0 l = G (row x b) (2 * k + l / 64) (l % 64))
    (xi : S256x1x128.Idx) :
    T xi = Gblk x ((Rect.unit (s := S256x32x128) ![0, k, 0] S256x1x128.size inb).emb xi) := by
  obtain ⟨b, z, l, rfl⟩ : ∃ (b : Fin 256) (z : Fin 1) (l : Fin 128), xi = ix3 b z l := ⟨xi 0, xi 1, xi 2, eq_ix3 xi⟩
  have hz : z = 0 := Fin.ext (by have := z.isLt; omega)
  subst hz
  rw [rd3_of T b 0 l]
  show rd3 T b 0 l.val = _
  rw [hT b l.val l.isLt]
  have e0 : (Rect.unit (s := S256x32x128) ![0, k, 0] S256x1x128.size inb).emb (ix3 b 0 l) 0 = b :=
    Fin.ext (by show 0 + 1 * b.val = b.val; omega)
  have e1 : ((Rect.unit (s := S256x32x128) ![0, k, 0] S256x1x128.size inb).emb (ix3 b 0 l) 1).val = k := by
    show k + 1 * 0 = k; omega
  have e2 : ((Rect.unit (s := S256x32x128) ![0, k, 0] S256x1x128.size inb).emb (ix3 b 0 l) 2).val = l.val := by
    show 0 + 1 * l.val = l.val; omega
  unfold Gblk
  rw [e0, e1, e2]

theorem hz2 : (![0, 0] : Fin 2 → ℕ) = fun _ => 0 := funext fun a => by fin_cases a <;> rfl

set_option maxHeartbeats 16000000 in
/-- The block the body's stores leave. -/
theorem out_eq (x0 : Vec Ideal S256x64 .f32) : GenP.out0_1 (F := Ideal) x0 = Gblk x0 := by
  have hx : View.ld x0 GenP.r0_0 = x0 := View.ld_unit_zero (S := S256x64) hz2 _ x0
  funext y
  rw [show Gblk x0 = Gblk (View.ld x0 GenP.r0_0) from by rw [hx]]
  unfold GenP.out0_1
  refine View.canon_apply_of_pieces (Val := Elt Ideal) (e := .f32) (Gblk (View.ld x0 GenP.r0_0)) _ ?_ y (GenP.cover0_1 _ _ _ _ _ _ _ _ _ _ _ _ _ _ _ _ _ _ _ _ _ _ _ _ _ _ _ _ _ _ _ _ y)
  intro p hp xi
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact piece_ok _ 31 (by decide) _ (fun b l hl => Pieces.piece_32 _ _ _ _ b (stack0 _ b) (stack1 _ b) (stack2 _ b) l hl) xi
  · exact piece_ok _ 30 (by decide) _ (fun b l hl => Pieces.piece_31 _ _ _ _ b (stack0 _ b) (stack1 _ b) (stack2 _ b) l hl) xi
  · exact piece_ok _ 29 (by decide) _ (fun b l hl => Pieces.piece_30 _ _ _ _ b (stack0 _ b) (stack1 _ b) (stack2 _ b) l hl) xi
  · exact piece_ok _ 28 (by decide) _ (fun b l hl => Pieces.piece_29 _ _ _ _ b (stack0 _ b) (stack1 _ b) (stack2 _ b) l hl) xi
  · exact piece_ok _ 27 (by decide) _ (fun b l hl => Pieces.piece_28 _ _ _ _ b (stack0 _ b) (stack1 _ b) (stack2 _ b) l hl) xi
  · exact piece_ok _ 26 (by decide) _ (fun b l hl => Pieces.piece_27 _ _ _ _ b (stack0 _ b) (stack1 _ b) (stack2 _ b) l hl) xi
  · exact piece_ok _ 25 (by decide) _ (fun b l hl => Pieces.piece_26 _ _ _ _ b (stack0 _ b) (stack1 _ b) (stack2 _ b) l hl) xi
  · exact piece_ok _ 24 (by decide) _ (fun b l hl => Pieces.piece_25 _ _ _ _ b (stack0 _ b) (stack1 _ b) (stack2 _ b) l hl) xi
  · exact piece_ok _ 23 (by decide) _ (fun b l hl => Pieces.piece_24 _ _ _ _ b (stack0 _ b) (stack1 _ b) (stack2 _ b) l hl) xi
  · exact piece_ok _ 22 (by decide) _ (fun b l hl => Pieces.piece_23 _ _ _ _ b (stack0 _ b) (stack1 _ b) (stack2 _ b) l hl) xi
  · exact piece_ok _ 21 (by decide) _ (fun b l hl => Pieces.piece_22 _ _ _ _ b (stack0 _ b) (stack1 _ b) (stack2 _ b) l hl) xi
  · exact piece_ok _ 20 (by decide) _ (fun b l hl => Pieces.piece_21 _ _ _ _ b (stack0 _ b) (stack1 _ b) (stack2 _ b) l hl) xi
  · exact piece_ok _ 19 (by decide) _ (fun b l hl => Pieces.piece_20 _ _ _ _ b (stack0 _ b) (stack1 _ b) (stack2 _ b) l hl) xi
  · exact piece_ok _ 18 (by decide) _ (fun b l hl => Pieces.piece_19 _ _ _ _ b (stack0 _ b) (stack1 _ b) (stack2 _ b) l hl) xi
  · exact piece_ok _ 17 (by decide) _ (fun b l hl => Pieces.piece_18 _ _ _ _ b (stack0 _ b) (stack1 _ b) (stack2 _ b) l hl) xi
  · exact piece_ok _ 16 (by decide) _ (fun b l hl => Pieces.piece_17 _ _ _ _ b (stack0 _ b) (stack1 _ b) (stack2 _ b) l hl) xi
  · exact piece_ok _ 15 (by decide) _ (fun b l hl => Pieces.piece_16 _ _ _ _ b (stack0 _ b) (stack1 _ b) (stack2 _ b) l hl) xi
  · exact piece_ok _ 14 (by decide) _ (fun b l hl => Pieces.piece_15 _ _ _ _ b (stack0 _ b) (stack1 _ b) (stack2 _ b) l hl) xi
  · exact piece_ok _ 13 (by decide) _ (fun b l hl => Pieces.piece_14 _ _ _ _ b (stack0 _ b) (stack1 _ b) (stack2 _ b) l hl) xi
  · exact piece_ok _ 12 (by decide) _ (fun b l hl => Pieces.piece_13 _ _ _ _ b (stack0 _ b) (stack1 _ b) (stack2 _ b) l hl) xi
  · exact piece_ok _ 11 (by decide) _ (fun b l hl => Pieces.piece_12 _ _ _ _ b (stack0 _ b) (stack1 _ b) (stack2 _ b) l hl) xi
  · exact piece_ok _ 10 (by decide) _ (fun b l hl => Pieces.piece_11 _ _ _ _ b (stack0 _ b) (stack1 _ b) (stack2 _ b) l hl) xi
  · exact piece_ok _ 9 (by decide) _ (fun b l hl => Pieces.piece_10 _ _ _ _ b (stack0 _ b) (stack1 _ b) (stack2 _ b) l hl) xi
  · exact piece_ok _ 8 (by decide) _ (fun b l hl => Pieces.piece_9 _ _ _ _ b (stack0 _ b) (stack1 _ b) (stack2 _ b) l hl) xi
  · exact piece_ok _ 7 (by decide) _ (fun b l hl => Pieces.piece_8 _ _ _ _ b (stack0 _ b) (stack1 _ b) (stack2 _ b) l hl) xi
  · exact piece_ok _ 6 (by decide) _ (fun b l hl => Pieces.piece_7 _ _ _ _ b (stack0 _ b) (stack1 _ b) (stack2 _ b) l hl) xi
  · exact piece_ok _ 5 (by decide) _ (fun b l hl => Pieces.piece_6 _ _ _ _ b (stack0 _ b) (stack1 _ b) (stack2 _ b) l hl) xi
  · exact piece_ok _ 4 (by decide) _ (fun b l hl => Pieces.piece_5 _ _ _ _ b (stack0 _ b) (stack1 _ b) (stack2 _ b) l hl) xi
  · exact piece_ok _ 3 (by decide) _ (fun b l hl => Pieces.piece_4 _ _ _ _ b (stack0 _ b) (stack1 _ b) (stack2 _ b) l hl) xi
  · exact piece_ok _ 2 (by decide) _ (fun b l hl => Pieces.piece_3 _ _ _ _ b (stack0 _ b) (stack1 _ b) (stack2 _ b) l hl) xi
  · exact piece_ok _ 1 (by decide) _ (fun b l hl => Pieces.piece_2 _ _ _ _ b (stack0 _ b) (stack1 _ b) (stack2 _ b) l hl) xi
  · exact piece_ok _ 0 (by decide) _ (fun b l hl => Pieces.piece_1 _ _ _ _ b (stack0 _ b) (stack1 _ b) (stack2 _ b) l hl) xi

end Cert.KernelBlock

end
-- ==== Proof.KernelRunFlat.lean ====
/-
  The kernel's output array as one function of its flattened input array, and the two reshapes around it.

  The kernel works on the input flattened to 16384 rows of 64 entries and produces 16384 blocks of 32 by 128: block row r,
  entry (q, l) is entry (2q + l / 64, l mod 64) of the sparse map of row r. One grid point's output block is that function
  restricted to the point's 256 rows. Reading the flattened output back as 32 by 512 maps of 64 by 64 gives the sparse map
  of every row of the unflattened input, because both reshapes keep row-major positions:
  ((b·512 + c)·32 + q)·128 + l = ((b·512 + c)·64 + i)·64 + j when i = 2q + l / 64 and j = l mod 64.
-/
import proofs.«156021_j19232863551513_2_alg».proof.Proof.Spec
import proofs.«156021_j19232863551513_2_alg».proof.Proof.LibRowOps
import proofs.«156021_j19232863551513_2_alg».proof.Proof.KernelBlockDef
import Idealize.ShloMosaic.Lib.Pipeline.Value

noncomputable section

namespace Cert.KernelRun

open Idealize.ShloMosaic Idealize.ShloMosaic.ValueIdx Cert.RowOps
open Cert.KernelIdeal (S16384x64 S16384x32x128 S256x64 S256x32x128 S32x512x64 S32x512x64x64)

/-- The flattened output of a flattened input: block row r, entry (q, l) is entry (2q + l / 64, l mod 64) of the sparse
    map of row r. -/
def Gflat (xf : S16384x64.Idx → EReal) : S16384x32x128.Idx → EReal :=
  fun i => Cert.Spec.G (fun t => rd2 xf (i 0) t) (2 * (i 1).val + (i 2).val / 64) ((i 2).val % 64)

/-- A block of 256 rows starting at row 256·T: the block's output function is the flattened output function read at
    the block's rows. -/
theorem Gblk_eq_Gflat (xf : S16384x64.Idx → EReal) (x0 : Vec Ideal S256x64 .f32) (T : ℕ)
    (hx : ∀ (b : Fin 256) (k : Fin 64) (r : Fin 16384), r.val = T * 256 + b.val → x0 (ix2 b k) = xf (ix2 r k))
    (y : S256x32x128.Idx) (i : S16384x32x128.Idx)
    (h0 : (i 0).val = T * 256 + (y 0).val) (h1 : (i 1).val = (y 1).val) (h2 : (i 2).val = (y 2).val) :
    Cert.KernelBlock.Gblk x0 y = Gflat xf i := by
  unfold Cert.KernelBlock.Gblk Gflat
  rw [h1, h2]
  congr 1
  funext t
  show rd2 x0 (y 0) t = rd2 xf (i 0) t
  unfold rd2
  split_ifs with h
  · exact hx (y 0) ⟨t, h⟩ (i 0) h0
  · rfl

/-- Row b·512 + c of the flattened input is row (b, c) of the input. -/
theorem rd2_reshape (x : S32x512x64.Idx → EReal) (h1 : S32x512x64.ShapeCasts S16384x64) (b : Fin 32) (c : Fin 512)
    (r : Fin 16384) (hr : r.val = b.val * 512 + c.val) :
    (fun t => rd2 (shapeCast S16384x64 x h1) r t) = Cert.Spec.rowOf x b c := by
  funext t
  unfold rd2 Cert.Spec.rowOf
  split_ifs with h
  · refine shapeCast_apply x h1 (ix2 r ⟨t, h⟩) (ix3 b c ⟨t, h⟩) ?_
    rw [Shape.rowMajor_val_three, Shape.rowMajor_val_two]
    show (b.val * 512 + c.val) * 64 + t = r.val * 64 + t
    rw [hr]
  · rfl

/-- Flatten, apply the flattened output function, and read the result back as 32 by 512 maps of 64 by 64: the sparse
    map of every row. -/
theorem reshape_Gflat_reshape (x : S32x512x64.Idx → EReal) (h1 : S32x512x64.ShapeCasts S16384x64)
    (h2 : S16384x32x128.ShapeCasts S32x512x64x64) :
    shapeCast S32x512x64x64 (Gflat (shapeCast S16384x64 x h1)) h2 = Cert.Spec.G4 x := by
  funext i4
  obtain ⟨b, c, i, j, rfl⟩ : ∃ (b : Fin 32) (c : Fin 512) (i j : Fin 64), i4 = ix4 b c i j :=
    ⟨i4 0, i4 1, i4 2, i4 3, eq_ix4 i4⟩
  have hb := b.isLt; have hc := c.isLt; have hi := i.isLt; have hj := j.isLt
  rw [shapeCast_apply (Gflat (shapeCast S16384x64 x h1)) h2 (ix4 b c i j)
    (ix3 (⟨b.val * 512 + c.val, by omega⟩ : Fin 16384) (⟨i.val / 2, by omega⟩ : Fin 32) (⟨(i.val % 2) * 64 + j.val, by omega⟩ : Fin 128))
    (by rw [Shape.rowMajor_val_three, Shape.rowMajor_val_four]
        show ((b.val * 512 + c.val) * 32 + i.val / 2) * 128 + ((i.val % 2) * 64 + j.val) = ((b.val * 512 + c.val) * 64 + i.val) * 64 + j.val
        omega)]
  show Cert.Spec.G (fun t => rd2 (shapeCast S16384x64 x h1) (⟨b.val * 512 + c.val, by omega⟩ : Fin 16384) t)
      (2 * (i.val / 2) + ((i.val % 2) * 64 + j.val) / 64) (((i.val % 2) * 64 + j.val) % 64) = Cert.Spec.G (Cert.Spec.rowOf x b c) i.val j.val
  rw [rd2_reshape x h1 b c _ rfl]
  congr 1 <;> omega

end Cert.KernelRun

end
-- ==== Proof.KernelRun.lean ====
/-
  The kernel's run, read at the level of whole arrays.

  Before the grid the input is flattened to 16384 rows; grid point t reads rows 256·t … 256·t + 255 and writes block t of
  the flattened output; after the grid the flattened output is read back as 32 by 512 maps of 64 by 64. Given that one
  grid point's output block is the block function of its input block, every block written is the flattened output function
  of the flattened input restricted to the block, the blocks tile the flattened output, and the two reshapes turn the
  flattened output function into the sparse map of every row. The constant result is written before the grid and never
  again; the argument is never written.
-/
import proofs.«156021_j19232863551513_2_alg».proof.Proof.KernelIdealFrameP
import proofs.«156021_j19232863551513_2_alg».proof.Proof.KernelRunFlat
import Idealize.ShloMosaic.Lib.Pipeline.Value
import Idealize.ShloMosaic.Lib.StableHlo.Run

set_option maxRecDepth 16384

noncomputable section

namespace Cert.KernelRun

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The two index maps over the grid: point t's input block starts at block row t, column block 0; its output block at
    block row t, and block 0 on the other two axes. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- Entry (b, k) of point t's input block is entry (256·t + b, k) of the flattened input. -/
theorem iblk_apply (c : Dev nD) (t : Fin cfg0.N) (b : Fin 256) (k : Fin 64) (r : Fin 16384) (hr : r.val = t.val * 256 + b.val) :
    (iblk m c 0 t : Vec Ideal S256x64 .f32) (ix2 b k) = (V m c main_v0 : S16384x64.Idx → EReal) (ix2 r k) := by
  obtain ⟨e0, e1, -, -, -⟩ := idx_facts t
  unfold iblk
  rw [View.read_apply]
  show V m c main_v0 (((cfg0.win 0).blk t).view.emb (ix2 b k)) = V m c main_v0 (ix2 r k)
  congr 1
  funext a
  apply Fin.ext
  match a with
  | ⟨0, _⟩ => show win0_0.index t (0 : Fin 2) * 256 + 1 * b.val = r.val; rw [e0, hr]; omega
  | ⟨1, _⟩ => show win0_0.index t (1 : Fin 2) * 64 + 1 * k.val = k.val; rw [e1]; omega

/-- What grid point t writes back is block t of the flattened output function of the flattened input. -/
theorem flushed_eq (hout : ∀ x0 : Vec Ideal S256x64 .f32, out0_1 (F := Ideal) x0 = Cert.KernelBlock.Gblk x0)
    (c : Dev nD) (t : Fin cfg0.N) :
    (dats m 0 c).flushed 1 t = ((cfg0.win 1).blk t).view.read (Elt Ideal) (Gflat (V m c main_v0)) := by
  show (cfg0.win 1).cut (grid0.coords t) ((dats m 0 c).after 1 t) = _
  rw [after0_1, hout]
  obtain ⟨-, -, e2, e3, e4⟩ := idx_facts t
  funext y
  show Cert.KernelBlock.Gblk (iblk m c 0 t) y = Gflat (V m c main_v0) (((cfg0.win 1).blk t).view.emb y)
  refine Gblk_eq_Gflat (V m c main_v0) (iblk m c 0 t) t.val (fun b k r hr => iblk_apply m c t b k r hr) y _ ?_ ?_ ?_
  · show win0_1.index t (0 : Fin 3) * 256 + 1 * (y 0).val = t.val * 256 + (y 0).val; rw [e2]; omega
  · show win0_1.index t (1 : Fin 3) * 32 + 1 * (y 1).val = (y 1).val; rw [e3]; omega
  · show win0_1.index t (2 : Fin 3) * 128 + 1 * (y 2).val = (y 2).val; rw [e4]; omega

/-- An index of the flattened output is in point t's block iff each coordinate is in the block's range on its axis. -/
theorem mem_blk (t : Fin cfg0.N) (i : S16384x32x128.Idx) :
    i ∈ ((cfg0.win 1).blk t).view.set ↔ ∀ a : Fin 3, win0_1.index t a * S256x32x128.size a ≤ (i a).val ∧ (i a).val < win0_1.index t a * S256x32x128.size a + S256x32x128.size a := by
  show i ∈ ((View.whole main_v1).slice (win0_1.rect t)).set ↔ _
  rw [View.set_slice_whole, Rect.mem_set_unit]
  exact Iff.rfl

/-- The blocks tile the flattened output: row r is in the block of point r / 256. -/
theorem cover (i : S16384x32x128.Idx) :
    ∃ t : Fin cfg0.N, (cfg0.win 1).flush t = true ∧ i ∈ ((cfg0.win 1).blk t).view.set := by
  have h0 : (i 0).val < 16384 := (i 0).isLt
  have h1 : (i 1).val < 32 := (i 1).isLt
  have h2 : (i 2).val < 128 := (i 2).isLt
  have hN : cfg0.N = 64 := N_0
  have ht : (i 0).val / 256 < cfg0.N := by rw [hN]; omega
  refine ⟨⟨(i 0).val / 256, ht⟩, flush0_1 _, ?_⟩
  rw [mem_blk]
  obtain ⟨-, -, e2, e3, e4⟩ := idx_facts ⟨(i 0).val / 256, ht⟩
  have e2' : win0_1.index ⟨(i 0).val / 256, ht⟩ (0 : Fin 3) = (i 0).val / 256 := e2
  intro a
  match a with
  | ⟨0, _⟩ => show win0_1.index ⟨(i 0).val / 256, ht⟩ (0 : Fin 3) * 256 ≤ (i 0).val ∧ (i 0).val < win0_1.index ⟨(i 0).val / 256, ht⟩ (0 : Fin 3) * 256 + 256; rw [e2']; omega
  | ⟨1, _⟩ => show win0_1.index ⟨(i 0).val / 256, ht⟩ (1 : Fin 3) * 32 ≤ (i 1).val ∧ (i 1).val < win0_1.index ⟨(i 0).val / 256, ht⟩ (1 : Fin 3) * 32 + 32; rw [e3]; omega
  | ⟨2, _⟩ => show win0_1.index ⟨(i 0).val / 256, ht⟩ (2 : Fin 3) * 128 ≤ (i 2).val ∧ (i 2).val < win0_1.index ⟨(i 0).val / 256, ht⟩ (2 : Fin 3) * 128 + 128; rw [e4]; omega

/-- After the grid the flattened output array is the flattened output function of the flattened input. -/
theorem final (hout : ∀ x0 : Vec Ideal S256x64 .f32, out0_1 (F := Ideal) x0 = Cert.KernelBlock.Gblk x0) (c : Dev nD) :
    (dats m 0 c).arrAt 1 cfg0.N = Gflat (V m c main_v0) :=
  (dats m 0 c).arrAt_eq_of_cover 1 (Gflat (V m c main_v0)) (fun t _ => flushed_eq m hout c t) cover

/-- The grid finds the flattened input: the argument reshaped. -/
theorem V_main_v0 (c : Dev nD) : (V m c main_v0 : S16384x64.Idx → EReal)
    = shapeCast S16384x64 (m ((c : Thread nD τ).loc main_arg0)) shapeCasts_S32x512x64_S16384x64 := by
  show StableHlo.after hostOps0 (fun b => m (c, b)) (Proc.devRef .tc main_v0) = _
  after_results
  rfl

/-- The grid finds the constant result already written: the literal table. -/
theorem V_main_c (c : Dev nD) : (V m c main_c : S64x64.Idx → BitVec 1) = (fun i => lit0 (S64x64.rowMajor i)) := by
  show StableHlo.after hostOps0 (fun b => m (c, b)) (Proc.devRef .tc main_c) = _
  after_results
  rfl

/-- The reshape after the grid does not write the constant result: it ends as the grid found it. -/
theorem W_main_c (c : Dev nD) :
    Pipeline.afterTail₀ cfgs (dats m) 0 (V0 m) [hostOps1] c main_c = V m c main_c := by
  unfold Pipeline.afterTail₀
  rw [StableHlo.after_of_forall_not_mem (b := Proc.devRef .tc main_c) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_c (by exact (by decide : ∀ w, Pipeline.arrRef spec0 w ≠ main_c))]

/-- The result array after the run: the flattened output function of the flattened input, read back as 32 by 512 maps
    of 64 by 64. -/
theorem W_main_v2 (hout : ∀ x0 : Vec Ideal S256x64 .f32, out0_1 (F := Ideal) x0 = Cert.KernelBlock.Gblk x0) (c : Dev nD) :
    (Pipeline.afterTail₀ cfgs (dats m) 0 (V0 m) [hostOps1] c main_v2 : S32x512x64x64.Idx → EReal)
      = shapeCast S32x512x64x64 (Gflat (V m c main_v0)) shapeCasts_S16384x32x128_S32x512x64x64 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = Gflat (V m c main_v0) :=
    (Pipeline.withArrays_arr spec0 launch0.win.arr_inj c (V0 m c) (fun w => (dats m 0 c).arrAt w cfg0.N) 1).trans (final m hout c)
  rw [e]
  rfl

/-- THE KERNEL'S RUN: given that one grid point's output block is the block function of its input block, every weakly
    fair execution of the program terminates with the result array at the sparse map of every row of the argument, the
    constant result at its literal table, and the argument as launched. -/
theorem run (hout : ∀ x0 : Vec Ideal S256x64 .f32, out0_1 (F := Ideal) x0 = Cert.KernelBlock.Gblk x0)
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = Cert.Spec.G4 (m ((c.tc : Thread nD τ).loc main_arg0))
      ∧ r.2.mem ((c.tc : Thread nD τ).loc main_c) = (fun i => lit0 (S64x64.rowMajor i))
      ∧ r.2.mem ((c.tc : Thread nD τ).loc main_arg0) = m ((c.tc : Thread nD τ).loc main_arg0)) :=
  (θ_run defs _ _).mono (fun _ h c =>
    ⟨((h c).2 main_v2 (Pipeline.mem_restRefs_of main_v2 (by decide) (by decide))).trans
        ((W_main_v2 m hout c).trans (by rw [V_main_v0]; exact reshape_Gflat_reshape _ _ _)),
      ((h c).2 main_c (Pipeline.mem_restRefs_of main_c (by decide) (by decide))).trans ((W_main_c m c).trans (V_main_c m c)),
      ((h c).2 main_arg0 (Pipeline.mem_restRefs_of main_arg0 (by decide) (by decide))).trans (W_main_arg0 m (dats m) c)⟩)
    (run_main m ρ)

end Cert.KernelRun

end
-- ==== Proof.RefTerm.lean ====
/-
  The reference's result read as pure terms of its argument array, one definition per stage.

  For each of the thirty-one stages s: the two index columns ixI_s and ixJ_s (each a literal table t, passed through the
  selection "if the mask then t + 64 else t" whose mask is the constant false), the index array idx_s (the two columns
  side by side, one row (i, j) per update position), the row array pool_s x that the stage writes (the argument itself for
  s = 0, a windowed maximum of pool_(s-1) x afterwards) and the array acc_s x after the stage's scatter of pool_s x into
  acc_(s-1) x at the rows of idx_s (acc_(-1) being the array of zeros). The last one is the reference's first result.
-/
import proofs.«156021_j19232863551513_2_alg».proof.ReferenceIdeal
import proofs.«156021_j19232863551513_2_alg».proof.Proof.Gen.ReferenceIdeal
import Idealize.ShloMosaic.PureOps.Ideal

noncomputable section

namespace Cert.RefTerm

open Idealize.ShloMosaic Idealize.SL.Sem
open Cert.ReferenceIdeal Cert.ReferenceIdeal.Facts₀ Cert.ReferenceIdeal.Facts

-- the float values the terms are over: any family with the float operations, the extended reals among them
variable {F : FTy → Type} [FloatOps F]

def pool_0 (x : (⟨S32x512x64, .f32⟩ : BufTy).Contents (Elt F)) : (⟨S32x512x64, .f32⟩ : BufTy).Contents (Elt F) :=
  x

def ixI_0 : (⟨S64, .i32⟩ : BufTy).Contents (Elt F) :=
  (select : (⟨S64, .i1⟩ : BufTy).Contents (Elt F) → (⟨S64, .i32⟩ : BufTy).Contents (Elt F) → (⟨S64, .i32⟩ : BufTy).Contents (Elt F) → (⟨S64, .i32⟩ : BufTy).Contents (Elt F)) ((constantI S64 1 0#1 : (⟨S64, .i1⟩ : BufTy).Contents (Elt F))) ((addi : (⟨S64, .i32⟩ : BufTy).Contents (Elt F) → (⟨S64, .i32⟩ : BufTy).Contents (Elt F) → (⟨S64, .i32⟩ : BufTy).Contents (Elt F)) ((fun i => lit0 (S64.rowMajor i) : (⟨S64, .i32⟩ : BufTy).Contents (Elt F))) ((broadcastInDim S64 ![] bcast_S_S64 : (⟨S_, .i32⟩ : BufTy).Contents (Elt F) → (⟨S64, .i32⟩ : BufTy).Contents (Elt F)) ((constantI S_ 32 64#32 : (⟨S_, .i32⟩ : BufTy).Contents (Elt F))))) ((fun i => lit0 (S64.rowMajor i) : (⟨S64, .i32⟩ : BufTy).Contents (Elt F)))

def ixJ_0 : (⟨S64, .i32⟩ : BufTy).Contents (Elt F) :=
  (select : (⟨S64, .i1⟩ : BufTy).Contents (Elt F) → (⟨S64, .i32⟩ : BufTy).Contents (Elt F) → (⟨S64, .i32⟩ : BufTy).Contents (Elt F) → (⟨S64, .i32⟩ : BufTy).Contents (Elt F)) ((constantI S64 1 0#1 : (⟨S64, .i1⟩ : BufTy).Contents (Elt F))) ((addi : (⟨S64, .i32⟩ : BufTy).Contents (Elt F) → (⟨S64, .i32⟩ : BufTy).Contents (Elt F) → (⟨S64, .i32⟩ : BufTy).Contents (Elt F)) ((fun i => lit1 (S64.rowMajor i) : (⟨S64, .i32⟩ : BufTy).Contents (Elt F))) ((broadcastInDim S64 ![] bcast_S_S64 : (⟨S_, .i32⟩ : BufTy).Contents (Elt F) → (⟨S64, .i32⟩ : BufTy).Contents (Elt F)) ((constantI S_ 32 64#32 : (⟨S_, .i32⟩ : BufTy).Contents (Elt F))))) ((fun i => lit1 (S64.rowMajor i) : (⟨S64, .i32⟩ : BufTy).Contents (Elt F)))

def idx_0 : (⟨S64x2, .i32⟩ : BufTy).Contents (Elt F) :=
  concatenate S64x2 1 [⟨S64x1, (broadcastInDim S64x1 ![0] bcast_S64_S64x1_0 : (⟨S64, .i32⟩ : BufTy).Contents (Elt F) → (⟨S64x1, .i32⟩ : BufTy).Contents (Elt F)) ((ixI_0 (F := F)))⟩, ⟨S64x1, (broadcastInDim S64x1 ![0] bcast_S64_S64x1_0 : (⟨S64, .i32⟩ : BufTy).Contents (Elt F) → (⟨S64x1, .i32⟩ : BufTy).Contents (Elt F)) ((ixJ_0 (F := F)))⟩] concatenates_S64x1_S64x1_S64x2_d1

def acc_0 (x : (⟨S32x512x64, .f32⟩ : BufTy).Contents (Elt F)) : (⟨S32x512x64x64, .f32⟩ : BufTy).Contents (Elt F) :=
  Host.scatter scatter_S32x512x64x64_S64x2_S32x512x64_01_23_23_1 (fun _ b => b) ((broadcastInDim S32x512x64x64 ![] bcast_S_S32x512x64x64 : (⟨S_, .f32⟩ : BufTy).Contents (Elt F) → (⟨S32x512x64x64, .f32⟩ : BufTy).Contents (Elt F)) ((constant S_ .f32 0x00000000#32 : (⟨S_, .f32⟩ : BufTy).Contents (Elt F)))) ((idx_0 (F := F))) (pool_0 x)

def pool_1 (x : (⟨S32x512x64, .f32⟩ : BufTy).Contents (Elt F)) : (⟨S32x512x63, .f32⟩ : BufTy).Contents (Elt F) :=
  Host.reduceWindow FloatOps.maximumf ![1, 1, 2] ![1, 1, 1] ![0, 0, 0] ![0, 0, 0] (pool_0 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x64_S32x512x63_w1s1p0_0_w1s1p0_0_w2s1p0_0 h_S_

def ixI_1 : (⟨S63, .i32⟩ : BufTy).Contents (Elt F) :=
  (select : (⟨S63, .i1⟩ : BufTy).Contents (Elt F) → (⟨S63, .i32⟩ : BufTy).Contents (Elt F) → (⟨S63, .i32⟩ : BufTy).Contents (Elt F) → (⟨S63, .i32⟩ : BufTy).Contents (Elt F)) ((constantI S63 1 0#1 : (⟨S63, .i1⟩ : BufTy).Contents (Elt F))) ((addi : (⟨S63, .i32⟩ : BufTy).Contents (Elt F) → (⟨S63, .i32⟩ : BufTy).Contents (Elt F) → (⟨S63, .i32⟩ : BufTy).Contents (Elt F)) ((fun i => lit2 (S63.rowMajor i) : (⟨S63, .i32⟩ : BufTy).Contents (Elt F))) ((broadcastInDim S63 ![] bcast_S_S63 : (⟨S_, .i32⟩ : BufTy).Contents (Elt F) → (⟨S63, .i32⟩ : BufTy).Contents (Elt F)) ((constantI S_ 32 64#32 : (⟨S_, .i32⟩ : BufTy).Contents (Elt F))))) ((fun i => lit2 (S63.rowMajor i) : (⟨S63, .i32⟩ : BufTy).Contents (Elt F)))

def ixJ_1 : (⟨S63, .i32⟩ : BufTy).Contents (Elt F) :=
  (select : (⟨S63, .i1⟩ : BufTy).Contents (Elt F) → (⟨S63, .i32⟩ : BufTy).Contents (Elt F) → (⟨S63, .i32⟩ : BufTy).Contents (Elt F) → (⟨S63, .i32⟩ : BufTy).Contents (Elt F)) ((constantI S63 1 0#1 : (⟨S63, .i1⟩ : BufTy).Contents (Elt F))) ((addi : (⟨S63, .i32⟩ : BufTy).Contents (Elt F) → (⟨S63, .i32⟩ : BufTy).Contents (Elt F) → (⟨S63, .i32⟩ : BufTy).Contents (Elt F)) ((fun i => lit3 (S63.rowMajor i) : (⟨S63, .i32⟩ : BufTy).Contents (Elt F))) ((broadcastInDim S63 ![] bcast_S_S63 : (⟨S_, .i32⟩ : BufTy).Contents (Elt F) → (⟨S63, .i32⟩ : BufTy).Contents (Elt F)) ((constantI S_ 32 64#32 : (⟨S_, .i32⟩ : BufTy).Contents (Elt F))))) ((fun i => lit3 (S63.rowMajor i) : (⟨S63, .i32⟩ : BufTy).Contents (Elt F)))

def idx_1 : (⟨S63x2, .i32⟩ : BufTy).Contents (Elt F) :=
  concatenate S63x2 1 [⟨S63x1, (broadcastInDim S63x1 ![0] bcast_S63_S63x1_0 : (⟨S63, .i32⟩ : BufTy).Contents (Elt F) → (⟨S63x1, .i32⟩ : BufTy).Contents (Elt F)) ((ixI_1 (F := F)))⟩, ⟨S63x1, (broadcastInDim S63x1 ![0] bcast_S63_S63x1_0 : (⟨S63, .i32⟩ : BufTy).Contents (Elt F) → (⟨S63x1, .i32⟩ : BufTy).Contents (Elt F)) ((ixJ_1 (F := F)))⟩] concatenates_S63x1_S63x1_S63x2_d1

def acc_1 (x : (⟨S32x512x64, .f32⟩ : BufTy).Contents (Elt F)) : (⟨S32x512x64x64, .f32⟩ : BufTy).Contents (Elt F) :=
  Host.scatter scatter_S32x512x64x64_S63x2_S32x512x63_01_23_23_1 (fun _ b => b) (acc_0 x) ((idx_1 (F := F))) (pool_1 x)

def pool_2 (x : (⟨S32x512x64, .f32⟩ : BufTy).Contents (Elt F)) : (⟨S32x512x62, .f32⟩ : BufTy).Contents (Elt F) :=
  Host.reduceWindow FloatOps.maximumf ![1, 1, 2] ![1, 1, 1] ![0, 0, 0] ![0, 0, 0] (pool_1 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x63_S32x512x62_w1s1p0_0_w1s1p0_0_w2s1p0_0 h_S_

def ixI_2 : (⟨S62, .i32⟩ : BufTy).Contents (Elt F) :=
  (select : (⟨S62, .i1⟩ : BufTy).Contents (Elt F) → (⟨S62, .i32⟩ : BufTy).Contents (Elt F) → (⟨S62, .i32⟩ : BufTy).Contents (Elt F) → (⟨S62, .i32⟩ : BufTy).Contents (Elt F)) ((constantI S62 1 0#1 : (⟨S62, .i1⟩ : BufTy).Contents (Elt F))) ((addi : (⟨S62, .i32⟩ : BufTy).Contents (Elt F) → (⟨S62, .i32⟩ : BufTy).Contents (Elt F) → (⟨S62, .i32⟩ : BufTy).Contents (Elt F)) ((fun i => lit4 (S62.rowMajor i) : (⟨S62, .i32⟩ : BufTy).Contents (Elt F))) ((broadcastInDim S62 ![] bcast_S_S62 : (⟨S_, .i32⟩ : BufTy).Contents (Elt F) → (⟨S62, .i32⟩ : BufTy).Contents (Elt F)) ((constantI S_ 32 64#32 : (⟨S_, .i32⟩ : BufTy).Contents (Elt F))))) ((fun i => lit4 (S62.rowMajor i) : (⟨S62, .i32⟩ : BufTy).Contents (Elt F)))

def ixJ_2 : (⟨S62, .i32⟩ : BufTy).Contents (Elt F) :=
  (select : (⟨S62, .i1⟩ : BufTy).Contents (Elt F) → (⟨S62, .i32⟩ : BufTy).Contents (Elt F) → (⟨S62, .i32⟩ : BufTy).Contents (Elt F) → (⟨S62, .i32⟩ : BufTy).Contents (Elt F)) ((constantI S62 1 0#1 : (⟨S62, .i1⟩ : BufTy).Contents (Elt F))) ((addi : (⟨S62, .i32⟩ : BufTy).Contents (Elt F) → (⟨S62, .i32⟩ : BufTy).Contents (Elt F) → (⟨S62, .i32⟩ : BufTy).Contents (Elt F)) ((fun i => lit5 (S62.rowMajor i) : (⟨S62, .i32⟩ : BufTy).Contents (Elt F))) ((broadcastInDim S62 ![] bcast_S_S62 : (⟨S_, .i32⟩ : BufTy).Contents (Elt F) → (⟨S62, .i32⟩ : BufTy).Contents (Elt F)) ((constantI S_ 32 64#32 : (⟨S_, .i32⟩ : BufTy).Contents (Elt F))))) ((fun i => lit5 (S62.rowMajor i) : (⟨S62, .i32⟩ : BufTy).Contents (Elt F)))

def idx_2 : (⟨S62x2, .i32⟩ : BufTy).Contents (Elt F) :=
  concatenate S62x2 1 [⟨S62x1, (broadcastInDim S62x1 ![0] bcast_S62_S62x1_0 : (⟨S62, .i32⟩ : BufTy).Contents (Elt F) → (⟨S62x1, .i32⟩ : BufTy).Contents (Elt F)) ((ixI_2 (F := F)))⟩, ⟨S62x1, (broadcastInDim S62x1 ![0] bcast_S62_S62x1_0 : (⟨S62, .i32⟩ : BufTy).Contents (Elt F) → (⟨S62x1, .i32⟩ : BufTy).Contents (Elt F)) ((ixJ_2 (F := F)))⟩] concatenates_S62x1_S62x1_S62x2_d1

def acc_2 (x : (⟨S32x512x64, .f32⟩ : BufTy).Contents (Elt F)) : (⟨S32x512x64x64, .f32⟩ : BufTy).Contents (Elt F) :=
  Host.scatter scatter_S32x512x64x64_S62x2_S32x512x62_01_23_23_1 (fun _ b => b) (acc_1 x) ((idx_2 (F := F))) (pool_2 x)

def pool_3 (x : (⟨S32x512x64, .f32⟩ : BufTy).Contents (Elt F)) : (⟨S32x512x61, .f32⟩ : BufTy).Contents (Elt F) :=
  Host.reduceWindow FloatOps.maximumf ![1, 1, 2] ![1, 1, 1] ![0, 0, 0] ![0, 0, 0] (pool_2 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x62_S32x512x61_w1s1p0_0_w1s1p0_0_w2s1p0_0 h_S_

def ixI_3 : (⟨S61, .i32⟩ : BufTy).Contents (Elt F) :=
  (select : (⟨S61, .i1⟩ : BufTy).Contents (Elt F) → (⟨S61, .i32⟩ : BufTy).Contents (Elt F) → (⟨S61, .i32⟩ : BufTy).Contents (Elt F) → (⟨S61, .i32⟩ : BufTy).Contents (Elt F)) ((constantI S61 1 0#1 : (⟨S61, .i1⟩ : BufTy).Contents (Elt F))) ((addi : (⟨S61, .i32⟩ : BufTy).Contents (Elt F) → (⟨S61, .i32⟩ : BufTy).Contents (Elt F) → (⟨S61, .i32⟩ : BufTy).Contents (Elt F)) ((fun i => lit6 (S61.rowMajor i) : (⟨S61, .i32⟩ : BufTy).Contents (Elt F))) ((broadcastInDim S61 ![] bcast_S_S61 : (⟨S_, .i32⟩ : BufTy).Contents (Elt F) → (⟨S61, .i32⟩ : BufTy).Contents (Elt F)) ((constantI S_ 32 64#32 : (⟨S_, .i32⟩ : BufTy).Contents (Elt F))))) ((fun i => lit6 (S61.rowMajor i) : (⟨S61, .i32⟩ : BufTy).Contents (Elt F)))

def ixJ_3 : (⟨S61, .i32⟩ : BufTy).Contents (Elt F) :=
  (select : (⟨S61, .i1⟩ : BufTy).Contents (Elt F) → (⟨S61, .i32⟩ : BufTy).Contents (Elt F) → (⟨S61, .i32⟩ : BufTy).Contents (Elt F) → (⟨S61, .i32⟩ : BufTy).Contents (Elt F)) ((constantI S61 1 0#1 : (⟨S61, .i1⟩ : BufTy).Contents (Elt F))) ((addi : (⟨S61, .i32⟩ : BufTy).Contents (Elt F) → (⟨S61, .i32⟩ : BufTy).Contents (Elt F) → (⟨S61, .i32⟩ : BufTy).Contents (Elt F)) ((fun i => lit7 (S61.rowMajor i) : (⟨S61, .i32⟩ : BufTy).Contents (Elt F))) ((broadcastInDim S61 ![] bcast_S_S61 : (⟨S_, .i32⟩ : BufTy).Contents (Elt F) → (⟨S61, .i32⟩ : BufTy).Contents (Elt F)) ((constantI S_ 32 64#32 : (⟨S_, .i32⟩ : BufTy).Contents (Elt F))))) ((fun i => lit7 (S61.rowMajor i) : (⟨S61, .i32⟩ : BufTy).Contents (Elt F)))

def idx_3 : (⟨S61x2, .i32⟩ : BufTy).Contents (Elt F) :=
  concatenate S61x2 1 [⟨S61x1, (broadcastInDim S61x1 ![0] bcast_S61_S61x1_0 : (⟨S61, .i32⟩ : BufTy).Contents (Elt F) → (⟨S61x1, .i32⟩ : BufTy).Contents (Elt F)) ((ixI_3 (F := F)))⟩, ⟨S61x1, (broadcastInDim S61x1 ![0] bcast_S61_S61x1_0 : (⟨S61, .i32⟩ : BufTy).Contents (Elt F) → (⟨S61x1, .i32⟩ : BufTy).Contents (Elt F)) ((ixJ_3 (F := F)))⟩] concatenates_S61x1_S61x1_S61x2_d1

def acc_3 (x : (⟨S32x512x64, .f32⟩ : BufTy).Contents (Elt F)) : (⟨S32x512x64x64, .f32⟩ : BufTy).Contents (Elt F) :=
  Host.scatter scatter_S32x512x64x64_S61x2_S32x512x61_01_23_23_1 (fun _ b => b) (acc_2 x) ((idx_3 (F := F))) (pool_3 x)

def pool_4 (x : (⟨S32x512x64, .f32⟩ : BufTy).Contents (Elt F)) : (⟨S32x512x60, .f32⟩ : BufTy).Contents (Elt F) :=
  Host.reduceWindow FloatOps.maximumf ![1, 1, 2] ![1, 1, 1] ![0, 0, 0] ![0, 0, 0] (pool_3 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x61_S32x512x60_w1s1p0_0_w1s1p0_0_w2s1p0_0 h_S_

def ixI_4 : (⟨S60, .i32⟩ : BufTy).Contents (Elt F) :=
  (select : (⟨S60, .i1⟩ : BufTy).Contents (Elt F) → (⟨S60, .i32⟩ : BufTy).Contents (Elt F) → (⟨S60, .i32⟩ : BufTy).Contents (Elt F) → (⟨S60, .i32⟩ : BufTy).Contents (Elt F)) ((constantI S60 1 0#1 : (⟨S60, .i1⟩ : BufTy).Contents (Elt F))) ((addi : (⟨S60, .i32⟩ : BufTy).Contents (Elt F) → (⟨S60, .i32⟩ : BufTy).Contents (Elt F) → (⟨S60, .i32⟩ : BufTy).Contents (Elt F)) ((fun i => lit8 (S60.rowMajor i) : (⟨S60, .i32⟩ : BufTy).Contents (Elt F))) ((broadcastInDim S60 ![] bcast_S_S60 : (⟨S_, .i32⟩ : BufTy).Contents (Elt F) → (⟨S60, .i32⟩ : BufTy).Contents (Elt F)) ((constantI S_ 32 64#32 : (⟨S_, .i32⟩ : BufTy).Contents (Elt F))))) ((fun i => lit8 (S60.rowMajor i) : (⟨S60, .i32⟩ : BufTy).Contents (Elt F)))

def ixJ_4 : (⟨S60, .i32⟩ : BufTy).Contents (Elt F) :=
  (select : (⟨S60, .i1⟩ : BufTy).Contents (Elt F) → (⟨S60, .i32⟩ : BufTy).Contents (Elt F) → (⟨S60, .i32⟩ : BufTy).Contents (Elt F) → (⟨S60, .i32⟩ : BufTy).Contents (Elt F)) ((constantI S60 1 0#1 : (⟨S60, .i1⟩ : BufTy).Contents (Elt F))) ((addi : (⟨S60, .i32⟩ : BufTy).Contents (Elt F) → (⟨S60, .i32⟩ : BufTy).Contents (Elt F) → (⟨S60, .i32⟩ : BufTy).Contents (Elt F)) ((fun i => lit9 (S60.rowMajor i) : (⟨S60, .i32⟩ : BufTy).Contents (Elt F))) ((broadcastInDim S60 ![] bcast_S_S60 : (⟨S_, .i32⟩ : BufTy).Contents (Elt F) → (⟨S60, .i32⟩ : BufTy).Contents (Elt F)) ((constantI S_ 32 64#32 : (⟨S_, .i32⟩ : BufTy).Contents (Elt F))))) ((fun i => lit9 (S60.rowMajor i) : (⟨S60, .i32⟩ : BufTy).Contents (Elt F)))

def idx_4 : (⟨S60x2, .i32⟩ : BufTy).Contents (Elt F) :=
  concatenate S60x2 1 [⟨S60x1, (broadcastInDim S60x1 ![0] bcast_S60_S60x1_0 : (⟨S60, .i32⟩ : BufTy).Contents (Elt F) → (⟨S60x1, .i32⟩ : BufTy).Contents (Elt F)) ((ixI_4 (F := F)))⟩, ⟨S60x1, (broadcastInDim S60x1 ![0] bcast_S60_S60x1_0 : (⟨S60, .i32⟩ : BufTy).Contents (Elt F) → (⟨S60x1, .i32⟩ : BufTy).Contents (Elt F)) ((ixJ_4 (F := F)))⟩] concatenates_S60x1_S60x1_S60x2_d1

def acc_4 (x : (⟨S32x512x64, .f32⟩ : BufTy).Contents (Elt F)) : (⟨S32x512x64x64, .f32⟩ : BufTy).Contents (Elt F) :=
  Host.scatter scatter_S32x512x64x64_S60x2_S32x512x60_01_23_23_1 (fun _ b => b) (acc_3 x) ((idx_4 (F := F))) (pool_4 x)

def pool_5 (x : (⟨S32x512x64, .f32⟩ : BufTy).Contents (Elt F)) : (⟨S32x512x59, .f32⟩ : BufTy).Contents (Elt F) :=
  Host.reduceWindow FloatOps.maximumf ![1, 1, 2] ![1, 1, 1] ![0, 0, 0] ![0, 0, 0] (pool_4 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x60_S32x512x59_w1s1p0_0_w1s1p0_0_w2s1p0_0 h_S_

def ixI_5 : (⟨S59, .i32⟩ : BufTy).Contents (Elt F) :=
  (select : (⟨S59, .i1⟩ : BufTy).Contents (Elt F) → (⟨S59, .i32⟩ : BufTy).Contents (Elt F) → (⟨S59, .i32⟩ : BufTy).Contents (Elt F) → (⟨S59, .i32⟩ : BufTy).Contents (Elt F)) ((constantI S59 1 0#1 : (⟨S59, .i1⟩ : BufTy).Contents (Elt F))) ((addi : (⟨S59, .i32⟩ : BufTy).Contents (Elt F) → (⟨S59, .i32⟩ : BufTy).Contents (Elt F) → (⟨S59, .i32⟩ : BufTy).Contents (Elt F)) ((fun i => lit10 (S59.rowMajor i) : (⟨S59, .i32⟩ : BufTy).Contents (Elt F))) ((broadcastInDim S59 ![] bcast_S_S59 : (⟨S_, .i32⟩ : BufTy).Contents (Elt F) → (⟨S59, .i32⟩ : BufTy).Contents (Elt F)) ((constantI S_ 32 64#32 : (⟨S_, .i32⟩ : BufTy).Contents (Elt F))))) ((fun i => lit10 (S59.rowMajor i) : (⟨S59, .i32⟩ : BufTy).Contents (Elt F)))

def ixJ_5 : (⟨S59, .i32⟩ : BufTy).Contents (Elt F) :=
  (select : (⟨S59, .i1⟩ : BufTy).Contents (Elt F) → (⟨S59, .i32⟩ : BufTy).Contents (Elt F) → (⟨S59, .i32⟩ : BufTy).Contents (Elt F) → (⟨S59, .i32⟩ : BufTy).Contents (Elt F)) ((constantI S59 1 0#1 : (⟨S59, .i1⟩ : BufTy).Contents (Elt F))) ((addi : (⟨S59, .i32⟩ : BufTy).Contents (Elt F) → (⟨S59, .i32⟩ : BufTy).Contents (Elt F) → (⟨S59, .i32⟩ : BufTy).Contents (Elt F)) ((fun i => lit11 (S59.rowMajor i) : (⟨S59, .i32⟩ : BufTy).Contents (Elt F))) ((broadcastInDim S59 ![] bcast_S_S59 : (⟨S_, .i32⟩ : BufTy).Contents (Elt F) → (⟨S59, .i32⟩ : BufTy).Contents (Elt F)) ((constantI S_ 32 64#32 : (⟨S_, .i32⟩ : BufTy).Contents (Elt F))))) ((fun i => lit11 (S59.rowMajor i) : (⟨S59, .i32⟩ : BufTy).Contents (Elt F)))

def idx_5 : (⟨S59x2, .i32⟩ : BufTy).Contents (Elt F) :=
  concatenate S59x2 1 [⟨S59x1, (broadcastInDim S59x1 ![0] bcast_S59_S59x1_0 : (⟨S59, .i32⟩ : BufTy).Contents (Elt F) → (⟨S59x1, .i32⟩ : BufTy).Contents (Elt F)) ((ixI_5 (F := F)))⟩, ⟨S59x1, (broadcastInDim S59x1 ![0] bcast_S59_S59x1_0 : (⟨S59, .i32⟩ : BufTy).Contents (Elt F) → (⟨S59x1, .i32⟩ : BufTy).Contents (Elt F)) ((ixJ_5 (F := F)))⟩] concatenates_S59x1_S59x1_S59x2_d1

def acc_5 (x : (⟨S32x512x64, .f32⟩ : BufTy).Contents (Elt F)) : (⟨S32x512x64x64, .f32⟩ : BufTy).Contents (Elt F) :=
  Host.scatter scatter_S32x512x64x64_S59x2_S32x512x59_01_23_23_1 (fun _ b => b) (acc_4 x) ((idx_5 (F := F))) (pool_5 x)

def pool_6 (x : (⟨S32x512x64, .f32⟩ : BufTy).Contents (Elt F)) : (⟨S32x512x58, .f32⟩ : BufTy).Contents (Elt F) :=
  Host.reduceWindow FloatOps.maximumf ![1, 1, 2] ![1, 1, 1] ![0, 0, 0] ![0, 0, 0] (pool_5 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x59_S32x512x58_w1s1p0_0_w1s1p0_0_w2s1p0_0 h_S_

def ixI_6 : (⟨S58, .i32⟩ : BufTy).Contents (Elt F) :=
  (select : (⟨S58, .i1⟩ : BufTy).Contents (Elt F) → (⟨S58, .i32⟩ : BufTy).Contents (Elt F) → (⟨S58, .i32⟩ : BufTy).Contents (Elt F) → (⟨S58, .i32⟩ : BufTy).Contents (Elt F)) ((constantI S58 1 0#1 : (⟨S58, .i1⟩ : BufTy).Contents (Elt F))) ((addi : (⟨S58, .i32⟩ : BufTy).Contents (Elt F) → (⟨S58, .i32⟩ : BufTy).Contents (Elt F) → (⟨S58, .i32⟩ : BufTy).Contents (Elt F)) ((fun i => lit12 (S58.rowMajor i) : (⟨S58, .i32⟩ : BufTy).Contents (Elt F))) ((broadcastInDim S58 ![] bcast_S_S58 : (⟨S_, .i32⟩ : BufTy).Contents (Elt F) → (⟨S58, .i32⟩ : BufTy).Contents (Elt F)) ((constantI S_ 32 64#32 : (⟨S_, .i32⟩ : BufTy).Contents (Elt F))))) ((fun i => lit12 (S58.rowMajor i) : (⟨S58, .i32⟩ : BufTy).Contents (Elt F)))

def ixJ_6 : (⟨S58, .i32⟩ : BufTy).Contents (Elt F) :=
  (select : (⟨S58, .i1⟩ : BufTy).Contents (Elt F) → (⟨S58, .i32⟩ : BufTy).Contents (Elt F) → (⟨S58, .i32⟩ : BufTy).Contents (Elt F) → (⟨S58, .i32⟩ : BufTy).Contents (Elt F)) ((constantI S58 1 0#1 : (⟨S58, .i1⟩ : BufTy).Contents (Elt F))) ((addi : (⟨S58, .i32⟩ : BufTy).Contents (Elt F) → (⟨S58, .i32⟩ : BufTy).Contents (Elt F) → (⟨S58, .i32⟩ : BufTy).Contents (Elt F)) ((fun i => lit13 (S58.rowMajor i) : (⟨S58, .i32⟩ : BufTy).Contents (Elt F))) ((broadcastInDim S58 ![] bcast_S_S58 : (⟨S_, .i32⟩ : BufTy).Contents (Elt F) → (⟨S58, .i32⟩ : BufTy).Contents (Elt F)) ((constantI S_ 32 64#32 : (⟨S_, .i32⟩ : BufTy).Contents (Elt F))))) ((fun i => lit13 (S58.rowMajor i) : (⟨S58, .i32⟩ : BufTy).Contents (Elt F)))

def idx_6 : (⟨S58x2, .i32⟩ : BufTy).Contents (Elt F) :=
  concatenate S58x2 1 [⟨S58x1, (broadcastInDim S58x1 ![0] bcast_S58_S58x1_0 : (⟨S58, .i32⟩ : BufTy).Contents (Elt F) → (⟨S58x1, .i32⟩ : BufTy).Contents (Elt F)) ((ixI_6 (F := F)))⟩, ⟨S58x1, (broadcastInDim S58x1 ![0] bcast_S58_S58x1_0 : (⟨S58, .i32⟩ : BufTy).Contents (Elt F) → (⟨S58x1, .i32⟩ : BufTy).Contents (Elt F)) ((ixJ_6 (F := F)))⟩] concatenates_S58x1_S58x1_S58x2_d1

def acc_6 (x : (⟨S32x512x64, .f32⟩ : BufTy).Contents (Elt F)) : (⟨S32x512x64x64, .f32⟩ : BufTy).Contents (Elt F) :=
  Host.scatter scatter_S32x512x64x64_S58x2_S32x512x58_01_23_23_1 (fun _ b => b) (acc_5 x) ((idx_6 (F := F))) (pool_6 x)

def pool_7 (x : (⟨S32x512x64, .f32⟩ : BufTy).Contents (Elt F)) : (⟨S32x512x57, .f32⟩ : BufTy).Contents (Elt F) :=
  Host.reduceWindow FloatOps.maximumf ![1, 1, 2] ![1, 1, 1] ![0, 0, 0] ![0, 0, 0] (pool_6 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x58_S32x512x57_w1s1p0_0_w1s1p0_0_w2s1p0_0 h_S_

def ixI_7 : (⟨S57, .i32⟩ : BufTy).Contents (Elt F) :=
  (select : (⟨S57, .i1⟩ : BufTy).Contents (Elt F) → (⟨S57, .i32⟩ : BufTy).Contents (Elt F) → (⟨S57, .i32⟩ : BufTy).Contents (Elt F) → (⟨S57, .i32⟩ : BufTy).Contents (Elt F)) ((constantI S57 1 0#1 : (⟨S57, .i1⟩ : BufTy).Contents (Elt F))) ((addi : (⟨S57, .i32⟩ : BufTy).Contents (Elt F) → (⟨S57, .i32⟩ : BufTy).Contents (Elt F) → (⟨S57, .i32⟩ : BufTy).Contents (Elt F)) ((fun i => lit14 (S57.rowMajor i) : (⟨S57, .i32⟩ : BufTy).Contents (Elt F))) ((broadcastInDim S57 ![] bcast_S_S57 : (⟨S_, .i32⟩ : BufTy).Contents (Elt F) → (⟨S57, .i32⟩ : BufTy).Contents (Elt F)) ((constantI S_ 32 64#32 : (⟨S_, .i32⟩ : BufTy).Contents (Elt F))))) ((fun i => lit14 (S57.rowMajor i) : (⟨S57, .i32⟩ : BufTy).Contents (Elt F)))

def ixJ_7 : (⟨S57, .i32⟩ : BufTy).Contents (Elt F) :=
  (select : (⟨S57, .i1⟩ : BufTy).Contents (Elt F) → (⟨S57, .i32⟩ : BufTy).Contents (Elt F) → (⟨S57, .i32⟩ : BufTy).Contents (Elt F) → (⟨S57, .i32⟩ : BufTy).Contents (Elt F)) ((constantI S57 1 0#1 : (⟨S57, .i1⟩ : BufTy).Contents (Elt F))) ((addi : (⟨S57, .i32⟩ : BufTy).Contents (Elt F) → (⟨S57, .i32⟩ : BufTy).Contents (Elt F) → (⟨S57, .i32⟩ : BufTy).Contents (Elt F)) ((fun i => lit15 (S57.rowMajor i) : (⟨S57, .i32⟩ : BufTy).Contents (Elt F))) ((broadcastInDim S57 ![] bcast_S_S57 : (⟨S_, .i32⟩ : BufTy).Contents (Elt F) → (⟨S57, .i32⟩ : BufTy).Contents (Elt F)) ((constantI S_ 32 64#32 : (⟨S_, .i32⟩ : BufTy).Contents (Elt F))))) ((fun i => lit15 (S57.rowMajor i) : (⟨S57, .i32⟩ : BufTy).Contents (Elt F)))

def idx_7 : (⟨S57x2, .i32⟩ : BufTy).Contents (Elt F) :=
  concatenate S57x2 1 [⟨S57x1, (broadcastInDim S57x1 ![0] bcast_S57_S57x1_0 : (⟨S57, .i32⟩ : BufTy).Contents (Elt F) → (⟨S57x1, .i32⟩ : BufTy).Contents (Elt F)) ((ixI_7 (F := F)))⟩, ⟨S57x1, (broadcastInDim S57x1 ![0] bcast_S57_S57x1_0 : (⟨S57, .i32⟩ : BufTy).Contents (Elt F) → (⟨S57x1, .i32⟩ : BufTy).Contents (Elt F)) ((ixJ_7 (F := F)))⟩] concatenates_S57x1_S57x1_S57x2_d1

def acc_7 (x : (⟨S32x512x64, .f32⟩ : BufTy).Contents (Elt F)) : (⟨S32x512x64x64, .f32⟩ : BufTy).Contents (Elt F) :=
  Host.scatter scatter_S32x512x64x64_S57x2_S32x512x57_01_23_23_1 (fun _ b => b) (acc_6 x) ((idx_7 (F := F))) (pool_7 x)

def pool_8 (x : (⟨S32x512x64, .f32⟩ : BufTy).Contents (Elt F)) : (⟨S32x512x56, .f32⟩ : BufTy).Contents (Elt F) :=
  Host.reduceWindow FloatOps.maximumf ![1, 1, 2] ![1, 1, 1] ![0, 0, 0] ![0, 0, 0] (pool_7 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x57_S32x512x56_w1s1p0_0_w1s1p0_0_w2s1p0_0 h_S_

def ixI_8 : (⟨S56, .i32⟩ : BufTy).Contents (Elt F) :=
  (select : (⟨S56, .i1⟩ : BufTy).Contents (Elt F) → (⟨S56, .i32⟩ : BufTy).Contents (Elt F) → (⟨S56, .i32⟩ : BufTy).Contents (Elt F) → (⟨S56, .i32⟩ : BufTy).Contents (Elt F)) ((constantI S56 1 0#1 : (⟨S56, .i1⟩ : BufTy).Contents (Elt F))) ((addi : (⟨S56, .i32⟩ : BufTy).Contents (Elt F) → (⟨S56, .i32⟩ : BufTy).Contents (Elt F) → (⟨S56, .i32⟩ : BufTy).Contents (Elt F)) ((fun i => lit16 (S56.rowMajor i) : (⟨S56, .i32⟩ : BufTy).Contents (Elt F))) ((broadcastInDim S56 ![] bcast_S_S56 : (⟨S_, .i32⟩ : BufTy).Contents (Elt F) → (⟨S56, .i32⟩ : BufTy).Contents (Elt F)) ((constantI S_ 32 64#32 : (⟨S_, .i32⟩ : BufTy).Contents (Elt F))))) ((fun i => lit16 (S56.rowMajor i) : (⟨S56, .i32⟩ : BufTy).Contents (Elt F)))

def ixJ_8 : (⟨S56, .i32⟩ : BufTy).Contents (Elt F) :=
  (select : (⟨S56, .i1⟩ : BufTy).Contents (Elt F) → (⟨S56, .i32⟩ : BufTy).Contents (Elt F) → (⟨S56, .i32⟩ : BufTy).Contents (Elt F) → (⟨S56, .i32⟩ : BufTy).Contents (Elt F)) ((constantI S56 1 0#1 : (⟨S56, .i1⟩ : BufTy).Contents (Elt F))) ((addi : (⟨S56, .i32⟩ : BufTy).Contents (Elt F) → (⟨S56, .i32⟩ : BufTy).Contents (Elt F) → (⟨S56, .i32⟩ : BufTy).Contents (Elt F)) ((fun i => lit17 (S56.rowMajor i) : (⟨S56, .i32⟩ : BufTy).Contents (Elt F))) ((broadcastInDim S56 ![] bcast_S_S56 : (⟨S_, .i32⟩ : BufTy).Contents (Elt F) → (⟨S56, .i32⟩ : BufTy).Contents (Elt F)) ((constantI S_ 32 64#32 : (⟨S_, .i32⟩ : BufTy).Contents (Elt F))))) ((fun i => lit17 (S56.rowMajor i) : (⟨S56, .i32⟩ : BufTy).Contents (Elt F)))

def idx_8 : (⟨S56x2, .i32⟩ : BufTy).Contents (Elt F) :=
  concatenate S56x2 1 [⟨S56x1, (broadcastInDim S56x1 ![0] bcast_S56_S56x1_0 : (⟨S56, .i32⟩ : BufTy).Contents (Elt F) → (⟨S56x1, .i32⟩ : BufTy).Contents (Elt F)) ((ixI_8 (F := F)))⟩, ⟨S56x1, (broadcastInDim S56x1 ![0] bcast_S56_S56x1_0 : (⟨S56, .i32⟩ : BufTy).Contents (Elt F) → (⟨S56x1, .i32⟩ : BufTy).Contents (Elt F)) ((ixJ_8 (F := F)))⟩] concatenates_S56x1_S56x1_S56x2_d1

def acc_8 (x : (⟨S32x512x64, .f32⟩ : BufTy).Contents (Elt F)) : (⟨S32x512x64x64, .f32⟩ : BufTy).Contents (Elt F) :=
  Host.scatter scatter_S32x512x64x64_S56x2_S32x512x56_01_23_23_1 (fun _ b => b) (acc_7 x) ((idx_8 (F := F))) (pool_8 x)

def pool_9 (x : (⟨S32x512x64, .f32⟩ : BufTy).Contents (Elt F)) : (⟨S32x512x55, .f32⟩ : BufTy).Contents (Elt F) :=
  Host.reduceWindow FloatOps.maximumf ![1, 1, 2] ![1, 1, 1] ![0, 0, 0] ![0, 0, 0] (pool_8 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x56_S32x512x55_w1s1p0_0_w1s1p0_0_w2s1p0_0 h_S_

def ixI_9 : (⟨S55, .i32⟩ : BufTy).Contents (Elt F) :=
  (select : (⟨S55, .i1⟩ : BufTy).Contents (Elt F) → (⟨S55, .i32⟩ : BufTy).Contents (Elt F) → (⟨S55, .i32⟩ : BufTy).Contents (Elt F) → (⟨S55, .i32⟩ : BufTy).Contents (Elt F)) ((constantI S55 1 0#1 : (⟨S55, .i1⟩ : BufTy).Contents (Elt F))) ((addi : (⟨S55, .i32⟩ : BufTy).Contents (Elt F) → (⟨S55, .i32⟩ : BufTy).Contents (Elt F) → (⟨S55, .i32⟩ : BufTy).Contents (Elt F)) ((fun i => lit18 (S55.rowMajor i) : (⟨S55, .i32⟩ : BufTy).Contents (Elt F))) ((broadcastInDim S55 ![] bcast_S_S55 : (⟨S_, .i32⟩ : BufTy).Contents (Elt F) → (⟨S55, .i32⟩ : BufTy).Contents (Elt F)) ((constantI S_ 32 64#32 : (⟨S_, .i32⟩ : BufTy).Contents (Elt F))))) ((fun i => lit18 (S55.rowMajor i) : (⟨S55, .i32⟩ : BufTy).Contents (Elt F)))

def ixJ_9 : (⟨S55, .i32⟩ : BufTy).Contents (Elt F) :=
  (select : (⟨S55, .i1⟩ : BufTy).Contents (Elt F) → (⟨S55, .i32⟩ : BufTy).Contents (Elt F) → (⟨S55, .i32⟩ : BufTy).Contents (Elt F) → (⟨S55, .i32⟩ : BufTy).Contents (Elt F)) ((constantI S55 1 0#1 : (⟨S55, .i1⟩ : BufTy).Contents (Elt F))) ((addi : (⟨S55, .i32⟩ : BufTy).Contents (Elt F) → (⟨S55, .i32⟩ : BufTy).Contents (Elt F) → (⟨S55, .i32⟩ : BufTy).Contents (Elt F)) ((fun i => lit19 (S55.rowMajor i) : (⟨S55, .i32⟩ : BufTy).Contents (Elt F))) ((broadcastInDim S55 ![] bcast_S_S55 : (⟨S_, .i32⟩ : BufTy).Contents (Elt F) → (⟨S55, .i32⟩ : BufTy).Contents (Elt F)) ((constantI S_ 32 64#32 : (⟨S_, .i32⟩ : BufTy).Contents (Elt F))))) ((fun i => lit19 (S55.rowMajor i) : (⟨S55, .i32⟩ : BufTy).Contents (Elt F)))

def idx_9 : (⟨S55x2, .i32⟩ : BufTy).Contents (Elt F) :=
  concatenate S55x2 1 [⟨S55x1, (broadcastInDim S55x1 ![0] bcast_S55_S55x1_0 : (⟨S55, .i32⟩ : BufTy).Contents (Elt F) → (⟨S55x1, .i32⟩ : BufTy).Contents (Elt F)) ((ixI_9 (F := F)))⟩, ⟨S55x1, (broadcastInDim S55x1 ![0] bcast_S55_S55x1_0 : (⟨S55, .i32⟩ : BufTy).Contents (Elt F) → (⟨S55x1, .i32⟩ : BufTy).Contents (Elt F)) ((ixJ_9 (F := F)))⟩] concatenates_S55x1_S55x1_S55x2_d1

def acc_9 (x : (⟨S32x512x64, .f32⟩ : BufTy).Contents (Elt F)) : (⟨S32x512x64x64, .f32⟩ : BufTy).Contents (Elt F) :=
  Host.scatter scatter_S32x512x64x64_S55x2_S32x512x55_01_23_23_1 (fun _ b => b) (acc_8 x) ((idx_9 (F := F))) (pool_9 x)

def pool_10 (x : (⟨S32x512x64, .f32⟩ : BufTy).Contents (Elt F)) : (⟨S32x512x54, .f32⟩ : BufTy).Contents (Elt F) :=
  Host.reduceWindow FloatOps.maximumf ![1, 1, 2] ![1, 1, 1] ![0, 0, 0] ![0, 0, 0] (pool_9 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x55_S32x512x54_w1s1p0_0_w1s1p0_0_w2s1p0_0 h_S_

def ixI_10 : (⟨S54, .i32⟩ : BufTy).Contents (Elt F) :=
  (select : (⟨S54, .i1⟩ : BufTy).Contents (Elt F) → (⟨S54, .i32⟩ : BufTy).Contents (Elt F) → (⟨S54, .i32⟩ : BufTy).Contents (Elt F) → (⟨S54, .i32⟩ : BufTy).Contents (Elt F)) ((constantI S54 1 0#1 : (⟨S54, .i1⟩ : BufTy).Contents (Elt F))) ((addi : (⟨S54, .i32⟩ : BufTy).Contents (Elt F) → (⟨S54, .i32⟩ : BufTy).Contents (Elt F) → (⟨S54, .i32⟩ : BufTy).Contents (Elt F)) ((fun i => lit20 (S54.rowMajor i) : (⟨S54, .i32⟩ : BufTy).Contents (Elt F))) ((broadcastInDim S54 ![] bcast_S_S54 : (⟨S_, .i32⟩ : BufTy).Contents (Elt F) → (⟨S54, .i32⟩ : BufTy).Contents (Elt F)) ((constantI S_ 32 64#32 : (⟨S_, .i32⟩ : BufTy).Contents (Elt F))))) ((fun i => lit20 (S54.rowMajor i) : (⟨S54, .i32⟩ : BufTy).Contents (Elt F)))

def ixJ_10 : (⟨S54, .i32⟩ : BufTy).Contents (Elt F) :=
  (select : (⟨S54, .i1⟩ : BufTy).Contents (Elt F) → (⟨S54, .i32⟩ : BufTy).Contents (Elt F) → (⟨S54, .i32⟩ : BufTy).Contents (Elt F) → (⟨S54, .i32⟩ : BufTy).Contents (Elt F)) ((constantI S54 1 0#1 : (⟨S54, .i1⟩ : BufTy).Contents (Elt F))) ((addi : (⟨S54, .i32⟩ : BufTy).Contents (Elt F) → (⟨S54, .i32⟩ : BufTy).Contents (Elt F) → (⟨S54, .i32⟩ : BufTy).Contents (Elt F)) ((fun i => lit21 (S54.rowMajor i) : (⟨S54, .i32⟩ : BufTy).Contents (Elt F))) ((broadcastInDim S54 ![] bcast_S_S54 : (⟨S_, .i32⟩ : BufTy).Contents (Elt F) → (⟨S54, .i32⟩ : BufTy).Contents (Elt F)) ((constantI S_ 32 64#32 : (⟨S_, .i32⟩ : BufTy).Contents (Elt F))))) ((fun i => lit21 (S54.rowMajor i) : (⟨S54, .i32⟩ : BufTy).Contents (Elt F)))

def idx_10 : (⟨S54x2, .i32⟩ : BufTy).Contents (Elt F) :=
  concatenate S54x2 1 [⟨S54x1, (broadcastInDim S54x1 ![0] bcast_S54_S54x1_0 : (⟨S54, .i32⟩ : BufTy).Contents (Elt F) → (⟨S54x1, .i32⟩ : BufTy).Contents (Elt F)) ((ixI_10 (F := F)))⟩, ⟨S54x1, (broadcastInDim S54x1 ![0] bcast_S54_S54x1_0 : (⟨S54, .i32⟩ : BufTy).Contents (Elt F) → (⟨S54x1, .i32⟩ : BufTy).Contents (Elt F)) ((ixJ_10 (F := F)))⟩] concatenates_S54x1_S54x1_S54x2_d1

def acc_10 (x : (⟨S32x512x64, .f32⟩ : BufTy).Contents (Elt F)) : (⟨S32x512x64x64, .f32⟩ : BufTy).Contents (Elt F) :=
  Host.scatter scatter_S32x512x64x64_S54x2_S32x512x54_01_23_23_1 (fun _ b => b) (acc_9 x) ((idx_10 (F := F))) (pool_10 x)

def pool_11 (x : (⟨S32x512x64, .f32⟩ : BufTy).Contents (Elt F)) : (⟨S32x512x53, .f32⟩ : BufTy).Contents (Elt F) :=
  Host.reduceWindow FloatOps.maximumf ![1, 1, 2] ![1, 1, 1] ![0, 0, 0] ![0, 0, 0] (pool_10 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x54_S32x512x53_w1s1p0_0_w1s1p0_0_w2s1p0_0 h_S_

def ixI_11 : (⟨S53, .i32⟩ : BufTy).Contents (Elt F) :=
  (select : (⟨S53, .i1⟩ : BufTy).Contents (Elt F) → (⟨S53, .i32⟩ : BufTy).Contents (Elt F) → (⟨S53, .i32⟩ : BufTy).Contents (Elt F) → (⟨S53, .i32⟩ : BufTy).Contents (Elt F)) ((constantI S53 1 0#1 : (⟨S53, .i1⟩ : BufTy).Contents (Elt F))) ((addi : (⟨S53, .i32⟩ : BufTy).Contents (Elt F) → (⟨S53, .i32⟩ : BufTy).Contents (Elt F) → (⟨S53, .i32⟩ : BufTy).Contents (Elt F)) ((fun i => lit22 (S53.rowMajor i) : (⟨S53, .i32⟩ : BufTy).Contents (Elt F))) ((broadcastInDim S53 ![] bcast_S_S53 : (⟨S_, .i32⟩ : BufTy).Contents (Elt F) → (⟨S53, .i32⟩ : BufTy).Contents (Elt F)) ((constantI S_ 32 64#32 : (⟨S_, .i32⟩ : BufTy).Contents (Elt F))))) ((fun i => lit22 (S53.rowMajor i) : (⟨S53, .i32⟩ : BufTy).Contents (Elt F)))

def ixJ_11 : (⟨S53, .i32⟩ : BufTy).Contents (Elt F) :=
  (select : (⟨S53, .i1⟩ : BufTy).Contents (Elt F) → (⟨S53, .i32⟩ : BufTy).Contents (Elt F) → (⟨S53, .i32⟩ : BufTy).Contents (Elt F) → (⟨S53, .i32⟩ : BufTy).Contents (Elt F)) ((constantI S53 1 0#1 : (⟨S53, .i1⟩ : BufTy).Contents (Elt F))) ((addi : (⟨S53, .i32⟩ : BufTy).Contents (Elt F) → (⟨S53, .i32⟩ : BufTy).Contents (Elt F) → (⟨S53, .i32⟩ : BufTy).Contents (Elt F)) ((fun i => lit23 (S53.rowMajor i) : (⟨S53, .i32⟩ : BufTy).Contents (Elt F))) ((broadcastInDim S53 ![] bcast_S_S53 : (⟨S_, .i32⟩ : BufTy).Contents (Elt F) → (⟨S53, .i32⟩ : BufTy).Contents (Elt F)) ((constantI S_ 32 64#32 : (⟨S_, .i32⟩ : BufTy).Contents (Elt F))))) ((fun i => lit23 (S53.rowMajor i) : (⟨S53, .i32⟩ : BufTy).Contents (Elt F)))

def idx_11 : (⟨S53x2, .i32⟩ : BufTy).Contents (Elt F) :=
  concatenate S53x2 1 [⟨S53x1, (broadcastInDim S53x1 ![0] bcast_S53_S53x1_0 : (⟨S53, .i32⟩ : BufTy).Contents (Elt F) → (⟨S53x1, .i32⟩ : BufTy).Contents (Elt F)) ((ixI_11 (F := F)))⟩, ⟨S53x1, (broadcastInDim S53x1 ![0] bcast_S53_S53x1_0 : (⟨S53, .i32⟩ : BufTy).Contents (Elt F) → (⟨S53x1, .i32⟩ : BufTy).Contents (Elt F)) ((ixJ_11 (F := F)))⟩] concatenates_S53x1_S53x1_S53x2_d1

def acc_11 (x : (⟨S32x512x64, .f32⟩ : BufTy).Contents (Elt F)) : (⟨S32x512x64x64, .f32⟩ : BufTy).Contents (Elt F) :=
  Host.scatter scatter_S32x512x64x64_S53x2_S32x512x53_01_23_23_1 (fun _ b => b) (acc_10 x) ((idx_11 (F := F))) (pool_11 x)

def pool_12 (x : (⟨S32x512x64, .f32⟩ : BufTy).Contents (Elt F)) : (⟨S32x512x52, .f32⟩ : BufTy).Contents (Elt F) :=
  Host.reduceWindow FloatOps.maximumf ![1, 1, 2] ![1, 1, 1] ![0, 0, 0] ![0, 0, 0] (pool_11 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x53_S32x512x52_w1s1p0_0_w1s1p0_0_w2s1p0_0 h_S_

def ixI_12 : (⟨S52, .i32⟩ : BufTy).Contents (Elt F) :=
  (select : (⟨S52, .i1⟩ : BufTy).Contents (Elt F) → (⟨S52, .i32⟩ : BufTy).Contents (Elt F) → (⟨S52, .i32⟩ : BufTy).Contents (Elt F) → (⟨S52, .i32⟩ : BufTy).Contents (Elt F)) ((constantI S52 1 0#1 : (⟨S52, .i1⟩ : BufTy).Contents (Elt F))) ((addi : (⟨S52, .i32⟩ : BufTy).Contents (Elt F) → (⟨S52, .i32⟩ : BufTy).Contents (Elt F) → (⟨S52, .i32⟩ : BufTy).Contents (Elt F)) ((fun i => lit24 (S52.rowMajor i) : (⟨S52, .i32⟩ : BufTy).Contents (Elt F))) ((broadcastInDim S52 ![] bcast_S_S52 : (⟨S_, .i32⟩ : BufTy).Contents (Elt F) → (⟨S52, .i32⟩ : BufTy).Contents (Elt F)) ((constantI S_ 32 64#32 : (⟨S_, .i32⟩ : BufTy).Contents (Elt F))))) ((fun i => lit24 (S52.rowMajor i) : (⟨S52, .i32⟩ : BufTy).Contents (Elt F)))

def ixJ_12 : (⟨S52, .i32⟩ : BufTy).Contents (Elt F) :=
  (select : (⟨S52, .i1⟩ : BufTy).Contents (Elt F) → (⟨S52, .i32⟩ : BufTy).Contents (Elt F) → (⟨S52, .i32⟩ : BufTy).Contents (Elt F) → (⟨S52, .i32⟩ : BufTy).Contents (Elt F)) ((constantI S52 1 0#1 : (⟨S52, .i1⟩ : BufTy).Contents (Elt F))) ((addi : (⟨S52, .i32⟩ : BufTy).Contents (Elt F) → (⟨S52, .i32⟩ : BufTy).Contents (Elt F) → (⟨S52, .i32⟩ : BufTy).Contents (Elt F)) ((fun i => lit25 (S52.rowMajor i) : (⟨S52, .i32⟩ : BufTy).Contents (Elt F))) ((broadcastInDim S52 ![] bcast_S_S52 : (⟨S_, .i32⟩ : BufTy).Contents (Elt F) → (⟨S52, .i32⟩ : BufTy).Contents (Elt F)) ((constantI S_ 32 64#32 : (⟨S_, .i32⟩ : BufTy).Contents (Elt F))))) ((fun i => lit25 (S52.rowMajor i) : (⟨S52, .i32⟩ : BufTy).Contents (Elt F)))

def idx_12 : (⟨S52x2, .i32⟩ : BufTy).Contents (Elt F) :=
  concatenate S52x2 1 [⟨S52x1, (broadcastInDim S52x1 ![0] bcast_S52_S52x1_0 : (⟨S52, .i32⟩ : BufTy).Contents (Elt F) → (⟨S52x1, .i32⟩ : BufTy).Contents (Elt F)) ((ixI_12 (F := F)))⟩, ⟨S52x1, (broadcastInDim S52x1 ![0] bcast_S52_S52x1_0 : (⟨S52, .i32⟩ : BufTy).Contents (Elt F) → (⟨S52x1, .i32⟩ : BufTy).Contents (Elt F)) ((ixJ_12 (F := F)))⟩] concatenates_S52x1_S52x1_S52x2_d1

def acc_12 (x : (⟨S32x512x64, .f32⟩ : BufTy).Contents (Elt F)) : (⟨S32x512x64x64, .f32⟩ : BufTy).Contents (Elt F) :=
  Host.scatter scatter_S32x512x64x64_S52x2_S32x512x52_01_23_23_1 (fun _ b => b) (acc_11 x) ((idx_12 (F := F))) (pool_12 x)

def pool_13 (x : (⟨S32x512x64, .f32⟩ : BufTy).Contents (Elt F)) : (⟨S32x512x51, .f32⟩ : BufTy).Contents (Elt F) :=
  Host.reduceWindow FloatOps.maximumf ![1, 1, 2] ![1, 1, 1] ![0, 0, 0] ![0, 0, 0] (pool_12 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x52_S32x512x51_w1s1p0_0_w1s1p0_0_w2s1p0_0 h_S_

def ixI_13 : (⟨S51, .i32⟩ : BufTy).Contents (Elt F) :=
  (select : (⟨S51, .i1⟩ : BufTy).Contents (Elt F) → (⟨S51, .i32⟩ : BufTy).Contents (Elt F) → (⟨S51, .i32⟩ : BufTy).Contents (Elt F) → (⟨S51, .i32⟩ : BufTy).Contents (Elt F)) ((constantI S51 1 0#1 : (⟨S51, .i1⟩ : BufTy).Contents (Elt F))) ((addi : (⟨S51, .i32⟩ : BufTy).Contents (Elt F) → (⟨S51, .i32⟩ : BufTy).Contents (Elt F) → (⟨S51, .i32⟩ : BufTy).Contents (Elt F)) ((fun i => lit26 (S51.rowMajor i) : (⟨S51, .i32⟩ : BufTy).Contents (Elt F))) ((broadcastInDim S51 ![] bcast_S_S51 : (⟨S_, .i32⟩ : BufTy).Contents (Elt F) → (⟨S51, .i32⟩ : BufTy).Contents (Elt F)) ((constantI S_ 32 64#32 : (⟨S_, .i32⟩ : BufTy).Contents (Elt F))))) ((fun i => lit26 (S51.rowMajor i) : (⟨S51, .i32⟩ : BufTy).Contents (Elt F)))

def ixJ_13 : (⟨S51, .i32⟩ : BufTy).Contents (Elt F) :=
  (select : (⟨S51, .i1⟩ : BufTy).Contents (Elt F) → (⟨S51, .i32⟩ : BufTy).Contents (Elt F) → (⟨S51, .i32⟩ : BufTy).Contents (Elt F) → (⟨S51, .i32⟩ : BufTy).Contents (Elt F)) ((constantI S51 1 0#1 : (⟨S51, .i1⟩ : BufTy).Contents (Elt F))) ((addi : (⟨S51, .i32⟩ : BufTy).Contents (Elt F) → (⟨S51, .i32⟩ : BufTy).Contents (Elt F) → (⟨S51, .i32⟩ : BufTy).Contents (Elt F)) ((fun i => lit27 (S51.rowMajor i) : (⟨S51, .i32⟩ : BufTy).Contents (Elt F))) ((broadcastInDim S51 ![] bcast_S_S51 : (⟨S_, .i32⟩ : BufTy).Contents (Elt F) → (⟨S51, .i32⟩ : BufTy).Contents (Elt F)) ((constantI S_ 32 64#32 : (⟨S_, .i32⟩ : BufTy).Contents (Elt F))))) ((fun i => lit27 (S51.rowMajor i) : (⟨S51, .i32⟩ : BufTy).Contents (Elt F)))

def idx_13 : (⟨S51x2, .i32⟩ : BufTy).Contents (Elt F) :=
  concatenate S51x2 1 [⟨S51x1, (broadcastInDim S51x1 ![0] bcast_S51_S51x1_0 : (⟨S51, .i32⟩ : BufTy).Contents (Elt F) → (⟨S51x1, .i32⟩ : BufTy).Contents (Elt F)) ((ixI_13 (F := F)))⟩, ⟨S51x1, (broadcastInDim S51x1 ![0] bcast_S51_S51x1_0 : (⟨S51, .i32⟩ : BufTy).Contents (Elt F) → (⟨S51x1, .i32⟩ : BufTy).Contents (Elt F)) ((ixJ_13 (F := F)))⟩] concatenates_S51x1_S51x1_S51x2_d1

def acc_13 (x : (⟨S32x512x64, .f32⟩ : BufTy).Contents (Elt F)) : (⟨S32x512x64x64, .f32⟩ : BufTy).Contents (Elt F) :=
  Host.scatter scatter_S32x512x64x64_S51x2_S32x512x51_01_23_23_1 (fun _ b => b) (acc_12 x) ((idx_13 (F := F))) (pool_13 x)

def pool_14 (x : (⟨S32x512x64, .f32⟩ : BufTy).Contents (Elt F)) : (⟨S32x512x50, .f32⟩ : BufTy).Contents (Elt F) :=
  Host.reduceWindow FloatOps.maximumf ![1, 1, 2] ![1, 1, 1] ![0, 0, 0] ![0, 0, 0] (pool_13 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x51_S32x512x50_w1s1p0_0_w1s1p0_0_w2s1p0_0 h_S_

def ixI_14 : (⟨S50, .i32⟩ : BufTy).Contents (Elt F) :=
  (select : (⟨S50, .i1⟩ : BufTy).Contents (Elt F) → (⟨S50, .i32⟩ : BufTy).Contents (Elt F) → (⟨S50, .i32⟩ : BufTy).Contents (Elt F) → (⟨S50, .i32⟩ : BufTy).Contents (Elt F)) ((constantI S50 1 0#1 : (⟨S50, .i1⟩ : BufTy).Contents (Elt F))) ((addi : (⟨S50, .i32⟩ : BufTy).Contents (Elt F) → (⟨S50, .i32⟩ : BufTy).Contents (Elt F) → (⟨S50, .i32⟩ : BufTy).Contents (Elt F)) ((fun i => lit28 (S50.rowMajor i) : (⟨S50, .i32⟩ : BufTy).Contents (Elt F))) ((broadcastInDim S50 ![] bcast_S_S50 : (⟨S_, .i32⟩ : BufTy).Contents (Elt F) → (⟨S50, .i32⟩ : BufTy).Contents (Elt F)) ((constantI S_ 32 64#32 : (⟨S_, .i32⟩ : BufTy).Contents (Elt F))))) ((fun i => lit28 (S50.rowMajor i) : (⟨S50, .i32⟩ : BufTy).Contents (Elt F)))

def ixJ_14 : (⟨S50, .i32⟩ : BufTy).Contents (Elt F) :=
  (select : (⟨S50, .i1⟩ : BufTy).Contents (Elt F) → (⟨S50, .i32⟩ : BufTy).Contents (Elt F) → (⟨S50, .i32⟩ : BufTy).Contents (Elt F) → (⟨S50, .i32⟩ : BufTy).Contents (Elt F)) ((constantI S50 1 0#1 : (⟨S50, .i1⟩ : BufTy).Contents (Elt F))) ((addi : (⟨S50, .i32⟩ : BufTy).Contents (Elt F) → (⟨S50, .i32⟩ : BufTy).Contents (Elt F) → (⟨S50, .i32⟩ : BufTy).Contents (Elt F)) ((fun i => lit29 (S50.rowMajor i) : (⟨S50, .i32⟩ : BufTy).Contents (Elt F))) ((broadcastInDim S50 ![] bcast_S_S50 : (⟨S_, .i32⟩ : BufTy).Contents (Elt F) → (⟨S50, .i32⟩ : BufTy).Contents (Elt F)) ((constantI S_ 32 64#32 : (⟨S_, .i32⟩ : BufTy).Contents (Elt F))))) ((fun i => lit29 (S50.rowMajor i) : (⟨S50, .i32⟩ : BufTy).Contents (Elt F)))

def idx_14 : (⟨S50x2, .i32⟩ : BufTy).Contents (Elt F) :=
  concatenate S50x2 1 [⟨S50x1, (broadcastInDim S50x1 ![0] bcast_S50_S50x1_0 : (⟨S50, .i32⟩ : BufTy).Contents (Elt F) → (⟨S50x1, .i32⟩ : BufTy).Contents (Elt F)) ((ixI_14 (F := F)))⟩, ⟨S50x1, (broadcastInDim S50x1 ![0] bcast_S50_S50x1_0 : (⟨S50, .i32⟩ : BufTy).Contents (Elt F) → (⟨S50x1, .i32⟩ : BufTy).Contents (Elt F)) ((ixJ_14 (F := F)))⟩] concatenates_S50x1_S50x1_S50x2_d1

def acc_14 (x : (⟨S32x512x64, .f32⟩ : BufTy).Contents (Elt F)) : (⟨S32x512x64x64, .f32⟩ : BufTy).Contents (Elt F) :=
  Host.scatter scatter_S32x512x64x64_S50x2_S32x512x50_01_23_23_1 (fun _ b => b) (acc_13 x) ((idx_14 (F := F))) (pool_14 x)

def pool_15 (x : (⟨S32x512x64, .f32⟩ : BufTy).Contents (Elt F)) : (⟨S32x512x24, .f32⟩ : BufTy).Contents (Elt F) :=
  Host.reduceWindow FloatOps.maximumf ![1, 1, 3] ![1, 1, 2] ![0, 0, 0] ![0, 0, 0] (pool_14 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x50_S32x512x24_w1s1p0_0_w1s1p0_0_w3s2p0_0 h_S_

def ixI_15 : (⟨S24, .i32⟩ : BufTy).Contents (Elt F) :=
  (select : (⟨S24, .i1⟩ : BufTy).Contents (Elt F) → (⟨S24, .i32⟩ : BufTy).Contents (Elt F) → (⟨S24, .i32⟩ : BufTy).Contents (Elt F) → (⟨S24, .i32⟩ : BufTy).Contents (Elt F)) ((constantI S24 1 0#1 : (⟨S24, .i1⟩ : BufTy).Contents (Elt F))) ((addi : (⟨S24, .i32⟩ : BufTy).Contents (Elt F) → (⟨S24, .i32⟩ : BufTy).Contents (Elt F) → (⟨S24, .i32⟩ : BufTy).Contents (Elt F)) ((fun i => lit30 (S24.rowMajor i) : (⟨S24, .i32⟩ : BufTy).Contents (Elt F))) ((broadcastInDim S24 ![] bcast_S_S24 : (⟨S_, .i32⟩ : BufTy).Contents (Elt F) → (⟨S24, .i32⟩ : BufTy).Contents (Elt F)) ((constantI S_ 32 64#32 : (⟨S_, .i32⟩ : BufTy).Contents (Elt F))))) ((fun i => lit30 (S24.rowMajor i) : (⟨S24, .i32⟩ : BufTy).Contents (Elt F)))

def ixJ_15 : (⟨S24, .i32⟩ : BufTy).Contents (Elt F) :=
  (select : (⟨S24, .i1⟩ : BufTy).Contents (Elt F) → (⟨S24, .i32⟩ : BufTy).Contents (Elt F) → (⟨S24, .i32⟩ : BufTy).Contents (Elt F) → (⟨S24, .i32⟩ : BufTy).Contents (Elt F)) ((constantI S24 1 0#1 : (⟨S24, .i1⟩ : BufTy).Contents (Elt F))) ((addi : (⟨S24, .i32⟩ : BufTy).Contents (Elt F) → (⟨S24, .i32⟩ : BufTy).Contents (Elt F) → (⟨S24, .i32⟩ : BufTy).Contents (Elt F)) ((fun i => lit31 (S24.rowMajor i) : (⟨S24, .i32⟩ : BufTy).Contents (Elt F))) ((broadcastInDim S24 ![] bcast_S_S24 : (⟨S_, .i32⟩ : BufTy).Contents (Elt F) → (⟨S24, .i32⟩ : BufTy).Contents (Elt F)) ((constantI S_ 32 64#32 : (⟨S_, .i32⟩ : BufTy).Contents (Elt F))))) ((fun i => lit31 (S24.rowMajor i) : (⟨S24, .i32⟩ : BufTy).Contents (Elt F)))

def idx_15 : (⟨S24x2, .i32⟩ : BufTy).Contents (Elt F) :=
  concatenate S24x2 1 [⟨S24x1, (broadcastInDim S24x1 ![0] bcast_S24_S24x1_0 : (⟨S24, .i32⟩ : BufTy).Contents (Elt F) → (⟨S24x1, .i32⟩ : BufTy).Contents (Elt F)) ((ixI_15 (F := F)))⟩, ⟨S24x1, (broadcastInDim S24x1 ![0] bcast_S24_S24x1_0 : (⟨S24, .i32⟩ : BufTy).Contents (Elt F) → (⟨S24x1, .i32⟩ : BufTy).Contents (Elt F)) ((ixJ_15 (F := F)))⟩] concatenates_S24x1_S24x1_S24x2_d1

def acc_15 (x : (⟨S32x512x64, .f32⟩ : BufTy).Contents (Elt F)) : (⟨S32x512x64x64, .f32⟩ : BufTy).Contents (Elt F) :=
  Host.scatter scatter_S32x512x64x64_S24x2_S32x512x24_01_23_23_1 (fun _ b => b) (acc_14 x) ((idx_15 (F := F))) (pool_15 x)

def pool_16 (x : (⟨S32x512x64, .f32⟩ : BufTy).Contents (Elt F)) : (⟨S32x512x23, .f32⟩ : BufTy).Contents (Elt F) :=
  Host.reduceWindow FloatOps.maximumf ![1, 1, 2] ![1, 1, 1] ![0, 0, 0] ![0, 0, 0] (pool_15 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x24_S32x512x23_w1s1p0_0_w1s1p0_0_w2s1p0_0 h_S_

def ixI_16 : (⟨S23, .i32⟩ : BufTy).Contents (Elt F) :=
  (select : (⟨S23, .i1⟩ : BufTy).Contents (Elt F) → (⟨S23, .i32⟩ : BufTy).Contents (Elt F) → (⟨S23, .i32⟩ : BufTy).Contents (Elt F) → (⟨S23, .i32⟩ : BufTy).Contents (Elt F)) ((constantI S23 1 0#1 : (⟨S23, .i1⟩ : BufTy).Contents (Elt F))) ((addi : (⟨S23, .i32⟩ : BufTy).Contents (Elt F) → (⟨S23, .i32⟩ : BufTy).Contents (Elt F) → (⟨S23, .i32⟩ : BufTy).Contents (Elt F)) ((fun i => lit32 (S23.rowMajor i) : (⟨S23, .i32⟩ : BufTy).Contents (Elt F))) ((broadcastInDim S23 ![] bcast_S_S23 : (⟨S_, .i32⟩ : BufTy).Contents (Elt F) → (⟨S23, .i32⟩ : BufTy).Contents (Elt F)) ((constantI S_ 32 64#32 : (⟨S_, .i32⟩ : BufTy).Contents (Elt F))))) ((fun i => lit32 (S23.rowMajor i) : (⟨S23, .i32⟩ : BufTy).Contents (Elt F)))

def ixJ_16 : (⟨S23, .i32⟩ : BufTy).Contents (Elt F) :=
  (select : (⟨S23, .i1⟩ : BufTy).Contents (Elt F) → (⟨S23, .i32⟩ : BufTy).Contents (Elt F) → (⟨S23, .i32⟩ : BufTy).Contents (Elt F) → (⟨S23, .i32⟩ : BufTy).Contents (Elt F)) ((constantI S23 1 0#1 : (⟨S23, .i1⟩ : BufTy).Contents (Elt F))) ((addi : (⟨S23, .i32⟩ : BufTy).Contents (Elt F) → (⟨S23, .i32⟩ : BufTy).Contents (Elt F) → (⟨S23, .i32⟩ : BufTy).Contents (Elt F)) ((fun i => lit33 (S23.rowMajor i) : (⟨S23, .i32⟩ : BufTy).Contents (Elt F))) ((broadcastInDim S23 ![] bcast_S_S23 : (⟨S_, .i32⟩ : BufTy).Contents (Elt F) → (⟨S23, .i32⟩ : BufTy).Contents (Elt F)) ((constantI S_ 32 64#32 : (⟨S_, .i32⟩ : BufTy).Contents (Elt F))))) ((fun i => lit33 (S23.rowMajor i) : (⟨S23, .i32⟩ : BufTy).Contents (Elt F)))

def idx_16 : (⟨S23x2, .i32⟩ : BufTy).Contents (Elt F) :=
  concatenate S23x2 1 [⟨S23x1, (broadcastInDim S23x1 ![0] bcast_S23_S23x1_0 : (⟨S23, .i32⟩ : BufTy).Contents (Elt F) → (⟨S23x1, .i32⟩ : BufTy).Contents (Elt F)) ((ixI_16 (F := F)))⟩, ⟨S23x1, (broadcastInDim S23x1 ![0] bcast_S23_S23x1_0 : (⟨S23, .i32⟩ : BufTy).Contents (Elt F) → (⟨S23x1, .i32⟩ : BufTy).Contents (Elt F)) ((ixJ_16 (F := F)))⟩] concatenates_S23x1_S23x1_S23x2_d1

def acc_16 (x : (⟨S32x512x64, .f32⟩ : BufTy).Contents (Elt F)) : (⟨S32x512x64x64, .f32⟩ : BufTy).Contents (Elt F) :=
  Host.scatter scatter_S32x512x64x64_S23x2_S32x512x23_01_23_23_1 (fun _ b => b) (acc_15 x) ((idx_16 (F := F))) (pool_16 x)

def pool_17 (x : (⟨S32x512x64, .f32⟩ : BufTy).Contents (Elt F)) : (⟨S32x512x22, .f32⟩ : BufTy).Contents (Elt F) :=
  Host.reduceWindow FloatOps.maximumf ![1, 1, 2] ![1, 1, 1] ![0, 0, 0] ![0, 0, 0] (pool_16 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x23_S32x512x22_w1s1p0_0_w1s1p0_0_w2s1p0_0 h_S_

def ixI_17 : (⟨S22, .i32⟩ : BufTy).Contents (Elt F) :=
  (select : (⟨S22, .i1⟩ : BufTy).Contents (Elt F) → (⟨S22, .i32⟩ : BufTy).Contents (Elt F) → (⟨S22, .i32⟩ : BufTy).Contents (Elt F) → (⟨S22, .i32⟩ : BufTy).Contents (Elt F)) ((constantI S22 1 0#1 : (⟨S22, .i1⟩ : BufTy).Contents (Elt F))) ((addi : (⟨S22, .i32⟩ : BufTy).Contents (Elt F) → (⟨S22, .i32⟩ : BufTy).Contents (Elt F) → (⟨S22, .i32⟩ : BufTy).Contents (Elt F)) ((fun i => lit34 (S22.rowMajor i) : (⟨S22, .i32⟩ : BufTy).Contents (Elt F))) ((broadcastInDim S22 ![] bcast_S_S22 : (⟨S_, .i32⟩ : BufTy).Contents (Elt F) → (⟨S22, .i32⟩ : BufTy).Contents (Elt F)) ((constantI S_ 32 64#32 : (⟨S_, .i32⟩ : BufTy).Contents (Elt F))))) ((fun i => lit34 (S22.rowMajor i) : (⟨S22, .i32⟩ : BufTy).Contents (Elt F)))

def ixJ_17 : (⟨S22, .i32⟩ : BufTy).Contents (Elt F) :=
  (select : (⟨S22, .i1⟩ : BufTy).Contents (Elt F) → (⟨S22, .i32⟩ : BufTy).Contents (Elt F) → (⟨S22, .i32⟩ : BufTy).Contents (Elt F) → (⟨S22, .i32⟩ : BufTy).Contents (Elt F)) ((constantI S22 1 0#1 : (⟨S22, .i1⟩ : BufTy).Contents (Elt F))) ((addi : (⟨S22, .i32⟩ : BufTy).Contents (Elt F) → (⟨S22, .i32⟩ : BufTy).Contents (Elt F) → (⟨S22, .i32⟩ : BufTy).Contents (Elt F)) ((fun i => lit35 (S22.rowMajor i) : (⟨S22, .i32⟩ : BufTy).Contents (Elt F))) ((broadcastInDim S22 ![] bcast_S_S22 : (⟨S_, .i32⟩ : BufTy).Contents (Elt F) → (⟨S22, .i32⟩ : BufTy).Contents (Elt F)) ((constantI S_ 32 64#32 : (⟨S_, .i32⟩ : BufTy).Contents (Elt F))))) ((fun i => lit35 (S22.rowMajor i) : (⟨S22, .i32⟩ : BufTy).Contents (Elt F)))

def idx_17 : (⟨S22x2, .i32⟩ : BufTy).Contents (Elt F) :=
  concatenate S22x2 1 [⟨S22x1, (broadcastInDim S22x1 ![0] bcast_S22_S22x1_0 : (⟨S22, .i32⟩ : BufTy).Contents (Elt F) → (⟨S22x1, .i32⟩ : BufTy).Contents (Elt F)) ((ixI_17 (F := F)))⟩, ⟨S22x1, (broadcastInDim S22x1 ![0] bcast_S22_S22x1_0 : (⟨S22, .i32⟩ : BufTy).Contents (Elt F) → (⟨S22x1, .i32⟩ : BufTy).Contents (Elt F)) ((ixJ_17 (F := F)))⟩] concatenates_S22x1_S22x1_S22x2_d1

def acc_17 (x : (⟨S32x512x64, .f32⟩ : BufTy).Contents (Elt F)) : (⟨S32x512x64x64, .f32⟩ : BufTy).Contents (Elt F) :=
  Host.scatter scatter_S32x512x64x64_S22x2_S32x512x22_01_23_23_1 (fun _ b => b) (acc_16 x) ((idx_17 (F := F))) (pool_17 x)

def pool_18 (x : (⟨S32x512x64, .f32⟩ : BufTy).Contents (Elt F)) : (⟨S32x512x21, .f32⟩ : BufTy).Contents (Elt F) :=
  Host.reduceWindow FloatOps.maximumf ![1, 1, 2] ![1, 1, 1] ![0, 0, 0] ![0, 0, 0] (pool_17 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x22_S32x512x21_w1s1p0_0_w1s1p0_0_w2s1p0_0 h_S_

def ixI_18 : (⟨S21, .i32⟩ : BufTy).Contents (Elt F) :=
  (select : (⟨S21, .i1⟩ : BufTy).Contents (Elt F) → (⟨S21, .i32⟩ : BufTy).Contents (Elt F) → (⟨S21, .i32⟩ : BufTy).Contents (Elt F) → (⟨S21, .i32⟩ : BufTy).Contents (Elt F)) ((constantI S21 1 0#1 : (⟨S21, .i1⟩ : BufTy).Contents (Elt F))) ((addi : (⟨S21, .i32⟩ : BufTy).Contents (Elt F) → (⟨S21, .i32⟩ : BufTy).Contents (Elt F) → (⟨S21, .i32⟩ : BufTy).Contents (Elt F)) ((fun i => lit36 (S21.rowMajor i) : (⟨S21, .i32⟩ : BufTy).Contents (Elt F))) ((broadcastInDim S21 ![] bcast_S_S21 : (⟨S_, .i32⟩ : BufTy).Contents (Elt F) → (⟨S21, .i32⟩ : BufTy).Contents (Elt F)) ((constantI S_ 32 64#32 : (⟨S_, .i32⟩ : BufTy).Contents (Elt F))))) ((fun i => lit36 (S21.rowMajor i) : (⟨S21, .i32⟩ : BufTy).Contents (Elt F)))

def ixJ_18 : (⟨S21, .i32⟩ : BufTy).Contents (Elt F) :=
  (select : (⟨S21, .i1⟩ : BufTy).Contents (Elt F) → (⟨S21, .i32⟩ : BufTy).Contents (Elt F) → (⟨S21, .i32⟩ : BufTy).Contents (Elt F) → (⟨S21, .i32⟩ : BufTy).Contents (Elt F)) ((constantI S21 1 0#1 : (⟨S21, .i1⟩ : BufTy).Contents (Elt F))) ((addi : (⟨S21, .i32⟩ : BufTy).Contents (Elt F) → (⟨S21, .i32⟩ : BufTy).Contents (Elt F) → (⟨S21, .i32⟩ : BufTy).Contents (Elt F)) ((fun i => lit37 (S21.rowMajor i) : (⟨S21, .i32⟩ : BufTy).Contents (Elt F))) ((broadcastInDim S21 ![] bcast_S_S21 : (⟨S_, .i32⟩ : BufTy).Contents (Elt F) → (⟨S21, .i32⟩ : BufTy).Contents (Elt F)) ((constantI S_ 32 64#32 : (⟨S_, .i32⟩ : BufTy).Contents (Elt F))))) ((fun i => lit37 (S21.rowMajor i) : (⟨S21, .i32⟩ : BufTy).Contents (Elt F)))

def idx_18 : (⟨S21x2, .i32⟩ : BufTy).Contents (Elt F) :=
  concatenate S21x2 1 [⟨S21x1, (broadcastInDim S21x1 ![0] bcast_S21_S21x1_0 : (⟨S21, .i32⟩ : BufTy).Contents (Elt F) → (⟨S21x1, .i32⟩ : BufTy).Contents (Elt F)) ((ixI_18 (F := F)))⟩, ⟨S21x1, (broadcastInDim S21x1 ![0] bcast_S21_S21x1_0 : (⟨S21, .i32⟩ : BufTy).Contents (Elt F) → (⟨S21x1, .i32⟩ : BufTy).Contents (Elt F)) ((ixJ_18 (F := F)))⟩] concatenates_S21x1_S21x1_S21x2_d1

def acc_18 (x : (⟨S32x512x64, .f32⟩ : BufTy).Contents (Elt F)) : (⟨S32x512x64x64, .f32⟩ : BufTy).Contents (Elt F) :=
  Host.scatter scatter_S32x512x64x64_S21x2_S32x512x21_01_23_23_1 (fun _ b => b) (acc_17 x) ((idx_18 (F := F))) (pool_18 x)

def pool_19 (x : (⟨S32x512x64, .f32⟩ : BufTy).Contents (Elt F)) : (⟨S32x512x20, .f32⟩ : BufTy).Contents (Elt F) :=
  Host.reduceWindow FloatOps.maximumf ![1, 1, 2] ![1, 1, 1] ![0, 0, 0] ![0, 0, 0] (pool_18 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x21_S32x512x20_w1s1p0_0_w1s1p0_0_w2s1p0_0 h_S_

def ixI_19 : (⟨S20, .i32⟩ : BufTy).Contents (Elt F) :=
  (select : (⟨S20, .i1⟩ : BufTy).Contents (Elt F) → (⟨S20, .i32⟩ : BufTy).Contents (Elt F) → (⟨S20, .i32⟩ : BufTy).Contents (Elt F) → (⟨S20, .i32⟩ : BufTy).Contents (Elt F)) ((constantI S20 1 0#1 : (⟨S20, .i1⟩ : BufTy).Contents (Elt F))) ((addi : (⟨S20, .i32⟩ : BufTy).Contents (Elt F) → (⟨S20, .i32⟩ : BufTy).Contents (Elt F) → (⟨S20, .i32⟩ : BufTy).Contents (Elt F)) ((fun i => lit38 (S20.rowMajor i) : (⟨S20, .i32⟩ : BufTy).Contents (Elt F))) ((broadcastInDim S20 ![] bcast_S_S20 : (⟨S_, .i32⟩ : BufTy).Contents (Elt F) → (⟨S20, .i32⟩ : BufTy).Contents (Elt F)) ((constantI S_ 32 64#32 : (⟨S_, .i32⟩ : BufTy).Contents (Elt F))))) ((fun i => lit38 (S20.rowMajor i) : (⟨S20, .i32⟩ : BufTy).Contents (Elt F)))

def ixJ_19 : (⟨S20, .i32⟩ : BufTy).Contents (Elt F) :=
  (select : (⟨S20, .i1⟩ : BufTy).Contents (Elt F) → (⟨S20, .i32⟩ : BufTy).Contents (Elt F) → (⟨S20, .i32⟩ : BufTy).Contents (Elt F) → (⟨S20, .i32⟩ : BufTy).Contents (Elt F)) ((constantI S20 1 0#1 : (⟨S20, .i1⟩ : BufTy).Contents (Elt F))) ((addi : (⟨S20, .i32⟩ : BufTy).Contents (Elt F) → (⟨S20, .i32⟩ : BufTy).Contents (Elt F) → (⟨S20, .i32⟩ : BufTy).Contents (Elt F)) ((fun i => lit39 (S20.rowMajor i) : (⟨S20, .i32⟩ : BufTy).Contents (Elt F))) ((broadcastInDim S20 ![] bcast_S_S20 : (⟨S_, .i32⟩ : BufTy).Contents (Elt F) → (⟨S20, .i32⟩ : BufTy).Contents (Elt F)) ((constantI S_ 32 64#32 : (⟨S_, .i32⟩ : BufTy).Contents (Elt F))))) ((fun i => lit39 (S20.rowMajor i) : (⟨S20, .i32⟩ : BufTy).Contents (Elt F)))

def idx_19 : (⟨S20x2, .i32⟩ : BufTy).Contents (Elt F) :=
  concatenate S20x2 1 [⟨S20x1, (broadcastInDim S20x1 ![0] bcast_S20_S20x1_0 : (⟨S20, .i32⟩ : BufTy).Contents (Elt F) → (⟨S20x1, .i32⟩ : BufTy).Contents (Elt F)) ((ixI_19 (F := F)))⟩, ⟨S20x1, (broadcastInDim S20x1 ![0] bcast_S20_S20x1_0 : (⟨S20, .i32⟩ : BufTy).Contents (Elt F) → (⟨S20x1, .i32⟩ : BufTy).Contents (Elt F)) ((ixJ_19 (F := F)))⟩] concatenates_S20x1_S20x1_S20x2_d1

def acc_19 (x : (⟨S32x512x64, .f32⟩ : BufTy).Contents (Elt F)) : (⟨S32x512x64x64, .f32⟩ : BufTy).Contents (Elt F) :=
  Host.scatter scatter_S32x512x64x64_S20x2_S32x512x20_01_23_23_1 (fun _ b => b) (acc_18 x) ((idx_19 (F := F))) (pool_19 x)

def pool_20 (x : (⟨S32x512x64, .f32⟩ : BufTy).Contents (Elt F)) : (⟨S32x512x19, .f32⟩ : BufTy).Contents (Elt F) :=
  Host.reduceWindow FloatOps.maximumf ![1, 1, 2] ![1, 1, 1] ![0, 0, 0] ![0, 0, 0] (pool_19 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x20_S32x512x19_w1s1p0_0_w1s1p0_0_w2s1p0_0 h_S_

def ixI_20 : (⟨S19, .i32⟩ : BufTy).Contents (Elt F) :=
  (select : (⟨S19, .i1⟩ : BufTy).Contents (Elt F) → (⟨S19, .i32⟩ : BufTy).Contents (Elt F) → (⟨S19, .i32⟩ : BufTy).Contents (Elt F) → (⟨S19, .i32⟩ : BufTy).Contents (Elt F)) ((constantI S19 1 0#1 : (⟨S19, .i1⟩ : BufTy).Contents (Elt F))) ((addi : (⟨S19, .i32⟩ : BufTy).Contents (Elt F) → (⟨S19, .i32⟩ : BufTy).Contents (Elt F) → (⟨S19, .i32⟩ : BufTy).Contents (Elt F)) ((fun i => lit40 (S19.rowMajor i) : (⟨S19, .i32⟩ : BufTy).Contents (Elt F))) ((broadcastInDim S19 ![] bcast_S_S19 : (⟨S_, .i32⟩ : BufTy).Contents (Elt F) → (⟨S19, .i32⟩ : BufTy).Contents (Elt F)) ((constantI S_ 32 64#32 : (⟨S_, .i32⟩ : BufTy).Contents (Elt F))))) ((fun i => lit40 (S19.rowMajor i) : (⟨S19, .i32⟩ : BufTy).Contents (Elt F)))

def ixJ_20 : (⟨S19, .i32⟩ : BufTy).Contents (Elt F) :=
  (select : (⟨S19, .i1⟩ : BufTy).Contents (Elt F) → (⟨S19, .i32⟩ : BufTy).Contents (Elt F) → (⟨S19, .i32⟩ : BufTy).Contents (Elt F) → (⟨S19, .i32⟩ : BufTy).Contents (Elt F)) ((constantI S19 1 0#1 : (⟨S19, .i1⟩ : BufTy).Contents (Elt F))) ((addi : (⟨S19, .i32⟩ : BufTy).Contents (Elt F) → (⟨S19, .i32⟩ : BufTy).Contents (Elt F) → (⟨S19, .i32⟩ : BufTy).Contents (Elt F)) ((fun i => lit41 (S19.rowMajor i) : (⟨S19, .i32⟩ : BufTy).Contents (Elt F))) ((broadcastInDim S19 ![] bcast_S_S19 : (⟨S_, .i32⟩ : BufTy).Contents (Elt F) → (⟨S19, .i32⟩ : BufTy).Contents (Elt F)) ((constantI S_ 32 64#32 : (⟨S_, .i32⟩ : BufTy).Contents (Elt F))))) ((fun i => lit41 (S19.rowMajor i) : (⟨S19, .i32⟩ : BufTy).Contents (Elt F)))

def idx_20 : (⟨S19x2, .i32⟩ : BufTy).Contents (Elt F) :=
  concatenate S19x2 1 [⟨S19x1, (broadcastInDim S19x1 ![0] bcast_S19_S19x1_0 : (⟨S19, .i32⟩ : BufTy).Contents (Elt F) → (⟨S19x1, .i32⟩ : BufTy).Contents (Elt F)) ((ixI_20 (F := F)))⟩, ⟨S19x1, (broadcastInDim S19x1 ![0] bcast_S19_S19x1_0 : (⟨S19, .i32⟩ : BufTy).Contents (Elt F) → (⟨S19x1, .i32⟩ : BufTy).Contents (Elt F)) ((ixJ_20 (F := F)))⟩] concatenates_S19x1_S19x1_S19x2_d1

def acc_20 (x : (⟨S32x512x64, .f32⟩ : BufTy).Contents (Elt F)) : (⟨S32x512x64x64, .f32⟩ : BufTy).Contents (Elt F) :=
  Host.scatter scatter_S32x512x64x64_S19x2_S32x512x19_01_23_23_1 (fun _ b => b) (acc_19 x) ((idx_20 (F := F))) (pool_20 x)

def pool_21 (x : (⟨S32x512x64, .f32⟩ : BufTy).Contents (Elt F)) : (⟨S32x512x18, .f32⟩ : BufTy).Contents (Elt F) :=
  Host.reduceWindow FloatOps.maximumf ![1, 1, 2] ![1, 1, 1] ![0, 0, 0] ![0, 0, 0] (pool_20 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x19_S32x512x18_w1s1p0_0_w1s1p0_0_w2s1p0_0 h_S_

def ixI_21 : (⟨S18, .i32⟩ : BufTy).Contents (Elt F) :=
  (select : (⟨S18, .i1⟩ : BufTy).Contents (Elt F) → (⟨S18, .i32⟩ : BufTy).Contents (Elt F) → (⟨S18, .i32⟩ : BufTy).Contents (Elt F) → (⟨S18, .i32⟩ : BufTy).Contents (Elt F)) ((constantI S18 1 0#1 : (⟨S18, .i1⟩ : BufTy).Contents (Elt F))) ((addi : (⟨S18, .i32⟩ : BufTy).Contents (Elt F) → (⟨S18, .i32⟩ : BufTy).Contents (Elt F) → (⟨S18, .i32⟩ : BufTy).Contents (Elt F)) ((fun i => lit42 (S18.rowMajor i) : (⟨S18, .i32⟩ : BufTy).Contents (Elt F))) ((broadcastInDim S18 ![] bcast_S_S18 : (⟨S_, .i32⟩ : BufTy).Contents (Elt F) → (⟨S18, .i32⟩ : BufTy).Contents (Elt F)) ((constantI S_ 32 64#32 : (⟨S_, .i32⟩ : BufTy).Contents (Elt F))))) ((fun i => lit42 (S18.rowMajor i) : (⟨S18, .i32⟩ : BufTy).Contents (Elt F)))

def ixJ_21 : (⟨S18, .i32⟩ : BufTy).Contents (Elt F) :=
  (select : (⟨S18, .i1⟩ : BufTy).Contents (Elt F) → (⟨S18, .i32⟩ : BufTy).Contents (Elt F) → (⟨S18, .i32⟩ : BufTy).Contents (Elt F) → (⟨S18, .i32⟩ : BufTy).Contents (Elt F)) ((constantI S18 1 0#1 : (⟨S18, .i1⟩ : BufTy).Contents (Elt F))) ((addi : (⟨S18, .i32⟩ : BufTy).Contents (Elt F) → (⟨S18, .i32⟩ : BufTy).Contents (Elt F) → (⟨S18, .i32⟩ : BufTy).Contents (Elt F)) ((fun i => lit43 (S18.rowMajor i) : (⟨S18, .i32⟩ : BufTy).Contents (Elt F))) ((broadcastInDim S18 ![] bcast_S_S18 : (⟨S_, .i32⟩ : BufTy).Contents (Elt F) → (⟨S18, .i32⟩ : BufTy).Contents (Elt F)) ((constantI S_ 32 64#32 : (⟨S_, .i32⟩ : BufTy).Contents (Elt F))))) ((fun i => lit43 (S18.rowMajor i) : (⟨S18, .i32⟩ : BufTy).Contents (Elt F)))

def idx_21 : (⟨S18x2, .i32⟩ : BufTy).Contents (Elt F) :=
  concatenate S18x2 1 [⟨S18x1, (broadcastInDim S18x1 ![0] bcast_S18_S18x1_0 : (⟨S18, .i32⟩ : BufTy).Contents (Elt F) → (⟨S18x1, .i32⟩ : BufTy).Contents (Elt F)) ((ixI_21 (F := F)))⟩, ⟨S18x1, (broadcastInDim S18x1 ![0] bcast_S18_S18x1_0 : (⟨S18, .i32⟩ : BufTy).Contents (Elt F) → (⟨S18x1, .i32⟩ : BufTy).Contents (Elt F)) ((ixJ_21 (F := F)))⟩] concatenates_S18x1_S18x1_S18x2_d1

def acc_21 (x : (⟨S32x512x64, .f32⟩ : BufTy).Contents (Elt F)) : (⟨S32x512x64x64, .f32⟩ : BufTy).Contents (Elt F) :=
  Host.scatter scatter_S32x512x64x64_S18x2_S32x512x18_01_23_23_1 (fun _ b => b) (acc_20 x) ((idx_21 (F := F))) (pool_21 x)

def pool_22 (x : (⟨S32x512x64, .f32⟩ : BufTy).Contents (Elt F)) : (⟨S32x512x17, .f32⟩ : BufTy).Contents (Elt F) :=
  Host.reduceWindow FloatOps.maximumf ![1, 1, 2] ![1, 1, 1] ![0, 0, 0] ![0, 0, 0] (pool_21 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x18_S32x512x17_w1s1p0_0_w1s1p0_0_w2s1p0_0 h_S_

def ixI_22 : (⟨S17, .i32⟩ : BufTy).Contents (Elt F) :=
  (select : (⟨S17, .i1⟩ : BufTy).Contents (Elt F) → (⟨S17, .i32⟩ : BufTy).Contents (Elt F) → (⟨S17, .i32⟩ : BufTy).Contents (Elt F) → (⟨S17, .i32⟩ : BufTy).Contents (Elt F)) ((constantI S17 1 0#1 : (⟨S17, .i1⟩ : BufTy).Contents (Elt F))) ((addi : (⟨S17, .i32⟩ : BufTy).Contents (Elt F) → (⟨S17, .i32⟩ : BufTy).Contents (Elt F) → (⟨S17, .i32⟩ : BufTy).Contents (Elt F)) ((fun i => lit44 (S17.rowMajor i) : (⟨S17, .i32⟩ : BufTy).Contents (Elt F))) ((broadcastInDim S17 ![] bcast_S_S17 : (⟨S_, .i32⟩ : BufTy).Contents (Elt F) → (⟨S17, .i32⟩ : BufTy).Contents (Elt F)) ((constantI S_ 32 64#32 : (⟨S_, .i32⟩ : BufTy).Contents (Elt F))))) ((fun i => lit44 (S17.rowMajor i) : (⟨S17, .i32⟩ : BufTy).Contents (Elt F)))

def ixJ_22 : (⟨S17, .i32⟩ : BufTy).Contents (Elt F) :=
  (select : (⟨S17, .i1⟩ : BufTy).Contents (Elt F) → (⟨S17, .i32⟩ : BufTy).Contents (Elt F) → (⟨S17, .i32⟩ : BufTy).Contents (Elt F) → (⟨S17, .i32⟩ : BufTy).Contents (Elt F)) ((constantI S17 1 0#1 : (⟨S17, .i1⟩ : BufTy).Contents (Elt F))) ((addi : (⟨S17, .i32⟩ : BufTy).Contents (Elt F) → (⟨S17, .i32⟩ : BufTy).Contents (Elt F) → (⟨S17, .i32⟩ : BufTy).Contents (Elt F)) ((fun i => lit45 (S17.rowMajor i) : (⟨S17, .i32⟩ : BufTy).Contents (Elt F))) ((broadcastInDim S17 ![] bcast_S_S17 : (⟨S_, .i32⟩ : BufTy).Contents (Elt F) → (⟨S17, .i32⟩ : BufTy).Contents (Elt F)) ((constantI S_ 32 64#32 : (⟨S_, .i32⟩ : BufTy).Contents (Elt F))))) ((fun i => lit45 (S17.rowMajor i) : (⟨S17, .i32⟩ : BufTy).Contents (Elt F)))

def idx_22 : (⟨S17x2, .i32⟩ : BufTy).Contents (Elt F) :=
  concatenate S17x2 1 [⟨S17x1, (broadcastInDim S17x1 ![0] bcast_S17_S17x1_0 : (⟨S17, .i32⟩ : BufTy).Contents (Elt F) → (⟨S17x1, .i32⟩ : BufTy).Contents (Elt F)) ((ixI_22 (F := F)))⟩, ⟨S17x1, (broadcastInDim S17x1 ![0] bcast_S17_S17x1_0 : (⟨S17, .i32⟩ : BufTy).Contents (Elt F) → (⟨S17x1, .i32⟩ : BufTy).Contents (Elt F)) ((ixJ_22 (F := F)))⟩] concatenates_S17x1_S17x1_S17x2_d1

def acc_22 (x : (⟨S32x512x64, .f32⟩ : BufTy).Contents (Elt F)) : (⟨S32x512x64x64, .f32⟩ : BufTy).Contents (Elt F) :=
  Host.scatter scatter_S32x512x64x64_S17x2_S32x512x17_01_23_23_1 (fun _ b => b) (acc_21 x) ((idx_22 (F := F))) (pool_22 x)

def pool_23 (x : (⟨S32x512x64, .f32⟩ : BufTy).Contents (Elt F)) : (⟨S32x512x8, .f32⟩ : BufTy).Contents (Elt F) :=
  Host.reduceWindow FloatOps.maximumf ![1, 1, 3] ![1, 1, 2] ![0, 0, 0] ![0, 0, 0] (pool_22 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x17_S32x512x8_w1s1p0_0_w1s1p0_0_w3s2p0_0 h_S_

def ixI_23 : (⟨S8, .i32⟩ : BufTy).Contents (Elt F) :=
  (select : (⟨S8, .i1⟩ : BufTy).Contents (Elt F) → (⟨S8, .i32⟩ : BufTy).Contents (Elt F) → (⟨S8, .i32⟩ : BufTy).Contents (Elt F) → (⟨S8, .i32⟩ : BufTy).Contents (Elt F)) ((constantI S8 1 0#1 : (⟨S8, .i1⟩ : BufTy).Contents (Elt F))) ((addi : (⟨S8, .i32⟩ : BufTy).Contents (Elt F) → (⟨S8, .i32⟩ : BufTy).Contents (Elt F) → (⟨S8, .i32⟩ : BufTy).Contents (Elt F)) ((fun i => lit46 (S8.rowMajor i) : (⟨S8, .i32⟩ : BufTy).Contents (Elt F))) ((broadcastInDim S8 ![] bcast_S_S8 : (⟨S_, .i32⟩ : BufTy).Contents (Elt F) → (⟨S8, .i32⟩ : BufTy).Contents (Elt F)) ((constantI S_ 32 64#32 : (⟨S_, .i32⟩ : BufTy).Contents (Elt F))))) ((fun i => lit46 (S8.rowMajor i) : (⟨S8, .i32⟩ : BufTy).Contents (Elt F)))

def ixJ_23 : (⟨S8, .i32⟩ : BufTy).Contents (Elt F) :=
  (select : (⟨S8, .i1⟩ : BufTy).Contents (Elt F) → (⟨S8, .i32⟩ : BufTy).Contents (Elt F) → (⟨S8, .i32⟩ : BufTy).Contents (Elt F) → (⟨S8, .i32⟩ : BufTy).Contents (Elt F)) ((constantI S8 1 0#1 : (⟨S8, .i1⟩ : BufTy).Contents (Elt F))) ((addi : (⟨S8, .i32⟩ : BufTy).Contents (Elt F) → (⟨S8, .i32⟩ : BufTy).Contents (Elt F) → (⟨S8, .i32⟩ : BufTy).Contents (Elt F)) ((fun i => lit47 (S8.rowMajor i) : (⟨S8, .i32⟩ : BufTy).Contents (Elt F))) ((broadcastInDim S8 ![] bcast_S_S8 : (⟨S_, .i32⟩ : BufTy).Contents (Elt F) → (⟨S8, .i32⟩ : BufTy).Contents (Elt F)) ((constantI S_ 32 64#32 : (⟨S_, .i32⟩ : BufTy).Contents (Elt F))))) ((fun i => lit47 (S8.rowMajor i) : (⟨S8, .i32⟩ : BufTy).Contents (Elt F)))

def idx_23 : (⟨S8x2, .i32⟩ : BufTy).Contents (Elt F) :=
  concatenate S8x2 1 [⟨S8x1, (broadcastInDim S8x1 ![0] bcast_S8_S8x1_0 : (⟨S8, .i32⟩ : BufTy).Contents (Elt F) → (⟨S8x1, .i32⟩ : BufTy).Contents (Elt F)) ((ixI_23 (F := F)))⟩, ⟨S8x1, (broadcastInDim S8x1 ![0] bcast_S8_S8x1_0 : (⟨S8, .i32⟩ : BufTy).Contents (Elt F) → (⟨S8x1, .i32⟩ : BufTy).Contents (Elt F)) ((ixJ_23 (F := F)))⟩] concatenates_S8x1_S8x1_S8x2_d1

def acc_23 (x : (⟨S32x512x64, .f32⟩ : BufTy).Contents (Elt F)) : (⟨S32x512x64x64, .f32⟩ : BufTy).Contents (Elt F) :=
  Host.scatter scatter_S32x512x64x64_S8x2_S32x512x8_01_23_23_1 (fun _ b => b) (acc_22 x) ((idx_23 (F := F))) (pool_23 x)

def pool_24 (x : (⟨S32x512x64, .f32⟩ : BufTy).Contents (Elt F)) : (⟨S32x512x7, .f32⟩ : BufTy).Contents (Elt F) :=
  Host.reduceWindow FloatOps.maximumf ![1, 1, 2] ![1, 1, 1] ![0, 0, 0] ![0, 0, 0] (pool_23 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x8_S32x512x7_w1s1p0_0_w1s1p0_0_w2s1p0_0 h_S_

def ixI_24 : (⟨S7, .i32⟩ : BufTy).Contents (Elt F) :=
  (select : (⟨S7, .i1⟩ : BufTy).Contents (Elt F) → (⟨S7, .i32⟩ : BufTy).Contents (Elt F) → (⟨S7, .i32⟩ : BufTy).Contents (Elt F) → (⟨S7, .i32⟩ : BufTy).Contents (Elt F)) ((constantI S7 1 0#1 : (⟨S7, .i1⟩ : BufTy).Contents (Elt F))) ((addi : (⟨S7, .i32⟩ : BufTy).Contents (Elt F) → (⟨S7, .i32⟩ : BufTy).Contents (Elt F) → (⟨S7, .i32⟩ : BufTy).Contents (Elt F)) ((fun i => lit48 (S7.rowMajor i) : (⟨S7, .i32⟩ : BufTy).Contents (Elt F))) ((broadcastInDim S7 ![] bcast_S_S7 : (⟨S_, .i32⟩ : BufTy).Contents (Elt F) → (⟨S7, .i32⟩ : BufTy).Contents (Elt F)) ((constantI S_ 32 64#32 : (⟨S_, .i32⟩ : BufTy).Contents (Elt F))))) ((fun i => lit48 (S7.rowMajor i) : (⟨S7, .i32⟩ : BufTy).Contents (Elt F)))

def ixJ_24 : (⟨S7, .i32⟩ : BufTy).Contents (Elt F) :=
  (select : (⟨S7, .i1⟩ : BufTy).Contents (Elt F) → (⟨S7, .i32⟩ : BufTy).Contents (Elt F) → (⟨S7, .i32⟩ : BufTy).Contents (Elt F) → (⟨S7, .i32⟩ : BufTy).Contents (Elt F)) ((constantI S7 1 0#1 : (⟨S7, .i1⟩ : BufTy).Contents (Elt F))) ((addi : (⟨S7, .i32⟩ : BufTy).Contents (Elt F) → (⟨S7, .i32⟩ : BufTy).Contents (Elt F) → (⟨S7, .i32⟩ : BufTy).Contents (Elt F)) ((fun i => lit49 (S7.rowMajor i) : (⟨S7, .i32⟩ : BufTy).Contents (Elt F))) ((broadcastInDim S7 ![] bcast_S_S7 : (⟨S_, .i32⟩ : BufTy).Contents (Elt F) → (⟨S7, .i32⟩ : BufTy).Contents (Elt F)) ((constantI S_ 32 64#32 : (⟨S_, .i32⟩ : BufTy).Contents (Elt F))))) ((fun i => lit49 (S7.rowMajor i) : (⟨S7, .i32⟩ : BufTy).Contents (Elt F)))

def idx_24 : (⟨S7x2, .i32⟩ : BufTy).Contents (Elt F) :=
  concatenate S7x2 1 [⟨S7x1, (broadcastInDim S7x1 ![0] bcast_S7_S7x1_0 : (⟨S7, .i32⟩ : BufTy).Contents (Elt F) → (⟨S7x1, .i32⟩ : BufTy).Contents (Elt F)) ((ixI_24 (F := F)))⟩, ⟨S7x1, (broadcastInDim S7x1 ![0] bcast_S7_S7x1_0 : (⟨S7, .i32⟩ : BufTy).Contents (Elt F) → (⟨S7x1, .i32⟩ : BufTy).Contents (Elt F)) ((ixJ_24 (F := F)))⟩] concatenates_S7x1_S7x1_S7x2_d1

def acc_24 (x : (⟨S32x512x64, .f32⟩ : BufTy).Contents (Elt F)) : (⟨S32x512x64x64, .f32⟩ : BufTy).Contents (Elt F) :=
  Host.scatter scatter_S32x512x64x64_S7x2_S32x512x7_01_23_23_1 (fun _ b => b) (acc_23 x) ((idx_24 (F := F))) (pool_24 x)

def pool_25 (x : (⟨S32x512x64, .f32⟩ : BufTy).Contents (Elt F)) : (⟨S32x512x6, .f32⟩ : BufTy).Contents (Elt F) :=
  Host.reduceWindow FloatOps.maximumf ![1, 1, 2] ![1, 1, 1] ![0, 0, 0] ![0, 0, 0] (pool_24 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x7_S32x512x6_w1s1p0_0_w1s1p0_0_w2s1p0_0 h_S_

def ixI_25 : (⟨S6, .i32⟩ : BufTy).Contents (Elt F) :=
  (select : (⟨S6, .i1⟩ : BufTy).Contents (Elt F) → (⟨S6, .i32⟩ : BufTy).Contents (Elt F) → (⟨S6, .i32⟩ : BufTy).Contents (Elt F) → (⟨S6, .i32⟩ : BufTy).Contents (Elt F)) ((constantI S6 1 0#1 : (⟨S6, .i1⟩ : BufTy).Contents (Elt F))) ((addi : (⟨S6, .i32⟩ : BufTy).Contents (Elt F) → (⟨S6, .i32⟩ : BufTy).Contents (Elt F) → (⟨S6, .i32⟩ : BufTy).Contents (Elt F)) ((fun i => lit50 (S6.rowMajor i) : (⟨S6, .i32⟩ : BufTy).Contents (Elt F))) ((broadcastInDim S6 ![] bcast_S_S6 : (⟨S_, .i32⟩ : BufTy).Contents (Elt F) → (⟨S6, .i32⟩ : BufTy).Contents (Elt F)) ((constantI S_ 32 64#32 : (⟨S_, .i32⟩ : BufTy).Contents (Elt F))))) ((fun i => lit50 (S6.rowMajor i) : (⟨S6, .i32⟩ : BufTy).Contents (Elt F)))

def ixJ_25 : (⟨S6, .i32⟩ : BufTy).Contents (Elt F) :=
  (select : (⟨S6, .i1⟩ : BufTy).Contents (Elt F) → (⟨S6, .i32⟩ : BufTy).Contents (Elt F) → (⟨S6, .i32⟩ : BufTy).Contents (Elt F) → (⟨S6, .i32⟩ : BufTy).Contents (Elt F)) ((constantI S6 1 0#1 : (⟨S6, .i1⟩ : BufTy).Contents (Elt F))) ((addi : (⟨S6, .i32⟩ : BufTy).Contents (Elt F) → (⟨S6, .i32⟩ : BufTy).Contents (Elt F) → (⟨S6, .i32⟩ : BufTy).Contents (Elt F)) ((fun i => lit51 (S6.rowMajor i) : (⟨S6, .i32⟩ : BufTy).Contents (Elt F))) ((broadcastInDim S6 ![] bcast_S_S6 : (⟨S_, .i32⟩ : BufTy).Contents (Elt F) → (⟨S6, .i32⟩ : BufTy).Contents (Elt F)) ((constantI S_ 32 64#32 : (⟨S_, .i32⟩ : BufTy).Contents (Elt F))))) ((fun i => lit51 (S6.rowMajor i) : (⟨S6, .i32⟩ : BufTy).Contents (Elt F)))

def idx_25 : (⟨S6x2, .i32⟩ : BufTy).Contents (Elt F) :=
  concatenate S6x2 1 [⟨S6x1, (broadcastInDim S6x1 ![0] bcast_S6_S6x1_0 : (⟨S6, .i32⟩ : BufTy).Contents (Elt F) → (⟨S6x1, .i32⟩ : BufTy).Contents (Elt F)) ((ixI_25 (F := F)))⟩, ⟨S6x1, (broadcastInDim S6x1 ![0] bcast_S6_S6x1_0 : (⟨S6, .i32⟩ : BufTy).Contents (Elt F) → (⟨S6x1, .i32⟩ : BufTy).Contents (Elt F)) ((ixJ_25 (F := F)))⟩] concatenates_S6x1_S6x1_S6x2_d1

def acc_25 (x : (⟨S32x512x64, .f32⟩ : BufTy).Contents (Elt F)) : (⟨S32x512x64x64, .f32⟩ : BufTy).Contents (Elt F) :=
  Host.scatter scatter_S32x512x64x64_S6x2_S32x512x6_01_23_23_1 (fun _ b => b) (acc_24 x) ((idx_25 (F := F))) (pool_25 x)

def pool_26 (x : (⟨S32x512x64, .f32⟩ : BufTy).Contents (Elt F)) : (⟨S32x512x5, .f32⟩ : BufTy).Contents (Elt F) :=
  Host.reduceWindow FloatOps.maximumf ![1, 1, 2] ![1, 1, 1] ![0, 0, 0] ![0, 0, 0] (pool_25 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x6_S32x512x5_w1s1p0_0_w1s1p0_0_w2s1p0_0 h_S_

def ixI_26 : (⟨S5, .i32⟩ : BufTy).Contents (Elt F) :=
  (select : (⟨S5, .i1⟩ : BufTy).Contents (Elt F) → (⟨S5, .i32⟩ : BufTy).Contents (Elt F) → (⟨S5, .i32⟩ : BufTy).Contents (Elt F) → (⟨S5, .i32⟩ : BufTy).Contents (Elt F)) ((constantI S5 1 0#1 : (⟨S5, .i1⟩ : BufTy).Contents (Elt F))) ((addi : (⟨S5, .i32⟩ : BufTy).Contents (Elt F) → (⟨S5, .i32⟩ : BufTy).Contents (Elt F) → (⟨S5, .i32⟩ : BufTy).Contents (Elt F)) ((fun i => lit52 (S5.rowMajor i) : (⟨S5, .i32⟩ : BufTy).Contents (Elt F))) ((broadcastInDim S5 ![] bcast_S_S5 : (⟨S_, .i32⟩ : BufTy).Contents (Elt F) → (⟨S5, .i32⟩ : BufTy).Contents (Elt F)) ((constantI S_ 32 64#32 : (⟨S_, .i32⟩ : BufTy).Contents (Elt F))))) ((fun i => lit52 (S5.rowMajor i) : (⟨S5, .i32⟩ : BufTy).Contents (Elt F)))

def ixJ_26 : (⟨S5, .i32⟩ : BufTy).Contents (Elt F) :=
  (select : (⟨S5, .i1⟩ : BufTy).Contents (Elt F) → (⟨S5, .i32⟩ : BufTy).Contents (Elt F) → (⟨S5, .i32⟩ : BufTy).Contents (Elt F) → (⟨S5, .i32⟩ : BufTy).Contents (Elt F)) ((constantI S5 1 0#1 : (⟨S5, .i1⟩ : BufTy).Contents (Elt F))) ((addi : (⟨S5, .i32⟩ : BufTy).Contents (Elt F) → (⟨S5, .i32⟩ : BufTy).Contents (Elt F) → (⟨S5, .i32⟩ : BufTy).Contents (Elt F)) ((fun i => lit53 (S5.rowMajor i) : (⟨S5, .i32⟩ : BufTy).Contents (Elt F))) ((broadcastInDim S5 ![] bcast_S_S5 : (⟨S_, .i32⟩ : BufTy).Contents (Elt F) → (⟨S5, .i32⟩ : BufTy).Contents (Elt F)) ((constantI S_ 32 64#32 : (⟨S_, .i32⟩ : BufTy).Contents (Elt F))))) ((fun i => lit53 (S5.rowMajor i) : (⟨S5, .i32⟩ : BufTy).Contents (Elt F)))

def idx_26 : (⟨S5x2, .i32⟩ : BufTy).Contents (Elt F) :=
  concatenate S5x2 1 [⟨S5x1, (broadcastInDim S5x1 ![0] bcast_S5_S5x1_0 : (⟨S5, .i32⟩ : BufTy).Contents (Elt F) → (⟨S5x1, .i32⟩ : BufTy).Contents (Elt F)) ((ixI_26 (F := F)))⟩, ⟨S5x1, (broadcastInDim S5x1 ![0] bcast_S5_S5x1_0 : (⟨S5, .i32⟩ : BufTy).Contents (Elt F) → (⟨S5x1, .i32⟩ : BufTy).Contents (Elt F)) ((ixJ_26 (F := F)))⟩] concatenates_S5x1_S5x1_S5x2_d1

def acc_26 (x : (⟨S32x512x64, .f32⟩ : BufTy).Contents (Elt F)) : (⟨S32x512x64x64, .f32⟩ : BufTy).Contents (Elt F) :=
  Host.scatter scatter_S32x512x64x64_S5x2_S32x512x5_01_23_23_1 (fun _ b => b) (acc_25 x) ((idx_26 (F := F))) (pool_26 x)

def pool_27 (x : (⟨S32x512x64, .f32⟩ : BufTy).Contents (Elt F)) : (⟨S32x512x4, .f32⟩ : BufTy).Contents (Elt F) :=
  Host.reduceWindow FloatOps.maximumf ![1, 1, 2] ![1, 1, 1] ![0, 0, 0] ![0, 0, 0] (pool_26 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x5_S32x512x4_w1s1p0_0_w1s1p0_0_w2s1p0_0 h_S_

def ixI_27 : (⟨S4, .i32⟩ : BufTy).Contents (Elt F) :=
  (select : (⟨S4, .i1⟩ : BufTy).Contents (Elt F) → (⟨S4, .i32⟩ : BufTy).Contents (Elt F) → (⟨S4, .i32⟩ : BufTy).Contents (Elt F) → (⟨S4, .i32⟩ : BufTy).Contents (Elt F)) ((constantI S4 1 0#1 : (⟨S4, .i1⟩ : BufTy).Contents (Elt F))) ((addi : (⟨S4, .i32⟩ : BufTy).Contents (Elt F) → (⟨S4, .i32⟩ : BufTy).Contents (Elt F) → (⟨S4, .i32⟩ : BufTy).Contents (Elt F)) ((fun i => lit54 (S4.rowMajor i) : (⟨S4, .i32⟩ : BufTy).Contents (Elt F))) ((broadcastInDim S4 ![] bcast_S_S4 : (⟨S_, .i32⟩ : BufTy).Contents (Elt F) → (⟨S4, .i32⟩ : BufTy).Contents (Elt F)) ((constantI S_ 32 64#32 : (⟨S_, .i32⟩ : BufTy).Contents (Elt F))))) ((fun i => lit54 (S4.rowMajor i) : (⟨S4, .i32⟩ : BufTy).Contents (Elt F)))

def ixJ_27 : (⟨S4, .i32⟩ : BufTy).Contents (Elt F) :=
  (select : (⟨S4, .i1⟩ : BufTy).Contents (Elt F) → (⟨S4, .i32⟩ : BufTy).Contents (Elt F) → (⟨S4, .i32⟩ : BufTy).Contents (Elt F) → (⟨S4, .i32⟩ : BufTy).Contents (Elt F)) ((constantI S4 1 0#1 : (⟨S4, .i1⟩ : BufTy).Contents (Elt F))) ((addi : (⟨S4, .i32⟩ : BufTy).Contents (Elt F) → (⟨S4, .i32⟩ : BufTy).Contents (Elt F) → (⟨S4, .i32⟩ : BufTy).Contents (Elt F)) ((fun i => lit55 (S4.rowMajor i) : (⟨S4, .i32⟩ : BufTy).Contents (Elt F))) ((broadcastInDim S4 ![] bcast_S_S4 : (⟨S_, .i32⟩ : BufTy).Contents (Elt F) → (⟨S4, .i32⟩ : BufTy).Contents (Elt F)) ((constantI S_ 32 64#32 : (⟨S_, .i32⟩ : BufTy).Contents (Elt F))))) ((fun i => lit55 (S4.rowMajor i) : (⟨S4, .i32⟩ : BufTy).Contents (Elt F)))

def idx_27 : (⟨S4x2, .i32⟩ : BufTy).Contents (Elt F) :=
  concatenate S4x2 1 [⟨S4x1, (broadcastInDim S4x1 ![0] bcast_S4_S4x1_0 : (⟨S4, .i32⟩ : BufTy).Contents (Elt F) → (⟨S4x1, .i32⟩ : BufTy).Contents (Elt F)) ((ixI_27 (F := F)))⟩, ⟨S4x1, (broadcastInDim S4x1 ![0] bcast_S4_S4x1_0 : (⟨S4, .i32⟩ : BufTy).Contents (Elt F) → (⟨S4x1, .i32⟩ : BufTy).Contents (Elt F)) ((ixJ_27 (F := F)))⟩] concatenates_S4x1_S4x1_S4x2_d1

def acc_27 (x : (⟨S32x512x64, .f32⟩ : BufTy).Contents (Elt F)) : (⟨S32x512x64x64, .f32⟩ : BufTy).Contents (Elt F) :=
  Host.scatter scatter_S32x512x64x64_S4x2_S32x512x4_01_23_23_1 (fun _ b => b) (acc_26 x) ((idx_27 (F := F))) (pool_27 x)

def pool_28 (x : (⟨S32x512x64, .f32⟩ : BufTy).Contents (Elt F)) : (⟨S32x512x3, .f32⟩ : BufTy).Contents (Elt F) :=
  Host.reduceWindow FloatOps.maximumf ![1, 1, 2] ![1, 1, 1] ![0, 0, 0] ![0, 0, 0] (pool_27 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x4_S32x512x3_w1s1p0_0_w1s1p0_0_w2s1p0_0 h_S_

def ixI_28 : (⟨S3, .i32⟩ : BufTy).Contents (Elt F) :=
  (select : (⟨S3, .i1⟩ : BufTy).Contents (Elt F) → (⟨S3, .i32⟩ : BufTy).Contents (Elt F) → (⟨S3, .i32⟩ : BufTy).Contents (Elt F) → (⟨S3, .i32⟩ : BufTy).Contents (Elt F)) ((constantI S3 1 0#1 : (⟨S3, .i1⟩ : BufTy).Contents (Elt F))) ((addi : (⟨S3, .i32⟩ : BufTy).Contents (Elt F) → (⟨S3, .i32⟩ : BufTy).Contents (Elt F) → (⟨S3, .i32⟩ : BufTy).Contents (Elt F)) ((fun i => lit56 (S3.rowMajor i) : (⟨S3, .i32⟩ : BufTy).Contents (Elt F))) ((broadcastInDim S3 ![] bcast_S_S3 : (⟨S_, .i32⟩ : BufTy).Contents (Elt F) → (⟨S3, .i32⟩ : BufTy).Contents (Elt F)) ((constantI S_ 32 64#32 : (⟨S_, .i32⟩ : BufTy).Contents (Elt F))))) ((fun i => lit56 (S3.rowMajor i) : (⟨S3, .i32⟩ : BufTy).Contents (Elt F)))

def ixJ_28 : (⟨S3, .i32⟩ : BufTy).Contents (Elt F) :=
  (select : (⟨S3, .i1⟩ : BufTy).Contents (Elt F) → (⟨S3, .i32⟩ : BufTy).Contents (Elt F) → (⟨S3, .i32⟩ : BufTy).Contents (Elt F) → (⟨S3, .i32⟩ : BufTy).Contents (Elt F)) ((constantI S3 1 0#1 : (⟨S3, .i1⟩ : BufTy).Contents (Elt F))) ((addi : (⟨S3, .i32⟩ : BufTy).Contents (Elt F) → (⟨S3, .i32⟩ : BufTy).Contents (Elt F) → (⟨S3, .i32⟩ : BufTy).Contents (Elt F)) ((fun i => lit57 (S3.rowMajor i) : (⟨S3, .i32⟩ : BufTy).Contents (Elt F))) ((broadcastInDim S3 ![] bcast_S_S3 : (⟨S_, .i32⟩ : BufTy).Contents (Elt F) → (⟨S3, .i32⟩ : BufTy).Contents (Elt F)) ((constantI S_ 32 64#32 : (⟨S_, .i32⟩ : BufTy).Contents (Elt F))))) ((fun i => lit57 (S3.rowMajor i) : (⟨S3, .i32⟩ : BufTy).Contents (Elt F)))

def idx_28 : (⟨S3x2, .i32⟩ : BufTy).Contents (Elt F) :=
  concatenate S3x2 1 [⟨S3x1, (broadcastInDim S3x1 ![0] bcast_S3_S3x1_0 : (⟨S3, .i32⟩ : BufTy).Contents (Elt F) → (⟨S3x1, .i32⟩ : BufTy).Contents (Elt F)) ((ixI_28 (F := F)))⟩, ⟨S3x1, (broadcastInDim S3x1 ![0] bcast_S3_S3x1_0 : (⟨S3, .i32⟩ : BufTy).Contents (Elt F) → (⟨S3x1, .i32⟩ : BufTy).Contents (Elt F)) ((ixJ_28 (F := F)))⟩] concatenates_S3x1_S3x1_S3x2_d1

def acc_28 (x : (⟨S32x512x64, .f32⟩ : BufTy).Contents (Elt F)) : (⟨S32x512x64x64, .f32⟩ : BufTy).Contents (Elt F) :=
  Host.scatter scatter_S32x512x64x64_S3x2_S32x512x3_01_23_23_1 (fun _ b => b) (acc_27 x) ((idx_28 (F := F))) (pool_28 x)

def pool_29 (x : (⟨S32x512x64, .f32⟩ : BufTy).Contents (Elt F)) : (⟨S32x512x2, .f32⟩ : BufTy).Contents (Elt F) :=
  Host.reduceWindow FloatOps.maximumf ![1, 1, 2] ![1, 1, 1] ![0, 0, 0] ![0, 0, 0] (pool_28 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x3_S32x512x2_w1s1p0_0_w1s1p0_0_w2s1p0_0 h_S_

def ixI_29 : (⟨S2, .i32⟩ : BufTy).Contents (Elt F) :=
  (select : (⟨S2, .i1⟩ : BufTy).Contents (Elt F) → (⟨S2, .i32⟩ : BufTy).Contents (Elt F) → (⟨S2, .i32⟩ : BufTy).Contents (Elt F) → (⟨S2, .i32⟩ : BufTy).Contents (Elt F)) ((constantI S2 1 0#1 : (⟨S2, .i1⟩ : BufTy).Contents (Elt F))) ((addi : (⟨S2, .i32⟩ : BufTy).Contents (Elt F) → (⟨S2, .i32⟩ : BufTy).Contents (Elt F) → (⟨S2, .i32⟩ : BufTy).Contents (Elt F)) ((fun i => lit58 (S2.rowMajor i) : (⟨S2, .i32⟩ : BufTy).Contents (Elt F))) ((broadcastInDim S2 ![] bcast_S_S2 : (⟨S_, .i32⟩ : BufTy).Contents (Elt F) → (⟨S2, .i32⟩ : BufTy).Contents (Elt F)) ((constantI S_ 32 64#32 : (⟨S_, .i32⟩ : BufTy).Contents (Elt F))))) ((fun i => lit58 (S2.rowMajor i) : (⟨S2, .i32⟩ : BufTy).Contents (Elt F)))

def ixJ_29 : (⟨S2, .i32⟩ : BufTy).Contents (Elt F) :=
  (select : (⟨S2, .i1⟩ : BufTy).Contents (Elt F) → (⟨S2, .i32⟩ : BufTy).Contents (Elt F) → (⟨S2, .i32⟩ : BufTy).Contents (Elt F) → (⟨S2, .i32⟩ : BufTy).Contents (Elt F)) ((constantI S2 1 0#1 : (⟨S2, .i1⟩ : BufTy).Contents (Elt F))) ((addi : (⟨S2, .i32⟩ : BufTy).Contents (Elt F) → (⟨S2, .i32⟩ : BufTy).Contents (Elt F) → (⟨S2, .i32⟩ : BufTy).Contents (Elt F)) ((fun i => lit59 (S2.rowMajor i) : (⟨S2, .i32⟩ : BufTy).Contents (Elt F))) ((broadcastInDim S2 ![] bcast_S_S2 : (⟨S_, .i32⟩ : BufTy).Contents (Elt F) → (⟨S2, .i32⟩ : BufTy).Contents (Elt F)) ((constantI S_ 32 64#32 : (⟨S_, .i32⟩ : BufTy).Contents (Elt F))))) ((fun i => lit59 (S2.rowMajor i) : (⟨S2, .i32⟩ : BufTy).Contents (Elt F)))

def idx_29 : (⟨S2x2, .i32⟩ : BufTy).Contents (Elt F) :=
  concatenate S2x2 1 [⟨S2x1, (broadcastInDim S2x1 ![0] bcast_S2_S2x1_0 : (⟨S2, .i32⟩ : BufTy).Contents (Elt F) → (⟨S2x1, .i32⟩ : BufTy).Contents (Elt F)) ((ixI_29 (F := F)))⟩, ⟨S2x1, (broadcastInDim S2x1 ![0] bcast_S2_S2x1_0 : (⟨S2, .i32⟩ : BufTy).Contents (Elt F) → (⟨S2x1, .i32⟩ : BufTy).Contents (Elt F)) ((ixJ_29 (F := F)))⟩] concatenates_S2x1_S2x1_S2x2_d1

def acc_29 (x : (⟨S32x512x64, .f32⟩ : BufTy).Contents (Elt F)) : (⟨S32x512x64x64, .f32⟩ : BufTy).Contents (Elt F) :=
  Host.scatter scatter_S32x512x64x64_S2x2_S32x512x2_01_23_23_1 (fun _ b => b) (acc_28 x) ((idx_29 (F := F))) (pool_29 x)

def pool_30 (x : (⟨S32x512x64, .f32⟩ : BufTy).Contents (Elt F)) : (⟨S32x512x1, .f32⟩ : BufTy).Contents (Elt F) :=
  Host.reduceWindow FloatOps.maximumf ![1, 1, 2] ![1, 1, 1] ![0, 0, 0] ![0, 0, 0] (pool_29 x) ((broadcastInDim S_ ![] bcast_S_S_ : (⟨S_, .f32⟩ : BufTy).Contents (Elt F) → (⟨S_, .f32⟩ : BufTy).Contents (Elt F)) ((constant S_ .f32 0xFF800000#32 : (⟨S_, .f32⟩ : BufTy).Contents (Elt F)))) reduceWindows_S32x512x2_S32x512x1_w1s1p0_0_w1s1p0_0_w2s1p0_0 h_S_

def ixI_30 : (⟨S1, .i32⟩ : BufTy).Contents (Elt F) :=
  (select : (⟨S1, .i1⟩ : BufTy).Contents (Elt F) → (⟨S1, .i32⟩ : BufTy).Contents (Elt F) → (⟨S1, .i32⟩ : BufTy).Contents (Elt F) → (⟨S1, .i32⟩ : BufTy).Contents (Elt F)) ((constantI S1 1 0#1 : (⟨S1, .i1⟩ : BufTy).Contents (Elt F))) ((addi : (⟨S1, .i32⟩ : BufTy).Contents (Elt F) → (⟨S1, .i32⟩ : BufTy).Contents (Elt F) → (⟨S1, .i32⟩ : BufTy).Contents (Elt F)) ((constantI S1 32 0#32 : (⟨S1, .i32⟩ : BufTy).Contents (Elt F))) ((broadcastInDim S1 ![] bcast_S_S1 : (⟨S_, .i32⟩ : BufTy).Contents (Elt F) → (⟨S1, .i32⟩ : BufTy).Contents (Elt F)) ((constantI S_ 32 64#32 : (⟨S_, .i32⟩ : BufTy).Contents (Elt F))))) ((constantI S1 32 0#32 : (⟨S1, .i32⟩ : BufTy).Contents (Elt F)))

def ixJ_30 : (⟨S1, .i32⟩ : BufTy).Contents (Elt F) :=
  (select : (⟨S1, .i1⟩ : BufTy).Contents (Elt F) → (⟨S1, .i32⟩ : BufTy).Contents (Elt F) → (⟨S1, .i32⟩ : BufTy).Contents (Elt F) → (⟨S1, .i32⟩ : BufTy).Contents (Elt F)) ((constantI S1 1 0#1 : (⟨S1, .i1⟩ : BufTy).Contents (Elt F))) ((addi : (⟨S1, .i32⟩ : BufTy).Contents (Elt F) → (⟨S1, .i32⟩ : BufTy).Contents (Elt F) → (⟨S1, .i32⟩ : BufTy).Contents (Elt F)) ((constantI S1 32 62#32 : (⟨S1, .i32⟩ : BufTy).Contents (Elt F))) ((broadcastInDim S1 ![] bcast_S_S1 : (⟨S_, .i32⟩ : BufTy).Contents (Elt F) → (⟨S1, .i32⟩ : BufTy).Contents (Elt F)) ((constantI S_ 32 64#32 : (⟨S_, .i32⟩ : BufTy).Contents (Elt F))))) ((constantI S1 32 62#32 : (⟨S1, .i32⟩ : BufTy).Contents (Elt F)))

def idx_30 : (⟨S1x2, .i32⟩ : BufTy).Contents (Elt F) :=
  concatenate S1x2 1 [⟨S1x1, (broadcastInDim S1x1 ![0] bcast_S1_S1x1_0 : (⟨S1, .i32⟩ : BufTy).Contents (Elt F) → (⟨S1x1, .i32⟩ : BufTy).Contents (Elt F)) ((ixI_30 (F := F)))⟩, ⟨S1x1, (broadcastInDim S1x1 ![0] bcast_S1_S1x1_0 : (⟨S1, .i32⟩ : BufTy).Contents (Elt F) → (⟨S1x1, .i32⟩ : BufTy).Contents (Elt F)) ((ixJ_30 (F := F)))⟩] concatenates_S1x1_S1x1_S1x2_d1

def acc_30 (x : (⟨S32x512x64, .f32⟩ : BufTy).Contents (Elt F)) : (⟨S32x512x64x64, .f32⟩ : BufTy).Contents (Elt F) :=
  Host.scatter scatter_S32x512x64x64_S1x2_S32x512x1_01_23_23_1 (fun _ b => b) (acc_29 x) ((idx_30 (F := F))) (pool_30 x)

/-- The reference's first result: the array after the last stage. -/
def res_main_v370 (x : (⟨S32x512x64, .f32⟩ : BufTy).Contents (Elt F)) : (⟨S32x512x64x64, .f32⟩ : BufTy).Contents (Elt F) :=
  acc_30 x

end Cert.RefTerm

end
-- ==== Proof.RefRunOps.lean ====
/-
  The reference's host program as the list of its operations, window by window, and the contents of the device's
  buffers after each window as a fold of the operations' results over the contents at launch.
-/
import proofs.«156021_j19232863551513_2_alg».proof.Proof.RefTerm
import Idealize.ShloMosaic.Lib.StableHlo.Run

noncomputable section

namespace Cert.RefRun

open Cert.ReferenceIdeal Cert.ReferenceIdeal.Facts₀ Cert.ReferenceIdeal.Facts Cert.RefTerm
open Idealize.ShloMosaic Idealize.ShloMosaic.TcCoe Idealize.SL.Sem Idealize.ShloMosaic.StableHlo

variable {F : FTy → Type} [FloatOps F]

/-- The operations of window 0, in order. -/
abbrev ops0 : List (HloOp τ sig (Elt F)) :=
  [ StableHlo.nullary main_c (fun i => lit0 (S64.rowMajor i)),
    StableHlo.nullary main_c_0 (constantI S64 1 0#1),
    StableHlo.nullary main_c_1 (fun i => lit1 (S64.rowMajor i)),
    StableHlo.nullary main_c_2 (constantI S64 1 0#1),
    StableHlo.nullary main_c_3 (fun i => lit2 (S63.rowMajor i)),
    StableHlo.nullary main_c_4 (constantI S63 1 0#1),
    StableHlo.nullary main_c_5 (fun i => lit3 (S63.rowMajor i)),
    StableHlo.nullary main_c_6 (constantI S63 1 0#1),
    StableHlo.nullary main_c_7 (fun i => lit4 (S62.rowMajor i)),
    StableHlo.nullary main_c_8 (constantI S62 1 0#1),
    StableHlo.nullary main_c_9 (fun i => lit5 (S62.rowMajor i)),
    StableHlo.nullary main_c_10 (constantI S62 1 0#1),
    StableHlo.nullary main_c_11 (fun i => lit6 (S61.rowMajor i)),
    StableHlo.nullary main_c_12 (constantI S61 1 0#1),
    StableHlo.nullary main_c_13 (fun i => lit7 (S61.rowMajor i)),
    StableHlo.nullary main_c_14 (constantI S61 1 0#1),
    StableHlo.nullary main_c_15 (fun i => lit8 (S60.rowMajor i)),
    StableHlo.nullary main_c_16 (constantI S60 1 0#1),
    StableHlo.nullary main_c_17 (fun i => lit9 (S60.rowMajor i)),
    StableHlo.nullary main_c_18 (constantI S60 1 0#1),
    StableHlo.nullary main_c_19 (fun i => lit10 (S59.rowMajor i)),
    StableHlo.nullary main_c_20 (constantI S59 1 0#1),
    StableHlo.nullary main_c_21 (fun i => lit11 (S59.rowMajor i)),
    StableHlo.nullary main_c_22 (constantI S59 1 0#1),
    StableHlo.nullary main_c_23 (fun i => lit12 (S58.rowMajor i)),
    StableHlo.nullary main_c_24 (constantI S58 1 0#1),
    StableHlo.nullary main_c_25 (fun i => lit13 (S58.rowMajor i)),
    StableHlo.nullary main_c_26 (constantI S58 1 0#1),
    StableHlo.nullary main_c_27 (fun i => lit14 (S57.rowMajor i)),
    StableHlo.nullary main_c_28 (constantI S57 1 0#1),
    StableHlo.nullary main_c_29 (fun i => lit15 (S57.rowMajor i)),
    StableHlo.nullary main_c_30 (constantI S57 1 0#1),
    StableHlo.nullary main_c_31 (fun i => lit16 (S56.rowMajor i)),
    StableHlo.nullary main_c_32 (constantI S56 1 0#1),
    StableHlo.nullary main_c_33 (fun i => lit17 (S56.rowMajor i)),
    StableHlo.nullary main_c_34 (constantI S56 1 0#1),
    StableHlo.nullary main_c_35 (fun i => lit18 (S55.rowMajor i)),
    StableHlo.nullary main_c_36 (constantI S55 1 0#1),
    StableHlo.nullary main_c_37 (fun i => lit19 (S55.rowMajor i)),
    StableHlo.nullary main_c_38 (constantI S55 1 0#1),
    StableHlo.nullary main_c_39 (fun i => lit20 (S54.rowMajor i)),
    StableHlo.nullary main_c_40 (constantI S54 1 0#1),
    StableHlo.nullary main_c_41 (fun i => lit21 (S54.rowMajor i)),
    StableHlo.nullary main_c_42 (constantI S54 1 0#1),
    StableHlo.nullary main_c_43 (fun i => lit22 (S53.rowMajor i)),
    StableHlo.nullary main_c_44 (constantI S53 1 0#1),
    StableHlo.nullary main_c_45 (fun i => lit23 (S53.rowMajor i)),
    StableHlo.nullary main_c_46 (constantI S53 1 0#1),
    StableHlo.nullary main_c_47 (fun i => lit24 (S52.rowMajor i)),
    StableHlo.nullary main_c_48 (constantI S52 1 0#1),
    StableHlo.nullary main_c_49 (fun i => lit25 (S52.rowMajor i)),
    StableHlo.nullary main_c_50 (constantI S52 1 0#1),
    StableHlo.nullary main_c_51 (fun i => lit26 (S51.rowMajor i)),
    StableHlo.nullary main_c_52 (constantI S51 1 0#1),
    StableHlo.nullary main_c_53 (fun i => lit27 (S51.rowMajor i)),
    StableHlo.nullary main_c_54 (constantI S51 1 0#1),
    StableHlo.nullary main_c_55 (fun i => lit28 (S50.rowMajor i)),
    StableHlo.nullary main_c_56 (constantI S50 1 0#1),
    StableHlo.nullary main_c_57 (fun i => lit29 (S50.rowMajor i)),
    StableHlo.nullary main_c_58 (constantI S50 1 0#1) ]

/-- The operations of window 1, in order. -/
abbrev ops1 : List (HloOp τ sig (Elt F)) :=
  [ StableHlo.nullary main_c_59 (fun i => lit30 (S24.rowMajor i)),
    StableHlo.nullary main_c_60 (constantI S24 1 0#1),
    StableHlo.nullary main_c_61 (fun i => lit31 (S24.rowMajor i)),
    StableHlo.nullary main_c_62 (constantI S24 1 0#1),
    StableHlo.nullary main_c_63 (fun i => lit32 (S23.rowMajor i)),
    StableHlo.nullary main_c_64 (constantI S23 1 0#1),
    StableHlo.nullary main_c_65 (fun i => lit33 (S23.rowMajor i)),
    StableHlo.nullary main_c_66 (constantI S23 1 0#1),
    StableHlo.nullary main_c_67 (fun i => lit34 (S22.rowMajor i)),
    StableHlo.nullary main_c_68 (constantI S22 1 0#1),
    StableHlo.nullary main_c_69 (fun i => lit35 (S22.rowMajor i)),
    StableHlo.nullary main_c_70 (constantI S22 1 0#1),
    StableHlo.nullary main_c_71 (fun i => lit36 (S21.rowMajor i)),
    StableHlo.nullary main_c_72 (constantI S21 1 0#1),
    StableHlo.nullary main_c_73 (fun i => lit37 (S21.rowMajor i)),
    StableHlo.nullary main_c_74 (constantI S21 1 0#1),
    StableHlo.nullary main_c_75 (fun i => lit38 (S20.rowMajor i)),
    StableHlo.nullary main_c_76 (constantI S20 1 0#1),
    StableHlo.nullary main_c_77 (fun i => lit39 (S20.rowMajor i)),
    StableHlo.nullary main_c_78 (constantI S20 1 0#1),
    StableHlo.nullary main_c_79 (fun i => lit40 (S19.rowMajor i)),
    StableHlo.nullary main_c_80 (constantI S19 1 0#1),
    StableHlo.nullary main_c_81 (fun i => lit41 (S19.rowMajor i)),
    StableHlo.nullary main_c_82 (constantI S19 1 0#1),
    StableHlo.nullary main_c_83 (fun i => lit42 (S18.rowMajor i)),
    StableHlo.nullary main_c_84 (constantI S18 1 0#1),
    StableHlo.nullary main_c_85 (fun i => lit43 (S18.rowMajor i)),
    StableHlo.nullary main_c_86 (constantI S18 1 0#1),
    StableHlo.nullary main_c_87 (fun i => lit44 (S17.rowMajor i)),
    StableHlo.nullary main_c_88 (constantI S17 1 0#1),
    StableHlo.nullary main_c_89 (fun i => lit45 (S17.rowMajor i)),
    StableHlo.nullary main_c_90 (constantI S17 1 0#1),
    StableHlo.nullary main_c_91 (fun i => lit46 (S8.rowMajor i)),
    StableHlo.nullary main_c_92 (constantI S8 1 0#1),
    StableHlo.nullary main_c_93 (fun i => lit47 (S8.rowMajor i)),
    StableHlo.nullary main_c_94 (constantI S8 1 0#1),
    StableHlo.nullary main_c_95 (fun i => lit48 (S7.rowMajor i)),
    StableHlo.nullary main_c_96 (constantI S7 1 0#1),
    StableHlo.nullary main_c_97 (fun i => lit49 (S7.rowMajor i)),
    StableHlo.nullary main_c_98 (constantI S7 1 0#1),
    StableHlo.nullary main_c_99 (fun i => lit50 (S6.rowMajor i)),
    StableHlo.nullary main_c_100 (constantI S6 1 0#1),
    StableHlo.nullary main_c_101 (fun i => lit51 (S6.rowMajor i)),
    StableHlo.nullary main_c_102 (constantI S6 1 0#1),
    StableHlo.nullary main_c_103 (fun i => lit52 (S5.rowMajor i)),
    StableHlo.nullary main_c_104 (constantI S5 1 0#1),
    StableHlo.nullary main_c_105 (fun i => lit53 (S5.rowMajor i)),
    StableHlo.nullary main_c_106 (constantI S5 1 0#1),
    StableHlo.nullary main_c_107 (fun i => lit54 (S4.rowMajor i)),
    StableHlo.nullary main_c_108 (constantI S4 1 0#1),
    StableHlo.nullary main_c_109 (fun i => lit55 (S4.rowMajor i)),
    StableHlo.nullary main_c_110 (constantI S4 1 0#1),
    StableHlo.nullary main_c_111 (fun i => lit56 (S3.rowMajor i)),
    StableHlo.nullary main_c_112 (constantI S3 1 0#1),
    StableHlo.nullary main_c_113 (fun i => lit57 (S3.rowMajor i)),
    StableHlo.nullary main_c_114 (constantI S3 1 0#1),
    StableHlo.nullary main_c_115 (fun i => lit58 (S2.rowMajor i)),
    StableHlo.nullary main_c_116 (constantI S2 1 0#1),
    StableHlo.nullary main_c_117 (fun i => lit59 (S2.rowMajor i)),
    StableHlo.nullary main_c_118 (constantI S2 1 0#1) ]

/-- The operations of window 2, in order. -/
abbrev ops2 : List (HloOp τ sig (Elt F)) :=
  [ StableHlo.nullary main_c_119 (constantI S1 32 0#32),
    StableHlo.nullary main_c_120 (constantI S1 1 0#1),
    StableHlo.nullary main_c_121 (constantI S1 32 62#32),
    StableHlo.nullary main_c_122 (constantI S1 1 0#1),
    StableHlo.nullary main_c_123 (fun i => lit60 (S64x64.rowMajor i)),
    StableHlo.nullary main_cst (constant S_ .f32 0x00000000#32),
    StableHlo.unary main_cst main_v0 (broadcastInDim S32x512x64x64 ![] bcast_S_S32x512x64x64 : (⟨S_, .f32⟩ : BufTy).Contents (Elt F) → (⟨S32x512x64x64, .f32⟩ : BufTy).Contents (Elt F)),
    StableHlo.nullary main_c_124 (constantI S_ 32 64#32),
    StableHlo.unary main_c_124 main_v1 (broadcastInDim S64 ![] bcast_S_S64 : (⟨S_, .i32⟩ : BufTy).Contents (Elt F) → (⟨S64, .i32⟩ : BufTy).Contents (Elt F)),
    StableHlo.binary main_c main_v1 main_v2 (addi : (⟨S64, .i32⟩ : BufTy).Contents (Elt F) → (⟨S64, .i32⟩ : BufTy).Contents (Elt F) → (⟨S64, .i32⟩ : BufTy).Contents (Elt F)),
    StableHlo.ternary main_c_0 main_v2 main_c main_v3 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.nullary main_c_125 (constantI S_ 32 64#32),
    StableHlo.unary main_c_125 main_v4 (broadcastInDim S64 ![] bcast_S_S64 : (⟨S_, .i32⟩ : BufTy).Contents (Elt F) → (⟨S64, .i32⟩ : BufTy).Contents (Elt F)),
    StableHlo.binary main_c_1 main_v4 main_v5 (addi : (⟨S64, .i32⟩ : BufTy).Contents (Elt F) → (⟨S64, .i32⟩ : BufTy).Contents (Elt F) → (⟨S64, .i32⟩ : BufTy).Contents (Elt F)),
    StableHlo.ternary main_c_2 main_v5 main_c_1 main_v6 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v3 main_v7 (broadcastInDim S64x1 ![0] bcast_S64_S64x1_0 : (⟨S64, .i32⟩ : BufTy).Contents (Elt F) → (⟨S64x1, .i32⟩ : BufTy).Contents (Elt F)),
    StableHlo.unary main_v6 main_v8 (broadcastInDim S64x1 ![0] bcast_S64_S64x1_0 : (⟨S64, .i32⟩ : BufTy).Contents (Elt F) → (⟨S64x1, .i32⟩ : BufTy).Contents (Elt F)),
    StableHlo.binary main_v7 main_v8 main_v9 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F)),
    StableHlo.ternary main_v0 main_v9 main_arg0 main_v10 ((fun x i u => Host.scatter scatter_S32x512x64x64_S64x2_S32x512x64_01_23_23_1 (fun _ b => b) x i u) : (⟨S32x512x64x64, .f32⟩ : BufTy).Contents (Elt F) → (⟨S64x2, .i32⟩ : BufTy).Contents (Elt F) → (⟨S32x512x64, .f32⟩ : BufTy).Contents (Elt F) → (⟨S32x512x64x64, .f32⟩ : BufTy).Contents (Elt F)),
    StableHlo.nullary main_cst_126 (constant S_ .f32 0xFF800000#32),
    StableHlo.unary main_cst_126 main_v11 (broadcastInDim S_ ![] bcast_S_S_ : (⟨S_, .f32⟩ : BufTy).Contents (Elt F) → (⟨S_, .f32⟩ : BufTy).Contents (Elt F)),
    StableHlo.binary main_arg0 main_v11 main_v12 ((fun x v => Host.reduceWindow FloatOps.maximumf ![1, 1, 2] ![1, 1, 1] ![0, 0, 0] ![0, 0, 0] x v reduceWindows_S32x512x64_S32x512x63_w1s1p0_0_w1s1p0_0_w2s1p0_0 h_S_) : (⟨S32x512x64, .f32⟩ : BufTy).Contents (Elt F) → (⟨S_, .f32⟩ : BufTy).Contents (Elt F) → (⟨S32x512x63, .f32⟩ : BufTy).Contents (Elt F)),
    StableHlo.nullary main_c_127 (constantI S_ 32 64#32),
    StableHlo.unary main_c_127 main_v13 (broadcastInDim S63 ![] bcast_S_S63 : (⟨S_, .i32⟩ : BufTy).Contents (Elt F) → (⟨S63, .i32⟩ : BufTy).Contents (Elt F)),
    StableHlo.binary main_c_3 main_v13 main_v14 (addi : (⟨S63, .i32⟩ : BufTy).Contents (Elt F) → (⟨S63, .i32⟩ : BufTy).Contents (Elt F) → (⟨S63, .i32⟩ : BufTy).Contents (Elt F)),
    StableHlo.ternary main_c_4 main_v14 main_c_3 main_v15 (select : (⟨S63, .i1⟩ : BufTy).Contents (Elt F) → (⟨S63, .i32⟩ : BufTy).Contents (Elt F) → (⟨S63, .i32⟩ : BufTy).Contents (Elt F) → (⟨S63, .i32⟩ : BufTy).Contents (Elt F)),
    StableHlo.nullary main_c_128 (constantI S_ 32 64#32),
    StableHlo.unary main_c_128 main_v16 (broadcastInDim S63 ![] bcast_S_S63 : (⟨S_, .i32⟩ : BufTy).Contents (Elt F) → (⟨S63, .i32⟩ : BufTy).Contents (Elt F)),
    StableHlo.binary main_c_5 main_v16 main_v17 (addi : (⟨S63, .i32⟩ : BufTy).Contents (Elt F) → (⟨S63, .i32⟩ : BufTy).Contents (Elt F) → (⟨S63, .i32⟩ : BufTy).Contents (Elt F)),
    StableHlo.ternary main_c_6 main_v17 main_c_5 main_v18 (select : (⟨S63, .i1⟩ : BufTy).Contents (Elt F) → (⟨S63, .i32⟩ : BufTy).Contents (Elt F) → (⟨S63, .i32⟩ : BufTy).Contents (Elt F) → (⟨S63, .i32⟩ : BufTy).Contents (Elt F)),
    StableHlo.unary main_v15 main_v19 (broadcastInDim S63x1 ![0] bcast_S63_S63x1_0 : (⟨S63, .i32⟩ : BufTy).Contents (Elt F) → (⟨S63x1, .i32⟩ : BufTy).Contents (Elt F)),
    StableHlo.unary main_v18 main_v20 (broadcastInDim S63x1 ![0] bcast_S63_S63x1_0 : (⟨S63, .i32⟩ : BufTy).Contents (Elt F) → (⟨S63x1, .i32⟩ : BufTy).Contents (Elt F)),
    StableHlo.binary main_v19 main_v20 main_v21 ((fun a b => concatenate S63x2 1 [⟨S63x1, a⟩, ⟨S63x1, b⟩] concatenates_S63x1_S63x1_S63x2_d1) : (⟨S63x1, .i32⟩ : BufTy).Contents (Elt F) → (⟨S63x1, .i32⟩ : BufTy).Contents (Elt F) → (⟨S63x2, .i32⟩ : BufTy).Contents (Elt F)),
    StableHlo.ternary main_v10 main_v21 main_v12 main_v22 ((fun x i u => Host.scatter scatter_S32x512x64x64_S63x2_S32x512x63_01_23_23_1 (fun _ b => b) x i u) : (⟨S32x512x64x64, .f32⟩ : BufTy).Contents (Elt F) → (⟨S63x2, .i32⟩ : BufTy).Contents (Elt F) → (⟨S32x512x63, .f32⟩ : BufTy).Contents (Elt F) → (⟨S32x512x64x64, .f32⟩ : BufTy).Contents (Elt F)),
    StableHlo.nullary main_cst_129 (constant S_ .f32 0xFF800000#32),
    StableHlo.unary main_cst_129 main_v23 (broadcastInDim S_ ![] bcast_S_S_ : (⟨S_, .f32⟩ : BufTy).Contents (Elt F) → (⟨S_, .f32⟩ : BufTy).Contents (Elt F)),
    StableHlo.binary main_v12 main_v23 main_v24 ((fun x v => Host.reduceWindow FloatOps.maximumf ![1, 1, 2] ![1, 1, 1] ![0, 0, 0] ![0, 0, 0] x v reduceWindows_S32x512x63_S32x512x62_w1s1p0_0_w1s1p0_0_w2s1p0_0 h_S_) : (⟨S32x512x63, .f32⟩ : BufTy).Contents (Elt F) → (⟨S_, .f32⟩ : BufTy).Contents (Elt F) → (⟨S32x512x62, .f32⟩ : BufTy).Contents (Elt F)),
    StableHlo.nullary main_c_130 (constantI S_ 32 64#32),
    StableHlo.unary main_c_130 main_v25 (broadcastInDim S62 ![] bcast_S_S62 : (⟨S_, .i32⟩ : BufTy).Contents (Elt F) → (⟨S62, .i32⟩ : BufTy).Contents (Elt F)),
    StableHlo.binary main_c_7 main_v25 main_v26 (addi : (⟨S62, .i32⟩ : BufTy).Contents (Elt F) → (⟨S62, .i32⟩ : BufTy).Contents (Elt F) → (⟨S62, .i32⟩ : BufTy).Contents (Elt F)),
    StableHlo.ternary main_c_8 main_v26 main_c_7 main_v27 (select : (⟨S62, .i1⟩ : BufTy).Contents (Elt F) → (⟨S62, .i32⟩ : BufTy).Contents (Elt F) → (⟨S62, .i32⟩ : BufTy).Contents (Elt F) → (⟨S62, .i32⟩ : BufTy).Contents (Elt F)),
    StableHlo.nullary main_c_131 (constantI S_ 32 64#32),
    StableHlo.unary main_c_131 main_v28 (broadcastInDim S62 ![] bcast_S_S62 : (⟨S_, .i32⟩ : BufTy).Contents (Elt F) → (⟨S62, .i32⟩ : BufTy).Contents (Elt F)),
    StableHlo.binary main_c_9 main_v28 main_v29 (addi : (⟨S62, .i32⟩ : BufTy).Contents (Elt F) → (⟨S62, .i32⟩ : BufTy).Contents (Elt F) → (⟨S62, .i32⟩ : BufTy).Contents (Elt F)),
    StableHlo.ternary main_c_10 main_v29 main_c_9 main_v30 (select : (⟨S62, .i1⟩ : BufTy).Contents (Elt F) → (⟨S62, .i32⟩ : BufTy).Contents (Elt F) → (⟨S62, .i32⟩ : BufTy).Contents (Elt F) → (⟨S62, .i32⟩ : BufTy).Contents (Elt F)),
    StableHlo.unary main_v27 main_v31 (broadcastInDim S62x1 ![0] bcast_S62_S62x1_0 : (⟨S62, .i32⟩ : BufTy).Contents (Elt F) → (⟨S62x1, .i32⟩ : BufTy).Contents (Elt F)),
    StableHlo.unary main_v30 main_v32 (broadcastInDim S62x1 ![0] bcast_S62_S62x1_0 : (⟨S62, .i32⟩ : BufTy).Contents (Elt F) → (⟨S62x1, .i32⟩ : BufTy).Contents (Elt F)),
    StableHlo.binary main_v31 main_v32 main_v33 ((fun a b => concatenate S62x2 1 [⟨S62x1, a⟩, ⟨S62x1, b⟩] concatenates_S62x1_S62x1_S62x2_d1) : (⟨S62x1, .i32⟩ : BufTy).Contents (Elt F) → (⟨S62x1, .i32⟩ : BufTy).Contents (Elt F) → (⟨S62x2, .i32⟩ : BufTy).Contents (Elt F)),
    StableHlo.ternary main_v22 main_v33 main_v24 main_v34 ((fun x i u => Host.scatter scatter_S32x512x64x64_S62x2_S32x512x62_01_23_23_1 (fun _ b => b) x i u) : (⟨S32x512x64x64, .f32⟩ : BufTy).Contents (Elt F) → (⟨S62x2, .i32⟩ : BufTy).Contents (Elt F) → (⟨S32x512x62, .f32⟩ : BufTy).Contents (Elt F) → (⟨S32x512x64x64, .f32⟩ : BufTy).Contents (Elt F)),
    StableHlo.nullary main_cst_132 (constant S_ .f32 0xFF800000#32),
    StableHlo.unary main_cst_132 main_v35 (broadcastInDim S_ ![] bcast_S_S_ : (⟨S_, .f32⟩ : BufTy).Contents (Elt F) → (⟨S_, .f32⟩ : BufTy).Contents (Elt F)),
    StableHlo.binary main_v24 main_v35 main_v36 ((fun x v => Host.reduceWindow FloatOps.maximumf ![1, 1, 2] ![1, 1, 1] ![0, 0, 0] ![0, 0, 0] x v reduceWindows_S32x512x62_S32x512x61_w1s1p0_0_w1s1p0_0_w2s1p0_0 h_S_) : (⟨S32x512x62, .f32⟩ : BufTy).Contents (Elt F) → (⟨S_, .f32⟩ : BufTy).Contents (Elt F) → (⟨S32x512x61, .f32⟩ : BufTy).Contents (Elt F)),
    StableHlo.nullary main_c_133 (constantI S_ 32 64#32),
    StableHlo.unary main_c_133 main_v37 (broadcastInDim S61 ![] bcast_S_S61 : (⟨S_, .i32⟩ : BufTy).Contents (Elt F) → (⟨S61, .i32⟩ : BufTy).Contents (Elt F)),
    StableHlo.binary main_c_11 main_v37 main_v38 (addi : (⟨S61, .i32⟩ : BufTy).Contents (Elt F) → (⟨S61, .i32⟩ : BufTy).Contents (Elt F) → (⟨S61, .i32⟩ : BufTy).Contents (Elt F)),
    StableHlo.ternary main_c_12 main_v38 main_c_11 main_v39 (select : (⟨S61, .i1⟩ : BufTy).Contents (Elt F) → (⟨S61, .i32⟩ : BufTy).Contents (Elt F) → (⟨S61, .i32⟩ : BufTy).Contents (Elt F) → (⟨S61, .i32⟩ : BufTy).Contents (Elt F)),
    StableHlo.nullary main_c_134 (constantI S_ 32 64#32),
    StableHlo.unary main_c_134 main_v40 (broadcastInDim S61 ![] bcast_S_S61 : (⟨S_, .i32⟩ : BufTy).Contents (Elt F) → (⟨S61, .i32⟩ : BufTy).Contents (Elt F)),
    StableHlo.binary main_c_13 main_v40 main_v41 (addi : (⟨S61, .i32⟩ : BufTy).Contents (Elt F) → (⟨S61, .i32⟩ : BufTy).Contents (Elt F) → (⟨S61, .i32⟩ : BufTy).Contents (Elt F)),
    StableHlo.ternary main_c_14 main_v41 main_c_13 main_v42 (select : (⟨S61, .i1⟩ : BufTy).Contents (Elt F) → (⟨S61, .i32⟩ : BufTy).Contents (Elt F) → (⟨S61, .i32⟩ : BufTy).Contents (Elt F) → (⟨S61, .i32⟩ : BufTy).Contents (Elt F)) ]

/-- The operations of window 3, in order. -/
abbrev ops3 : List (HloOp τ sig (Elt F)) :=
  [ StableHlo.unary main_v39 main_v43 (broadcastInDim S61x1 ![0] bcast_S61_S61x1_0 : (⟨S61, .i32⟩ : BufTy).Contents (Elt F) → (⟨S61x1, .i32⟩ : BufTy).Contents (Elt F)),
    StableHlo.unary main_v42 main_v44 (broadcastInDim S61x1 ![0] bcast_S61_S61x1_0 : (⟨S61, .i32⟩ : BufTy).Contents (Elt F) → (⟨S61x1, .i32⟩ : BufTy).Contents (Elt F)),
    StableHlo.binary main_v43 main_v44 main_v45 ((fun a b => concatenate S61x2 1 [⟨S61x1, a⟩, ⟨S61x1, b⟩] concatenates_S61x1_S61x1_S61x2_d1) : (⟨S61x1, .i32⟩ : BufTy).Contents (Elt F) → (⟨S61x1, .i32⟩ : BufTy).Contents (Elt F) → (⟨S61x2, .i32⟩ : BufTy).Contents (Elt F)),
    StableHlo.ternary main_v34 main_v45 main_v36 main_v46 ((fun x i u => Host.scatter scatter_S32x512x64x64_S61x2_S32x512x61_01_23_23_1 (fun _ b => b) x i u) : (⟨S32x512x64x64, .f32⟩ : BufTy).Contents (Elt F) → (⟨S61x2, .i32⟩ : BufTy).Contents (Elt F) → (⟨S32x512x61, .f32⟩ : BufTy).Contents (Elt F) → (⟨S32x512x64x64, .f32⟩ : BufTy).Contents (Elt F)),
    StableHlo.nullary main_cst_135 (constant S_ .f32 0xFF800000#32),
    StableHlo.unary main_cst_135 main_v47 (broadcastInDim S_ ![] bcast_S_S_ : (⟨S_, .f32⟩ : BufTy).Contents (Elt F) → (⟨S_, .f32⟩ : BufTy).Contents (Elt F)),
    StableHlo.binary main_v36 main_v47 main_v48 ((fun x v => Host.reduceWindow FloatOps.maximumf ![1, 1, 2] ![1, 1, 1] ![0, 0, 0] ![0, 0, 0] x v reduceWindows_S32x512x61_S32x512x60_w1s1p0_0_w1s1p0_0_w2s1p0_0 h_S_) : (⟨S32x512x61, .f32⟩ : BufTy).Contents (Elt F) → (⟨S_, .f32⟩ : BufTy).Contents (Elt F) → (⟨S32x512x60, .f32⟩ : BufTy).Contents (Elt F)),
    StableHlo.nullary main_c_136 (constantI S_ 32 64#32),
    StableHlo.unary main_c_136 main_v49 (broadcastInDim S60 ![] bcast_S_S60 : (⟨S_, .i32⟩ : BufTy).Contents (Elt F) → (⟨S60, .i32⟩ : BufTy).Contents (Elt F)),
    StableHlo.binary main_c_15 main_v49 main_v50 (addi : (⟨S60, .i32⟩ : BufTy).Contents (Elt F) → (⟨S60, .i32⟩ : BufTy).Contents (Elt F) → (⟨S60, .i32⟩ : BufTy).Contents (Elt F)),
    StableHlo.ternary main_c_16 main_v50 main_c_15 main_v51 (select : (⟨S60, .i1⟩ : BufTy).Contents (Elt F) → (⟨S60, .i32⟩ : BufTy).Contents (Elt F) → (⟨S60, .i32⟩ : BufTy).Contents (Elt F) → (⟨S60, .i32⟩ : BufTy).Contents (Elt F)),
    StableHlo.nullary main_c_137 (constantI S_ 32 64#32),
    StableHlo.unary main_c_137 main_v52 (broadcastInDim S60 ![] bcast_S_S60 : (⟨S_, .i32⟩ : BufTy).Contents (Elt F) → (⟨S60, .i32⟩ : BufTy).Contents (Elt F)),
    StableHlo.binary main_c_17 main_v52 main_v53 (addi : (⟨S60, .i32⟩ : BufTy).Contents (Elt F) → (⟨S60, .i32⟩ : BufTy).Contents (Elt F) → (⟨S60, .i32⟩ : BufTy).Contents (Elt F)),
    StableHlo.ternary main_c_18 main_v53 main_c_17 main_v54 (select : (⟨S60, .i1⟩ : BufTy).Contents (Elt F) → (⟨S60, .i32⟩ : BufTy).Contents (Elt F) → (⟨S60, .i32⟩ : BufTy).Contents (Elt F) → (⟨S60, .i32⟩ : BufTy).Contents (Elt F)),
    StableHlo.unary main_v51 main_v55 (broadcastInDim S60x1 ![0] bcast_S60_S60x1_0 : (⟨S60, .i32⟩ : BufTy).Contents (Elt F) → (⟨S60x1, .i32⟩ : BufTy).Contents (Elt F)),
    StableHlo.unary main_v54 main_v56 (broadcastInDim S60x1 ![0] bcast_S60_S60x1_0 : (⟨S60, .i32⟩ : BufTy).Contents (Elt F) → (⟨S60x1, .i32⟩ : BufTy).Contents (Elt F)),
    StableHlo.binary main_v55 main_v56 main_v57 ((fun a b => concatenate S60x2 1 [⟨S60x1, a⟩, ⟨S60x1, b⟩] concatenates_S60x1_S60x1_S60x2_d1) : (⟨S60x1, .i32⟩ : BufTy).Contents (Elt F) → (⟨S60x1, .i32⟩ : BufTy).Contents (Elt F) → (⟨S60x2, .i32⟩ : BufTy).Contents (Elt F)),
    StableHlo.ternary main_v46 main_v57 main_v48 main_v58 ((fun x i u => Host.scatter scatter_S32x512x64x64_S60x2_S32x512x60_01_23_23_1 (fun _ b => b) x i u) : (⟨S32x512x64x64, .f32⟩ : BufTy).Contents (Elt F) → (⟨S60x2, .i32⟩ : BufTy).Contents (Elt F) → (⟨S32x512x60, .f32⟩ : BufTy).Contents (Elt F) → (⟨S32x512x64x64, .f32⟩ : BufTy).Contents (Elt F)),
    StableHlo.nullary main_cst_138 (constant S_ .f32 0xFF800000#32),
    StableHlo.unary main_cst_138 main_v59 (broadcastInDim S_ ![] bcast_S_S_ : (⟨S_, .f32⟩ : BufTy).Contents (Elt F) → (⟨S_, .f32⟩ : BufTy).Contents (Elt F)),
    StableHlo.binary main_v48 main_v59 main_v60 ((fun x v => Host.reduceWindow FloatOps.maximumf ![1, 1, 2] ![1, 1, 1] ![0, 0, 0] ![0, 0, 0] x v reduceWindows_S32x512x60_S32x512x59_w1s1p0_0_w1s1p0_0_w2s1p0_0 h_S_) : (⟨S32x512x60, .f32⟩ : BufTy).Contents (Elt F) → (⟨S_, .f32⟩ : BufTy).Contents (Elt F) → (⟨S32x512x59, .f32⟩ : BufTy).Contents (Elt F)),
    StableHlo.nullary main_c_139 (constantI S_ 32 64#32),
    StableHlo.unary main_c_139 main_v61 (broadcastInDim S59 ![] bcast_S_S59 : (⟨S_, .i32⟩ : BufTy).Contents (Elt F) → (⟨S59, .i32⟩ : BufTy).Contents (Elt F)),
    StableHlo.binary main_c_19 main_v61 main_v62 (addi : (⟨S59, .i32⟩ : BufTy).Contents (Elt F) → (⟨S59, .i32⟩ : BufTy).Contents (Elt F) → (⟨S59, .i32⟩ : BufTy).Contents (Elt F)),
    StableHlo.ternary main_c_20 main_v62 main_c_19 main_v63 (select : (⟨S59, .i1⟩ : BufTy).Contents (Elt F) → (⟨S59, .i32⟩ : BufTy).Contents (Elt F) → (⟨S59, .i32⟩ : BufTy).Contents (Elt F) → (⟨S59, .i32⟩ : BufTy).Contents (Elt F)),
    StableHlo.nullary main_c_140 (constantI S_ 32 64#32),
    StableHlo.unary main_c_140 main_v64 (broadcastInDim S59 ![] bcast_S_S59 : (⟨S_, .i32⟩ : BufTy).Contents (Elt F) → (⟨S59, .i32⟩ : BufTy).Contents (Elt F)),
    StableHlo.binary main_c_21 main_v64 main_v65 (addi : (⟨S59, .i32⟩ : BufTy).Contents (Elt F) → (⟨S59, .i32⟩ : BufTy).Contents (Elt F) → (⟨S59, .i32⟩ : BufTy).Contents (Elt F)),
    StableHlo.ternary main_c_22 main_v65 main_c_21 main_v66 (select : (⟨S59, .i1⟩ : BufTy).Contents (Elt F) → (⟨S59, .i32⟩ : BufTy).Contents (Elt F) → (⟨S59, .i32⟩ : BufTy).Contents (Elt F) → (⟨S59, .i32⟩ : BufTy).Contents (Elt F)),
    StableHlo.unary main_v63 main_v67 (broadcastInDim S59x1 ![0] bcast_S59_S59x1_0 : (⟨S59, .i32⟩ : BufTy).Contents (Elt F) → (⟨S59x1, .i32⟩ : BufTy).Contents (Elt F)),
    StableHlo.unary main_v66 main_v68 (broadcastInDim S59x1 ![0] bcast_S59_S59x1_0 : (⟨S59, .i32⟩ : BufTy).Contents (Elt F) → (⟨S59x1, .i32⟩ : BufTy).Contents (Elt F)),
    StableHlo.binary main_v67 main_v68 main_v69 ((fun a b => concatenate S59x2 1 [⟨S59x1, a⟩, ⟨S59x1, b⟩] concatenates_S59x1_S59x1_S59x2_d1) : (⟨S59x1, .i32⟩ : BufTy).Contents (Elt F) → (⟨S59x1, .i32⟩ : BufTy).Contents (Elt F) → (⟨S59x2, .i32⟩ : BufTy).Contents (Elt F)),
    StableHlo.ternary main_v58 main_v69 main_v60 main_v70 ((fun x i u => Host.scatter scatter_S32x512x64x64_S59x2_S32x512x59_01_23_23_1 (fun _ b => b) x i u) : (⟨S32x512x64x64, .f32⟩ : BufTy).Contents (Elt F) → (⟨S59x2, .i32⟩ : BufTy).Contents (Elt F) → (⟨S32x512x59, .f32⟩ : BufTy).Contents (Elt F) → (⟨S32x512x64x64, .f32⟩ : BufTy).Contents (Elt F)),
    StableHlo.nullary main_cst_141 (constant S_ .f32 0xFF800000#32),
    StableHlo.unary main_cst_141 main_v71 (broadcastInDim S_ ![] bcast_S_S_ : (⟨S_, .f32⟩ : BufTy).Contents (Elt F) → (⟨S_, .f32⟩ : BufTy).Contents (Elt F)),
    StableHlo.binary main_v60 main_v71 main_v72 ((fun x v => Host.reduceWindow FloatOps.maximumf ![1, 1, 2] ![1, 1, 1] ![0, 0, 0] ![0, 0, 0] x v reduceWindows_S32x512x59_S32x512x58_w1s1p0_0_w1s1p0_0_w2s1p0_0 h_S_) : (⟨S32x512x59, .f32⟩ : BufTy).Contents (Elt F) → (⟨S_, .f32⟩ : BufTy).Contents (Elt F) → (⟨S32x512x58, .f32⟩ : BufTy).Contents (Elt F)),
    StableHlo.nullary main_c_142 (constantI S_ 32 64#32),
    StableHlo.unary main_c_142 main_v73 (broadcastInDim S58 ![] bcast_S_S58 : (⟨S_, .i32⟩ : BufTy).Contents (Elt F) → (⟨S58, .i32⟩ : BufTy).Contents (Elt F)),
    StableHlo.binary main_c_23 main_v73 main_v74 (addi : (⟨S58, .i32⟩ : BufTy).Contents (Elt F) → (⟨S58, .i32⟩ : BufTy).Contents (Elt F) → (⟨S58, .i32⟩ : BufTy).Contents (Elt F)),
    StableHlo.ternary main_c_24 main_v74 main_c_23 main_v75 (select : (⟨S58, .i1⟩ : BufTy).Contents (Elt F) → (⟨S58, .i32⟩ : BufTy).Contents (Elt F) → (⟨S58, .i32⟩ : BufTy).Contents (Elt F) → (⟨S58, .i32⟩ : BufTy).Contents (Elt F)),
    StableHlo.nullary main_c_143 (constantI S_ 32 64#32),
    StableHlo.unary main_c_143 main_v76 (broadcastInDim S58 ![] bcast_S_S58 : (⟨S_, .i32⟩ : BufTy).Contents (Elt F) → (⟨S58, .i32⟩ : BufTy).Contents (Elt F)),
    StableHlo.binary main_c_25 main_v76 main_v77 (addi : (⟨S58, .i32⟩ : BufTy).Contents (Elt F) → (⟨S58, .i32⟩ : BufTy).Contents (Elt F) → (⟨S58, .i32⟩ : BufTy).Contents (Elt F)),
    StableHlo.ternary main_c_26 main_v77 main_c_25 main_v78 (select : (⟨S58, .i1⟩ : BufTy).Contents (Elt F) → (⟨S58, .i32⟩ : BufTy).Contents (Elt F) → (⟨S58, .i32⟩ : BufTy).Contents (Elt F) → (⟨S58, .i32⟩ : BufTy).Contents (Elt F)),
    StableHlo.unary main_v75 main_v79 (broadcastInDim S58x1 ![0] bcast_S58_S58x1_0 : (⟨S58, .i32⟩ : BufTy).Contents (Elt F) → (⟨S58x1, .i32⟩ : BufTy).Contents (Elt F)),
    StableHlo.unary main_v78 main_v80 (broadcastInDim S58x1 ![0] bcast_S58_S58x1_0 : (⟨S58, .i32⟩ : BufTy).Contents (Elt F) → (⟨S58x1, .i32⟩ : BufTy).Contents (Elt F)),
    StableHlo.binary main_v79 main_v80 main_v81 ((fun a b => concatenate S58x2 1 [⟨S58x1, a⟩, ⟨S58x1, b⟩] concatenates_S58x1_S58x1_S58x2_d1) : (⟨S58x1, .i32⟩ : BufTy).Contents (Elt F) → (⟨S58x1, .i32⟩ : BufTy).Contents (Elt F) → (⟨S58x2, .i32⟩ : BufTy).Contents (Elt F)),
    StableHlo.ternary main_v70 main_v81 main_v72 main_v82 ((fun x i u => Host.scatter scatter_S32x512x64x64_S58x2_S32x512x58_01_23_23_1 (fun _ b => b) x i u) : (⟨S32x512x64x64, .f32⟩ : BufTy).Contents (Elt F) → (⟨S58x2, .i32⟩ : BufTy).Contents (Elt F) → (⟨S32x512x58, .f32⟩ : BufTy).Contents (Elt F) → (⟨S32x512x64x64, .f32⟩ : BufTy).Contents (Elt F)),
    StableHlo.nullary main_cst_144 (constant S_ .f32 0xFF800000#32),
    StableHlo.unary main_cst_144 main_v83 (broadcastInDim S_ ![] bcast_S_S_ : (⟨S_, .f32⟩ : BufTy).Contents (Elt F) → (⟨S_, .f32⟩ : BufTy).Contents (Elt F)),
    StableHlo.binary main_v72 main_v83 main_v84 ((fun x v => Host.reduceWindow FloatOps.maximumf ![1, 1, 2] ![1, 1, 1] ![0, 0, 0] ![0, 0, 0] x v reduceWindows_S32x512x58_S32x512x57_w1s1p0_0_w1s1p0_0_w2s1p0_0 h_S_) : (⟨S32x512x58, .f32⟩ : BufTy).Contents (Elt F) → (⟨S_, .f32⟩ : BufTy).Contents (Elt F) → (⟨S32x512x57, .f32⟩ : BufTy).Contents (Elt F)),
    StableHlo.nullary main_c_145 (constantI S_ 32 64#32),
    StableHlo.unary main_c_145 main_v85 (broadcastInDim S57 ![] bcast_S_S57 : (⟨S_, .i32⟩ : BufTy).Contents (Elt F) → (⟨S57, .i32⟩ : BufTy).Contents (Elt F)),
    StableHlo.binary main_c_27 main_v85 main_v86 (addi : (⟨S57, .i32⟩ : BufTy).Contents (Elt F) → (⟨S57, .i32⟩ : BufTy).Contents (Elt F) → (⟨S57, .i32⟩ : BufTy).Contents (Elt F)),
    StableHlo.ternary main_c_28 main_v86 main_c_27 main_v87 (select : (⟨S57, .i1⟩ : BufTy).Contents (Elt F) → (⟨S57, .i32⟩ : BufTy).Contents (Elt F) → (⟨S57, .i32⟩ : BufTy).Contents (Elt F) → (⟨S57, .i32⟩ : BufTy).Contents (Elt F)),
    StableHlo.nullary main_c_146 (constantI S_ 32 64#32),
    StableHlo.unary main_c_146 main_v88 (broadcastInDim S57 ![] bcast_S_S57 : (⟨S_, .i32⟩ : BufTy).Contents (Elt F) → (⟨S57, .i32⟩ : BufTy).Contents (Elt F)),
    StableHlo.binary main_c_29 main_v88 main_v89 (addi : (⟨S57, .i32⟩ : BufTy).Contents (Elt F) → (⟨S57, .i32⟩ : BufTy).Contents (Elt F) → (⟨S57, .i32⟩ : BufTy).Contents (Elt F)),
    StableHlo.ternary main_c_30 main_v89 main_c_29 main_v90 (select : (⟨S57, .i1⟩ : BufTy).Contents (Elt F) → (⟨S57, .i32⟩ : BufTy).Contents (Elt F) → (⟨S57, .i32⟩ : BufTy).Contents (Elt F) → (⟨S57, .i32⟩ : BufTy).Contents (Elt F)) ]

/-- The operations of window 4, in order. -/
abbrev ops4 : List (HloOp τ sig (Elt F)) :=
  [ StableHlo.unary main_v87 main_v91 (broadcastInDim S57x1 ![0] bcast_S57_S57x1_0 : (⟨S57, .i32⟩ : BufTy).Contents (Elt F) → (⟨S57x1, .i32⟩ : BufTy).Contents (Elt F)),
    StableHlo.unary main_v90 main_v92 (broadcastInDim S57x1 ![0] bcast_S57_S57x1_0 : (⟨S57, .i32⟩ : BufTy).Contents (Elt F) → (⟨S57x1, .i32⟩ : BufTy).Contents (Elt F)),
    StableHlo.binary main_v91 main_v92 main_v93 ((fun a b => concatenate S57x2 1 [⟨S57x1, a⟩, ⟨S57x1, b⟩] concatenates_S57x1_S57x1_S57x2_d1) : (⟨S57x1, .i32⟩ : BufTy).Contents (Elt F) → (⟨S57x1, .i32⟩ : BufTy).Contents (Elt F) → (⟨S57x2, .i32⟩ : BufTy).Contents (Elt F)),
    StableHlo.ternary main_v82 main_v93 main_v84 main_v94 ((fun x i u => Host.scatter scatter_S32x512x64x64_S57x2_S32x512x57_01_23_23_1 (fun _ b => b) x i u) : (⟨S32x512x64x64, .f32⟩ : BufTy).Contents (Elt F) → (⟨S57x2, .i32⟩ : BufTy).Contents (Elt F) → (⟨S32x512x57, .f32⟩ : BufTy).Contents (Elt F) → (⟨S32x512x64x64, .f32⟩ : BufTy).Contents (Elt F)),
    StableHlo.nullary main_cst_147 (constant S_ .f32 0xFF800000#32),
    StableHlo.unary main_cst_147 main_v95 (broadcastInDim S_ ![] bcast_S_S_ : (⟨S_, .f32⟩ : BufTy).Contents (Elt F) → (⟨S_, .f32⟩ : BufTy).Contents (Elt F)),
    StableHlo.binary main_v84 main_v95 main_v96 ((fun x v => Host.reduceWindow FloatOps.maximumf ![1, 1, 2] ![1, 1, 1] ![0, 0, 0] ![0, 0, 0] x v reduceWindows_S32x512x57_S32x512x56_w1s1p0_0_w1s1p0_0_w2s1p0_0 h_S_) : (⟨S32x512x57, .f32⟩ : BufTy).Contents (Elt F) → (⟨S_, .f32⟩ : BufTy).Contents (Elt F) → (⟨S32x512x56, .f32⟩ : BufTy).Contents (Elt F)),
    StableHlo.nullary main_c_148 (constantI S_ 32 64#32),
    StableHlo.unary main_c_148 main_v97 (broadcastInDim S56 ![] bcast_S_S56 : (⟨S_, .i32⟩ : BufTy).Contents (Elt F) → (⟨S56, .i32⟩ : BufTy).Contents (Elt F)),
    StableHlo.binary main_c_31 main_v97 main_v98 (addi : (⟨S56, .i32⟩ : BufTy).Contents (Elt F) → (⟨S56, .i32⟩ : BufTy).Contents (Elt F) → (⟨S56, .i32⟩ : BufTy).Contents (Elt F)),
    StableHlo.ternary main_c_32 main_v98 main_c_31 main_v99 (select : (⟨S56, .i1⟩ : BufTy).Contents (Elt F) → (⟨S56, .i32⟩ : BufTy).Contents (Elt F) → (⟨S56, .i32⟩ : BufTy).Contents (Elt F) → (⟨S56, .i32⟩ : BufTy).Contents (Elt F)),
    StableHlo.nullary main_c_149 (constantI S_ 32 64#32),
    StableHlo.unary main_c_149 main_v100 (broadcastInDim S56 ![] bcast_S_S56 : (⟨S_, .i32⟩ : BufTy).Contents (Elt F) → (⟨S56, .i32⟩ : BufTy).Contents (Elt F)),
    StableHlo.binary main_c_33 main_v100 main_v101 (addi : (⟨S56, .i32⟩ : BufTy).Contents (Elt F) → (⟨S56, .i32⟩ : BufTy).Contents (Elt F) → (⟨S56, .i32⟩ : BufTy).Contents (Elt F)),
    StableHlo.ternary main_c_34 main_v101 main_c_33 main_v102 (select : (⟨S56, .i1⟩ : BufTy).Contents (Elt F) → (⟨S56, .i32⟩ : BufTy).Contents (Elt F) → (⟨S56, .i32⟩ : BufTy).Contents (Elt F) → (⟨S56, .i32⟩ : BufTy).Contents (Elt F)),
    StableHlo.unary main_v99 main_v103 (broadcastInDim S56x1 ![0] bcast_S56_S56x1_0 : (⟨S56, .i32⟩ : BufTy).Contents (Elt F) → (⟨S56x1, .i32⟩ : BufTy).Contents (Elt F)),
    StableHlo.unary main_v102 main_v104 (broadcastInDim S56x1 ![0] bcast_S56_S56x1_0 : (⟨S56, .i32⟩ : BufTy).Contents (Elt F) → (⟨S56x1, .i32⟩ : BufTy).Contents (Elt F)),
    StableHlo.binary main_v103 main_v104 main_v105 ((fun a b => concatenate S56x2 1 [⟨S56x1, a⟩, ⟨S56x1, b⟩] concatenates_S56x1_S56x1_S56x2_d1) : (⟨S56x1, .i32⟩ : BufTy).Contents (Elt F) → (⟨S56x1, .i32⟩ : BufTy).Contents (Elt F) → (⟨S56x2, .i32⟩ : BufTy).Contents (Elt F)),
    StableHlo.ternary main_v94 main_v105 main_v96 main_v106 ((fun x i u => Host.scatter scatter_S32x512x64x64_S56x2_S32x512x56_01_23_23_1 (fun _ b => b) x i u) : (⟨S32x512x64x64, .f32⟩ : BufTy).Contents (Elt F) → (⟨S56x2, .i32⟩ : BufTy).Contents (Elt F) → (⟨S32x512x56, .f32⟩ : BufTy).Contents (Elt F) → (⟨S32x512x64x64, .f32⟩ : BufTy).Contents (Elt F)),
    StableHlo.nullary main_cst_150 (constant S_ .f32 0xFF800000#32),
    StableHlo.unary main_cst_150 main_v107 (broadcastInDim S_ ![] bcast_S_S_ : (⟨S_, .f32⟩ : BufTy).Contents (Elt F) → (⟨S_, .f32⟩ : BufTy).Contents (Elt F)),
    StableHlo.binary main_v96 main_v107 main_v108 ((fun x v => Host.reduceWindow FloatOps.maximumf ![1, 1, 2] ![1, 1, 1] ![0, 0, 0] ![0, 0, 0] x v reduceWindows_S32x512x56_S32x512x55_w1s1p0_0_w1s1p0_0_w2s1p0_0 h_S_) : (⟨S32x512x56, .f32⟩ : BufTy).Contents (Elt F) → (⟨S_, .f32⟩ : BufTy).Contents (Elt F) → (⟨S32x512x55, .f32⟩ : BufTy).Contents (Elt F)),
    StableHlo.nullary main_c_151 (constantI S_ 32 64#32),
    StableHlo.unary main_c_151 main_v109 (broadcastInDim S55 ![] bcast_S_S55 : (⟨S_, .i32⟩ : BufTy).Contents (Elt F) → (⟨S55, .i32⟩ : BufTy).Contents (Elt F)),
    StableHlo.binary main_c_35 main_v109 main_v110 (addi : (⟨S55, .i32⟩ : BufTy).Contents (Elt F) → (⟨S55, .i32⟩ : BufTy).Contents (Elt F) → (⟨S55, .i32⟩ : BufTy).Contents (Elt F)),
    StableHlo.ternary main_c_36 main_v110 main_c_35 main_v111 (select : (⟨S55, .i1⟩ : BufTy).Contents (Elt F) → (⟨S55, .i32⟩ : BufTy).Contents (Elt F) → (⟨S55, .i32⟩ : BufTy).Contents (Elt F) → (⟨S55, .i32⟩ : BufTy).Contents (Elt F)),
    StableHlo.nullary main_c_152 (constantI S_ 32 64#32),
    StableHlo.unary main_c_152 main_v112 (broadcastInDim S55 ![] bcast_S_S55 : (⟨S_, .i32⟩ : BufTy).Contents (Elt F) → (⟨S55, .i32⟩ : BufTy).Contents (Elt F)),
    StableHlo.binary main_c_37 main_v112 main_v113 (addi : (⟨S55, .i32⟩ : BufTy).Contents (Elt F) → (⟨S55, .i32⟩ : BufTy).Contents (Elt F) → (⟨S55, .i32⟩ : BufTy).Contents (Elt F)),
    StableHlo.ternary main_c_38 main_v113 main_c_37 main_v114 (select : (⟨S55, .i1⟩ : BufTy).Contents (Elt F) → (⟨S55, .i32⟩ : BufTy).Contents (Elt F) → (⟨S55, .i32⟩ : BufTy).Contents (Elt F) → (⟨S55, .i32⟩ : BufTy).Contents (Elt F)),
    StableHlo.unary main_v111 main_v115 (broadcastInDim S55x1 ![0] bcast_S55_S55x1_0 : (⟨S55, .i32⟩ : BufTy).Contents (Elt F) → (⟨S55x1, .i32⟩ : BufTy).Contents (Elt F)),
    StableHlo.unary main_v114 main_v116 (broadcastInDim S55x1 ![0] bcast_S55_S55x1_0 : (⟨S55, .i32⟩ : BufTy).Contents (Elt F) → (⟨S55x1, .i32⟩ : BufTy).Contents (Elt F)),
    StableHlo.binary main_v115 main_v116 main_v117 ((fun a b => concatenate S55x2 1 [⟨S55x1, a⟩, ⟨S55x1, b⟩] concatenates_S55x1_S55x1_S55x2_d1) : (⟨S55x1, .i32⟩ : BufTy).Contents (Elt F) → (⟨S55x1, .i32⟩ : BufTy).Contents (Elt F) → (⟨S55x2, .i32⟩ : BufTy).Contents (Elt F)),
    StableHlo.ternary main_v106 main_v117 main_v108 main_v118 ((fun x i u => Host.scatter scatter_S32x512x64x64_S55x2_S32x512x55_01_23_23_1 (fun _ b => b) x i u) : (⟨S32x512x64x64, .f32⟩ : BufTy).Contents (Elt F) → (⟨S55x2, .i32⟩ : BufTy).Contents (Elt F) → (⟨S32x512x55, .f32⟩ : BufTy).Contents (Elt F) → (⟨S32x512x64x64, .f32⟩ : BufTy).Contents (Elt F)),
    StableHlo.nullary main_cst_153 (constant S_ .f32 0xFF800000#32),
    StableHlo.unary main_cst_153 main_v119 (broadcastInDim S_ ![] bcast_S_S_ : (⟨S_, .f32⟩ : BufTy).Contents (Elt F) → (⟨S_, .f32⟩ : BufTy).Contents (Elt F)),
    StableHlo.binary main_v108 main_v119 main_v120 ((fun x v => Host.reduceWindow FloatOps.maximumf ![1, 1, 2] ![1, 1, 1] ![0, 0, 0] ![0, 0, 0] x v reduceWindows_S32x512x55_S32x512x54_w1s1p0_0_w1s1p0_0_w2s1p0_0 h_S_) : (⟨S32x512x55, .f32⟩ : BufTy).Contents (Elt F) → (⟨S_, .f32⟩ : BufTy).Contents (Elt F) → (⟨S32x512x54, .f32⟩ : BufTy).Contents (Elt F)),
    StableHlo.nullary main_c_154 (constantI S_ 32 64#32),
    StableHlo.unary main_c_154 main_v121 (broadcastInDim S54 ![] bcast_S_S54 : (⟨S_, .i32⟩ : BufTy).Contents (Elt F) → (⟨S54, .i32⟩ : BufTy).Contents (Elt F)),
    StableHlo.binary main_c_39 main_v121 main_v122 (addi : (⟨S54, .i32⟩ : BufTy).Contents (Elt F) → (⟨S54, .i32⟩ : BufTy).Contents (Elt F) → (⟨S54, .i32⟩ : BufTy).Contents (Elt F)),
    StableHlo.ternary main_c_40 main_v122 main_c_39 main_v123 (select : (⟨S54, .i1⟩ : BufTy).Contents (Elt F) → (⟨S54, .i32⟩ : BufTy).Contents (Elt F) → (⟨S54, .i32⟩ : BufTy).Contents (Elt F) → (⟨S54, .i32⟩ : BufTy).Contents (Elt F)),
    StableHlo.nullary main_c_155 (constantI S_ 32 64#32),
    StableHlo.unary main_c_155 main_v124 (broadcastInDim S54 ![] bcast_S_S54 : (⟨S_, .i32⟩ : BufTy).Contents (Elt F) → (⟨S54, .i32⟩ : BufTy).Contents (Elt F)),
    StableHlo.binary main_c_41 main_v124 main_v125 (addi : (⟨S54, .i32⟩ : BufTy).Contents (Elt F) → (⟨S54, .i32⟩ : BufTy).Contents (Elt F) → (⟨S54, .i32⟩ : BufTy).Contents (Elt F)),
    StableHlo.ternary main_c_42 main_v125 main_c_41 main_v126 (select : (⟨S54, .i1⟩ : BufTy).Contents (Elt F) → (⟨S54, .i32⟩ : BufTy).Contents (Elt F) → (⟨S54, .i32⟩ : BufTy).Contents (Elt F) → (⟨S54, .i32⟩ : BufTy).Contents (Elt F)),
    StableHlo.unary main_v123 main_v127 (broadcastInDim S54x1 ![0] bcast_S54_S54x1_0 : (⟨S54, .i32⟩ : BufTy).Contents (Elt F) → (⟨S54x1, .i32⟩ : BufTy).Contents (Elt F)),
    StableHlo.unary main_v126 main_v128 (broadcastInDim S54x1 ![0] bcast_S54_S54x1_0 : (⟨S54, .i32⟩ : BufTy).Contents (Elt F) → (⟨S54x1, .i32⟩ : BufTy).Contents (Elt F)),
    StableHlo.binary main_v127 main_v128 main_v129 ((fun a b => concatenate S54x2 1 [⟨S54x1, a⟩, ⟨S54x1, b⟩] concatenates_S54x1_S54x1_S54x2_d1) : (⟨S54x1, .i32⟩ : BufTy).Contents (Elt F) → (⟨S54x1, .i32⟩ : BufTy).Contents (Elt F) → (⟨S54x2, .i32⟩ : BufTy).Contents (Elt F)),
    StableHlo.ternary main_v118 main_v129 main_v120 main_v130 ((fun x i u => Host.scatter scatter_S32x512x64x64_S54x2_S32x512x54_01_23_23_1 (fun _ b => b) x i u) : (⟨S32x512x64x64, .f32⟩ : BufTy).Contents (Elt F) → (⟨S54x2, .i32⟩ : BufTy).Contents (Elt F) → (⟨S32x512x54, .f32⟩ : BufTy).Contents (Elt F) → (⟨S32x512x64x64, .f32⟩ : BufTy).Contents (Elt F)),
    StableHlo.nullary main_cst_156 (constant S_ .f32 0xFF800000#32),
    StableHlo.unary main_cst_156 main_v131 (broadcastInDim S_ ![] bcast_S_S_ : (⟨S_, .f32⟩ : BufTy).Contents (Elt F) → (⟨S_, .f32⟩ : BufTy).Contents (Elt F)),
    StableHlo.binary main_v120 main_v131 main_v132 ((fun x v => Host.reduceWindow FloatOps.maximumf ![1, 1, 2] ![1, 1, 1] ![0, 0, 0] ![0, 0, 0] x v reduceWindows_S32x512x54_S32x512x53_w1s1p0_0_w1s1p0_0_w2s1p0_0 h_S_) : (⟨S32x512x54, .f32⟩ : BufTy).Contents (Elt F) → (⟨S_, .f32⟩ : BufTy).Contents (Elt F) → (⟨S32x512x53, .f32⟩ : BufTy).Contents (Elt F)),
    StableHlo.nullary main_c_157 (constantI S_ 32 64#32),
    StableHlo.unary main_c_157 main_v133 (broadcastInDim S53 ![] bcast_S_S53 : (⟨S_, .i32⟩ : BufTy).Contents (Elt F) → (⟨S53, .i32⟩ : BufTy).Contents (Elt F)),
    StableHlo.binary main_c_43 main_v133 main_v134 (addi : (⟨S53, .i32⟩ : BufTy).Contents (Elt F) → (⟨S53, .i32⟩ : BufTy).Contents (Elt F) → (⟨S53, .i32⟩ : BufTy).Contents (Elt F)),
    StableHlo.ternary main_c_44 main_v134 main_c_43 main_v135 (select : (⟨S53, .i1⟩ : BufTy).Contents (Elt F) → (⟨S53, .i32⟩ : BufTy).Contents (Elt F) → (⟨S53, .i32⟩ : BufTy).Contents (Elt F) → (⟨S53, .i32⟩ : BufTy).Contents (Elt F)),
    StableHlo.nullary main_c_158 (constantI S_ 32 64#32),
    StableHlo.unary main_c_158 main_v136 (broadcastInDim S53 ![] bcast_S_S53 : (⟨S_, .i32⟩ : BufTy).Contents (Elt F) → (⟨S53, .i32⟩ : BufTy).Contents (Elt F)),
    StableHlo.binary main_c_45 main_v136 main_v137 (addi : (⟨S53, .i32⟩ : BufTy).Contents (Elt F) → (⟨S53, .i32⟩ : BufTy).Contents (Elt F) → (⟨S53, .i32⟩ : BufTy).Contents (Elt F)),
    StableHlo.ternary main_c_46 main_v137 main_c_45 main_v138 (select : (⟨S53, .i1⟩ : BufTy).Contents (Elt F) → (⟨S53, .i32⟩ : BufTy).Contents (Elt F) → (⟨S53, .i32⟩ : BufTy).Contents (Elt F) → (⟨S53, .i32⟩ : BufTy).Contents (Elt F)) ]

/-- The operations of window 5, in order. -/
abbrev ops5 : List (HloOp τ sig (Elt F)) :=
  [ StableHlo.unary main_v135 main_v139 (broadcastInDim S53x1 ![0] bcast_S53_S53x1_0 : (⟨S53, .i32⟩ : BufTy).Contents (Elt F) → (⟨S53x1, .i32⟩ : BufTy).Contents (Elt F)),
    StableHlo.unary main_v138 main_v140 (broadcastInDim S53x1 ![0] bcast_S53_S53x1_0 : (⟨S53, .i32⟩ : BufTy).Contents (Elt F) → (⟨S53x1, .i32⟩ : BufTy).Contents (Elt F)),
    StableHlo.binary main_v139 main_v140 main_v141 ((fun a b => concatenate S53x2 1 [⟨S53x1, a⟩, ⟨S53x1, b⟩] concatenates_S53x1_S53x1_S53x2_d1) : (⟨S53x1, .i32⟩ : BufTy).Contents (Elt F) → (⟨S53x1, .i32⟩ : BufTy).Contents (Elt F) → (⟨S53x2, .i32⟩ : BufTy).Contents (Elt F)),
    StableHlo.ternary main_v130 main_v141 main_v132 main_v142 ((fun x i u => Host.scatter scatter_S32x512x64x64_S53x2_S32x512x53_01_23_23_1 (fun _ b => b) x i u) : (⟨S32x512x64x64, .f32⟩ : BufTy).Contents (Elt F) → (⟨S53x2, .i32⟩ : BufTy).Contents (Elt F) → (⟨S32x512x53, .f32⟩ : BufTy).Contents (Elt F) → (⟨S32x512x64x64, .f32⟩ : BufTy).Contents (Elt F)),
    StableHlo.nullary main_cst_159 (constant S_ .f32 0xFF800000#32),
    StableHlo.unary main_cst_159 main_v143 (broadcastInDim S_ ![] bcast_S_S_ : (⟨S_, .f32⟩ : BufTy).Contents (Elt F) → (⟨S_, .f32⟩ : BufTy).Contents (Elt F)),
    StableHlo.binary main_v132 main_v143 main_v144 ((fun x v => Host.reduceWindow FloatOps.maximumf ![1, 1, 2] ![1, 1, 1] ![0, 0, 0] ![0, 0, 0] x v reduceWindows_S32x512x53_S32x512x52_w1s1p0_0_w1s1p0_0_w2s1p0_0 h_S_) : (⟨S32x512x53, .f32⟩ : BufTy).Contents (Elt F) → (⟨S_, .f32⟩ : BufTy).Contents (Elt F) → (⟨S32x512x52, .f32⟩ : BufTy).Contents (Elt F)),
    StableHlo.nullary main_c_160 (constantI S_ 32 64#32),
    StableHlo.unary main_c_160 main_v145 (broadcastInDim S52 ![] bcast_S_S52 : (⟨S_, .i32⟩ : BufTy).Contents (Elt F) → (⟨S52, .i32⟩ : BufTy).Contents (Elt F)),
    StableHlo.binary main_c_47 main_v145 main_v146 (addi : (⟨S52, .i32⟩ : BufTy).Contents (Elt F) → (⟨S52, .i32⟩ : BufTy).Contents (Elt F) → (⟨S52, .i32⟩ : BufTy).Contents (Elt F)),
    StableHlo.ternary main_c_48 main_v146 main_c_47 main_v147 (select : (⟨S52, .i1⟩ : BufTy).Contents (Elt F) → (⟨S52, .i32⟩ : BufTy).Contents (Elt F) → (⟨S52, .i32⟩ : BufTy).Contents (Elt F) → (⟨S52, .i32⟩ : BufTy).Contents (Elt F)),
    StableHlo.nullary main_c_161 (constantI S_ 32 64#32),
    StableHlo.unary main_c_161 main_v148 (broadcastInDim S52 ![] bcast_S_S52 : (⟨S_, .i32⟩ : BufTy).Contents (Elt F) → (⟨S52, .i32⟩ : BufTy).Contents (Elt F)),
    StableHlo.binary main_c_49 main_v148 main_v149 (addi : (⟨S52, .i32⟩ : BufTy).Contents (Elt F) → (⟨S52, .i32⟩ : BufTy).Contents (Elt F) → (⟨S52, .i32⟩ : BufTy).Contents (Elt F)),
    StableHlo.ternary main_c_50 main_v149 main_c_49 main_v150 (select : (⟨S52, .i1⟩ : BufTy).Contents (Elt F) → (⟨S52, .i32⟩ : BufTy).Contents (Elt F) → (⟨S52, .i32⟩ : BufTy).Contents (Elt F) → (⟨S52, .i32⟩ : BufTy).Contents (Elt F)),
    StableHlo.unary main_v147 main_v151 (broadcastInDim S52x1 ![0] bcast_S52_S52x1_0 : (⟨S52, .i32⟩ : BufTy).Contents (Elt F) → (⟨S52x1, .i32⟩ : BufTy).Contents (Elt F)),
    StableHlo.unary main_v150 main_v152 (broadcastInDim S52x1 ![0] bcast_S52_S52x1_0 : (⟨S52, .i32⟩ : BufTy).Contents (Elt F) → (⟨S52x1, .i32⟩ : BufTy).Contents (Elt F)),
    StableHlo.binary main_v151 main_v152 main_v153 ((fun a b => concatenate S52x2 1 [⟨S52x1, a⟩, ⟨S52x1, b⟩] concatenates_S52x1_S52x1_S52x2_d1) : (⟨S52x1, .i32⟩ : BufTy).Contents (Elt F) → (⟨S52x1, .i32⟩ : BufTy).Contents (Elt F) → (⟨S52x2, .i32⟩ : BufTy).Contents (Elt F)),
    StableHlo.ternary main_v142 main_v153 main_v144 main_v154 ((fun x i u => Host.scatter scatter_S32x512x64x64_S52x2_S32x512x52_01_23_23_1 (fun _ b => b) x i u) : (⟨S32x512x64x64, .f32⟩ : BufTy).Contents (Elt F) → (⟨S52x2, .i32⟩ : BufTy).Contents (Elt F) → (⟨S32x512x52, .f32⟩ : BufTy).Contents (Elt F) → (⟨S32x512x64x64, .f32⟩ : BufTy).Contents (Elt F)),
    StableHlo.nullary main_cst_162 (constant S_ .f32 0xFF800000#32),
    StableHlo.unary main_cst_162 main_v155 (broadcastInDim S_ ![] bcast_S_S_ : (⟨S_, .f32⟩ : BufTy).Contents (Elt F) → (⟨S_, .f32⟩ : BufTy).Contents (Elt F)),
    StableHlo.binary main_v144 main_v155 main_v156 ((fun x v => Host.reduceWindow FloatOps.maximumf ![1, 1, 2] ![1, 1, 1] ![0, 0, 0] ![0, 0, 0] x v reduceWindows_S32x512x52_S32x512x51_w1s1p0_0_w1s1p0_0_w2s1p0_0 h_S_) : (⟨S32x512x52, .f32⟩ : BufTy).Contents (Elt F) → (⟨S_, .f32⟩ : BufTy).Contents (Elt F) → (⟨S32x512x51, .f32⟩ : BufTy).Contents (Elt F)),
    StableHlo.nullary main_c_163 (constantI S_ 32 64#32),
    StableHlo.unary main_c_163 main_v157 (broadcastInDim S51 ![] bcast_S_S51 : (⟨S_, .i32⟩ : BufTy).Contents (Elt F) → (⟨S51, .i32⟩ : BufTy).Contents (Elt F)),
    StableHlo.binary main_c_51 main_v157 main_v158 (addi : (⟨S51, .i32⟩ : BufTy).Contents (Elt F) → (⟨S51, .i32⟩ : BufTy).Contents (Elt F) → (⟨S51, .i32⟩ : BufTy).Contents (Elt F)),
    StableHlo.ternary main_c_52 main_v158 main_c_51 main_v159 (select : (⟨S51, .i1⟩ : BufTy).Contents (Elt F) → (⟨S51, .i32⟩ : BufTy).Contents (Elt F) → (⟨S51, .i32⟩ : BufTy).Contents (Elt F) → (⟨S51, .i32⟩ : BufTy).Contents (Elt F)),
    StableHlo.nullary main_c_164 (constantI S_ 32 64#32),
    StableHlo.unary main_c_164 main_v160 (broadcastInDim S51 ![] bcast_S_S51 : (⟨S_, .i32⟩ : BufTy).Contents (Elt F) → (⟨S51, .i32⟩ : BufTy).Contents (Elt F)),
    StableHlo.binary main_c_53 main_v160 main_v161 (addi : (⟨S51, .i32⟩ : BufTy).Contents (Elt F) → (⟨S51, .i32⟩ : BufTy).Contents (Elt F) → (⟨S51, .i32⟩ : BufTy).Contents (Elt F)),
    StableHlo.ternary main_c_54 main_v161 main_c_53 main_v162 (select : (⟨S51, .i1⟩ : BufTy).Contents (Elt F) → (⟨S51, .i32⟩ : BufTy).Contents (Elt F) → (⟨S51, .i32⟩ : BufTy).Contents (Elt F) → (⟨S51, .i32⟩ : BufTy).Contents (Elt F)),
    StableHlo.unary main_v159 main_v163 (broadcastInDim S51x1 ![0] bcast_S51_S51x1_0 : (⟨S51, .i32⟩ : BufTy).Contents (Elt F) → (⟨S51x1, .i32⟩ : BufTy).Contents (Elt F)),
    StableHlo.unary main_v162 main_v164 (broadcastInDim S51x1 ![0] bcast_S51_S51x1_0 : (⟨S51, .i32⟩ : BufTy).Contents (Elt F) → (⟨S51x1, .i32⟩ : BufTy).Contents (Elt F)),
    StableHlo.binary main_v163 main_v164 main_v165 ((fun a b => concatenate S51x2 1 [⟨S51x1, a⟩, ⟨S51x1, b⟩] concatenates_S51x1_S51x1_S51x2_d1) : (⟨S51x1, .i32⟩ : BufTy).Contents (Elt F) → (⟨S51x1, .i32⟩ : BufTy).Contents (Elt F) → (⟨S51x2, .i32⟩ : BufTy).Contents (Elt F)),
    StableHlo.ternary main_v154 main_v165 main_v156 main_v166 ((fun x i u => Host.scatter scatter_S32x512x64x64_S51x2_S32x512x51_01_23_23_1 (fun _ b => b) x i u) : (⟨S32x512x64x64, .f32⟩ : BufTy).Contents (Elt F) → (⟨S51x2, .i32⟩ : BufTy).Contents (Elt F) → (⟨S32x512x51, .f32⟩ : BufTy).Contents (Elt F) → (⟨S32x512x64x64, .f32⟩ : BufTy).Contents (Elt F)),
    StableHlo.nullary main_cst_165 (constant S_ .f32 0xFF800000#32),
    StableHlo.unary main_cst_165 main_v167 (broadcastInDim S_ ![] bcast_S_S_ : (⟨S_, .f32⟩ : BufTy).Contents (Elt F) → (⟨S_, .f32⟩ : BufTy).Contents (Elt F)),
    StableHlo.binary main_v156 main_v167 main_v168 ((fun x v => Host.reduceWindow FloatOps.maximumf ![1, 1, 2] ![1, 1, 1] ![0, 0, 0] ![0, 0, 0] x v reduceWindows_S32x512x51_S32x512x50_w1s1p0_0_w1s1p0_0_w2s1p0_0 h_S_) : (⟨S32x512x51, .f32⟩ : BufTy).Contents (Elt F) → (⟨S_, .f32⟩ : BufTy).Contents (Elt F) → (⟨S32x512x50, .f32⟩ : BufTy).Contents (Elt F)),
    StableHlo.nullary main_c_166 (constantI S_ 32 64#32),
    StableHlo.unary main_c_166 main_v169 (broadcastInDim S50 ![] bcast_S_S50 : (⟨S_, .i32⟩ : BufTy).Contents (Elt F) → (⟨S50, .i32⟩ : BufTy).Contents (Elt F)),
    StableHlo.binary main_c_55 main_v169 main_v170 (addi : (⟨S50, .i32⟩ : BufTy).Contents (Elt F) → (⟨S50, .i32⟩ : BufTy).Contents (Elt F) → (⟨S50, .i32⟩ : BufTy).Contents (Elt F)),
    StableHlo.ternary main_c_56 main_v170 main_c_55 main_v171 (select : (⟨S50, .i1⟩ : BufTy).Contents (Elt F) → (⟨S50, .i32⟩ : BufTy).Contents (Elt F) → (⟨S50, .i32⟩ : BufTy).Contents (Elt F) → (⟨S50, .i32⟩ : BufTy).Contents (Elt F)),
    StableHlo.nullary main_c_167 (constantI S_ 32 64#32),
    StableHlo.unary main_c_167 main_v172 (broadcastInDim S50 ![] bcast_S_S50 : (⟨S_, .i32⟩ : BufTy).Contents (Elt F) → (⟨S50, .i32⟩ : BufTy).Contents (Elt F)),
    StableHlo.binary main_c_57 main_v172 main_v173 (addi : (⟨S50, .i32⟩ : BufTy).Contents (Elt F) → (⟨S50, .i32⟩ : BufTy).Contents (Elt F) → (⟨S50, .i32⟩ : BufTy).Contents (Elt F)),
    StableHlo.ternary main_c_58 main_v173 main_c_57 main_v174 (select : (⟨S50, .i1⟩ : BufTy).Contents (Elt F) → (⟨S50, .i32⟩ : BufTy).Contents (Elt F) → (⟨S50, .i32⟩ : BufTy).Contents (Elt F) → (⟨S50, .i32⟩ : BufTy).Contents (Elt F)),
    StableHlo.unary main_v171 main_v175 (broadcastInDim S50x1 ![0] bcast_S50_S50x1_0 : (⟨S50, .i32⟩ : BufTy).Contents (Elt F) → (⟨S50x1, .i32⟩ : BufTy).Contents (Elt F)),
    StableHlo.unary main_v174 main_v176 (broadcastInDim S50x1 ![0] bcast_S50_S50x1_0 : (⟨S50, .i32⟩ : BufTy).Contents (Elt F) → (⟨S50x1, .i32⟩ : BufTy).Contents (Elt F)),
    StableHlo.binary main_v175 main_v176 main_v177 ((fun a b => concatenate S50x2 1 [⟨S50x1, a⟩, ⟨S50x1, b⟩] concatenates_S50x1_S50x1_S50x2_d1) : (⟨S50x1, .i32⟩ : BufTy).Contents (Elt F) → (⟨S50x1, .i32⟩ : BufTy).Contents (Elt F) → (⟨S50x2, .i32⟩ : BufTy).Contents (Elt F)),
    StableHlo.ternary main_v166 main_v177 main_v168 main_v178 ((fun x i u => Host.scatter scatter_S32x512x64x64_S50x2_S32x512x50_01_23_23_1 (fun _ b => b) x i u) : (⟨S32x512x64x64, .f32⟩ : BufTy).Contents (Elt F) → (⟨S50x2, .i32⟩ : BufTy).Contents (Elt F) → (⟨S32x512x50, .f32⟩ : BufTy).Contents (Elt F) → (⟨S32x512x64x64, .f32⟩ : BufTy).Contents (Elt F)),
    StableHlo.nullary main_cst_168 (constant S_ .f32 0xFF800000#32),
    StableHlo.unary main_cst_168 main_v179 (broadcastInDim S_ ![] bcast_S_S_ : (⟨S_, .f32⟩ : BufTy).Contents (Elt F) → (⟨S_, .f32⟩ : BufTy).Contents (Elt F)),
    StableHlo.binary main_v168 main_v179 main_v180 ((fun x v => Host.reduceWindow FloatOps.maximumf ![1, 1, 3] ![1, 1, 2] ![0, 0, 0] ![0, 0, 0] x v reduceWindows_S32x512x50_S32x512x24_w1s1p0_0_w1s1p0_0_w3s2p0_0 h_S_) : (⟨S32x512x50, .f32⟩ : BufTy).Contents (Elt F) → (⟨S_, .f32⟩ : BufTy).Contents (Elt F) → (⟨S32x512x24, .f32⟩ : BufTy).Contents (Elt F)),
    StableHlo.nullary main_c_169 (constantI S_ 32 64#32),
    StableHlo.unary main_c_169 main_v181 (broadcastInDim S24 ![] bcast_S_S24 : (⟨S_, .i32⟩ : BufTy).Contents (Elt F) → (⟨S24, .i32⟩ : BufTy).Contents (Elt F)),
    StableHlo.binary main_c_59 main_v181 main_v182 (addi : (⟨S24, .i32⟩ : BufTy).Contents (Elt F) → (⟨S24, .i32⟩ : BufTy).Contents (Elt F) → (⟨S24, .i32⟩ : BufTy).Contents (Elt F)),
    StableHlo.ternary main_c_60 main_v182 main_c_59 main_v183 (select : (⟨S24, .i1⟩ : BufTy).Contents (Elt F) → (⟨S24, .i32⟩ : BufTy).Contents (Elt F) → (⟨S24, .i32⟩ : BufTy).Contents (Elt F) → (⟨S24, .i32⟩ : BufTy).Contents (Elt F)),
    StableHlo.nullary main_c_170 (constantI S_ 32 64#32),
    StableHlo.unary main_c_170 main_v184 (broadcastInDim S24 ![] bcast_S_S24 : (⟨S_, .i32⟩ : BufTy).Contents (Elt F) → (⟨S24, .i32⟩ : BufTy).Contents (Elt F)),
    StableHlo.binary main_c_61 main_v184 main_v185 (addi : (⟨S24, .i32⟩ : BufTy).Contents (Elt F) → (⟨S24, .i32⟩ : BufTy).Contents (Elt F) → (⟨S24, .i32⟩ : BufTy).Contents (Elt F)),
    StableHlo.ternary main_c_62 main_v185 main_c_61 main_v186 (select : (⟨S24, .i1⟩ : BufTy).Contents (Elt F) → (⟨S24, .i32⟩ : BufTy).Contents (Elt F) → (⟨S24, .i32⟩ : BufTy).Contents (Elt F) → (⟨S24, .i32⟩ : BufTy).Contents (Elt F)) ]

/-- The operations of window 6, in order. -/
abbrev ops6 : List (HloOp τ sig (Elt F)) :=
  [ StableHlo.unary main_v183 main_v187 (broadcastInDim S24x1 ![0] bcast_S24_S24x1_0 : (⟨S24, .i32⟩ : BufTy).Contents (Elt F) → (⟨S24x1, .i32⟩ : BufTy).Contents (Elt F)),
    StableHlo.unary main_v186 main_v188 (broadcastInDim S24x1 ![0] bcast_S24_S24x1_0 : (⟨S24, .i32⟩ : BufTy).Contents (Elt F) → (⟨S24x1, .i32⟩ : BufTy).Contents (Elt F)),
    StableHlo.binary main_v187 main_v188 main_v189 ((fun a b => concatenate S24x2 1 [⟨S24x1, a⟩, ⟨S24x1, b⟩] concatenates_S24x1_S24x1_S24x2_d1) : (⟨S24x1, .i32⟩ : BufTy).Contents (Elt F) → (⟨S24x1, .i32⟩ : BufTy).Contents (Elt F) → (⟨S24x2, .i32⟩ : BufTy).Contents (Elt F)),
    StableHlo.ternary main_v178 main_v189 main_v180 main_v190 ((fun x i u => Host.scatter scatter_S32x512x64x64_S24x2_S32x512x24_01_23_23_1 (fun _ b => b) x i u) : (⟨S32x512x64x64, .f32⟩ : BufTy).Contents (Elt F) → (⟨S24x2, .i32⟩ : BufTy).Contents (Elt F) → (⟨S32x512x24, .f32⟩ : BufTy).Contents (Elt F) → (⟨S32x512x64x64, .f32⟩ : BufTy).Contents (Elt F)),
    StableHlo.nullary main_cst_171 (constant S_ .f32 0xFF800000#32),
    StableHlo.unary main_cst_171 main_v191 (broadcastInDim S_ ![] bcast_S_S_ : (⟨S_, .f32⟩ : BufTy).Contents (Elt F) → (⟨S_, .f32⟩ : BufTy).Contents (Elt F)),
    StableHlo.binary main_v180 main_v191 main_v192 ((fun x v => Host.reduceWindow FloatOps.maximumf ![1, 1, 2] ![1, 1, 1] ![0, 0, 0] ![0, 0, 0] x v reduceWindows_S32x512x24_S32x512x23_w1s1p0_0_w1s1p0_0_w2s1p0_0 h_S_) : (⟨S32x512x24, .f32⟩ : BufTy).Contents (Elt F) → (⟨S_, .f32⟩ : BufTy).Contents (Elt F) → (⟨S32x512x23, .f32⟩ : BufTy).Contents (Elt F)),
    StableHlo.nullary main_c_172 (constantI S_ 32 64#32),
    StableHlo.unary main_c_172 main_v193 (broadcastInDim S23 ![] bcast_S_S23 : (⟨S_, .i32⟩ : BufTy).Contents (Elt F) → (⟨S23, .i32⟩ : BufTy).Contents (Elt F)),
    StableHlo.binary main_c_63 main_v193 main_v194 (addi : (⟨S23, .i32⟩ : BufTy).Contents (Elt F) → (⟨S23, .i32⟩ : BufTy).Contents (Elt F) → (⟨S23, .i32⟩ : BufTy).Contents (Elt F)),
    StableHlo.ternary main_c_64 main_v194 main_c_63 main_v195 (select : (⟨S23, .i1⟩ : BufTy).Contents (Elt F) → (⟨S23, .i32⟩ : BufTy).Contents (Elt F) → (⟨S23, .i32⟩ : BufTy).Contents (Elt F) → (⟨S23, .i32⟩ : BufTy).Contents (Elt F)),
    StableHlo.nullary main_c_173 (constantI S_ 32 64#32),
    StableHlo.unary main_c_173 main_v196 (broadcastInDim S23 ![] bcast_S_S23 : (⟨S_, .i32⟩ : BufTy).Contents (Elt F) → (⟨S23, .i32⟩ : BufTy).Contents (Elt F)),
    StableHlo.binary main_c_65 main_v196 main_v197 (addi : (⟨S23, .i32⟩ : BufTy).Contents (Elt F) → (⟨S23, .i32⟩ : BufTy).Contents (Elt F) → (⟨S23, .i32⟩ : BufTy).Contents (Elt F)),
    StableHlo.ternary main_c_66 main_v197 main_c_65 main_v198 (select : (⟨S23, .i1⟩ : BufTy).Contents (Elt F) → (⟨S23, .i32⟩ : BufTy).Contents (Elt F) → (⟨S23, .i32⟩ : BufTy).Contents (Elt F) → (⟨S23, .i32⟩ : BufTy).Contents (Elt F)),
    StableHlo.unary main_v195 main_v199 (broadcastInDim S23x1 ![0] bcast_S23_S23x1_0 : (⟨S23, .i32⟩ : BufTy).Contents (Elt F) → (⟨S23x1, .i32⟩ : BufTy).Contents (Elt F)),
    StableHlo.unary main_v198 main_v200 (broadcastInDim S23x1 ![0] bcast_S23_S23x1_0 : (⟨S23, .i32⟩ : BufTy).Contents (Elt F) → (⟨S23x1, .i32⟩ : BufTy).Contents (Elt F)),
    StableHlo.binary main_v199 main_v200 main_v201 ((fun a b => concatenate S23x2 1 [⟨S23x1, a⟩, ⟨S23x1, b⟩] concatenates_S23x1_S23x1_S23x2_d1) : (⟨S23x1, .i32⟩ : BufTy).Contents (Elt F) → (⟨S23x1, .i32⟩ : BufTy).Contents (Elt F) → (⟨S23x2, .i32⟩ : BufTy).Contents (Elt F)),
    StableHlo.ternary main_v190 main_v201 main_v192 main_v202 ((fun x i u => Host.scatter scatter_S32x512x64x64_S23x2_S32x512x23_01_23_23_1 (fun _ b => b) x i u) : (⟨S32x512x64x64, .f32⟩ : BufTy).Contents (Elt F) → (⟨S23x2, .i32⟩ : BufTy).Contents (Elt F) → (⟨S32x512x23, .f32⟩ : BufTy).Contents (Elt F) → (⟨S32x512x64x64, .f32⟩ : BufTy).Contents (Elt F)),
    StableHlo.nullary main_cst_174 (constant S_ .f32 0xFF800000#32),
    StableHlo.unary main_cst_174 main_v203 (broadcastInDim S_ ![] bcast_S_S_ : (⟨S_, .f32⟩ : BufTy).Contents (Elt F) → (⟨S_, .f32⟩ : BufTy).Contents (Elt F)),
    StableHlo.binary main_v192 main_v203 main_v204 ((fun x v => Host.reduceWindow FloatOps.maximumf ![1, 1, 2] ![1, 1, 1] ![0, 0, 0] ![0, 0, 0] x v reduceWindows_S32x512x23_S32x512x22_w1s1p0_0_w1s1p0_0_w2s1p0_0 h_S_) : (⟨S32x512x23, .f32⟩ : BufTy).Contents (Elt F) → (⟨S_, .f32⟩ : BufTy).Contents (Elt F) → (⟨S32x512x22, .f32⟩ : BufTy).Contents (Elt F)),
    StableHlo.nullary main_c_175 (constantI S_ 32 64#32),
    StableHlo.unary main_c_175 main_v205 (broadcastInDim S22 ![] bcast_S_S22 : (⟨S_, .i32⟩ : BufTy).Contents (Elt F) → (⟨S22, .i32⟩ : BufTy).Contents (Elt F)),
    StableHlo.binary main_c_67 main_v205 main_v206 (addi : (⟨S22, .i32⟩ : BufTy).Contents (Elt F) → (⟨S22, .i32⟩ : BufTy).Contents (Elt F) → (⟨S22, .i32⟩ : BufTy).Contents (Elt F)),
    StableHlo.ternary main_c_68 main_v206 main_c_67 main_v207 (select : (⟨S22, .i1⟩ : BufTy).Contents (Elt F) → (⟨S22, .i32⟩ : BufTy).Contents (Elt F) → (⟨S22, .i32⟩ : BufTy).Contents (Elt F) → (⟨S22, .i32⟩ : BufTy).Contents (Elt F)),
    StableHlo.nullary main_c_176 (constantI S_ 32 64#32),
    StableHlo.unary main_c_176 main_v208 (broadcastInDim S22 ![] bcast_S_S22 : (⟨S_, .i32⟩ : BufTy).Contents (Elt F) → (⟨S22, .i32⟩ : BufTy).Contents (Elt F)),
    StableHlo.binary main_c_69 main_v208 main_v209 (addi : (⟨S22, .i32⟩ : BufTy).Contents (Elt F) → (⟨S22, .i32⟩ : BufTy).Contents (Elt F) → (⟨S22, .i32⟩ : BufTy).Contents (Elt F)),
    StableHlo.ternary main_c_70 main_v209 main_c_69 main_v210 (select : (⟨S22, .i1⟩ : BufTy).Contents (Elt F) → (⟨S22, .i32⟩ : BufTy).Contents (Elt F) → (⟨S22, .i32⟩ : BufTy).Contents (Elt F) → (⟨S22, .i32⟩ : BufTy).Contents (Elt F)),
    StableHlo.unary main_v207 main_v211 (broadcastInDim S22x1 ![0] bcast_S22_S22x1_0 : (⟨S22, .i32⟩ : BufTy).Contents (Elt F) → (⟨S22x1, .i32⟩ : BufTy).Contents (Elt F)),
    StableHlo.unary main_v210 main_v212 (broadcastInDim S22x1 ![0] bcast_S22_S22x1_0 : (⟨S22, .i32⟩ : BufTy).Contents (Elt F) → (⟨S22x1, .i32⟩ : BufTy).Contents (Elt F)),
    StableHlo.binary main_v211 main_v212 main_v213 ((fun a b => concatenate S22x2 1 [⟨S22x1, a⟩, ⟨S22x1, b⟩] concatenates_S22x1_S22x1_S22x2_d1) : (⟨S22x1, .i32⟩ : BufTy).Contents (Elt F) → (⟨S22x1, .i32⟩ : BufTy).Contents (Elt F) → (⟨S22x2, .i32⟩ : BufTy).Contents (Elt F)),
    StableHlo.ternary main_v202 main_v213 main_v204 main_v214 ((fun x i u => Host.scatter scatter_S32x512x64x64_S22x2_S32x512x22_01_23_23_1 (fun _ b => b) x i u) : (⟨S32x512x64x64, .f32⟩ : BufTy).Contents (Elt F) → (⟨S22x2, .i32⟩ : BufTy).Contents (Elt F) → (⟨S32x512x22, .f32⟩ : BufTy).Contents (Elt F) → (⟨S32x512x64x64, .f32⟩ : BufTy).Contents (Elt F)),
    StableHlo.nullary main_cst_177 (constant S_ .f32 0xFF800000#32),
    StableHlo.unary main_cst_177 main_v215 (broadcastInDim S_ ![] bcast_S_S_ : (⟨S_, .f32⟩ : BufTy).Contents (Elt F) → (⟨S_, .f32⟩ : BufTy).Contents (Elt F)),
    StableHlo.binary main_v204 main_v215 main_v216 ((fun x v => Host.reduceWindow FloatOps.maximumf ![1, 1, 2] ![1, 1, 1] ![0, 0, 0] ![0, 0, 0] x v reduceWindows_S32x512x22_S32x512x21_w1s1p0_0_w1s1p0_0_w2s1p0_0 h_S_) : (⟨S32x512x22, .f32⟩ : BufTy).Contents (Elt F) → (⟨S_, .f32⟩ : BufTy).Contents (Elt F) → (⟨S32x512x21, .f32⟩ : BufTy).Contents (Elt F)),
    StableHlo.nullary main_c_178 (constantI S_ 32 64#32),
    StableHlo.unary main_c_178 main_v217 (broadcastInDim S21 ![] bcast_S_S21 : (⟨S_, .i32⟩ : BufTy).Contents (Elt F) → (⟨S21, .i32⟩ : BufTy).Contents (Elt F)),
    StableHlo.binary main_c_71 main_v217 main_v218 (addi : (⟨S21, .i32⟩ : BufTy).Contents (Elt F) → (⟨S21, .i32⟩ : BufTy).Contents (Elt F) → (⟨S21, .i32⟩ : BufTy).Contents (Elt F)),
    StableHlo.ternary main_c_72 main_v218 main_c_71 main_v219 (select : (⟨S21, .i1⟩ : BufTy).Contents (Elt F) → (⟨S21, .i32⟩ : BufTy).Contents (Elt F) → (⟨S21, .i32⟩ : BufTy).Contents (Elt F) → (⟨S21, .i32⟩ : BufTy).Contents (Elt F)),
    StableHlo.nullary main_c_179 (constantI S_ 32 64#32),
    StableHlo.unary main_c_179 main_v220 (broadcastInDim S21 ![] bcast_S_S21 : (⟨S_, .i32⟩ : BufTy).Contents (Elt F) → (⟨S21, .i32⟩ : BufTy).Contents (Elt F)),
    StableHlo.binary main_c_73 main_v220 main_v221 (addi : (⟨S21, .i32⟩ : BufTy).Contents (Elt F) → (⟨S21, .i32⟩ : BufTy).Contents (Elt F) → (⟨S21, .i32⟩ : BufTy).Contents (Elt F)),
    StableHlo.ternary main_c_74 main_v221 main_c_73 main_v222 (select : (⟨S21, .i1⟩ : BufTy).Contents (Elt F) → (⟨S21, .i32⟩ : BufTy).Contents (Elt F) → (⟨S21, .i32⟩ : BufTy).Contents (Elt F) → (⟨S21, .i32⟩ : BufTy).Contents (Elt F)),
    StableHlo.unary main_v219 main_v223 (broadcastInDim S21x1 ![0] bcast_S21_S21x1_0 : (⟨S21, .i32⟩ : BufTy).Contents (Elt F) → (⟨S21x1, .i32⟩ : BufTy).Contents (Elt F)),
    StableHlo.unary main_v222 main_v224 (broadcastInDim S21x1 ![0] bcast_S21_S21x1_0 : (⟨S21, .i32⟩ : BufTy).Contents (Elt F) → (⟨S21x1, .i32⟩ : BufTy).Contents (Elt F)),
    StableHlo.binary main_v223 main_v224 main_v225 ((fun a b => concatenate S21x2 1 [⟨S21x1, a⟩, ⟨S21x1, b⟩] concatenates_S21x1_S21x1_S21x2_d1) : (⟨S21x1, .i32⟩ : BufTy).Contents (Elt F) → (⟨S21x1, .i32⟩ : BufTy).Contents (Elt F) → (⟨S21x2, .i32⟩ : BufTy).Contents (Elt F)),
    StableHlo.ternary main_v214 main_v225 main_v216 main_v226 ((fun x i u => Host.scatter scatter_S32x512x64x64_S21x2_S32x512x21_01_23_23_1 (fun _ b => b) x i u) : (⟨S32x512x64x64, .f32⟩ : BufTy).Contents (Elt F) → (⟨S21x2, .i32⟩ : BufTy).Contents (Elt F) → (⟨S32x512x21, .f32⟩ : BufTy).Contents (Elt F) → (⟨S32x512x64x64, .f32⟩ : BufTy).Contents (Elt F)),
    StableHlo.nullary main_cst_180 (constant S_ .f32 0xFF800000#32),
    StableHlo.unary main_cst_180 main_v227 (broadcastInDim S_ ![] bcast_S_S_ : (⟨S_, .f32⟩ : BufTy).Contents (Elt F) → (⟨S_, .f32⟩ : BufTy).Contents (Elt F)),
    StableHlo.binary main_v216 main_v227 main_v228 ((fun x v => Host.reduceWindow FloatOps.maximumf ![1, 1, 2] ![1, 1, 1] ![0, 0, 0] ![0, 0, 0] x v reduceWindows_S32x512x21_S32x512x20_w1s1p0_0_w1s1p0_0_w2s1p0_0 h_S_) : (⟨S32x512x21, .f32⟩ : BufTy).Contents (Elt F) → (⟨S_, .f32⟩ : BufTy).Contents (Elt F) → (⟨S32x512x20, .f32⟩ : BufTy).Contents (Elt F)),
    StableHlo.nullary main_c_181 (constantI S_ 32 64#32),
    StableHlo.unary main_c_181 main_v229 (broadcastInDim S20 ![] bcast_S_S20 : (⟨S_, .i32⟩ : BufTy).Contents (Elt F) → (⟨S20, .i32⟩ : BufTy).Contents (Elt F)),
    StableHlo.binary main_c_75 main_v229 main_v230 (addi : (⟨S20, .i32⟩ : BufTy).Contents (Elt F) → (⟨S20, .i32⟩ : BufTy).Contents (Elt F) → (⟨S20, .i32⟩ : BufTy).Contents (Elt F)),
    StableHlo.ternary main_c_76 main_v230 main_c_75 main_v231 (select : (⟨S20, .i1⟩ : BufTy).Contents (Elt F) → (⟨S20, .i32⟩ : BufTy).Contents (Elt F) → (⟨S20, .i32⟩ : BufTy).Contents (Elt F) → (⟨S20, .i32⟩ : BufTy).Contents (Elt F)),
    StableHlo.nullary main_c_182 (constantI S_ 32 64#32),
    StableHlo.unary main_c_182 main_v232 (broadcastInDim S20 ![] bcast_S_S20 : (⟨S_, .i32⟩ : BufTy).Contents (Elt F) → (⟨S20, .i32⟩ : BufTy).Contents (Elt F)),
    StableHlo.binary main_c_77 main_v232 main_v233 (addi : (⟨S20, .i32⟩ : BufTy).Contents (Elt F) → (⟨S20, .i32⟩ : BufTy).Contents (Elt F) → (⟨S20, .i32⟩ : BufTy).Contents (Elt F)),
    StableHlo.ternary main_c_78 main_v233 main_c_77 main_v234 (select : (⟨S20, .i1⟩ : BufTy).Contents (Elt F) → (⟨S20, .i32⟩ : BufTy).Contents (Elt F) → (⟨S20, .i32⟩ : BufTy).Contents (Elt F) → (⟨S20, .i32⟩ : BufTy).Contents (Elt F)) ]

/-- The operations of window 7, in order. -/
abbrev ops7 : List (HloOp τ sig (Elt F)) :=
  [ StableHlo.unary main_v231 main_v235 (broadcastInDim S20x1 ![0] bcast_S20_S20x1_0 : (⟨S20, .i32⟩ : BufTy).Contents (Elt F) → (⟨S20x1, .i32⟩ : BufTy).Contents (Elt F)),
    StableHlo.unary main_v234 main_v236 (broadcastInDim S20x1 ![0] bcast_S20_S20x1_0 : (⟨S20, .i32⟩ : BufTy).Contents (Elt F) → (⟨S20x1, .i32⟩ : BufTy).Contents (Elt F)),
    StableHlo.binary main_v235 main_v236 main_v237 ((fun a b => concatenate S20x2 1 [⟨S20x1, a⟩, ⟨S20x1, b⟩] concatenates_S20x1_S20x1_S20x2_d1) : (⟨S20x1, .i32⟩ : BufTy).Contents (Elt F) → (⟨S20x1, .i32⟩ : BufTy).Contents (Elt F) → (⟨S20x2, .i32⟩ : BufTy).Contents (Elt F)),
    StableHlo.ternary main_v226 main_v237 main_v228 main_v238 ((fun x i u => Host.scatter scatter_S32x512x64x64_S20x2_S32x512x20_01_23_23_1 (fun _ b => b) x i u) : (⟨S32x512x64x64, .f32⟩ : BufTy).Contents (Elt F) → (⟨S20x2, .i32⟩ : BufTy).Contents (Elt F) → (⟨S32x512x20, .f32⟩ : BufTy).Contents (Elt F) → (⟨S32x512x64x64, .f32⟩ : BufTy).Contents (Elt F)),
    StableHlo.nullary main_cst_183 (constant S_ .f32 0xFF800000#32),
    StableHlo.unary main_cst_183 main_v239 (broadcastInDim S_ ![] bcast_S_S_ : (⟨S_, .f32⟩ : BufTy).Contents (Elt F) → (⟨S_, .f32⟩ : BufTy).Contents (Elt F)),
    StableHlo.binary main_v228 main_v239 main_v240 ((fun x v => Host.reduceWindow FloatOps.maximumf ![1, 1, 2] ![1, 1, 1] ![0, 0, 0] ![0, 0, 0] x v reduceWindows_S32x512x20_S32x512x19_w1s1p0_0_w1s1p0_0_w2s1p0_0 h_S_) : (⟨S32x512x20, .f32⟩ : BufTy).Contents (Elt F) → (⟨S_, .f32⟩ : BufTy).Contents (Elt F) → (⟨S32x512x19, .f32⟩ : BufTy).Contents (Elt F)),
    StableHlo.nullary main_c_184 (constantI S_ 32 64#32),
    StableHlo.unary main_c_184 main_v241 (broadcastInDim S19 ![] bcast_S_S19 : (⟨S_, .i32⟩ : BufTy).Contents (Elt F) → (⟨S19, .i32⟩ : BufTy).Contents (Elt F)),
    StableHlo.binary main_c_79 main_v241 main_v242 (addi : (⟨S19, .i32⟩ : BufTy).Contents (Elt F) → (⟨S19, .i32⟩ : BufTy).Contents (Elt F) → (⟨S19, .i32⟩ : BufTy).Contents (Elt F)),
    StableHlo.ternary main_c_80 main_v242 main_c_79 main_v243 (select : (⟨S19, .i1⟩ : BufTy).Contents (Elt F) → (⟨S19, .i32⟩ : BufTy).Contents (Elt F) → (⟨S19, .i32⟩ : BufTy).Contents (Elt F) → (⟨S19, .i32⟩ : BufTy).Contents (Elt F)),
    StableHlo.nullary main_c_185 (constantI S_ 32 64#32),
    StableHlo.unary main_c_185 main_v244 (broadcastInDim S19 ![] bcast_S_S19 : (⟨S_, .i32⟩ : BufTy).Contents (Elt F) → (⟨S19, .i32⟩ : BufTy).Contents (Elt F)),
    StableHlo.binary main_c_81 main_v244 main_v245 (addi : (⟨S19, .i32⟩ : BufTy).Contents (Elt F) → (⟨S19, .i32⟩ : BufTy).Contents (Elt F) → (⟨S19, .i32⟩ : BufTy).Contents (Elt F)),
    StableHlo.ternary main_c_82 main_v245 main_c_81 main_v246 (select : (⟨S19, .i1⟩ : BufTy).Contents (Elt F) → (⟨S19, .i32⟩ : BufTy).Contents (Elt F) → (⟨S19, .i32⟩ : BufTy).Contents (Elt F) → (⟨S19, .i32⟩ : BufTy).Contents (Elt F)),
    StableHlo.unary main_v243 main_v247 (broadcastInDim S19x1 ![0] bcast_S19_S19x1_0 : (⟨S19, .i32⟩ : BufTy).Contents (Elt F) → (⟨S19x1, .i32⟩ : BufTy).Contents (Elt F)),
    StableHlo.unary main_v246 main_v248 (broadcastInDim S19x1 ![0] bcast_S19_S19x1_0 : (⟨S19, .i32⟩ : BufTy).Contents (Elt F) → (⟨S19x1, .i32⟩ : BufTy).Contents (Elt F)),
    StableHlo.binary main_v247 main_v248 main_v249 ((fun a b => concatenate S19x2 1 [⟨S19x1, a⟩, ⟨S19x1, b⟩] concatenates_S19x1_S19x1_S19x2_d1) : (⟨S19x1, .i32⟩ : BufTy).Contents (Elt F) → (⟨S19x1, .i32⟩ : BufTy).Contents (Elt F) → (⟨S19x2, .i32⟩ : BufTy).Contents (Elt F)),
    StableHlo.ternary main_v238 main_v249 main_v240 main_v250 ((fun x i u => Host.scatter scatter_S32x512x64x64_S19x2_S32x512x19_01_23_23_1 (fun _ b => b) x i u) : (⟨S32x512x64x64, .f32⟩ : BufTy).Contents (Elt F) → (⟨S19x2, .i32⟩ : BufTy).Contents (Elt F) → (⟨S32x512x19, .f32⟩ : BufTy).Contents (Elt F) → (⟨S32x512x64x64, .f32⟩ : BufTy).Contents (Elt F)),
    StableHlo.nullary main_cst_186 (constant S_ .f32 0xFF800000#32),
    StableHlo.unary main_cst_186 main_v251 (broadcastInDim S_ ![] bcast_S_S_ : (⟨S_, .f32⟩ : BufTy).Contents (Elt F) → (⟨S_, .f32⟩ : BufTy).Contents (Elt F)),
    StableHlo.binary main_v240 main_v251 main_v252 ((fun x v => Host.reduceWindow FloatOps.maximumf ![1, 1, 2] ![1, 1, 1] ![0, 0, 0] ![0, 0, 0] x v reduceWindows_S32x512x19_S32x512x18_w1s1p0_0_w1s1p0_0_w2s1p0_0 h_S_) : (⟨S32x512x19, .f32⟩ : BufTy).Contents (Elt F) → (⟨S_, .f32⟩ : BufTy).Contents (Elt F) → (⟨S32x512x18, .f32⟩ : BufTy).Contents (Elt F)),
    StableHlo.nullary main_c_187 (constantI S_ 32 64#32),
    StableHlo.unary main_c_187 main_v253 (broadcastInDim S18 ![] bcast_S_S18 : (⟨S_, .i32⟩ : BufTy).Contents (Elt F) → (⟨S18, .i32⟩ : BufTy).Contents (Elt F)),
    StableHlo.binary main_c_83 main_v253 main_v254 (addi : (⟨S18, .i32⟩ : BufTy).Contents (Elt F) → (⟨S18, .i32⟩ : BufTy).Contents (Elt F) → (⟨S18, .i32⟩ : BufTy).Contents (Elt F)),
    StableHlo.ternary main_c_84 main_v254 main_c_83 main_v255 (select : (⟨S18, .i1⟩ : BufTy).Contents (Elt F) → (⟨S18, .i32⟩ : BufTy).Contents (Elt F) → (⟨S18, .i32⟩ : BufTy).Contents (Elt F) → (⟨S18, .i32⟩ : BufTy).Contents (Elt F)),
    StableHlo.nullary main_c_188 (constantI S_ 32 64#32),
    StableHlo.unary main_c_188 main_v256 (broadcastInDim S18 ![] bcast_S_S18 : (⟨S_, .i32⟩ : BufTy).Contents (Elt F) → (⟨S18, .i32⟩ : BufTy).Contents (Elt F)),
    StableHlo.binary main_c_85 main_v256 main_v257 (addi : (⟨S18, .i32⟩ : BufTy).Contents (Elt F) → (⟨S18, .i32⟩ : BufTy).Contents (Elt F) → (⟨S18, .i32⟩ : BufTy).Contents (Elt F)),
    StableHlo.ternary main_c_86 main_v257 main_c_85 main_v258 (select : (⟨S18, .i1⟩ : BufTy).Contents (Elt F) → (⟨S18, .i32⟩ : BufTy).Contents (Elt F) → (⟨S18, .i32⟩ : BufTy).Contents (Elt F) → (⟨S18, .i32⟩ : BufTy).Contents (Elt F)),
    StableHlo.unary main_v255 main_v259 (broadcastInDim S18x1 ![0] bcast_S18_S18x1_0 : (⟨S18, .i32⟩ : BufTy).Contents (Elt F) → (⟨S18x1, .i32⟩ : BufTy).Contents (Elt F)),
    StableHlo.unary main_v258 main_v260 (broadcastInDim S18x1 ![0] bcast_S18_S18x1_0 : (⟨S18, .i32⟩ : BufTy).Contents (Elt F) → (⟨S18x1, .i32⟩ : BufTy).Contents (Elt F)),
    StableHlo.binary main_v259 main_v260 main_v261 ((fun a b => concatenate S18x2 1 [⟨S18x1, a⟩, ⟨S18x1, b⟩] concatenates_S18x1_S18x1_S18x2_d1) : (⟨S18x1, .i32⟩ : BufTy).Contents (Elt F) → (⟨S18x1, .i32⟩ : BufTy).Contents (Elt F) → (⟨S18x2, .i32⟩ : BufTy).Contents (Elt F)),
    StableHlo.ternary main_v250 main_v261 main_v252 main_v262 ((fun x i u => Host.scatter scatter_S32x512x64x64_S18x2_S32x512x18_01_23_23_1 (fun _ b => b) x i u) : (⟨S32x512x64x64, .f32⟩ : BufTy).Contents (Elt F) → (⟨S18x2, .i32⟩ : BufTy).Contents (Elt F) → (⟨S32x512x18, .f32⟩ : BufTy).Contents (Elt F) → (⟨S32x512x64x64, .f32⟩ : BufTy).Contents (Elt F)),
    StableHlo.nullary main_cst_189 (constant S_ .f32 0xFF800000#32),
    StableHlo.unary main_cst_189 main_v263 (broadcastInDim S_ ![] bcast_S_S_ : (⟨S_, .f32⟩ : BufTy).Contents (Elt F) → (⟨S_, .f32⟩ : BufTy).Contents (Elt F)),
    StableHlo.binary main_v252 main_v263 main_v264 ((fun x v => Host.reduceWindow FloatOps.maximumf ![1, 1, 2] ![1, 1, 1] ![0, 0, 0] ![0, 0, 0] x v reduceWindows_S32x512x18_S32x512x17_w1s1p0_0_w1s1p0_0_w2s1p0_0 h_S_) : (⟨S32x512x18, .f32⟩ : BufTy).Contents (Elt F) → (⟨S_, .f32⟩ : BufTy).Contents (Elt F) → (⟨S32x512x17, .f32⟩ : BufTy).Contents (Elt F)),
    StableHlo.nullary main_c_190 (constantI S_ 32 64#32),
    StableHlo.unary main_c_190 main_v265 (broadcastInDim S17 ![] bcast_S_S17 : (⟨S_, .i32⟩ : BufTy).Contents (Elt F) → (⟨S17, .i32⟩ : BufTy).Contents (Elt F)),
    StableHlo.binary main_c_87 main_v265 main_v266 (addi : (⟨S17, .i32⟩ : BufTy).Contents (Elt F) → (⟨S17, .i32⟩ : BufTy).Contents (Elt F) → (⟨S17, .i32⟩ : BufTy).Contents (Elt F)),
    StableHlo.ternary main_c_88 main_v266 main_c_87 main_v267 (select : (⟨S17, .i1⟩ : BufTy).Contents (Elt F) → (⟨S17, .i32⟩ : BufTy).Contents (Elt F) → (⟨S17, .i32⟩ : BufTy).Contents (Elt F) → (⟨S17, .i32⟩ : BufTy).Contents (Elt F)),
    StableHlo.nullary main_c_191 (constantI S_ 32 64#32),
    StableHlo.unary main_c_191 main_v268 (broadcastInDim S17 ![] bcast_S_S17 : (⟨S_, .i32⟩ : BufTy).Contents (Elt F) → (⟨S17, .i32⟩ : BufTy).Contents (Elt F)),
    StableHlo.binary main_c_89 main_v268 main_v269 (addi : (⟨S17, .i32⟩ : BufTy).Contents (Elt F) → (⟨S17, .i32⟩ : BufTy).Contents (Elt F) → (⟨S17, .i32⟩ : BufTy).Contents (Elt F)),
    StableHlo.ternary main_c_90 main_v269 main_c_89 main_v270 (select : (⟨S17, .i1⟩ : BufTy).Contents (Elt F) → (⟨S17, .i32⟩ : BufTy).Contents (Elt F) → (⟨S17, .i32⟩ : BufTy).Contents (Elt F) → (⟨S17, .i32⟩ : BufTy).Contents (Elt F)),
    StableHlo.unary main_v267 main_v271 (broadcastInDim S17x1 ![0] bcast_S17_S17x1_0 : (⟨S17, .i32⟩ : BufTy).Contents (Elt F) → (⟨S17x1, .i32⟩ : BufTy).Contents (Elt F)),
    StableHlo.unary main_v270 main_v272 (broadcastInDim S17x1 ![0] bcast_S17_S17x1_0 : (⟨S17, .i32⟩ : BufTy).Contents (Elt F) → (⟨S17x1, .i32⟩ : BufTy).Contents (Elt F)),
    StableHlo.binary main_v271 main_v272 main_v273 ((fun a b => concatenate S17x2 1 [⟨S17x1, a⟩, ⟨S17x1, b⟩] concatenates_S17x1_S17x1_S17x2_d1) : (⟨S17x1, .i32⟩ : BufTy).Contents (Elt F) → (⟨S17x1, .i32⟩ : BufTy).Contents (Elt F) → (⟨S17x2, .i32⟩ : BufTy).Contents (Elt F)),
    StableHlo.ternary main_v262 main_v273 main_v264 main_v274 ((fun x i u => Host.scatter scatter_S32x512x64x64_S17x2_S32x512x17_01_23_23_1 (fun _ b => b) x i u) : (⟨S32x512x64x64, .f32⟩ : BufTy).Contents (Elt F) → (⟨S17x2, .i32⟩ : BufTy).Contents (Elt F) → (⟨S32x512x17, .f32⟩ : BufTy).Contents (Elt F) → (⟨S32x512x64x64, .f32⟩ : BufTy).Contents (Elt F)),
    StableHlo.nullary main_cst_192 (constant S_ .f32 0xFF800000#32),
    StableHlo.unary main_cst_192 main_v275 (broadcastInDim S_ ![] bcast_S_S_ : (⟨S_, .f32⟩ : BufTy).Contents (Elt F) → (⟨S_, .f32⟩ : BufTy).Contents (Elt F)),
    StableHlo.binary main_v264 main_v275 main_v276 ((fun x v => Host.reduceWindow FloatOps.maximumf ![1, 1, 3] ![1, 1, 2] ![0, 0, 0] ![0, 0, 0] x v reduceWindows_S32x512x17_S32x512x8_w1s1p0_0_w1s1p0_0_w3s2p0_0 h_S_) : (⟨S32x512x17, .f32⟩ : BufTy).Contents (Elt F) → (⟨S_, .f32⟩ : BufTy).Contents (Elt F) → (⟨S32x512x8, .f32⟩ : BufTy).Contents (Elt F)),
    StableHlo.nullary main_c_193 (constantI S_ 32 64#32),
    StableHlo.unary main_c_193 main_v277 (broadcastInDim S8 ![] bcast_S_S8 : (⟨S_, .i32⟩ : BufTy).Contents (Elt F) → (⟨S8, .i32⟩ : BufTy).Contents (Elt F)),
    StableHlo.binary main_c_91 main_v277 main_v278 (addi : (⟨S8, .i32⟩ : BufTy).Contents (Elt F) → (⟨S8, .i32⟩ : BufTy).Contents (Elt F) → (⟨S8, .i32⟩ : BufTy).Contents (Elt F)),
    StableHlo.ternary main_c_92 main_v278 main_c_91 main_v279 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.nullary main_c_194 (constantI S_ 32 64#32),
    StableHlo.unary main_c_194 main_v280 (broadcastInDim S8 ![] bcast_S_S8 : (⟨S_, .i32⟩ : BufTy).Contents (Elt F) → (⟨S8, .i32⟩ : BufTy).Contents (Elt F)),
    StableHlo.binary main_c_93 main_v280 main_v281 (addi : (⟨S8, .i32⟩ : BufTy).Contents (Elt F) → (⟨S8, .i32⟩ : BufTy).Contents (Elt F) → (⟨S8, .i32⟩ : BufTy).Contents (Elt F)),
    StableHlo.ternary main_c_94 main_v281 main_c_93 main_v282 (select : (⟨S8, .i1⟩ : BufTy).Contents (Elt F) → (⟨S8, .i32⟩ : BufTy).Contents (Elt F) → (⟨S8, .i32⟩ : BufTy).Contents (Elt F) → (⟨S8, .i32⟩ : BufTy).Contents (Elt F)) ]

/-- The operations of window 8, in order. -/
abbrev ops8 : List (HloOp τ sig (Elt F)) :=
  [ StableHlo.unary main_v279 main_v283 (broadcastInDim S8x1 ![0] bcast_S8_S8x1_0 : (⟨S8, .i32⟩ : BufTy).Contents (Elt F) → (⟨S8x1, .i32⟩ : BufTy).Contents (Elt F)),
    StableHlo.unary main_v282 main_v284 (broadcastInDim S8x1 ![0] bcast_S8_S8x1_0 : (⟨S8, .i32⟩ : BufTy).Contents (Elt F) → (⟨S8x1, .i32⟩ : BufTy).Contents (Elt F)),
    StableHlo.binary main_v283 main_v284 main_v285 ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F)),
    StableHlo.ternary main_v274 main_v285 main_v276 main_v286 ((fun x i u => Host.scatter scatter_S32x512x64x64_S8x2_S32x512x8_01_23_23_1 (fun _ b => b) x i u) : (⟨S32x512x64x64, .f32⟩ : BufTy).Contents (Elt F) → (⟨S8x2, .i32⟩ : BufTy).Contents (Elt F) → (⟨S32x512x8, .f32⟩ : BufTy).Contents (Elt F) → (⟨S32x512x64x64, .f32⟩ : BufTy).Contents (Elt F)),
    StableHlo.nullary main_cst_195 (constant S_ .f32 0xFF800000#32),
    StableHlo.unary main_cst_195 main_v287 (broadcastInDim S_ ![] bcast_S_S_ : (⟨S_, .f32⟩ : BufTy).Contents (Elt F) → (⟨S_, .f32⟩ : BufTy).Contents (Elt F)),
    StableHlo.binary main_v276 main_v287 main_v288 ((fun x v => Host.reduceWindow FloatOps.maximumf ![1, 1, 2] ![1, 1, 1] ![0, 0, 0] ![0, 0, 0] x v reduceWindows_S32x512x8_S32x512x7_w1s1p0_0_w1s1p0_0_w2s1p0_0 h_S_) : (⟨S32x512x8, .f32⟩ : BufTy).Contents (Elt F) → (⟨S_, .f32⟩ : BufTy).Contents (Elt F) → (⟨S32x512x7, .f32⟩ : BufTy).Contents (Elt F)),
    StableHlo.nullary main_c_196 (constantI S_ 32 64#32),
    StableHlo.unary main_c_196 main_v289 (broadcastInDim S7 ![] bcast_S_S7 : (⟨S_, .i32⟩ : BufTy).Contents (Elt F) → (⟨S7, .i32⟩ : BufTy).Contents (Elt F)),
    StableHlo.binary main_c_95 main_v289 main_v290 (addi : (⟨S7, .i32⟩ : BufTy).Contents (Elt F) → (⟨S7, .i32⟩ : BufTy).Contents (Elt F) → (⟨S7, .i32⟩ : BufTy).Contents (Elt F)),
    StableHlo.ternary main_c_96 main_v290 main_c_95 main_v291 (select : (⟨S7, .i1⟩ : BufTy).Contents (Elt F) → (⟨S7, .i32⟩ : BufTy).Contents (Elt F) → (⟨S7, .i32⟩ : BufTy).Contents (Elt F) → (⟨S7, .i32⟩ : BufTy).Contents (Elt F)),
    StableHlo.nullary main_c_197 (constantI S_ 32 64#32),
    StableHlo.unary main_c_197 main_v292 (broadcastInDim S7 ![] bcast_S_S7 : (⟨S_, .i32⟩ : BufTy).Contents (Elt F) → (⟨S7, .i32⟩ : BufTy).Contents (Elt F)),
    StableHlo.binary main_c_97 main_v292 main_v293 (addi : (⟨S7, .i32⟩ : BufTy).Contents (Elt F) → (⟨S7, .i32⟩ : BufTy).Contents (Elt F) → (⟨S7, .i32⟩ : BufTy).Contents (Elt F)),
    StableHlo.ternary main_c_98 main_v293 main_c_97 main_v294 (select : (⟨S7, .i1⟩ : BufTy).Contents (Elt F) → (⟨S7, .i32⟩ : BufTy).Contents (Elt F) → (⟨S7, .i32⟩ : BufTy).Contents (Elt F) → (⟨S7, .i32⟩ : BufTy).Contents (Elt F)),
    StableHlo.unary main_v291 main_v295 (broadcastInDim S7x1 ![0] bcast_S7_S7x1_0 : (⟨S7, .i32⟩ : BufTy).Contents (Elt F) → (⟨S7x1, .i32⟩ : BufTy).Contents (Elt F)),
    StableHlo.unary main_v294 main_v296 (broadcastInDim S7x1 ![0] bcast_S7_S7x1_0 : (⟨S7, .i32⟩ : BufTy).Contents (Elt F) → (⟨S7x1, .i32⟩ : BufTy).Contents (Elt F)),
    StableHlo.binary main_v295 main_v296 main_v297 ((fun a b => concatenate S7x2 1 [⟨S7x1, a⟩, ⟨S7x1, b⟩] concatenates_S7x1_S7x1_S7x2_d1) : (⟨S7x1, .i32⟩ : BufTy).Contents (Elt F) → (⟨S7x1, .i32⟩ : BufTy).Contents (Elt F) → (⟨S7x2, .i32⟩ : BufTy).Contents (Elt F)),
    StableHlo.ternary main_v286 main_v297 main_v288 main_v298 ((fun x i u => Host.scatter scatter_S32x512x64x64_S7x2_S32x512x7_01_23_23_1 (fun _ b => b) x i u) : (⟨S32x512x64x64, .f32⟩ : BufTy).Contents (Elt F) → (⟨S7x2, .i32⟩ : BufTy).Contents (Elt F) → (⟨S32x512x7, .f32⟩ : BufTy).Contents (Elt F) → (⟨S32x512x64x64, .f32⟩ : BufTy).Contents (Elt F)),
    StableHlo.nullary main_cst_198 (constant S_ .f32 0xFF800000#32),
    StableHlo.unary main_cst_198 main_v299 (broadcastInDim S_ ![] bcast_S_S_ : (⟨S_, .f32⟩ : BufTy).Contents (Elt F) → (⟨S_, .f32⟩ : BufTy).Contents (Elt F)),
    StableHlo.binary main_v288 main_v299 main_v300 ((fun x v => Host.reduceWindow FloatOps.maximumf ![1, 1, 2] ![1, 1, 1] ![0, 0, 0] ![0, 0, 0] x v reduceWindows_S32x512x7_S32x512x6_w1s1p0_0_w1s1p0_0_w2s1p0_0 h_S_) : (⟨S32x512x7, .f32⟩ : BufTy).Contents (Elt F) → (⟨S_, .f32⟩ : BufTy).Contents (Elt F) → (⟨S32x512x6, .f32⟩ : BufTy).Contents (Elt F)),
    StableHlo.nullary main_c_199 (constantI S_ 32 64#32),
    StableHlo.unary main_c_199 main_v301 (broadcastInDim S6 ![] bcast_S_S6 : (⟨S_, .i32⟩ : BufTy).Contents (Elt F) → (⟨S6, .i32⟩ : BufTy).Contents (Elt F)),
    StableHlo.binary main_c_99 main_v301 main_v302 (addi : (⟨S6, .i32⟩ : BufTy).Contents (Elt F) → (⟨S6, .i32⟩ : BufTy).Contents (Elt F) → (⟨S6, .i32⟩ : BufTy).Contents (Elt F)),
    StableHlo.ternary main_c_100 main_v302 main_c_99 main_v303 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    StableHlo.nullary main_c_200 (constantI S_ 32 64#32),
    StableHlo.unary main_c_200 main_v304 (broadcastInDim S6 ![] bcast_S_S6 : (⟨S_, .i32⟩ : BufTy).Contents (Elt F) → (⟨S6, .i32⟩ : BufTy).Contents (Elt F)),
    StableHlo.binary main_c_101 main_v304 main_v305 (addi : (⟨S6, .i32⟩ : BufTy).Contents (Elt F) → (⟨S6, .i32⟩ : BufTy).Contents (Elt F) → (⟨S6, .i32⟩ : BufTy).Contents (Elt F)),
    StableHlo.ternary main_c_102 main_v305 main_c_101 main_v306 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    StableHlo.unary main_v303 main_v307 (broadcastInDim S6x1 ![0] bcast_S6_S6x1_0 : (⟨S6, .i32⟩ : BufTy).Contents (Elt F) → (⟨S6x1, .i32⟩ : BufTy).Contents (Elt F)),
    StableHlo.unary main_v306 main_v308 (broadcastInDim S6x1 ![0] bcast_S6_S6x1_0 : (⟨S6, .i32⟩ : BufTy).Contents (Elt F) → (⟨S6x1, .i32⟩ : BufTy).Contents (Elt F)),
    StableHlo.binary main_v307 main_v308 main_v309 ((fun a b => concatenate S6x2 1 [⟨S6x1, a⟩, ⟨S6x1, b⟩] concatenates_S6x1_S6x1_S6x2_d1) : (⟨S6x1, .i32⟩ : BufTy).Contents (Elt F) → (⟨S6x1, .i32⟩ : BufTy).Contents (Elt F) → (⟨S6x2, .i32⟩ : BufTy).Contents (Elt F)),
    StableHlo.ternary main_v298 main_v309 main_v300 main_v310 ((fun x i u => Host.scatter scatter_S32x512x64x64_S6x2_S32x512x6_01_23_23_1 (fun _ b => b) x i u) : (⟨S32x512x64x64, .f32⟩ : BufTy).Contents (Elt F) → (⟨S6x2, .i32⟩ : BufTy).Contents (Elt F) → (⟨S32x512x6, .f32⟩ : BufTy).Contents (Elt F) → (⟨S32x512x64x64, .f32⟩ : BufTy).Contents (Elt F)),
    StableHlo.nullary main_cst_201 (constant S_ .f32 0xFF800000#32),
    StableHlo.unary main_cst_201 main_v311 (broadcastInDim S_ ![] bcast_S_S_ : (⟨S_, .f32⟩ : BufTy).Contents (Elt F) → (⟨S_, .f32⟩ : BufTy).Contents (Elt F)),
    StableHlo.binary main_v300 main_v311 main_v312 ((fun x v => Host.reduceWindow FloatOps.maximumf ![1, 1, 2] ![1, 1, 1] ![0, 0, 0] ![0, 0, 0] x v reduceWindows_S32x512x6_S32x512x5_w1s1p0_0_w1s1p0_0_w2s1p0_0 h_S_) : (⟨S32x512x6, .f32⟩ : BufTy).Contents (Elt F) → (⟨S_, .f32⟩ : BufTy).Contents (Elt F) → (⟨S32x512x5, .f32⟩ : BufTy).Contents (Elt F)),
    StableHlo.nullary main_c_202 (constantI S_ 32 64#32),
    StableHlo.unary main_c_202 main_v313 (broadcastInDim S5 ![] bcast_S_S5 : (⟨S_, .i32⟩ : BufTy).Contents (Elt F) → (⟨S5, .i32⟩ : BufTy).Contents (Elt F)),
    StableHlo.binary main_c_103 main_v313 main_v314 (addi : (⟨S5, .i32⟩ : BufTy).Contents (Elt F) → (⟨S5, .i32⟩ : BufTy).Contents (Elt F) → (⟨S5, .i32⟩ : BufTy).Contents (Elt F)),
    StableHlo.ternary main_c_104 main_v314 main_c_103 main_v315 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    StableHlo.nullary main_c_203 (constantI S_ 32 64#32),
    StableHlo.unary main_c_203 main_v316 (broadcastInDim S5 ![] bcast_S_S5 : (⟨S_, .i32⟩ : BufTy).Contents (Elt F) → (⟨S5, .i32⟩ : BufTy).Contents (Elt F)),
    StableHlo.binary main_c_105 main_v316 main_v317 (addi : (⟨S5, .i32⟩ : BufTy).Contents (Elt F) → (⟨S5, .i32⟩ : BufTy).Contents (Elt F) → (⟨S5, .i32⟩ : BufTy).Contents (Elt F)),
    StableHlo.ternary main_c_106 main_v317 main_c_105 main_v318 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    StableHlo.unary main_v315 main_v319 (broadcastInDim S5x1 ![0] bcast_S5_S5x1_0 : (⟨S5, .i32⟩ : BufTy).Contents (Elt F) → (⟨S5x1, .i32⟩ : BufTy).Contents (Elt F)),
    StableHlo.unary main_v318 main_v320 (broadcastInDim S5x1 ![0] bcast_S5_S5x1_0 : (⟨S5, .i32⟩ : BufTy).Contents (Elt F) → (⟨S5x1, .i32⟩ : BufTy).Contents (Elt F)),
    StableHlo.binary main_v319 main_v320 main_v321 ((fun a b => concatenate S5x2 1 [⟨S5x1, a⟩, ⟨S5x1, b⟩] concatenates_S5x1_S5x1_S5x2_d1) : (⟨S5x1, .i32⟩ : BufTy).Contents (Elt F) → (⟨S5x1, .i32⟩ : BufTy).Contents (Elt F) → (⟨S5x2, .i32⟩ : BufTy).Contents (Elt F)),
    StableHlo.ternary main_v310 main_v321 main_v312 main_v322 ((fun x i u => Host.scatter scatter_S32x512x64x64_S5x2_S32x512x5_01_23_23_1 (fun _ b => b) x i u) : (⟨S32x512x64x64, .f32⟩ : BufTy).Contents (Elt F) → (⟨S5x2, .i32⟩ : BufTy).Contents (Elt F) → (⟨S32x512x5, .f32⟩ : BufTy).Contents (Elt F) → (⟨S32x512x64x64, .f32⟩ : BufTy).Contents (Elt F)),
    StableHlo.nullary main_cst_204 (constant S_ .f32 0xFF800000#32),
    StableHlo.unary main_cst_204 main_v323 (broadcastInDim S_ ![] bcast_S_S_ : (⟨S_, .f32⟩ : BufTy).Contents (Elt F) → (⟨S_, .f32⟩ : BufTy).Contents (Elt F)),
    StableHlo.binary main_v312 main_v323 main_v324 ((fun x v => Host.reduceWindow FloatOps.maximumf ![1, 1, 2] ![1, 1, 1] ![0, 0, 0] ![0, 0, 0] x v reduceWindows_S32x512x5_S32x512x4_w1s1p0_0_w1s1p0_0_w2s1p0_0 h_S_) : (⟨S32x512x5, .f32⟩ : BufTy).Contents (Elt F) → (⟨S_, .f32⟩ : BufTy).Contents (Elt F) → (⟨S32x512x4, .f32⟩ : BufTy).Contents (Elt F)),
    StableHlo.nullary main_c_205 (constantI S_ 32 64#32),
    StableHlo.unary main_c_205 main_v325 (broadcastInDim S4 ![] bcast_S_S4 : (⟨S_, .i32⟩ : BufTy).Contents (Elt F) → (⟨S4, .i32⟩ : BufTy).Contents (Elt F)),
    StableHlo.binary main_c_107 main_v325 main_v326 (addi : (⟨S4, .i32⟩ : BufTy).Contents (Elt F) → (⟨S4, .i32⟩ : BufTy).Contents (Elt F) → (⟨S4, .i32⟩ : BufTy).Contents (Elt F)),
    StableHlo.ternary main_c_108 main_v326 main_c_107 main_v327 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.nullary main_c_206 (constantI S_ 32 64#32),
    StableHlo.unary main_c_206 main_v328 (broadcastInDim S4 ![] bcast_S_S4 : (⟨S_, .i32⟩ : BufTy).Contents (Elt F) → (⟨S4, .i32⟩ : BufTy).Contents (Elt F)),
    StableHlo.binary main_c_109 main_v328 main_v329 (addi : (⟨S4, .i32⟩ : BufTy).Contents (Elt F) → (⟨S4, .i32⟩ : BufTy).Contents (Elt F) → (⟨S4, .i32⟩ : BufTy).Contents (Elt F)),
    StableHlo.ternary main_c_110 main_v329 main_c_109 main_v330 (select : (⟨S4, .i1⟩ : BufTy).Contents (Elt F) → (⟨S4, .i32⟩ : BufTy).Contents (Elt F) → (⟨S4, .i32⟩ : BufTy).Contents (Elt F) → (⟨S4, .i32⟩ : BufTy).Contents (Elt F)) ]

/-- The operations of window 9, in order. -/
abbrev ops9 : List (HloOp τ sig (Elt F)) :=
  [ StableHlo.unary main_v327 main_v331 (broadcastInDim S4x1 ![0] bcast_S4_S4x1_0 : (⟨S4, .i32⟩ : BufTy).Contents (Elt F) → (⟨S4x1, .i32⟩ : BufTy).Contents (Elt F)),
    StableHlo.unary main_v330 main_v332 (broadcastInDim S4x1 ![0] bcast_S4_S4x1_0 : (⟨S4, .i32⟩ : BufTy).Contents (Elt F) → (⟨S4x1, .i32⟩ : BufTy).Contents (Elt F)),
    StableHlo.binary main_v331 main_v332 main_v333 ((fun a b => concatenate S4x2 1 [⟨S4x1, a⟩, ⟨S4x1, b⟩] concatenates_S4x1_S4x1_S4x2_d1) : (⟨S4x1, .i32⟩ : BufTy).Contents (Elt F) → (⟨S4x1, .i32⟩ : BufTy).Contents (Elt F) → (⟨S4x2, .i32⟩ : BufTy).Contents (Elt F)),
    StableHlo.ternary main_v322 main_v333 main_v324 main_v334 ((fun x i u => Host.scatter scatter_S32x512x64x64_S4x2_S32x512x4_01_23_23_1 (fun _ b => b) x i u) : (⟨S32x512x64x64, .f32⟩ : BufTy).Contents (Elt F) → (⟨S4x2, .i32⟩ : BufTy).Contents (Elt F) → (⟨S32x512x4, .f32⟩ : BufTy).Contents (Elt F) → (⟨S32x512x64x64, .f32⟩ : BufTy).Contents (Elt F)),
    StableHlo.nullary main_cst_207 (constant S_ .f32 0xFF800000#32),
    StableHlo.unary main_cst_207 main_v335 (broadcastInDim S_ ![] bcast_S_S_ : (⟨S_, .f32⟩ : BufTy).Contents (Elt F) → (⟨S_, .f32⟩ : BufTy).Contents (Elt F)),
    StableHlo.binary main_v324 main_v335 main_v336 ((fun x v => Host.reduceWindow FloatOps.maximumf ![1, 1, 2] ![1, 1, 1] ![0, 0, 0] ![0, 0, 0] x v reduceWindows_S32x512x4_S32x512x3_w1s1p0_0_w1s1p0_0_w2s1p0_0 h_S_) : (⟨S32x512x4, .f32⟩ : BufTy).Contents (Elt F) → (⟨S_, .f32⟩ : BufTy).Contents (Elt F) → (⟨S32x512x3, .f32⟩ : BufTy).Contents (Elt F)),
    StableHlo.nullary main_c_208 (constantI S_ 32 64#32),
    StableHlo.unary main_c_208 main_v337 (broadcastInDim S3 ![] bcast_S_S3 : (⟨S_, .i32⟩ : BufTy).Contents (Elt F) → (⟨S3, .i32⟩ : BufTy).Contents (Elt F)),
    StableHlo.binary main_c_111 main_v337 main_v338 (addi : (⟨S3, .i32⟩ : BufTy).Contents (Elt F) → (⟨S3, .i32⟩ : BufTy).Contents (Elt F) → (⟨S3, .i32⟩ : BufTy).Contents (Elt F)),
    StableHlo.ternary main_c_112 main_v338 main_c_111 main_v339 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.nullary main_c_209 (constantI S_ 32 64#32),
    StableHlo.unary main_c_209 main_v340 (broadcastInDim S3 ![] bcast_S_S3 : (⟨S_, .i32⟩ : BufTy).Contents (Elt F) → (⟨S3, .i32⟩ : BufTy).Contents (Elt F)),
    StableHlo.binary main_c_113 main_v340 main_v341 (addi : (⟨S3, .i32⟩ : BufTy).Contents (Elt F) → (⟨S3, .i32⟩ : BufTy).Contents (Elt F) → (⟨S3, .i32⟩ : BufTy).Contents (Elt F)),
    StableHlo.ternary main_c_114 main_v341 main_c_113 main_v342 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v339 main_v343 (broadcastInDim S3x1 ![0] bcast_S3_S3x1_0 : (⟨S3, .i32⟩ : BufTy).Contents (Elt F) → (⟨S3x1, .i32⟩ : BufTy).Contents (Elt F)),
    StableHlo.unary main_v342 main_v344 (broadcastInDim S3x1 ![0] bcast_S3_S3x1_0 : (⟨S3, .i32⟩ : BufTy).Contents (Elt F) → (⟨S3x1, .i32⟩ : BufTy).Contents (Elt F)),
    StableHlo.binary main_v343 main_v344 main_v345 ((fun a b => concatenate S3x2 1 [⟨S3x1, a⟩, ⟨S3x1, b⟩] concatenates_S3x1_S3x1_S3x2_d1) : (⟨S3x1, .i32⟩ : BufTy).Contents (Elt F) → (⟨S3x1, .i32⟩ : BufTy).Contents (Elt F) → (⟨S3x2, .i32⟩ : BufTy).Contents (Elt F)),
    StableHlo.ternary main_v334 main_v345 main_v336 main_v346 ((fun x i u => Host.scatter scatter_S32x512x64x64_S3x2_S32x512x3_01_23_23_1 (fun _ b => b) x i u) : (⟨S32x512x64x64, .f32⟩ : BufTy).Contents (Elt F) → (⟨S3x2, .i32⟩ : BufTy).Contents (Elt F) → (⟨S32x512x3, .f32⟩ : BufTy).Contents (Elt F) → (⟨S32x512x64x64, .f32⟩ : BufTy).Contents (Elt F)),
    StableHlo.nullary main_cst_210 (constant S_ .f32 0xFF800000#32),
    StableHlo.unary main_cst_210 main_v347 (broadcastInDim S_ ![] bcast_S_S_ : (⟨S_, .f32⟩ : BufTy).Contents (Elt F) → (⟨S_, .f32⟩ : BufTy).Contents (Elt F)),
    StableHlo.binary main_v336 main_v347 main_v348 ((fun x v => Host.reduceWindow FloatOps.maximumf ![1, 1, 2] ![1, 1, 1] ![0, 0, 0] ![0, 0, 0] x v reduceWindows_S32x512x3_S32x512x2_w1s1p0_0_w1s1p0_0_w2s1p0_0 h_S_) : (⟨S32x512x3, .f32⟩ : BufTy).Contents (Elt F) → (⟨S_, .f32⟩ : BufTy).Contents (Elt F) → (⟨S32x512x2, .f32⟩ : BufTy).Contents (Elt F)),
    StableHlo.nullary main_c_211 (constantI S_ 32 64#32),
    StableHlo.unary main_c_211 main_v349 (broadcastInDim S2 ![] bcast_S_S2 : (⟨S_, .i32⟩ : BufTy).Contents (Elt F) → (⟨S2, .i32⟩ : BufTy).Contents (Elt F)),
    StableHlo.binary main_c_115 main_v349 main_v350 (addi : (⟨S2, .i32⟩ : BufTy).Contents (Elt F) → (⟨S2, .i32⟩ : BufTy).Contents (Elt F) → (⟨S2, .i32⟩ : BufTy).Contents (Elt F)),
    StableHlo.ternary main_c_116 main_v350 main_c_115 main_v351 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.nullary main_c_212 (constantI S_ 32 64#32),
    StableHlo.unary main_c_212 main_v352 (broadcastInDim S2 ![] bcast_S_S2 : (⟨S_, .i32⟩ : BufTy).Contents (Elt F) → (⟨S2, .i32⟩ : BufTy).Contents (Elt F)),
    StableHlo.binary main_c_117 main_v352 main_v353 (addi : (⟨S2, .i32⟩ : BufTy).Contents (Elt F) → (⟨S2, .i32⟩ : BufTy).Contents (Elt F) → (⟨S2, .i32⟩ : BufTy).Contents (Elt F)),
    StableHlo.ternary main_c_118 main_v353 main_c_117 main_v354 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v351 main_v355 (broadcastInDim S2x1 ![0] bcast_S2_S2x1_0 : (⟨S2, .i32⟩ : BufTy).Contents (Elt F) → (⟨S2x1, .i32⟩ : BufTy).Contents (Elt F)),
    StableHlo.unary main_v354 main_v356 (broadcastInDim S2x1 ![0] bcast_S2_S2x1_0 : (⟨S2, .i32⟩ : BufTy).Contents (Elt F) → (⟨S2x1, .i32⟩ : BufTy).Contents (Elt F)),
    StableHlo.binary main_v355 main_v356 main_v357 ((fun a b => concatenate S2x2 1 [⟨S2x1, a⟩, ⟨S2x1, b⟩] concatenates_S2x1_S2x1_S2x2_d1) : (⟨S2x1, .i32⟩ : BufTy).Contents (Elt F) → (⟨S2x1, .i32⟩ : BufTy).Contents (Elt F) → (⟨S2x2, .i32⟩ : BufTy).Contents (Elt F)),
    StableHlo.ternary main_v346 main_v357 main_v348 main_v358 ((fun x i u => Host.scatter scatter_S32x512x64x64_S2x2_S32x512x2_01_23_23_1 (fun _ b => b) x i u) : (⟨S32x512x64x64, .f32⟩ : BufTy).Contents (Elt F) → (⟨S2x2, .i32⟩ : BufTy).Contents (Elt F) → (⟨S32x512x2, .f32⟩ : BufTy).Contents (Elt F) → (⟨S32x512x64x64, .f32⟩ : BufTy).Contents (Elt F)),
    StableHlo.nullary main_cst_213 (constant S_ .f32 0xFF800000#32),
    StableHlo.unary main_cst_213 main_v359 (broadcastInDim S_ ![] bcast_S_S_ : (⟨S_, .f32⟩ : BufTy).Contents (Elt F) → (⟨S_, .f32⟩ : BufTy).Contents (Elt F)),
    StableHlo.binary main_v348 main_v359 main_v360 ((fun x v => Host.reduceWindow FloatOps.maximumf ![1, 1, 2] ![1, 1, 1] ![0, 0, 0] ![0, 0, 0] x v reduceWindows_S32x512x2_S32x512x1_w1s1p0_0_w1s1p0_0_w2s1p0_0 h_S_) : (⟨S32x512x2, .f32⟩ : BufTy).Contents (Elt F) → (⟨S_, .f32⟩ : BufTy).Contents (Elt F) → (⟨S32x512x1, .f32⟩ : BufTy).Contents (Elt F)),
    StableHlo.nullary main_c_214 (constantI S_ 32 64#32),
    StableHlo.unary main_c_214 main_v361 (broadcastInDim S1 ![] bcast_S_S1 : (⟨S_, .i32⟩ : BufTy).Contents (Elt F) → (⟨S1, .i32⟩ : BufTy).Contents (Elt F)),
    StableHlo.binary main_c_119 main_v361 main_v362 (addi : (⟨S1, .i32⟩ : BufTy).Contents (Elt F) → (⟨S1, .i32⟩ : BufTy).Contents (Elt F) → (⟨S1, .i32⟩ : BufTy).Contents (Elt F)),
    StableHlo.ternary main_c_120 main_v362 main_c_119 main_v363 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.nullary main_c_215 (constantI S_ 32 64#32),
    StableHlo.unary main_c_215 main_v364 (broadcastInDim S1 ![] bcast_S_S1 : (⟨S_, .i32⟩ : BufTy).Contents (Elt F) → (⟨S1, .i32⟩ : BufTy).Contents (Elt F)),
    StableHlo.binary main_c_121 main_v364 main_v365 (addi : (⟨S1, .i32⟩ : BufTy).Contents (Elt F) → (⟨S1, .i32⟩ : BufTy).Contents (Elt F) → (⟨S1, .i32⟩ : BufTy).Contents (Elt F)),
    StableHlo.ternary main_c_122 main_v365 main_c_121 main_v366 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.unary main_v363 main_v367 (broadcastInDim S1x1 ![0] bcast_S1_S1x1_0 : (⟨S1, .i32⟩ : BufTy).Contents (Elt F) → (⟨S1x1, .i32⟩ : BufTy).Contents (Elt F)),
    StableHlo.unary main_v366 main_v368 (broadcastInDim S1x1 ![0] bcast_S1_S1x1_0 : (⟨S1, .i32⟩ : BufTy).Contents (Elt F) → (⟨S1x1, .i32⟩ : BufTy).Contents (Elt F)),
    StableHlo.binary main_v367 main_v368 main_v369 ((fun a b => concatenate S1x2 1 [⟨S1x1, a⟩, ⟨S1x1, b⟩] concatenates_S1x1_S1x1_S1x2_d1) : (⟨S1x1, .i32⟩ : BufTy).Contents (Elt F) → (⟨S1x1, .i32⟩ : BufTy).Contents (Elt F) → (⟨S1x2, .i32⟩ : BufTy).Contents (Elt F)),
    StableHlo.ternary main_v358 main_v369 main_v360 main_v370 ((fun x i u => Host.scatter scatter_S32x512x64x64_S1x2_S32x512x1_01_23_23_1 (fun _ b => b) x i u) : (⟨S32x512x64x64, .f32⟩ : BufTy).Contents (Elt F) → (⟨S1x2, .i32⟩ : BufTy).Contents (Elt F) → (⟨S32x512x1, .f32⟩ : BufTy).Contents (Elt F) → (⟨S32x512x64x64, .f32⟩ : BufTy).Contents (Elt F)) ]

/-- All the operations, in order. -/
abbrev ops : List (HloOp τ sig (Elt F)) :=
  ops0 ++ (ops1 ++ (ops2 ++ (ops3 ++ (ops4 ++ (ops5 ++ (ops6 ++ (ops7 ++ (ops8 ++ (ops9)))))))))

set_option maxRecDepth 8192 in
set_option maxHeartbeats 4000000 in
theorem main_part0_eq (c : Dev nD) : main_part0 (F := F) c = seq ops0 := rfl
set_option maxRecDepth 8192 in
set_option maxHeartbeats 4000000 in
theorem main_part1_eq (c : Dev nD) : main_part1 (F := F) c = seq ops1 := rfl
set_option maxRecDepth 8192 in
set_option maxHeartbeats 4000000 in
theorem main_part2_eq (c : Dev nD) : main_part2 (F := F) c = seq ops2 := rfl
set_option maxRecDepth 8192 in
set_option maxHeartbeats 4000000 in
theorem main_part3_eq (c : Dev nD) : main_part3 (F := F) c = seq ops3 := rfl
set_option maxRecDepth 8192 in
set_option maxHeartbeats 4000000 in
theorem main_part4_eq (c : Dev nD) : main_part4 (F := F) c = seq ops4 := rfl
set_option maxRecDepth 8192 in
set_option maxHeartbeats 4000000 in
theorem main_part5_eq (c : Dev nD) : main_part5 (F := F) c = seq ops5 := rfl
set_option maxRecDepth 8192 in
set_option maxHeartbeats 4000000 in
theorem main_part6_eq (c : Dev nD) : main_part6 (F := F) c = seq ops6 := rfl
set_option maxRecDepth 8192 in
set_option maxHeartbeats 4000000 in
theorem main_part7_eq (c : Dev nD) : main_part7 (F := F) c = seq ops7 := rfl
set_option maxRecDepth 8192 in
set_option maxHeartbeats 4000000 in
theorem main_part8_eq (c : Dev nD) : main_part8 (F := F) c = seq ops8 := rfl
set_option maxRecDepth 8192 in
set_option maxHeartbeats 4000000 in
theorem main_part9_eq (c : Dev nD) : main_part9 (F := F) c = seq ops9 := rfl
set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c]
  rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub ..⟩
set_option maxRecDepth 8192 in
theorem ops1_sub : (ops1 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub ..⟩
set_option maxRecDepth 8192 in
theorem ops2_sub : (ops2 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., unary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub ..⟩
set_option maxRecDepth 8192 in
theorem ops3_sub : (ops3 : List (HloOp τ sig (Elt F))).Forall fun op => op.bufs ⊆ tcRefs τ sig :=
  ⟨unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub ..⟩
set_option maxRecDepth 8192 in
theorem ops4_sub : (ops4 : List (HloOp τ sig (Elt F))).Forall fun op => op.bufs ⊆ tcRefs τ sig :=
  ⟨unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub ..⟩
set_option maxRecDepth 8192 in
theorem ops5_sub : (ops5 : List (HloOp τ sig (Elt F))).Forall fun op => op.bufs ⊆ tcRefs τ sig :=
  ⟨unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub ..⟩
set_option maxRecDepth 8192 in
theorem ops6_sub : (ops6 : List (HloOp τ sig (Elt F))).Forall fun op => op.bufs ⊆ tcRefs τ sig :=
  ⟨unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub ..⟩
set_option maxRecDepth 8192 in
theorem ops7_sub : (ops7 : List (HloOp τ sig (Elt F))).Forall fun op => op.bufs ⊆ tcRefs τ sig :=
  ⟨unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub ..⟩
set_option maxRecDepth 8192 in
theorem ops8_sub : (ops8 : List (HloOp τ sig (Elt F))).Forall fun op => op.bufs ⊆ tcRefs τ sig :=
  ⟨unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub ..⟩
set_option maxRecDepth 8192 in
theorem ops9_sub : (ops9 : List (HloOp τ sig (Elt F))).Forall fun op => op.bufs ⊆ tcRefs τ sig :=
  ⟨unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h]

set_option maxRecDepth 8192 in
set_option maxHeartbeats 4000000 in
theorem ops0_fresh : ∀ op ∈ (ops0 : List (HloOp τ sig (Elt F))), op.fresh = ∅ := by
  intro _ h; (repeat (cases h with | head => rfl | tail _ h => ?_)); exact nomatch h
set_option maxRecDepth 8192 in
set_option maxHeartbeats 4000000 in
theorem ops1_fresh : ∀ op ∈ (ops1 : List (HloOp τ sig (Elt F))), op.fresh = ∅ := by
  intro _ h; (repeat (cases h with | head => rfl | tail _ h => ?_)); exact nomatch h
set_option maxRecDepth 8192 in
set_option maxHeartbeats 4000000 in
theorem ops2_fresh : ∀ op ∈ (ops2 : List (HloOp τ sig (Elt F))), op.fresh = ∅ := by
  intro _ h; (repeat (cases h with | head => rfl | tail _ h => ?_)); exact nomatch h
set_option maxRecDepth 8192 in
set_option maxHeartbeats 4000000 in
theorem ops3_fresh : ∀ op ∈ (ops3 : List (HloOp τ sig (Elt F))), op.fresh = ∅ := by
  intro _ h; (repeat (cases h with | head => rfl | tail _ h => ?_)); exact nomatch h
set_option maxRecDepth 8192 in
set_option maxHeartbeats 4000000 in
theorem ops4_fresh : ∀ op ∈ (ops4 : List (HloOp τ sig (Elt F))), op.fresh = ∅ := by
  intro _ h; (repeat (cases h with | head => rfl | tail _ h => ?_)); exact nomatch h
set_option maxRecDepth 8192 in
set_option maxHeartbeats 4000000 in
theorem ops5_fresh : ∀ op ∈ (ops5 : List (HloOp τ sig (Elt F))), op.fresh = ∅ := by
  intro _ h; (repeat (cases h with | head => rfl | tail _ h => ?_)); exact nomatch h
set_option maxRecDepth 8192 in
set_option maxHeartbeats 4000000 in
theorem ops6_fresh : ∀ op ∈ (ops6 : List (HloOp τ sig (Elt F))), op.fresh = ∅ := by
  intro _ h; (repeat (cases h with | head => rfl | tail _ h => ?_)); exact nomatch h
set_option maxRecDepth 8192 in
set_option maxHeartbeats 4000000 in
theorem ops7_fresh : ∀ op ∈ (ops7 : List (HloOp τ sig (Elt F))), op.fresh = ∅ := by
  intro _ h; (repeat (cases h with | head => rfl | tail _ h => ?_)); exact nomatch h
set_option maxRecDepth 8192 in
set_option maxHeartbeats 4000000 in
theorem ops8_fresh : ∀ op ∈ (ops8 : List (HloOp τ sig (Elt F))), op.fresh = ∅ := by
  intro _ h; (repeat (cases h with | head => rfl | tail _ h => ?_)); exact nomatch h
set_option maxRecDepth 8192 in
set_option maxHeartbeats 4000000 in
theorem ops9_fresh : ∀ op ∈ (ops9 : List (HloOp τ sig (Elt F))), op.fresh = ∅ := by
  intro _ h; (repeat (cases h with | head => rfl | tail _ h => ?_)); exact nomatch h
theorem ops_fresh : ∀ op ∈ (ops : List (HloOp τ sig (Elt F))), op.fresh = ∅ := by
  intro op h
  simp only [ops, List.mem_append] at h
  rcases h with h | h | h | h | h | h | h | h | h | h
  exacts [ops0_fresh op h, ops1_fresh op h, ops2_fresh op h, ops3_fresh op h, ops4_fresh op h, ops5_fresh op h, ops6_fresh op h, ops7_fresh op h, ops8_fresh op h, ops9_fresh op h]

/-- The contents before the first window. -/
def val0 (V0 : Valuation τ sig (Elt F)) : Valuation τ sig (Elt F) := V0

/-- The contents after the first 1 windows. -/
def val1 (V0 : Valuation τ sig (Elt F)) : Valuation τ sig (Elt F) := after ops0 (val0 V0)
/-- The buffers that window 0 writes. -/
abbrev ops0_W : List (Ref sig .tc) := [main_c, main_c_0, main_c_1, main_c_2, main_c_3, main_c_4, main_c_5, main_c_6, main_c_7, main_c_8, main_c_9, main_c_10, main_c_11, main_c_12, main_c_13, main_c_14, main_c_15, main_c_16, main_c_17, main_c_18, main_c_19, main_c_20, main_c_21, main_c_22, main_c_23, main_c_24, main_c_25, main_c_26, main_c_27, main_c_28, main_c_29, main_c_30, main_c_31, main_c_32, main_c_33, main_c_34, main_c_35, main_c_36, main_c_37, main_c_38, main_c_39, main_c_40, main_c_41, main_c_42, main_c_43, main_c_44, main_c_45, main_c_46, main_c_47, main_c_48, main_c_49, main_c_50, main_c_51, main_c_52, main_c_53, main_c_54, main_c_55, main_c_56, main_c_57, main_c_58]
set_option maxRecDepth 8192 in
set_option maxHeartbeats 4000000 in
theorem ops0_writes : (ops0 : List (HloOp τ sig (Elt F))).Forall fun op => op.writes ⊆ (ops0_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer that window 0 does not write keeps its contents through it. -/
theorem val1_keep (V0 : Valuation τ sig (Elt F)) (r : Ref sig .tc) (h : r ∉ ops0_W) :
    val1 V0 (Proc.devRef .tc r) = val0 V0 (Proc.devRef .tc r) :=
  after_of_writes_sub ops0 _ ops0_writes h

/-- The contents after the first 2 windows. -/
def val2 (V0 : Valuation τ sig (Elt F)) : Valuation τ sig (Elt F) := after ops1 (val1 V0)
/-- The buffers that window 1 writes. -/
abbrev ops1_W : List (Ref sig .tc) := [main_c_59, main_c_60, main_c_61, main_c_62, main_c_63, main_c_64, main_c_65, main_c_66, main_c_67, main_c_68, main_c_69, main_c_70, main_c_71, main_c_72, main_c_73, main_c_74, main_c_75, main_c_76, main_c_77, main_c_78, main_c_79, main_c_80, main_c_81, main_c_82, main_c_83, main_c_84, main_c_85, main_c_86, main_c_87, main_c_88, main_c_89, main_c_90, main_c_91, main_c_92, main_c_93, main_c_94, main_c_95, main_c_96, main_c_97, main_c_98, main_c_99, main_c_100, main_c_101, main_c_102, main_c_103, main_c_104, main_c_105, main_c_106, main_c_107, main_c_108, main_c_109, main_c_110, main_c_111, main_c_112, main_c_113, main_c_114, main_c_115, main_c_116, main_c_117, main_c_118]
set_option maxRecDepth 8192 in
set_option maxHeartbeats 4000000 in
theorem ops1_writes : (ops1 : List (HloOp τ sig (Elt F))).Forall fun op => op.writes ⊆ (ops1_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer that window 1 does not write keeps its contents through it. -/
theorem val2_keep (V0 : Valuation τ sig (Elt F)) (r : Ref sig .tc) (h : r ∉ ops1_W) :
    val2 V0 (Proc.devRef .tc r) = val1 V0 (Proc.devRef .tc r) :=
  after_of_writes_sub ops1 _ ops1_writes h

/-- The contents after the first 3 windows. -/
def val3 (V0 : Valuation τ sig (Elt F)) : Valuation τ sig (Elt F) := after ops2 (val2 V0)
/-- The buffers that window 2 writes. -/
abbrev ops2_W : List (Ref sig .tc) := [main_c_119, main_c_120, main_c_121, main_c_122, main_c_123, main_cst, main_v0, main_c_124, main_v1, main_v2, main_v3, main_c_125, main_v4, main_v5, main_v6, main_v7, main_v8, main_v9, main_v10, main_cst_126, main_v11, main_v12, main_c_127, main_v13, main_v14, main_v15, main_c_128, main_v16, main_v17, main_v18, main_v19, main_v20, main_v21, main_v22, main_cst_129, main_v23, main_v24, main_c_130, main_v25, main_v26, main_v27, main_c_131, main_v28, main_v29, main_v30, main_v31, main_v32, main_v33, main_v34, main_cst_132, main_v35, main_v36, main_c_133, main_v37, main_v38, main_v39, main_c_134, main_v40, main_v41, main_v42]
set_option maxRecDepth 8192 in
set_option maxHeartbeats 4000000 in
theorem ops2_writes : (ops2 : List (HloOp τ sig (Elt F))).Forall fun op => op.writes ⊆ (ops2_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer that window 2 does not write keeps its contents through it. -/
theorem val3_keep (V0 : Valuation τ sig (Elt F)) (r : Ref sig .tc) (h : r ∉ ops2_W) :
    val3 V0 (Proc.devRef .tc r) = val2 V0 (Proc.devRef .tc r) :=
  after_of_writes_sub ops2 _ ops2_writes h

/-- The contents after the first 4 windows. -/
def val4 (V0 : Valuation τ sig (Elt F)) : Valuation τ sig (Elt F) := after ops3 (val3 V0)
/-- The buffers that window 3 writes. -/
abbrev ops3_W : List (Ref sig .tc) := [main_v43, main_v44, main_v45, main_v46, main_cst_135, main_v47, main_v48, main_c_136, main_v49, main_v50, main_v51, main_c_137, main_v52, main_v53, main_v54, main_v55, main_v56, main_v57, main_v58, main_cst_138, main_v59, main_v60, main_c_139, main_v61, main_v62, main_v63, main_c_140, main_v64, main_v65, main_v66, main_v67, main_v68, main_v69, main_v70, main_cst_141, main_v71, main_v72, main_c_142, main_v73, main_v74, main_v75, main_c_143, main_v76, main_v77, main_v78, main_v79, main_v80, main_v81, main_v82, main_cst_144, main_v83, main_v84, main_c_145, main_v85, main_v86, main_v87, main_c_146, main_v88, main_v89, main_v90]
set_option maxRecDepth 8192 in
set_option maxHeartbeats 4000000 in
theorem ops3_writes : (ops3 : List (HloOp τ sig (Elt F))).Forall fun op => op.writes ⊆ (ops3_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer that window 3 does not write keeps its contents through it. -/
theorem val4_keep (V0 : Valuation τ sig (Elt F)) (r : Ref sig .tc) (h : r ∉ ops3_W) :
    val4 V0 (Proc.devRef .tc r) = val3 V0 (Proc.devRef .tc r) :=
  after_of_writes_sub ops3 _ ops3_writes h

/-- The contents after the first 5 windows. -/
def val5 (V0 : Valuation τ sig (Elt F)) : Valuation τ sig (Elt F) := after ops4 (val4 V0)
/-- The buffers that window 4 writes. -/
abbrev ops4_W : List (Ref sig .tc) := [main_v91, main_v92, main_v93, main_v94, main_cst_147, main_v95, main_v96, main_c_148, main_v97, main_v98, main_v99, main_c_149, main_v100, main_v101, main_v102, main_v103, main_v104, main_v105, main_v106, main_cst_150, main_v107, main_v108, main_c_151, main_v109, main_v110, main_v111, main_c_152, main_v112, main_v113, main_v114, main_v115, main_v116, main_v117, main_v118, main_cst_153, main_v119, main_v120, main_c_154, main_v121, main_v122, main_v123, main_c_155, main_v124, main_v125, main_v126, main_v127, main_v128, main_v129, main_v130, main_cst_156, main_v131, main_v132, main_c_157, main_v133, main_v134, main_v135, main_c_158, main_v136, main_v137, main_v138]
set_option maxRecDepth 8192 in
set_option maxHeartbeats 4000000 in
theorem ops4_writes : (ops4 : List (HloOp τ sig (Elt F))).Forall fun op => op.writes ⊆ (ops4_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer that window 4 does not write keeps its contents through it. -/
theorem val5_keep (V0 : Valuation τ sig (Elt F)) (r : Ref sig .tc) (h : r ∉ ops4_W) :
    val5 V0 (Proc.devRef .tc r) = val4 V0 (Proc.devRef .tc r) :=
  after_of_writes_sub ops4 _ ops4_writes h

/-- The contents after the first 6 windows. -/
def val6 (V0 : Valuation τ sig (Elt F)) : Valuation τ sig (Elt F) := after ops5 (val5 V0)
/-- The buffers that window 5 writes. -/
abbrev ops5_W : List (Ref sig .tc) := [main_v139, main_v140, main_v141, main_v142, main_cst_159, main_v143, main_v144, main_c_160, main_v145, main_v146, main_v147, main_c_161, main_v148, main_v149, main_v150, main_v151, main_v152, main_v153, main_v154, main_cst_162, main_v155, main_v156, main_c_163, main_v157, main_v158, main_v159, main_c_164, main_v160, main_v161, main_v162, main_v163, main_v164, main_v165, main_v166, main_cst_165, main_v167, main_v168, main_c_166, main_v169, main_v170, main_v171, main_c_167, main_v172, main_v173, main_v174, main_v175, main_v176, main_v177, main_v178, main_cst_168, main_v179, main_v180, main_c_169, main_v181, main_v182, main_v183, main_c_170, main_v184, main_v185, main_v186]
set_option maxRecDepth 8192 in
set_option maxHeartbeats 4000000 in
theorem ops5_writes : (ops5 : List (HloOp τ sig (Elt F))).Forall fun op => op.writes ⊆ (ops5_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer that window 5 does not write keeps its contents through it. -/
theorem val6_keep (V0 : Valuation τ sig (Elt F)) (r : Ref sig .tc) (h : r ∉ ops5_W) :
    val6 V0 (Proc.devRef .tc r) = val5 V0 (Proc.devRef .tc r) :=
  after_of_writes_sub ops5 _ ops5_writes h

/-- The contents after the first 7 windows. -/
def val7 (V0 : Valuation τ sig (Elt F)) : Valuation τ sig (Elt F) := after ops6 (val6 V0)
/-- The buffers that window 6 writes. -/
abbrev ops6_W : List (Ref sig .tc) := [main_v187, main_v188, main_v189, main_v190, main_cst_171, main_v191, main_v192, main_c_172, main_v193, main_v194, main_v195, main_c_173, main_v196, main_v197, main_v198, main_v199, main_v200, main_v201, main_v202, main_cst_174, main_v203, main_v204, main_c_175, main_v205, main_v206, main_v207, main_c_176, main_v208, main_v209, main_v210, main_v211, main_v212, main_v213, main_v214, main_cst_177, main_v215, main_v216, main_c_178, main_v217, main_v218, main_v219, main_c_179, main_v220, main_v221, main_v222, main_v223, main_v224, main_v225, main_v226, main_cst_180, main_v227, main_v228, main_c_181, main_v229, main_v230, main_v231, main_c_182, main_v232, main_v233, main_v234]
set_option maxRecDepth 8192 in
set_option maxHeartbeats 4000000 in
theorem ops6_writes : (ops6 : List (HloOp τ sig (Elt F))).Forall fun op => op.writes ⊆ (ops6_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer that window 6 does not write keeps its contents through it. -/
theorem val7_keep (V0 : Valuation τ sig (Elt F)) (r : Ref sig .tc) (h : r ∉ ops6_W) :
    val7 V0 (Proc.devRef .tc r) = val6 V0 (Proc.devRef .tc r) :=
  after_of_writes_sub ops6 _ ops6_writes h

/-- The contents after the first 8 windows. -/
def val8 (V0 : Valuation τ sig (Elt F)) : Valuation τ sig (Elt F) := after ops7 (val7 V0)
/-- The buffers that window 7 writes. -/
abbrev ops7_W : List (Ref sig .tc) := [main_v235, main_v236, main_v237, main_v238, main_cst_183, main_v239, main_v240, main_c_184, main_v241, main_v242, main_v243, main_c_185, main_v244, main_v245, main_v246, main_v247, main_v248, main_v249, main_v250, main_cst_186, main_v251, main_v252, main_c_187, main_v253, main_v254, main_v255, main_c_188, main_v256, main_v257, main_v258, main_v259, main_v260, main_v261, main_v262, main_cst_189, main_v263, main_v264, main_c_190, main_v265, main_v266, main_v267, main_c_191, main_v268, main_v269, main_v270, main_v271, main_v272, main_v273, main_v274, main_cst_192, main_v275, main_v276, main_c_193, main_v277, main_v278, main_v279, main_c_194, main_v280, main_v281, main_v282]
set_option maxRecDepth 8192 in
set_option maxHeartbeats 4000000 in
theorem ops7_writes : (ops7 : List (HloOp τ sig (Elt F))).Forall fun op => op.writes ⊆ (ops7_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer that window 7 does not write keeps its contents through it. -/
theorem val8_keep (V0 : Valuation τ sig (Elt F)) (r : Ref sig .tc) (h : r ∉ ops7_W) :
    val8 V0 (Proc.devRef .tc r) = val7 V0 (Proc.devRef .tc r) :=
  after_of_writes_sub ops7 _ ops7_writes h

/-- The contents after the first 9 windows. -/
def val9 (V0 : Valuation τ sig (Elt F)) : Valuation τ sig (Elt F) := after ops8 (val8 V0)
/-- The buffers that window 8 writes. -/
abbrev ops8_W : List (Ref sig .tc) := [main_v283, main_v284, main_v285, main_v286, main_cst_195, main_v287, main_v288, main_c_196, main_v289, main_v290, main_v291, main_c_197, main_v292, main_v293, main_v294, main_v295, main_v296, main_v297, main_v298, main_cst_198, main_v299, main_v300, main_c_199, main_v301, main_v302, main_v303, main_c_200, main_v304, main_v305, main_v306, main_v307, main_v308, main_v309, main_v310, main_cst_201, main_v311, main_v312, main_c_202, main_v313, main_v314, main_v315, main_c_203, main_v316, main_v317, main_v318, main_v319, main_v320, main_v321, main_v322, main_cst_204, main_v323, main_v324, main_c_205, main_v325, main_v326, main_v327, main_c_206, main_v328, main_v329, main_v330]
set_option maxRecDepth 8192 in
set_option maxHeartbeats 4000000 in
theorem ops8_writes : (ops8 : List (HloOp τ sig (Elt F))).Forall fun op => op.writes ⊆ (ops8_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer that window 8 does not write keeps its contents through it. -/
theorem val9_keep (V0 : Valuation τ sig (Elt F)) (r : Ref sig .tc) (h : r ∉ ops8_W) :
    val9 V0 (Proc.devRef .tc r) = val8 V0 (Proc.devRef .tc r) :=
  after_of_writes_sub ops8 _ ops8_writes h

/-- The contents after the first 10 windows. -/
def val10 (V0 : Valuation τ sig (Elt F)) : Valuation τ sig (Elt F) := after ops9 (val9 V0)
/-- The buffers that window 9 writes. -/
abbrev ops9_W : List (Ref sig .tc) := [main_v331, main_v332, main_v333, main_v334, main_cst_207, main_v335, main_v336, main_c_208, main_v337, main_v338, main_v339, main_c_209, main_v340, main_v341, main_v342, main_v343, main_v344, main_v345, main_v346, main_cst_210, main_v347, main_v348, main_c_211, main_v349, main_v350, main_v351, main_c_212, main_v352, main_v353, main_v354, main_v355, main_v356, main_v357, main_v358, main_cst_213, main_v359, main_v360, main_c_214, main_v361, main_v362, main_v363, main_c_215, main_v364, main_v365, main_v366, main_v367, main_v368, main_v369, main_v370]
set_option maxRecDepth 8192 in
set_option maxHeartbeats 4000000 in
theorem ops9_writes : (ops9 : List (HloOp τ sig (Elt F))).Forall fun op => op.writes ⊆ (ops9_W.map (Proc.devRef (τ := τ) .tc)).toFinset := by
  simp only [List.Forall]; exact ⟨by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide), by simp only [nullary_writes, unary_writes, binary_writes, ternary_writes, Finset.singleton_subset_iff, List.mem_toFinset]; exact List.mem_map_of_mem (by decide)⟩
/-- A buffer that window 9 does not write keeps its contents through it. -/
theorem val10_keep (V0 : Valuation τ sig (Elt F)) (r : Ref sig .tc) (h : r ∉ ops9_W) :
    val10 V0 (Proc.devRef .tc r) = val9 V0 (Proc.devRef .tc r) :=
  after_of_writes_sub ops9 _ ops9_writes h

/-- The contents after two lists of operations in a row. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

theorem after_ops (V0 : Valuation τ sig (Elt F)) : after ops V0 = val10 V0 := by
  simp only [ops, after_app]
  rfl

end Cert.RefRun

end
-- ==== Proof.RefRunW0.lean ====
/-
  The buffers that are still read after the first 0 windows, each at its term over the contents at launch: a buffer
  written earlier keeps its contents through the window, a buffer the window writes is read off the window's operations.
-/
import proofs.«156021_j19232863551513_2_alg».proof.Proof.RefRunOps

noncomputable section

namespace Cert.RefRun

open Cert.ReferenceIdeal Cert.ReferenceIdeal.Facts₀ Cert.ReferenceIdeal.Facts Cert.RefTerm
open Idealize.ShloMosaic Idealize.ShloMosaic.TcCoe Idealize.SL.Sem Idealize.ShloMosaic.StableHlo

variable {F : FTy → Type} [FloatOps F]

theorem val0_main_arg0 (V0 : Valuation τ sig (Elt F)) : val0 V0 (no_index (Proc.devRef .tc main_arg0)) = V0 (Proc.devRef .tc main_arg0) := rfl

end Cert.RefRun

end
-- ==== Proof.RefRunW1.lean ====
/-
  The buffers that are still read after the first 1 windows, each at its term over the contents at launch: a buffer
  written earlier keeps its contents through the window, a buffer the window writes is read off the window's operations.
-/
import proofs.«156021_j19232863551513_2_alg».proof.Proof.RefRunW0

noncomputable section

namespace Cert.RefRun

open Cert.ReferenceIdeal Cert.ReferenceIdeal.Facts₀ Cert.ReferenceIdeal.Facts Cert.RefTerm
open Idealize.ShloMosaic Idealize.ShloMosaic.TcCoe Idealize.SL.Sem Idealize.ShloMosaic.StableHlo

variable {F : FTy → Type} [FloatOps F]

theorem val1_main_arg0 (V0 : Valuation τ sig (Elt F)) : val1 V0 (no_index (Proc.devRef .tc main_arg0)) = V0 (Proc.devRef .tc main_arg0) :=
  (val1_keep V0 main_arg0 (by decide)).trans (val0_main_arg0 V0)
set_option maxRecDepth 8192 in
set_option maxHeartbeats 2000000 in
theorem val1_main_c (V0 : Valuation τ sig (Elt F)) : val1 V0 (no_index (Proc.devRef .tc main_c)) = (fun i => lit0 (S64.rowMajor i) : (⟨S64, .i32⟩ : BufTy).Contents (Elt F)) := by
  unfold val1
  simp only [ops0]
  after_results_simp
  all_goals rfl
set_option maxRecDepth 8192 in
set_option maxHeartbeats 2000000 in
theorem val1_main_c_0 (V0 : Valuation τ sig (Elt F)) : val1 V0 (no_index (Proc.devRef .tc main_c_0)) = (constantI S64 1 0#1 : (⟨S64, .i1⟩ : BufTy).Contents (Elt F)) := by
  unfold val1
  simp only [ops0]
  after_results_simp
  all_goals rfl
set_option maxRecDepth 8192 in
set_option maxHeartbeats 2000000 in
theorem val1_main_c_1 (V0 : Valuation τ sig (Elt F)) : val1 V0 (no_index (Proc.devRef .tc main_c_1)) = (fun i => lit1 (S64.rowMajor i) : (⟨S64, .i32⟩ : BufTy).Contents (Elt F)) := by
  unfold val1
  simp only [ops0]
  after_results_simp
  all_goals rfl
set_option maxRecDepth 8192 in
set_option maxHeartbeats 2000000 in
theorem val1_main_c_2 (V0 : Valuation τ sig (Elt F)) : val1 V0 (no_index (Proc.devRef .tc main_c_2)) = (constantI S64 1 0#1 : (⟨S64, .i1⟩ : BufTy).Contents (Elt F)) := by
  unfold val1
  simp only [ops0]
  after_results_simp
  all_goals rfl
set_option maxRecDepth 8192 in
set_option maxHeartbeats 2000000 in
theorem val1_main_c_3 (V0 : Valuation τ sig (Elt F)) : val1 V0 (no_index (Proc.devRef .tc main_c_3)) = (fun i => lit2 (S63.rowMajor i) : (⟨S63, .i32⟩ : BufTy).Contents (Elt F)) := by
  unfold val1
  simp only [ops0]
  after_results_simp
  all_goals rfl
set_option maxRecDepth 8192 in
set_option maxHeartbeats 2000000 in
theorem val1_main_c_4 (V0 : Valuation τ sig (Elt F)) : val1 V0 (no_index (Proc.devRef .tc main_c_4)) = (constantI S63 1 0#1 : (⟨S63, .i1⟩ : BufTy).Contents (Elt F)) := by
  unfold val1
  simp only [ops0]
  after_results_simp
  all_goals rfl
set_option maxRecDepth 8192 in
set_option maxHeartbeats 2000000 in
theorem val1_main_c_5 (V0 : Valuation τ sig (Elt F)) : val1 V0 (no_index (Proc.devRef .tc main_c_5)) = (fun i => lit3 (S63.rowMajor i) : (⟨S63, .i32⟩ : BufTy).Contents (Elt F)) := by
  unfold val1
  simp only [ops0]
  after_results_simp
  all_goals rfl
set_option maxRecDepth 8192 in
set_option maxHeartbeats 2000000 in
theorem val1_main_c_6 (V0 : Valuation τ sig (Elt F)) : val1 V0 (no_index (Proc.devRef .tc main_c_6)) = (constantI S63 1 0#1 : (⟨S63, .i1⟩ : BufTy).Contents (Elt F)) := by
  unfold val1
  simp only [ops0]
  after_results_simp
  all_goals rfl
set_option maxRecDepth 8192 in
set_option maxHeartbeats 2000000 in
theorem val1_main_c_7 (V0 : Valuation τ sig (Elt F)) : val1 V0 (no_index (Proc.devRef .tc main_c_7)) = (fun i => lit4 (S62.rowMajor i) : (⟨S62, .i32⟩ : BufTy).Contents (Elt F)) := by
  unfold val1
  simp only [ops0]
  after_results_simp
  all_goals rfl
set_option maxRecDepth 8192 in
set_option maxHeartbeats 2000000 in
theorem val1_main_c_8 (V0 : Valuation τ sig (Elt F)) : val1 V0 (no_index (Proc.devRef .tc main_c_8)) = (constantI S62 1 0#1 : (⟨S62, .i1⟩ : BufTy).Contents (Elt F)) := by
  unfold val1
  simp only [ops0]
  after_results_simp
  all_goals rfl
set_option maxRecDepth 8192 in
set_option maxHeartbeats 2000000 in
theorem val1_main_c_9 (V0 : Valuation τ sig (Elt F)) : val1 V0 (no_index (Proc.devRef .tc main_c_9)) = (fun i => lit5 (S62.rowMajor i) : (⟨S62, .i32⟩ : BufTy).Contents (Elt F)) := by
  unfold val1
  simp only [ops0]
  after_results_simp
  all_goals rfl
set_option maxRecDepth 8192 in
set_option maxHeartbeats 2000000 in
theorem val1_main_c_10 (V0 : Valuation τ sig (Elt F)) : val1 V0 (no_index (Proc.devRef .tc main_c_10)) = (constantI S62 1 0#1 : (⟨S62, .i1⟩ : BufTy).Contents (Elt F)) := by
  unfold val1
  simp only [ops0]
  after_results_simp
  all_goals rfl
set_option maxRecDepth 8192 in
set_option maxHeartbeats 2000000 in
theorem val1_main_c_11 (V0 : Valuation τ sig (Elt F)) : val1 V0 (no_index (Proc.devRef .tc main_c_11)) = (fun i => lit6 (S61.rowMajor i) : (⟨S61, .i32⟩ : BufTy).Contents (Elt F)) := by
  unfold val1
  simp only [ops0]
  after_results_simp
  all_goals rfl
set_option maxRecDepth 8192 in
set_option maxHeartbeats 2000000 in
theorem val1_main_c_12 (V0 : Valuation τ sig (Elt F)) : val1 V0 (no_index (Proc.devRef .tc main_c_12)) = (constantI S61 1 0#1 : (⟨S61, .i1⟩ : BufTy).Contents (Elt F)) := by
  unfold val1
  simp only [ops0]
  after_results_simp
  all_goals rfl
set_option maxRecDepth 8192 in
set_option maxHeartbeats 2000000 in
theorem val1_main_c_13 (V0 : Valuation τ sig (Elt F)) : val1 V0 (no_index (Proc.devRef .tc main_c_13)) = (fun i => lit7 (S61.rowMajor i) : (⟨S61, .i32⟩ : BufTy).Contents (Elt F)) := by
  unfold val1
  simp only [ops0]
  after_results_simp
  all_goals rfl
set_option maxRecDepth 8192 in
set_option maxHeartbeats 2000000 in
theorem val1_main_c_14 (V0 : Valuation τ sig (Elt F)) : val1 V0 (no_index (Proc.devRef .tc main_c_14)) = (constantI S61 1 0#1 : (⟨S61, .i1⟩ : BufTy).Contents (Elt F)) := by
  unfold val1
  simp only [ops0]
  after_results_simp
  all_goals rfl
set_option maxRecDepth 8192 in
set_option maxHeartbeats 2000000 in
theorem val1_main_c_15 (V0 : Valuation τ sig (Elt F)) : val1 V0 (no_index (Proc.devRef .tc main_c_15)) = (fun i => lit8 (S60.rowMajor i) : (⟨S60, .i32⟩ : BufTy).Contents (Elt F)) := by
  unfold val1
  simp only [ops0]
  after_results_simp
  all_goals rfl
set_option maxRecDepth 8192 in
set_option maxHeartbeats 2000000 in
theorem val1_main_c_16 (V0 : Valuation τ sig (Elt F)) : val1 V0 (no_index (Proc.devRef .tc main_c_16)) = (constantI S60 1 0#1 : (⟨S60, .i1⟩ : BufTy).Contents (Elt F)) := by
  unfold val1
  simp only [ops0]
  after_results_simp
  all_goals rfl
set_option maxRecDepth 8192 in
set_option maxHeartbeats 2000000 in
theorem val1_main_c_17 (V0 : Valuation τ sig (Elt F)) : val1 V0 (no_index (Proc.devRef .tc main_c_17)) = (fun i => lit9 (S60.rowMajor i) : (⟨S60, .i32⟩ : BufTy).Contents (Elt F)) := by
  unfold val1
  simp only [ops0]
  after_results_simp
  all_goals rfl
set_option maxRecDepth 8192 in
set_option maxHeartbeats 2000000 in
theorem val1_main_c_18 (V0 : Valuation τ sig (Elt F)) : val1 V0 (no_index (Proc.devRef .tc main_c_18)) = (constantI S60 1 0#1 : (⟨S60, .i1⟩ : BufTy).Contents (Elt F)) := by
  unfold val1
  simp only [ops0]
  after_results_simp
  all_goals rfl
set_option maxRecDepth 8192 in
set_option maxHeartbeats 2000000 in
theorem val1_main_c_19 (V0 : Valuation τ sig (Elt F)) : val1 V0 (no_index (Proc.devRef .tc main_c_19)) = (fun i => lit10 (S59.rowMajor i) : (⟨S59, .i32⟩ : BufTy).Contents (Elt F)) := by
  unfold val1
  simp only [ops0]
  after_results_simp
  all_goals rfl
set_option maxRecDepth 8192 in
set_option maxHeartbeats 2000000 in
theorem val1_main_c_20 (V0 : Valuation τ sig (Elt F)) : val1 V0 (no_index (Proc.devRef .tc main_c_20)) = (constantI S59 1 0#1 : (⟨S59, .i1⟩ : BufTy).Contents (Elt F)) := by
  unfold val1
  simp only [ops0]
  after_results_simp
  all_goals rfl
set_option maxRecDepth 8192 in
set_option maxHeartbeats 2000000 in
theorem val1_main_c_21 (V0 : Valuation τ sig (Elt F)) : val1 V0 (no_index (Proc.devRef .tc main_c_21)) = (fun i => lit11 (S59.rowMajor i) : (⟨S59, .i32⟩ : BufTy).Contents (Elt F)) := by
  unfold val1
  simp only [ops0]
  after_results_simp
  all_goals rfl
set_option maxRecDepth 8192 in
set_option maxHeartbeats 2000000 in
theorem val1_main_c_22 (V0 : Valuation τ sig (Elt F)) : val1 V0 (no_index (Proc.devRef .tc main_c_22)) = (constantI S59 1 0#1 : (⟨S59, .i1⟩ : BufTy).Contents (Elt F)) := by
  unfold val1
  simp only [ops0]
  after_results_simp
  all_goals rfl
set_option maxRecDepth 8192 in
set_option maxHeartbeats 2000000 in
theorem val1_main_c_23 (V0 : Valuation τ sig (Elt F)) : val1 V0 (no_index (Proc.devRef .tc main_c_23)) = (fun i => lit12 (S58.rowMajor i) : (⟨S58, .i32⟩ : BufTy).Contents (Elt F)) := by
  unfold val1
  simp only [ops0]
  after_results_simp
  all_goals rfl
set_option maxRecDepth 8192 in
set_option maxHeartbeats 2000000 in
theorem val1_main_c_24 (V0 : Valuation τ sig (Elt F)) : val1 V0 (no_index (Proc.devRef .tc main_c_24)) = (constantI S58 1 0#1 : (⟨S58, .i1⟩ : BufTy).Contents (Elt F)) := by
  unfold val1
  simp only [ops0]
  after_results_simp
  all_goals rfl
set_option maxRecDepth 8192 in
set_option maxHeartbeats 2000000 in
theorem val1_main_c_25 (V0 : Valuation τ sig (Elt F)) : val1 V0 (no_index (Proc.devRef .tc main_c_25)) = (fun i => lit13 (S58.rowMajor i) : (⟨S58, .i32⟩ : BufTy).Contents (Elt F)) := by
  unfold val1
  simp only [ops0]
  after_results_simp
  all_goals rfl
set_option maxRecDepth 8192 in
set_option maxHeartbeats 2000000 in
theorem val1_main_c_26 (V0 : Valuation τ sig (Elt F)) : val1 V0 (no_index (Proc.devRef .tc main_c_26)) = (constantI S58 1 0#1 : (⟨S58, .i1⟩ : BufTy).Contents (Elt F)) := by
  unfold val1
  simp only [ops0]
  after_results_simp
  all_goals rfl
set_option maxRecDepth 8192 in
set_option maxHeartbeats 2000000 in
theorem val1_main_c_27 (V0 : Valuation τ sig (Elt F)) : val1 V0 (no_index (Proc.devRef .tc main_c_27)) = (fun i => lit14 (S57.rowMajor i) : (⟨S57, .i32⟩ : BufTy).Contents (Elt F)) := by
  unfold val1
  simp only [ops0]
  after_results_simp
  all_goals rfl
set_option maxRecDepth 8192 in
set_option maxHeartbeats 2000000 in
theorem val1_main_c_28 (V0 : Valuation τ sig (Elt F)) : val1 V0 (no_index (Proc.devRef .tc main_c_28)) = (constantI S57 1 0#1 : (⟨S57, .i1⟩ : BufTy).Contents (Elt F)) := by
  unfold val1
  simp only [ops0]
  after_results_simp
  all_goals rfl
set_option maxRecDepth 8192 in
set_option maxHeartbeats 2000000 in
theorem val1_main_c_29 (V0 : Valuation τ sig (Elt F)) : val1 V0 (no_index (Proc.devRef .tc main_c_29)) = (fun i => lit15 (S57.rowMajor i) : (⟨S57, .i32⟩ : BufTy).Contents (Elt F)) := by
  unfold val1
  simp only [ops0]
  after_results_simp
  all_goals rfl
set_option maxRecDepth 8192 in
set_option maxHeartbeats 2000000 in
theorem val1_main_c_30 (V0 : Valuation τ sig (Elt F)) : val1 V0 (no_index (Proc.devRef .tc main_c_30)) = (constantI S57 1 0#1 : (⟨S57, .i1⟩ : BufTy).Contents (Elt F)) := by
  unfold val1
  simp only [ops0]
  after_results_simp
  all_goals rfl
set_option maxRecDepth 8192 in
set_option maxHeartbeats 2000000 in
theorem val1_main_c_31 (V0 : Valuation τ sig (Elt F)) : val1 V0 (no_index (Proc.devRef .tc main_c_31)) = (fun i => lit16 (S56.rowMajor i) : (⟨S56, .i32⟩ : BufTy).Contents (Elt F)) := by
  unfold val1
  simp only [ops0]
  after_results_simp
  all_goals rfl
set_option maxRecDepth 8192 in
set_option maxHeartbeats 2000000 in
theorem val1_main_c_32 (V0 : Valuation τ sig (Elt F)) : val1 V0 (no_index (Proc.devRef .tc main_c_32)) = (constantI S56 1 0#1 : (⟨S56, .i1⟩ : BufTy).Contents (Elt F)) := by
  unfold val1
  simp only [ops0]
  after_results_simp
  all_goals rfl
set_option maxRecDepth 8192 in
set_option maxHeartbeats 2000000 in
theorem val1_main_c_33 (V0 : Valuation τ sig (Elt F)) : val1 V0 (no_index (Proc.devRef .tc main_c_33)) = (fun i => lit17 (S56.rowMajor i) : (⟨S56, .i32⟩ : BufTy).Contents (Elt F)) := by
  unfold val1
  simp only [ops0]
  after_results_simp
  all_goals rfl
set_option maxRecDepth 8192 in
set_option maxHeartbeats 2000000 in
theorem val1_main_c_34 (V0 : Valuation τ sig (Elt F)) : val1 V0 (no_index (Proc.devRef .tc main_c_34)) = (constantI S56 1 0#1 : (⟨S56, .i1⟩ : BufTy).Contents (Elt F)) := by
  unfold val1
  simp only [ops0]
  after_results_simp
  all_goals rfl
set_option maxRecDepth 8192 in
set_option maxHeartbeats 2000000 in
theorem val1_main_c_35 (V0 : Valuation τ sig (Elt F)) : val1 V0 (no_index (Proc.devRef .tc main_c_35)) = (fun i => lit18 (S55.rowMajor i) : (⟨S55, .i32⟩ : BufTy).Contents (Elt F)) := by
  unfold val1
  simp only [ops0]
  after_results_simp
  all_goals rfl
set_option maxRecDepth 8192 in
set_option maxHeartbeats 2000000 in
theorem val1_main_c_36 (V0 : Valuation τ sig (Elt F)) : val1 V0 (no_index (Proc.devRef .tc main_c_36)) = (constantI S55 1 0#1 : (⟨S55, .i1⟩ : BufTy).Contents (Elt F)) := by
  unfold val1
  simp only [ops0]
  after_results_simp
  all_goals rfl
set_option maxRecDepth 8192 in
set_option maxHeartbeats 2000000 in
theorem val1_main_c_37 (V0 : Valuation τ sig (Elt F)) : val1 V0 (no_index (Proc.devRef .tc main_c_37)) = (fun i => lit19 (S55.rowMajor i) : (⟨S55, .i32⟩ : BufTy).Contents (Elt F)) := by
  unfold val1
  simp only [ops0]
  after_results_simp
  all_goals rfl
set_option maxRecDepth 8192 in
set_option maxHeartbeats 2000000 in
theorem val1_main_c_38 (V0 : Valuation τ sig (Elt F)) : val1 V0 (no_index (Proc.devRef .tc main_c_38)) = (constantI S55 1 0#1 : (⟨S55, .i1⟩ : BufTy).Contents (Elt F)) := by
  unfold val1
  simp only [ops0]
  after_results_simp
  all_goals rfl
set_option maxRecDepth 8192 in
set_option maxHeartbeats 2000000 in
theorem val1_main_c_39 (V0 : Valuation τ sig (Elt F)) : val1 V0 (no_index (Proc.devRef .tc main_c_39)) = (fun i => lit20 (S54.rowMajor i) : (⟨S54, .i32⟩ : BufTy).Contents (Elt F)) := by
  unfold val1
  simp only [ops0]
  after_results_simp
  all_goals rfl
set_option maxRecDepth 8192 in
set_option maxHeartbeats 2000000 in
theorem val1_main_c_40 (V0 : Valuation τ sig (Elt F)) : val1 V0 (no_index (Proc.devRef .tc main_c_40)) = (constantI S54 1 0#1 : (⟨S54, .i1⟩ : BufTy).Contents (Elt F)) := by
  unfold val1
  simp only [ops0]
  after_results_simp
  all_goals rfl
set_option maxRecDepth 8192 in
set_option maxHeartbeats 2000000 in
theorem val1_main_c_41 (V0 : Valuation τ sig (Elt F)) : val1 V0 (no_index (Proc.devRef .tc main_c_41)) = (fun i => lit21 (S54.rowMajor i) : (⟨S54, .i32⟩ : BufTy).Contents (Elt F)) := by
  unfold val1
  simp only [ops0]
  after_results_simp
  all_goals rfl
set_option maxRecDepth 8192 in
set_option maxHeartbeats 2000000 in
theorem val1_main_c_42 (V0 : Valuation τ sig (Elt F)) : val1 V0 (no_index (Proc.devRef .tc main_c_42)) = (constantI S54 1 0#1 : (⟨S54, .i1⟩ : BufTy).Contents (Elt F)) := by
  unfold val1
  simp only [ops0]
  after_results_simp
  all_goals rfl
set_option maxRecDepth 8192 in
set_option maxHeartbeats 2000000 in
theorem val1_main_c_43 (V0 : Valuation τ sig (Elt F)) : val1 V0 (no_index (Proc.devRef .tc main_c_43)) = (fun i => lit22 (S53.rowMajor i) : (⟨S53, .i32⟩ : BufTy).Contents (Elt F)) := by
  unfold val1
  simp only [ops0]
  after_results_simp
  all_goals rfl
set_option maxRecDepth 8192 in
set_option maxHeartbeats 2000000 in
theorem val1_main_c_44 (V0 : Valuation τ sig (Elt F)) : val1 V0 (no_index (Proc.devRef .tc main_c_44)) = (constantI S53 1 0#1 : (⟨S53, .i1⟩ : BufTy).Contents (Elt F)) := by
  unfold val1
  simp only [ops0]
  after_results_simp
  all_goals rfl
set_option maxRecDepth 8192 in
set_option maxHeartbeats 2000000 in
theorem val1_main_c_45 (V0 : Valuation τ sig (Elt F)) : val1 V0 (no_index (Proc.devRef .tc main_c_45)) = (fun i => lit23 (S53.rowMajor i) : (⟨S53, .i32⟩ : BufTy).Contents (Elt F)) := by
  unfold val1
  simp only [ops0]
  after_results_simp
  all_goals rfl
set_option maxRecDepth 8192 in
set_option maxHeartbeats 2000000 in
theorem val1_main_c_46 (V0 : Valuation τ sig (Elt F)) : val1 V0 (no_index (Proc.devRef .tc main_c_46)) = (constantI S53 1 0#1 : (⟨S53, .i1⟩ : BufTy).Contents (Elt F)) := by
  unfold val1
  simp only [ops0]
  after_results_simp
  all_goals rfl
set_option maxRecDepth 8192 in
set_option maxHeartbeats 2000000 in
theorem val1_main_c_47 (V0 : Valuation τ sig (Elt F)) : val1 V0 (no_index (Proc.devRef .tc main_c_47)) = (fun i => lit24 (S52.rowMajor i) : (⟨S52, .i32⟩ : BufTy).Contents (Elt F)) := by
  unfold val1
  simp only [ops0]
  after_results_simp
  all_goals rfl
set_option maxRecDepth 8192 in
set_option maxHeartbeats 2000000 in
theorem val1_main_c_48 (V0 : Valuation τ sig (Elt F)) : val1 V0 (no_index (Proc.devRef .tc main_c_48)) = (constantI S52 1 0#1 : (⟨S52, .i1⟩ : BufTy).Contents (Elt F)) := by
  unfold val1
  simp only [ops0]
  after_results_simp
  all_goals rfl
set_option maxRecDepth 8192 in
set_option maxHeartbeats 2000000 in
theorem val1_main_c_49 (V0 : Valuation τ sig (Elt F)) : val1 V0 (no_index (Proc.devRef .tc main_c_49)) = (fun i => lit25 (S52.rowMajor i) : (⟨S52, .i32⟩ : BufTy).Contents (Elt F)) := by
  unfold val1
  simp only [ops0]
  after_results_simp
  all_goals rfl
set_option maxRecDepth 8192 in
set_option maxHeartbeats 2000000 in
theorem val1_main_c_50 (V0 : Valuation τ sig (Elt F)) : val1 V0 (no_index (Proc.devRef .tc main_c_50)) = (constantI S52 1 0#1 : (⟨S52, .i1⟩ : BufTy).Contents (Elt F)) := by
  unfold val1
  simp only [ops0]
  after_results_simp
  all_goals rfl
set_option maxRecDepth 8192 in
set_option maxHeartbeats 2000000 in
theorem val1_main_c_51 (V0 : Valuation τ sig (Elt F)) : val1 V0 (no_index (Proc.devRef .tc main_c_51)) = (fun i => lit26 (S51.rowMajor i) : (⟨S51, .i32⟩ : BufTy).Contents (Elt F)) := by
  unfold val1
  simp only [ops0]
  after_results_simp
  all_goals rfl
set_option maxRecDepth 8192 in
set_option maxHeartbeats 2000000 in
theorem val1_main_c_52 (V0 : Valuation τ sig (Elt F)) : val1 V0 (no_index (Proc.devRef .tc main_c_52)) = (constantI S51 1 0#1 : (⟨S51, .i1⟩ : BufTy).Contents (Elt F)) := by
  unfold val1
  simp only [ops0]
  after_results_simp
  all_goals rfl
set_option maxRecDepth 8192 in
set_option maxHeartbeats 2000000 in
theorem val1_main_c_53 (V0 : Valuation τ sig (Elt F)) : val1 V0 (no_index (Proc.devRef .tc main_c_53)) = (fun i => lit27 (S51.rowMajor i) : (⟨S51, .i32⟩ : BufTy).Contents (Elt F)) := by
  unfold val1
  simp only [ops0]
  after_results_simp
  all_goals rfl
set_option maxRecDepth 8192 in
set_option maxHeartbeats 2000000 in
theorem val1_main_c_54 (V0 : Valuation τ sig (Elt F)) : val1 V0 (no_index (Proc.devRef .tc main_c_54)) = (constantI S51 1 0#1 : (⟨S51, .i1⟩ : BufTy).Contents (Elt F)) := by
  unfold val1
  simp only [ops0]
  after_results_simp
  all_goals rfl
set_option maxRecDepth 8192 in
set_option maxHeartbeats 2000000 in
theorem val1_main_c_55 (V0 : Valuation τ sig (Elt F)) : val1 V0 (no_index (Proc.devRef .tc main_c_55)) = (fun i => lit28 (S50.rowMajor i) : (⟨S50, .i32⟩ : BufTy).Contents (Elt F)) := by
  unfold val1
  simp only [ops0]
  after_results_simp
  all_goals rfl
set_option maxRecDepth 8192 in
set_option maxHeartbeats 2000000 in
theorem val1_main_c_56 (V0 : Valuation τ sig (Elt F)) : val1 V0 (no_index (Proc.devRef .tc main_c_56)) = (constantI S50 1 0#1 : (⟨S50, .i1⟩ : BufTy).Contents (Elt F)) := by
  unfold val1
  simp only [ops0]
  after_results_simp
  all_goals rfl
set_option maxRecDepth 8192 in
set_option maxHeartbeats 2000000 in
theorem val1_main_c_57 (V0 : Valuation τ sig (Elt F)) : val1 V0 (no_index (Proc.devRef .tc main_c_57)) = (fun i => lit29 (S50.rowMajor i) : (⟨S50, .i32⟩ : BufTy).Contents (Elt F)) := by
  unfold val1
  simp only [ops0]
  after_results_simp
  all_goals rfl
set_option maxRecDepth 8192 in
set_option maxHeartbeats 2000000 in
theorem val1_main_c_58 (V0 : Valuation τ sig (Elt F)) : val1 V0 (no_index (Proc.devRef .tc main_c_58)) = (constantI S50 1 0#1 : (⟨S50, .i1⟩ : BufTy).Contents (Elt F)) := by
  unfold val1
  simp only [ops0]
  after_results_simp
  all_goals rfl

end Cert.RefRun

end
-- ==== Proof.RefRunW2.lean ====
/-
  The buffers that are still read after the first 2 windows, each at its term over the contents at launch: a buffer
  written earlier keeps its contents through the window, a buffer the window writes is read off the window's operations.
-/
import proofs.«156021_j19232863551513_2_alg».proof.Proof.RefRunW1

noncomputable section

namespace Cert.RefRun

open Cert.ReferenceIdeal Cert.ReferenceIdeal.Facts₀ Cert.ReferenceIdeal.Facts Cert.RefTerm
open Idealize.ShloMosaic Idealize.ShloMosaic.TcCoe Idealize.SL.Sem Idealize.ShloMosaic.StableHlo

variable {F : FTy → Type} [FloatOps F]

theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_c (V0 : Valuation τ sig (Elt F)) : val2 V0 (no_index (Proc.devRef .tc main_c)) = (fun i => lit0 (S64.rowMajor i) : (⟨S64, .i32⟩ : BufTy).Contents (Elt F)) :=
  (val2_keep V0 main_c (by decide)).trans (val1_main_c V0)
theorem val2_main_c_0 (V0 : Valuation τ sig (Elt F)) : val2 V0 (no_index (Proc.devRef .tc main_c_0)) = (constantI S64 1 0#1 : (⟨S64, .i1⟩ : BufTy).Contents (Elt F)) :=
  (val2_keep V0 main_c_0 (by decide)).trans (val1_main_c_0 V0)
theorem val2_main_c_1 (V0 : Valuation τ sig (Elt F)) : val2 V0 (no_index (Proc.devRef .tc main_c_1)) = (fun i => lit1 (S64.rowMajor i) : (⟨S64, .i32⟩ : BufTy).Contents (Elt F)) :=
  (val2_keep V0 main_c_1 (by decide)).trans (val1_main_c_1 V0)
theorem val2_main_c_2 (V0 : Valuation τ sig (Elt F)) : val2 V0 (no_index (Proc.devRef .tc main_c_2)) = (constantI S64 1 0#1 : (⟨S64, .i1⟩ : BufTy).Contents (Elt F)) :=
  (val2_keep V0 main_c_2 (by decide)).trans (val1_main_c_2 V0)
theorem val2_main_c_3 (V0 : Valuation τ sig (Elt F)) : val2 V0 (no_index (Proc.devRef .tc main_c_3)) = (fun i => lit2 (S63.rowMajor i) : (⟨S63, .i32⟩ : BufTy).Contents (Elt F)) :=
  (val2_keep V0 main_c_3 (by decide)).trans (val1_main_c_3 V0)
theorem val2_main_c_4 (V0 : Valuation τ sig (Elt F)) : val2 V0 (no_index (Proc.devRef .tc main_c_4)) = (constantI S63 1 0#1 : (⟨S63, .i1⟩ : BufTy).Contents (Elt F)) :=
  (val2_keep V0 main_c_4 (by decide)).trans (val1_main_c_4 V0)
theorem val2_main_c_5 (V0 : Valuation τ sig (Elt F)) : val2 V0 (no_index (Proc.devRef .tc main_c_5)) = (fun i => lit3 (S63.rowMajor i) : (⟨S63, .i32⟩ : BufTy).Contents (Elt F)) :=
  (val2_keep V0 main_c_5 (by decide)).trans (val1_main_c_5 V0)
theorem val2_main_c_6 (V0 : Valuation τ sig (Elt F)) : val2 V0 (no_index (Proc.devRef .tc main_c_6)) = (constantI S63 1 0#1 : (⟨S63, .i1⟩ : BufTy).Contents (Elt F)) :=
  (val2_keep V0 main_c_6 (by decide)).trans (val1_main_c_6 V0)
theorem val2_main_c_7 (V0 : Valuation τ sig (Elt F)) : val2 V0 (no_index (Proc.devRef .tc main_c_7)) = (fun i => lit4 (S62.rowMajor i) : (⟨S62, .i32⟩ : BufTy).Contents (Elt F)) :=
  (val2_keep V0 main_c_7 (by decide)).trans (val1_main_c_7 V0)
theorem val2_main_c_8 (V0 : Valuation τ sig (Elt F)) : val2 V0 (no_index (Proc.devRef .tc main_c_8)) = (constantI S62 1 0#1 : (⟨S62, .i1⟩ : BufTy).Contents (Elt F)) :=
  (val2_keep V0 main_c_8 (by decide)).trans (val1_main_c_8 V0)
theorem val2_main_c_9 (V0 : Valuation τ sig (Elt F)) : val2 V0 (no_index (Proc.devRef .tc main_c_9)) = (fun i => lit5 (S62.rowMajor i) : (⟨S62, .i32⟩ : BufTy).Contents (Elt F)) :=
  (val2_keep V0 main_c_9 (by decide)).trans (val1_main_c_9 V0)
theorem val2_main_c_10 (V0 : Valuation τ sig (Elt F)) : val2 V0 (no_index (Proc.devRef .tc main_c_10)) = (constantI S62 1 0#1 : (⟨S62, .i1⟩ : BufTy).Contents (Elt F)) :=
  (val2_keep V0 main_c_10 (by decide)).trans (val1_main_c_10 V0)
theorem val2_main_c_11 (V0 : Valuation τ sig (Elt F)) : val2 V0 (no_index (Proc.devRef .tc main_c_11)) = (fun i => lit6 (S61.rowMajor i) : (⟨S61, .i32⟩ : BufTy).Contents (Elt F)) :=
  (val2_keep V0 main_c_11 (by decide)).trans (val1_main_c_11 V0)
theorem val2_main_c_12 (V0 : Valuation τ sig (Elt F)) : val2 V0 (no_index (Proc.devRef .tc main_c_12)) = (constantI S61 1 0#1 : (⟨S61, .i1⟩ : BufTy).Contents (Elt F)) :=
  (val2_keep V0 main_c_12 (by decide)).trans (val1_main_c_12 V0)
theorem val2_main_c_13 (V0 : Valuation τ sig (Elt F)) : val2 V0 (no_index (Proc.devRef .tc main_c_13)) = (fun i => lit7 (S61.rowMajor i) : (⟨S61, .i32⟩ : BufTy).Contents (Elt F)) :=
  (val2_keep V0 main_c_13 (by decide)).trans (val1_main_c_13 V0)
theorem val2_main_c_14 (V0 : Valuation τ sig (Elt F)) : val2 V0 (no_index (Proc.devRef .tc main_c_14)) = (constantI S61 1 0#1 : (⟨S61, .i1⟩ : BufTy).Contents (Elt F)) :=
  (val2_keep V0 main_c_14 (by decide)).trans (val1_main_c_14 V0)
theorem val2_main_c_15 (V0 : Valuation τ sig (Elt F)) : val2 V0 (no_index (Proc.devRef .tc main_c_15)) = (fun i => lit8 (S60.rowMajor i) : (⟨S60, .i32⟩ : BufTy).Contents (Elt F)) :=
  (val2_keep V0 main_c_15 (by decide)).trans (val1_main_c_15 V0)
theorem val2_main_c_16 (V0 : Valuation τ sig (Elt F)) : val2 V0 (no_index (Proc.devRef .tc main_c_16)) = (constantI S60 1 0#1 : (⟨S60, .i1⟩ : BufTy).Contents (Elt F)) :=
  (val2_keep V0 main_c_16 (by decide)).trans (val1_main_c_16 V0)
theorem val2_main_c_17 (V0 : Valuation τ sig (Elt F)) : val2 V0 (no_index (Proc.devRef .tc main_c_17)) = (fun i => lit9 (S60.rowMajor i) : (⟨S60, .i32⟩ : BufTy).Contents (Elt F)) :=
  (val2_keep V0 main_c_17 (by decide)).trans (val1_main_c_17 V0)
theorem val2_main_c_18 (V0 : Valuation τ sig (Elt F)) : val2 V0 (no_index (Proc.devRef .tc main_c_18)) = (constantI S60 1 0#1 : (⟨S60, .i1⟩ : BufTy).Contents (Elt F)) :=
  (val2_keep V0 main_c_18 (by decide)).trans (val1_main_c_18 V0)
theorem val2_main_c_19 (V0 : Valuation τ sig (Elt F)) : val2 V0 (no_index (Proc.devRef .tc main_c_19)) = (fun i => lit10 (S59.rowMajor i) : (⟨S59, .i32⟩ : BufTy).Contents (Elt F)) :=
  (val2_keep V0 main_c_19 (by decide)).trans (val1_main_c_19 V0)
theorem val2_main_c_20 (V0 : Valuation τ sig (Elt F)) : val2 V0 (no_index (Proc.devRef .tc main_c_20)) = (constantI S59 1 0#1 : (⟨S59, .i1⟩ : BufTy).Contents (Elt F)) :=
  (val2_keep V0 main_c_20 (by decide)).trans (val1_main_c_20 V0)
theorem val2_main_c_21 (V0 : Valuation τ sig (Elt F)) : val2 V0 (no_index (Proc.devRef .tc main_c_21)) = (fun i => lit11 (S59.rowMajor i) : (⟨S59, .i32⟩ : BufTy).Contents (Elt F)) :=
  (val2_keep V0 main_c_21 (by decide)).trans (val1_main_c_21 V0)
theorem val2_main_c_22 (V0 : Valuation τ sig (Elt F)) : val2 V0 (no_index (Proc.devRef .tc main_c_22)) = (constantI S59 1 0#1 : (⟨S59, .i1⟩ : BufTy).Contents (Elt F)) :=
  (val2_keep V0 main_c_22 (by decide)).trans (val1_main_c_22 V0)
theorem val2_main_c_23 (V0 : Valuation τ sig (Elt F)) : val2 V0 (no_index (Proc.devRef .tc main_c_23)) = (fun i => lit12 (S58.rowMajor i) : (⟨S58, .i32⟩ : BufTy).Contents (Elt F)) :=
  (val2_keep V0 main_c_23 (by decide)).trans (val1_main_c_23 V0)
theorem val2_main_c_24 (V0 : Valuation τ sig (Elt F)) : val2 V0 (no_index (Proc.devRef .tc main_c_24)) = (constantI S58 1 0#1 : (⟨S58, .i1⟩ : BufTy).Contents (Elt F)) :=
  (val2_keep V0 main_c_24 (by decide)).trans (val1_main_c_24 V0)
theorem val2_main_c_25 (V0 : Valuation τ sig (Elt F)) : val2 V0 (no_index (Proc.devRef .tc main_c_25)) = (fun i => lit13 (S58.rowMajor i) : (⟨S58, .i32⟩ : BufTy).Contents (Elt F)) :=
  (val2_keep V0 main_c_25 (by decide)).trans (val1_main_c_25 V0)
theorem val2_main_c_26 (V0 : Valuation τ sig (Elt F)) : val2 V0 (no_index (Proc.devRef .tc main_c_26)) = (constantI S58 1 0#1 : (⟨S58, .i1⟩ : BufTy).Contents (Elt F)) :=
  (val2_keep V0 main_c_26 (by decide)).trans (val1_main_c_26 V0)
theorem val2_main_c_27 (V0 : Valuation τ sig (Elt F)) : val2 V0 (no_index (Proc.devRef .tc main_c_27)) = (fun i => lit14 (S57.rowMajor i) : (⟨S57, .i32⟩ : BufTy).Contents (Elt F)) :=
  (val2_keep V0 main_c_27 (by decide)).trans (val1_main_c_27 V0)
theorem val2_main_c_28 (V0 : Valuation τ sig (Elt F)) : val2 V0 (no_index (Proc.devRef .tc main_c_28)) = (constantI S57 1 0#1 : (⟨S57, .i1⟩ : BufTy).Contents (Elt F)) :=
  (val2_keep V0 main_c_28 (by decide)).trans (val1_main_c_28 V0)
theorem val2_main_c_29 (V0 : Valuation τ sig (Elt F)) : val2 V0 (no_index (Proc.devRef .tc main_c_29)) = (fun i => lit15 (S57.rowMajor i) : (⟨S57, .i32⟩ : BufTy).Contents (Elt F)) :=
  (val2_keep V0 main_c_29 (by decide)).trans (val1_main_c_29 V0)
theorem val2_main_c_30 (V0 : Valuation τ sig (Elt F)) : val2 V0 (no_index (Proc.devRef .tc main_c_30)) = (constantI S57 1 0#1 : (⟨S57, .i1⟩ : BufTy).Contents (Elt F)) :=
  (val2_keep V0 main_c_30 (by decide)).trans (val1_main_c_30 V0)
theorem val2_main_c_31 (V0 : Valuation τ sig (Elt F)) : val2 V0 (no_index (Proc.devRef .tc main_c_31)) = (fun i => lit16 (S56.rowMajor i) : (⟨S56, .i32⟩ : BufTy).Contents (Elt F)) :=
  (val2_keep V0 main_c_31 (by decide)).trans (val1_main_c_31 V0)
theorem val2_main_c_32 (V0 : Valuation τ sig (Elt F)) : val2 V0 (no_index (Proc.devRef .tc main_c_32)) = (constantI S56 1 0#1 : (⟨S56, .i1⟩ : BufTy).Contents (Elt F)) :=
  (val2_keep V0 main_c_32 (by decide)).trans (val1_main_c_32 V0)
theorem val2_main_c_33 (V0 : Valuation τ sig (Elt F)) : val2 V0 (no_index (Proc.devRef .tc main_c_33)) = (fun i => lit17 (S56.rowMajor i) : (⟨S56, .i32⟩ : BufTy).Contents (Elt F)) :=
  (val2_keep V0 main_c_33 (by decide)).trans (val1_main_c_33 V0)
theorem val2_main_c_34 (V0 : Valuation τ sig (Elt F)) : val2 V0 (no_index (Proc.devRef .tc main_c_34)) = (constantI S56 1 0#1 : (⟨S56, .i1⟩ : BufTy).Contents (Elt F)) :=
  (val2_keep V0 main_c_34 (by decide)).trans (val1_main_c_34 V0)
theorem val2_main_c_35 (V0 : Valuation τ sig (Elt F)) : val2 V0 (no_index (Proc.devRef .tc main_c_35)) = (fun i => lit18 (S55.rowMajor i) : (⟨S55, .i32⟩ : BufTy).Contents (Elt F)) :=
  (val2_keep V0 main_c_35 (by decide)).trans (val1_main_c_35 V0)
theorem val2_main_c_36 (V0 : Valuation τ sig (Elt F)) : val2 V0 (no_index (Proc.devRef .tc main_c_36)) = (constantI S55 1 0#1 : (⟨S55, .i1⟩ : BufTy).Contents (Elt F)) :=
  (val2_keep V0 main_c_36 (by decide)).trans (val1_main_c_36 V0)
theorem val2_main_c_37 (V0 : Valuation τ sig (Elt F)) : val2 V0 (no_index (Proc.devRef .tc main_c_37)) = (fun i => lit19 (S55.rowMajor i) : (⟨S55, .i32⟩ : BufTy).Contents (Elt F)) :=
  (val2_keep V0 main_c_37 (by decide)).trans (val1_main_c_37 V0)
theorem val2_main_c_38 (V0 : Valuation τ sig (Elt F)) : val2 V0 (no_index (Proc.devRef .tc main_c_38)) = (constantI S55 1 0#1 : (⟨S55, .i1⟩ : BufTy).Contents (Elt F)) :=
  (val2_keep V0 main_c_38 (by decide)).trans (val1_main_c_38 V0)
theorem val2_main_c_39 (V0 : Valuation τ sig (Elt F)) : val2 V0 (no_index (Proc.devRef .tc main_c_39)) = (fun i => lit20 (S54.rowMajor i) : (⟨S54, .i32⟩ : BufTy).Contents (Elt F)) :=
  (val2_keep V0 main_c_39 (by decide)).trans (val1_main_c_39 V0)
theorem val2_main_c_40 (V0 : Valuation τ sig (Elt F)) : val2 V0 (no_index (Proc.devRef .tc main_c_40)) = (constantI S54 1 0#1 : (⟨S54, .i1⟩ : BufTy).Contents (Elt F)) :=
  (val2_keep V0 main_c_40 (by decide)).trans (val1_main_c_40 V0)
theorem val2_main_c_41 (V0 : Valuation τ sig (Elt F)) : val2 V0 (no_index (Proc.devRef .tc main_c_41)) = (fun i => lit21 (S54.rowMajor i) : (⟨S54, .i32⟩ : BufTy).Contents (Elt F)) :=
  (val2_keep V0 main_c_41 (by decide)).trans (val1_main_c_41 V0)
theorem val2_main_c_42 (V0 : Valuation τ sig (Elt F)) : val2 V0 (no_index (Proc.devRef .tc main_c_42)) = (constantI S54 1 0#1 : (⟨S54, .i1⟩ : BufTy).Contents (Elt F)) :=
  (val2_keep V0 main_c_42 (by decide)).trans (val1_main_c_42 V0)
theorem val2_main_c_43 (V0 : Valuation τ sig (Elt F)) : val2 V0 (no_index (Proc.devRef .tc main_c_43)) = (fun i => lit22 (S53.rowMajor i) : (⟨S53, .i32⟩ : BufTy).Contents (Elt F)) :=
  (val2_keep V0 main_c_43 (by decide)).trans (val1_main_c_43 V0)
theorem val2_main_c_44 (V0 : Valuation τ sig (Elt F)) : val2 V0 (no_index (Proc.devRef .tc main_c_44)) = (constantI S53 1 0#1 : (⟨S53, .i1⟩ : BufTy).Contents (Elt F)) :=
  (val2_keep V0 main_c_44 (by decide)).trans (val1_main_c_44 V0)
theorem val2_main_c_45 (V0 : Valuation τ sig (Elt F)) : val2 V0 (no_index (Proc.devRef .tc main_c_45)) = (fun i => lit23 (S53.rowMajor i) : (⟨S53, .i32⟩ : BufTy).Contents (Elt F)) :=
  (val2_keep V0 main_c_45 (by decide)).trans (val1_main_c_45 V0)
theorem val2_main_c_46 (V0 : Valuation τ sig (Elt F)) : val2 V0 (no_index (Proc.devRef .tc main_c_46)) = (constantI S53 1 0#1 : (⟨S53, .i1⟩ : BufTy).Contents (Elt F)) :=
  (val2_keep V0 main_c_46 (by decide)).trans (val1_main_c_46 V0)
theorem val2_main_c_47 (V0 : Valuation τ sig (Elt F)) : val2 V0 (no_index (Proc.devRef .tc main_c_47)) = (fun i => lit24 (S52.rowMajor i) : (⟨S52, .i32⟩ : BufTy).Contents (Elt F)) :=
  (val2_keep V0 main_c_47 (by decide)).trans (val1_main_c_47 V0)
theorem val2_main_c_48 (V0 : Valuation τ sig (Elt F)) : val2 V0 (no_index (Proc.devRef .tc main_c_48)) = (constantI S52 1 0#1 : (⟨S52, .i1⟩ : BufTy).Contents (Elt F)) :=
  (val2_keep V0 main_c_48 (by decide)).trans (val1_main_c_48 V0)
theorem val2_main_c_49 (V0 : Valuation τ sig (Elt F)) : val2 V0 (no_index (Proc.devRef .tc main_c_49)) = (fun i => lit25 (S52.rowMajor i) : (⟨S52, .i32⟩ : BufTy).Contents (Elt F)) :=
  (val2_keep V0 main_c_49 (by decide)).trans (val1_main_c_49 V0)
theorem val2_main_c_50 (V0 : Valuation τ sig (Elt F)) : val2 V0 (no_index (Proc.devRef .tc main_c_50)) = (constantI S52 1 0#1 : (⟨S52, .i1⟩ : BufTy).Contents (Elt F)) :=
  (val2_keep V0 main_c_50 (by decide)).trans (val1_main_c_50 V0)
theorem val2_main_c_51 (V0 : Valuation τ sig (Elt F)) : val2 V0 (no_index (Proc.devRef .tc main_c_51)) = (fun i => lit26 (S51.rowMajor i) : (⟨S51, .i32⟩ : BufTy).Contents (Elt F)) :=
  (val2_keep V0 main_c_51 (by decide)).trans (val1_main_c_51 V0)
theorem val2_main_c_52 (V0 : Valuation τ sig (Elt F)) : val2 V0 (no_index (Proc.devRef .tc main_c_52)) = (constantI S51 1 0#1 : (⟨S51, .i1⟩ : BufTy).Contents (Elt F)) :=
  (val2_keep V0 main_c_52 (by decide)).trans (val1_main_c_52 V0)
theorem val2_main_c_53 (V0 : Valuation τ sig (Elt F)) : val2 V0 (no_index (Proc.devRef .tc main_c_53)) = (fun i => lit27 (S51.rowMajor i) : (⟨S51, .i32⟩ : BufTy).Contents (Elt F)) :=
  (val2_keep V0 main_c_53 (by decide)).trans (val1_main_c_53 V0)
theorem val2_main_c_54 (V0 : Valuation τ sig (Elt F)) : val2 V0 (no_index (Proc.devRef .tc main_c_54)) = (constantI S51 1 0#1 : (⟨S51, .i1⟩ : BufTy).Contents (Elt F)) :=
  (val2_keep V0 main_c_54 (by decide)).trans (val1_main_c_54 V0)
theorem val2_main_c_55 (V0 : Valuation τ sig (Elt F)) : val2 V0 (no_index (Proc.devRef .tc main_c_55)) = (fun i => lit28 (S50.rowMajor i) : (⟨S50, .i32⟩ : BufTy).Contents (Elt F)) :=
  (val2_keep V0 main_c_55 (by decide)).trans (val1_main_c_55 V0)
theorem val2_main_c_56 (V0 : Valuation τ sig (Elt F)) : val2 V0 (no_index (Proc.devRef .tc main_c_56)) = (constantI S50 1 0#1 : (⟨S50, .i1⟩ : BufTy).Contents (Elt F)) :=
  (val2_keep V0 main_c_56 (by decide)).trans (val1_main_c_56 V0)
theorem val2_main_c_57 (V0 : Valuation τ sig (Elt F)) : val2 V0 (no_index (Proc.devRef .tc main_c_57)) = (fun i => lit29 (S50.rowMajor i) : (⟨S50, .i32⟩ : BufTy).Contents (Elt F)) :=
  (val2_keep V0 main_c_57 (by decide)).trans (val1_main_c_57 V0)
theorem val2_main_c_58 (V0 : Valuation τ sig (Elt F)) : val2 V0 (no_index (Proc.devRef .tc main_c_58)) = (constantI S50 1 0#1 : (⟨S50, .i1⟩ : BufTy).Contents (Elt F)) :=
  (val2_keep V0 main_c_58 (by decide)).trans (val1_main_c_58 V0)
set_option maxRecDepth 8192 in
set_option maxHeartbeats 2000000 in
theorem val2_main_c_59 (V0 : Valuation τ sig (Elt F)) : val2 V0 (no_index (Proc.devRef .tc main_c_59)) = (fun i => lit30 (S24.rowMajor i) : (⟨S24, .i32⟩ : BufTy).Contents (Elt F)) := by
  unfold val2
  simp only [ops1]
  after_results_simp
  all_goals rfl
set_option maxRecDepth 8192 in
set_option maxHeartbeats 2000000 in
theorem val2_main_c_60 (V0 : Valuation τ sig (Elt F)) : val2 V0 (no_index (Proc.devRef .tc main_c_60)) = (constantI S24 1 0#1 : (⟨S24, .i1⟩ : BufTy).Contents (Elt F)) := by
  unfold val2
  simp only [ops1]
  after_results_simp
  all_goals rfl
set_option maxRecDepth 8192 in
set_option maxHeartbeats 2000000 in
theorem val2_main_c_61 (V0 : Valuation τ sig (Elt F)) : val2 V0 (no_index (Proc.devRef .tc main_c_61)) = (fun i => lit31 (S24.rowMajor i) : (⟨S24, .i32⟩ : BufTy).Contents (Elt F)) := by
  unfold val2
  simp only [ops1]
  after_results_simp
  all_goals rfl
set_option maxRecDepth 8192 in
set_option maxHeartbeats 2000000 in
theorem val2_main_c_62 (V0 : Valuation τ sig (Elt F)) : val2 V0 (no_index (Proc.devRef .tc main_c_62)) = (constantI S24 1 0#1 : (⟨S24, .i1⟩ : BufTy).Contents (Elt F)) := by
  unfold val2
  simp only [ops1]
  after_results_simp
  all_goals rfl
set_option maxRecDepth 8192 in
set_option maxHeartbeats 2000000 in
theorem val2_main_c_63 (V0 : Valuation τ sig (Elt F)) : val2 V0 (no_index (Proc.devRef .tc main_c_63)) = (fun i => lit32 (S23.rowMajor i) : (⟨S23, .i32⟩ : BufTy).Contents (Elt F)) := by
  unfold val2
  simp only [ops1]
  after_results_simp
  all_goals rfl
set_option maxRecDepth 8192 in
set_option maxHeartbeats 2000000 in
theorem val2_main_c_64 (V0 : Valuation τ sig (Elt F)) : val2 V0 (no_index (Proc.devRef .tc main_c_64)) = (constantI S23 1 0#1 : (⟨S23, .i1⟩ : BufTy).Contents (Elt F)) := by
  unfold val2
  simp only [ops1]
  after_results_simp
  all_goals rfl
set_option maxRecDepth 8192 in
set_option maxHeartbeats 2000000 in
theorem val2_main_c_65 (V0 : Valuation τ sig (Elt F)) : val2 V0 (no_index (Proc.devRef .tc main_c_65)) = (fun i => lit33 (S23.rowMajor i) : (⟨S23, .i32⟩ : BufTy).Contents (Elt F)) := by
  unfold val2
  simp only [ops1]
  after_results_simp
  all_goals rfl
set_option maxRecDepth 8192 in
set_option maxHeartbeats 2000000 in
theorem val2_main_c_66 (V0 : Valuation τ sig (Elt F)) : val2 V0 (no_index (Proc.devRef .tc main_c_66)) = (constantI S23 1 0#1 : (⟨S23, .i1⟩ : BufTy).Contents (Elt F)) := by
  unfold val2
  simp only [ops1]
  after_results_simp
  all_goals rfl
set_option maxRecDepth 8192 in
set_option maxHeartbeats 2000000 in
theorem val2_main_c_67 (V0 : Valuation τ sig (Elt F)) : val2 V0 (no_index (Proc.devRef .tc main_c_67)) = (fun i => lit34 (S22.rowMajor i) : (⟨S22, .i32⟩ : BufTy).Contents (Elt F)) := by
  unfold val2
  simp only [ops1]
  after_results_simp
  all_goals rfl
set_option maxRecDepth 8192 in
set_option maxHeartbeats 2000000 in
theorem val2_main_c_68 (V0 : Valuation τ sig (Elt F)) : val2 V0 (no_index (Proc.devRef .tc main_c_68)) = (constantI S22 1 0#1 : (⟨S22, .i1⟩ : BufTy).Contents (Elt F)) := by
  unfold val2
  simp only [ops1]
  after_results_simp
  all_goals rfl
set_option maxRecDepth 8192 in
set_option maxHeartbeats 2000000 in
theorem val2_main_c_69 (V0 : Valuation τ sig (Elt F)) : val2 V0 (no_index (Proc.devRef .tc main_c_69)) = (fun i => lit35 (S22.rowMajor i) : (⟨S22, .i32⟩ : BufTy).Contents (Elt F)) := by
  unfold val2
  simp only [ops1]
  after_results_simp
  all_goals rfl
set_option maxRecDepth 8192 in
set_option maxHeartbeats 2000000 in
theorem val2_main_c_70 (V0 : Valuation τ sig (Elt F)) : val2 V0 (no_index (Proc.devRef .tc main_c_70)) = (constantI S22 1 0#1 : (⟨S22, .i1⟩ : BufTy).Contents (Elt F)) := by
  unfold val2
  simp only [ops1]
  after_results_simp
  all_goals rfl
set_option maxRecDepth 8192 in
set_option maxHeartbeats 2000000 in
theorem val2_main_c_71 (V0 : Valuation τ sig (Elt F)) : val2 V0 (no_index (Proc.devRef .tc main_c_71)) = (fun i => lit36 (S21.rowMajor i) : (⟨S21, .i32⟩ : BufTy).Contents (Elt F)) := by
  unfold val2
  simp only [ops1]
  after_results_simp
  all_goals rfl
set_option maxRecDepth 8192 in
set_option maxHeartbeats 2000000 in
theorem val2_main_c_72 (V0 : Valuation τ sig (Elt F)) : val2 V0 (no_index (Proc.devRef .tc main_c_72)) = (constantI S21 1 0#1 : (⟨S21, .i1⟩ : BufTy).Contents (Elt F)) := by
  unfold val2
  simp only [ops1]
  after_results_simp
  all_goals rfl
set_option maxRecDepth 8192 in
set_option maxHeartbeats 2000000 in
theorem val2_main_c_73 (V0 : Valuation τ sig (Elt F)) : val2 V0 (no_index (Proc.devRef .tc main_c_73)) = (fun i => lit37 (S21.rowMajor i) : (⟨S21, .i32⟩ : BufTy).Contents (Elt F)) := by
  unfold val2
  simp only [ops1]
  after_results_simp
  all_goals rfl
set_option maxRecDepth 8192 in
set_option maxHeartbeats 2000000 in
theorem val2_main_c_74 (V0 : Valuation τ sig (Elt F)) : val2 V0 (no_index (Proc.devRef .tc main_c_74)) = (constantI S21 1 0#1 : (⟨S21, .i1⟩ : BufTy).Contents (Elt F)) := by
  unfold val2
  simp only [ops1]
  after_results_simp
  all_goals rfl
set_option maxRecDepth 8192 in
set_option maxHeartbeats 2000000 in
theorem val2_main_c_75 (V0 : Valuation τ sig (Elt F)) : val2 V0 (no_index (Proc.devRef .tc main_c_75)) = (fun i => lit38 (S20.rowMajor i) : (⟨S20, .i32⟩ : BufTy).Contents (Elt F)) := by
  unfold val2
  simp only [ops1]
  after_results_simp
  all_goals rfl
set_option maxRecDepth 8192 in
set_option maxHeartbeats 2000000 in
theorem val2_main_c_76 (V0 : Valuation τ sig (Elt F)) : val2 V0 (no_index (Proc.devRef .tc main_c_76)) = (constantI S20 1 0#1 : (⟨S20, .i1⟩ : BufTy).Contents (Elt F)) := by
  unfold val2
  simp only [ops1]
  after_results_simp
  all_goals rfl
set_option maxRecDepth 8192 in
set_option maxHeartbeats 2000000 in
theorem val2_main_c_77 (V0 : Valuation τ sig (Elt F)) : val2 V0 (no_index (Proc.devRef .tc main_c_77)) = (fun i => lit39 (S20.rowMajor i) : (⟨S20, .i32⟩ : BufTy).Contents (Elt F)) := by
  unfold val2
  simp only [ops1]
  after_results_simp
  all_goals rfl
set_option maxRecDepth 8192 in
set_option maxHeartbeats 2000000 in
theorem val2_main_c_78 (V0 : Valuation τ sig (Elt F)) : val2 V0 (no_index (Proc.devRef .tc main_c_78)) = (constantI S20 1 0#1 : (⟨S20, .i1⟩ : BufTy).Contents (Elt F)) := by
  unfold val2
  simp only [ops1]
  after_results_simp
  all_goals rfl
set_option maxRecDepth 8192 in
set_option maxHeartbeats 2000000 in
theorem val2_main_c_79 (V0 : Valuation τ sig (Elt F)) : val2 V0 (no_index (Proc.devRef .tc main_c_79)) = (fun i => lit40 (S19.rowMajor i) : (⟨S19, .i32⟩ : BufTy).Contents (Elt F)) := by
  unfold val2
  simp only [ops1]
  after_results_simp
  all_goals rfl
set_option maxRecDepth 8192 in
set_option maxHeartbeats 2000000 in
theorem val2_main_c_80 (V0 : Valuation τ sig (Elt F)) : val2 V0 (no_index (Proc.devRef .tc main_c_80)) = (constantI S19 1 0#1 : (⟨S19, .i1⟩ : BufTy).Contents (Elt F)) := by
  unfold val2
  simp only [ops1]
  after_results_simp
  all_goals rfl
set_option maxRecDepth 8192 in
set_option maxHeartbeats 2000000 in
theorem val2_main_c_81 (V0 : Valuation τ sig (Elt F)) : val2 V0 (no_index (Proc.devRef .tc main_c_81)) = (fun i => lit41 (S19.rowMajor i) : (⟨S19, .i32⟩ : BufTy).Contents (Elt F)) := by
  unfold val2
  simp only [ops1]
  after_results_simp
  all_goals rfl
set_option maxRecDepth 8192 in
set_option maxHeartbeats 2000000 in
theorem val2_main_c_82 (V0 : Valuation τ sig (Elt F)) : val2 V0 (no_index (Proc.devRef .tc main_c_82)) = (constantI S19 1 0#1 : (⟨S19, .i1⟩ : BufTy).Contents (Elt F)) := by
  unfold val2
  simp only [ops1]
  after_results_simp
  all_goals rfl
set_option maxRecDepth 8192 in
set_option maxHeartbeats 2000000 in
theorem val2_main_c_83 (V0 : Valuation τ sig (Elt F)) : val2 V0 (no_index (Proc.devRef .tc main_c_83)) = (fun i => lit42 (S18.rowMajor i) : (⟨S18, .i32⟩ : BufTy).Contents (Elt F)) := by
  unfold val2
  simp only [ops1]
  after_results_simp
  all_goals rfl
set_option maxRecDepth 8192 in
set_option maxHeartbeats 2000000 in
theorem val2_main_c_84 (V0 : Valuation τ sig (Elt F)) : val2 V0 (no_index (Proc.devRef .tc main_c_84)) = (constantI S18 1 0#1 : (⟨S18, .i1⟩ : BufTy).Contents (Elt F)) := by
  unfold val2
  simp only [ops1]
  after_results_simp
  all_goals rfl
set_option maxRecDepth 8192 in
set_option maxHeartbeats 2000000 in
theorem val2_main_c_85 (V0 : Valuation τ sig (Elt F)) : val2 V0 (no_index (Proc.devRef .tc main_c_85)) = (fun i => lit43 (S18.rowMajor i) : (⟨S18, .i32⟩ : BufTy).Contents (Elt F)) := by
  unfold val2
  simp only [ops1]
  after_results_simp
  all_goals rfl
set_option maxRecDepth 8192 in
set_option maxHeartbeats 2000000 in
theorem val2_main_c_86 (V0 : Valuation τ sig (Elt F)) : val2 V0 (no_index (Proc.devRef .tc main_c_86)) = (constantI S18 1 0#1 : (⟨S18, .i1⟩ : BufTy).Contents (Elt F)) := by
  unfold val2
  simp only [ops1]
  after_results_simp
  all_goals rfl
set_option maxRecDepth 8192 in
set_option maxHeartbeats 2000000 in
theorem val2_main_c_87 (V0 : Valuation τ sig (Elt F)) : val2 V0 (no_index (Proc.devRef .tc main_c_87)) = (fun i => lit44 (S17.rowMajor i) : (⟨S17, .i32⟩ : BufTy).Contents (Elt F)) := by
  unfold val2
  simp only [ops1]
  after_results_simp
  all_goals rfl
set_option maxRecDepth 8192 in
set_option maxHeartbeats 2000000 in
theorem val2_main_c_88 (V0 : Valuation τ sig (Elt F)) : val2 V0 (no_index (Proc.devRef .tc main_c_88)) = (constantI S17 1 0#1 : (⟨S17, .i1⟩ : BufTy).Contents (Elt F)) := by
  unfold val2
  simp only [ops1]
  after_results_simp
  all_goals rfl
set_option maxRecDepth 8192 in
set_option maxHeartbeats 2000000 in
theorem val2_main_c_89 (V0 : Valuation τ sig (Elt F)) : val2 V0 (no_index (Proc.devRef .tc main_c_89)) = (fun i => lit45 (S17.rowMajor i) : (⟨S17, .i32⟩ : BufTy).Contents (Elt F)) := by
  unfold val2
  simp only [ops1]
  after_results_simp
  all_goals rfl
set_option maxRecDepth 8192 in
set_option maxHeartbeats 2000000 in
theorem val2_main_c_90 (V0 : Valuation τ sig (Elt F)) : val2 V0 (no_index (Proc.devRef .tc main_c_90)) = (constantI S17 1 0#1 : (⟨S17, .i1⟩ : BufTy).Contents (Elt F)) := by
  unfold val2
  simp only [ops1]
  after_results_simp
  all_goals rfl
set_option maxRecDepth 8192 in
set_option maxHeartbeats 2000000 in
theorem val2_main_c_91 (V0 : Valuation τ sig (Elt F)) : val2 V0 (no_index (Proc.devRef .tc main_c_91)) = (fun i => lit46 (S8.rowMajor i) : (⟨S8, .i32⟩ : BufTy).Contents (Elt F)) := by
  unfold val2
  simp only [ops1]
  after_results_simp
  all_goals rfl
set_option maxRecDepth 8192 in
set_option maxHeartbeats 2000000 in
theorem val2_main_c_92 (V0 : Valuation τ sig (Elt F)) : val2 V0 (no_index (Proc.devRef .tc main_c_92)) = (constantI S8 1 0#1 : (⟨S8, .i1⟩ : BufTy).Contents (Elt F)) := by
  unfold val2
  simp only [ops1]
  after_results_simp
  all_goals rfl
set_option maxRecDepth 8192 in
set_option maxHeartbeats 2000000 in
theorem val2_main_c_93 (V0 : Valuation τ sig (Elt F)) : val2 V0 (no_index (Proc.devRef .tc main_c_93)) = (fun i => lit47 (S8.rowMajor i) : (⟨S8, .i32⟩ : BufTy).Contents (Elt F)) := by
  unfold val2
  simp only [ops1]
  after_results_simp
  all_goals rfl
set_option maxRecDepth 8192 in
set_option maxHeartbeats 2000000 in
theorem val2_main_c_94 (V0 : Valuation τ sig (Elt F)) : val2 V0 (no_index (Proc.devRef .tc main_c_94)) = (constantI S8 1 0#1 : (⟨S8, .i1⟩ : BufTy).Contents (Elt F)) := by
  unfold val2
  simp only [ops1]
  after_results_simp
  all_goals rfl
set_option maxRecDepth 8192 in
set_option maxHeartbeats 2000000 in
theorem val2_main_c_95 (V0 : Valuation τ sig (Elt F)) : val2 V0 (no_index (Proc.devRef .tc main_c_95)) = (fun i => lit48 (S7.rowMajor i) : (⟨S7, .i32⟩ : BufTy).Contents (Elt F)) := by
  unfold val2
  simp only [ops1]
  after_results_simp
  all_goals rfl
set_option maxRecDepth 8192 in
set_option maxHeartbeats 2000000 in
theorem val2_main_c_96 (V0 : Valuation τ sig (Elt F)) : val2 V0 (no_index (Proc.devRef .tc main_c_96)) = (constantI S7 1 0#1 : (⟨S7, .i1⟩ : BufTy).Contents (Elt F)) := by
  unfold val2
  simp only [ops1]
  after_results_simp
  all_goals rfl
set_option maxRecDepth 8192 in
set_option maxHeartbeats 2000000 in
theorem val2_main_c_97 (V0 : Valuation τ sig (Elt F)) : val2 V0 (no_index (Proc.devRef .tc main_c_97)) = (fun i => lit49 (S7.rowMajor i) : (⟨S7, .i32⟩ : BufTy).Contents (Elt F)) := by
  unfold val2
  simp only [ops1]
  after_results_simp
  all_goals rfl
set_option maxRecDepth 8192 in
set_option maxHeartbeats 2000000 in
theorem val2_main_c_98 (V0 : Valuation τ sig (Elt F)) : val2 V0 (no_index (Proc.devRef .tc main_c_98)) = (constantI S7 1 0#1 : (⟨S7, .i1⟩ : BufTy).Contents (Elt F)) := by
  unfold val2
  simp only [ops1]
  after_results_simp
  all_goals rfl
set_option maxRecDepth 8192 in
set_option maxHeartbeats 2000000 in
theorem val2_main_c_99 (V0 : Valuation τ sig (Elt F)) : val2 V0 (no_index (Proc.devRef .tc main_c_99)) = (fun i => lit50 (S6.rowMajor i) : (⟨S6, .i32⟩ : BufTy).Contents (Elt F)) := by
  unfold val2
  simp only [ops1]
  after_results_simp
  all_goals rfl
set_option maxRecDepth 8192 in
set_option maxHeartbeats 2000000 in
theorem val2_main_c_100 (V0 : Valuation τ sig (Elt F)) : val2 V0 (no_index (Proc.devRef .tc main_c_100)) = (constantI S6 1 0#1 : (⟨S6, .i1⟩ : BufTy).Contents (Elt F)) := by
  unfold val2
  simp only [ops1]
  after_results_simp
  all_goals rfl
set_option maxRecDepth 8192 in
set_option maxHeartbeats 2000000 in
theorem val2_main_c_101 (V0 : Valuation τ sig (Elt F)) : val2 V0 (no_index (Proc.devRef .tc main_c_101)) = (fun i => lit51 (S6.rowMajor i) : (⟨S6, .i32⟩ : BufTy).Contents (Elt F)) := by
  unfold val2
  simp only [ops1]
  after_results_simp
  all_goals rfl
set_option maxRecDepth 8192 in
set_option maxHeartbeats 2000000 in
theorem val2_main_c_102 (V0 : Valuation τ sig (Elt F)) : val2 V0 (no_index (Proc.devRef .tc main_c_102)) = (constantI S6 1 0#1 : (⟨S6, .i1⟩ : BufTy).Contents (Elt F)) := by
  unfold val2
  simp only [ops1]
  after_results_simp
  all_goals rfl
set_option maxRecDepth 8192 in
set_option maxHeartbeats 2000000 in
theorem val2_main_c_103 (V0 : Valuation τ sig (Elt F)) : val2 V0 (no_index (Proc.devRef .tc main_c_103)) = (fun i => lit52 (S5.rowMajor i) : (⟨S5, .i32⟩ : BufTy).Contents (Elt F)) := by
  unfold val2
  simp only [ops1]
  after_results_simp
  all_goals rfl
set_option maxRecDepth 8192 in
set_option maxHeartbeats 2000000 in
theorem val2_main_c_104 (V0 : Valuation τ sig (Elt F)) : val2 V0 (no_index (Proc.devRef .tc main_c_104)) = (constantI S5 1 0#1 : (⟨S5, .i1⟩ : BufTy).Contents (Elt F)) := by
  unfold val2
  simp only [ops1]
  after_results_simp
  all_goals rfl
set_option maxRecDepth 8192 in
set_option maxHeartbeats 2000000 in
theorem val2_main_c_105 (V0 : Valuation τ sig (Elt F)) : val2 V0 (no_index (Proc.devRef .tc main_c_105)) = (fun i => lit53 (S5.rowMajor i) : (⟨S5, .i32⟩ : BufTy).Contents (Elt F)) := by
  unfold val2
  simp only [ops1]
  after_results_simp
  all_goals rfl
set_option maxRecDepth 8192 in
set_option maxHeartbeats 2000000 in
theorem val2_main_c_106 (V0 : Valuation τ sig (Elt F)) : val2 V0 (no_index (Proc.devRef .tc main_c_106)) = (constantI S5 1 0#1 : (⟨S5, .i1⟩ : BufTy).Contents (Elt F)) := by
  unfold val2
  simp only [ops1]
  after_results_simp
  all_goals rfl
set_option maxRecDepth 8192 in
set_option maxHeartbeats 2000000 in
theorem val2_main_c_107 (V0 : Valuation τ sig (Elt F)) : val2 V0 (no_index (Proc.devRef .tc main_c_107)) = (fun i => lit54 (S4.rowMajor i) : (⟨S4, .i32⟩ : BufTy).Contents (Elt F)) := by
  unfold val2
  simp only [ops1]
  after_results_simp
  all_goals rfl
set_option maxRecDepth 8192 in
set_option maxHeartbeats 2000000 in
theorem val2_main_c_108 (V0 : Valuation τ sig (Elt F)) : val2 V0 (no_index (Proc.devRef .tc main_c_108)) = (constantI S4 1 0#1 : (⟨S4, .i1⟩ : BufTy).Contents (Elt F)) := by
  unfold val2
  simp only [ops1]
  after_results_simp
  all_goals rfl
set_option maxRecDepth 8192 in
set_option maxHeartbeats 2000000 in
theorem val2_main_c_109 (V0 : Valuation τ sig (Elt F)) : val2 V0 (no_index (Proc.devRef .tc main_c_109)) = (fun i => lit55 (S4.rowMajor i) : (⟨S4, .i32⟩ : BufTy).Contents (Elt F)) := by
  unfold val2
  simp only [ops1]
  after_results_simp
  all_goals rfl
set_option maxRecDepth 8192 in
set_option maxHeartbeats 2000000 in
theorem val2_main_c_110 (V0 : Valuation τ sig (Elt F)) : val2 V0 (no_index (Proc.devRef .tc main_c_110)) = (constantI S4 1 0#1 : (⟨S4, .i1⟩ : BufTy).Contents (Elt F)) := by
  unfold val2
  simp only [ops1]
  after_results_simp
  all_goals rfl
set_option maxRecDepth 8192 in
set_option maxHeartbeats 2000000 in
theorem val2_main_c_111 (V0 : Valuation τ sig (Elt F)) : val2 V0 (no_index (Proc.devRef .tc main_c_111)) = (fun i => lit56 (S3.rowMajor i) : (⟨S3, .i32⟩ : BufTy).Contents (Elt F)) := by
  unfold val2
  simp only [ops1]
  after_results_simp
  all_goals rfl
set_option maxRecDepth 8192 in
set_option maxHeartbeats 2000000 in
theorem val2_main_c_112 (V0 : Valuation τ sig (Elt F)) : val2 V0 (no_index (Proc.devRef .tc main_c_112)) = (constantI S3 1 0#1 : (⟨S3, .i1⟩ : BufTy).Contents (Elt F)) := by
  unfold val2
  simp only [ops1]
  after_results_simp
  all_goals rfl
set_option maxRecDepth 8192 in
set_option maxHeartbeats 2000000 in
theorem val2_main_c_113 (V0 : Valuation τ sig (Elt F)) : val2 V0 (no_index (Proc.devRef .tc main_c_113)) = (fun i => lit57 (S3.rowMajor i) : (⟨S3, .i32⟩ : BufTy).Contents (Elt F)) := by
  unfold val2
  simp only [ops1]
  after_results_simp
  all_goals rfl
set_option maxRecDepth 8192 in
set_option maxHeartbeats 2000000 in
theorem val2_main_c_114 (V0 : Valuation τ sig (Elt F)) : val2 V0 (no_index (Proc.devRef .tc main_c_114)) = (constantI S3 1 0#1 : (⟨S3, .i1⟩ : BufTy).Contents (Elt F)) := by
  unfold val2
  simp only [ops1]
  after_results_simp
  all_goals rfl
set_option maxRecDepth 8192 in
set_option maxHeartbeats 2000000 in
theorem val2_main_c_115 (V0 : Valuation τ sig (Elt F)) : val2 V0 (no_index (Proc.devRef .tc main_c_115)) = (fun i => lit58 (S2.rowMajor i) : (⟨S2, .i32⟩ : BufTy).Contents (Elt F)) := by
  unfold val2
  simp only [ops1]
  after_results_simp
  all_goals rfl
set_option maxRecDepth 8192 in
set_option maxHeartbeats 2000000 in
theorem val2_main_c_116 (V0 : Valuation τ sig (Elt F)) : val2 V0 (no_index (Proc.devRef .tc main_c_116)) = (constantI S2 1 0#1 : (⟨S2, .i1⟩ : BufTy).Contents (Elt F)) := by
  unfold val2
  simp only [ops1]
  after_results_simp
  all_goals rfl
set_option maxRecDepth 8192 in
set_option maxHeartbeats 2000000 in
theorem val2_main_c_117 (V0 : Valuation τ sig (Elt F)) : val2 V0 (no_index (Proc.devRef .tc main_c_117)) = (fun i => lit59 (S2.rowMajor i) : (⟨S2, .i32⟩ : BufTy).Contents (Elt F)) := by
  unfold val2
  simp only [ops1]
  after_results_simp
  all_goals rfl
set_option maxRecDepth 8192 in
set_option maxHeartbeats 2000000 in
theorem val2_main_c_118 (V0 : Valuation τ sig (Elt F)) : val2 V0 (no_index (Proc.devRef .tc main_c_118)) = (constantI S2 1 0#1 : (⟨S2, .i1⟩ : BufTy).Contents (Elt F)) := by
  unfold val2
  simp only [ops1]
  after_results_simp
  all_goals rfl

end Cert.RefRun

end
-- ==== Proof.RefRunW3.lean ====
/-
  The buffers that are still read after the first 3 windows, each at its term over the contents at launch: a buffer
  written earlier keeps its contents through the window, a buffer the window writes is read off the window's operations.
-/
import proofs.«156021_j19232863551513_2_alg».proof.Proof.RefRunW2

noncomputable section

namespace Cert.RefRun

open Cert.ReferenceIdeal Cert.ReferenceIdeal.Facts₀ Cert.ReferenceIdeal.Facts Cert.RefTerm
open Idealize.ShloMosaic Idealize.ShloMosaic.TcCoe Idealize.SL.Sem Idealize.ShloMosaic.StableHlo

variable {F : FTy → Type} [FloatOps F]

theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_c_15 (V0 : Valuation τ sig (Elt F)) : val3 V0 (no_index (Proc.devRef .tc main_c_15)) = (fun i => lit8 (S60.rowMajor i) : (⟨S60, .i32⟩ : BufTy).Contents (Elt F)) :=
  (val3_keep V0 main_c_15 (by decide)).trans (val2_main_c_15 V0)
theorem val3_main_c_16 (V0 : Valuation τ sig (Elt F)) : val3 V0 (no_index (Proc.devRef .tc main_c_16)) = (constantI S60 1 0#1 : (⟨S60, .i1⟩ : BufTy).Contents (Elt F)) :=
  (val3_keep V0 main_c_16 (by decide)).trans (val2_main_c_16 V0)
theorem val3_main_c_17 (V0 : Valuation τ sig (Elt F)) : val3 V0 (no_index (Proc.devRef .tc main_c_17)) = (fun i => lit9 (S60.rowMajor i) : (⟨S60, .i32⟩ : BufTy).Contents (Elt F)) :=
  (val3_keep V0 main_c_17 (by decide)).trans (val2_main_c_17 V0)
theorem val3_main_c_18 (V0 : Valuation τ sig (Elt F)) : val3 V0 (no_index (Proc.devRef .tc main_c_18)) = (constantI S60 1 0#1 : (⟨S60, .i1⟩ : BufTy).Contents (Elt F)) :=
  (val3_keep V0 main_c_18 (by decide)).trans (val2_main_c_18 V0)
theorem val3_main_c_19 (V0 : Valuation τ sig (Elt F)) : val3 V0 (no_index (Proc.devRef .tc main_c_19)) = (fun i => lit10 (S59.rowMajor i) : (⟨S59, .i32⟩ : BufTy).Contents (Elt F)) :=
  (val3_keep V0 main_c_19 (by decide)).trans (val2_main_c_19 V0)
theorem val3_main_c_20 (V0 : Valuation τ sig (Elt F)) : val3 V0 (no_index (Proc.devRef .tc main_c_20)) = (constantI S59 1 0#1 : (⟨S59, .i1⟩ : BufTy).Contents (Elt F)) :=
  (val3_keep V0 main_c_20 (by decide)).trans (val2_main_c_20 V0)
theorem val3_main_c_21 (V0 : Valuation τ sig (Elt F)) : val3 V0 (no_index (Proc.devRef .tc main_c_21)) = (fun i => lit11 (S59.rowMajor i) : (⟨S59, .i32⟩ : BufTy).Contents (Elt F)) :=
  (val3_keep V0 main_c_21 (by decide)).trans (val2_main_c_21 V0)
theorem val3_main_c_22 (V0 : Valuation τ sig (Elt F)) : val3 V0 (no_index (Proc.devRef .tc main_c_22)) = (constantI S59 1 0#1 : (⟨S59, .i1⟩ : BufTy).Contents (Elt F)) :=
  (val3_keep V0 main_c_22 (by decide)).trans (val2_main_c_22 V0)
theorem val3_main_c_23 (V0 : Valuation τ sig (Elt F)) : val3 V0 (no_index (Proc.devRef .tc main_c_23)) = (fun i => lit12 (S58.rowMajor i) : (⟨S58, .i32⟩ : BufTy).Contents (Elt F)) :=
  (val3_keep V0 main_c_23 (by decide)).trans (val2_main_c_23 V0)
theorem val3_main_c_24 (V0 : Valuation τ sig (Elt F)) : val3 V0 (no_index (Proc.devRef .tc main_c_24)) = (constantI S58 1 0#1 : (⟨S58, .i1⟩ : BufTy).Contents (Elt F)) :=
  (val3_keep V0 main_c_24 (by decide)).trans (val2_main_c_24 V0)
theorem val3_main_c_25 (V0 : Valuation τ sig (Elt F)) : val3 V0 (no_index (Proc.devRef .tc main_c_25)) = (fun i => lit13 (S58.rowMajor i) : (⟨S58, .i32⟩ : BufTy).Contents (Elt F)) :=
  (val3_keep V0 main_c_25 (by decide)).trans (val2_main_c_25 V0)
theorem val3_main_c_26 (V0 : Valuation τ sig (Elt F)) : val3 V0 (no_index (Proc.devRef .tc main_c_26)) = (constantI S58 1 0#1 : (⟨S58, .i1⟩ : BufTy).Contents (Elt F)) :=
  (val3_keep V0 main_c_26 (by decide)).trans (val2_main_c_26 V0)
theorem val3_main_c_27 (V0 : Valuation τ sig (Elt F)) : val3 V0 (no_index (Proc.devRef .tc main_c_27)) = (fun i => lit14 (S57.rowMajor i) : (⟨S57, .i32⟩ : BufTy).Contents (Elt F)) :=
  (val3_keep V0 main_c_27 (by decide)).trans (val2_main_c_27 V0)
theorem val3_main_c_28 (V0 : Valuation τ sig (Elt F)) : val3 V0 (no_index (Proc.devRef .tc main_c_28)) = (constantI S57 1 0#1 : (⟨S57, .i1⟩ : BufTy).Contents (Elt F)) :=
  (val3_keep V0 main_c_28 (by decide)).trans (val2_main_c_28 V0)
theorem val3_main_c_29 (V0 : Valuation τ sig (Elt F)) : val3 V0 (no_index (Proc.devRef .tc main_c_29)) = (fun i => lit15 (S57.rowMajor i) : (⟨S57, .i32⟩ : BufTy).Contents (Elt F)) :=
  (val3_keep V0 main_c_29 (by decide)).trans (val2_main_c_29 V0)
theorem val3_main_c_30 (V0 : Valuation τ sig (Elt F)) : val3 V0 (no_index (Proc.devRef .tc main_c_30)) = (constantI S57 1 0#1 : (⟨S57, .i1⟩ : BufTy).Contents (Elt F)) :=
  (val3_keep V0 main_c_30 (by decide)).trans (val2_main_c_30 V0)
theorem val3_main_c_31 (V0 : Valuation τ sig (Elt F)) : val3 V0 (no_index (Proc.devRef .tc main_c_31)) = (fun i => lit16 (S56.rowMajor i) : (⟨S56, .i32⟩ : BufTy).Contents (Elt F)) :=
  (val3_keep V0 main_c_31 (by decide)).trans (val2_main_c_31 V0)
theorem val3_main_c_32 (V0 : Valuation τ sig (Elt F)) : val3 V0 (no_index (Proc.devRef .tc main_c_32)) = (constantI S56 1 0#1 : (⟨S56, .i1⟩ : BufTy).Contents (Elt F)) :=
  (val3_keep V0 main_c_32 (by decide)).trans (val2_main_c_32 V0)
theorem val3_main_c_33 (V0 : Valuation τ sig (Elt F)) : val3 V0 (no_index (Proc.devRef .tc main_c_33)) = (fun i => lit17 (S56.rowMajor i) : (⟨S56, .i32⟩ : BufTy).Contents (Elt F)) :=
  (val3_keep V0 main_c_33 (by decide)).trans (val2_main_c_33 V0)
theorem val3_main_c_34 (V0 : Valuation τ sig (Elt F)) : val3 V0 (no_index (Proc.devRef .tc main_c_34)) = (constantI S56 1 0#1 : (⟨S56, .i1⟩ : BufTy).Contents (Elt F)) :=
  (val3_keep V0 main_c_34 (by decide)).trans (val2_main_c_34 V0)
theorem val3_main_c_35 (V0 : Valuation τ sig (Elt F)) : val3 V0 (no_index (Proc.devRef .tc main_c_35)) = (fun i => lit18 (S55.rowMajor i) : (⟨S55, .i32⟩ : BufTy).Contents (Elt F)) :=
  (val3_keep V0 main_c_35 (by decide)).trans (val2_main_c_35 V0)
theorem val3_main_c_36 (V0 : Valuation τ sig (Elt F)) : val3 V0 (no_index (Proc.devRef .tc main_c_36)) = (constantI S55 1 0#1 : (⟨S55, .i1⟩ : BufTy).Contents (Elt F)) :=
  (val3_keep V0 main_c_36 (by decide)).trans (val2_main_c_36 V0)
theorem val3_main_c_37 (V0 : Valuation τ sig (Elt F)) : val3 V0 (no_index (Proc.devRef .tc main_c_37)) = (fun i => lit19 (S55.rowMajor i) : (⟨S55, .i32⟩ : BufTy).Contents (Elt F)) :=
  (val3_keep V0 main_c_37 (by decide)).trans (val2_main_c_37 V0)
theorem val3_main_c_38 (V0 : Valuation τ sig (Elt F)) : val3 V0 (no_index (Proc.devRef .tc main_c_38)) = (constantI S55 1 0#1 : (⟨S55, .i1⟩ : BufTy).Contents (Elt F)) :=
  (val3_keep V0 main_c_38 (by decide)).trans (val2_main_c_38 V0)
theorem val3_main_c_39 (V0 : Valuation τ sig (Elt F)) : val3 V0 (no_index (Proc.devRef .tc main_c_39)) = (fun i => lit20 (S54.rowMajor i) : (⟨S54, .i32⟩ : BufTy).Contents (Elt F)) :=
  (val3_keep V0 main_c_39 (by decide)).trans (val2_main_c_39 V0)
theorem val3_main_c_40 (V0 : Valuation τ sig (Elt F)) : val3 V0 (no_index (Proc.devRef .tc main_c_40)) = (constantI S54 1 0#1 : (⟨S54, .i1⟩ : BufTy).Contents (Elt F)) :=
  (val3_keep V0 main_c_40 (by decide)).trans (val2_main_c_40 V0)
theorem val3_main_c_41 (V0 : Valuation τ sig (Elt F)) : val3 V0 (no_index (Proc.devRef .tc main_c_41)) = (fun i => lit21 (S54.rowMajor i) : (⟨S54, .i32⟩ : BufTy).Contents (Elt F)) :=
  (val3_keep V0 main_c_41 (by decide)).trans (val2_main_c_41 V0)
theorem val3_main_c_42 (V0 : Valuation τ sig (Elt F)) : val3 V0 (no_index (Proc.devRef .tc main_c_42)) = (constantI S54 1 0#1 : (⟨S54, .i1⟩ : BufTy).Contents (Elt F)) :=
  (val3_keep V0 main_c_42 (by decide)).trans (val2_main_c_42 V0)
theorem val3_main_c_43 (V0 : Valuation τ sig (Elt F)) : val3 V0 (no_index (Proc.devRef .tc main_c_43)) = (fun i => lit22 (S53.rowMajor i) : (⟨S53, .i32⟩ : BufTy).Contents (Elt F)) :=
  (val3_keep V0 main_c_43 (by decide)).trans (val2_main_c_43 V0)
theorem val3_main_c_44 (V0 : Valuation τ sig (Elt F)) : val3 V0 (no_index (Proc.devRef .tc main_c_44)) = (constantI S53 1 0#1 : (⟨S53, .i1⟩ : BufTy).Contents (Elt F)) :=
  (val3_keep V0 main_c_44 (by decide)).trans (val2_main_c_44 V0)
theorem val3_main_c_45 (V0 : Valuation τ sig (Elt F)) : val3 V0 (no_index (Proc.devRef .tc main_c_45)) = (fun i => lit23 (S53.rowMajor i) : (⟨S53, .i32⟩ : BufTy).Contents (Elt F)) :=
  (val3_keep V0 main_c_45 (by decide)).trans (val2_main_c_45 V0)
theorem val3_main_c_46 (V0 : Valuation τ sig (Elt F)) : val3 V0 (no_index (Proc.devRef .tc main_c_46)) = (constantI S53 1 0#1 : (⟨S53, .i1⟩ : BufTy).Contents (Elt F)) :=
  (val3_keep V0 main_c_46 (by decide)).trans (val2_main_c_46 V0)
theorem val3_main_c_47 (V0 : Valuation τ sig (Elt F)) : val3 V0 (no_index (Proc.devRef .tc main_c_47)) = (fun i => lit24 (S52.rowMajor i) : (⟨S52, .i32⟩ : BufTy).Contents (Elt F)) :=
  (val3_keep V0 main_c_47 (by decide)).trans (val2_main_c_47 V0)
theorem val3_main_c_48 (V0 : Valuation τ sig (Elt F)) : val3 V0 (no_index (Proc.devRef .tc main_c_48)) = (constantI S52 1 0#1 : (⟨S52, .i1⟩ : BufTy).Contents (Elt F)) :=
  (val3_keep V0 main_c_48 (by decide)).trans (val2_main_c_48 V0)
theorem val3_main_c_49 (V0 : Valuation τ sig (Elt F)) : val3 V0 (no_index (Proc.devRef .tc main_c_49)) = (fun i => lit25 (S52.rowMajor i) : (⟨S52, .i32⟩ : BufTy).Contents (Elt F)) :=
  (val3_keep V0 main_c_49 (by decide)).trans (val2_main_c_49 V0)
theorem val3_main_c_50 (V0 : Valuation τ sig (Elt F)) : val3 V0 (no_index (Proc.devRef .tc main_c_50)) = (constantI S52 1 0#1 : (⟨S52, .i1⟩ : BufTy).Contents (Elt F)) :=
  (val3_keep V0 main_c_50 (by decide)).trans (val2_main_c_50 V0)
theorem val3_main_c_51 (V0 : Valuation τ sig (Elt F)) : val3 V0 (no_index (Proc.devRef .tc main_c_51)) = (fun i => lit26 (S51.rowMajor i) : (⟨S51, .i32⟩ : BufTy).Contents (Elt F)) :=
  (val3_keep V0 main_c_51 (by decide)).trans (val2_main_c_51 V0)
theorem val3_main_c_52 (V0 : Valuation τ sig (Elt F)) : val3 V0 (no_index (Proc.devRef .tc main_c_52)) = (constantI S51 1 0#1 : (⟨S51, .i1⟩ : BufTy).Contents (Elt F)) :=
  (val3_keep V0 main_c_52 (by decide)).trans (val2_main_c_52 V0)
theorem val3_main_c_53 (V0 : Valuation τ sig (Elt F)) : val3 V0 (no_index (Proc.devRef .tc main_c_53)) = (fun i => lit27 (S51.rowMajor i) : (⟨S51, .i32⟩ : BufTy).Contents (Elt F)) :=
  (val3_keep V0 main_c_53 (by decide)).trans (val2_main_c_53 V0)
theorem val3_main_c_54 (V0 : Valuation τ sig (Elt F)) : val3 V0 (no_index (Proc.devRef .tc main_c_54)) = (constantI S51 1 0#1 : (⟨S51, .i1⟩ : BufTy).Contents (Elt F)) :=
  (val3_keep V0 main_c_54 (by decide)).trans (val2_main_c_54 V0)
theorem val3_main_c_55 (V0 : Valuation τ sig (Elt F)) : val3 V0 (no_index (Proc.devRef .tc main_c_55)) = (fun i => lit28 (S50.rowMajor i) : (⟨S50, .i32⟩ : BufTy).Contents (Elt F)) :=
  (val3_keep V0 main_c_55 (by decide)).trans (val2_main_c_55 V0)
theorem val3_main_c_56 (V0 : Valuation τ sig (Elt F)) : val3 V0 (no_index (Proc.devRef .tc main_c_56)) = (constantI S50 1 0#1 : (⟨S50, .i1⟩ : BufTy).Contents (Elt F)) :=
  (val3_keep V0 main_c_56 (by decide)).trans (val2_main_c_56 V0)
theorem val3_main_c_57 (V0 : Valuation τ sig (Elt F)) : val3 V0 (no_index (Proc.devRef .tc main_c_57)) = (fun i => lit29 (S50.rowMajor i) : (⟨S50, .i32⟩ : BufTy).Contents (Elt F)) :=
  (val3_keep V0 main_c_57 (by decide)).trans (val2_main_c_57 V0)
theorem val3_main_c_58 (V0 : Valuation τ sig (Elt F)) : val3 V0 (no_index (Proc.devRef .tc main_c_58)) = (constantI S50 1 0#1 : (⟨S50, .i1⟩ : BufTy).Contents (Elt F)) :=
  (val3_keep V0 main_c_58 (by decide)).trans (val2_main_c_58 V0)
theorem val3_main_c_59 (V0 : Valuation τ sig (Elt F)) : val3 V0 (no_index (Proc.devRef .tc main_c_59)) = (fun i => lit30 (S24.rowMajor i) : (⟨S24, .i32⟩ : BufTy).Contents (Elt F)) :=
  (val3_keep V0 main_c_59 (by decide)).trans (val2_main_c_59 V0)
theorem val3_main_c_60 (V0 : Valuation τ sig (Elt F)) : val3 V0 (no_index (Proc.devRef .tc main_c_60)) = (constantI S24 1 0#1 : (⟨S24, .i1⟩ : BufTy).Contents (Elt F)) :=
  (val3_keep V0 main_c_60 (by decide)).trans (val2_main_c_60 V0)
theorem val3_main_c_61 (V0 : Valuation τ sig (Elt F)) : val3 V0 (no_index (Proc.devRef .tc main_c_61)) = (fun i => lit31 (S24.rowMajor i) : (⟨S24, .i32⟩ : BufTy).Contents (Elt F)) :=
  (val3_keep V0 main_c_61 (by decide)).trans (val2_main_c_61 V0)
theorem val3_main_c_62 (V0 : Valuation τ sig (Elt F)) : val3 V0 (no_index (Proc.devRef .tc main_c_62)) = (constantI S24 1 0#1 : (⟨S24, .i1⟩ : BufTy).Contents (Elt F)) :=
  (val3_keep V0 main_c_62 (by decide)).trans (val2_main_c_62 V0)
theorem val3_main_c_63 (V0 : Valuation τ sig (Elt F)) : val3 V0 (no_index (Proc.devRef .tc main_c_63)) = (fun i => lit32 (S23.rowMajor i) : (⟨S23, .i32⟩ : BufTy).Contents (Elt F)) :=
  (val3_keep V0 main_c_63 (by decide)).trans (val2_main_c_63 V0)
theorem val3_main_c_64 (V0 : Valuation τ sig (Elt F)) : val3 V0 (no_index (Proc.devRef .tc main_c_64)) = (constantI S23 1 0#1 : (⟨S23, .i1⟩ : BufTy).Contents (Elt F)) :=
  (val3_keep V0 main_c_64 (by decide)).trans (val2_main_c_64 V0)
theorem val3_main_c_65 (V0 : Valuation τ sig (Elt F)) : val3 V0 (no_index (Proc.devRef .tc main_c_65)) = (fun i => lit33 (S23.rowMajor i) : (⟨S23, .i32⟩ : BufTy).Contents (Elt F)) :=
  (val3_keep V0 main_c_65 (by decide)).trans (val2_main_c_65 V0)
theorem val3_main_c_66 (V0 : Valuation τ sig (Elt F)) : val3 V0 (no_index (Proc.devRef .tc main_c_66)) = (constantI S23 1 0#1 : (⟨S23, .i1⟩ : BufTy).Contents (Elt F)) :=
  (val3_keep V0 main_c_66 (by decide)).trans (val2_main_c_66 V0)
theorem val3_main_c_67 (V0 : Valuation τ sig (Elt F)) : val3 V0 (no_index (Proc.devRef .tc main_c_67)) = (fun i => lit34 (S22.rowMajor i) : (⟨S22, .i32⟩ : BufTy).Contents (Elt F)) :=
  (val3_keep V0 main_c_67 (by decide)).trans (val2_main_c_67 V0)
theorem val3_main_c_68 (V0 : Valuation τ sig (Elt F)) : val3 V0 (no_index (Proc.devRef .tc main_c_68)) = (constantI S22 1 0#1 : (⟨S22, .i1⟩ : BufTy).Contents (Elt F)) :=
  (val3_keep V0 main_c_68 (by decide)).trans (val2_main_c_68 V0)
theorem val3_main_c_69 (V0 : Valuation τ sig (Elt F)) : val3 V0 (no_index (Proc.devRef .tc main_c_69)) = (fun i => lit35 (S22.rowMajor i) : (⟨S22, .i32⟩ : BufTy).Contents (Elt F)) :=
  (val3_keep V0 main_c_69 (by decide)).trans (val2_main_c_69 V0)
theorem val3_main_c_70 (V0 : Valuation τ sig (Elt F)) : val3 V0 (no_index (Proc.devRef .tc main_c_70)) = (constantI S22 1 0#1 : (⟨S22, .i1⟩ : BufTy).Contents (Elt F)) :=
  (val3_keep V0 main_c_70 (by decide)).trans (val2_main_c_70 V0)
theorem val3_main_c_71 (V0 : Valuation τ sig (Elt F)) : val3 V0 (no_index (Proc.devRef .tc main_c_71)) = (fun i => lit36 (S21.rowMajor i) : (⟨S21, .i32⟩ : BufTy).Contents (Elt F)) :=
  (val3_keep V0 main_c_71 (by decide)).trans (val2_main_c_71 V0)
theorem val3_main_c_72 (V0 : Valuation τ sig (Elt F)) : val3 V0 (no_index (Proc.devRef .tc main_c_72)) = (constantI S21 1 0#1 : (⟨S21, .i1⟩ : BufTy).Contents (Elt F)) :=
  (val3_keep V0 main_c_72 (by decide)).trans (val2_main_c_72 V0)
theorem val3_main_c_73 (V0 : Valuation τ sig (Elt F)) : val3 V0 (no_index (Proc.devRef .tc main_c_73)) = (fun i => lit37 (S21.rowMajor i) : (⟨S21, .i32⟩ : BufTy).Contents (Elt F)) :=
  (val3_keep V0 main_c_73 (by decide)).trans (val2_main_c_73 V0)
theorem val3_main_c_74 (V0 : Valuation τ sig (Elt F)) : val3 V0 (no_index (Proc.devRef .tc main_c_74)) = (constantI S21 1 0#1 : (⟨S21, .i1⟩ : BufTy).Contents (Elt F)) :=
  (val3_keep V0 main_c_74 (by decide)).trans (val2_main_c_74 V0)
theorem val3_main_c_75 (V0 : Valuation τ sig (Elt F)) : val3 V0 (no_index (Proc.devRef .tc main_c_75)) = (fun i => lit38 (S20.rowMajor i) : (⟨S20, .i32⟩ : BufTy).Contents (Elt F)) :=
  (val3_keep V0 main_c_75 (by decide)).trans (val2_main_c_75 V0)
theorem val3_main_c_76 (V0 : Valuation τ sig (Elt F)) : val3 V0 (no_index (Proc.devRef .tc main_c_76)) = (constantI S20 1 0#1 : (⟨S20, .i1⟩ : BufTy).Contents (Elt F)) :=
  (val3_keep V0 main_c_76 (by decide)).trans (val2_main_c_76 V0)
theorem val3_main_c_77 (V0 : Valuation τ sig (Elt F)) : val3 V0 (no_index (Proc.devRef .tc main_c_77)) = (fun i => lit39 (S20.rowMajor i) : (⟨S20, .i32⟩ : BufTy).Contents (Elt F)) :=
  (val3_keep V0 main_c_77 (by decide)).trans (val2_main_c_77 V0)
theorem val3_main_c_78 (V0 : Valuation τ sig (Elt F)) : val3 V0 (no_index (Proc.devRef .tc main_c_78)) = (constantI S20 1 0#1 : (⟨S20, .i1⟩ : BufTy).Contents (Elt F)) :=
  (val3_keep V0 main_c_78 (by decide)).trans (val2_main_c_78 V0)
theorem val3_main_c_79 (V0 : Valuation τ sig (Elt F)) : val3 V0 (no_index (Proc.devRef .tc main_c_79)) = (fun i => lit40 (S19.rowMajor i) : (⟨S19, .i32⟩ : BufTy).Contents (Elt F)) :=
  (val3_keep V0 main_c_79 (by decide)).trans (val2_main_c_79 V0)
theorem val3_main_c_80 (V0 : Valuation τ sig (Elt F)) : val3 V0 (no_index (Proc.devRef .tc main_c_80)) = (constantI S19 1 0#1 : (⟨S19, .i1⟩ : BufTy).Contents (Elt F)) :=
  (val3_keep V0 main_c_80 (by decide)).trans (val2_main_c_80 V0)
theorem val3_main_c_81 (V0 : Valuation τ sig (Elt F)) : val3 V0 (no_index (Proc.devRef .tc main_c_81)) = (fun i => lit41 (S19.rowMajor i) : (⟨S19, .i32⟩ : BufTy).Contents (Elt F)) :=
  (val3_keep V0 main_c_81 (by decide)).trans (val2_main_c_81 V0)
theorem val3_main_c_82 (V0 : Valuation τ sig (Elt F)) : val3 V0 (no_index (Proc.devRef .tc main_c_82)) = (constantI S19 1 0#1 : (⟨S19, .i1⟩ : BufTy).Contents (Elt F)) :=
  (val3_keep V0 main_c_82 (by decide)).trans (val2_main_c_82 V0)
theorem val3_main_c_83 (V0 : Valuation τ sig (Elt F)) : val3 V0 (no_index (Proc.devRef .tc main_c_83)) = (fun i => lit42 (S18.rowMajor i) : (⟨S18, .i32⟩ : BufTy).Contents (Elt F)) :=
  (val3_keep V0 main_c_83 (by decide)).trans (val2_main_c_83 V0)
theorem val3_main_c_84 (V0 : Valuation τ sig (Elt F)) : val3 V0 (no_index (Proc.devRef .tc main_c_84)) = (constantI S18 1 0#1 : (⟨S18, .i1⟩ : BufTy).Contents (Elt F)) :=
  (val3_keep V0 main_c_84 (by decide)).trans (val2_main_c_84 V0)
theorem val3_main_c_85 (V0 : Valuation τ sig (Elt F)) : val3 V0 (no_index (Proc.devRef .tc main_c_85)) = (fun i => lit43 (S18.rowMajor i) : (⟨S18, .i32⟩ : BufTy).Contents (Elt F)) :=
  (val3_keep V0 main_c_85 (by decide)).trans (val2_main_c_85 V0)
theorem val3_main_c_86 (V0 : Valuation τ sig (Elt F)) : val3 V0 (no_index (Proc.devRef .tc main_c_86)) = (constantI S18 1 0#1 : (⟨S18, .i1⟩ : BufTy).Contents (Elt F)) :=
  (val3_keep V0 main_c_86 (by decide)).trans (val2_main_c_86 V0)
theorem val3_main_c_87 (V0 : Valuation τ sig (Elt F)) : val3 V0 (no_index (Proc.devRef .tc main_c_87)) = (fun i => lit44 (S17.rowMajor i) : (⟨S17, .i32⟩ : BufTy).Contents (Elt F)) :=
  (val3_keep V0 main_c_87 (by decide)).trans (val2_main_c_87 V0)
theorem val3_main_c_88 (V0 : Valuation τ sig (Elt F)) : val3 V0 (no_index (Proc.devRef .tc main_c_88)) = (constantI S17 1 0#1 : (⟨S17, .i1⟩ : BufTy).Contents (Elt F)) :=
  (val3_keep V0 main_c_88 (by decide)).trans (val2_main_c_88 V0)
theorem val3_main_c_89 (V0 : Valuation τ sig (Elt F)) : val3 V0 (no_index (Proc.devRef .tc main_c_89)) = (fun i => lit45 (S17.rowMajor i) : (⟨S17, .i32⟩ : BufTy).Contents (Elt F)) :=
  (val3_keep V0 main_c_89 (by decide)).trans (val2_main_c_89 V0)
theorem val3_main_c_90 (V0 : Valuation τ sig (Elt F)) : val3 V0 (no_index (Proc.devRef .tc main_c_90)) = (constantI S17 1 0#1 : (⟨S17, .i1⟩ : BufTy).Contents (Elt F)) :=
  (val3_keep V0 main_c_90 (by decide)).trans (val2_main_c_90 V0)
theorem val3_main_c_91 (V0 : Valuation τ sig (Elt F)) : val3 V0 (no_index (Proc.devRef .tc main_c_91)) = (fun i => lit46 (S8.rowMajor i) : (⟨S8, .i32⟩ : BufTy).Contents (Elt F)) :=
  (val3_keep V0 main_c_91 (by decide)).trans (val2_main_c_91 V0)
theorem val3_main_c_92 (V0 : Valuation τ sig (Elt F)) : val3 V0 (no_index (Proc.devRef .tc main_c_92)) = (constantI S8 1 0#1 : (⟨S8, .i1⟩ : BufTy).Contents (Elt F)) :=
  (val3_keep V0 main_c_92 (by decide)).trans (val2_main_c_92 V0)
theorem val3_main_c_93 (V0 : Valuation τ sig (Elt F)) : val3 V0 (no_index (Proc.devRef .tc main_c_93)) = (fun i => lit47 (S8.rowMajor i) : (⟨S8, .i32⟩ : BufTy).Contents (Elt F)) :=
  (val3_keep V0 main_c_93 (by decide)).trans (val2_main_c_93 V0)
theorem val3_main_c_94 (V0 : Valuation τ sig (Elt F)) : val3 V0 (no_index (Proc.devRef .tc main_c_94)) = (constantI S8 1 0#1 : (⟨S8, .i1⟩ : BufTy).Contents (Elt F)) :=
  (val3_keep V0 main_c_94 (by decide)).trans (val2_main_c_94 V0)
theorem val3_main_c_95 (V0 : Valuation τ sig (Elt F)) : val3 V0 (no_index (Proc.devRef .tc main_c_95)) = (fun i => lit48 (S7.rowMajor i) : (⟨S7, .i32⟩ : BufTy).Contents (Elt F)) :=
  (val3_keep V0 main_c_95 (by decide)).trans (val2_main_c_95 V0)
theorem val3_main_c_96 (V0 : Valuation τ sig (Elt F)) : val3 V0 (no_index (Proc.devRef .tc main_c_96)) = (constantI S7 1 0#1 : (⟨S7, .i1⟩ : BufTy).Contents (Elt F)) :=
  (val3_keep V0 main_c_96 (by decide)).trans (val2_main_c_96 V0)
theorem val3_main_c_97 (V0 : Valuation τ sig (Elt F)) : val3 V0 (no_index (Proc.devRef .tc main_c_97)) = (fun i => lit49 (S7.rowMajor i) : (⟨S7, .i32⟩ : BufTy).Contents (Elt F)) :=
  (val3_keep V0 main_c_97 (by decide)).trans (val2_main_c_97 V0)
theorem val3_main_c_98 (V0 : Valuation τ sig (Elt F)) : val3 V0 (no_index (Proc.devRef .tc main_c_98)) = (constantI S7 1 0#1 : (⟨S7, .i1⟩ : BufTy).Contents (Elt F)) :=
  (val3_keep V0 main_c_98 (by decide)).trans (val2_main_c_98 V0)
theorem val3_main_c_99 (V0 : Valuation τ sig (Elt F)) : val3 V0 (no_index (Proc.devRef .tc main_c_99)) = (fun i => lit50 (S6.rowMajor i) : (⟨S6, .i32⟩ : BufTy).Contents (Elt F)) :=
  (val3_keep V0 main_c_99 (by decide)).trans (val2_main_c_99 V0)
theorem val3_main_c_100 (V0 : Valuation τ sig (Elt F)) : val3 V0 (no_index (Proc.devRef .tc main_c_100)) = (constantI S6 1 0#1 : (⟨S6, .i1⟩ : BufTy).Contents (Elt F)) :=
  (val3_keep V0 main_c_100 (by decide)).trans (val2_main_c_100 V0)
theorem val3_main_c_101 (V0 : Valuation τ sig (Elt F)) : val3 V0 (no_index (Proc.devRef .tc main_c_101)) = (fun i => lit51 (S6.rowMajor i) : (⟨S6, .i32⟩ : BufTy).Contents (Elt F)) :=
  (val3_keep V0 main_c_101 (by decide)).trans (val2_main_c_101 V0)
theorem val3_main_c_102 (V0 : Valuation τ sig (Elt F)) : val3 V0 (no_index (Proc.devRef .tc main_c_102)) = (constantI S6 1 0#1 : (⟨S6, .i1⟩ : BufTy).Contents (Elt F)) :=
  (val3_keep V0 main_c_102 (by decide)).trans (val2_main_c_102 V0)
theorem val3_main_c_103 (V0 : Valuation τ sig (Elt F)) : val3 V0 (no_index (Proc.devRef .tc main_c_103)) = (fun i => lit52 (S5.rowMajor i) : (⟨S5, .i32⟩ : BufTy).Contents (Elt F)) :=
  (val3_keep V0 main_c_103 (by decide)).trans (val2_main_c_103 V0)
theorem val3_main_c_104 (V0 : Valuation τ sig (Elt F)) : val3 V0 (no_index (Proc.devRef .tc main_c_104)) = (constantI S5 1 0#1 : (⟨S5, .i1⟩ : BufTy).Contents (Elt F)) :=
  (val3_keep V0 main_c_104 (by decide)).trans (val2_main_c_104 V0)
theorem val3_main_c_105 (V0 : Valuation τ sig (Elt F)) : val3 V0 (no_index (Proc.devRef .tc main_c_105)) = (fun i => lit53 (S5.rowMajor i) : (⟨S5, .i32⟩ : BufTy).Contents (Elt F)) :=
  (val3_keep V0 main_c_105 (by decide)).trans (val2_main_c_105 V0)
theorem val3_main_c_106 (V0 : Valuation τ sig (Elt F)) : val3 V0 (no_index (Proc.devRef .tc main_c_106)) = (constantI S5 1 0#1 : (⟨S5, .i1⟩ : BufTy).Contents (Elt F)) :=
  (val3_keep V0 main_c_106 (by decide)).trans (val2_main_c_106 V0)
theorem val3_main_c_107 (V0 : Valuation τ sig (Elt F)) : val3 V0 (no_index (Proc.devRef .tc main_c_107)) = (fun i => lit54 (S4.rowMajor i) : (⟨S4, .i32⟩ : BufTy).Contents (Elt F)) :=
  (val3_keep V0 main_c_107 (by decide)).trans (val2_main_c_107 V0)
theorem val3_main_c_108 (V0 : Valuation τ sig (Elt F)) : val3 V0 (no_index (Proc.devRef .tc main_c_108)) = (constantI S4 1 0#1 : (⟨S4, .i1⟩ : BufTy).Contents (Elt F)) :=
  (val3_keep V0 main_c_108 (by decide)).trans (val2_main_c_108 V0)
theorem val3_main_c_109 (V0 : Valuation τ sig (Elt F)) : val3 V0 (no_index (Proc.devRef .tc main_c_109)) = (fun i => lit55 (S4.rowMajor i) : (⟨S4, .i32⟩ : BufTy).Contents (Elt F)) :=
  (val3_keep V0 main_c_109 (by decide)).trans (val2_main_c_109 V0)
theorem val3_main_c_110 (V0 : Valuation τ sig (Elt F)) : val3 V0 (no_index (Proc.devRef .tc main_c_110)) = (constantI S4 1 0#1 : (⟨S4, .i1⟩ : BufTy).Contents (Elt F)) :=
  (val3_keep V0 main_c_110 (by decide)).trans (val2_main_c_110 V0)
theorem val3_main_c_111 (V0 : Valuation τ sig (Elt F)) : val3 V0 (no_index (Proc.devRef .tc main_c_111)) = (fun i => lit56 (S3.rowMajor i) : (⟨S3, .i32⟩ : BufTy).Contents (Elt F)) :=
  (val3_keep V0 main_c_111 (by decide)).trans (val2_main_c_111 V0)
theorem val3_main_c_112 (V0 : Valuation τ sig (Elt F)) : val3 V0 (no_index (Proc.devRef .tc main_c_112)) = (constantI S3 1 0#1 : (⟨S3, .i1⟩ : BufTy).Contents (Elt F)) :=
  (val3_keep V0 main_c_112 (by decide)).trans (val2_main_c_112 V0)
theorem val3_main_c_113 (V0 : Valuation τ sig (Elt F)) : val3 V0 (no_index (Proc.devRef .tc main_c_113)) = (fun i => lit57 (S3.rowMajor i) : (⟨S3, .i32⟩ : BufTy).Contents (Elt F)) :=
  (val3_keep V0 main_c_113 (by decide)).trans (val2_main_c_113 V0)
theorem val3_main_c_114 (V0 : Valuation τ sig (Elt F)) : val3 V0 (no_index (Proc.devRef .tc main_c_114)) = (constantI S3 1 0#1 : (⟨S3, .i1⟩ : BufTy).Contents (Elt F)) :=
  (val3_keep V0 main_c_114 (by decide)).trans (val2_main_c_114 V0)
theorem val3_main_c_115 (V0 : Valuation τ sig (Elt F)) : val3 V0 (no_index (Proc.devRef .tc main_c_115)) = (fun i => lit58 (S2.rowMajor i) : (⟨S2, .i32⟩ : BufTy).Contents (Elt F)) :=
  (val3_keep V0 main_c_115 (by decide)).trans (val2_main_c_115 V0)
theorem val3_main_c_116 (V0 : Valuation τ sig (Elt F)) : val3 V0 (no_index (Proc.devRef .tc main_c_116)) = (constantI S2 1 0#1 : (⟨S2, .i1⟩ : BufTy).Contents (Elt F)) :=
  (val3_keep V0 main_c_116 (by decide)).trans (val2_main_c_116 V0)
theorem val3_main_c_117 (V0 : Valuation τ sig (Elt F)) : val3 V0 (no_index (Proc.devRef .tc main_c_117)) = (fun i => lit59 (S2.rowMajor i) : (⟨S2, .i32⟩ : BufTy).Contents (Elt F)) :=
  (val3_keep V0 main_c_117 (by decide)).trans (val2_main_c_117 V0)
theorem val3_main_c_118 (V0 : Valuation τ sig (Elt F)) : val3 V0 (no_index (Proc.devRef .tc main_c_118)) = (constantI S2 1 0#1 : (⟨S2, .i1⟩ : BufTy).Contents (Elt F)) :=
  (val3_keep V0 main_c_118 (by decide)).trans (val2_main_c_118 V0)
set_option maxRecDepth 8192 in
set_option maxHeartbeats 2000000 in
theorem val3_main_c_119 (V0 : Valuation τ sig (Elt F)) : val3 V0 (no_index (Proc.devRef .tc main_c_119)) = (constantI S1 32 0#32 : (⟨S1, .i32⟩ : BufTy).Contents (Elt F)) := by
  unfold val3
  simp only [ops2]
  after_results_simp
  all_goals rfl
set_option maxRecDepth 8192 in
set_option maxHeartbeats 2000000 in
theorem val3_main_c_120 (V0 : Valuation τ sig (Elt F)) : val3 V0 (no_index (Proc.devRef .tc main_c_120)) = (constantI S1 1 0#1 : (⟨S1, .i1⟩ : BufTy).Contents (Elt F)) := by
  unfold val3
  simp only [ops2]
  after_results_simp
  all_goals rfl
set_option maxRecDepth 8192 in
set_option maxHeartbeats 2000000 in
theorem val3_main_c_121 (V0 : Valuation τ sig (Elt F)) : val3 V0 (no_index (Proc.devRef .tc main_c_121)) = (constantI S1 32 62#32 : (⟨S1, .i32⟩ : BufTy).Contents (Elt F)) := by
  unfold val3
  simp only [ops2]
  after_results_simp
  all_goals rfl
set_option maxRecDepth 8192 in
set_option maxHeartbeats 2000000 in
theorem val3_main_c_122 (V0 : Valuation τ sig (Elt F)) : val3 V0 (no_index (Proc.devRef .tc main_c_122)) = (constantI S1 1 0#1 : (⟨S1, .i1⟩ : BufTy).Contents (Elt F)) := by
  unfold val3
  simp only [ops2]
  after_results_simp
  all_goals rfl
set_option maxRecDepth 8192 in
set_option maxHeartbeats 2000000 in
theorem val3_main_c_123 (V0 : Valuation τ sig (Elt F)) : val3 V0 (no_index (Proc.devRef .tc main_c_123)) = fun i => lit60 (S64x64.rowMajor i) := by
  unfold val3
  simp only [ops2]
  after_results_simp
  all_goals rfl
set_option maxRecDepth 8192 in
set_option maxHeartbeats 2000000 in
theorem val3_main_v34 (V0 : Valuation τ sig (Elt F)) : val3 V0 (no_index (Proc.devRef .tc main_v34)) = acc_2 (V0 (Proc.devRef .tc main_arg0)) := by
  unfold val3
  simp only [ops2]
  after_results_simp
  simp only [val2_main_arg0, val2_main_c_9, val2_main_c_10, val2_main_c_7, val2_main_c_8, val2_main_c_5, val2_main_c_6, val2_main_c_3, val2_main_c_4, val2_main_c_1, val2_main_c_2, val2_main_c, val2_main_c_0] <;> rfl
set_option maxRecDepth 8192 in
set_option maxHeartbeats 2000000 in
theorem val3_main_v36 (V0 : Valuation τ sig (Elt F)) : val3 V0 (no_index (Proc.devRef .tc main_v36)) = pool_3 (V0 (Proc.devRef .tc main_arg0)) := by
  unfold val3
  simp only [ops2]
  after_results_simp
  simp only [val2_main_arg0] <;> rfl
set_option maxRecDepth 8192 in
set_option maxHeartbeats 2000000 in
theorem val3_main_v39 (V0 : Valuation τ sig (Elt F)) : val3 V0 (no_index (Proc.devRef .tc main_v39)) = (ixI_3 (F := F)) := by
  unfold val3
  simp only [ops2]
  after_results_simp
  simp only [val2_main_c_11, val2_main_c_12] <;> rfl
set_option maxRecDepth 8192 in
set_option maxHeartbeats 2000000 in
theorem val3_main_v42 (V0 : Valuation τ sig (Elt F)) : val3 V0 (no_index (Proc.devRef .tc main_v42)) = (ixJ_3 (F := F)) := by
  unfold val3
  simp only [ops2]
  after_results_simp
  simp only [val2_main_c_13, val2_main_c_14] <;> rfl

end Cert.RefRun

end
-- ==== Proof.RefRunW4.lean ====
/-
  The buffers that are still read after the first 4 windows, each at its term over the contents at launch: a buffer
  written earlier keeps its contents through the window, a buffer the window writes is read off the window's operations.
-/
import proofs.«156021_j19232863551513_2_alg».proof.Proof.RefRunW3

noncomputable section

namespace Cert.RefRun

open Cert.ReferenceIdeal Cert.ReferenceIdeal.Facts₀ Cert.ReferenceIdeal.Facts Cert.RefTerm
open Idealize.ShloMosaic Idealize.ShloMosaic.TcCoe Idealize.SL.Sem Idealize.ShloMosaic.StableHlo

variable {F : FTy → Type} [FloatOps F]

theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_c_31 (V0 : Valuation τ sig (Elt F)) : val4 V0 (no_index (Proc.devRef .tc main_c_31)) = (fun i => lit16 (S56.rowMajor i) : (⟨S56, .i32⟩ : BufTy).Contents (Elt F)) :=
  (val4_keep V0 main_c_31 (by decide)).trans (val3_main_c_31 V0)
theorem val4_main_c_32 (V0 : Valuation τ sig (Elt F)) : val4 V0 (no_index (Proc.devRef .tc main_c_32)) = (constantI S56 1 0#1 : (⟨S56, .i1⟩ : BufTy).Contents (Elt F)) :=
  (val4_keep V0 main_c_32 (by decide)).trans (val3_main_c_32 V0)
theorem val4_main_c_33 (V0 : Valuation τ sig (Elt F)) : val4 V0 (no_index (Proc.devRef .tc main_c_33)) = (fun i => lit17 (S56.rowMajor i) : (⟨S56, .i32⟩ : BufTy).Contents (Elt F)) :=
  (val4_keep V0 main_c_33 (by decide)).trans (val3_main_c_33 V0)
theorem val4_main_c_34 (V0 : Valuation τ sig (Elt F)) : val4 V0 (no_index (Proc.devRef .tc main_c_34)) = (constantI S56 1 0#1 : (⟨S56, .i1⟩ : BufTy).Contents (Elt F)) :=
  (val4_keep V0 main_c_34 (by decide)).trans (val3_main_c_34 V0)
theorem val4_main_c_35 (V0 : Valuation τ sig (Elt F)) : val4 V0 (no_index (Proc.devRef .tc main_c_35)) = (fun i => lit18 (S55.rowMajor i) : (⟨S55, .i32⟩ : BufTy).Contents (Elt F)) :=
  (val4_keep V0 main_c_35 (by decide)).trans (val3_main_c_35 V0)
theorem val4_main_c_36 (V0 : Valuation τ sig (Elt F)) : val4 V0 (no_index (Proc.devRef .tc main_c_36)) = (constantI S55 1 0#1 : (⟨S55, .i1⟩ : BufTy).Contents (Elt F)) :=
  (val4_keep V0 main_c_36 (by decide)).trans (val3_main_c_36 V0)
theorem val4_main_c_37 (V0 : Valuation τ sig (Elt F)) : val4 V0 (no_index (Proc.devRef .tc main_c_37)) = (fun i => lit19 (S55.rowMajor i) : (⟨S55, .i32⟩ : BufTy).Contents (Elt F)) :=
  (val4_keep V0 main_c_37 (by decide)).trans (val3_main_c_37 V0)
theorem val4_main_c_38 (V0 : Valuation τ sig (Elt F)) : val4 V0 (no_index (Proc.devRef .tc main_c_38)) = (constantI S55 1 0#1 : (⟨S55, .i1⟩ : BufTy).Contents (Elt F)) :=
  (val4_keep V0 main_c_38 (by decide)).trans (val3_main_c_38 V0)
theorem val4_main_c_39 (V0 : Valuation τ sig (Elt F)) : val4 V0 (no_index (Proc.devRef .tc main_c_39)) = (fun i => lit20 (S54.rowMajor i) : (⟨S54, .i32⟩ : BufTy).Contents (Elt F)) :=
  (val4_keep V0 main_c_39 (by decide)).trans (val3_main_c_39 V0)
theorem val4_main_c_40 (V0 : Valuation τ sig (Elt F)) : val4 V0 (no_index (Proc.devRef .tc main_c_40)) = (constantI S54 1 0#1 : (⟨S54, .i1⟩ : BufTy).Contents (Elt F)) :=
  (val4_keep V0 main_c_40 (by decide)).trans (val3_main_c_40 V0)
theorem val4_main_c_41 (V0 : Valuation τ sig (Elt F)) : val4 V0 (no_index (Proc.devRef .tc main_c_41)) = (fun i => lit21 (S54.rowMajor i) : (⟨S54, .i32⟩ : BufTy).Contents (Elt F)) :=
  (val4_keep V0 main_c_41 (by decide)).trans (val3_main_c_41 V0)
theorem val4_main_c_42 (V0 : Valuation τ sig (Elt F)) : val4 V0 (no_index (Proc.devRef .tc main_c_42)) = (constantI S54 1 0#1 : (⟨S54, .i1⟩ : BufTy).Contents (Elt F)) :=
  (val4_keep V0 main_c_42 (by decide)).trans (val3_main_c_42 V0)
theorem val4_main_c_43 (V0 : Valuation τ sig (Elt F)) : val4 V0 (no_index (Proc.devRef .tc main_c_43)) = (fun i => lit22 (S53.rowMajor i) : (⟨S53, .i32⟩ : BufTy).Contents (Elt F)) :=
  (val4_keep V0 main_c_43 (by decide)).trans (val3_main_c_43 V0)
theorem val4_main_c_44 (V0 : Valuation τ sig (Elt F)) : val4 V0 (no_index (Proc.devRef .tc main_c_44)) = (constantI S53 1 0#1 : (⟨S53, .i1⟩ : BufTy).Contents (Elt F)) :=
  (val4_keep V0 main_c_44 (by decide)).trans (val3_main_c_44 V0)
theorem val4_main_c_45 (V0 : Valuation τ sig (Elt F)) : val4 V0 (no_index (Proc.devRef .tc main_c_45)) = (fun i => lit23 (S53.rowMajor i) : (⟨S53, .i32⟩ : BufTy).Contents (Elt F)) :=
  (val4_keep V0 main_c_45 (by decide)).trans (val3_main_c_45 V0)
theorem val4_main_c_46 (V0 : Valuation τ sig (Elt F)) : val4 V0 (no_index (Proc.devRef .tc main_c_46)) = (constantI S53 1 0#1 : (⟨S53, .i1⟩ : BufTy).Contents (Elt F)) :=
  (val4_keep V0 main_c_46 (by decide)).trans (val3_main_c_46 V0)
theorem val4_main_c_47 (V0 : Valuation τ sig (Elt F)) : val4 V0 (no_index (Proc.devRef .tc main_c_47)) = (fun i => lit24 (S52.rowMajor i) : (⟨S52, .i32⟩ : BufTy).Contents (Elt F)) :=
  (val4_keep V0 main_c_47 (by decide)).trans (val3_main_c_47 V0)
theorem val4_main_c_48 (V0 : Valuation τ sig (Elt F)) : val4 V0 (no_index (Proc.devRef .tc main_c_48)) = (constantI S52 1 0#1 : (⟨S52, .i1⟩ : BufTy).Contents (Elt F)) :=
  (val4_keep V0 main_c_48 (by decide)).trans (val3_main_c_48 V0)
theorem val4_main_c_49 (V0 : Valuation τ sig (Elt F)) : val4 V0 (no_index (Proc.devRef .tc main_c_49)) = (fun i => lit25 (S52.rowMajor i) : (⟨S52, .i32⟩ : BufTy).Contents (Elt F)) :=
  (val4_keep V0 main_c_49 (by decide)).trans (val3_main_c_49 V0)
theorem val4_main_c_50 (V0 : Valuation τ sig (Elt F)) : val4 V0 (no_index (Proc.devRef .tc main_c_50)) = (constantI S52 1 0#1 : (⟨S52, .i1⟩ : BufTy).Contents (Elt F)) :=
  (val4_keep V0 main_c_50 (by decide)).trans (val3_main_c_50 V0)
theorem val4_main_c_51 (V0 : Valuation τ sig (Elt F)) : val4 V0 (no_index (Proc.devRef .tc main_c_51)) = (fun i => lit26 (S51.rowMajor i) : (⟨S51, .i32⟩ : BufTy).Contents (Elt F)) :=
  (val4_keep V0 main_c_51 (by decide)).trans (val3_main_c_51 V0)
theorem val4_main_c_52 (V0 : Valuation τ sig (Elt F)) : val4 V0 (no_index (Proc.devRef .tc main_c_52)) = (constantI S51 1 0#1 : (⟨S51, .i1⟩ : BufTy).Contents (Elt F)) :=
  (val4_keep V0 main_c_52 (by decide)).trans (val3_main_c_52 V0)
theorem val4_main_c_53 (V0 : Valuation τ sig (Elt F)) : val4 V0 (no_index (Proc.devRef .tc main_c_53)) = (fun i => lit27 (S51.rowMajor i) : (⟨S51, .i32⟩ : BufTy).Contents (Elt F)) :=
  (val4_keep V0 main_c_53 (by decide)).trans (val3_main_c_53 V0)
theorem val4_main_c_54 (V0 : Valuation τ sig (Elt F)) : val4 V0 (no_index (Proc.devRef .tc main_c_54)) = (constantI S51 1 0#1 : (⟨S51, .i1⟩ : BufTy).Contents (Elt F)) :=
  (val4_keep V0 main_c_54 (by decide)).trans (val3_main_c_54 V0)
theorem val4_main_c_55 (V0 : Valuation τ sig (Elt F)) : val4 V0 (no_index (Proc.devRef .tc main_c_55)) = (fun i => lit28 (S50.rowMajor i) : (⟨S50, .i32⟩ : BufTy).Contents (Elt F)) :=
  (val4_keep V0 main_c_55 (by decide)).trans (val3_main_c_55 V0)
theorem val4_main_c_56 (V0 : Valuation τ sig (Elt F)) : val4 V0 (no_index (Proc.devRef .tc main_c_56)) = (constantI S50 1 0#1 : (⟨S50, .i1⟩ : BufTy).Contents (Elt F)) :=
  (val4_keep V0 main_c_56 (by decide)).trans (val3_main_c_56 V0)
theorem val4_main_c_57 (V0 : Valuation τ sig (Elt F)) : val4 V0 (no_index (Proc.devRef .tc main_c_57)) = (fun i => lit29 (S50.rowMajor i) : (⟨S50, .i32⟩ : BufTy).Contents (Elt F)) :=
  (val4_keep V0 main_c_57 (by decide)).trans (val3_main_c_57 V0)
theorem val4_main_c_58 (V0 : Valuation τ sig (Elt F)) : val4 V0 (no_index (Proc.devRef .tc main_c_58)) = (constantI S50 1 0#1 : (⟨S50, .i1⟩ : BufTy).Contents (Elt F)) :=
  (val4_keep V0 main_c_58 (by decide)).trans (val3_main_c_58 V0)
theorem val4_main_c_59 (V0 : Valuation τ sig (Elt F)) : val4 V0 (no_index (Proc.devRef .tc main_c_59)) = (fun i => lit30 (S24.rowMajor i) : (⟨S24, .i32⟩ : BufTy).Contents (Elt F)) :=
  (val4_keep V0 main_c_59 (by decide)).trans (val3_main_c_59 V0)
theorem val4_main_c_60 (V0 : Valuation τ sig (Elt F)) : val4 V0 (no_index (Proc.devRef .tc main_c_60)) = (constantI S24 1 0#1 : (⟨S24, .i1⟩ : BufTy).Contents (Elt F)) :=
  (val4_keep V0 main_c_60 (by decide)).trans (val3_main_c_60 V0)
theorem val4_main_c_61 (V0 : Valuation τ sig (Elt F)) : val4 V0 (no_index (Proc.devRef .tc main_c_61)) = (fun i => lit31 (S24.rowMajor i) : (⟨S24, .i32⟩ : BufTy).Contents (Elt F)) :=
  (val4_keep V0 main_c_61 (by decide)).trans (val3_main_c_61 V0)
theorem val4_main_c_62 (V0 : Valuation τ sig (Elt F)) : val4 V0 (no_index (Proc.devRef .tc main_c_62)) = (constantI S24 1 0#1 : (⟨S24, .i1⟩ : BufTy).Contents (Elt F)) :=
  (val4_keep V0 main_c_62 (by decide)).trans (val3_main_c_62 V0)
theorem val4_main_c_63 (V0 : Valuation τ sig (Elt F)) : val4 V0 (no_index (Proc.devRef .tc main_c_63)) = (fun i => lit32 (S23.rowMajor i) : (⟨S23, .i32⟩ : BufTy).Contents (Elt F)) :=
  (val4_keep V0 main_c_63 (by decide)).trans (val3_main_c_63 V0)
theorem val4_main_c_64 (V0 : Valuation τ sig (Elt F)) : val4 V0 (no_index (Proc.devRef .tc main_c_64)) = (constantI S23 1 0#1 : (⟨S23, .i1⟩ : BufTy).Contents (Elt F)) :=
  (val4_keep V0 main_c_64 (by decide)).trans (val3_main_c_64 V0)
theorem val4_main_c_65 (V0 : Valuation τ sig (Elt F)) : val4 V0 (no_index (Proc.devRef .tc main_c_65)) = (fun i => lit33 (S23.rowMajor i) : (⟨S23, .i32⟩ : BufTy).Contents (Elt F)) :=
  (val4_keep V0 main_c_65 (by decide)).trans (val3_main_c_65 V0)
theorem val4_main_c_66 (V0 : Valuation τ sig (Elt F)) : val4 V0 (no_index (Proc.devRef .tc main_c_66)) = (constantI S23 1 0#1 : (⟨S23, .i1⟩ : BufTy).Contents (Elt F)) :=
  (val4_keep V0 main_c_66 (by decide)).trans (val3_main_c_66 V0)
theorem val4_main_c_67 (V0 : Valuation τ sig (Elt F)) : val4 V0 (no_index (Proc.devRef .tc main_c_67)) = (fun i => lit34 (S22.rowMajor i) : (⟨S22, .i32⟩ : BufTy).Contents (Elt F)) :=
  (val4_keep V0 main_c_67 (by decide)).trans (val3_main_c_67 V0)
theorem val4_main_c_68 (V0 : Valuation τ sig (Elt F)) : val4 V0 (no_index (Proc.devRef .tc main_c_68)) = (constantI S22 1 0#1 : (⟨S22, .i1⟩ : BufTy).Contents (Elt F)) :=
  (val4_keep V0 main_c_68 (by decide)).trans (val3_main_c_68 V0)
theorem val4_main_c_69 (V0 : Valuation τ sig (Elt F)) : val4 V0 (no_index (Proc.devRef .tc main_c_69)) = (fun i => lit35 (S22.rowMajor i) : (⟨S22, .i32⟩ : BufTy).Contents (Elt F)) :=
  (val4_keep V0 main_c_69 (by decide)).trans (val3_main_c_69 V0)
theorem val4_main_c_70 (V0 : Valuation τ sig (Elt F)) : val4 V0 (no_index (Proc.devRef .tc main_c_70)) = (constantI S22 1 0#1 : (⟨S22, .i1⟩ : BufTy).Contents (Elt F)) :=
  (val4_keep V0 main_c_70 (by decide)).trans (val3_main_c_70 V0)
theorem val4_main_c_71 (V0 : Valuation τ sig (Elt F)) : val4 V0 (no_index (Proc.devRef .tc main_c_71)) = (fun i => lit36 (S21.rowMajor i) : (⟨S21, .i32⟩ : BufTy).Contents (Elt F)) :=
  (val4_keep V0 main_c_71 (by decide)).trans (val3_main_c_71 V0)
theorem val4_main_c_72 (V0 : Valuation τ sig (Elt F)) : val4 V0 (no_index (Proc.devRef .tc main_c_72)) = (constantI S21 1 0#1 : (⟨S21, .i1⟩ : BufTy).Contents (Elt F)) :=
  (val4_keep V0 main_c_72 (by decide)).trans (val3_main_c_72 V0)
theorem val4_main_c_73 (V0 : Valuation τ sig (Elt F)) : val4 V0 (no_index (Proc.devRef .tc main_c_73)) = (fun i => lit37 (S21.rowMajor i) : (⟨S21, .i32⟩ : BufTy).Contents (Elt F)) :=
  (val4_keep V0 main_c_73 (by decide)).trans (val3_main_c_73 V0)
theorem val4_main_c_74 (V0 : Valuation τ sig (Elt F)) : val4 V0 (no_index (Proc.devRef .tc main_c_74)) = (constantI S21 1 0#1 : (⟨S21, .i1⟩ : BufTy).Contents (Elt F)) :=
  (val4_keep V0 main_c_74 (by decide)).trans (val3_main_c_74 V0)
theorem val4_main_c_75 (V0 : Valuation τ sig (Elt F)) : val4 V0 (no_index (Proc.devRef .tc main_c_75)) = (fun i => lit38 (S20.rowMajor i) : (⟨S20, .i32⟩ : BufTy).Contents (Elt F)) :=
  (val4_keep V0 main_c_75 (by decide)).trans (val3_main_c_75 V0)
theorem val4_main_c_76 (V0 : Valuation τ sig (Elt F)) : val4 V0 (no_index (Proc.devRef .tc main_c_76)) = (constantI S20 1 0#1 : (⟨S20, .i1⟩ : BufTy).Contents (Elt F)) :=
  (val4_keep V0 main_c_76 (by decide)).trans (val3_main_c_76 V0)
theorem val4_main_c_77 (V0 : Valuation τ sig (Elt F)) : val4 V0 (no_index (Proc.devRef .tc main_c_77)) = (fun i => lit39 (S20.rowMajor i) : (⟨S20, .i32⟩ : BufTy).Contents (Elt F)) :=
  (val4_keep V0 main_c_77 (by decide)).trans (val3_main_c_77 V0)
theorem val4_main_c_78 (V0 : Valuation τ sig (Elt F)) : val4 V0 (no_index (Proc.devRef .tc main_c_78)) = (constantI S20 1 0#1 : (⟨S20, .i1⟩ : BufTy).Contents (Elt F)) :=
  (val4_keep V0 main_c_78 (by decide)).trans (val3_main_c_78 V0)
theorem val4_main_c_79 (V0 : Valuation τ sig (Elt F)) : val4 V0 (no_index (Proc.devRef .tc main_c_79)) = (fun i => lit40 (S19.rowMajor i) : (⟨S19, .i32⟩ : BufTy).Contents (Elt F)) :=
  (val4_keep V0 main_c_79 (by decide)).trans (val3_main_c_79 V0)
theorem val4_main_c_80 (V0 : Valuation τ sig (Elt F)) : val4 V0 (no_index (Proc.devRef .tc main_c_80)) = (constantI S19 1 0#1 : (⟨S19, .i1⟩ : BufTy).Contents (Elt F)) :=
  (val4_keep V0 main_c_80 (by decide)).trans (val3_main_c_80 V0)
theorem val4_main_c_81 (V0 : Valuation τ sig (Elt F)) : val4 V0 (no_index (Proc.devRef .tc main_c_81)) = (fun i => lit41 (S19.rowMajor i) : (⟨S19, .i32⟩ : BufTy).Contents (Elt F)) :=
  (val4_keep V0 main_c_81 (by decide)).trans (val3_main_c_81 V0)
theorem val4_main_c_82 (V0 : Valuation τ sig (Elt F)) : val4 V0 (no_index (Proc.devRef .tc main_c_82)) = (constantI S19 1 0#1 : (⟨S19, .i1⟩ : BufTy).Contents (Elt F)) :=
  (val4_keep V0 main_c_82 (by decide)).trans (val3_main_c_82 V0)
theorem val4_main_c_83 (V0 : Valuation τ sig (Elt F)) : val4 V0 (no_index (Proc.devRef .tc main_c_83)) = (fun i => lit42 (S18.rowMajor i) : (⟨S18, .i32⟩ : BufTy).Contents (Elt F)) :=
  (val4_keep V0 main_c_83 (by decide)).trans (val3_main_c_83 V0)
theorem val4_main_c_84 (V0 : Valuation τ sig (Elt F)) : val4 V0 (no_index (Proc.devRef .tc main_c_84)) = (constantI S18 1 0#1 : (⟨S18, .i1⟩ : BufTy).Contents (Elt F)) :=
  (val4_keep V0 main_c_84 (by decide)).trans (val3_main_c_84 V0)
theorem val4_main_c_85 (V0 : Valuation τ sig (Elt F)) : val4 V0 (no_index (Proc.devRef .tc main_c_85)) = (fun i => lit43 (S18.rowMajor i) : (⟨S18, .i32⟩ : BufTy).Contents (Elt F)) :=
  (val4_keep V0 main_c_85 (by decide)).trans (val3_main_c_85 V0)
theorem val4_main_c_86 (V0 : Valuation τ sig (Elt F)) : val4 V0 (no_index (Proc.devRef .tc main_c_86)) = (constantI S18 1 0#1 : (⟨S18, .i1⟩ : BufTy).Contents (Elt F)) :=
  (val4_keep V0 main_c_86 (by decide)).trans (val3_main_c_86 V0)
theorem val4_main_c_87 (V0 : Valuation τ sig (Elt F)) : val4 V0 (no_index (Proc.devRef .tc main_c_87)) = (fun i => lit44 (S17.rowMajor i) : (⟨S17, .i32⟩ : BufTy).Contents (Elt F)) :=
  (val4_keep V0 main_c_87 (by decide)).trans (val3_main_c_87 V0)
theorem val4_main_c_88 (V0 : Valuation τ sig (Elt F)) : val4 V0 (no_index (Proc.devRef .tc main_c_88)) = (constantI S17 1 0#1 : (⟨S17, .i1⟩ : BufTy).Contents (Elt F)) :=
  (val4_keep V0 main_c_88 (by decide)).trans (val3_main_c_88 V0)
theorem val4_main_c_89 (V0 : Valuation τ sig (Elt F)) : val4 V0 (no_index (Proc.devRef .tc main_c_89)) = (fun i => lit45 (S17.rowMajor i) : (⟨S17, .i32⟩ : BufTy).Contents (Elt F)) :=
  (val4_keep V0 main_c_89 (by decide)).trans (val3_main_c_89 V0)
theorem val4_main_c_90 (V0 : Valuation τ sig (Elt F)) : val4 V0 (no_index (Proc.devRef .tc main_c_90)) = (constantI S17 1 0#1 : (⟨S17, .i1⟩ : BufTy).Contents (Elt F)) :=
  (val4_keep V0 main_c_90 (by decide)).trans (val3_main_c_90 V0)
theorem val4_main_c_91 (V0 : Valuation τ sig (Elt F)) : val4 V0 (no_index (Proc.devRef .tc main_c_91)) = (fun i => lit46 (S8.rowMajor i) : (⟨S8, .i32⟩ : BufTy).Contents (Elt F)) :=
  (val4_keep V0 main_c_91 (by decide)).trans (val3_main_c_91 V0)
theorem val4_main_c_92 (V0 : Valuation τ sig (Elt F)) : val4 V0 (no_index (Proc.devRef .tc main_c_92)) = (constantI S8 1 0#1 : (⟨S8, .i1⟩ : BufTy).Contents (Elt F)) :=
  (val4_keep V0 main_c_92 (by decide)).trans (val3_main_c_92 V0)
theorem val4_main_c_93 (V0 : Valuation τ sig (Elt F)) : val4 V0 (no_index (Proc.devRef .tc main_c_93)) = (fun i => lit47 (S8.rowMajor i) : (⟨S8, .i32⟩ : BufTy).Contents (Elt F)) :=
  (val4_keep V0 main_c_93 (by decide)).trans (val3_main_c_93 V0)
theorem val4_main_c_94 (V0 : Valuation τ sig (Elt F)) : val4 V0 (no_index (Proc.devRef .tc main_c_94)) = (constantI S8 1 0#1 : (⟨S8, .i1⟩ : BufTy).Contents (Elt F)) :=
  (val4_keep V0 main_c_94 (by decide)).trans (val3_main_c_94 V0)
theorem val4_main_c_95 (V0 : Valuation τ sig (Elt F)) : val4 V0 (no_index (Proc.devRef .tc main_c_95)) = (fun i => lit48 (S7.rowMajor i) : (⟨S7, .i32⟩ : BufTy).Contents (Elt F)) :=
  (val4_keep V0 main_c_95 (by decide)).trans (val3_main_c_95 V0)
theorem val4_main_c_96 (V0 : Valuation τ sig (Elt F)) : val4 V0 (no_index (Proc.devRef .tc main_c_96)) = (constantI S7 1 0#1 : (⟨S7, .i1⟩ : BufTy).Contents (Elt F)) :=
  (val4_keep V0 main_c_96 (by decide)).trans (val3_main_c_96 V0)
theorem val4_main_c_97 (V0 : Valuation τ sig (Elt F)) : val4 V0 (no_index (Proc.devRef .tc main_c_97)) = (fun i => lit49 (S7.rowMajor i) : (⟨S7, .i32⟩ : BufTy).Contents (Elt F)) :=
  (val4_keep V0 main_c_97 (by decide)).trans (val3_main_c_97 V0)
theorem val4_main_c_98 (V0 : Valuation τ sig (Elt F)) : val4 V0 (no_index (Proc.devRef .tc main_c_98)) = (constantI S7 1 0#1 : (⟨S7, .i1⟩ : BufTy).Contents (Elt F)) :=
  (val4_keep V0 main_c_98 (by decide)).trans (val3_main_c_98 V0)
theorem val4_main_c_99 (V0 : Valuation τ sig (Elt F)) : val4 V0 (no_index (Proc.devRef .tc main_c_99)) = (fun i => lit50 (S6.rowMajor i) : (⟨S6, .i32⟩ : BufTy).Contents (Elt F)) :=
  (val4_keep V0 main_c_99 (by decide)).trans (val3_main_c_99 V0)
theorem val4_main_c_100 (V0 : Valuation τ sig (Elt F)) : val4 V0 (no_index (Proc.devRef .tc main_c_100)) = (constantI S6 1 0#1 : (⟨S6, .i1⟩ : BufTy).Contents (Elt F)) :=
  (val4_keep V0 main_c_100 (by decide)).trans (val3_main_c_100 V0)
theorem val4_main_c_101 (V0 : Valuation τ sig (Elt F)) : val4 V0 (no_index (Proc.devRef .tc main_c_101)) = (fun i => lit51 (S6.rowMajor i) : (⟨S6, .i32⟩ : BufTy).Contents (Elt F)) :=
  (val4_keep V0 main_c_101 (by decide)).trans (val3_main_c_101 V0)
theorem val4_main_c_102 (V0 : Valuation τ sig (Elt F)) : val4 V0 (no_index (Proc.devRef .tc main_c_102)) = (constantI S6 1 0#1 : (⟨S6, .i1⟩ : BufTy).Contents (Elt F)) :=
  (val4_keep V0 main_c_102 (by decide)).trans (val3_main_c_102 V0)
theorem val4_main_c_103 (V0 : Valuation τ sig (Elt F)) : val4 V0 (no_index (Proc.devRef .tc main_c_103)) = (fun i => lit52 (S5.rowMajor i) : (⟨S5, .i32⟩ : BufTy).Contents (Elt F)) :=
  (val4_keep V0 main_c_103 (by decide)).trans (val3_main_c_103 V0)
theorem val4_main_c_104 (V0 : Valuation τ sig (Elt F)) : val4 V0 (no_index (Proc.devRef .tc main_c_104)) = (constantI S5 1 0#1 : (⟨S5, .i1⟩ : BufTy).Contents (Elt F)) :=
  (val4_keep V0 main_c_104 (by decide)).trans (val3_main_c_104 V0)
theorem val4_main_c_105 (V0 : Valuation τ sig (Elt F)) : val4 V0 (no_index (Proc.devRef .tc main_c_105)) = (fun i => lit53 (S5.rowMajor i) : (⟨S5, .i32⟩ : BufTy).Contents (Elt F)) :=
  (val4_keep V0 main_c_105 (by decide)).trans (val3_main_c_105 V0)
theorem val4_main_c_106 (V0 : Valuation τ sig (Elt F)) : val4 V0 (no_index (Proc.devRef .tc main_c_106)) = (constantI S5 1 0#1 : (⟨S5, .i1⟩ : BufTy).Contents (Elt F)) :=
  (val4_keep V0 main_c_106 (by decide)).trans (val3_main_c_106 V0)
theorem val4_main_c_107 (V0 : Valuation τ sig (Elt F)) : val4 V0 (no_index (Proc.devRef .tc main_c_107)) = (fun i => lit54 (S4.rowMajor i) : (⟨S4, .i32⟩ : BufTy).Contents (Elt F)) :=
  (val4_keep V0 main_c_107 (by decide)).trans (val3_main_c_107 V0)
theorem val4_main_c_108 (V0 : Valuation τ sig (Elt F)) : val4 V0 (no_index (Proc.devRef .tc main_c_108)) = (constantI S4 1 0#1 : (⟨S4, .i1⟩ : BufTy).Contents (Elt F)) :=
  (val4_keep V0 main_c_108 (by decide)).trans (val3_main_c_108 V0)
theorem val4_main_c_109 (V0 : Valuation τ sig (Elt F)) : val4 V0 (no_index (Proc.devRef .tc main_c_109)) = (fun i => lit55 (S4.rowMajor i) : (⟨S4, .i32⟩ : BufTy).Contents (Elt F)) :=
  (val4_keep V0 main_c_109 (by decide)).trans (val3_main_c_109 V0)
theorem val4_main_c_110 (V0 : Valuation τ sig (Elt F)) : val4 V0 (no_index (Proc.devRef .tc main_c_110)) = (constantI S4 1 0#1 : (⟨S4, .i1⟩ : BufTy).Contents (Elt F)) :=
  (val4_keep V0 main_c_110 (by decide)).trans (val3_main_c_110 V0)
theorem val4_main_c_111 (V0 : Valuation τ sig (Elt F)) : val4 V0 (no_index (Proc.devRef .tc main_c_111)) = (fun i => lit56 (S3.rowMajor i) : (⟨S3, .i32⟩ : BufTy).Contents (Elt F)) :=
  (val4_keep V0 main_c_111 (by decide)).trans (val3_main_c_111 V0)
theorem val4_main_c_112 (V0 : Valuation τ sig (Elt F)) : val4 V0 (no_index (Proc.devRef .tc main_c_112)) = (constantI S3 1 0#1 : (⟨S3, .i1⟩ : BufTy).Contents (Elt F)) :=
  (val4_keep V0 main_c_112 (by decide)).trans (val3_main_c_112 V0)
theorem val4_main_c_113 (V0 : Valuation τ sig (Elt F)) : val4 V0 (no_index (Proc.devRef .tc main_c_113)) = (fun i => lit57 (S3.rowMajor i) : (⟨S3, .i32⟩ : BufTy).Contents (Elt F)) :=
  (val4_keep V0 main_c_113 (by decide)).trans (val3_main_c_113 V0)
theorem val4_main_c_114 (V0 : Valuation τ sig (Elt F)) : val4 V0 (no_index (Proc.devRef .tc main_c_114)) = (constantI S3 1 0#1 : (⟨S3, .i1⟩ : BufTy).Contents (Elt F)) :=
  (val4_keep V0 main_c_114 (by decide)).trans (val3_main_c_114 V0)
theorem val4_main_c_115 (V0 : Valuation τ sig (Elt F)) : val4 V0 (no_index (Proc.devRef .tc main_c_115)) = (fun i => lit58 (S2.rowMajor i) : (⟨S2, .i32⟩ : BufTy).Contents (Elt F)) :=
  (val4_keep V0 main_c_115 (by decide)).trans (val3_main_c_115 V0)
theorem val4_main_c_116 (V0 : Valuation τ sig (Elt F)) : val4 V0 (no_index (Proc.devRef .tc main_c_116)) = (constantI S2 1 0#1 : (⟨S2, .i1⟩ : BufTy).Contents (Elt F)) :=
  (val4_keep V0 main_c_116 (by decide)).trans (val3_main_c_116 V0)
theorem val4_main_c_117 (V0 : Valuation τ sig (Elt F)) : val4 V0 (no_index (Proc.devRef .tc main_c_117)) = (fun i => lit59 (S2.rowMajor i) : (⟨S2, .i32⟩ : BufTy).Contents (Elt F)) :=
  (val4_keep V0 main_c_117 (by decide)).trans (val3_main_c_117 V0)
theorem val4_main_c_118 (V0 : Valuation τ sig (Elt F)) : val4 V0 (no_index (Proc.devRef .tc main_c_118)) = (constantI S2 1 0#1 : (⟨S2, .i1⟩ : BufTy).Contents (Elt F)) :=
  (val4_keep V0 main_c_118 (by decide)).trans (val3_main_c_118 V0)
theorem val4_main_c_119 (V0 : Valuation τ sig (Elt F)) : val4 V0 (no_index (Proc.devRef .tc main_c_119)) = (constantI S1 32 0#32 : (⟨S1, .i32⟩ : BufTy).Contents (Elt F)) :=
  (val4_keep V0 main_c_119 (by decide)).trans (val3_main_c_119 V0)
theorem val4_main_c_120 (V0 : Valuation τ sig (Elt F)) : val4 V0 (no_index (Proc.devRef .tc main_c_120)) = (constantI S1 1 0#1 : (⟨S1, .i1⟩ : BufTy).Contents (Elt F)) :=
  (val4_keep V0 main_c_120 (by decide)).trans (val3_main_c_120 V0)
theorem val4_main_c_121 (V0 : Valuation τ sig (Elt F)) : val4 V0 (no_index (Proc.devRef .tc main_c_121)) = (constantI S1 32 62#32 : (⟨S1, .i32⟩ : BufTy).Contents (Elt F)) :=
  (val4_keep V0 main_c_121 (by decide)).trans (val3_main_c_121 V0)
theorem val4_main_c_122 (V0 : Valuation τ sig (Elt F)) : val4 V0 (no_index (Proc.devRef .tc main_c_122)) = (constantI S1 1 0#1 : (⟨S1, .i1⟩ : BufTy).Contents (Elt F)) :=
  (val4_keep V0 main_c_122 (by decide)).trans (val3_main_c_122 V0)
theorem val4_main_c_123 (V0 : Valuation τ sig (Elt F)) : val4 V0 (no_index (Proc.devRef .tc main_c_123)) = fun i => lit60 (S64x64.rowMajor i) :=
  (val4_keep V0 main_c_123 (by decide)).trans (val3_main_c_123 V0)
set_option maxRecDepth 8192 in
set_option maxHeartbeats 2000000 in
theorem val4_main_v82 (V0 : Valuation τ sig (Elt F)) : val4 V0 (no_index (Proc.devRef .tc main_v82)) = acc_6 (V0 (Proc.devRef .tc main_arg0)) := by
  unfold val4
  simp only [ops3]
  after_results_simp
  simp only [val3_main_v36, val3_main_c_25, val3_main_c_26, val3_main_c_23, val3_main_c_24, val3_main_c_21, val3_main_c_22, val3_main_c_19, val3_main_c_20, val3_main_c_17, val3_main_c_18, val3_main_c_15, val3_main_c_16, val3_main_v42, val3_main_v39, val3_main_v34] <;> rfl
set_option maxRecDepth 8192 in
set_option maxHeartbeats 2000000 in
theorem val4_main_v84 (V0 : Valuation τ sig (Elt F)) : val4 V0 (no_index (Proc.devRef .tc main_v84)) = pool_7 (V0 (Proc.devRef .tc main_arg0)) := by
  unfold val4
  simp only [ops3]
  after_results_simp
  simp only [val3_main_v36] <;> rfl
set_option maxRecDepth 8192 in
set_option maxHeartbeats 2000000 in
theorem val4_main_v87 (V0 : Valuation τ sig (Elt F)) : val4 V0 (no_index (Proc.devRef .tc main_v87)) = (ixI_7 (F := F)) := by
  unfold val4
  simp only [ops3]
  after_results_simp
  simp only [val3_main_c_27, val3_main_c_28] <;> rfl
set_option maxRecDepth 8192 in
set_option maxHeartbeats 2000000 in
theorem val4_main_v90 (V0 : Valuation τ sig (Elt F)) : val4 V0 (no_index (Proc.devRef .tc main_v90)) = (ixJ_7 (F := F)) := by
  unfold val4
  simp only [ops3]
  after_results_simp
  simp only [val3_main_c_29, val3_main_c_30] <;> rfl

end Cert.RefRun

end
-- ==== Proof.RefRunW5.lean ====
/-
  The buffers that are still read after the first 5 windows, each at its term over the contents at launch: a buffer
  written earlier keeps its contents through the window, a buffer the window writes is read off the window's operations.
-/
import proofs.«156021_j19232863551513_2_alg».proof.Proof.RefRunW4

noncomputable section

namespace Cert.RefRun

open Cert.ReferenceIdeal Cert.ReferenceIdeal.Facts₀ Cert.ReferenceIdeal.Facts Cert.RefTerm
open Idealize.ShloMosaic Idealize.ShloMosaic.TcCoe Idealize.SL.Sem Idealize.ShloMosaic.StableHlo

variable {F : FTy → Type} [FloatOps F]

theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_c_47 (V0 : Valuation τ sig (Elt F)) : val5 V0 (no_index (Proc.devRef .tc main_c_47)) = (fun i => lit24 (S52.rowMajor i) : (⟨S52, .i32⟩ : BufTy).Contents (Elt F)) :=
  (val5_keep V0 main_c_47 (by decide)).trans (val4_main_c_47 V0)
theorem val5_main_c_48 (V0 : Valuation τ sig (Elt F)) : val5 V0 (no_index (Proc.devRef .tc main_c_48)) = (constantI S52 1 0#1 : (⟨S52, .i1⟩ : BufTy).Contents (Elt F)) :=
  (val5_keep V0 main_c_48 (by decide)).trans (val4_main_c_48 V0)
theorem val5_main_c_49 (V0 : Valuation τ sig (Elt F)) : val5 V0 (no_index (Proc.devRef .tc main_c_49)) = (fun i => lit25 (S52.rowMajor i) : (⟨S52, .i32⟩ : BufTy).Contents (Elt F)) :=
  (val5_keep V0 main_c_49 (by decide)).trans (val4_main_c_49 V0)
theorem val5_main_c_50 (V0 : Valuation τ sig (Elt F)) : val5 V0 (no_index (Proc.devRef .tc main_c_50)) = (constantI S52 1 0#1 : (⟨S52, .i1⟩ : BufTy).Contents (Elt F)) :=
  (val5_keep V0 main_c_50 (by decide)).trans (val4_main_c_50 V0)
theorem val5_main_c_51 (V0 : Valuation τ sig (Elt F)) : val5 V0 (no_index (Proc.devRef .tc main_c_51)) = (fun i => lit26 (S51.rowMajor i) : (⟨S51, .i32⟩ : BufTy).Contents (Elt F)) :=
  (val5_keep V0 main_c_51 (by decide)).trans (val4_main_c_51 V0)
theorem val5_main_c_52 (V0 : Valuation τ sig (Elt F)) : val5 V0 (no_index (Proc.devRef .tc main_c_52)) = (constantI S51 1 0#1 : (⟨S51, .i1⟩ : BufTy).Contents (Elt F)) :=
  (val5_keep V0 main_c_52 (by decide)).trans (val4_main_c_52 V0)
theorem val5_main_c_53 (V0 : Valuation τ sig (Elt F)) : val5 V0 (no_index (Proc.devRef .tc main_c_53)) = (fun i => lit27 (S51.rowMajor i) : (⟨S51, .i32⟩ : BufTy).Contents (Elt F)) :=
  (val5_keep V0 main_c_53 (by decide)).trans (val4_main_c_53 V0)
theorem val5_main_c_54 (V0 : Valuation τ sig (Elt F)) : val5 V0 (no_index (Proc.devRef .tc main_c_54)) = (constantI S51 1 0#1 : (⟨S51, .i1⟩ : BufTy).Contents (Elt F)) :=
  (val5_keep V0 main_c_54 (by decide)).trans (val4_main_c_54 V0)
theorem val5_main_c_55 (V0 : Valuation τ sig (Elt F)) : val5 V0 (no_index (Proc.devRef .tc main_c_55)) = (fun i => lit28 (S50.rowMajor i) : (⟨S50, .i32⟩ : BufTy).Contents (Elt F)) :=
  (val5_keep V0 main_c_55 (by decide)).trans (val4_main_c_55 V0)
theorem val5_main_c_56 (V0 : Valuation τ sig (Elt F)) : val5 V0 (no_index (Proc.devRef .tc main_c_56)) = (constantI S50 1 0#1 : (⟨S50, .i1⟩ : BufTy).Contents (Elt F)) :=
  (val5_keep V0 main_c_56 (by decide)).trans (val4_main_c_56 V0)
theorem val5_main_c_57 (V0 : Valuation τ sig (Elt F)) : val5 V0 (no_index (Proc.devRef .tc main_c_57)) = (fun i => lit29 (S50.rowMajor i) : (⟨S50, .i32⟩ : BufTy).Contents (Elt F)) :=
  (val5_keep V0 main_c_57 (by decide)).trans (val4_main_c_57 V0)
theorem val5_main_c_58 (V0 : Valuation τ sig (Elt F)) : val5 V0 (no_index (Proc.devRef .tc main_c_58)) = (constantI S50 1 0#1 : (⟨S50, .i1⟩ : BufTy).Contents (Elt F)) :=
  (val5_keep V0 main_c_58 (by decide)).trans (val4_main_c_58 V0)
theorem val5_main_c_59 (V0 : Valuation τ sig (Elt F)) : val5 V0 (no_index (Proc.devRef .tc main_c_59)) = (fun i => lit30 (S24.rowMajor i) : (⟨S24, .i32⟩ : BufTy).Contents (Elt F)) :=
  (val5_keep V0 main_c_59 (by decide)).trans (val4_main_c_59 V0)
theorem val5_main_c_60 (V0 : Valuation τ sig (Elt F)) : val5 V0 (no_index (Proc.devRef .tc main_c_60)) = (constantI S24 1 0#1 : (⟨S24, .i1⟩ : BufTy).Contents (Elt F)) :=
  (val5_keep V0 main_c_60 (by decide)).trans (val4_main_c_60 V0)
theorem val5_main_c_61 (V0 : Valuation τ sig (Elt F)) : val5 V0 (no_index (Proc.devRef .tc main_c_61)) = (fun i => lit31 (S24.rowMajor i) : (⟨S24, .i32⟩ : BufTy).Contents (Elt F)) :=
  (val5_keep V0 main_c_61 (by decide)).trans (val4_main_c_61 V0)
theorem val5_main_c_62 (V0 : Valuation τ sig (Elt F)) : val5 V0 (no_index (Proc.devRef .tc main_c_62)) = (constantI S24 1 0#1 : (⟨S24, .i1⟩ : BufTy).Contents (Elt F)) :=
  (val5_keep V0 main_c_62 (by decide)).trans (val4_main_c_62 V0)
theorem val5_main_c_63 (V0 : Valuation τ sig (Elt F)) : val5 V0 (no_index (Proc.devRef .tc main_c_63)) = (fun i => lit32 (S23.rowMajor i) : (⟨S23, .i32⟩ : BufTy).Contents (Elt F)) :=
  (val5_keep V0 main_c_63 (by decide)).trans (val4_main_c_63 V0)
theorem val5_main_c_64 (V0 : Valuation τ sig (Elt F)) : val5 V0 (no_index (Proc.devRef .tc main_c_64)) = (constantI S23 1 0#1 : (⟨S23, .i1⟩ : BufTy).Contents (Elt F)) :=
  (val5_keep V0 main_c_64 (by decide)).trans (val4_main_c_64 V0)
theorem val5_main_c_65 (V0 : Valuation τ sig (Elt F)) : val5 V0 (no_index (Proc.devRef .tc main_c_65)) = (fun i => lit33 (S23.rowMajor i) : (⟨S23, .i32⟩ : BufTy).Contents (Elt F)) :=
  (val5_keep V0 main_c_65 (by decide)).trans (val4_main_c_65 V0)
theorem val5_main_c_66 (V0 : Valuation τ sig (Elt F)) : val5 V0 (no_index (Proc.devRef .tc main_c_66)) = (constantI S23 1 0#1 : (⟨S23, .i1⟩ : BufTy).Contents (Elt F)) :=
  (val5_keep V0 main_c_66 (by decide)).trans (val4_main_c_66 V0)
theorem val5_main_c_67 (V0 : Valuation τ sig (Elt F)) : val5 V0 (no_index (Proc.devRef .tc main_c_67)) = (fun i => lit34 (S22.rowMajor i) : (⟨S22, .i32⟩ : BufTy).Contents (Elt F)) :=
  (val5_keep V0 main_c_67 (by decide)).trans (val4_main_c_67 V0)
theorem val5_main_c_68 (V0 : Valuation τ sig (Elt F)) : val5 V0 (no_index (Proc.devRef .tc main_c_68)) = (constantI S22 1 0#1 : (⟨S22, .i1⟩ : BufTy).Contents (Elt F)) :=
  (val5_keep V0 main_c_68 (by decide)).trans (val4_main_c_68 V0)
theorem val5_main_c_69 (V0 : Valuation τ sig (Elt F)) : val5 V0 (no_index (Proc.devRef .tc main_c_69)) = (fun i => lit35 (S22.rowMajor i) : (⟨S22, .i32⟩ : BufTy).Contents (Elt F)) :=
  (val5_keep V0 main_c_69 (by decide)).trans (val4_main_c_69 V0)
theorem val5_main_c_70 (V0 : Valuation τ sig (Elt F)) : val5 V0 (no_index (Proc.devRef .tc main_c_70)) = (constantI S22 1 0#1 : (⟨S22, .i1⟩ : BufTy).Contents (Elt F)) :=
  (val5_keep V0 main_c_70 (by decide)).trans (val4_main_c_70 V0)
theorem val5_main_c_71 (V0 : Valuation τ sig (Elt F)) : val5 V0 (no_index (Proc.devRef .tc main_c_71)) = (fun i => lit36 (S21.rowMajor i) : (⟨S21, .i32⟩ : BufTy).Contents (Elt F)) :=
  (val5_keep V0 main_c_71 (by decide)).trans (val4_main_c_71 V0)
theorem val5_main_c_72 (V0 : Valuation τ sig (Elt F)) : val5 V0 (no_index (Proc.devRef .tc main_c_72)) = (constantI S21 1 0#1 : (⟨S21, .i1⟩ : BufTy).Contents (Elt F)) :=
  (val5_keep V0 main_c_72 (by decide)).trans (val4_main_c_72 V0)
theorem val5_main_c_73 (V0 : Valuation τ sig (Elt F)) : val5 V0 (no_index (Proc.devRef .tc main_c_73)) = (fun i => lit37 (S21.rowMajor i) : (⟨S21, .i32⟩ : BufTy).Contents (Elt F)) :=
  (val5_keep V0 main_c_73 (by decide)).trans (val4_main_c_73 V0)
theorem val5_main_c_74 (V0 : Valuation τ sig (Elt F)) : val5 V0 (no_index (Proc.devRef .tc main_c_74)) = (constantI S21 1 0#1 : (⟨S21, .i1⟩ : BufTy).Contents (Elt F)) :=
  (val5_keep V0 main_c_74 (by decide)).trans (val4_main_c_74 V0)
theorem val5_main_c_75 (V0 : Valuation τ sig (Elt F)) : val5 V0 (no_index (Proc.devRef .tc main_c_75)) = (fun i => lit38 (S20.rowMajor i) : (⟨S20, .i32⟩ : BufTy).Contents (Elt F)) :=
  (val5_keep V0 main_c_75 (by decide)).trans (val4_main_c_75 V0)
theorem val5_main_c_76 (V0 : Valuation τ sig (Elt F)) : val5 V0 (no_index (Proc.devRef .tc main_c_76)) = (constantI S20 1 0#1 : (⟨S20, .i1⟩ : BufTy).Contents (Elt F)) :=
  (val5_keep V0 main_c_76 (by decide)).trans (val4_main_c_76 V0)
theorem val5_main_c_77 (V0 : Valuation τ sig (Elt F)) : val5 V0 (no_index (Proc.devRef .tc main_c_77)) = (fun i => lit39 (S20.rowMajor i) : (⟨S20, .i32⟩ : BufTy).Contents (Elt F)) :=
  (val5_keep V0 main_c_77 (by decide)).trans (val4_main_c_77 V0)
theorem val5_main_c_78 (V0 : Valuation τ sig (Elt F)) : val5 V0 (no_index (Proc.devRef .tc main_c_78)) = (constantI S20 1 0#1 : (⟨S20, .i1⟩ : BufTy).Contents (Elt F)) :=
  (val5_keep V0 main_c_78 (by decide)).trans (val4_main_c_78 V0)
theorem val5_main_c_79 (V0 : Valuation τ sig (Elt F)) : val5 V0 (no_index (Proc.devRef .tc main_c_79)) = (fun i => lit40 (S19.rowMajor i) : (⟨S19, .i32⟩ : BufTy).Contents (Elt F)) :=
  (val5_keep V0 main_c_79 (by decide)).trans (val4_main_c_79 V0)
theorem val5_main_c_80 (V0 : Valuation τ sig (Elt F)) : val5 V0 (no_index (Proc.devRef .tc main_c_80)) = (constantI S19 1 0#1 : (⟨S19, .i1⟩ : BufTy).Contents (Elt F)) :=
  (val5_keep V0 main_c_80 (by decide)).trans (val4_main_c_80 V0)
theorem val5_main_c_81 (V0 : Valuation τ sig (Elt F)) : val5 V0 (no_index (Proc.devRef .tc main_c_81)) = (fun i => lit41 (S19.rowMajor i) : (⟨S19, .i32⟩ : BufTy).Contents (Elt F)) :=
  (val5_keep V0 main_c_81 (by decide)).trans (val4_main_c_81 V0)
theorem val5_main_c_82 (V0 : Valuation τ sig (Elt F)) : val5 V0 (no_index (Proc.devRef .tc main_c_82)) = (constantI S19 1 0#1 : (⟨S19, .i1⟩ : BufTy).Contents (Elt F)) :=
  (val5_keep V0 main_c_82 (by decide)).trans (val4_main_c_82 V0)
theorem val5_main_c_83 (V0 : Valuation τ sig (Elt F)) : val5 V0 (no_index (Proc.devRef .tc main_c_83)) = (fun i => lit42 (S18.rowMajor i) : (⟨S18, .i32⟩ : BufTy).Contents (Elt F)) :=
  (val5_keep V0 main_c_83 (by decide)).trans (val4_main_c_83 V0)
theorem val5_main_c_84 (V0 : Valuation τ sig (Elt F)) : val5 V0 (no_index (Proc.devRef .tc main_c_84)) = (constantI S18 1 0#1 : (⟨S18, .i1⟩ : BufTy).Contents (Elt F)) :=
  (val5_keep V0 main_c_84 (by decide)).trans (val4_main_c_84 V0)
theorem val5_main_c_85 (V0 : Valuation τ sig (Elt F)) : val5 V0 (no_index (Proc.devRef .tc main_c_85)) = (fun i => lit43 (S18.rowMajor i) : (⟨S18, .i32⟩ : BufTy).Contents (Elt F)) :=
  (val5_keep V0 main_c_85 (by decide)).trans (val4_main_c_85 V0)
theorem val5_main_c_86 (V0 : Valuation τ sig (Elt F)) : val5 V0 (no_index (Proc.devRef .tc main_c_86)) = (constantI S18 1 0#1 : (⟨S18, .i1⟩ : BufTy).Contents (Elt F)) :=
  (val5_keep V0 main_c_86 (by decide)).trans (val4_main_c_86 V0)
theorem val5_main_c_87 (V0 : Valuation τ sig (Elt F)) : val5 V0 (no_index (Proc.devRef .tc main_c_87)) = (fun i => lit44 (S17.rowMajor i) : (⟨S17, .i32⟩ : BufTy).Contents (Elt F)) :=
  (val5_keep V0 main_c_87 (by decide)).trans (val4_main_c_87 V0)
theorem val5_main_c_88 (V0 : Valuation τ sig (Elt F)) : val5 V0 (no_index (Proc.devRef .tc main_c_88)) = (constantI S17 1 0#1 : (⟨S17, .i1⟩ : BufTy).Contents (Elt F)) :=
  (val5_keep V0 main_c_88 (by decide)).trans (val4_main_c_88 V0)
theorem val5_main_c_89 (V0 : Valuation τ sig (Elt F)) : val5 V0 (no_index (Proc.devRef .tc main_c_89)) = (fun i => lit45 (S17.rowMajor i) : (⟨S17, .i32⟩ : BufTy).Contents (Elt F)) :=
  (val5_keep V0 main_c_89 (by decide)).trans (val4_main_c_89 V0)
theorem val5_main_c_90 (V0 : Valuation τ sig (Elt F)) : val5 V0 (no_index (Proc.devRef .tc main_c_90)) = (constantI S17 1 0#1 : (⟨S17, .i1⟩ : BufTy).Contents (Elt F)) :=
  (val5_keep V0 main_c_90 (by decide)).trans (val4_main_c_90 V0)
theorem val5_main_c_91 (V0 : Valuation τ sig (Elt F)) : val5 V0 (no_index (Proc.devRef .tc main_c_91)) = (fun i => lit46 (S8.rowMajor i) : (⟨S8, .i32⟩ : BufTy).Contents (Elt F)) :=
  (val5_keep V0 main_c_91 (by decide)).trans (val4_main_c_91 V0)
theorem val5_main_c_92 (V0 : Valuation τ sig (Elt F)) : val5 V0 (no_index (Proc.devRef .tc main_c_92)) = (constantI S8 1 0#1 : (⟨S8, .i1⟩ : BufTy).Contents (Elt F)) :=
  (val5_keep V0 main_c_92 (by decide)).trans (val4_main_c_92 V0)
theorem val5_main_c_93 (V0 : Valuation τ sig (Elt F)) : val5 V0 (no_index (Proc.devRef .tc main_c_93)) = (fun i => lit47 (S8.rowMajor i) : (⟨S8, .i32⟩ : BufTy).Contents (Elt F)) :=
  (val5_keep V0 main_c_93 (by decide)).trans (val4_main_c_93 V0)
theorem val5_main_c_94 (V0 : Valuation τ sig (Elt F)) : val5 V0 (no_index (Proc.devRef .tc main_c_94)) = (constantI S8 1 0#1 : (⟨S8, .i1⟩ : BufTy).Contents (Elt F)) :=
  (val5_keep V0 main_c_94 (by decide)).trans (val4_main_c_94 V0)
theorem val5_main_c_95 (V0 : Valuation τ sig (Elt F)) : val5 V0 (no_index (Proc.devRef .tc main_c_95)) = (fun i => lit48 (S7.rowMajor i) : (⟨S7, .i32⟩ : BufTy).Contents (Elt F)) :=
  (val5_keep V0 main_c_95 (by decide)).trans (val4_main_c_95 V0)
theorem val5_main_c_96 (V0 : Valuation τ sig (Elt F)) : val5 V0 (no_index (Proc.devRef .tc main_c_96)) = (constantI S7 1 0#1 : (⟨S7, .i1⟩ : BufTy).Contents (Elt F)) :=
  (val5_keep V0 main_c_96 (by decide)).trans (val4_main_c_96 V0)
theorem val5_main_c_97 (V0 : Valuation τ sig (Elt F)) : val5 V0 (no_index (Proc.devRef .tc main_c_97)) = (fun i => lit49 (S7.rowMajor i) : (⟨S7, .i32⟩ : BufTy).Contents (Elt F)) :=
  (val5_keep V0 main_c_97 (by decide)).trans (val4_main_c_97 V0)
theorem val5_main_c_98 (V0 : Valuation τ sig (Elt F)) : val5 V0 (no_index (Proc.devRef .tc main_c_98)) = (constantI S7 1 0#1 : (⟨S7, .i1⟩ : BufTy).Contents (Elt F)) :=
  (val5_keep V0 main_c_98 (by decide)).trans (val4_main_c_98 V0)
theorem val5_main_c_99 (V0 : Valuation τ sig (Elt F)) : val5 V0 (no_index (Proc.devRef .tc main_c_99)) = (fun i => lit50 (S6.rowMajor i) : (⟨S6, .i32⟩ : BufTy).Contents (Elt F)) :=
  (val5_keep V0 main_c_99 (by decide)).trans (val4_main_c_99 V0)
theorem val5_main_c_100 (V0 : Valuation τ sig (Elt F)) : val5 V0 (no_index (Proc.devRef .tc main_c_100)) = (constantI S6 1 0#1 : (⟨S6, .i1⟩ : BufTy).Contents (Elt F)) :=
  (val5_keep V0 main_c_100 (by decide)).trans (val4_main_c_100 V0)
theorem val5_main_c_101 (V0 : Valuation τ sig (Elt F)) : val5 V0 (no_index (Proc.devRef .tc main_c_101)) = (fun i => lit51 (S6.rowMajor i) : (⟨S6, .i32⟩ : BufTy).Contents (Elt F)) :=
  (val5_keep V0 main_c_101 (by decide)).trans (val4_main_c_101 V0)
theorem val5_main_c_102 (V0 : Valuation τ sig (Elt F)) : val5 V0 (no_index (Proc.devRef .tc main_c_102)) = (constantI S6 1 0#1 : (⟨S6, .i1⟩ : BufTy).Contents (Elt F)) :=
  (val5_keep V0 main_c_102 (by decide)).trans (val4_main_c_102 V0)
theorem val5_main_c_103 (V0 : Valuation τ sig (Elt F)) : val5 V0 (no_index (Proc.devRef .tc main_c_103)) = (fun i => lit52 (S5.rowMajor i) : (⟨S5, .i32⟩ : BufTy).Contents (Elt F)) :=
  (val5_keep V0 main_c_103 (by decide)).trans (val4_main_c_103 V0)
theorem val5_main_c_104 (V0 : Valuation τ sig (Elt F)) : val5 V0 (no_index (Proc.devRef .tc main_c_104)) = (constantI S5 1 0#1 : (⟨S5, .i1⟩ : BufTy).Contents (Elt F)) :=
  (val5_keep V0 main_c_104 (by decide)).trans (val4_main_c_104 V0)
theorem val5_main_c_105 (V0 : Valuation τ sig (Elt F)) : val5 V0 (no_index (Proc.devRef .tc main_c_105)) = (fun i => lit53 (S5.rowMajor i) : (⟨S5, .i32⟩ : BufTy).Contents (Elt F)) :=
  (val5_keep V0 main_c_105 (by decide)).trans (val4_main_c_105 V0)
theorem val5_main_c_106 (V0 : Valuation τ sig (Elt F)) : val5 V0 (no_index (Proc.devRef .tc main_c_106)) = (constantI S5 1 0#1 : (⟨S5, .i1⟩ : BufTy).Contents (Elt F)) :=
  (val5_keep V0 main_c_106 (by decide)).trans (val4_main_c_106 V0)
theorem val5_main_c_107 (V0 : Valuation τ sig (Elt F)) : val5 V0 (no_index (Proc.devRef .tc main_c_107)) = (fun i => lit54 (S4.rowMajor i) : (⟨S4, .i32⟩ : BufTy).Contents (Elt F)) :=
  (val5_keep V0 main_c_107 (by decide)).trans (val4_main_c_107 V0)
theorem val5_main_c_108 (V0 : Valuation τ sig (Elt F)) : val5 V0 (no_index (Proc.devRef .tc main_c_108)) = (constantI S4 1 0#1 : (⟨S4, .i1⟩ : BufTy).Contents (Elt F)) :=
  (val5_keep V0 main_c_108 (by decide)).trans (val4_main_c_108 V0)
theorem val5_main_c_109 (V0 : Valuation τ sig (Elt F)) : val5 V0 (no_index (Proc.devRef .tc main_c_109)) = (fun i => lit55 (S4.rowMajor i) : (⟨S4, .i32⟩ : BufTy).Contents (Elt F)) :=
  (val5_keep V0 main_c_109 (by decide)).trans (val4_main_c_109 V0)
theorem val5_main_c_110 (V0 : Valuation τ sig (Elt F)) : val5 V0 (no_index (Proc.devRef .tc main_c_110)) = (constantI S4 1 0#1 : (⟨S4, .i1⟩ : BufTy).Contents (Elt F)) :=
  (val5_keep V0 main_c_110 (by decide)).trans (val4_main_c_110 V0)
theorem val5_main_c_111 (V0 : Valuation τ sig (Elt F)) : val5 V0 (no_index (Proc.devRef .tc main_c_111)) = (fun i => lit56 (S3.rowMajor i) : (⟨S3, .i32⟩ : BufTy).Contents (Elt F)) :=
  (val5_keep V0 main_c_111 (by decide)).trans (val4_main_c_111 V0)
theorem val5_main_c_112 (V0 : Valuation τ sig (Elt F)) : val5 V0 (no_index (Proc.devRef .tc main_c_112)) = (constantI S3 1 0#1 : (⟨S3, .i1⟩ : BufTy).Contents (Elt F)) :=
  (val5_keep V0 main_c_112 (by decide)).trans (val4_main_c_112 V0)
theorem val5_main_c_113 (V0 : Valuation τ sig (Elt F)) : val5 V0 (no_index (Proc.devRef .tc main_c_113)) = (fun i => lit57 (S3.rowMajor i) : (⟨S3, .i32⟩ : BufTy).Contents (Elt F)) :=
  (val5_keep V0 main_c_113 (by decide)).trans (val4_main_c_113 V0)
theorem val5_main_c_114 (V0 : Valuation τ sig (Elt F)) : val5 V0 (no_index (Proc.devRef .tc main_c_114)) = (constantI S3 1 0#1 : (⟨S3, .i1⟩ : BufTy).Contents (Elt F)) :=
  (val5_keep V0 main_c_114 (by decide)).trans (val4_main_c_114 V0)
theorem val5_main_c_115 (V0 : Valuation τ sig (Elt F)) : val5 V0 (no_index (Proc.devRef .tc main_c_115)) = (fun i => lit58 (S2.rowMajor i) : (⟨S2, .i32⟩ : BufTy).Contents (Elt F)) :=
  (val5_keep V0 main_c_115 (by decide)).trans (val4_main_c_115 V0)
theorem val5_main_c_116 (V0 : Valuation τ sig (Elt F)) : val5 V0 (no_index (Proc.devRef .tc main_c_116)) = (constantI S2 1 0#1 : (⟨S2, .i1⟩ : BufTy).Contents (Elt F)) :=
  (val5_keep V0 main_c_116 (by decide)).trans (val4_main_c_116 V0)
theorem val5_main_c_117 (V0 : Valuation τ sig (Elt F)) : val5 V0 (no_index (Proc.devRef .tc main_c_117)) = (fun i => lit59 (S2.rowMajor i) : (⟨S2, .i32⟩ : BufTy).Contents (Elt F)) :=
  (val5_keep V0 main_c_117 (by decide)).trans (val4_main_c_117 V0)
theorem val5_main_c_118 (V0 : Valuation τ sig (Elt F)) : val5 V0 (no_index (Proc.devRef .tc main_c_118)) = (constantI S2 1 0#1 : (⟨S2, .i1⟩ : BufTy).Contents (Elt F)) :=
  (val5_keep V0 main_c_118 (by decide)).trans (val4_main_c_118 V0)
theorem val5_main_c_119 (V0 : Valuation τ sig (Elt F)) : val5 V0 (no_index (Proc.devRef .tc main_c_119)) = (constantI S1 32 0#32 : (⟨S1, .i32⟩ : BufTy).Contents (Elt F)) :=
  (val5_keep V0 main_c_119 (by decide)).trans (val4_main_c_119 V0)
theorem val5_main_c_120 (V0 : Valuation τ sig (Elt F)) : val5 V0 (no_index (Proc.devRef .tc main_c_120)) = (constantI S1 1 0#1 : (⟨S1, .i1⟩ : BufTy).Contents (Elt F)) :=
  (val5_keep V0 main_c_120 (by decide)).trans (val4_main_c_120 V0)
theorem val5_main_c_121 (V0 : Valuation τ sig (Elt F)) : val5 V0 (no_index (Proc.devRef .tc main_c_121)) = (constantI S1 32 62#32 : (⟨S1, .i32⟩ : BufTy).Contents (Elt F)) :=
  (val5_keep V0 main_c_121 (by decide)).trans (val4_main_c_121 V0)
theorem val5_main_c_122 (V0 : Valuation τ sig (Elt F)) : val5 V0 (no_index (Proc.devRef .tc main_c_122)) = (constantI S1 1 0#1 : (⟨S1, .i1⟩ : BufTy).Contents (Elt F)) :=
  (val5_keep V0 main_c_122 (by decide)).trans (val4_main_c_122 V0)
theorem val5_main_c_123 (V0 : Valuation τ sig (Elt F)) : val5 V0 (no_index (Proc.devRef .tc main_c_123)) = fun i => lit60 (S64x64.rowMajor i) :=
  (val5_keep V0 main_c_123 (by decide)).trans (val4_main_c_123 V0)
set_option maxRecDepth 8192 in
set_option maxHeartbeats 2000000 in
theorem val5_main_v130 (V0 : Valuation τ sig (Elt F)) : val5 V0 (no_index (Proc.devRef .tc main_v130)) = acc_10 (V0 (Proc.devRef .tc main_arg0)) := by
  unfold val5
  simp only [ops4]
  after_results_simp
  simp only [val4_main_v84, val4_main_c_41, val4_main_c_42, val4_main_c_39, val4_main_c_40, val4_main_c_37, val4_main_c_38, val4_main_c_35, val4_main_c_36, val4_main_c_33, val4_main_c_34, val4_main_c_31, val4_main_c_32, val4_main_v90, val4_main_v87, val4_main_v82] <;> rfl
set_option maxRecDepth 8192 in
set_option maxHeartbeats 2000000 in
theorem val5_main_v132 (V0 : Valuation τ sig (Elt F)) : val5 V0 (no_index (Proc.devRef .tc main_v132)) = pool_11 (V0 (Proc.devRef .tc main_arg0)) := by
  unfold val5
  simp only [ops4]
  after_results_simp
  simp only [val4_main_v84] <;> rfl
set_option maxRecDepth 8192 in
set_option maxHeartbeats 2000000 in
theorem val5_main_v135 (V0 : Valuation τ sig (Elt F)) : val5 V0 (no_index (Proc.devRef .tc main_v135)) = (ixI_11 (F := F)) := by
  unfold val5
  simp only [ops4]
  after_results_simp
  simp only [val4_main_c_43, val4_main_c_44] <;> rfl
set_option maxRecDepth 8192 in
set_option maxHeartbeats 2000000 in
theorem val5_main_v138 (V0 : Valuation τ sig (Elt F)) : val5 V0 (no_index (Proc.devRef .tc main_v138)) = (ixJ_11 (F := F)) := by
  unfold val5
  simp only [ops4]
  after_results_simp
  simp only [val4_main_c_45, val4_main_c_46] <;> rfl

end Cert.RefRun

end
-- ==== Proof.RefRunW6.lean ====
/-
  The buffers that are still read after the first 6 windows, each at its term over the contents at launch: a buffer
  written earlier keeps its contents through the window, a buffer the window writes is read off the window's operations.
-/
import proofs.«156021_j19232863551513_2_alg».proof.Proof.RefRunW5

noncomputable section

namespace Cert.RefRun

open Cert.ReferenceIdeal Cert.ReferenceIdeal.Facts₀ Cert.ReferenceIdeal.Facts Cert.RefTerm
open Idealize.ShloMosaic Idealize.ShloMosaic.TcCoe Idealize.SL.Sem Idealize.ShloMosaic.StableHlo

variable {F : FTy → Type} [FloatOps F]

theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_c_63 (V0 : Valuation τ sig (Elt F)) : val6 V0 (no_index (Proc.devRef .tc main_c_63)) = (fun i => lit32 (S23.rowMajor i) : (⟨S23, .i32⟩ : BufTy).Contents (Elt F)) :=
  (val6_keep V0 main_c_63 (by decide)).trans (val5_main_c_63 V0)
theorem val6_main_c_64 (V0 : Valuation τ sig (Elt F)) : val6 V0 (no_index (Proc.devRef .tc main_c_64)) = (constantI S23 1 0#1 : (⟨S23, .i1⟩ : BufTy).Contents (Elt F)) :=
  (val6_keep V0 main_c_64 (by decide)).trans (val5_main_c_64 V0)
theorem val6_main_c_65 (V0 : Valuation τ sig (Elt F)) : val6 V0 (no_index (Proc.devRef .tc main_c_65)) = (fun i => lit33 (S23.rowMajor i) : (⟨S23, .i32⟩ : BufTy).Contents (Elt F)) :=
  (val6_keep V0 main_c_65 (by decide)).trans (val5_main_c_65 V0)
theorem val6_main_c_66 (V0 : Valuation τ sig (Elt F)) : val6 V0 (no_index (Proc.devRef .tc main_c_66)) = (constantI S23 1 0#1 : (⟨S23, .i1⟩ : BufTy).Contents (Elt F)) :=
  (val6_keep V0 main_c_66 (by decide)).trans (val5_main_c_66 V0)
theorem val6_main_c_67 (V0 : Valuation τ sig (Elt F)) : val6 V0 (no_index (Proc.devRef .tc main_c_67)) = (fun i => lit34 (S22.rowMajor i) : (⟨S22, .i32⟩ : BufTy).Contents (Elt F)) :=
  (val6_keep V0 main_c_67 (by decide)).trans (val5_main_c_67 V0)
theorem val6_main_c_68 (V0 : Valuation τ sig (Elt F)) : val6 V0 (no_index (Proc.devRef .tc main_c_68)) = (constantI S22 1 0#1 : (⟨S22, .i1⟩ : BufTy).Contents (Elt F)) :=
  (val6_keep V0 main_c_68 (by decide)).trans (val5_main_c_68 V0)
theorem val6_main_c_69 (V0 : Valuation τ sig (Elt F)) : val6 V0 (no_index (Proc.devRef .tc main_c_69)) = (fun i => lit35 (S22.rowMajor i) : (⟨S22, .i32⟩ : BufTy).Contents (Elt F)) :=
  (val6_keep V0 main_c_69 (by decide)).trans (val5_main_c_69 V0)
theorem val6_main_c_70 (V0 : Valuation τ sig (Elt F)) : val6 V0 (no_index (Proc.devRef .tc main_c_70)) = (constantI S22 1 0#1 : (⟨S22, .i1⟩ : BufTy).Contents (Elt F)) :=
  (val6_keep V0 main_c_70 (by decide)).trans (val5_main_c_70 V0)
theorem val6_main_c_71 (V0 : Valuation τ sig (Elt F)) : val6 V0 (no_index (Proc.devRef .tc main_c_71)) = (fun i => lit36 (S21.rowMajor i) : (⟨S21, .i32⟩ : BufTy).Contents (Elt F)) :=
  (val6_keep V0 main_c_71 (by decide)).trans (val5_main_c_71 V0)
theorem val6_main_c_72 (V0 : Valuation τ sig (Elt F)) : val6 V0 (no_index (Proc.devRef .tc main_c_72)) = (constantI S21 1 0#1 : (⟨S21, .i1⟩ : BufTy).Contents (Elt F)) :=
  (val6_keep V0 main_c_72 (by decide)).trans (val5_main_c_72 V0)
theorem val6_main_c_73 (V0 : Valuation τ sig (Elt F)) : val6 V0 (no_index (Proc.devRef .tc main_c_73)) = (fun i => lit37 (S21.rowMajor i) : (⟨S21, .i32⟩ : BufTy).Contents (Elt F)) :=
  (val6_keep V0 main_c_73 (by decide)).trans (val5_main_c_73 V0)
theorem val6_main_c_74 (V0 : Valuation τ sig (Elt F)) : val6 V0 (no_index (Proc.devRef .tc main_c_74)) = (constantI S21 1 0#1 : (⟨S21, .i1⟩ : BufTy).Contents (Elt F)) :=
  (val6_keep V0 main_c_74 (by decide)).trans (val5_main_c_74 V0)
theorem val6_main_c_75 (V0 : Valuation τ sig (Elt F)) : val6 V0 (no_index (Proc.devRef .tc main_c_75)) = (fun i => lit38 (S20.rowMajor i) : (⟨S20, .i32⟩ : BufTy).Contents (Elt F)) :=
  (val6_keep V0 main_c_75 (by decide)).trans (val5_main_c_75 V0)
theorem val6_main_c_76 (V0 : Valuation τ sig (Elt F)) : val6 V0 (no_index (Proc.devRef .tc main_c_76)) = (constantI S20 1 0#1 : (⟨S20, .i1⟩ : BufTy).Contents (Elt F)) :=
  (val6_keep V0 main_c_76 (by decide)).trans (val5_main_c_76 V0)
theorem val6_main_c_77 (V0 : Valuation τ sig (Elt F)) : val6 V0 (no_index (Proc.devRef .tc main_c_77)) = (fun i => lit39 (S20.rowMajor i) : (⟨S20, .i32⟩ : BufTy).Contents (Elt F)) :=
  (val6_keep V0 main_c_77 (by decide)).trans (val5_main_c_77 V0)
theorem val6_main_c_78 (V0 : Valuation τ sig (Elt F)) : val6 V0 (no_index (Proc.devRef .tc main_c_78)) = (constantI S20 1 0#1 : (⟨S20, .i1⟩ : BufTy).Contents (Elt F)) :=
  (val6_keep V0 main_c_78 (by decide)).trans (val5_main_c_78 V0)
theorem val6_main_c_79 (V0 : Valuation τ sig (Elt F)) : val6 V0 (no_index (Proc.devRef .tc main_c_79)) = (fun i => lit40 (S19.rowMajor i) : (⟨S19, .i32⟩ : BufTy).Contents (Elt F)) :=
  (val6_keep V0 main_c_79 (by decide)).trans (val5_main_c_79 V0)
theorem val6_main_c_80 (V0 : Valuation τ sig (Elt F)) : val6 V0 (no_index (Proc.devRef .tc main_c_80)) = (constantI S19 1 0#1 : (⟨S19, .i1⟩ : BufTy).Contents (Elt F)) :=
  (val6_keep V0 main_c_80 (by decide)).trans (val5_main_c_80 V0)
theorem val6_main_c_81 (V0 : Valuation τ sig (Elt F)) : val6 V0 (no_index (Proc.devRef .tc main_c_81)) = (fun i => lit41 (S19.rowMajor i) : (⟨S19, .i32⟩ : BufTy).Contents (Elt F)) :=
  (val6_keep V0 main_c_81 (by decide)).trans (val5_main_c_81 V0)
theorem val6_main_c_82 (V0 : Valuation τ sig (Elt F)) : val6 V0 (no_index (Proc.devRef .tc main_c_82)) = (constantI S19 1 0#1 : (⟨S19, .i1⟩ : BufTy).Contents (Elt F)) :=
  (val6_keep V0 main_c_82 (by decide)).trans (val5_main_c_82 V0)
theorem val6_main_c_83 (V0 : Valuation τ sig (Elt F)) : val6 V0 (no_index (Proc.devRef .tc main_c_83)) = (fun i => lit42 (S18.rowMajor i) : (⟨S18, .i32⟩ : BufTy).Contents (Elt F)) :=
  (val6_keep V0 main_c_83 (by decide)).trans (val5_main_c_83 V0)
theorem val6_main_c_84 (V0 : Valuation τ sig (Elt F)) : val6 V0 (no_index (Proc.devRef .tc main_c_84)) = (constantI S18 1 0#1 : (⟨S18, .i1⟩ : BufTy).Contents (Elt F)) :=
  (val6_keep V0 main_c_84 (by decide)).trans (val5_main_c_84 V0)
theorem val6_main_c_85 (V0 : Valuation τ sig (Elt F)) : val6 V0 (no_index (Proc.devRef .tc main_c_85)) = (fun i => lit43 (S18.rowMajor i) : (⟨S18, .i32⟩ : BufTy).Contents (Elt F)) :=
  (val6_keep V0 main_c_85 (by decide)).trans (val5_main_c_85 V0)
theorem val6_main_c_86 (V0 : Valuation τ sig (Elt F)) : val6 V0 (no_index (Proc.devRef .tc main_c_86)) = (constantI S18 1 0#1 : (⟨S18, .i1⟩ : BufTy).Contents (Elt F)) :=
  (val6_keep V0 main_c_86 (by decide)).trans (val5_main_c_86 V0)
theorem val6_main_c_87 (V0 : Valuation τ sig (Elt F)) : val6 V0 (no_index (Proc.devRef .tc main_c_87)) = (fun i => lit44 (S17.rowMajor i) : (⟨S17, .i32⟩ : BufTy).Contents (Elt F)) :=
  (val6_keep V0 main_c_87 (by decide)).trans (val5_main_c_87 V0)
theorem val6_main_c_88 (V0 : Valuation τ sig (Elt F)) : val6 V0 (no_index (Proc.devRef .tc main_c_88)) = (constantI S17 1 0#1 : (⟨S17, .i1⟩ : BufTy).Contents (Elt F)) :=
  (val6_keep V0 main_c_88 (by decide)).trans (val5_main_c_88 V0)
theorem val6_main_c_89 (V0 : Valuation τ sig (Elt F)) : val6 V0 (no_index (Proc.devRef .tc main_c_89)) = (fun i => lit45 (S17.rowMajor i) : (⟨S17, .i32⟩ : BufTy).Contents (Elt F)) :=
  (val6_keep V0 main_c_89 (by decide)).trans (val5_main_c_89 V0)
theorem val6_main_c_90 (V0 : Valuation τ sig (Elt F)) : val6 V0 (no_index (Proc.devRef .tc main_c_90)) = (constantI S17 1 0#1 : (⟨S17, .i1⟩ : BufTy).Contents (Elt F)) :=
  (val6_keep V0 main_c_90 (by decide)).trans (val5_main_c_90 V0)
theorem val6_main_c_91 (V0 : Valuation τ sig (Elt F)) : val6 V0 (no_index (Proc.devRef .tc main_c_91)) = (fun i => lit46 (S8.rowMajor i) : (⟨S8, .i32⟩ : BufTy).Contents (Elt F)) :=
  (val6_keep V0 main_c_91 (by decide)).trans (val5_main_c_91 V0)
theorem val6_main_c_92 (V0 : Valuation τ sig (Elt F)) : val6 V0 (no_index (Proc.devRef .tc main_c_92)) = (constantI S8 1 0#1 : (⟨S8, .i1⟩ : BufTy).Contents (Elt F)) :=
  (val6_keep V0 main_c_92 (by decide)).trans (val5_main_c_92 V0)
theorem val6_main_c_93 (V0 : Valuation τ sig (Elt F)) : val6 V0 (no_index (Proc.devRef .tc main_c_93)) = (fun i => lit47 (S8.rowMajor i) : (⟨S8, .i32⟩ : BufTy).Contents (Elt F)) :=
  (val6_keep V0 main_c_93 (by decide)).trans (val5_main_c_93 V0)
theorem val6_main_c_94 (V0 : Valuation τ sig (Elt F)) : val6 V0 (no_index (Proc.devRef .tc main_c_94)) = (constantI S8 1 0#1 : (⟨S8, .i1⟩ : BufTy).Contents (Elt F)) :=
  (val6_keep V0 main_c_94 (by decide)).trans (val5_main_c_94 V0)
theorem val6_main_c_95 (V0 : Valuation τ sig (Elt F)) : val6 V0 (no_index (Proc.devRef .tc main_c_95)) = (fun i => lit48 (S7.rowMajor i) : (⟨S7, .i32⟩ : BufTy).Contents (Elt F)) :=
  (val6_keep V0 main_c_95 (by decide)).trans (val5_main_c_95 V0)
theorem val6_main_c_96 (V0 : Valuation τ sig (Elt F)) : val6 V0 (no_index (Proc.devRef .tc main_c_96)) = (constantI S7 1 0#1 : (⟨S7, .i1⟩ : BufTy).Contents (Elt F)) :=
  (val6_keep V0 main_c_96 (by decide)).trans (val5_main_c_96 V0)
theorem val6_main_c_97 (V0 : Valuation τ sig (Elt F)) : val6 V0 (no_index (Proc.devRef .tc main_c_97)) = (fun i => lit49 (S7.rowMajor i) : (⟨S7, .i32⟩ : BufTy).Contents (Elt F)) :=
  (val6_keep V0 main_c_97 (by decide)).trans (val5_main_c_97 V0)
theorem val6_main_c_98 (V0 : Valuation τ sig (Elt F)) : val6 V0 (no_index (Proc.devRef .tc main_c_98)) = (constantI S7 1 0#1 : (⟨S7, .i1⟩ : BufTy).Contents (Elt F)) :=
  (val6_keep V0 main_c_98 (by decide)).trans (val5_main_c_98 V0)
theorem val6_main_c_99 (V0 : Valuation τ sig (Elt F)) : val6 V0 (no_index (Proc.devRef .tc main_c_99)) = (fun i => lit50 (S6.rowMajor i) : (⟨S6, .i32⟩ : BufTy).Contents (Elt F)) :=
  (val6_keep V0 main_c_99 (by decide)).trans (val5_main_c_99 V0)
theorem val6_main_c_100 (V0 : Valuation τ sig (Elt F)) : val6 V0 (no_index (Proc.devRef .tc main_c_100)) = (constantI S6 1 0#1 : (⟨S6, .i1⟩ : BufTy).Contents (Elt F)) :=
  (val6_keep V0 main_c_100 (by decide)).trans (val5_main_c_100 V0)
theorem val6_main_c_101 (V0 : Valuation τ sig (Elt F)) : val6 V0 (no_index (Proc.devRef .tc main_c_101)) = (fun i => lit51 (S6.rowMajor i) : (⟨S6, .i32⟩ : BufTy).Contents (Elt F)) :=
  (val6_keep V0 main_c_101 (by decide)).trans (val5_main_c_101 V0)
theorem val6_main_c_102 (V0 : Valuation τ sig (Elt F)) : val6 V0 (no_index (Proc.devRef .tc main_c_102)) = (constantI S6 1 0#1 : (⟨S6, .i1⟩ : BufTy).Contents (Elt F)) :=
  (val6_keep V0 main_c_102 (by decide)).trans (val5_main_c_102 V0)
theorem val6_main_c_103 (V0 : Valuation τ sig (Elt F)) : val6 V0 (no_index (Proc.devRef .tc main_c_103)) = (fun i => lit52 (S5.rowMajor i) : (⟨S5, .i32⟩ : BufTy).Contents (Elt F)) :=
  (val6_keep V0 main_c_103 (by decide)).trans (val5_main_c_103 V0)
theorem val6_main_c_104 (V0 : Valuation τ sig (Elt F)) : val6 V0 (no_index (Proc.devRef .tc main_c_104)) = (constantI S5 1 0#1 : (⟨S5, .i1⟩ : BufTy).Contents (Elt F)) :=
  (val6_keep V0 main_c_104 (by decide)).trans (val5_main_c_104 V0)
theorem val6_main_c_105 (V0 : Valuation τ sig (Elt F)) : val6 V0 (no_index (Proc.devRef .tc main_c_105)) = (fun i => lit53 (S5.rowMajor i) : (⟨S5, .i32⟩ : BufTy).Contents (Elt F)) :=
  (val6_keep V0 main_c_105 (by decide)).trans (val5_main_c_105 V0)
theorem val6_main_c_106 (V0 : Valuation τ sig (Elt F)) : val6 V0 (no_index (Proc.devRef .tc main_c_106)) = (constantI S5 1 0#1 : (⟨S5, .i1⟩ : BufTy).Contents (Elt F)) :=
  (val6_keep V0 main_c_106 (by decide)).trans (val5_main_c_106 V0)
theorem val6_main_c_107 (V0 : Valuation τ sig (Elt F)) : val6 V0 (no_index (Proc.devRef .tc main_c_107)) = (fun i => lit54 (S4.rowMajor i) : (⟨S4, .i32⟩ : BufTy).Contents (Elt F)) :=
  (val6_keep V0 main_c_107 (by decide)).trans (val5_main_c_107 V0)
theorem val6_main_c_108 (V0 : Valuation τ sig (Elt F)) : val6 V0 (no_index (Proc.devRef .tc main_c_108)) = (constantI S4 1 0#1 : (⟨S4, .i1⟩ : BufTy).Contents (Elt F)) :=
  (val6_keep V0 main_c_108 (by decide)).trans (val5_main_c_108 V0)
theorem val6_main_c_109 (V0 : Valuation τ sig (Elt F)) : val6 V0 (no_index (Proc.devRef .tc main_c_109)) = (fun i => lit55 (S4.rowMajor i) : (⟨S4, .i32⟩ : BufTy).Contents (Elt F)) :=
  (val6_keep V0 main_c_109 (by decide)).trans (val5_main_c_109 V0)
theorem val6_main_c_110 (V0 : Valuation τ sig (Elt F)) : val6 V0 (no_index (Proc.devRef .tc main_c_110)) = (constantI S4 1 0#1 : (⟨S4, .i1⟩ : BufTy).Contents (Elt F)) :=
  (val6_keep V0 main_c_110 (by decide)).trans (val5_main_c_110 V0)
theorem val6_main_c_111 (V0 : Valuation τ sig (Elt F)) : val6 V0 (no_index (Proc.devRef .tc main_c_111)) = (fun i => lit56 (S3.rowMajor i) : (⟨S3, .i32⟩ : BufTy).Contents (Elt F)) :=
  (val6_keep V0 main_c_111 (by decide)).trans (val5_main_c_111 V0)
theorem val6_main_c_112 (V0 : Valuation τ sig (Elt F)) : val6 V0 (no_index (Proc.devRef .tc main_c_112)) = (constantI S3 1 0#1 : (⟨S3, .i1⟩ : BufTy).Contents (Elt F)) :=
  (val6_keep V0 main_c_112 (by decide)).trans (val5_main_c_112 V0)
theorem val6_main_c_113 (V0 : Valuation τ sig (Elt F)) : val6 V0 (no_index (Proc.devRef .tc main_c_113)) = (fun i => lit57 (S3.rowMajor i) : (⟨S3, .i32⟩ : BufTy).Contents (Elt F)) :=
  (val6_keep V0 main_c_113 (by decide)).trans (val5_main_c_113 V0)
theorem val6_main_c_114 (V0 : Valuation τ sig (Elt F)) : val6 V0 (no_index (Proc.devRef .tc main_c_114)) = (constantI S3 1 0#1 : (⟨S3, .i1⟩ : BufTy).Contents (Elt F)) :=
  (val6_keep V0 main_c_114 (by decide)).trans (val5_main_c_114 V0)
theorem val6_main_c_115 (V0 : Valuation τ sig (Elt F)) : val6 V0 (no_index (Proc.devRef .tc main_c_115)) = (fun i => lit58 (S2.rowMajor i) : (⟨S2, .i32⟩ : BufTy).Contents (Elt F)) :=
  (val6_keep V0 main_c_115 (by decide)).trans (val5_main_c_115 V0)
theorem val6_main_c_116 (V0 : Valuation τ sig (Elt F)) : val6 V0 (no_index (Proc.devRef .tc main_c_116)) = (constantI S2 1 0#1 : (⟨S2, .i1⟩ : BufTy).Contents (Elt F)) :=
  (val6_keep V0 main_c_116 (by decide)).trans (val5_main_c_116 V0)
theorem val6_main_c_117 (V0 : Valuation τ sig (Elt F)) : val6 V0 (no_index (Proc.devRef .tc main_c_117)) = (fun i => lit59 (S2.rowMajor i) : (⟨S2, .i32⟩ : BufTy).Contents (Elt F)) :=
  (val6_keep V0 main_c_117 (by decide)).trans (val5_main_c_117 V0)
theorem val6_main_c_118 (V0 : Valuation τ sig (Elt F)) : val6 V0 (no_index (Proc.devRef .tc main_c_118)) = (constantI S2 1 0#1 : (⟨S2, .i1⟩ : BufTy).Contents (Elt F)) :=
  (val6_keep V0 main_c_118 (by decide)).trans (val5_main_c_118 V0)
theorem val6_main_c_119 (V0 : Valuation τ sig (Elt F)) : val6 V0 (no_index (Proc.devRef .tc main_c_119)) = (constantI S1 32 0#32 : (⟨S1, .i32⟩ : BufTy).Contents (Elt F)) :=
  (val6_keep V0 main_c_119 (by decide)).trans (val5_main_c_119 V0)
theorem val6_main_c_120 (V0 : Valuation τ sig (Elt F)) : val6 V0 (no_index (Proc.devRef .tc main_c_120)) = (constantI S1 1 0#1 : (⟨S1, .i1⟩ : BufTy).Contents (Elt F)) :=
  (val6_keep V0 main_c_120 (by decide)).trans (val5_main_c_120 V0)
theorem val6_main_c_121 (V0 : Valuation τ sig (Elt F)) : val6 V0 (no_index (Proc.devRef .tc main_c_121)) = (constantI S1 32 62#32 : (⟨S1, .i32⟩ : BufTy).Contents (Elt F)) :=
  (val6_keep V0 main_c_121 (by decide)).trans (val5_main_c_121 V0)
theorem val6_main_c_122 (V0 : Valuation τ sig (Elt F)) : val6 V0 (no_index (Proc.devRef .tc main_c_122)) = (constantI S1 1 0#1 : (⟨S1, .i1⟩ : BufTy).Contents (Elt F)) :=
  (val6_keep V0 main_c_122 (by decide)).trans (val5_main_c_122 V0)
theorem val6_main_c_123 (V0 : Valuation τ sig (Elt F)) : val6 V0 (no_index (Proc.devRef .tc main_c_123)) = fun i => lit60 (S64x64.rowMajor i) :=
  (val6_keep V0 main_c_123 (by decide)).trans (val5_main_c_123 V0)
set_option maxRecDepth 8192 in
set_option maxHeartbeats 2000000 in
theorem val6_main_v178 (V0 : Valuation τ sig (Elt F)) : val6 V0 (no_index (Proc.devRef .tc main_v178)) = acc_14 (V0 (Proc.devRef .tc main_arg0)) := by
  unfold val6
  simp only [ops5]
  after_results_simp
  simp only [val5_main_v132, val5_main_c_57, val5_main_c_58, val5_main_c_55, val5_main_c_56, val5_main_c_53, val5_main_c_54, val5_main_c_51, val5_main_c_52, val5_main_c_49, val5_main_c_50, val5_main_c_47, val5_main_c_48, val5_main_v138, val5_main_v135, val5_main_v130] <;> rfl
set_option maxRecDepth 8192 in
set_option maxHeartbeats 2000000 in
theorem val6_main_v180 (V0 : Valuation τ sig (Elt F)) : val6 V0 (no_index (Proc.devRef .tc main_v180)) = pool_15 (V0 (Proc.devRef .tc main_arg0)) := by
  unfold val6
  simp only [ops5]
  after_results_simp
  simp only [val5_main_v132] <;> rfl
set_option maxRecDepth 8192 in
set_option maxHeartbeats 2000000 in
theorem val6_main_v183 (V0 : Valuation τ sig (Elt F)) : val6 V0 (no_index (Proc.devRef .tc main_v183)) = (ixI_15 (F := F)) := by
  unfold val6
  simp only [ops5]
  after_results_simp
  simp only [val5_main_c_59, val5_main_c_60] <;> rfl
set_option maxRecDepth 8192 in
set_option maxHeartbeats 2000000 in
theorem val6_main_v186 (V0 : Valuation τ sig (Elt F)) : val6 V0 (no_index (Proc.devRef .tc main_v186)) = (ixJ_15 (F := F)) := by
  unfold val6
  simp only [ops5]
  after_results_simp
  simp only [val5_main_c_61, val5_main_c_62] <;> rfl

end Cert.RefRun

end
-- ==== Proof.RefRunW7.lean ====
/-
  The buffers that are still read after the first 7 windows, each at its term over the contents at launch: a buffer
  written earlier keeps its contents through the window, a buffer the window writes is read off the window's operations.
-/
import proofs.«156021_j19232863551513_2_alg».proof.Proof.RefRunW6

noncomputable section

namespace Cert.RefRun

open Cert.ReferenceIdeal Cert.ReferenceIdeal.Facts₀ Cert.ReferenceIdeal.Facts Cert.RefTerm
open Idealize.ShloMosaic Idealize.ShloMosaic.TcCoe Idealize.SL.Sem Idealize.ShloMosaic.StableHlo

variable {F : FTy → Type} [FloatOps F]

theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_c_79 (V0 : Valuation τ sig (Elt F)) : val7 V0 (no_index (Proc.devRef .tc main_c_79)) = (fun i => lit40 (S19.rowMajor i) : (⟨S19, .i32⟩ : BufTy).Contents (Elt F)) :=
  (val7_keep V0 main_c_79 (by decide)).trans (val6_main_c_79 V0)
theorem val7_main_c_80 (V0 : Valuation τ sig (Elt F)) : val7 V0 (no_index (Proc.devRef .tc main_c_80)) = (constantI S19 1 0#1 : (⟨S19, .i1⟩ : BufTy).Contents (Elt F)) :=
  (val7_keep V0 main_c_80 (by decide)).trans (val6_main_c_80 V0)
theorem val7_main_c_81 (V0 : Valuation τ sig (Elt F)) : val7 V0 (no_index (Proc.devRef .tc main_c_81)) = (fun i => lit41 (S19.rowMajor i) : (⟨S19, .i32⟩ : BufTy).Contents (Elt F)) :=
  (val7_keep V0 main_c_81 (by decide)).trans (val6_main_c_81 V0)
theorem val7_main_c_82 (V0 : Valuation τ sig (Elt F)) : val7 V0 (no_index (Proc.devRef .tc main_c_82)) = (constantI S19 1 0#1 : (⟨S19, .i1⟩ : BufTy).Contents (Elt F)) :=
  (val7_keep V0 main_c_82 (by decide)).trans (val6_main_c_82 V0)
theorem val7_main_c_83 (V0 : Valuation τ sig (Elt F)) : val7 V0 (no_index (Proc.devRef .tc main_c_83)) = (fun i => lit42 (S18.rowMajor i) : (⟨S18, .i32⟩ : BufTy).Contents (Elt F)) :=
  (val7_keep V0 main_c_83 (by decide)).trans (val6_main_c_83 V0)
theorem val7_main_c_84 (V0 : Valuation τ sig (Elt F)) : val7 V0 (no_index (Proc.devRef .tc main_c_84)) = (constantI S18 1 0#1 : (⟨S18, .i1⟩ : BufTy).Contents (Elt F)) :=
  (val7_keep V0 main_c_84 (by decide)).trans (val6_main_c_84 V0)
theorem val7_main_c_85 (V0 : Valuation τ sig (Elt F)) : val7 V0 (no_index (Proc.devRef .tc main_c_85)) = (fun i => lit43 (S18.rowMajor i) : (⟨S18, .i32⟩ : BufTy).Contents (Elt F)) :=
  (val7_keep V0 main_c_85 (by decide)).trans (val6_main_c_85 V0)
theorem val7_main_c_86 (V0 : Valuation τ sig (Elt F)) : val7 V0 (no_index (Proc.devRef .tc main_c_86)) = (constantI S18 1 0#1 : (⟨S18, .i1⟩ : BufTy).Contents (Elt F)) :=
  (val7_keep V0 main_c_86 (by decide)).trans (val6_main_c_86 V0)
theorem val7_main_c_87 (V0 : Valuation τ sig (Elt F)) : val7 V0 (no_index (Proc.devRef .tc main_c_87)) = (fun i => lit44 (S17.rowMajor i) : (⟨S17, .i32⟩ : BufTy).Contents (Elt F)) :=
  (val7_keep V0 main_c_87 (by decide)).trans (val6_main_c_87 V0)
theorem val7_main_c_88 (V0 : Valuation τ sig (Elt F)) : val7 V0 (no_index (Proc.devRef .tc main_c_88)) = (constantI S17 1 0#1 : (⟨S17, .i1⟩ : BufTy).Contents (Elt F)) :=
  (val7_keep V0 main_c_88 (by decide)).trans (val6_main_c_88 V0)
theorem val7_main_c_89 (V0 : Valuation τ sig (Elt F)) : val7 V0 (no_index (Proc.devRef .tc main_c_89)) = (fun i => lit45 (S17.rowMajor i) : (⟨S17, .i32⟩ : BufTy).Contents (Elt F)) :=
  (val7_keep V0 main_c_89 (by decide)).trans (val6_main_c_89 V0)
theorem val7_main_c_90 (V0 : Valuation τ sig (Elt F)) : val7 V0 (no_index (Proc.devRef .tc main_c_90)) = (constantI S17 1 0#1 : (⟨S17, .i1⟩ : BufTy).Contents (Elt F)) :=
  (val7_keep V0 main_c_90 (by decide)).trans (val6_main_c_90 V0)
theorem val7_main_c_91 (V0 : Valuation τ sig (Elt F)) : val7 V0 (no_index (Proc.devRef .tc main_c_91)) = (fun i => lit46 (S8.rowMajor i) : (⟨S8, .i32⟩ : BufTy).Contents (Elt F)) :=
  (val7_keep V0 main_c_91 (by decide)).trans (val6_main_c_91 V0)
theorem val7_main_c_92 (V0 : Valuation τ sig (Elt F)) : val7 V0 (no_index (Proc.devRef .tc main_c_92)) = (constantI S8 1 0#1 : (⟨S8, .i1⟩ : BufTy).Contents (Elt F)) :=
  (val7_keep V0 main_c_92 (by decide)).trans (val6_main_c_92 V0)
theorem val7_main_c_93 (V0 : Valuation τ sig (Elt F)) : val7 V0 (no_index (Proc.devRef .tc main_c_93)) = (fun i => lit47 (S8.rowMajor i) : (⟨S8, .i32⟩ : BufTy).Contents (Elt F)) :=
  (val7_keep V0 main_c_93 (by decide)).trans (val6_main_c_93 V0)
theorem val7_main_c_94 (V0 : Valuation τ sig (Elt F)) : val7 V0 (no_index (Proc.devRef .tc main_c_94)) = (constantI S8 1 0#1 : (⟨S8, .i1⟩ : BufTy).Contents (Elt F)) :=
  (val7_keep V0 main_c_94 (by decide)).trans (val6_main_c_94 V0)
theorem val7_main_c_95 (V0 : Valuation τ sig (Elt F)) : val7 V0 (no_index (Proc.devRef .tc main_c_95)) = (fun i => lit48 (S7.rowMajor i) : (⟨S7, .i32⟩ : BufTy).Contents (Elt F)) :=
  (val7_keep V0 main_c_95 (by decide)).trans (val6_main_c_95 V0)
theorem val7_main_c_96 (V0 : Valuation τ sig (Elt F)) : val7 V0 (no_index (Proc.devRef .tc main_c_96)) = (constantI S7 1 0#1 : (⟨S7, .i1⟩ : BufTy).Contents (Elt F)) :=
  (val7_keep V0 main_c_96 (by decide)).trans (val6_main_c_96 V0)
theorem val7_main_c_97 (V0 : Valuation τ sig (Elt F)) : val7 V0 (no_index (Proc.devRef .tc main_c_97)) = (fun i => lit49 (S7.rowMajor i) : (⟨S7, .i32⟩ : BufTy).Contents (Elt F)) :=
  (val7_keep V0 main_c_97 (by decide)).trans (val6_main_c_97 V0)
theorem val7_main_c_98 (V0 : Valuation τ sig (Elt F)) : val7 V0 (no_index (Proc.devRef .tc main_c_98)) = (constantI S7 1 0#1 : (⟨S7, .i1⟩ : BufTy).Contents (Elt F)) :=
  (val7_keep V0 main_c_98 (by decide)).trans (val6_main_c_98 V0)
theorem val7_main_c_99 (V0 : Valuation τ sig (Elt F)) : val7 V0 (no_index (Proc.devRef .tc main_c_99)) = (fun i => lit50 (S6.rowMajor i) : (⟨S6, .i32⟩ : BufTy).Contents (Elt F)) :=
  (val7_keep V0 main_c_99 (by decide)).trans (val6_main_c_99 V0)
theorem val7_main_c_100 (V0 : Valuation τ sig (Elt F)) : val7 V0 (no_index (Proc.devRef .tc main_c_100)) = (constantI S6 1 0#1 : (⟨S6, .i1⟩ : BufTy).Contents (Elt F)) :=
  (val7_keep V0 main_c_100 (by decide)).trans (val6_main_c_100 V0)
theorem val7_main_c_101 (V0 : Valuation τ sig (Elt F)) : val7 V0 (no_index (Proc.devRef .tc main_c_101)) = (fun i => lit51 (S6.rowMajor i) : (⟨S6, .i32⟩ : BufTy).Contents (Elt F)) :=
  (val7_keep V0 main_c_101 (by decide)).trans (val6_main_c_101 V0)
theorem val7_main_c_102 (V0 : Valuation τ sig (Elt F)) : val7 V0 (no_index (Proc.devRef .tc main_c_102)) = (constantI S6 1 0#1 : (⟨S6, .i1⟩ : BufTy).Contents (Elt F)) :=
  (val7_keep V0 main_c_102 (by decide)).trans (val6_main_c_102 V0)
theorem val7_main_c_103 (V0 : Valuation τ sig (Elt F)) : val7 V0 (no_index (Proc.devRef .tc main_c_103)) = (fun i => lit52 (S5.rowMajor i) : (⟨S5, .i32⟩ : BufTy).Contents (Elt F)) :=
  (val7_keep V0 main_c_103 (by decide)).trans (val6_main_c_103 V0)
theorem val7_main_c_104 (V0 : Valuation τ sig (Elt F)) : val7 V0 (no_index (Proc.devRef .tc main_c_104)) = (constantI S5 1 0#1 : (⟨S5, .i1⟩ : BufTy).Contents (Elt F)) :=
  (val7_keep V0 main_c_104 (by decide)).trans (val6_main_c_104 V0)
theorem val7_main_c_105 (V0 : Valuation τ sig (Elt F)) : val7 V0 (no_index (Proc.devRef .tc main_c_105)) = (fun i => lit53 (S5.rowMajor i) : (⟨S5, .i32⟩ : BufTy).Contents (Elt F)) :=
  (val7_keep V0 main_c_105 (by decide)).trans (val6_main_c_105 V0)
theorem val7_main_c_106 (V0 : Valuation τ sig (Elt F)) : val7 V0 (no_index (Proc.devRef .tc main_c_106)) = (constantI S5 1 0#1 : (⟨S5, .i1⟩ : BufTy).Contents (Elt F)) :=
  (val7_keep V0 main_c_106 (by decide)).trans (val6_main_c_106 V0)
theorem val7_main_c_107 (V0 : Valuation τ sig (Elt F)) : val7 V0 (no_index (Proc.devRef .tc main_c_107)) = (fun i => lit54 (S4.rowMajor i) : (⟨S4, .i32⟩ : BufTy).Contents (Elt F)) :=
  (val7_keep V0 main_c_107 (by decide)).trans (val6_main_c_107 V0)
theorem val7_main_c_108 (V0 : Valuation τ sig (Elt F)) : val7 V0 (no_index (Proc.devRef .tc main_c_108)) = (constantI S4 1 0#1 : (⟨S4, .i1⟩ : BufTy).Contents (Elt F)) :=
  (val7_keep V0 main_c_108 (by decide)).trans (val6_main_c_108 V0)
theorem val7_main_c_109 (V0 : Valuation τ sig (Elt F)) : val7 V0 (no_index (Proc.devRef .tc main_c_109)) = (fun i => lit55 (S4.rowMajor i) : (⟨S4, .i32⟩ : BufTy).Contents (Elt F)) :=
  (val7_keep V0 main_c_109 (by decide)).trans (val6_main_c_109 V0)
theorem val7_main_c_110 (V0 : Valuation τ sig (Elt F)) : val7 V0 (no_index (Proc.devRef .tc main_c_110)) = (constantI S4 1 0#1 : (⟨S4, .i1⟩ : BufTy).Contents (Elt F)) :=
  (val7_keep V0 main_c_110 (by decide)).trans (val6_main_c_110 V0)
theorem val7_main_c_111 (V0 : Valuation τ sig (Elt F)) : val7 V0 (no_index (Proc.devRef .tc main_c_111)) = (fun i => lit56 (S3.rowMajor i) : (⟨S3, .i32⟩ : BufTy).Contents (Elt F)) :=
  (val7_keep V0 main_c_111 (by decide)).trans (val6_main_c_111 V0)
theorem val7_main_c_112 (V0 : Valuation τ sig (Elt F)) : val7 V0 (no_index (Proc.devRef .tc main_c_112)) = (constantI S3 1 0#1 : (⟨S3, .i1⟩ : BufTy).Contents (Elt F)) :=
  (val7_keep V0 main_c_112 (by decide)).trans (val6_main_c_112 V0)
theorem val7_main_c_113 (V0 : Valuation τ sig (Elt F)) : val7 V0 (no_index (Proc.devRef .tc main_c_113)) = (fun i => lit57 (S3.rowMajor i) : (⟨S3, .i32⟩ : BufTy).Contents (Elt F)) :=
  (val7_keep V0 main_c_113 (by decide)).trans (val6_main_c_113 V0)
theorem val7_main_c_114 (V0 : Valuation τ sig (Elt F)) : val7 V0 (no_index (Proc.devRef .tc main_c_114)) = (constantI S3 1 0#1 : (⟨S3, .i1⟩ : BufTy).Contents (Elt F)) :=
  (val7_keep V0 main_c_114 (by decide)).trans (val6_main_c_114 V0)
theorem val7_main_c_115 (V0 : Valuation τ sig (Elt F)) : val7 V0 (no_index (Proc.devRef .tc main_c_115)) = (fun i => lit58 (S2.rowMajor i) : (⟨S2, .i32⟩ : BufTy).Contents (Elt F)) :=
  (val7_keep V0 main_c_115 (by decide)).trans (val6_main_c_115 V0)
theorem val7_main_c_116 (V0 : Valuation τ sig (Elt F)) : val7 V0 (no_index (Proc.devRef .tc main_c_116)) = (constantI S2 1 0#1 : (⟨S2, .i1⟩ : BufTy).Contents (Elt F)) :=
  (val7_keep V0 main_c_116 (by decide)).trans (val6_main_c_116 V0)
theorem val7_main_c_117 (V0 : Valuation τ sig (Elt F)) : val7 V0 (no_index (Proc.devRef .tc main_c_117)) = (fun i => lit59 (S2.rowMajor i) : (⟨S2, .i32⟩ : BufTy).Contents (Elt F)) :=
  (val7_keep V0 main_c_117 (by decide)).trans (val6_main_c_117 V0)
theorem val7_main_c_118 (V0 : Valuation τ sig (Elt F)) : val7 V0 (no_index (Proc.devRef .tc main_c_118)) = (constantI S2 1 0#1 : (⟨S2, .i1⟩ : BufTy).Contents (Elt F)) :=
  (val7_keep V0 main_c_118 (by decide)).trans (val6_main_c_118 V0)
theorem val7_main_c_119 (V0 : Valuation τ sig (Elt F)) : val7 V0 (no_index (Proc.devRef .tc main_c_119)) = (constantI S1 32 0#32 : (⟨S1, .i32⟩ : BufTy).Contents (Elt F)) :=
  (val7_keep V0 main_c_119 (by decide)).trans (val6_main_c_119 V0)
theorem val7_main_c_120 (V0 : Valuation τ sig (Elt F)) : val7 V0 (no_index (Proc.devRef .tc main_c_120)) = (constantI S1 1 0#1 : (⟨S1, .i1⟩ : BufTy).Contents (Elt F)) :=
  (val7_keep V0 main_c_120 (by decide)).trans (val6_main_c_120 V0)
theorem val7_main_c_121 (V0 : Valuation τ sig (Elt F)) : val7 V0 (no_index (Proc.devRef .tc main_c_121)) = (constantI S1 32 62#32 : (⟨S1, .i32⟩ : BufTy).Contents (Elt F)) :=
  (val7_keep V0 main_c_121 (by decide)).trans (val6_main_c_121 V0)
theorem val7_main_c_122 (V0 : Valuation τ sig (Elt F)) : val7 V0 (no_index (Proc.devRef .tc main_c_122)) = (constantI S1 1 0#1 : (⟨S1, .i1⟩ : BufTy).Contents (Elt F)) :=
  (val7_keep V0 main_c_122 (by decide)).trans (val6_main_c_122 V0)
theorem val7_main_c_123 (V0 : Valuation τ sig (Elt F)) : val7 V0 (no_index (Proc.devRef .tc main_c_123)) = fun i => lit60 (S64x64.rowMajor i) :=
  (val7_keep V0 main_c_123 (by decide)).trans (val6_main_c_123 V0)
set_option maxRecDepth 8192 in
set_option maxHeartbeats 2000000 in
theorem val7_main_v226 (V0 : Valuation τ sig (Elt F)) : val7 V0 (no_index (Proc.devRef .tc main_v226)) = acc_18 (V0 (Proc.devRef .tc main_arg0)) := by
  unfold val7
  simp only [ops6]
  after_results_simp
  simp only [val6_main_v180, val6_main_c_73, val6_main_c_74, val6_main_c_71, val6_main_c_72, val6_main_c_69, val6_main_c_70, val6_main_c_67, val6_main_c_68, val6_main_c_65, val6_main_c_66, val6_main_c_63, val6_main_c_64, val6_main_v186, val6_main_v183, val6_main_v178] <;> rfl
set_option maxRecDepth 8192 in
set_option maxHeartbeats 2000000 in
theorem val7_main_v228 (V0 : Valuation τ sig (Elt F)) : val7 V0 (no_index (Proc.devRef .tc main_v228)) = pool_19 (V0 (Proc.devRef .tc main_arg0)) := by
  unfold val7
  simp only [ops6]
  after_results_simp
  simp only [val6_main_v180] <;> rfl
set_option maxRecDepth 8192 in
set_option maxHeartbeats 2000000 in
theorem val7_main_v231 (V0 : Valuation τ sig (Elt F)) : val7 V0 (no_index (Proc.devRef .tc main_v231)) = (ixI_19 (F := F)) := by
  unfold val7
  simp only [ops6]
  after_results_simp
  simp only [val6_main_c_75, val6_main_c_76] <;> rfl
set_option maxRecDepth 8192 in
set_option maxHeartbeats 2000000 in
theorem val7_main_v234 (V0 : Valuation τ sig (Elt F)) : val7 V0 (no_index (Proc.devRef .tc main_v234)) = (ixJ_19 (F := F)) := by
  unfold val7
  simp only [ops6]
  after_results_simp
  simp only [val6_main_c_77, val6_main_c_78] <;> rfl

end Cert.RefRun

end
-- ==== Proof.RefRunW8.lean ====
/-
  The buffers that are still read after the first 8 windows, each at its term over the contents at launch: a buffer
  written earlier keeps its contents through the window, a buffer the window writes is read off the window's operations.
-/
import proofs.«156021_j19232863551513_2_alg».proof.Proof.RefRunW7

noncomputable section

namespace Cert.RefRun

open Cert.ReferenceIdeal Cert.ReferenceIdeal.Facts₀ Cert.ReferenceIdeal.Facts Cert.RefTerm
open Idealize.ShloMosaic Idealize.ShloMosaic.TcCoe Idealize.SL.Sem Idealize.ShloMosaic.StableHlo

variable {F : FTy → Type} [FloatOps F]

theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_c_95 (V0 : Valuation τ sig (Elt F)) : val8 V0 (no_index (Proc.devRef .tc main_c_95)) = (fun i => lit48 (S7.rowMajor i) : (⟨S7, .i32⟩ : BufTy).Contents (Elt F)) :=
  (val8_keep V0 main_c_95 (by decide)).trans (val7_main_c_95 V0)
theorem val8_main_c_96 (V0 : Valuation τ sig (Elt F)) : val8 V0 (no_index (Proc.devRef .tc main_c_96)) = (constantI S7 1 0#1 : (⟨S7, .i1⟩ : BufTy).Contents (Elt F)) :=
  (val8_keep V0 main_c_96 (by decide)).trans (val7_main_c_96 V0)
theorem val8_main_c_97 (V0 : Valuation τ sig (Elt F)) : val8 V0 (no_index (Proc.devRef .tc main_c_97)) = (fun i => lit49 (S7.rowMajor i) : (⟨S7, .i32⟩ : BufTy).Contents (Elt F)) :=
  (val8_keep V0 main_c_97 (by decide)).trans (val7_main_c_97 V0)
theorem val8_main_c_98 (V0 : Valuation τ sig (Elt F)) : val8 V0 (no_index (Proc.devRef .tc main_c_98)) = (constantI S7 1 0#1 : (⟨S7, .i1⟩ : BufTy).Contents (Elt F)) :=
  (val8_keep V0 main_c_98 (by decide)).trans (val7_main_c_98 V0)
theorem val8_main_c_99 (V0 : Valuation τ sig (Elt F)) : val8 V0 (no_index (Proc.devRef .tc main_c_99)) = (fun i => lit50 (S6.rowMajor i) : (⟨S6, .i32⟩ : BufTy).Contents (Elt F)) :=
  (val8_keep V0 main_c_99 (by decide)).trans (val7_main_c_99 V0)
theorem val8_main_c_100 (V0 : Valuation τ sig (Elt F)) : val8 V0 (no_index (Proc.devRef .tc main_c_100)) = (constantI S6 1 0#1 : (⟨S6, .i1⟩ : BufTy).Contents (Elt F)) :=
  (val8_keep V0 main_c_100 (by decide)).trans (val7_main_c_100 V0)
theorem val8_main_c_101 (V0 : Valuation τ sig (Elt F)) : val8 V0 (no_index (Proc.devRef .tc main_c_101)) = (fun i => lit51 (S6.rowMajor i) : (⟨S6, .i32⟩ : BufTy).Contents (Elt F)) :=
  (val8_keep V0 main_c_101 (by decide)).trans (val7_main_c_101 V0)
theorem val8_main_c_102 (V0 : Valuation τ sig (Elt F)) : val8 V0 (no_index (Proc.devRef .tc main_c_102)) = (constantI S6 1 0#1 : (⟨S6, .i1⟩ : BufTy).Contents (Elt F)) :=
  (val8_keep V0 main_c_102 (by decide)).trans (val7_main_c_102 V0)
theorem val8_main_c_103 (V0 : Valuation τ sig (Elt F)) : val8 V0 (no_index (Proc.devRef .tc main_c_103)) = (fun i => lit52 (S5.rowMajor i) : (⟨S5, .i32⟩ : BufTy).Contents (Elt F)) :=
  (val8_keep V0 main_c_103 (by decide)).trans (val7_main_c_103 V0)
theorem val8_main_c_104 (V0 : Valuation τ sig (Elt F)) : val8 V0 (no_index (Proc.devRef .tc main_c_104)) = (constantI S5 1 0#1 : (⟨S5, .i1⟩ : BufTy).Contents (Elt F)) :=
  (val8_keep V0 main_c_104 (by decide)).trans (val7_main_c_104 V0)
theorem val8_main_c_105 (V0 : Valuation τ sig (Elt F)) : val8 V0 (no_index (Proc.devRef .tc main_c_105)) = (fun i => lit53 (S5.rowMajor i) : (⟨S5, .i32⟩ : BufTy).Contents (Elt F)) :=
  (val8_keep V0 main_c_105 (by decide)).trans (val7_main_c_105 V0)
theorem val8_main_c_106 (V0 : Valuation τ sig (Elt F)) : val8 V0 (no_index (Proc.devRef .tc main_c_106)) = (constantI S5 1 0#1 : (⟨S5, .i1⟩ : BufTy).Contents (Elt F)) :=
  (val8_keep V0 main_c_106 (by decide)).trans (val7_main_c_106 V0)
theorem val8_main_c_107 (V0 : Valuation τ sig (Elt F)) : val8 V0 (no_index (Proc.devRef .tc main_c_107)) = (fun i => lit54 (S4.rowMajor i) : (⟨S4, .i32⟩ : BufTy).Contents (Elt F)) :=
  (val8_keep V0 main_c_107 (by decide)).trans (val7_main_c_107 V0)
theorem val8_main_c_108 (V0 : Valuation τ sig (Elt F)) : val8 V0 (no_index (Proc.devRef .tc main_c_108)) = (constantI S4 1 0#1 : (⟨S4, .i1⟩ : BufTy).Contents (Elt F)) :=
  (val8_keep V0 main_c_108 (by decide)).trans (val7_main_c_108 V0)
theorem val8_main_c_109 (V0 : Valuation τ sig (Elt F)) : val8 V0 (no_index (Proc.devRef .tc main_c_109)) = (fun i => lit55 (S4.rowMajor i) : (⟨S4, .i32⟩ : BufTy).Contents (Elt F)) :=
  (val8_keep V0 main_c_109 (by decide)).trans (val7_main_c_109 V0)
theorem val8_main_c_110 (V0 : Valuation τ sig (Elt F)) : val8 V0 (no_index (Proc.devRef .tc main_c_110)) = (constantI S4 1 0#1 : (⟨S4, .i1⟩ : BufTy).Contents (Elt F)) :=
  (val8_keep V0 main_c_110 (by decide)).trans (val7_main_c_110 V0)
theorem val8_main_c_111 (V0 : Valuation τ sig (Elt F)) : val8 V0 (no_index (Proc.devRef .tc main_c_111)) = (fun i => lit56 (S3.rowMajor i) : (⟨S3, .i32⟩ : BufTy).Contents (Elt F)) :=
  (val8_keep V0 main_c_111 (by decide)).trans (val7_main_c_111 V0)
theorem val8_main_c_112 (V0 : Valuation τ sig (Elt F)) : val8 V0 (no_index (Proc.devRef .tc main_c_112)) = (constantI S3 1 0#1 : (⟨S3, .i1⟩ : BufTy).Contents (Elt F)) :=
  (val8_keep V0 main_c_112 (by decide)).trans (val7_main_c_112 V0)
theorem val8_main_c_113 (V0 : Valuation τ sig (Elt F)) : val8 V0 (no_index (Proc.devRef .tc main_c_113)) = (fun i => lit57 (S3.rowMajor i) : (⟨S3, .i32⟩ : BufTy).Contents (Elt F)) :=
  (val8_keep V0 main_c_113 (by decide)).trans (val7_main_c_113 V0)
theorem val8_main_c_114 (V0 : Valuation τ sig (Elt F)) : val8 V0 (no_index (Proc.devRef .tc main_c_114)) = (constantI S3 1 0#1 : (⟨S3, .i1⟩ : BufTy).Contents (Elt F)) :=
  (val8_keep V0 main_c_114 (by decide)).trans (val7_main_c_114 V0)
theorem val8_main_c_115 (V0 : Valuation τ sig (Elt F)) : val8 V0 (no_index (Proc.devRef .tc main_c_115)) = (fun i => lit58 (S2.rowMajor i) : (⟨S2, .i32⟩ : BufTy).Contents (Elt F)) :=
  (val8_keep V0 main_c_115 (by decide)).trans (val7_main_c_115 V0)
theorem val8_main_c_116 (V0 : Valuation τ sig (Elt F)) : val8 V0 (no_index (Proc.devRef .tc main_c_116)) = (constantI S2 1 0#1 : (⟨S2, .i1⟩ : BufTy).Contents (Elt F)) :=
  (val8_keep V0 main_c_116 (by decide)).trans (val7_main_c_116 V0)
theorem val8_main_c_117 (V0 : Valuation τ sig (Elt F)) : val8 V0 (no_index (Proc.devRef .tc main_c_117)) = (fun i => lit59 (S2.rowMajor i) : (⟨S2, .i32⟩ : BufTy).Contents (Elt F)) :=
  (val8_keep V0 main_c_117 (by decide)).trans (val7_main_c_117 V0)
theorem val8_main_c_118 (V0 : Valuation τ sig (Elt F)) : val8 V0 (no_index (Proc.devRef .tc main_c_118)) = (constantI S2 1 0#1 : (⟨S2, .i1⟩ : BufTy).Contents (Elt F)) :=
  (val8_keep V0 main_c_118 (by decide)).trans (val7_main_c_118 V0)
theorem val8_main_c_119 (V0 : Valuation τ sig (Elt F)) : val8 V0 (no_index (Proc.devRef .tc main_c_119)) = (constantI S1 32 0#32 : (⟨S1, .i32⟩ : BufTy).Contents (Elt F)) :=
  (val8_keep V0 main_c_119 (by decide)).trans (val7_main_c_119 V0)
theorem val8_main_c_120 (V0 : Valuation τ sig (Elt F)) : val8 V0 (no_index (Proc.devRef .tc main_c_120)) = (constantI S1 1 0#1 : (⟨S1, .i1⟩ : BufTy).Contents (Elt F)) :=
  (val8_keep V0 main_c_120 (by decide)).trans (val7_main_c_120 V0)
theorem val8_main_c_121 (V0 : Valuation τ sig (Elt F)) : val8 V0 (no_index (Proc.devRef .tc main_c_121)) = (constantI S1 32 62#32 : (⟨S1, .i32⟩ : BufTy).Contents (Elt F)) :=
  (val8_keep V0 main_c_121 (by decide)).trans (val7_main_c_121 V0)
theorem val8_main_c_122 (V0 : Valuation τ sig (Elt F)) : val8 V0 (no_index (Proc.devRef .tc main_c_122)) = (constantI S1 1 0#1 : (⟨S1, .i1⟩ : BufTy).Contents (Elt F)) :=
  (val8_keep V0 main_c_122 (by decide)).trans (val7_main_c_122 V0)
theorem val8_main_c_123 (V0 : Valuation τ sig (Elt F)) : val8 V0 (no_index (Proc.devRef .tc main_c_123)) = fun i => lit60 (S64x64.rowMajor i) :=
  (val8_keep V0 main_c_123 (by decide)).trans (val7_main_c_123 V0)
set_option maxRecDepth 8192 in
set_option maxHeartbeats 2000000 in
theorem val8_main_v274 (V0 : Valuation τ sig (Elt F)) : val8 V0 (no_index (Proc.devRef .tc main_v274)) = acc_22 (V0 (Proc.devRef .tc main_arg0)) := by
  unfold val8
  simp only [ops7]
  after_results_simp
  simp only [val7_main_v228, val7_main_c_89, val7_main_c_90, val7_main_c_87, val7_main_c_88, val7_main_c_85, val7_main_c_86, val7_main_c_83, val7_main_c_84, val7_main_c_81, val7_main_c_82, val7_main_c_79, val7_main_c_80, val7_main_v234, val7_main_v231, val7_main_v226] <;> rfl
set_option maxRecDepth 8192 in
set_option maxHeartbeats 2000000 in
theorem val8_main_v276 (V0 : Valuation τ sig (Elt F)) : val8 V0 (no_index (Proc.devRef .tc main_v276)) = pool_23 (V0 (Proc.devRef .tc main_arg0)) := by
  unfold val8
  simp only [ops7]
  after_results_simp
  simp only [val7_main_v228] <;> rfl
set_option maxRecDepth 8192 in
set_option maxHeartbeats 2000000 in
theorem val8_main_v279 (V0 : Valuation τ sig (Elt F)) : val8 V0 (no_index (Proc.devRef .tc main_v279)) = (ixI_23 (F := F)) := by
  unfold val8
  simp only [ops7]
  after_results_simp
  simp only [val7_main_c_91, val7_main_c_92] <;> rfl
set_option maxRecDepth 8192 in
set_option maxHeartbeats 2000000 in
theorem val8_main_v282 (V0 : Valuation τ sig (Elt F)) : val8 V0 (no_index (Proc.devRef .tc main_v282)) = (ixJ_23 (F := F)) := by
  unfold val8
  simp only [ops7]
  after_results_simp
  simp only [val7_main_c_93, val7_main_c_94] <;> rfl

end Cert.RefRun

end
-- ==== Proof.RefRunW9.lean ====
/-
  The buffers that are still read after the first 9 windows, each at its term over the contents at launch: a buffer
  written earlier keeps its contents through the window, a buffer the window writes is read off the window's operations.
-/
import proofs.«156021_j19232863551513_2_alg».proof.Proof.RefRunW8

noncomputable section

namespace Cert.RefRun

open Cert.ReferenceIdeal Cert.ReferenceIdeal.Facts₀ Cert.ReferenceIdeal.Facts Cert.RefTerm
open Idealize.ShloMosaic Idealize.ShloMosaic.TcCoe Idealize.SL.Sem Idealize.ShloMosaic.StableHlo

variable {F : FTy → Type} [FloatOps F]

theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_c_111 (V0 : Valuation τ sig (Elt F)) : val9 V0 (no_index (Proc.devRef .tc main_c_111)) = (fun i => lit56 (S3.rowMajor i) : (⟨S3, .i32⟩ : BufTy).Contents (Elt F)) :=
  (val9_keep V0 main_c_111 (by decide)).trans (val8_main_c_111 V0)
theorem val9_main_c_112 (V0 : Valuation τ sig (Elt F)) : val9 V0 (no_index (Proc.devRef .tc main_c_112)) = (constantI S3 1 0#1 : (⟨S3, .i1⟩ : BufTy).Contents (Elt F)) :=
  (val9_keep V0 main_c_112 (by decide)).trans (val8_main_c_112 V0)
theorem val9_main_c_113 (V0 : Valuation τ sig (Elt F)) : val9 V0 (no_index (Proc.devRef .tc main_c_113)) = (fun i => lit57 (S3.rowMajor i) : (⟨S3, .i32⟩ : BufTy).Contents (Elt F)) :=
  (val9_keep V0 main_c_113 (by decide)).trans (val8_main_c_113 V0)
theorem val9_main_c_114 (V0 : Valuation τ sig (Elt F)) : val9 V0 (no_index (Proc.devRef .tc main_c_114)) = (constantI S3 1 0#1 : (⟨S3, .i1⟩ : BufTy).Contents (Elt F)) :=
  (val9_keep V0 main_c_114 (by decide)).trans (val8_main_c_114 V0)
theorem val9_main_c_115 (V0 : Valuation τ sig (Elt F)) : val9 V0 (no_index (Proc.devRef .tc main_c_115)) = (fun i => lit58 (S2.rowMajor i) : (⟨S2, .i32⟩ : BufTy).Contents (Elt F)) :=
  (val9_keep V0 main_c_115 (by decide)).trans (val8_main_c_115 V0)
theorem val9_main_c_116 (V0 : Valuation τ sig (Elt F)) : val9 V0 (no_index (Proc.devRef .tc main_c_116)) = (constantI S2 1 0#1 : (⟨S2, .i1⟩ : BufTy).Contents (Elt F)) :=
  (val9_keep V0 main_c_116 (by decide)).trans (val8_main_c_116 V0)
theorem val9_main_c_117 (V0 : Valuation τ sig (Elt F)) : val9 V0 (no_index (Proc.devRef .tc main_c_117)) = (fun i => lit59 (S2.rowMajor i) : (⟨S2, .i32⟩ : BufTy).Contents (Elt F)) :=
  (val9_keep V0 main_c_117 (by decide)).trans (val8_main_c_117 V0)
theorem val9_main_c_118 (V0 : Valuation τ sig (Elt F)) : val9 V0 (no_index (Proc.devRef .tc main_c_118)) = (constantI S2 1 0#1 : (⟨S2, .i1⟩ : BufTy).Contents (Elt F)) :=
  (val9_keep V0 main_c_118 (by decide)).trans (val8_main_c_118 V0)
theorem val9_main_c_119 (V0 : Valuation τ sig (Elt F)) : val9 V0 (no_index (Proc.devRef .tc main_c_119)) = (constantI S1 32 0#32 : (⟨S1, .i32⟩ : BufTy).Contents (Elt F)) :=
  (val9_keep V0 main_c_119 (by decide)).trans (val8_main_c_119 V0)
theorem val9_main_c_120 (V0 : Valuation τ sig (Elt F)) : val9 V0 (no_index (Proc.devRef .tc main_c_120)) = (constantI S1 1 0#1 : (⟨S1, .i1⟩ : BufTy).Contents (Elt F)) :=
  (val9_keep V0 main_c_120 (by decide)).trans (val8_main_c_120 V0)
theorem val9_main_c_121 (V0 : Valuation τ sig (Elt F)) : val9 V0 (no_index (Proc.devRef .tc main_c_121)) = (constantI S1 32 62#32 : (⟨S1, .i32⟩ : BufTy).Contents (Elt F)) :=
  (val9_keep V0 main_c_121 (by decide)).trans (val8_main_c_121 V0)
theorem val9_main_c_122 (V0 : Valuation τ sig (Elt F)) : val9 V0 (no_index (Proc.devRef .tc main_c_122)) = (constantI S1 1 0#1 : (⟨S1, .i1⟩ : BufTy).Contents (Elt F)) :=
  (val9_keep V0 main_c_122 (by decide)).trans (val8_main_c_122 V0)
theorem val9_main_c_123 (V0 : Valuation τ sig (Elt F)) : val9 V0 (no_index (Proc.devRef .tc main_c_123)) = fun i => lit60 (S64x64.rowMajor i) :=
  (val9_keep V0 main_c_123 (by decide)).trans (val8_main_c_123 V0)
set_option maxRecDepth 8192 in
set_option maxHeartbeats 2000000 in
theorem val9_main_v322 (V0 : Valuation τ sig (Elt F)) : val9 V0 (no_index (Proc.devRef .tc main_v322)) = acc_26 (V0 (Proc.devRef .tc main_arg0)) := by
  unfold val9
  simp only [ops8]
  after_results_simp
  simp only [val8_main_v276, val8_main_c_105, val8_main_c_106, val8_main_c_103, val8_main_c_104, val8_main_c_101, val8_main_c_102, val8_main_c_99, val8_main_c_100, val8_main_c_97, val8_main_c_98, val8_main_c_95, val8_main_c_96, val8_main_v282, val8_main_v279, val8_main_v274] <;> rfl
set_option maxRecDepth 8192 in
set_option maxHeartbeats 2000000 in
theorem val9_main_v324 (V0 : Valuation τ sig (Elt F)) : val9 V0 (no_index (Proc.devRef .tc main_v324)) = pool_27 (V0 (Proc.devRef .tc main_arg0)) := by
  unfold val9
  simp only [ops8]
  after_results_simp
  simp only [val8_main_v276] <;> rfl
set_option maxRecDepth 8192 in
set_option maxHeartbeats 2000000 in
theorem val9_main_v327 (V0 : Valuation τ sig (Elt F)) : val9 V0 (no_index (Proc.devRef .tc main_v327)) = (ixI_27 (F := F)) := by
  unfold val9
  simp only [ops8]
  after_results_simp
  simp only [val8_main_c_107, val8_main_c_108] <;> rfl
set_option maxRecDepth 8192 in
set_option maxHeartbeats 2000000 in
theorem val9_main_v330 (V0 : Valuation τ sig (Elt F)) : val9 V0 (no_index (Proc.devRef .tc main_v330)) = (ixJ_27 (F := F)) := by
  unfold val9
  simp only [ops8]
  after_results_simp
  simp only [val8_main_c_109, val8_main_c_110] <;> rfl

end Cert.RefRun

end
-- ==== Proof.RefRunW10.lean ====
/-
  The buffers that are still read after the first 10 windows, each at its term over the contents at launch: a buffer
  written earlier keeps its contents through the window, a buffer the window writes is read off the window's operations.
-/
import proofs.«156021_j19232863551513_2_alg».proof.Proof.RefRunW9

noncomputable section

namespace Cert.RefRun

open Cert.ReferenceIdeal Cert.ReferenceIdeal.Facts₀ Cert.ReferenceIdeal.Facts Cert.RefTerm
open Idealize.ShloMosaic Idealize.ShloMosaic.TcCoe Idealize.SL.Sem Idealize.ShloMosaic.StableHlo

variable {F : FTy → Type} [FloatOps F]

theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_c_123 (V0 : Valuation τ sig (Elt F)) : val10 V0 (no_index (Proc.devRef .tc main_c_123)) = fun i => lit60 (S64x64.rowMajor i) :=
  (val10_keep V0 main_c_123 (by decide)).trans (val9_main_c_123 V0)
set_option maxRecDepth 8192 in
set_option maxHeartbeats 2000000 in
theorem val10_main_v370 (V0 : Valuation τ sig (Elt F)) : val10 V0 (no_index (Proc.devRef .tc main_v370)) = acc_30 (V0 (Proc.devRef .tc main_arg0)) := by
  unfold val10
  simp only [ops9]
  after_results_simp
  simp only [val9_main_v324, val9_main_c_121, val9_main_c_122, val9_main_c_119, val9_main_c_120, val9_main_c_117, val9_main_c_118, val9_main_c_115, val9_main_c_116, val9_main_c_113, val9_main_c_114, val9_main_c_111, val9_main_c_112, val9_main_v330, val9_main_v327, val9_main_v322] <;> rfl

end Cert.RefRun

end
-- ==== Proof.RefRun.lean ====
/-
  Every weakly fair execution of the reference terminates with its first result at the term of the argument array,
  its second result at the literal table, and the argument array unchanged.
-/
import proofs.«156021_j19232863551513_2_alg».proof.Proof.RefRunW10

noncomputable section

namespace Cert.RefRun

open Cert.ReferenceIdeal Cert.ReferenceIdeal.Facts₀ Cert.ReferenceIdeal.Facts Cert.RefTerm
open Idealize.ShloMosaic Idealize.ShloMosaic.TcCoe Idealize.SL.Sem Idealize.ShloMosaic.StableHlo

variable {F : FTy → Type} [FloatOps F]

/-- For any float values. -/
theorem run_any (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v370) = res_main_v370 (m ((c.tc : Thread nD τ).loc main_arg0))
      ∧ r.2.mem ((c.tc : Thread nD τ).loc main_c_123) = (fun i => lit60 (S64x64.rowMajor i))
      ∧ r.2.mem ((c.tc : Thread nD τ).loc main_arg0) = m ((c.tc : Thread nD τ).loc main_arg0)) :=
  (θ_run defs _ _).mono (fun _ h c => ⟨(h c main_v370).trans (by simp only [after_ops]; exact val10_main_v370 (launchContents m c)),
      (h c main_c_123).trans (by simp only [after_ops]; exact val10_main_c_123 (launchContents m c)),
      (h c main_arg0).trans (by simp only [after_ops]; exact val10_main_arg0 (launchContents m c))⟩)
    (run_seq scopedRefs_eq scopedSems_eq defs main (fun _ => ops) main_eq (fun _ => ops_sub) m ρ (fun _ => ops_fresh))

/-- Over the extended reals. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v370) = res_main_v370 (m ((c.tc : Thread nD τ).loc main_arg0))
      ∧ r.2.mem ((c.tc : Thread nD τ).loc main_c_123) = (fun i => lit60 (S64x64.rowMajor i))
      ∧ r.2.mem ((c.tc : Thread nD τ).loc main_arg0) = m ((c.tc : Thread nD τ).loc main_arg0)) :=
  run_any (F := Ideal) m ρ

end Cert.RefRun

end
-- ==== Proof.RefValueSpec.lean ====
/-
  The array after the first k stages, by recursion on k, and its last value against the sparse map.

  Stage s writes entry t of its row at (stride s · t, stride s · t + off s). An entry (i, j) is hit by stage s when i is a
  multiple of stride s and j = i + off s. A f k is the map after stages 0 … k − 1, starting from zeros. Since the offsets
  of the thirty-one stages are pairwise different, the stage that hits an entry is read off j − i, which is how the
  sparse map G is written.
-/
import proofs.«156021_j19232863551513_2_alg».proof.Proof.Spec

noncomputable section

namespace Cert.RefValue

open Cert.Spec

/-- The distance between the entries stage s writes: 1 for the first fifteen stages, 2 for the next eight, then 4. -/
def stride (s : ℕ) : ℕ := if s < 15 then 1 else if s < 23 then 2 else 4

/-- The offset j − i of the entries stage s writes. -/
def off (s : ℕ) : ℕ := if s < 15 then s else if s < 23 then 16 + 2 * (s - 15) else 34 + 4 * (s - 23)

/-- Stage s writes the entry (i, j). -/
def hit (s i j : ℕ) : Prop := i % stride s = 0 ∧ j = i + off s

instance (s i j : ℕ) : Decidable (hit s i j) := by unfold hit; infer_instance

/-- The map of the row f after the first k stages: zero where no stage has written, and otherwise the entry of the
    stage that wrote last. -/
def A (f : ℕ → EReal) : ℕ → ℕ → ℕ → EReal
  | 0, _, _ => 0
  | k + 1, i, j => if hit k i j then P f k (i / stride k) else A f k i j

theorem stride_pos (s : ℕ) : 0 < stride s := by unfold stride; split_ifs <;> omega

/-- An entry that stage k < 31 writes holds, in the sparse map, entry i / stride k of stage k of the pooling chain. -/
theorem G_of_hit (f : ℕ → EReal) (k i j : ℕ) (hk : k < 31) (h : hit k i j) : G f i j = P f k (i / stride k) := by
  obtain ⟨h1, h2⟩ := h
  unfold stride at h1 ⊢
  unfold off at h2
  unfold G
  by_cases c1 : k < 15
  · simp only [c1, if_true] at h1 h2 ⊢
    have e : j - i = k := by omega
    rw [if_neg (by omega), if_pos (by omega), e, Nat.div_one]
  · by_cases c2 : k < 23
    · simp only [c1, c2, if_true, if_false] at h1 h2 ⊢
      rw [if_neg (by omega), if_neg (by omega), if_pos (by omega)]
      congr 1; omega
    · simp only [c1, c2, if_false] at h1 h2 ⊢
      rw [if_neg (by omega), if_neg (by omega), if_neg (by omega), if_pos (by omega)]
      congr 1; omega

/-- An entry inside the 64 columns that none of the thirty-one stages writes is zero in the sparse map. -/
theorem G_of_no_hit (f : ℕ → EReal) (i j : ℕ) (hj : j < 64) (h : ∀ s, s < 31 → ¬ hit s i j) : G f i j = 0 := by
  unfold G
  split_ifs with c1 c2 c3 c4
  · rfl
  · exfalso
    refine h (j - i) (by omega) ⟨?_, ?_⟩
    · unfold stride; rw [if_pos c2]; omega
    · unfold off; rw [if_pos c2]; omega
  · exfalso
    refine h (15 + (j - i - 16) / 2) (by omega) ⟨?_, ?_⟩
    · unfold stride; rw [if_neg (by omega), if_pos (by omega)]; omega
    · unfold off; rw [if_neg (by omega), if_pos (by omega)]; omega
  · exfalso
    refine h (23 + (j - i - 34) / 4) (by omega) ⟨?_, ?_⟩
    · unfold stride; rw [if_neg (by omega), if_neg (by omega)]; omega
    · unfold off; rw [if_neg (by omega), if_neg (by omega)]; omega
  · rfl

/-- After the first k ≤ 31 stages the map is the sparse map where one of those stages has written, and zero elsewhere. -/
theorem A_eq (f : ℕ → EReal) (i j : ℕ) : ∀ k, k ≤ 31 → A f k i j = if ∃ s, s < k ∧ hit s i j then G f i j else 0 := by
  intro k
  induction k with
  | zero => intro _; simp [A]
  | succ k ih =>
    intro hk
    rw [A]
    by_cases hh : hit k i j
    · rw [if_pos hh, if_pos ⟨k, Nat.lt_succ_self k, hh⟩, G_of_hit f k i j (by omega) hh]
    · rw [if_neg hh, ih (by omega)]
      have e : (∃ s, s < k + 1 ∧ hit s i j) ↔ (∃ s, s < k ∧ hit s i j) := by
        constructor
        · rintro ⟨s, hs, hs'⟩
          refine ⟨s, ?_, hs'⟩
          rcases Nat.lt_succ_iff_lt_or_eq.1 hs with h | h
          · exact h
          · subst h; exact absurd hs' hh
        · rintro ⟨s, hs, hs'⟩; exact ⟨s, by omega, hs'⟩
      simp only [e]

/-- After all thirty-one stages the map is the sparse map. -/
theorem A_31 (f : ℕ → EReal) (i j : ℕ) (hj : j < 64) : A f 31 i j = G f i j := by
  rw [A_eq f i j 31 (le_refl _)]
  split_ifs with h
  · rfl
  · exact (G_of_no_hit f i j hj (fun s hs hh => h ⟨s, hs, hh⟩)).symm

end Cert.RefValue

end
-- ==== Proof.LibScatterSet.lean ====
/-
  A scatter whose body returns the update, read at one index.

  The operand has four axes of sizes B, C, N, M; the updates have three axes of sizes B, C, n; the indices are n rows of
  two signed words. Update (b, c, t) is written at the operand entry (b, c, row t, column t), where (row t, column t) is
  row t of the index array. The scatter is a left fold, over the update indices in row-major order, of point updates.
  When the index rows are inside the operand and pairwise different, the order does not matter: the result at an entry
  named by row t is update (b, c, t), and at an entry no row names it is the operand's.
-/
import Idealize.ShloMosaic.PureOps.Ideal
import Idealize.ShloMosaic.Lib.ValueIdx

noncomputable section
namespace Cert.LibScatterSet
open Idealize.ShloMosaic Idealize.ShloMosaic.ValueIdx

/-- A left fold of point updates leaves an entry that no update targets as it was at the start. -/
theorem foldl_set_miss {ι κ α : Type} [DecidableEq κ] (tgt : ι → κ) (v : ι → α) (k : κ) :
    ∀ (l : List ι) (x : κ → α), (∀ n ∈ l, tgt n ≠ k) →
      (l.foldl (fun r n => fun i' => if i' = tgt n then v n else r i') x) k = x k := by
  intro l
  induction l with
  | nil => intro x _; rfl
  | cons a l ih =>
    intro x h
    rw [List.foldl_cons, ih _ (fun n hn => h n (List.mem_cons_of_mem _ hn))]
    exact if_neg (fun e => h a (List.mem_cons_self ..) e.symm)

/-- A left fold of point updates at pairwise different targets reads, at the target of one of them, that update's value. -/
theorem foldl_set_hit {ι κ α : Type} [DecidableEq κ] (tgt : ι → κ) (v : ι → α) (m : ι) :
    ∀ (l : List ι) (x : κ → α), l.Pairwise (fun a b => tgt a ≠ tgt b) → m ∈ l →
      (l.foldl (fun r n => fun i' => if i' = tgt n then v n else r i') x) (tgt m) = v m := by
  intro l
  induction l with
  | nil => intro x _ h; cases h
  | cons a l ih =>
    intro x hp hm
    rw [List.pairwise_cons] at hp
    rw [List.foldl_cons]
    rcases List.mem_cons.1 hm with rfl | hm
    · rw [foldl_set_miss tgt v (tgt m) l _ (fun n hn => (hp.1 n hn).symm)]
      exact if_pos rfl
    · exact ih _ hp.2 hm

variable {B C N M n w : ℕ}

/-- With update window axes 0 and 1, inserted window axes 2 and 3, scatter axes 2 and 3 and the index vector on axis 1,
    update (b, c, t) lands at (b, c, r t, c t), where r t and c t are the two signed words of index row t (given as
    positions inside the operand's last two axes, so the update is never dropped). -/
theorem resultIdx?_eq (d : ScatterDims (⟨4, ![B, C, N, M]⟩ : Shape) (⟨2, ![n, 2]⟩ : Shape) (⟨3, ![B, C, n]⟩ : Shape))
    (h1 : d.updateWindowDims = [0, 1]) (h2 : d.insertedWindowDims = [2, 3])
    (h3 : d.scatterDimsToOperandDims = [2, 3]) (h4 : d.indexVectorDim = 1)
    (idx : IVec (⟨2, ![n, 2]⟩ : Shape) w) (r : Fin n → Fin N) (c : Fin n → Fin M)
    (hr : ∀ t, (idx (ix2 t 0)).toInt = (r t).val) (hc : ∀ t, (idx (ix2 t 1)).toInt = (c t).val)
    (b : Fin B) (c' : Fin C) (t : Fin n) :
    d.resultIdx? (ix3 b c' t) idx = some (ix4 b c' (r t) (c t)) := by
  obtain ⟨uw, iw, sd, iv, wf⟩ := d
  simp only at h1 h2 h3 h4
  subst h1 h2 h3 h4
  set D : ScatterDims (⟨4, ![B, C, N, M]⟩ : Shape) (⟨2, ![n, 2]⟩ : Shape) (⟨3, ![B, C, n]⟩ : Shape) := ⟨[0, 1], [2, 3], [2, 3], 1, wf⟩ with hD
  set j : (⟨3, ![B, C, n]⟩ : Shape).Idx := ix3 b c' t with hj
  have hw0 : D.window j 0 = b.val := rfl
  have hw1 : D.window j 1 = c'.val := rfl
  have hw2 : D.window j 2 = 0 := rfl
  have hw3 : D.window j 3 = 0 := rfl
  have hs0 : D.start j idx 0 = 0 := rfl
  have hs1 : D.start j idx 1 = 0 := rfl
  have hsi0 : D.siIdx j (0 : Fin 2) = ix2 t 0 := by funext a; fin_cases a <;> rfl
  have hsi1 : D.siIdx j (1 : Fin 2) = ix2 t 1 := by funext a; fin_cases a <;> rfl
  have hs2 : D.start j idx 2 = (r t).val :=
    (show D.start j idx 2 = (idx (D.siIdx j (0 : Fin 2))).toInt from rfl).trans ((congrArg (fun z => (idx z).toInt) hsi0).trans (hr t))
  have hs3 : D.start j idx 3 = (c t).val :=
    (show D.start j idx 3 = (idx (D.siIdx j (1 : Fin 2))).toInt from rfl).trans ((congrArg (fun z => (idx z).toInt) hsi1).trans (hc t))
  have hs : ∀ a, D.start j idx a + D.window j a = ((ix4 b c' (r t) (c t) a).val : ℤ) := by
    intro a
    fin_cases a
    · show D.start j idx 0 + D.window j 0 = (b.val : ℤ)
      rw [hs0, hw0]; simp
    · show D.start j idx 1 + D.window j 1 = (c'.val : ℤ)
      rw [hs1, hw1]; simp
    · show D.start j idx 2 + D.window j 2 = ((r t).val : ℤ)
      rw [hs2, hw2]; simp
    · show D.start j idx 3 + D.window j 3 = ((c t).val : ℤ)
      rw [hs3, hw3]; simp
  have hall : ∀ a, 0 ≤ D.start j idx a + D.window j a ∧ D.start j idx a + D.window j a < (⟨4, ![B, C, N, M]⟩ : Shape).size a := by
    intro a
    rw [hs a]
    exact ⟨Int.natCast_nonneg _, by exact_mod_cast (ix4 b c' (r t) (c t) a).isLt⟩
  rw [ScatterDims.resultIdx?, dif_pos hall]
  congr 1
  funext a
  apply Fin.ext
  show (D.start j idx a + D.window j a).toNat = _
  rw [hs a]; simp

/-- Where the update at index `j` lands: its two leading coordinates kept, the row and column read off the tables. -/
def tgt (r : Fin n → Fin N) (c : Fin n → Fin M) (j : (⟨3, ![B, C, n]⟩ : Shape).Idx) : (⟨4, ![B, C, N, M]⟩ : Shape).Idx :=
  ix4 (n0 := B) (n1 := C) (j 0) (j 1) (r (j 2)) (c (j 2))

/-- The landing place of update (b, c, t). -/
theorem tgt_ix3 (r : Fin n → Fin N) (c : Fin n → Fin M) (b : Fin B) (c' : Fin C) (t : Fin n) :
    tgt r c (ix3 b c' t) = ix4 b c' (r t) (c t) := rfl

/-- Different update indices land at different places when no two table rows name the same (row, column). -/
theorem tgt_injective (r : Fin n → Fin N) (c : Fin n → Fin M) (hinj : ∀ t t', r t = r t' → c t = c t' → t = t') :
    Function.Injective (tgt (B := B) (C := C) r c) := by
  intro j j' h
  have e0 : j 0 = j' 0 := congrFun h 0
  have e1 : j 1 = j' 1 := congrFun h 1
  have e2 : r (j 2) = r (j' 2) := congrFun h 2
  have e3 : c (j 2) = c (j' 2) := congrFun h 3
  have e4 : j 2 = j' 2 := hinj _ _ e2 e3
  funext a
  fin_cases a
  · exact e0
  · exact e1
  · exact e4

/-- The same for an update index not split into its coordinates. -/
theorem resultIdx?_eq' (d : ScatterDims (⟨4, ![B, C, N, M]⟩ : Shape) (⟨2, ![n, 2]⟩ : Shape) (⟨3, ![B, C, n]⟩ : Shape))
    (h1 : d.updateWindowDims = [0, 1]) (h2 : d.insertedWindowDims = [2, 3])
    (h3 : d.scatterDimsToOperandDims = [2, 3]) (h4 : d.indexVectorDim = 1)
    (idx : IVec (⟨2, ![n, 2]⟩ : Shape) w) (r : Fin n → Fin N) (c : Fin n → Fin M)
    (hr : ∀ t, (idx (ix2 t 0)).toInt = (r t).val) (hc : ∀ t, (idx (ix2 t 1)).toInt = (c t).val)
    (j : (⟨3, ![B, C, n]⟩ : Shape).Idx) :
    d.resultIdx? j idx = some (tgt r c j) := by
  have h := resultIdx?_eq d h1 h2 h3 h4 idx r c hr hc (j 0) (j 1) (j 2)
  have e : j = ix3 (j 0) (j 1) (j 2) := eq_ix3 j
  exact (congrArg (fun z => d.resultIdx? z idx) e).trans h

/-- The scatter is the left fold of the point updates "entry (landing place of j) becomes update j" over the update
    indices in row-major order. -/
theorem scatter_set_eq_foldl {α : Type} (d : ScatterDims (⟨4, ![B, C, N, M]⟩ : Shape) (⟨2, ![n, 2]⟩ : Shape) (⟨3, ![B, C, n]⟩ : Shape))
    (h1 : d.updateWindowDims = [0, 1]) (h2 : d.insertedWindowDims = [2, 3])
    (h3 : d.scatterDimsToOperandDims = [2, 3]) (h4 : d.indexVectorDim = 1)
    (x : (⟨4, ![B, C, N, M]⟩ : Shape).Idx → α) (idx : IVec (⟨2, ![n, 2]⟩ : Shape) w) (upd : (⟨3, ![B, C, n]⟩ : Shape).Idx → α)
    (r : Fin n → Fin N) (c : Fin n → Fin M)
    (hr : ∀ t, (idx (ix2 t 0)).toInt = (r t).val) (hc : ∀ t, (idx (ix2 t 1)).toInt = (c t).val) :
    Host.scatter d (fun _ v => v) x idx upd =
      (List.finRange (⟨3, ![B, C, n]⟩ : Shape).numel).foldl
        (fun acc m => fun i' => if i' = tgt r c ((⟨3, ![B, C, n]⟩ : Shape).rowMajor.symm m) then upd ((⟨3, ![B, C, n]⟩ : Shape).rowMajor.symm m) else acc i') x := by
  unfold Host.scatter
  congr 1
  funext acc m
  rw [resultIdx?_eq' d h1 h2 h3 h4 idx r c hr hc]

/-- An entry (b, c, p, q) with (p, q) not among the index rows keeps the operand's value. -/
theorem scatter_set_miss {α : Type} (d : ScatterDims (⟨4, ![B, C, N, M]⟩ : Shape) (⟨2, ![n, 2]⟩ : Shape) (⟨3, ![B, C, n]⟩ : Shape))
    (h1 : d.updateWindowDims = [0, 1]) (h2 : d.insertedWindowDims = [2, 3])
    (h3 : d.scatterDimsToOperandDims = [2, 3]) (h4 : d.indexVectorDim = 1)
    (x : (⟨4, ![B, C, N, M]⟩ : Shape).Idx → α) (idx : IVec (⟨2, ![n, 2]⟩ : Shape) w) (upd : (⟨3, ![B, C, n]⟩ : Shape).Idx → α)
    (r : Fin n → Fin N) (c : Fin n → Fin M)
    (hr : ∀ t, (idx (ix2 t 0)).toInt = (r t).val) (hc : ∀ t, (idx (ix2 t 1)).toInt = (c t).val)
    (b : Fin B) (c' : Fin C) (p : Fin N) (q : Fin M) (hmiss : ∀ t, ¬ (r t = p ∧ c t = q)) :
    Host.scatter d (fun _ v => v) x idx upd (ix4 b c' p q) = x (ix4 b c' p q) := by
  rw [scatter_set_eq_foldl d h1 h2 h3 h4 x idx upd r c hr hc]
  apply foldl_set_miss
  intro m _ he
  exact hmiss _ ⟨congrFun he 2, congrFun he 3⟩

/-- When the index rows are pairwise different, the entry (b, c, r t, c t) named by row t holds update (b, c, t). -/
theorem scatter_set_hit {α : Type} (d : ScatterDims (⟨4, ![B, C, N, M]⟩ : Shape) (⟨2, ![n, 2]⟩ : Shape) (⟨3, ![B, C, n]⟩ : Shape))
    (h1 : d.updateWindowDims = [0, 1]) (h2 : d.insertedWindowDims = [2, 3])
    (h3 : d.scatterDimsToOperandDims = [2, 3]) (h4 : d.indexVectorDim = 1)
    (x : (⟨4, ![B, C, N, M]⟩ : Shape).Idx → α) (idx : IVec (⟨2, ![n, 2]⟩ : Shape) w) (upd : (⟨3, ![B, C, n]⟩ : Shape).Idx → α)
    (r : Fin n → Fin N) (c : Fin n → Fin M)
    (hr : ∀ t, (idx (ix2 t 0)).toInt = (r t).val) (hc : ∀ t, (idx (ix2 t 1)).toInt = (c t).val)
    (hinj : ∀ t t', r t = r t' → c t = c t' → t = t')
    (b : Fin B) (c' : Fin C) (t : Fin n) :
    Host.scatter d (fun _ v => v) x idx upd (ix4 b c' (r t) (c t)) = upd (ix3 b c' t) := by
  rw [scatter_set_eq_foldl d h1 h2 h3 h4 x idx upd r c hr hc]
  have e : (⟨3, ![B, C, n]⟩ : Shape).rowMajor.symm ((⟨3, ![B, C, n]⟩ : Shape).rowMajor (ix3 b c' t)) = ix3 b c' t :=
    Equiv.symm_apply_apply _ _
  have hp : (List.finRange (⟨3, ![B, C, n]⟩ : Shape).numel).Pairwise
      (fun m m' => tgt r c ((⟨3, ![B, C, n]⟩ : Shape).rowMajor.symm m) ≠ tgt r c ((⟨3, ![B, C, n]⟩ : Shape).rowMajor.symm m')) :=
    (List.nodup_finRange _).imp (fun hne he => hne ((⟨3, ![B, C, n]⟩ : Shape).rowMajor.symm.injective (tgt_injective r c hinj he)))
  have key := foldl_set_hit (fun m => tgt r c ((⟨3, ![B, C, n]⟩ : Shape).rowMajor.symm m))
    (fun m => upd ((⟨3, ![B, C, n]⟩ : Shape).rowMajor.symm m)) ((⟨3, ![B, C, n]⟩ : Shape).rowMajor (ix3 b c' t))
    (List.finRange _) x hp (List.mem_finRange _)
  simp only [e, tgt_ix3] at key
  exact key

end Cert.LibScatterSet
end
-- ==== Proof.LibPoolWindow.lean ====
/-
  A windowed maximum along the last axis of a three-axis array of extended reals, read at one index.

  The windowed reduction is a left fold of the maximum from the initial value over the positions of the window in
  row-major order. For a window that spans only the last axis (sizes 1, 1, k at strides 1, 1, st, no padding) position m
  of the window of result entry (b, c, t) is operand entry (b, c, t·st + m); with the initial value −∞ (the least
  extended real) the fold is the maximum of those k entries.
-/
import Idealize.ShloMosaic.PureOps.Ideal
import Idealize.ShloMosaic.PureOps.Contract
import Idealize.ShloMosaic.Lib.ValueIdx

noncomputable section
namespace Cert.LibPoolWindow
open Idealize.ShloMosaic Idealize.ShloMosaic.ValueIdx

/-- A left fold over the positions below `m`, where `m = k`, is the same fold over the positions below `k`. -/
theorem foldl_finRange_cast {β : Type} {m k : ℕ} (h : m = k) (g : β → Fin m → β) (v : β) :
    (List.finRange m).foldl g v = (List.finRange k).foldl (fun r i => g r (i.cast h.symm)) v := by
  subst h; rfl

/-- A window of sizes 1, 1, k has k positions. -/
theorem window_numel (k : ℕ) : (⟨3, ![1, 1, k]⟩ : Shape).numel = k := by
  simp [Shape.numel, Fin.prod_univ_succ]

/-- Position m of a window of sizes 1, 1, k in row-major order is (0, 0, m). -/
theorem window_coord (k : ℕ) (m : Fin (⟨3, ![1, 1, k]⟩ : Shape).numel) :
    (((⟨3, ![1, 1, k]⟩ : Shape).rowMajor.symm m) 0).val = 0 ∧ (((⟨3, ![1, 1, k]⟩ : Shape).rowMajor.symm m) 1).val = 0
      ∧ (((⟨3, ![1, 1, k]⟩ : Shape).rowMajor.symm m) 2).val = m.val := by
  set i := (⟨3, ![1, 1, k]⟩ : Shape).rowMajor.symm m with hi
  have h0 : (i 0).val = 0 := by have := (i 0).isLt; simp at this; omega
  have h1 : (i 1).val = 0 := by have := (i 1).isLt; simp at this; omega
  have hm : ((⟨3, ![1, 1, k]⟩ : Shape).rowMajor i).val = m.val := by rw [hi, Equiv.apply_symm_apply]
  rw [Shape.rowMajor_val_three] at hm
  simp [h0, h1] at hm
  exact ⟨h0, h1, hm⟩

variable {B C L L' k st : ℕ} {u : Shape}

/-- A windowed maximum with window sizes 1, 1, k, strides 1, 1, st and no padding, from the initial value −∞: entry
    (b, c, t) of the result is the left fold of the maximum, from −∞, over the operand's entries (b, c, t·st + m), m < k. -/
theorem reduceWindow_max_eq_foldl (x : FVec Ideal (⟨3, ![B, C, L]⟩ : Shape) .f32) (init : FVec Ideal u .f32)
    (h : (⟨3, ![B, C, L]⟩ : Shape).ReduceWindows ![1, 1, k] ![1, 1, st] ![0, 0, 0] ![0, 0, 0] (⟨3, ![B, C, L']⟩ : Shape))
    (hu : 0 < u.numel) (hinit : init (Shape.Idx.first hu) = (⊥ : EReal))
    (b : Fin B) (c : Fin C) (t : Fin L') (hb : ∀ m, m < k → t.val * st + m < L) :
    Host.reduceWindow FloatOps.maximumf ![1, 1, k] ![1, 1, st] ![0, 0, 0] ![0, 0, 0] x init h hu (ix3 b c t)
      = (List.finRange k).foldl (fun (r : EReal) (m : Fin k) => max r (x (ix3 b c ⟨t.val * st + m.val, hb m.val m.isLt⟩))) ⊥ := by
  unfold Host.reduceWindow
  simp only []
  rw [hinit]
  refine (foldl_finRange_cast (window_numel k) _ _).trans ?_
  congr 1
  funext r m
  obtain ⟨w0, w1, w2⟩ := window_coord k (Fin.cast (window_numel k).symm m)
  have hm := hb m.val m.isLt
  split_ifs with hin
  · show max r (x _) = max r (x _)
    congr 2
    funext a
    fin_cases a
    · apply Fin.ext; simp [w0]
    · apply Fin.ext; simp [w1]
    · apply Fin.ext; simp [w2]
  · exfalso
    apply hin
    intro a
    fin_cases a
    · simp [w0]
    · simp [w1]
    · simp [w2]; exact hm

/-- Windows of 2 at stride 1 along the last axis, from the initial value −∞: entry t of the result is the larger of
    entries t and t + 1 of the operand. -/
theorem reduceWindow_max_w2s1 (x : FVec Ideal (⟨3, ![B, C, L]⟩ : Shape) .f32) (init : FVec Ideal u .f32)
    (h : (⟨3, ![B, C, L]⟩ : Shape).ReduceWindows ![1, 1, 2] ![1, 1, 1] ![0, 0, 0] ![0, 0, 0] (⟨3, ![B, C, L']⟩ : Shape))
    (hu : 0 < u.numel) (hinit : init (Shape.Idx.first hu) = (⊥ : EReal))
    (b : Fin B) (c : Fin C) (t : Fin L') (h0 : t.val < L) (h1 : t.val + 1 < L) :
    Host.reduceWindow FloatOps.maximumf ![1, 1, 2] ![1, 1, 1] ![0, 0, 0] ![0, 0, 0] x init h hu (ix3 b c t)
      = max (x (ix3 b c ⟨t.val, h0⟩)) (x (ix3 b c ⟨t.val + 1, h1⟩)) := by
  rw [reduceWindow_max_eq_foldl x init h hu hinit b c t (by intro m hm; omega)]
  simp [List.finRange_succ]

/-- Windows of 3 at stride 2 along the last axis, from the initial value −∞: entry t of the result is the largest of
    entries 2t, 2t + 1 and 2t + 2 of the operand. -/
theorem reduceWindow_max_w3s2 (x : FVec Ideal (⟨3, ![B, C, L]⟩ : Shape) .f32) (init : FVec Ideal u .f32)
    (h : (⟨3, ![B, C, L]⟩ : Shape).ReduceWindows ![1, 1, 3] ![1, 1, 2] ![0, 0, 0] ![0, 0, 0] (⟨3, ![B, C, L']⟩ : Shape))
    (hu : 0 < u.numel) (hinit : init (Shape.Idx.first hu) = (⊥ : EReal))
    (b : Fin B) (c : Fin C) (t : Fin L') (h0 : 2 * t.val < L) (h1 : 2 * t.val + 1 < L) (h2 : 2 * t.val + 2 < L) :
    Host.reduceWindow FloatOps.maximumf ![1, 1, 3] ![1, 1, 2] ![0, 0, 0] ![0, 0, 0] x init h hu (ix3 b c t)
      = max (max (x (ix3 b c ⟨2 * t.val, h0⟩)) (x (ix3 b c ⟨2 * t.val + 1, h1⟩))) (x (ix3 b c ⟨2 * t.val + 2, h2⟩)) := by
  rw [reduceWindow_max_eq_foldl x init h hu hinit b c t (by intro m hm; omega)]
  simp [List.finRange_succ, Nat.mul_comm]

end Cert.LibPoolWindow
end
-- ==== Proof.RefValueStep.lean ====
/-
  One stage of the reference, over an abstract previous stage.

  Each stage reads its index array (two literal columns side by side, each passed through a selection whose mask is the
  constant false), pools the previous row array by a windowed maximum, and writes the pooled rows into the map by a
  scatter whose body returns the update. The lemmas here state each of the three steps for any row length, any previous
  row array and any previous map, so that the thirty-one stages are thirty-one instances.
-/
import proofs.«156021_j19232863551513_2_alg».proof.Proof.Spec
import proofs.«156021_j19232863551513_2_alg».proof.Proof.RefValueSpec
import proofs.«156021_j19232863551513_2_alg».proof.Proof.LibScatterSet
import proofs.«156021_j19232863551513_2_alg».proof.Proof.LibPoolWindow
import Idealize.ShloMosaic.Lib.Pipeline.Value

noncomputable section

namespace Cert.RefValue

open Idealize.ShloMosaic Idealize.ShloMosaic.ValueIdx Cert.Spec

/-! ## The index array -/

/-- A selection whose mask is the constant false reads its second operand. -/
theorem select_false_apply {s : Shape} {α : Type} (a b : s.Idx → α) (i : s.Idx) :
    select (constantI s 1 0#1) a b i = b i := select_zero _ _

/-- A column of n entries stretched to an n by 1 array reads, at (t, 0), its entry t. -/
theorem column_apply {α : Type} {n : ℕ} (hb : (⟨1, ![n]⟩ : Shape).BroadcastsInDim (⟨2, ![n, 1]⟩ : Shape) ![0])
    (I : (⟨1, ![n]⟩ : Shape).Idx → α) (t : Fin n) (z : Fin 1) :
    broadcastInDim (⟨2, ![n, 1]⟩ : Shape) ![0] hb I (ix2 t z) = I (ix1 t) := by
  apply broadcastInDim_apply
  intro a
  fin_cases a
  show t.val = if n = 1 then 0 else t.val
  split_ifs with h
  · have := t.isLt; omega
  · rfl

/-- Two columns side by side: the entry (t, 0) is entry t of the first column. -/
theorem idx_col0 {α : Type} {n : ℕ} (hb : (⟨1, ![n]⟩ : Shape).BroadcastsInDim (⟨2, ![n, 1]⟩ : Shape) ![0])
    (hcat : Shape.Concatenates [(⟨2, ![n, 1]⟩ : Shape), (⟨2, ![n, 1]⟩ : Shape)] (⟨2, ![n, 2]⟩ : Shape) 1)
    (I J : (⟨1, ![n]⟩ : Shape).Idx → α) (t : Fin n) :
    concatenate (⟨2, ![n, 2]⟩ : Shape) 1 [⟨(⟨2, ![n, 1]⟩ : Shape), broadcastInDim (⟨2, ![n, 1]⟩ : Shape) ![0] hb I⟩,
      ⟨(⟨2, ![n, 1]⟩ : Shape), broadcastInDim (⟨2, ![n, 1]⟩ : Shape) ![0] hb J⟩] hcat (ix2 t 0) = I (ix1 t) := by
  rw [concatenate_pair_apply_left (t := (⟨2, ![n, 2]⟩ : Shape)) (1 : Fin 2) _ _ hcat (ix2 t (0 : Fin 2)) rfl (ix2 t (0 : Fin 1)) (by intro b; fin_cases b <;> rfl)]
  exact column_apply hb I t 0

/-- Two columns side by side: the entry (t, 1) is entry t of the second column. -/
theorem idx_col1 {α : Type} {n : ℕ} (hb : (⟨1, ![n]⟩ : Shape).BroadcastsInDim (⟨2, ![n, 1]⟩ : Shape) ![0])
    (hcat : Shape.Concatenates [(⟨2, ![n, 1]⟩ : Shape), (⟨2, ![n, 1]⟩ : Shape)] (⟨2, ![n, 2]⟩ : Shape) 1)
    (I J : (⟨1, ![n]⟩ : Shape).Idx → α) (t : Fin n) :
    concatenate (⟨2, ![n, 2]⟩ : Shape) 1 [⟨(⟨2, ![n, 1]⟩ : Shape), broadcastInDim (⟨2, ![n, 1]⟩ : Shape) ![0] hb I⟩,
      ⟨(⟨2, ![n, 1]⟩ : Shape), broadcastInDim (⟨2, ![n, 1]⟩ : Shape) ![0] hb J⟩] hcat (ix2 t 1) = J (ix1 t) := by
  rw [concatenate_pair_apply_right (t := (⟨2, ![n, 2]⟩ : Shape)) (1 : Fin 2) _ _ hcat (ix2 t (1 : Fin 2)) rfl rfl (ix2 t (0 : Fin 1))
    (by intro b hb'; fin_cases b
        · rfl
        · exact absurd rfl hb')
    (by rfl)]
  exact column_apply hb J t 0

/-- The position of entry t in a one-axis array of n entries is t. -/
theorem rowMajor_ix1 {n : ℕ} (t : Fin n) : ((⟨1, ![n]⟩ : Shape).rowMajor (ix1 t)).val = t.val :=
  Shape.rowMajor_val_one _

/-! ## The pooled rows -/

/-- The initial value of the reference's windowed maxima, the scalar with the bits of −∞, is the least extended real. -/
theorem init_bot (hb : (⟨0, ![]⟩ : Shape).BroadcastsInDim (⟨0, ![]⟩ : Shape) ![]) (hu : 0 < (⟨0, ![]⟩ : Shape).numel) :
    broadcastInDim (⟨0, ![]⟩ : Shape) ![] hb (constant (F := Ideal) (⟨0, ![]⟩ : Shape) .f32 0xFF800000#32) (Shape.Idx.first hu)
      = (⊥ : EReal) := by
  show Ideal.ofBits .f32 0xFF800000#32 = ⊥
  simp [Ideal.ofBits, Ideal.ieee]

/-- The array of zeros the reference starts from is zero at every entry. -/
theorem zeros_apply {t : Shape} (hb : (⟨0, ![]⟩ : Shape).BroadcastsInDim t ![]) (i : t.Idx) :
    broadcastInDim t ![] hb (constant (F := Ideal) (⟨0, ![]⟩ : Shape) .f32 0x00000000#32) i = (0 : EReal) := by
  show Ideal.ofBits .f32 0x00000000#32 = 0
  simp [Ideal.ofBits, Ideal.ieee]

/-- A stage that pools neighbours: if the previous row array is stage s of the pooling chain of every row, the
    windowed maximum (windows of 2, stride 1) of it is stage s + 1. -/
theorem pool_step2 {L L' : ℕ} {u : Shape} (x : FVec Ideal S32x512x64 .f32)
    (prev : FVec Ideal (⟨3, ![32, 512, L]⟩ : Shape) .f32) (init : FVec Ideal u .f32)
    (h : (⟨3, ![32, 512, L]⟩ : Shape).ReduceWindows ![1, 1, 2] ![1, 1, 1] ![0, 0, 0] ![0, 0, 0] (⟨3, ![32, 512, L']⟩ : Shape))
    (hu : 0 < u.numel) (hinit : init (Shape.Idx.first hu) = (⊥ : EReal))
    (s : ℕ) (hs : ¬ (s + 1 = 15 ∨ s + 1 = 23)) (hL : L' + 1 ≤ L)
    (hprev : ∀ (b : Fin 32) (c : Fin 512) (t : Fin L), prev (ix3 b c t) = P (rowOf x b c) s t.val) :
    ∀ (b : Fin 32) (c : Fin 512) (t : Fin L'),
      Host.reduceWindow FloatOps.maximumf ![1, 1, 2] ![1, 1, 1] ![0, 0, 0] ![0, 0, 0] prev init h hu (ix3 b c t)
        = P (rowOf x b c) (s + 1) t.val := by
  intro b c t
  have ht := t.isLt
  rw [LibPoolWindow.reduceWindow_max_w2s1 prev init h hu hinit b c t (by omega) (by omega), hprev, hprev]
  rw [P, if_neg hs]
  rfl

/-- A stage that pools three at every second position: if the previous row array is stage s of the pooling chain of
    every row, the windowed maximum (windows of 3, stride 2) of it is stage s + 1. -/
theorem pool_step3 {L L' : ℕ} {u : Shape} (x : FVec Ideal S32x512x64 .f32)
    (prev : FVec Ideal (⟨3, ![32, 512, L]⟩ : Shape) .f32) (init : FVec Ideal u .f32)
    (h : (⟨3, ![32, 512, L]⟩ : Shape).ReduceWindows ![1, 1, 3] ![1, 1, 2] ![0, 0, 0] ![0, 0, 0] (⟨3, ![32, 512, L']⟩ : Shape))
    (hu : 0 < u.numel) (hinit : init (Shape.Idx.first hu) = (⊥ : EReal))
    (s : ℕ) (hs : s + 1 = 15 ∨ s + 1 = 23) (hL : 2 * L' + 1 ≤ L)
    (hprev : ∀ (b : Fin 32) (c : Fin 512) (t : Fin L), prev (ix3 b c t) = P (rowOf x b c) s t.val) :
    ∀ (b : Fin 32) (c : Fin 512) (t : Fin L'),
      Host.reduceWindow FloatOps.maximumf ![1, 1, 3] ![1, 1, 2] ![0, 0, 0] ![0, 0, 0] prev init h hu (ix3 b c t)
        = P (rowOf x b c) (s + 1) t.val := by
  intro b c t
  have ht := t.isLt
  rw [LibPoolWindow.reduceWindow_max_w3s2 prev init h hu hinit b c t (by omega) (by omega) (by omega), hprev, hprev, hprev]
  rw [P, if_pos hs]
  rfl

/-! ## The map -/

/-- One stage's scatter: if the previous map is the map after the first k stages and the update rows are stage k of
    the pooling chain, written at the rows (stride k · t, stride k · t + off k) for exactly the t that stay inside the
    64 columns, the result is the map after the first k + 1 stages. -/
theorem acc_step {n : ℕ} (k : ℕ) (x : FVec Ideal S32x512x64 .f32)
    (d : ScatterDims S32x512x64x64 (⟨2, ![n, 2]⟩ : Shape) (⟨3, ![32, 512, n]⟩ : Shape))
    (h1 : d.updateWindowDims = [0, 1]) (h2 : d.insertedWindowDims = [2, 3])
    (h3 : d.scatterDimsToOperandDims = [2, 3]) (h4 : d.indexVectorDim = 1)
    (prev : FVec Ideal S32x512x64x64 .f32) (idx : IVec (⟨2, ![n, 2]⟩ : Shape) 32)
    (upd : FVec Ideal (⟨3, ![32, 512, n]⟩ : Shape) .f32)
    (hI : ∀ t : Fin n, (idx (ix2 t 0)).toInt = ((stride k * t.val : ℕ) : ℤ))
    (hJ : ∀ t : Fin n, (idx (ix2 t 1)).toInt = ((stride k * t.val + off k : ℕ) : ℤ))
    (hn : ∀ t : ℕ, stride k * t + off k < 64 ↔ t < n)
    (hprev : ∀ (b : Fin 32) (c : Fin 512) (i j : Fin 64), prev (ix4 b c i j) = A (rowOf x b c) k i.val j.val)
    (hupd : ∀ (b : Fin 32) (c : Fin 512) (t : Fin n), upd (ix3 b c t) = P (rowOf x b c) k t.val) :
    ∀ (b : Fin 32) (c : Fin 512) (i j : Fin 64),
      Host.scatter d (fun _ v => v) prev idx upd (ix4 b c i j) = A (rowOf x b c) (k + 1) i.val j.val := by
  intro b c i j
  have hsp := stride_pos k
  let r : Fin n → Fin 64 := fun t => ⟨stride k * t.val, by have := (hn t.val).2 t.isLt; omega⟩
  let q : Fin n → Fin 64 := fun t => ⟨stride k * t.val + off k, (hn t.val).2 t.isLt⟩
  have hr : ∀ t, (idx (ix2 t 0)).toInt = ((r t).val : ℤ) := hI
  have hq : ∀ t, (idx (ix2 t 1)).toInt = ((q t).val : ℤ) := hJ
  have hinj : ∀ t t', r t = r t' → q t = q t' → t = t' := by
    intro t t' e _
    have e' : stride k * t.val = stride k * t'.val := congrArg Fin.val e
    exact Fin.ext (Nat.eq_of_mul_eq_mul_left hsp e')
  rw [A]
  by_cases hh : hit k i.val j.val
  · rw [if_pos hh]
    obtain ⟨hh1, hh2⟩ := hh
    have hmul : stride k * (i.val / stride k) = i.val := Nat.mul_div_cancel' (Nat.dvd_of_mod_eq_zero hh1)
    have ht : i.val / stride k < n := (hn _).1 (by rw [hmul, ← hh2]; exact j.isLt)
    have ei : r ⟨i.val / stride k, ht⟩ = i := Fin.ext hmul
    have ej : q ⟨i.val / stride k, ht⟩ = j := Fin.ext (by show stride k * (i.val / stride k) + off k = j.val; rw [hmul]; exact hh2.symm)
    have key := LibScatterSet.scatter_set_hit d h1 h2 h3 h4 prev idx upd r q hr hq hinj b c ⟨i.val / stride k, ht⟩
    rw [ei, ej] at key
    rw [key, hupd]
  · rw [if_neg hh]
    have hmiss : ∀ t, ¬ (r t = i ∧ q t = j) := by
      rintro t ⟨e1, e2⟩
      have e1' : stride k * t.val = i.val := congrArg Fin.val e1
      have e2' : stride k * t.val + off k = j.val := congrArg Fin.val e2
      exact hh ⟨by rw [← e1']; exact Nat.mul_mod_right _ _, by omega⟩
    rw [LibScatterSet.scatter_set_miss d h1 h2 h3 h4 prev idx upd r q hr hq b c i j hmiss, hprev]

/-- A literal table read at a position whose value is t: the table's entry t. -/
theorem table_read {n : ℕ} (lit : Fin n → BitVec 32) (g : ℕ → ℤ) (htab : ∀ m : Fin n, (lit m).toInt = g m.val)
    (m t : Fin n) (hm : m.val = t.val) : (lit m).toInt = g t.val := by rw [htab, hm]

end Cert.RefValue

end
-- ==== Proof.RefValueStages.lean ====
/-
  The thirty-one stages of the reference, each an instance of the stage lemmas: the two index tables of stage s are
  the affine functions t ↦ stride s · t and t ↦ stride s · t + off s (decided entry by entry), the pooled rows are
  stage s of the pooling chain of every row, and the map after stage s is the map after the first s + 1 stages.
-/
import proofs.«156021_j19232863551513_2_alg».proof.Proof.RefTerm
import proofs.«156021_j19232863551513_2_alg».proof.Proof.RefValueStep

noncomputable section

namespace Cert.RefValue

open Idealize.ShloMosaic Idealize.ShloMosaic.ValueIdx Cert.RefTerm
open Cert.Spec (P rowOf)
open Cert.ReferenceIdeal Cert.ReferenceIdeal.Facts₀ Cert.ReferenceIdeal.Facts

/-- Stage 0 of the pooling chain is the row itself. -/
theorem pool_0_eq (x : FVec Ideal S32x512x64 .f32) :
    ∀ (b : Fin 32) (c : Fin 512) (t : Fin 64), pool_0 (F := Ideal) x (ix3 b c t) = P (rowOf x b c) 0 t.val := by
  intro b c t
  show x (ix3 b c t) = rowOf x b c t.val
  unfold rowOf
  rw [dif_pos t.isLt]

/-! ## Stage 0: 64 entries at stride 1, offset 0 -/

theorem tabI_0 : ∀ m : Fin 64, (lit0 m).toInt = ((1 * m.val : ℕ) : ℤ) := by decide
theorem tabJ_0 : ∀ m : Fin 64, (lit1 m).toInt = ((1 * m.val + 0 : ℕ) : ℤ) := by decide
theorem idxI_0 (t : Fin 64) : ((idx_0 (F := Ideal)) (ix2 t 0)).toInt = ((stride 0 * t.val : ℕ) : ℤ) :=
  (congrArg BitVec.toInt ((idx_col0 bcast_S64_S64x1_0 concatenates_S64x1_S64x1_S64x2_d1 (ixI_0 (F := Ideal)) (ixJ_0 (F := Ideal)) t).trans
    (select_false_apply _ _ (ix1 t)))).trans
    (table_read lit0 (fun m => ((1 * m : ℕ) : ℤ)) tabI_0 (S64.rowMajor (ix1 t)) t (rowMajor_ix1 t))
theorem idxJ_0 (t : Fin 64) : ((idx_0 (F := Ideal)) (ix2 t 1)).toInt = ((stride 0 * t.val + off 0 : ℕ) : ℤ) :=
  (congrArg BitVec.toInt ((idx_col1 bcast_S64_S64x1_0 concatenates_S64x1_S64x1_S64x2_d1 (ixI_0 (F := Ideal)) (ixJ_0 (F := Ideal)) t).trans
    (select_false_apply _ _ (ix1 t)))).trans
    (table_read lit1 (fun m => ((1 * m + 0 : ℕ) : ℤ)) tabJ_0 (S64.rowMajor (ix1 t)) t (rowMajor_ix1 t))
theorem acc_0_eq (x : FVec Ideal S32x512x64 .f32) :
    ∀ (b : Fin 32) (c : Fin 512) (i j : Fin 64), acc_0 (F := Ideal) x (ix4 b c i j) = A (rowOf x b c) 1 i.val j.val :=
  acc_step 0 x scatter_S32x512x64x64_S64x2_S32x512x64_01_23_23_1 rfl rfl rfl rfl (broadcastInDim S32x512x64x64 ![] bcast_S_S32x512x64x64 (constant (F := Ideal) S_ .f32 0x00000000#32))
    (idx_0 (F := Ideal)) (pool_0 (F := Ideal) x) idxI_0 idxJ_0
    (by intro t; rw [show stride 0 = 1 by decide, show off 0 = 0 by decide]; omega) (fun b c i j => zeros_apply bcast_S_S32x512x64x64 (ix4 b c i j)) (pool_0_eq x)

/-! ## Stage 1: 63 entries at stride 1, offset 1 -/

theorem tabI_1 : ∀ m : Fin 63, (lit2 m).toInt = ((1 * m.val : ℕ) : ℤ) := by decide
theorem tabJ_1 : ∀ m : Fin 63, (lit3 m).toInt = ((1 * m.val + 1 : ℕ) : ℤ) := by decide
theorem idxI_1 (t : Fin 63) : ((idx_1 (F := Ideal)) (ix2 t 0)).toInt = ((stride 1 * t.val : ℕ) : ℤ) :=
  (congrArg BitVec.toInt ((idx_col0 bcast_S63_S63x1_0 concatenates_S63x1_S63x1_S63x2_d1 (ixI_1 (F := Ideal)) (ixJ_1 (F := Ideal)) t).trans
    (select_false_apply _ _ (ix1 t)))).trans
    (table_read lit2 (fun m => ((1 * m : ℕ) : ℤ)) tabI_1 (S63.rowMajor (ix1 t)) t (rowMajor_ix1 t))
theorem idxJ_1 (t : Fin 63) : ((idx_1 (F := Ideal)) (ix2 t 1)).toInt = ((stride 1 * t.val + off 1 : ℕ) : ℤ) :=
  (congrArg BitVec.toInt ((idx_col1 bcast_S63_S63x1_0 concatenates_S63x1_S63x1_S63x2_d1 (ixI_1 (F := Ideal)) (ixJ_1 (F := Ideal)) t).trans
    (select_false_apply _ _ (ix1 t)))).trans
    (table_read lit3 (fun m => ((1 * m + 1 : ℕ) : ℤ)) tabJ_1 (S63.rowMajor (ix1 t)) t (rowMajor_ix1 t))
theorem pool_1_eq (x : FVec Ideal S32x512x64 .f32) :
    ∀ (b : Fin 32) (c : Fin 512) (t : Fin 63), pool_1 (F := Ideal) x (ix3 b c t) = P (rowOf x b c) 1 t.val :=
  pool_step2 x (pool_0 (F := Ideal) x) _ reduceWindows_S32x512x64_S32x512x63_w1s1p0_0_w1s1p0_0_w2s1p0_0 h_S_
    (init_bot bcast_S_S_ h_S_) 0 (by decide) (by decide) (pool_0_eq x)
theorem acc_1_eq (x : FVec Ideal S32x512x64 .f32) :
    ∀ (b : Fin 32) (c : Fin 512) (i j : Fin 64), acc_1 (F := Ideal) x (ix4 b c i j) = A (rowOf x b c) 2 i.val j.val :=
  acc_step 1 x scatter_S32x512x64x64_S63x2_S32x512x63_01_23_23_1 rfl rfl rfl rfl (acc_0 (F := Ideal) x)
    (idx_1 (F := Ideal)) (pool_1 (F := Ideal) x) idxI_1 idxJ_1
    (by intro t; rw [show stride 1 = 1 by decide, show off 1 = 1 by decide]; omega) (acc_0_eq x) (pool_1_eq x)

/-! ## Stage 2: 62 entries at stride 1, offset 2 -/

theorem tabI_2 : ∀ m : Fin 62, (lit4 m).toInt = ((1 * m.val : ℕ) : ℤ) := by decide
theorem tabJ_2 : ∀ m : Fin 62, (lit5 m).toInt = ((1 * m.val + 2 : ℕ) : ℤ) := by decide
theorem idxI_2 (t : Fin 62) : ((idx_2 (F := Ideal)) (ix2 t 0)).toInt = ((stride 2 * t.val : ℕ) : ℤ) :=
  (congrArg BitVec.toInt ((idx_col0 bcast_S62_S62x1_0 concatenates_S62x1_S62x1_S62x2_d1 (ixI_2 (F := Ideal)) (ixJ_2 (F := Ideal)) t).trans
    (select_false_apply _ _ (ix1 t)))).trans
    (table_read lit4 (fun m => ((1 * m : ℕ) : ℤ)) tabI_2 (S62.rowMajor (ix1 t)) t (rowMajor_ix1 t))
theorem idxJ_2 (t : Fin 62) : ((idx_2 (F := Ideal)) (ix2 t 1)).toInt = ((stride 2 * t.val + off 2 : ℕ) : ℤ) :=
  (congrArg BitVec.toInt ((idx_col1 bcast_S62_S62x1_0 concatenates_S62x1_S62x1_S62x2_d1 (ixI_2 (F := Ideal)) (ixJ_2 (F := Ideal)) t).trans
    (select_false_apply _ _ (ix1 t)))).trans
    (table_read lit5 (fun m => ((1 * m + 2 : ℕ) : ℤ)) tabJ_2 (S62.rowMajor (ix1 t)) t (rowMajor_ix1 t))
theorem pool_2_eq (x : FVec Ideal S32x512x64 .f32) :
    ∀ (b : Fin 32) (c : Fin 512) (t : Fin 62), pool_2 (F := Ideal) x (ix3 b c t) = P (rowOf x b c) 2 t.val :=
  pool_step2 x (pool_1 (F := Ideal) x) _ reduceWindows_S32x512x63_S32x512x62_w1s1p0_0_w1s1p0_0_w2s1p0_0 h_S_
    (init_bot bcast_S_S_ h_S_) 1 (by decide) (by decide) (pool_1_eq x)
theorem acc_2_eq (x : FVec Ideal S32x512x64 .f32) :
    ∀ (b : Fin 32) (c : Fin 512) (i j : Fin 64), acc_2 (F := Ideal) x (ix4 b c i j) = A (rowOf x b c) 3 i.val j.val :=
  acc_step 2 x scatter_S32x512x64x64_S62x2_S32x512x62_01_23_23_1 rfl rfl rfl rfl (acc_1 (F := Ideal) x)
    (idx_2 (F := Ideal)) (pool_2 (F := Ideal) x) idxI_2 idxJ_2
    (by intro t; rw [show stride 2 = 1 by decide, show off 2 = 2 by decide]; omega) (acc_1_eq x) (pool_2_eq x)

/-! ## Stage 3: 61 entries at stride 1, offset 3 -/

theorem tabI_3 : ∀ m : Fin 61, (lit6 m).toInt = ((1 * m.val : ℕ) : ℤ) := by decide
theorem tabJ_3 : ∀ m : Fin 61, (lit7 m).toInt = ((1 * m.val + 3 : ℕ) : ℤ) := by decide
theorem idxI_3 (t : Fin 61) : ((idx_3 (F := Ideal)) (ix2 t 0)).toInt = ((stride 3 * t.val : ℕ) : ℤ) :=
  (congrArg BitVec.toInt ((idx_col0 bcast_S61_S61x1_0 concatenates_S61x1_S61x1_S61x2_d1 (ixI_3 (F := Ideal)) (ixJ_3 (F := Ideal)) t).trans
    (select_false_apply _ _ (ix1 t)))).trans
    (table_read lit6 (fun m => ((1 * m : ℕ) : ℤ)) tabI_3 (S61.rowMajor (ix1 t)) t (rowMajor_ix1 t))
theorem idxJ_3 (t : Fin 61) : ((idx_3 (F := Ideal)) (ix2 t 1)).toInt = ((stride 3 * t.val + off 3 : ℕ) : ℤ) :=
  (congrArg BitVec.toInt ((idx_col1 bcast_S61_S61x1_0 concatenates_S61x1_S61x1_S61x2_d1 (ixI_3 (F := Ideal)) (ixJ_3 (F := Ideal)) t).trans
    (select_false_apply _ _ (ix1 t)))).trans
    (table_read lit7 (fun m => ((1 * m + 3 : ℕ) : ℤ)) tabJ_3 (S61.rowMajor (ix1 t)) t (rowMajor_ix1 t))
theorem pool_3_eq (x : FVec Ideal S32x512x64 .f32) :
    ∀ (b : Fin 32) (c : Fin 512) (t : Fin 61), pool_3 (F := Ideal) x (ix3 b c t) = P (rowOf x b c) 3 t.val :=
  pool_step2 x (pool_2 (F := Ideal) x) _ reduceWindows_S32x512x62_S32x512x61_w1s1p0_0_w1s1p0_0_w2s1p0_0 h_S_
    (init_bot bcast_S_S_ h_S_) 2 (by decide) (by decide) (pool_2_eq x)
theorem acc_3_eq (x : FVec Ideal S32x512x64 .f32) :
    ∀ (b : Fin 32) (c : Fin 512) (i j : Fin 64), acc_3 (F := Ideal) x (ix4 b c i j) = A (rowOf x b c) 4 i.val j.val :=
  acc_step 3 x scatter_S32x512x64x64_S61x2_S32x512x61_01_23_23_1 rfl rfl rfl rfl (acc_2 (F := Ideal) x)
    (idx_3 (F := Ideal)) (pool_3 (F := Ideal) x) idxI_3 idxJ_3
    (by intro t; rw [show stride 3 = 1 by decide, show off 3 = 3 by decide]; omega) (acc_2_eq x) (pool_3_eq x)

/-! ## Stage 4: 60 entries at stride 1, offset 4 -/

theorem tabI_4 : ∀ m : Fin 60, (lit8 m).toInt = ((1 * m.val : ℕ) : ℤ) := by decide
theorem tabJ_4 : ∀ m : Fin 60, (lit9 m).toInt = ((1 * m.val + 4 : ℕ) : ℤ) := by decide
theorem idxI_4 (t : Fin 60) : ((idx_4 (F := Ideal)) (ix2 t 0)).toInt = ((stride 4 * t.val : ℕ) : ℤ) :=
  (congrArg BitVec.toInt ((idx_col0 bcast_S60_S60x1_0 concatenates_S60x1_S60x1_S60x2_d1 (ixI_4 (F := Ideal)) (ixJ_4 (F := Ideal)) t).trans
    (select_false_apply _ _ (ix1 t)))).trans
    (table_read lit8 (fun m => ((1 * m : ℕ) : ℤ)) tabI_4 (S60.rowMajor (ix1 t)) t (rowMajor_ix1 t))
theorem idxJ_4 (t : Fin 60) : ((idx_4 (F := Ideal)) (ix2 t 1)).toInt = ((stride 4 * t.val + off 4 : ℕ) : ℤ) :=
  (congrArg BitVec.toInt ((idx_col1 bcast_S60_S60x1_0 concatenates_S60x1_S60x1_S60x2_d1 (ixI_4 (F := Ideal)) (ixJ_4 (F := Ideal)) t).trans
    (select_false_apply _ _ (ix1 t)))).trans
    (table_read lit9 (fun m => ((1 * m + 4 : ℕ) : ℤ)) tabJ_4 (S60.rowMajor (ix1 t)) t (rowMajor_ix1 t))
theorem pool_4_eq (x : FVec Ideal S32x512x64 .f32) :
    ∀ (b : Fin 32) (c : Fin 512) (t : Fin 60), pool_4 (F := Ideal) x (ix3 b c t) = P (rowOf x b c) 4 t.val :=
  pool_step2 x (pool_3 (F := Ideal) x) _ reduceWindows_S32x512x61_S32x512x60_w1s1p0_0_w1s1p0_0_w2s1p0_0 h_S_
    (init_bot bcast_S_S_ h_S_) 3 (by decide) (by decide) (pool_3_eq x)
theorem acc_4_eq (x : FVec Ideal S32x512x64 .f32) :
    ∀ (b : Fin 32) (c : Fin 512) (i j : Fin 64), acc_4 (F := Ideal) x (ix4 b c i j) = A (rowOf x b c) 5 i.val j.val :=
  acc_step 4 x scatter_S32x512x64x64_S60x2_S32x512x60_01_23_23_1 rfl rfl rfl rfl (acc_3 (F := Ideal) x)
    (idx_4 (F := Ideal)) (pool_4 (F := Ideal) x) idxI_4 idxJ_4
    (by intro t; rw [show stride 4 = 1 by decide, show off 4 = 4 by decide]; omega) (acc_3_eq x) (pool_4_eq x)

/-! ## Stage 5: 59 entries at stride 1, offset 5 -/

theorem tabI_5 : ∀ m : Fin 59, (lit10 m).toInt = ((1 * m.val : ℕ) : ℤ) := by decide
theorem tabJ_5 : ∀ m : Fin 59, (lit11 m).toInt = ((1 * m.val + 5 : ℕ) : ℤ) := by decide
theorem idxI_5 (t : Fin 59) : ((idx_5 (F := Ideal)) (ix2 t 0)).toInt = ((stride 5 * t.val : ℕ) : ℤ) :=
  (congrArg BitVec.toInt ((idx_col0 bcast_S59_S59x1_0 concatenates_S59x1_S59x1_S59x2_d1 (ixI_5 (F := Ideal)) (ixJ_5 (F := Ideal)) t).trans
    (select_false_apply _ _ (ix1 t)))).trans
    (table_read lit10 (fun m => ((1 * m : ℕ) : ℤ)) tabI_5 (S59.rowMajor (ix1 t)) t (rowMajor_ix1 t))
theorem idxJ_5 (t : Fin 59) : ((idx_5 (F := Ideal)) (ix2 t 1)).toInt = ((stride 5 * t.val + off 5 : ℕ) : ℤ) :=
  (congrArg BitVec.toInt ((idx_col1 bcast_S59_S59x1_0 concatenates_S59x1_S59x1_S59x2_d1 (ixI_5 (F := Ideal)) (ixJ_5 (F := Ideal)) t).trans
    (select_false_apply _ _ (ix1 t)))).trans
    (table_read lit11 (fun m => ((1 * m + 5 : ℕ) : ℤ)) tabJ_5 (S59.rowMajor (ix1 t)) t (rowMajor_ix1 t))
theorem pool_5_eq (x : FVec Ideal S32x512x64 .f32) :
    ∀ (b : Fin 32) (c : Fin 512) (t : Fin 59), pool_5 (F := Ideal) x (ix3 b c t) = P (rowOf x b c) 5 t.val :=
  pool_step2 x (pool_4 (F := Ideal) x) _ reduceWindows_S32x512x60_S32x512x59_w1s1p0_0_w1s1p0_0_w2s1p0_0 h_S_
    (init_bot bcast_S_S_ h_S_) 4 (by decide) (by decide) (pool_4_eq x)
theorem acc_5_eq (x : FVec Ideal S32x512x64 .f32) :
    ∀ (b : Fin 32) (c : Fin 512) (i j : Fin 64), acc_5 (F := Ideal) x (ix4 b c i j) = A (rowOf x b c) 6 i.val j.val :=
  acc_step 5 x scatter_S32x512x64x64_S59x2_S32x512x59_01_23_23_1 rfl rfl rfl rfl (acc_4 (F := Ideal) x)
    (idx_5 (F := Ideal)) (pool_5 (F := Ideal) x) idxI_5 idxJ_5
    (by intro t; rw [show stride 5 = 1 by decide, show off 5 = 5 by decide]; omega) (acc_4_eq x) (pool_5_eq x)

/-! ## Stage 6: 58 entries at stride 1, offset 6 -/

theorem tabI_6 : ∀ m : Fin 58, (lit12 m).toInt = ((1 * m.val : ℕ) : ℤ) := by decide
theorem tabJ_6 : ∀ m : Fin 58, (lit13 m).toInt = ((1 * m.val + 6 : ℕ) : ℤ) := by decide
theorem idxI_6 (t : Fin 58) : ((idx_6 (F := Ideal)) (ix2 t 0)).toInt = ((stride 6 * t.val : ℕ) : ℤ) :=
  (congrArg BitVec.toInt ((idx_col0 bcast_S58_S58x1_0 concatenates_S58x1_S58x1_S58x2_d1 (ixI_6 (F := Ideal)) (ixJ_6 (F := Ideal)) t).trans
    (select_false_apply _ _ (ix1 t)))).trans
    (table_read lit12 (fun m => ((1 * m : ℕ) : ℤ)) tabI_6 (S58.rowMajor (ix1 t)) t (rowMajor_ix1 t))
theorem idxJ_6 (t : Fin 58) : ((idx_6 (F := Ideal)) (ix2 t 1)).toInt = ((stride 6 * t.val + off 6 : ℕ) : ℤ) :=
  (congrArg BitVec.toInt ((idx_col1 bcast_S58_S58x1_0 concatenates_S58x1_S58x1_S58x2_d1 (ixI_6 (F := Ideal)) (ixJ_6 (F := Ideal)) t).trans
    (select_false_apply _ _ (ix1 t)))).trans
    (table_read lit13 (fun m => ((1 * m + 6 : ℕ) : ℤ)) tabJ_6 (S58.rowMajor (ix1 t)) t (rowMajor_ix1 t))
theorem pool_6_eq (x : FVec Ideal S32x512x64 .f32) :
    ∀ (b : Fin 32) (c : Fin 512) (t : Fin 58), pool_6 (F := Ideal) x (ix3 b c t) = P (rowOf x b c) 6 t.val :=
  pool_step2 x (pool_5 (F := Ideal) x) _ reduceWindows_S32x512x59_S32x512x58_w1s1p0_0_w1s1p0_0_w2s1p0_0 h_S_
    (init_bot bcast_S_S_ h_S_) 5 (by decide) (by decide) (pool_5_eq x)
theorem acc_6_eq (x : FVec Ideal S32x512x64 .f32) :
    ∀ (b : Fin 32) (c : Fin 512) (i j : Fin 64), acc_6 (F := Ideal) x (ix4 b c i j) = A (rowOf x b c) 7 i.val j.val :=
  acc_step 6 x scatter_S32x512x64x64_S58x2_S32x512x58_01_23_23_1 rfl rfl rfl rfl (acc_5 (F := Ideal) x)
    (idx_6 (F := Ideal)) (pool_6 (F := Ideal) x) idxI_6 idxJ_6
    (by intro t; rw [show stride 6 = 1 by decide, show off 6 = 6 by decide]; omega) (acc_5_eq x) (pool_6_eq x)

/-! ## Stage 7: 57 entries at stride 1, offset 7 -/

theorem tabI_7 : ∀ m : Fin 57, (lit14 m).toInt = ((1 * m.val : ℕ) : ℤ) := by decide
theorem tabJ_7 : ∀ m : Fin 57, (lit15 m).toInt = ((1 * m.val + 7 : ℕ) : ℤ) := by decide
theorem idxI_7 (t : Fin 57) : ((idx_7 (F := Ideal)) (ix2 t 0)).toInt = ((stride 7 * t.val : ℕ) : ℤ) :=
  (congrArg BitVec.toInt ((idx_col0 bcast_S57_S57x1_0 concatenates_S57x1_S57x1_S57x2_d1 (ixI_7 (F := Ideal)) (ixJ_7 (F := Ideal)) t).trans
    (select_false_apply _ _ (ix1 t)))).trans
    (table_read lit14 (fun m => ((1 * m : ℕ) : ℤ)) tabI_7 (S57.rowMajor (ix1 t)) t (rowMajor_ix1 t))
theorem idxJ_7 (t : Fin 57) : ((idx_7 (F := Ideal)) (ix2 t 1)).toInt = ((stride 7 * t.val + off 7 : ℕ) : ℤ) :=
  (congrArg BitVec.toInt ((idx_col1 bcast_S57_S57x1_0 concatenates_S57x1_S57x1_S57x2_d1 (ixI_7 (F := Ideal)) (ixJ_7 (F := Ideal)) t).trans
    (select_false_apply _ _ (ix1 t)))).trans
    (table_read lit15 (fun m => ((1 * m + 7 : ℕ) : ℤ)) tabJ_7 (S57.rowMajor (ix1 t)) t (rowMajor_ix1 t))
theorem pool_7_eq (x : FVec Ideal S32x512x64 .f32) :
    ∀ (b : Fin 32) (c : Fin 512) (t : Fin 57), pool_7 (F := Ideal) x (ix3 b c t) = P (rowOf x b c) 7 t.val :=
  pool_step2 x (pool_6 (F := Ideal) x) _ reduceWindows_S32x512x58_S32x512x57_w1s1p0_0_w1s1p0_0_w2s1p0_0 h_S_
    (init_bot bcast_S_S_ h_S_) 6 (by decide) (by decide) (pool_6_eq x)
theorem acc_7_eq (x : FVec Ideal S32x512x64 .f32) :
    ∀ (b : Fin 32) (c : Fin 512) (i j : Fin 64), acc_7 (F := Ideal) x (ix4 b c i j) = A (rowOf x b c) 8 i.val j.val :=
  acc_step 7 x scatter_S32x512x64x64_S57x2_S32x512x57_01_23_23_1 rfl rfl rfl rfl (acc_6 (F := Ideal) x)
    (idx_7 (F := Ideal)) (pool_7 (F := Ideal) x) idxI_7 idxJ_7
    (by intro t; rw [show stride 7 = 1 by decide, show off 7 = 7 by decide]; omega) (acc_6_eq x) (pool_7_eq x)

/-! ## Stage 8: 56 entries at stride 1, offset 8 -/

theorem tabI_8 : ∀ m : Fin 56, (lit16 m).toInt = ((1 * m.val : ℕ) : ℤ) := by decide
theorem tabJ_8 : ∀ m : Fin 56, (lit17 m).toInt = ((1 * m.val + 8 : ℕ) : ℤ) := by decide
theorem idxI_8 (t : Fin 56) : ((idx_8 (F := Ideal)) (ix2 t 0)).toInt = ((stride 8 * t.val : ℕ) : ℤ) :=
  (congrArg BitVec.toInt ((idx_col0 bcast_S56_S56x1_0 concatenates_S56x1_S56x1_S56x2_d1 (ixI_8 (F := Ideal)) (ixJ_8 (F := Ideal)) t).trans
    (select_false_apply _ _ (ix1 t)))).trans
    (table_read lit16 (fun m => ((1 * m : ℕ) : ℤ)) tabI_8 (S56.rowMajor (ix1 t)) t (rowMajor_ix1 t))
theorem idxJ_8 (t : Fin 56) : ((idx_8 (F := Ideal)) (ix2 t 1)).toInt = ((stride 8 * t.val + off 8 : ℕ) : ℤ) :=
  (congrArg BitVec.toInt ((idx_col1 bcast_S56_S56x1_0 concatenates_S56x1_S56x1_S56x2_d1 (ixI_8 (F := Ideal)) (ixJ_8 (F := Ideal)) t).trans
    (select_false_apply _ _ (ix1 t)))).trans
    (table_read lit17 (fun m => ((1 * m + 8 : ℕ) : ℤ)) tabJ_8 (S56.rowMajor (ix1 t)) t (rowMajor_ix1 t))
theorem pool_8_eq (x : FVec Ideal S32x512x64 .f32) :
    ∀ (b : Fin 32) (c : Fin 512) (t : Fin 56), pool_8 (F := Ideal) x (ix3 b c t) = P (rowOf x b c) 8 t.val :=
  pool_step2 x (pool_7 (F := Ideal) x) _ reduceWindows_S32x512x57_S32x512x56_w1s1p0_0_w1s1p0_0_w2s1p0_0 h_S_
    (init_bot bcast_S_S_ h_S_) 7 (by decide) (by decide) (pool_7_eq x)
theorem acc_8_eq (x : FVec Ideal S32x512x64 .f32) :
    ∀ (b : Fin 32) (c : Fin 512) (i j : Fin 64), acc_8 (F := Ideal) x (ix4 b c i j) = A (rowOf x b c) 9 i.val j.val :=
  acc_step 8 x scatter_S32x512x64x64_S56x2_S32x512x56_01_23_23_1 rfl rfl rfl rfl (acc_7 (F := Ideal) x)
    (idx_8 (F := Ideal)) (pool_8 (F := Ideal) x) idxI_8 idxJ_8
    (by intro t; rw [show stride 8 = 1 by decide, show off 8 = 8 by decide]; omega) (acc_7_eq x) (pool_8_eq x)

/-! ## Stage 9: 55 entries at stride 1, offset 9 -/

theorem tabI_9 : ∀ m : Fin 55, (lit18 m).toInt = ((1 * m.val : ℕ) : ℤ) := by decide
theorem tabJ_9 : ∀ m : Fin 55, (lit19 m).toInt = ((1 * m.val + 9 : ℕ) : ℤ) := by decide
theorem idxI_9 (t : Fin 55) : ((idx_9 (F := Ideal)) (ix2 t 0)).toInt = ((stride 9 * t.val : ℕ) : ℤ) :=
  (congrArg BitVec.toInt ((idx_col0 bcast_S55_S55x1_0 concatenates_S55x1_S55x1_S55x2_d1 (ixI_9 (F := Ideal)) (ixJ_9 (F := Ideal)) t).trans
    (select_false_apply _ _ (ix1 t)))).trans
    (table_read lit18 (fun m => ((1 * m : ℕ) : ℤ)) tabI_9 (S55.rowMajor (ix1 t)) t (rowMajor_ix1 t))
theorem idxJ_9 (t : Fin 55) : ((idx_9 (F := Ideal)) (ix2 t 1)).toInt = ((stride 9 * t.val + off 9 : ℕ) : ℤ) :=
  (congrArg BitVec.toInt ((idx_col1 bcast_S55_S55x1_0 concatenates_S55x1_S55x1_S55x2_d1 (ixI_9 (F := Ideal)) (ixJ_9 (F := Ideal)) t).trans
    (select_false_apply _ _ (ix1 t)))).trans
    (table_read lit19 (fun m => ((1 * m + 9 : ℕ) : ℤ)) tabJ_9 (S55.rowMajor (ix1 t)) t (rowMajor_ix1 t))
theorem pool_9_eq (x : FVec Ideal S32x512x64 .f32) :
    ∀ (b : Fin 32) (c : Fin 512) (t : Fin 55), pool_9 (F := Ideal) x (ix3 b c t) = P (rowOf x b c) 9 t.val :=
  pool_step2 x (pool_8 (F := Ideal) x) _ reduceWindows_S32x512x56_S32x512x55_w1s1p0_0_w1s1p0_0_w2s1p0_0 h_S_
    (init_bot bcast_S_S_ h_S_) 8 (by decide) (by decide) (pool_8_eq x)
theorem acc_9_eq (x : FVec Ideal S32x512x64 .f32) :
    ∀ (b : Fin 32) (c : Fin 512) (i j : Fin 64), acc_9 (F := Ideal) x (ix4 b c i j) = A (rowOf x b c) 10 i.val j.val :=
  acc_step 9 x scatter_S32x512x64x64_S55x2_S32x512x55_01_23_23_1 rfl rfl rfl rfl (acc_8 (F := Ideal) x)
    (idx_9 (F := Ideal)) (pool_9 (F := Ideal) x) idxI_9 idxJ_9
    (by intro t; rw [show stride 9 = 1 by decide, show off 9 = 9 by decide]; omega) (acc_8_eq x) (pool_9_eq x)

/-! ## Stage 10: 54 entries at stride 1, offset 10 -/

theorem tabI_10 : ∀ m : Fin 54, (lit20 m).toInt = ((1 * m.val : ℕ) : ℤ) := by decide
theorem tabJ_10 : ∀ m : Fin 54, (lit21 m).toInt = ((1 * m.val + 10 : ℕ) : ℤ) := by decide
theorem idxI_10 (t : Fin 54) : ((idx_10 (F := Ideal)) (ix2 t 0)).toInt = ((stride 10 * t.val : ℕ) : ℤ) :=
  (congrArg BitVec.toInt ((idx_col0 bcast_S54_S54x1_0 concatenates_S54x1_S54x1_S54x2_d1 (ixI_10 (F := Ideal)) (ixJ_10 (F := Ideal)) t).trans
    (select_false_apply _ _ (ix1 t)))).trans
    (table_read lit20 (fun m => ((1 * m : ℕ) : ℤ)) tabI_10 (S54.rowMajor (ix1 t)) t (rowMajor_ix1 t))
theorem idxJ_10 (t : Fin 54) : ((idx_10 (F := Ideal)) (ix2 t 1)).toInt = ((stride 10 * t.val + off 10 : ℕ) : ℤ) :=
  (congrArg BitVec.toInt ((idx_col1 bcast_S54_S54x1_0 concatenates_S54x1_S54x1_S54x2_d1 (ixI_10 (F := Ideal)) (ixJ_10 (F := Ideal)) t).trans
    (select_false_apply _ _ (ix1 t)))).trans
    (table_read lit21 (fun m => ((1 * m + 10 : ℕ) : ℤ)) tabJ_10 (S54.rowMajor (ix1 t)) t (rowMajor_ix1 t))
theorem pool_10_eq (x : FVec Ideal S32x512x64 .f32) :
    ∀ (b : Fin 32) (c : Fin 512) (t : Fin 54), pool_10 (F := Ideal) x (ix3 b c t) = P (rowOf x b c) 10 t.val :=
  pool_step2 x (pool_9 (F := Ideal) x) _ reduceWindows_S32x512x55_S32x512x54_w1s1p0_0_w1s1p0_0_w2s1p0_0 h_S_
    (init_bot bcast_S_S_ h_S_) 9 (by decide) (by decide) (pool_9_eq x)
theorem acc_10_eq (x : FVec Ideal S32x512x64 .f32) :
    ∀ (b : Fin 32) (c : Fin 512) (i j : Fin 64), acc_10 (F := Ideal) x (ix4 b c i j) = A (rowOf x b c) 11 i.val j.val :=
  acc_step 10 x scatter_S32x512x64x64_S54x2_S32x512x54_01_23_23_1 rfl rfl rfl rfl (acc_9 (F := Ideal) x)
    (idx_10 (F := Ideal)) (pool_10 (F := Ideal) x) idxI_10 idxJ_10
    (by intro t; rw [show stride 10 = 1 by decide, show off 10 = 10 by decide]; omega) (acc_9_eq x) (pool_10_eq x)

/-! ## Stage 11: 53 entries at stride 1, offset 11 -/

theorem tabI_11 : ∀ m : Fin 53, (lit22 m).toInt = ((1 * m.val : ℕ) : ℤ) := by decide
theorem tabJ_11 : ∀ m : Fin 53, (lit23 m).toInt = ((1 * m.val + 11 : ℕ) : ℤ) := by decide
theorem idxI_11 (t : Fin 53) : ((idx_11 (F := Ideal)) (ix2 t 0)).toInt = ((stride 11 * t.val : ℕ) : ℤ) :=
  (congrArg BitVec.toInt ((idx_col0 bcast_S53_S53x1_0 concatenates_S53x1_S53x1_S53x2_d1 (ixI_11 (F := Ideal)) (ixJ_11 (F := Ideal)) t).trans
    (select_false_apply _ _ (ix1 t)))).trans
    (table_read lit22 (fun m => ((1 * m : ℕ) : ℤ)) tabI_11 (S53.rowMajor (ix1 t)) t (rowMajor_ix1 t))
theorem idxJ_11 (t : Fin 53) : ((idx_11 (F := Ideal)) (ix2 t 1)).toInt = ((stride 11 * t.val + off 11 : ℕ) : ℤ) :=
  (congrArg BitVec.toInt ((idx_col1 bcast_S53_S53x1_0 concatenates_S53x1_S53x1_S53x2_d1 (ixI_11 (F := Ideal)) (ixJ_11 (F := Ideal)) t).trans
    (select_false_apply _ _ (ix1 t)))).trans
    (table_read lit23 (fun m => ((1 * m + 11 : ℕ) : ℤ)) tabJ_11 (S53.rowMajor (ix1 t)) t (rowMajor_ix1 t))
theorem pool_11_eq (x : FVec Ideal S32x512x64 .f32) :
    ∀ (b : Fin 32) (c : Fin 512) (t : Fin 53), pool_11 (F := Ideal) x (ix3 b c t) = P (rowOf x b c) 11 t.val :=
  pool_step2 x (pool_10 (F := Ideal) x) _ reduceWindows_S32x512x54_S32x512x53_w1s1p0_0_w1s1p0_0_w2s1p0_0 h_S_
    (init_bot bcast_S_S_ h_S_) 10 (by decide) (by decide) (pool_10_eq x)
theorem acc_11_eq (x : FVec Ideal S32x512x64 .f32) :
    ∀ (b : Fin 32) (c : Fin 512) (i j : Fin 64), acc_11 (F := Ideal) x (ix4 b c i j) = A (rowOf x b c) 12 i.val j.val :=
  acc_step 11 x scatter_S32x512x64x64_S53x2_S32x512x53_01_23_23_1 rfl rfl rfl rfl (acc_10 (F := Ideal) x)
    (idx_11 (F := Ideal)) (pool_11 (F := Ideal) x) idxI_11 idxJ_11
    (by intro t; rw [show stride 11 = 1 by decide, show off 11 = 11 by decide]; omega) (acc_10_eq x) (pool_11_eq x)

/-! ## Stage 12: 52 entries at stride 1, offset 12 -/

theorem tabI_12 : ∀ m : Fin 52, (lit24 m).toInt = ((1 * m.val : ℕ) : ℤ) := by decide
theorem tabJ_12 : ∀ m : Fin 52, (lit25 m).toInt = ((1 * m.val + 12 : ℕ) : ℤ) := by decide
theorem idxI_12 (t : Fin 52) : ((idx_12 (F := Ideal)) (ix2 t 0)).toInt = ((stride 12 * t.val : ℕ) : ℤ) :=
  (congrArg BitVec.toInt ((idx_col0 bcast_S52_S52x1_0 concatenates_S52x1_S52x1_S52x2_d1 (ixI_12 (F := Ideal)) (ixJ_12 (F := Ideal)) t).trans
    (select_false_apply _ _ (ix1 t)))).trans
    (table_read lit24 (fun m => ((1 * m : ℕ) : ℤ)) tabI_12 (S52.rowMajor (ix1 t)) t (rowMajor_ix1 t))
theorem idxJ_12 (t : Fin 52) : ((idx_12 (F := Ideal)) (ix2 t 1)).toInt = ((stride 12 * t.val + off 12 : ℕ) : ℤ) :=
  (congrArg BitVec.toInt ((idx_col1 bcast_S52_S52x1_0 concatenates_S52x1_S52x1_S52x2_d1 (ixI_12 (F := Ideal)) (ixJ_12 (F := Ideal)) t).trans
    (select_false_apply _ _ (ix1 t)))).trans
    (table_read lit25 (fun m => ((1 * m + 12 : ℕ) : ℤ)) tabJ_12 (S52.rowMajor (ix1 t)) t (rowMajor_ix1 t))
theorem pool_12_eq (x : FVec Ideal S32x512x64 .f32) :
    ∀ (b : Fin 32) (c : Fin 512) (t : Fin 52), pool_12 (F := Ideal) x (ix3 b c t) = P (rowOf x b c) 12 t.val :=
  pool_step2 x (pool_11 (F := Ideal) x) _ reduceWindows_S32x512x53_S32x512x52_w1s1p0_0_w1s1p0_0_w2s1p0_0 h_S_
    (init_bot bcast_S_S_ h_S_) 11 (by decide) (by decide) (pool_11_eq x)
theorem acc_12_eq (x : FVec Ideal S32x512x64 .f32) :
    ∀ (b : Fin 32) (c : Fin 512) (i j : Fin 64), acc_12 (F := Ideal) x (ix4 b c i j) = A (rowOf x b c) 13 i.val j.val :=
  acc_step 12 x scatter_S32x512x64x64_S52x2_S32x512x52_01_23_23_1 rfl rfl rfl rfl (acc_11 (F := Ideal) x)
    (idx_12 (F := Ideal)) (pool_12 (F := Ideal) x) idxI_12 idxJ_12
    (by intro t; rw [show stride 12 = 1 by decide, show off 12 = 12 by decide]; omega) (acc_11_eq x) (pool_12_eq x)

/-! ## Stage 13: 51 entries at stride 1, offset 13 -/

theorem tabI_13 : ∀ m : Fin 51, (lit26 m).toInt = ((1 * m.val : ℕ) : ℤ) := by decide
theorem tabJ_13 : ∀ m : Fin 51, (lit27 m).toInt = ((1 * m.val + 13 : ℕ) : ℤ) := by decide
theorem idxI_13 (t : Fin 51) : ((idx_13 (F := Ideal)) (ix2 t 0)).toInt = ((stride 13 * t.val : ℕ) : ℤ) :=
  (congrArg BitVec.toInt ((idx_col0 bcast_S51_S51x1_0 concatenates_S51x1_S51x1_S51x2_d1 (ixI_13 (F := Ideal)) (ixJ_13 (F := Ideal)) t).trans
    (select_false_apply _ _ (ix1 t)))).trans
    (table_read lit26 (fun m => ((1 * m : ℕ) : ℤ)) tabI_13 (S51.rowMajor (ix1 t)) t (rowMajor_ix1 t))
theorem idxJ_13 (t : Fin 51) : ((idx_13 (F := Ideal)) (ix2 t 1)).toInt = ((stride 13 * t.val + off 13 : ℕ) : ℤ) :=
  (congrArg BitVec.toInt ((idx_col1 bcast_S51_S51x1_0 concatenates_S51x1_S51x1_S51x2_d1 (ixI_13 (F := Ideal)) (ixJ_13 (F := Ideal)) t).trans
    (select_false_apply _ _ (ix1 t)))).trans
    (table_read lit27 (fun m => ((1 * m + 13 : ℕ) : ℤ)) tabJ_13 (S51.rowMajor (ix1 t)) t (rowMajor_ix1 t))
theorem pool_13_eq (x : FVec Ideal S32x512x64 .f32) :
    ∀ (b : Fin 32) (c : Fin 512) (t : Fin 51), pool_13 (F := Ideal) x (ix3 b c t) = P (rowOf x b c) 13 t.val :=
  pool_step2 x (pool_12 (F := Ideal) x) _ reduceWindows_S32x512x52_S32x512x51_w1s1p0_0_w1s1p0_0_w2s1p0_0 h_S_
    (init_bot bcast_S_S_ h_S_) 12 (by decide) (by decide) (pool_12_eq x)
theorem acc_13_eq (x : FVec Ideal S32x512x64 .f32) :
    ∀ (b : Fin 32) (c : Fin 512) (i j : Fin 64), acc_13 (F := Ideal) x (ix4 b c i j) = A (rowOf x b c) 14 i.val j.val :=
  acc_step 13 x scatter_S32x512x64x64_S51x2_S32x512x51_01_23_23_1 rfl rfl rfl rfl (acc_12 (F := Ideal) x)
    (idx_13 (F := Ideal)) (pool_13 (F := Ideal) x) idxI_13 idxJ_13
    (by intro t; rw [show stride 13 = 1 by decide, show off 13 = 13 by decide]; omega) (acc_12_eq x) (pool_13_eq x)

/-! ## Stage 14: 50 entries at stride 1, offset 14 -/

theorem tabI_14 : ∀ m : Fin 50, (lit28 m).toInt = ((1 * m.val : ℕ) : ℤ) := by decide
theorem tabJ_14 : ∀ m : Fin 50, (lit29 m).toInt = ((1 * m.val + 14 : ℕ) : ℤ) := by decide
theorem idxI_14 (t : Fin 50) : ((idx_14 (F := Ideal)) (ix2 t 0)).toInt = ((stride 14 * t.val : ℕ) : ℤ) :=
  (congrArg BitVec.toInt ((idx_col0 bcast_S50_S50x1_0 concatenates_S50x1_S50x1_S50x2_d1 (ixI_14 (F := Ideal)) (ixJ_14 (F := Ideal)) t).trans
    (select_false_apply _ _ (ix1 t)))).trans
    (table_read lit28 (fun m => ((1 * m : ℕ) : ℤ)) tabI_14 (S50.rowMajor (ix1 t)) t (rowMajor_ix1 t))
theorem idxJ_14 (t : Fin 50) : ((idx_14 (F := Ideal)) (ix2 t 1)).toInt = ((stride 14 * t.val + off 14 : ℕ) : ℤ) :=
  (congrArg BitVec.toInt ((idx_col1 bcast_S50_S50x1_0 concatenates_S50x1_S50x1_S50x2_d1 (ixI_14 (F := Ideal)) (ixJ_14 (F := Ideal)) t).trans
    (select_false_apply _ _ (ix1 t)))).trans
    (table_read lit29 (fun m => ((1 * m + 14 : ℕ) : ℤ)) tabJ_14 (S50.rowMajor (ix1 t)) t (rowMajor_ix1 t))
theorem pool_14_eq (x : FVec Ideal S32x512x64 .f32) :
    ∀ (b : Fin 32) (c : Fin 512) (t : Fin 50), pool_14 (F := Ideal) x (ix3 b c t) = P (rowOf x b c) 14 t.val :=
  pool_step2 x (pool_13 (F := Ideal) x) _ reduceWindows_S32x512x51_S32x512x50_w1s1p0_0_w1s1p0_0_w2s1p0_0 h_S_
    (init_bot bcast_S_S_ h_S_) 13 (by decide) (by decide) (pool_13_eq x)
theorem acc_14_eq (x : FVec Ideal S32x512x64 .f32) :
    ∀ (b : Fin 32) (c : Fin 512) (i j : Fin 64), acc_14 (F := Ideal) x (ix4 b c i j) = A (rowOf x b c) 15 i.val j.val :=
  acc_step 14 x scatter_S32x512x64x64_S50x2_S32x512x50_01_23_23_1 rfl rfl rfl rfl (acc_13 (F := Ideal) x)
    (idx_14 (F := Ideal)) (pool_14 (F := Ideal) x) idxI_14 idxJ_14
    (by intro t; rw [show stride 14 = 1 by decide, show off 14 = 14 by decide]; omega) (acc_13_eq x) (pool_14_eq x)

/-! ## Stage 15: 24 entries at stride 2, offset 16 -/

theorem tabI_15 : ∀ m : Fin 24, (lit30 m).toInt = ((2 * m.val : ℕ) : ℤ) := by decide
theorem tabJ_15 : ∀ m : Fin 24, (lit31 m).toInt = ((2 * m.val + 16 : ℕ) : ℤ) := by decide
theorem idxI_15 (t : Fin 24) : ((idx_15 (F := Ideal)) (ix2 t 0)).toInt = ((stride 15 * t.val : ℕ) : ℤ) :=
  (congrArg BitVec.toInt ((idx_col0 bcast_S24_S24x1_0 concatenates_S24x1_S24x1_S24x2_d1 (ixI_15 (F := Ideal)) (ixJ_15 (F := Ideal)) t).trans
    (select_false_apply _ _ (ix1 t)))).trans
    (table_read lit30 (fun m => ((2 * m : ℕ) : ℤ)) tabI_15 (S24.rowMajor (ix1 t)) t (rowMajor_ix1 t))
theorem idxJ_15 (t : Fin 24) : ((idx_15 (F := Ideal)) (ix2 t 1)).toInt = ((stride 15 * t.val + off 15 : ℕ) : ℤ) :=
  (congrArg BitVec.toInt ((idx_col1 bcast_S24_S24x1_0 concatenates_S24x1_S24x1_S24x2_d1 (ixI_15 (F := Ideal)) (ixJ_15 (F := Ideal)) t).trans
    (select_false_apply _ _ (ix1 t)))).trans
    (table_read lit31 (fun m => ((2 * m + 16 : ℕ) : ℤ)) tabJ_15 (S24.rowMajor (ix1 t)) t (rowMajor_ix1 t))
theorem pool_15_eq (x : FVec Ideal S32x512x64 .f32) :
    ∀ (b : Fin 32) (c : Fin 512) (t : Fin 24), pool_15 (F := Ideal) x (ix3 b c t) = P (rowOf x b c) 15 t.val :=
  pool_step3 x (pool_14 (F := Ideal) x) _ reduceWindows_S32x512x50_S32x512x24_w1s1p0_0_w1s1p0_0_w3s2p0_0 h_S_
    (init_bot bcast_S_S_ h_S_) 14 (by decide) (by decide) (pool_14_eq x)
theorem acc_15_eq (x : FVec Ideal S32x512x64 .f32) :
    ∀ (b : Fin 32) (c : Fin 512) (i j : Fin 64), acc_15 (F := Ideal) x (ix4 b c i j) = A (rowOf x b c) 16 i.val j.val :=
  acc_step 15 x scatter_S32x512x64x64_S24x2_S32x512x24_01_23_23_1 rfl rfl rfl rfl (acc_14 (F := Ideal) x)
    (idx_15 (F := Ideal)) (pool_15 (F := Ideal) x) idxI_15 idxJ_15
    (by intro t; rw [show stride 15 = 2 by decide, show off 15 = 16 by decide]; omega) (acc_14_eq x) (pool_15_eq x)

/-! ## Stage 16: 23 entries at stride 2, offset 18 -/

theorem tabI_16 : ∀ m : Fin 23, (lit32 m).toInt = ((2 * m.val : ℕ) : ℤ) := by decide
theorem tabJ_16 : ∀ m : Fin 23, (lit33 m).toInt = ((2 * m.val + 18 : ℕ) : ℤ) := by decide
theorem idxI_16 (t : Fin 23) : ((idx_16 (F := Ideal)) (ix2 t 0)).toInt = ((stride 16 * t.val : ℕ) : ℤ) :=
  (congrArg BitVec.toInt ((idx_col0 bcast_S23_S23x1_0 concatenates_S23x1_S23x1_S23x2_d1 (ixI_16 (F := Ideal)) (ixJ_16 (F := Ideal)) t).trans
    (select_false_apply _ _ (ix1 t)))).trans
    (table_read lit32 (fun m => ((2 * m : ℕ) : ℤ)) tabI_16 (S23.rowMajor (ix1 t)) t (rowMajor_ix1 t))
theorem idxJ_16 (t : Fin 23) : ((idx_16 (F := Ideal)) (ix2 t 1)).toInt = ((stride 16 * t.val + off 16 : ℕ) : ℤ) :=
  (congrArg BitVec.toInt ((idx_col1 bcast_S23_S23x1_0 concatenates_S23x1_S23x1_S23x2_d1 (ixI_16 (F := Ideal)) (ixJ_16 (F := Ideal)) t).trans
    (select_false_apply _ _ (ix1 t)))).trans
    (table_read lit33 (fun m => ((2 * m + 18 : ℕ) : ℤ)) tabJ_16 (S23.rowMajor (ix1 t)) t (rowMajor_ix1 t))
theorem pool_16_eq (x : FVec Ideal S32x512x64 .f32) :
    ∀ (b : Fin 32) (c : Fin 512) (t : Fin 23), pool_16 (F := Ideal) x (ix3 b c t) = P (rowOf x b c) 16 t.val :=
  pool_step2 x (pool_15 (F := Ideal) x) _ reduceWindows_S32x512x24_S32x512x23_w1s1p0_0_w1s1p0_0_w2s1p0_0 h_S_
    (init_bot bcast_S_S_ h_S_) 15 (by decide) (by decide) (pool_15_eq x)
theorem acc_16_eq (x : FVec Ideal S32x512x64 .f32) :
    ∀ (b : Fin 32) (c : Fin 512) (i j : Fin 64), acc_16 (F := Ideal) x (ix4 b c i j) = A (rowOf x b c) 17 i.val j.val :=
  acc_step 16 x scatter_S32x512x64x64_S23x2_S32x512x23_01_23_23_1 rfl rfl rfl rfl (acc_15 (F := Ideal) x)
    (idx_16 (F := Ideal)) (pool_16 (F := Ideal) x) idxI_16 idxJ_16
    (by intro t; rw [show stride 16 = 2 by decide, show off 16 = 18 by decide]; omega) (acc_15_eq x) (pool_16_eq x)

/-! ## Stage 17: 22 entries at stride 2, offset 20 -/

theorem tabI_17 : ∀ m : Fin 22, (lit34 m).toInt = ((2 * m.val : ℕ) : ℤ) := by decide
theorem tabJ_17 : ∀ m : Fin 22, (lit35 m).toInt = ((2 * m.val + 20 : ℕ) : ℤ) := by decide
theorem idxI_17 (t : Fin 22) : ((idx_17 (F := Ideal)) (ix2 t 0)).toInt = ((stride 17 * t.val : ℕ) : ℤ) :=
  (congrArg BitVec.toInt ((idx_col0 bcast_S22_S22x1_0 concatenates_S22x1_S22x1_S22x2_d1 (ixI_17 (F := Ideal)) (ixJ_17 (F := Ideal)) t).trans
    (select_false_apply _ _ (ix1 t)))).trans
    (table_read lit34 (fun m => ((2 * m : ℕ) : ℤ)) tabI_17 (S22.rowMajor (ix1 t)) t (rowMajor_ix1 t))
theorem idxJ_17 (t : Fin 22) : ((idx_17 (F := Ideal)) (ix2 t 1)).toInt = ((stride 17 * t.val + off 17 : ℕ) : ℤ) :=
  (congrArg BitVec.toInt ((idx_col1 bcast_S22_S22x1_0 concatenates_S22x1_S22x1_S22x2_d1 (ixI_17 (F := Ideal)) (ixJ_17 (F := Ideal)) t).trans
    (select_false_apply _ _ (ix1 t)))).trans
    (table_read lit35 (fun m => ((2 * m + 20 : ℕ) : ℤ)) tabJ_17 (S22.rowMajor (ix1 t)) t (rowMajor_ix1 t))
theorem pool_17_eq (x : FVec Ideal S32x512x64 .f32) :
    ∀ (b : Fin 32) (c : Fin 512) (t : Fin 22), pool_17 (F := Ideal) x (ix3 b c t) = P (rowOf x b c) 17 t.val :=
  pool_step2 x (pool_16 (F := Ideal) x) _ reduceWindows_S32x512x23_S32x512x22_w1s1p0_0_w1s1p0_0_w2s1p0_0 h_S_
    (init_bot bcast_S_S_ h_S_) 16 (by decide) (by decide) (pool_16_eq x)
theorem acc_17_eq (x : FVec Ideal S32x512x64 .f32) :
    ∀ (b : Fin 32) (c : Fin 512) (i j : Fin 64), acc_17 (F := Ideal) x (ix4 b c i j) = A (rowOf x b c) 18 i.val j.val :=
  acc_step 17 x scatter_S32x512x64x64_S22x2_S32x512x22_01_23_23_1 rfl rfl rfl rfl (acc_16 (F := Ideal) x)
    (idx_17 (F := Ideal)) (pool_17 (F := Ideal) x) idxI_17 idxJ_17
    (by intro t; rw [show stride 17 = 2 by decide, show off 17 = 20 by decide]; omega) (acc_16_eq x) (pool_17_eq x)

/-! ## Stage 18: 21 entries at stride 2, offset 22 -/

theorem tabI_18 : ∀ m : Fin 21, (lit36 m).toInt = ((2 * m.val : ℕ) : ℤ) := by decide
theorem tabJ_18 : ∀ m : Fin 21, (lit37 m).toInt = ((2 * m.val + 22 : ℕ) : ℤ) := by decide
theorem idxI_18 (t : Fin 21) : ((idx_18 (F := Ideal)) (ix2 t 0)).toInt = ((stride 18 * t.val : ℕ) : ℤ) :=
  (congrArg BitVec.toInt ((idx_col0 bcast_S21_S21x1_0 concatenates_S21x1_S21x1_S21x2_d1 (ixI_18 (F := Ideal)) (ixJ_18 (F := Ideal)) t).trans
    (select_false_apply _ _ (ix1 t)))).trans
    (table_read lit36 (fun m => ((2 * m : ℕ) : ℤ)) tabI_18 (S21.rowMajor (ix1 t)) t (rowMajor_ix1 t))
theorem idxJ_18 (t : Fin 21) : ((idx_18 (F := Ideal)) (ix2 t 1)).toInt = ((stride 18 * t.val + off 18 : ℕ) : ℤ) :=
  (congrArg BitVec.toInt ((idx_col1 bcast_S21_S21x1_0 concatenates_S21x1_S21x1_S21x2_d1 (ixI_18 (F := Ideal)) (ixJ_18 (F := Ideal)) t).trans
    (select_false_apply _ _ (ix1 t)))).trans
    (table_read lit37 (fun m => ((2 * m + 22 : ℕ) : ℤ)) tabJ_18 (S21.rowMajor (ix1 t)) t (rowMajor_ix1 t))
theorem pool_18_eq (x : FVec Ideal S32x512x64 .f32) :
    ∀ (b : Fin 32) (c : Fin 512) (t : Fin 21), pool_18 (F := Ideal) x (ix3 b c t) = P (rowOf x b c) 18 t.val :=
  pool_step2 x (pool_17 (F := Ideal) x) _ reduceWindows_S32x512x22_S32x512x21_w1s1p0_0_w1s1p0_0_w2s1p0_0 h_S_
    (init_bot bcast_S_S_ h_S_) 17 (by decide) (by decide) (pool_17_eq x)
theorem acc_18_eq (x : FVec Ideal S32x512x64 .f32) :
    ∀ (b : Fin 32) (c : Fin 512) (i j : Fin 64), acc_18 (F := Ideal) x (ix4 b c i j) = A (rowOf x b c) 19 i.val j.val :=
  acc_step 18 x scatter_S32x512x64x64_S21x2_S32x512x21_01_23_23_1 rfl rfl rfl rfl (acc_17 (F := Ideal) x)
    (idx_18 (F := Ideal)) (pool_18 (F := Ideal) x) idxI_18 idxJ_18
    (by intro t; rw [show stride 18 = 2 by decide, show off 18 = 22 by decide]; omega) (acc_17_eq x) (pool_18_eq x)

/-! ## Stage 19: 20 entries at stride 2, offset 24 -/

theorem tabI_19 : ∀ m : Fin 20, (lit38 m).toInt = ((2 * m.val : ℕ) : ℤ) := by decide
theorem tabJ_19 : ∀ m : Fin 20, (lit39 m).toInt = ((2 * m.val + 24 : ℕ) : ℤ) := by decide
theorem idxI_19 (t : Fin 20) : ((idx_19 (F := Ideal)) (ix2 t 0)).toInt = ((stride 19 * t.val : ℕ) : ℤ) :=
  (congrArg BitVec.toInt ((idx_col0 bcast_S20_S20x1_0 concatenates_S20x1_S20x1_S20x2_d1 (ixI_19 (F := Ideal)) (ixJ_19 (F := Ideal)) t).trans
    (select_false_apply _ _ (ix1 t)))).trans
    (table_read lit38 (fun m => ((2 * m : ℕ) : ℤ)) tabI_19 (S20.rowMajor (ix1 t)) t (rowMajor_ix1 t))
theorem idxJ_19 (t : Fin 20) : ((idx_19 (F := Ideal)) (ix2 t 1)).toInt = ((stride 19 * t.val + off 19 : ℕ) : ℤ) :=
  (congrArg BitVec.toInt ((idx_col1 bcast_S20_S20x1_0 concatenates_S20x1_S20x1_S20x2_d1 (ixI_19 (F := Ideal)) (ixJ_19 (F := Ideal)) t).trans
    (select_false_apply _ _ (ix1 t)))).trans
    (table_read lit39 (fun m => ((2 * m + 24 : ℕ) : ℤ)) tabJ_19 (S20.rowMajor (ix1 t)) t (rowMajor_ix1 t))
theorem pool_19_eq (x : FVec Ideal S32x512x64 .f32) :
    ∀ (b : Fin 32) (c : Fin 512) (t : Fin 20), pool_19 (F := Ideal) x (ix3 b c t) = P (rowOf x b c) 19 t.val :=
  pool_step2 x (pool_18 (F := Ideal) x) _ reduceWindows_S32x512x21_S32x512x20_w1s1p0_0_w1s1p0_0_w2s1p0_0 h_S_
    (init_bot bcast_S_S_ h_S_) 18 (by decide) (by decide) (pool_18_eq x)
theorem acc_19_eq (x : FVec Ideal S32x512x64 .f32) :
    ∀ (b : Fin 32) (c : Fin 512) (i j : Fin 64), acc_19 (F := Ideal) x (ix4 b c i j) = A (rowOf x b c) 20 i.val j.val :=
  acc_step 19 x scatter_S32x512x64x64_S20x2_S32x512x20_01_23_23_1 rfl rfl rfl rfl (acc_18 (F := Ideal) x)
    (idx_19 (F := Ideal)) (pool_19 (F := Ideal) x) idxI_19 idxJ_19
    (by intro t; rw [show stride 19 = 2 by decide, show off 19 = 24 by decide]; omega) (acc_18_eq x) (pool_19_eq x)

/-! ## Stage 20: 19 entries at stride 2, offset 26 -/

theorem tabI_20 : ∀ m : Fin 19, (lit40 m).toInt = ((2 * m.val : ℕ) : ℤ) := by decide
theorem tabJ_20 : ∀ m : Fin 19, (lit41 m).toInt = ((2 * m.val + 26 : ℕ) : ℤ) := by decide
theorem idxI_20 (t : Fin 19) : ((idx_20 (F := Ideal)) (ix2 t 0)).toInt = ((stride 20 * t.val : ℕ) : ℤ) :=
  (congrArg BitVec.toInt ((idx_col0 bcast_S19_S19x1_0 concatenates_S19x1_S19x1_S19x2_d1 (ixI_20 (F := Ideal)) (ixJ_20 (F := Ideal)) t).trans
    (select_false_apply _ _ (ix1 t)))).trans
    (table_read lit40 (fun m => ((2 * m : ℕ) : ℤ)) tabI_20 (S19.rowMajor (ix1 t)) t (rowMajor_ix1 t))
theorem idxJ_20 (t : Fin 19) : ((idx_20 (F := Ideal)) (ix2 t 1)).toInt = ((stride 20 * t.val + off 20 : ℕ) : ℤ) :=
  (congrArg BitVec.toInt ((idx_col1 bcast_S19_S19x1_0 concatenates_S19x1_S19x1_S19x2_d1 (ixI_20 (F := Ideal)) (ixJ_20 (F := Ideal)) t).trans
    (select_false_apply _ _ (ix1 t)))).trans
    (table_read lit41 (fun m => ((2 * m + 26 : ℕ) : ℤ)) tabJ_20 (S19.rowMajor (ix1 t)) t (rowMajor_ix1 t))
theorem pool_20_eq (x : FVec Ideal S32x512x64 .f32) :
    ∀ (b : Fin 32) (c : Fin 512) (t : Fin 19), pool_20 (F := Ideal) x (ix3 b c t) = P (rowOf x b c) 20 t.val :=
  pool_step2 x (pool_19 (F := Ideal) x) _ reduceWindows_S32x512x20_S32x512x19_w1s1p0_0_w1s1p0_0_w2s1p0_0 h_S_
    (init_bot bcast_S_S_ h_S_) 19 (by decide) (by decide) (pool_19_eq x)
theorem acc_20_eq (x : FVec Ideal S32x512x64 .f32) :
    ∀ (b : Fin 32) (c : Fin 512) (i j : Fin 64), acc_20 (F := Ideal) x (ix4 b c i j) = A (rowOf x b c) 21 i.val j.val :=
  acc_step 20 x scatter_S32x512x64x64_S19x2_S32x512x19_01_23_23_1 rfl rfl rfl rfl (acc_19 (F := Ideal) x)
    (idx_20 (F := Ideal)) (pool_20 (F := Ideal) x) idxI_20 idxJ_20
    (by intro t; rw [show stride 20 = 2 by decide, show off 20 = 26 by decide]; omega) (acc_19_eq x) (pool_20_eq x)

/-! ## Stage 21: 18 entries at stride 2, offset 28 -/

theorem tabI_21 : ∀ m : Fin 18, (lit42 m).toInt = ((2 * m.val : ℕ) : ℤ) := by decide
theorem tabJ_21 : ∀ m : Fin 18, (lit43 m).toInt = ((2 * m.val + 28 : ℕ) : ℤ) := by decide
theorem idxI_21 (t : Fin 18) : ((idx_21 (F := Ideal)) (ix2 t 0)).toInt = ((stride 21 * t.val : ℕ) : ℤ) :=
  (congrArg BitVec.toInt ((idx_col0 bcast_S18_S18x1_0 concatenates_S18x1_S18x1_S18x2_d1 (ixI_21 (F := Ideal)) (ixJ_21 (F := Ideal)) t).trans
    (select_false_apply _ _ (ix1 t)))).trans
    (table_read lit42 (fun m => ((2 * m : ℕ) : ℤ)) tabI_21 (S18.rowMajor (ix1 t)) t (rowMajor_ix1 t))
theorem idxJ_21 (t : Fin 18) : ((idx_21 (F := Ideal)) (ix2 t 1)).toInt = ((stride 21 * t.val + off 21 : ℕ) : ℤ) :=
  (congrArg BitVec.toInt ((idx_col1 bcast_S18_S18x1_0 concatenates_S18x1_S18x1_S18x2_d1 (ixI_21 (F := Ideal)) (ixJ_21 (F := Ideal)) t).trans
    (select_false_apply _ _ (ix1 t)))).trans
    (table_read lit43 (fun m => ((2 * m + 28 : ℕ) : ℤ)) tabJ_21 (S18.rowMajor (ix1 t)) t (rowMajor_ix1 t))
theorem pool_21_eq (x : FVec Ideal S32x512x64 .f32) :
    ∀ (b : Fin 32) (c : Fin 512) (t : Fin 18), pool_21 (F := Ideal) x (ix3 b c t) = P (rowOf x b c) 21 t.val :=
  pool_step2 x (pool_20 (F := Ideal) x) _ reduceWindows_S32x512x19_S32x512x18_w1s1p0_0_w1s1p0_0_w2s1p0_0 h_S_
    (init_bot bcast_S_S_ h_S_) 20 (by decide) (by decide) (pool_20_eq x)
theorem acc_21_eq (x : FVec Ideal S32x512x64 .f32) :
    ∀ (b : Fin 32) (c : Fin 512) (i j : Fin 64), acc_21 (F := Ideal) x (ix4 b c i j) = A (rowOf x b c) 22 i.val j.val :=
  acc_step 21 x scatter_S32x512x64x64_S18x2_S32x512x18_01_23_23_1 rfl rfl rfl rfl (acc_20 (F := Ideal) x)
    (idx_21 (F := Ideal)) (pool_21 (F := Ideal) x) idxI_21 idxJ_21
    (by intro t; rw [show stride 21 = 2 by decide, show off 21 = 28 by decide]; omega) (acc_20_eq x) (pool_21_eq x)

/-! ## Stage 22: 17 entries at stride 2, offset 30 -/

theorem tabI_22 : ∀ m : Fin 17, (lit44 m).toInt = ((2 * m.val : ℕ) : ℤ) := by decide
theorem tabJ_22 : ∀ m : Fin 17, (lit45 m).toInt = ((2 * m.val + 30 : ℕ) : ℤ) := by decide
theorem idxI_22 (t : Fin 17) : ((idx_22 (F := Ideal)) (ix2 t 0)).toInt = ((stride 22 * t.val : ℕ) : ℤ) :=
  (congrArg BitVec.toInt ((idx_col0 bcast_S17_S17x1_0 concatenates_S17x1_S17x1_S17x2_d1 (ixI_22 (F := Ideal)) (ixJ_22 (F := Ideal)) t).trans
    (select_false_apply _ _ (ix1 t)))).trans
    (table_read lit44 (fun m => ((2 * m : ℕ) : ℤ)) tabI_22 (S17.rowMajor (ix1 t)) t (rowMajor_ix1 t))
theorem idxJ_22 (t : Fin 17) : ((idx_22 (F := Ideal)) (ix2 t 1)).toInt = ((stride 22 * t.val + off 22 : ℕ) : ℤ) :=
  (congrArg BitVec.toInt ((idx_col1 bcast_S17_S17x1_0 concatenates_S17x1_S17x1_S17x2_d1 (ixI_22 (F := Ideal)) (ixJ_22 (F := Ideal)) t).trans
    (select_false_apply _ _ (ix1 t)))).trans
    (table_read lit45 (fun m => ((2 * m + 30 : ℕ) : ℤ)) tabJ_22 (S17.rowMajor (ix1 t)) t (rowMajor_ix1 t))
theorem pool_22_eq (x : FVec Ideal S32x512x64 .f32) :
    ∀ (b : Fin 32) (c : Fin 512) (t : Fin 17), pool_22 (F := Ideal) x (ix3 b c t) = P (rowOf x b c) 22 t.val :=
  pool_step2 x (pool_21 (F := Ideal) x) _ reduceWindows_S32x512x18_S32x512x17_w1s1p0_0_w1s1p0_0_w2s1p0_0 h_S_
    (init_bot bcast_S_S_ h_S_) 21 (by decide) (by decide) (pool_21_eq x)
theorem acc_22_eq (x : FVec Ideal S32x512x64 .f32) :
    ∀ (b : Fin 32) (c : Fin 512) (i j : Fin 64), acc_22 (F := Ideal) x (ix4 b c i j) = A (rowOf x b c) 23 i.val j.val :=
  acc_step 22 x scatter_S32x512x64x64_S17x2_S32x512x17_01_23_23_1 rfl rfl rfl rfl (acc_21 (F := Ideal) x)
    (idx_22 (F := Ideal)) (pool_22 (F := Ideal) x) idxI_22 idxJ_22
    (by intro t; rw [show stride 22 = 2 by decide, show off 22 = 30 by decide]; omega) (acc_21_eq x) (pool_22_eq x)

/-! ## Stage 23: 8 entries at stride 4, offset 34 -/

theorem tabI_23 : ∀ m : Fin 8, (lit46 m).toInt = ((4 * m.val : ℕ) : ℤ) := by decide
theorem tabJ_23 : ∀ m : Fin 8, (lit47 m).toInt = ((4 * m.val + 34 : ℕ) : ℤ) := by decide
theorem idxI_23 (t : Fin 8) : ((idx_23 (F := Ideal)) (ix2 t 0)).toInt = ((stride 23 * t.val : ℕ) : ℤ) :=
  (congrArg BitVec.toInt ((idx_col0 bcast_S8_S8x1_0 concatenates_S8x1_S8x1_S8x2_d1 (ixI_23 (F := Ideal)) (ixJ_23 (F := Ideal)) t).trans
    (select_false_apply _ _ (ix1 t)))).trans
    (table_read lit46 (fun m => ((4 * m : ℕ) : ℤ)) tabI_23 (S8.rowMajor (ix1 t)) t (rowMajor_ix1 t))
theorem idxJ_23 (t : Fin 8) : ((idx_23 (F := Ideal)) (ix2 t 1)).toInt = ((stride 23 * t.val + off 23 : ℕ) : ℤ) :=
  (congrArg BitVec.toInt ((idx_col1 bcast_S8_S8x1_0 concatenates_S8x1_S8x1_S8x2_d1 (ixI_23 (F := Ideal)) (ixJ_23 (F := Ideal)) t).trans
    (select_false_apply _ _ (ix1 t)))).trans
    (table_read lit47 (fun m => ((4 * m + 34 : ℕ) : ℤ)) tabJ_23 (S8.rowMajor (ix1 t)) t (rowMajor_ix1 t))
theorem pool_23_eq (x : FVec Ideal S32x512x64 .f32) :
    ∀ (b : Fin 32) (c : Fin 512) (t : Fin 8), pool_23 (F := Ideal) x (ix3 b c t) = P (rowOf x b c) 23 t.val :=
  pool_step3 x (pool_22 (F := Ideal) x) _ reduceWindows_S32x512x17_S32x512x8_w1s1p0_0_w1s1p0_0_w3s2p0_0 h_S_
    (init_bot bcast_S_S_ h_S_) 22 (by decide) (by decide) (pool_22_eq x)
theorem acc_23_eq (x : FVec Ideal S32x512x64 .f32) :
    ∀ (b : Fin 32) (c : Fin 512) (i j : Fin 64), acc_23 (F := Ideal) x (ix4 b c i j) = A (rowOf x b c) 24 i.val j.val :=
  acc_step 23 x scatter_S32x512x64x64_S8x2_S32x512x8_01_23_23_1 rfl rfl rfl rfl (acc_22 (F := Ideal) x)
    (idx_23 (F := Ideal)) (pool_23 (F := Ideal) x) idxI_23 idxJ_23
    (by intro t; rw [show stride 23 = 4 by decide, show off 23 = 34 by decide]; omega) (acc_22_eq x) (pool_23_eq x)

/-! ## Stage 24: 7 entries at stride 4, offset 38 -/

theorem tabI_24 : ∀ m : Fin 7, (lit48 m).toInt = ((4 * m.val : ℕ) : ℤ) := by decide
theorem tabJ_24 : ∀ m : Fin 7, (lit49 m).toInt = ((4 * m.val + 38 : ℕ) : ℤ) := by decide
theorem idxI_24 (t : Fin 7) : ((idx_24 (F := Ideal)) (ix2 t 0)).toInt = ((stride 24 * t.val : ℕ) : ℤ) :=
  (congrArg BitVec.toInt ((idx_col0 bcast_S7_S7x1_0 concatenates_S7x1_S7x1_S7x2_d1 (ixI_24 (F := Ideal)) (ixJ_24 (F := Ideal)) t).trans
    (select_false_apply _ _ (ix1 t)))).trans
    (table_read lit48 (fun m => ((4 * m : ℕ) : ℤ)) tabI_24 (S7.rowMajor (ix1 t)) t (rowMajor_ix1 t))
theorem idxJ_24 (t : Fin 7) : ((idx_24 (F := Ideal)) (ix2 t 1)).toInt = ((stride 24 * t.val + off 24 : ℕ) : ℤ) :=
  (congrArg BitVec.toInt ((idx_col1 bcast_S7_S7x1_0 concatenates_S7x1_S7x1_S7x2_d1 (ixI_24 (F := Ideal)) (ixJ_24 (F := Ideal)) t).trans
    (select_false_apply _ _ (ix1 t)))).trans
    (table_read lit49 (fun m => ((4 * m + 38 : ℕ) : ℤ)) tabJ_24 (S7.rowMajor (ix1 t)) t (rowMajor_ix1 t))
theorem pool_24_eq (x : FVec Ideal S32x512x64 .f32) :
    ∀ (b : Fin 32) (c : Fin 512) (t : Fin 7), pool_24 (F := Ideal) x (ix3 b c t) = P (rowOf x b c) 24 t.val :=
  pool_step2 x (pool_23 (F := Ideal) x) _ reduceWindows_S32x512x8_S32x512x7_w1s1p0_0_w1s1p0_0_w2s1p0_0 h_S_
    (init_bot bcast_S_S_ h_S_) 23 (by decide) (by decide) (pool_23_eq x)
theorem acc_24_eq (x : FVec Ideal S32x512x64 .f32) :
    ∀ (b : Fin 32) (c : Fin 512) (i j : Fin 64), acc_24 (F := Ideal) x (ix4 b c i j) = A (rowOf x b c) 25 i.val j.val :=
  acc_step 24 x scatter_S32x512x64x64_S7x2_S32x512x7_01_23_23_1 rfl rfl rfl rfl (acc_23 (F := Ideal) x)
    (idx_24 (F := Ideal)) (pool_24 (F := Ideal) x) idxI_24 idxJ_24
    (by intro t; rw [show stride 24 = 4 by decide, show off 24 = 38 by decide]; omega) (acc_23_eq x) (pool_24_eq x)

/-! ## Stage 25: 6 entries at stride 4, offset 42 -/

theorem tabI_25 : ∀ m : Fin 6, (lit50 m).toInt = ((4 * m.val : ℕ) : ℤ) := by decide
theorem tabJ_25 : ∀ m : Fin 6, (lit51 m).toInt = ((4 * m.val + 42 : ℕ) : ℤ) := by decide
theorem idxI_25 (t : Fin 6) : ((idx_25 (F := Ideal)) (ix2 t 0)).toInt = ((stride 25 * t.val : ℕ) : ℤ) :=
  (congrArg BitVec.toInt ((idx_col0 bcast_S6_S6x1_0 concatenates_S6x1_S6x1_S6x2_d1 (ixI_25 (F := Ideal)) (ixJ_25 (F := Ideal)) t).trans
    (select_false_apply _ _ (ix1 t)))).trans
    (table_read lit50 (fun m => ((4 * m : ℕ) : ℤ)) tabI_25 (S6.rowMajor (ix1 t)) t (rowMajor_ix1 t))
theorem idxJ_25 (t : Fin 6) : ((idx_25 (F := Ideal)) (ix2 t 1)).toInt = ((stride 25 * t.val + off 25 : ℕ) : ℤ) :=
  (congrArg BitVec.toInt ((idx_col1 bcast_S6_S6x1_0 concatenates_S6x1_S6x1_S6x2_d1 (ixI_25 (F := Ideal)) (ixJ_25 (F := Ideal)) t).trans
    (select_false_apply _ _ (ix1 t)))).trans
    (table_read lit51 (fun m => ((4 * m + 42 : ℕ) : ℤ)) tabJ_25 (S6.rowMajor (ix1 t)) t (rowMajor_ix1 t))
theorem pool_25_eq (x : FVec Ideal S32x512x64 .f32) :
    ∀ (b : Fin 32) (c : Fin 512) (t : Fin 6), pool_25 (F := Ideal) x (ix3 b c t) = P (rowOf x b c) 25 t.val :=
  pool_step2 x (pool_24 (F := Ideal) x) _ reduceWindows_S32x512x7_S32x512x6_w1s1p0_0_w1s1p0_0_w2s1p0_0 h_S_
    (init_bot bcast_S_S_ h_S_) 24 (by decide) (by decide) (pool_24_eq x)
theorem acc_25_eq (x : FVec Ideal S32x512x64 .f32) :
    ∀ (b : Fin 32) (c : Fin 512) (i j : Fin 64), acc_25 (F := Ideal) x (ix4 b c i j) = A (rowOf x b c) 26 i.val j.val :=
  acc_step 25 x scatter_S32x512x64x64_S6x2_S32x512x6_01_23_23_1 rfl rfl rfl rfl (acc_24 (F := Ideal) x)
    (idx_25 (F := Ideal)) (pool_25 (F := Ideal) x) idxI_25 idxJ_25
    (by intro t; rw [show stride 25 = 4 by decide, show off 25 = 42 by decide]; omega) (acc_24_eq x) (pool_25_eq x)

/-! ## Stage 26: 5 entries at stride 4, offset 46 -/

theorem tabI_26 : ∀ m : Fin 5, (lit52 m).toInt = ((4 * m.val : ℕ) : ℤ) := by decide
theorem tabJ_26 : ∀ m : Fin 5, (lit53 m).toInt = ((4 * m.val + 46 : ℕ) : ℤ) := by decide
theorem idxI_26 (t : Fin 5) : ((idx_26 (F := Ideal)) (ix2 t 0)).toInt = ((stride 26 * t.val : ℕ) : ℤ) :=
  (congrArg BitVec.toInt ((idx_col0 bcast_S5_S5x1_0 concatenates_S5x1_S5x1_S5x2_d1 (ixI_26 (F := Ideal)) (ixJ_26 (F := Ideal)) t).trans
    (select_false_apply _ _ (ix1 t)))).trans
    (table_read lit52 (fun m => ((4 * m : ℕ) : ℤ)) tabI_26 (S5.rowMajor (ix1 t)) t (rowMajor_ix1 t))
theorem idxJ_26 (t : Fin 5) : ((idx_26 (F := Ideal)) (ix2 t 1)).toInt = ((stride 26 * t.val + off 26 : ℕ) : ℤ) :=
  (congrArg BitVec.toInt ((idx_col1 bcast_S5_S5x1_0 concatenates_S5x1_S5x1_S5x2_d1 (ixI_26 (F := Ideal)) (ixJ_26 (F := Ideal)) t).trans
    (select_false_apply _ _ (ix1 t)))).trans
    (table_read lit53 (fun m => ((4 * m + 46 : ℕ) : ℤ)) tabJ_26 (S5.rowMajor (ix1 t)) t (rowMajor_ix1 t))
theorem pool_26_eq (x : FVec Ideal S32x512x64 .f32) :
    ∀ (b : Fin 32) (c : Fin 512) (t : Fin 5), pool_26 (F := Ideal) x (ix3 b c t) = P (rowOf x b c) 26 t.val :=
  pool_step2 x (pool_25 (F := Ideal) x) _ reduceWindows_S32x512x6_S32x512x5_w1s1p0_0_w1s1p0_0_w2s1p0_0 h_S_
    (init_bot bcast_S_S_ h_S_) 25 (by decide) (by decide) (pool_25_eq x)
theorem acc_26_eq (x : FVec Ideal S32x512x64 .f32) :
    ∀ (b : Fin 32) (c : Fin 512) (i j : Fin 64), acc_26 (F := Ideal) x (ix4 b c i j) = A (rowOf x b c) 27 i.val j.val :=
  acc_step 26 x scatter_S32x512x64x64_S5x2_S32x512x5_01_23_23_1 rfl rfl rfl rfl (acc_25 (F := Ideal) x)
    (idx_26 (F := Ideal)) (pool_26 (F := Ideal) x) idxI_26 idxJ_26
    (by intro t; rw [show stride 26 = 4 by decide, show off 26 = 46 by decide]; omega) (acc_25_eq x) (pool_26_eq x)

/-! ## Stage 27: 4 entries at stride 4, offset 50 -/

theorem tabI_27 : ∀ m : Fin 4, (lit54 m).toInt = ((4 * m.val : ℕ) : ℤ) := by decide
theorem tabJ_27 : ∀ m : Fin 4, (lit55 m).toInt = ((4 * m.val + 50 : ℕ) : ℤ) := by decide
theorem idxI_27 (t : Fin 4) : ((idx_27 (F := Ideal)) (ix2 t 0)).toInt = ((stride 27 * t.val : ℕ) : ℤ) :=
  (congrArg BitVec.toInt ((idx_col0 bcast_S4_S4x1_0 concatenates_S4x1_S4x1_S4x2_d1 (ixI_27 (F := Ideal)) (ixJ_27 (F := Ideal)) t).trans
    (select_false_apply _ _ (ix1 t)))).trans
    (table_read lit54 (fun m => ((4 * m : ℕ) : ℤ)) tabI_27 (S4.rowMajor (ix1 t)) t (rowMajor_ix1 t))
theorem idxJ_27 (t : Fin 4) : ((idx_27 (F := Ideal)) (ix2 t 1)).toInt = ((stride 27 * t.val + off 27 : ℕ) : ℤ) :=
  (congrArg BitVec.toInt ((idx_col1 bcast_S4_S4x1_0 concatenates_S4x1_S4x1_S4x2_d1 (ixI_27 (F := Ideal)) (ixJ_27 (F := Ideal)) t).trans
    (select_false_apply _ _ (ix1 t)))).trans
    (table_read lit55 (fun m => ((4 * m + 50 : ℕ) : ℤ)) tabJ_27 (S4.rowMajor (ix1 t)) t (rowMajor_ix1 t))
theorem pool_27_eq (x : FVec Ideal S32x512x64 .f32) :
    ∀ (b : Fin 32) (c : Fin 512) (t : Fin 4), pool_27 (F := Ideal) x (ix3 b c t) = P (rowOf x b c) 27 t.val :=
  pool_step2 x (pool_26 (F := Ideal) x) _ reduceWindows_S32x512x5_S32x512x4_w1s1p0_0_w1s1p0_0_w2s1p0_0 h_S_
    (init_bot bcast_S_S_ h_S_) 26 (by decide) (by decide) (pool_26_eq x)
theorem acc_27_eq (x : FVec Ideal S32x512x64 .f32) :
    ∀ (b : Fin 32) (c : Fin 512) (i j : Fin 64), acc_27 (F := Ideal) x (ix4 b c i j) = A (rowOf x b c) 28 i.val j.val :=
  acc_step 27 x scatter_S32x512x64x64_S4x2_S32x512x4_01_23_23_1 rfl rfl rfl rfl (acc_26 (F := Ideal) x)
    (idx_27 (F := Ideal)) (pool_27 (F := Ideal) x) idxI_27 idxJ_27
    (by intro t; rw [show stride 27 = 4 by decide, show off 27 = 50 by decide]; omega) (acc_26_eq x) (pool_27_eq x)

/-! ## Stage 28: 3 entries at stride 4, offset 54 -/

theorem tabI_28 : ∀ m : Fin 3, (lit56 m).toInt = ((4 * m.val : ℕ) : ℤ) := by decide
theorem tabJ_28 : ∀ m : Fin 3, (lit57 m).toInt = ((4 * m.val + 54 : ℕ) : ℤ) := by decide
theorem idxI_28 (t : Fin 3) : ((idx_28 (F := Ideal)) (ix2 t 0)).toInt = ((stride 28 * t.val : ℕ) : ℤ) :=
  (congrArg BitVec.toInt ((idx_col0 bcast_S3_S3x1_0 concatenates_S3x1_S3x1_S3x2_d1 (ixI_28 (F := Ideal)) (ixJ_28 (F := Ideal)) t).trans
    (select_false_apply _ _ (ix1 t)))).trans
    (table_read lit56 (fun m => ((4 * m : ℕ) : ℤ)) tabI_28 (S3.rowMajor (ix1 t)) t (rowMajor_ix1 t))
theorem idxJ_28 (t : Fin 3) : ((idx_28 (F := Ideal)) (ix2 t 1)).toInt = ((stride 28 * t.val + off 28 : ℕ) : ℤ) :=
  (congrArg BitVec.toInt ((idx_col1 bcast_S3_S3x1_0 concatenates_S3x1_S3x1_S3x2_d1 (ixI_28 (F := Ideal)) (ixJ_28 (F := Ideal)) t).trans
    (select_false_apply _ _ (ix1 t)))).trans
    (table_read lit57 (fun m => ((4 * m + 54 : ℕ) : ℤ)) tabJ_28 (S3.rowMajor (ix1 t)) t (rowMajor_ix1 t))
theorem pool_28_eq (x : FVec Ideal S32x512x64 .f32) :
    ∀ (b : Fin 32) (c : Fin 512) (t : Fin 3), pool_28 (F := Ideal) x (ix3 b c t) = P (rowOf x b c) 28 t.val :=
  pool_step2 x (pool_27 (F := Ideal) x) _ reduceWindows_S32x512x4_S32x512x3_w1s1p0_0_w1s1p0_0_w2s1p0_0 h_S_
    (init_bot bcast_S_S_ h_S_) 27 (by decide) (by decide) (pool_27_eq x)
theorem acc_28_eq (x : FVec Ideal S32x512x64 .f32) :
    ∀ (b : Fin 32) (c : Fin 512) (i j : Fin 64), acc_28 (F := Ideal) x (ix4 b c i j) = A (rowOf x b c) 29 i.val j.val :=
  acc_step 28 x scatter_S32x512x64x64_S3x2_S32x512x3_01_23_23_1 rfl rfl rfl rfl (acc_27 (F := Ideal) x)
    (idx_28 (F := Ideal)) (pool_28 (F := Ideal) x) idxI_28 idxJ_28
    (by intro t; rw [show stride 28 = 4 by decide, show off 28 = 54 by decide]; omega) (acc_27_eq x) (pool_28_eq x)

/-! ## Stage 29: 2 entries at stride 4, offset 58 -/

theorem tabI_29 : ∀ m : Fin 2, (lit58 m).toInt = ((4 * m.val : ℕ) : ℤ) := by decide
theorem tabJ_29 : ∀ m : Fin 2, (lit59 m).toInt = ((4 * m.val + 58 : ℕ) : ℤ) := by decide
theorem idxI_29 (t : Fin 2) : ((idx_29 (F := Ideal)) (ix2 t 0)).toInt = ((stride 29 * t.val : ℕ) : ℤ) :=
  (congrArg BitVec.toInt ((idx_col0 bcast_S2_S2x1_0 concatenates_S2x1_S2x1_S2x2_d1 (ixI_29 (F := Ideal)) (ixJ_29 (F := Ideal)) t).trans
    (select_false_apply _ _ (ix1 t)))).trans
    (table_read lit58 (fun m => ((4 * m : ℕ) : ℤ)) tabI_29 (S2.rowMajor (ix1 t)) t (rowMajor_ix1 t))
theorem idxJ_29 (t : Fin 2) : ((idx_29 (F := Ideal)) (ix2 t 1)).toInt = ((stride 29 * t.val + off 29 : ℕ) : ℤ) :=
  (congrArg BitVec.toInt ((idx_col1 bcast_S2_S2x1_0 concatenates_S2x1_S2x1_S2x2_d1 (ixI_29 (F := Ideal)) (ixJ_29 (F := Ideal)) t).trans
    (select_false_apply _ _ (ix1 t)))).trans
    (table_read lit59 (fun m => ((4 * m + 58 : ℕ) : ℤ)) tabJ_29 (S2.rowMajor (ix1 t)) t (rowMajor_ix1 t))
theorem pool_29_eq (x : FVec Ideal S32x512x64 .f32) :
    ∀ (b : Fin 32) (c : Fin 512) (t : Fin 2), pool_29 (F := Ideal) x (ix3 b c t) = P (rowOf x b c) 29 t.val :=
  pool_step2 x (pool_28 (F := Ideal) x) _ reduceWindows_S32x512x3_S32x512x2_w1s1p0_0_w1s1p0_0_w2s1p0_0 h_S_
    (init_bot bcast_S_S_ h_S_) 28 (by decide) (by decide) (pool_28_eq x)
theorem acc_29_eq (x : FVec Ideal S32x512x64 .f32) :
    ∀ (b : Fin 32) (c : Fin 512) (i j : Fin 64), acc_29 (F := Ideal) x (ix4 b c i j) = A (rowOf x b c) 30 i.val j.val :=
  acc_step 29 x scatter_S32x512x64x64_S2x2_S32x512x2_01_23_23_1 rfl rfl rfl rfl (acc_28 (F := Ideal) x)
    (idx_29 (F := Ideal)) (pool_29 (F := Ideal) x) idxI_29 idxJ_29
    (by intro t; rw [show stride 29 = 4 by decide, show off 29 = 58 by decide]; omega) (acc_28_eq x) (pool_29_eq x)

/-! ## Stage 30: 1 entries at stride 4, offset 62 -/

theorem idxI_30 (t : Fin 1) : ((idx_30 (F := Ideal)) (ix2 t 0)).toInt = ((stride 30 * t.val : ℕ) : ℤ) := by
  have e : t = 0 := Subsingleton.elim _ _
  subst e
  exact (congrArg BitVec.toInt ((idx_col0 bcast_S1_S1x1_0 concatenates_S1x1_S1x1_S1x2_d1 (ixI_30 (F := Ideal)) (ixJ_30 (F := Ideal)) 0).trans
    (select_false_apply _ _ (ix1 0)))).trans (by decide)
theorem idxJ_30 (t : Fin 1) : ((idx_30 (F := Ideal)) (ix2 t 1)).toInt = ((stride 30 * t.val + off 30 : ℕ) : ℤ) := by
  have e : t = 0 := Subsingleton.elim _ _
  subst e
  exact (congrArg BitVec.toInt ((idx_col1 bcast_S1_S1x1_0 concatenates_S1x1_S1x1_S1x2_d1 (ixI_30 (F := Ideal)) (ixJ_30 (F := Ideal)) 0).trans
    (select_false_apply _ _ (ix1 0)))).trans (by decide)
theorem pool_30_eq (x : FVec Ideal S32x512x64 .f32) :
    ∀ (b : Fin 32) (c : Fin 512) (t : Fin 1), pool_30 (F := Ideal) x (ix3 b c t) = P (rowOf x b c) 30 t.val :=
  pool_step2 x (pool_29 (F := Ideal) x) _ reduceWindows_S32x512x2_S32x512x1_w1s1p0_0_w1s1p0_0_w2s1p0_0 h_S_
    (init_bot bcast_S_S_ h_S_) 29 (by decide) (by decide) (pool_29_eq x)
theorem acc_30_eq (x : FVec Ideal S32x512x64 .f32) :
    ∀ (b : Fin 32) (c : Fin 512) (i j : Fin 64), acc_30 (F := Ideal) x (ix4 b c i j) = A (rowOf x b c) 31 i.val j.val :=
  acc_step 30 x scatter_S32x512x64x64_S1x2_S32x512x1_01_23_23_1 rfl rfl rfl rfl (acc_29 (F := Ideal) x)
    (idx_30 (F := Ideal)) (pool_30 (F := Ideal) x) idxI_30 idxJ_30
    (by intro t; rw [show stride 30 = 4 by decide, show off 30 = 62 by decide]; omega) (acc_29_eq x) (pool_30_eq x)

end Cert.RefValue

end
-- ==== Proof.RefValue.lean ====
/-
  The reference's result, as a term of its argument array, is the specification.

  The term is the map after the last of the thirty-one stages. Stage by stage the map after stage s is the map A after
  the first s + 1 stages (the stage lemmas, instantiated stage by stage in the table of stages), and after all thirty-one
  stages A is the sparse map G of every row, because the offsets of the stages are pairwise different.
-/
import proofs.«156021_j19232863551513_2_alg».proof.Proof.RefValueStages

noncomputable section

namespace Cert.RefValue

open Idealize.ShloMosaic Idealize.ShloMosaic.ValueIdx

/-- The reference's first result is, at every entry (b, c, i, j), entry (i, j) of the sparse map of row (b, c) of its
    argument. -/
theorem result_eq (x : FVec Ideal Cert.ReferenceIdeal.S32x512x64 .f32) :
    Cert.RefTerm.res_main_v370 (F := Ideal) x = Cert.Spec.G4 x := by
  funext i
  obtain ⟨b, c, p, q, rfl⟩ : ∃ (b : Fin 32) (c : Fin 512) (p q : Fin 64), i = ix4 b c p q :=
    ⟨i 0, i 1, i 2, i 3, eq_ix4 i⟩
  exact (acc_30_eq x b c p q).trans (A_31 _ _ _ q.isLt)

end Cert.RefValue

end
-- ==== Proof.MaskEq.lean ====
/-
  The second result, the map's occupancy mask, is the same literal 64 by 64 table in both programs: the two printed
  constants agree at each of their 4096 entries.
-/
import proofs.«156021_j19232863551513_2_alg».proof.KernelIdeal
import proofs.«156021_j19232863551513_2_alg».proof.ReferenceIdeal

namespace Cert.MaskEq

set_option maxRecDepth 65536 in
theorem lit_eq : ∀ n : Fin 4096, Cert.KernelIdeal.lit0 n = Cert.ReferenceIdeal.lit60 n := by decide +kernel

end Cert.MaskEq
-- ==== Proof.lean ====
/-
  The kernel writes, for every row of the input, the row's sparse 64 by 64 map of pooled maxima; the reference scatters
  the same thirty-one pooling stages into a map of zeros. Both are proved equal to one function of the input, Cert.Spec.G4
  (Proof/Spec.lean): the kernel through the block its body leaves at each grid point (Proof/KernelBlock.lean, over the
  stage and row-pair modules) and the run of its program around the region (Proof/KernelRun.lean); the reference through
  its run read back as a term (Proof/RefRun.lean over Proof/RefTerm.lean) and that term read index by index
  (Proof/RefValue.lean). At a column of a map row the kernel adds one pooled value and zeros, which on the extended reals
  is that value; a maximum against the reference's initial value, minus infinity, is the other operand; no finiteness of the
  input is used. The second result is one literal table in both programs (Proof/MaskEq.lean). The two kernel programs'
  frames are the generated frame certificates, in the copies Proof/KernelFrameP.lean and Proof/KernelIdealFrameP.lean; the
  reference's frame is its run with the results dropped; the idealization rewrote nothing.
-/
import proofs.«156021_j19232863551513_2_alg».proof.Defs
import proofs.«156021_j19232863551513_2_alg».proof.Proof.Gen.Kernel
import proofs.«156021_j19232863551513_2_alg».proof.Proof.Gen.KernelIdeal
import proofs.«156021_j19232863551513_2_alg».proof.Proof.Gen.ReferenceIdeal
import proofs.«156021_j19232863551513_2_alg».proof.Proof.Gen.Pre_finite_inputs
import proofs.«156021_j19232863551513_2_alg».proof.Proof.KernelFrameP
import proofs.«156021_j19232863551513_2_alg».proof.Proof.KernelIdealFrameP
import proofs.«156021_j19232863551513_2_alg».proof.Proof.KernelBlock
import proofs.«156021_j19232863551513_2_alg».proof.Proof.KernelRun
import proofs.«156021_j19232863551513_2_alg».proof.Proof.RefRun
import proofs.«156021_j19232863551513_2_alg».proof.Proof.RefValue
import proofs.«156021_j19232863551513_2_alg».proof.Proof.MaskEq
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The reference's frame: its run, the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.RefRun.run m ρ)

/-- Both idealized programs end with the map of every input row in the first result and the literal mask in the second. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelRun.run Cert.KernelBlock.out_eq m ρ, ?_⟩
  refine (θ_run Cert.ReferenceIdeal.defs _ _).mono (fun _ h c => ⟨?_, ?_, (h c).2.2⟩) (Cert.RefRun.run m' ρ')
  · rw [(h c).1, Cert.RefValue.result_eq, hagree c]
  · rw [(h c).2.1]
    funext i
    exact (Cert.MaskEq.lit_eq _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
